-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x20 : Shape := ⟨2, ![16384, 20]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384x20 : S_.BroadcastsInDim S16384x20 (![] : Fin 0 → Fin S16384x20.rank)
  reducesTo_S16384x20_S_d0_1 : S16384x20.ReducesTo [0, 1] S_

variable [Facts]

def fn {F : FTy → Type} [FloatOps F] (main_arg0 : IVec S16384x20 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384x20 32 := broadcastInDim S16384x20 ![] bcast_S_S16384x20 main_c_0
  let main_v5 : IVec S16384x20 1 := cmpi .sge main_arg0 main_v4
  let main_c_1 : IVec S_ 32 := constantI S_ 32 99999#32
  let main_v6 : IVec S16384x20 32 := broadcastInDim S16384x20 ![] bcast_S_S16384x20 main_c_1
  let main_v7 : IVec S16384x20 1 := cmpi .sle main_arg0 main_v6
  let main_v8 : IVec S16384x20 1 := andi main_v5 main_v7
  let main_c_2 : IVec S_ 1 := constantI S_ 1 1#1
  let main_v9 : IVec S_ 1 := (fun x v => Host.reduce IntOp.andi x v reducesTo_S16384x20_S_d0_1 h_S_) main_v8 main_c_2
  let main_v10 : IVec S_ 1 := andi main_v3 main_v9
  main_v10
-- ==== Kernel.lean ====
abbrev S16384x20 : Shape := ⟨2, ![16384, 20]⟩
abbrev S100000x128 : Shape := ⟨2, ![100000, 128]⟩
abbrev S32x160x64 : Shape := ⟨3, ![32, 160, 64]⟩
abbrev S327680x128 : Shape := ⟨2, ![327680, 128]⟩
abbrev S160x64 : Shape := ⟨2, ![160, 64]⟩
abbrev S64x128 : Shape := ⟨2, ![64, 128]⟩
abbrev S_ : Shape := ⟨0, ![]⟩
abbrev S1x160x64 : Shape := ⟨3, ![1, 160, 64]⟩
abbrev S1x64 : Shape := ⟨2, ![1, 64]⟩
abbrev S64 : Shape := ⟨1, ![64]⟩
abbrev S16384x20x128 : Shape := ⟨3, ![16384, 20, 128]⟩

abbrev nBuf : Table → Nat
  | .hbm => 5
  | .local .scVector .vmem => 11
  | _ => 0

abbrev bufTy : (tb : Table) → Fin (nBuf tb) → BufTy
  | .hbm, ⟨0, _⟩ => ⟨S16384x20, .i32⟩
  | .hbm, ⟨1, _⟩ => ⟨S100000x128, .f32⟩
  | .hbm, ⟨2, _⟩ => ⟨S32x160x64, .i32⟩
  | .hbm, ⟨3, _⟩ => ⟨S327680x128, .f32⟩
  | .hbm, ⟨4, _⟩ => ⟨S16384x20x128, .f32⟩
  | .local .scVector .vmem, ⟨0, _⟩ => ⟨S160x64, .i32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | .local .scVector .vmem, ⟨10, _⟩ => ⟨S64x128, .f32⟩
  | _, _ => ⟨S16384x20, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_237_r0 : BitVec 32 := 0#32
  let c0_i32_238_r0 : BitVec 32 := 0#32
  ![v1.toNat, 0, 0]
def k0_off2 (i : grid0.Coords) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v36 : BitVec 32 := Scalar.addi v2 c0_i32_35
  let c0_i32_36 : BitVec 32 := 0#32
  ![v36.toNat, 0]
def k0_off2_at (r : Fin 24) : BitVec 32 :=
  if r.val < 12 then
    if r.val < 6 then
      if r.val < 3 then
        if r.val < 1 then
          0#32
        else
          if r.val < 2 then
            64#32
          else
            128#32
      else
        if r.val < 4 then
          192#32
        else
          if r.val < 5 then
            256#32
          else
            320#32
    else
      if r.val < 9 then
        if r.val < 7 then
          384#32
        else
          if r.val < 8 then
            448#32
          else
            512#32
      else
        if r.val < 10 then
          576#32
        else
          if r.val < 11 then
            9600#32
          else
            9344#32
  else
    if r.val < 18 then
      if r.val < 15 then
        if r.val < 13 then
          9664#32
        else
          if r.val < 14 then
            9408#32
          else
            9728#32
      else
        if r.val < 16 then
          9472#32
        else
          if r.val < 17 then
            9792#32
          else
            9536#32
    else
      if r.val < 21 then
        if r.val < 19 then
          9856#32
        else
          if r.val < 20 then
            9920#32
          else
            9984#32
      else
        if r.val < 22 then
          10048#32
        else
          if r.val < 23 then
            10112#32
          else
            10176#32
@[reducible] def k0_t1_loop : Scf.Loop 32 :=
  let c1_i32_129 : BitVec 32 := 1#32
  let c14_i32_130 : BitVec 32 := 14#32
  let v129 : BitVec 32 := Scalar.addi c1_i32_129 c14_i32_130
  let c1_i32_131 : BitVec 32 := 1#32
  ⟨c1_i32_129, v129, c1_i32_131⟩
def k0_off3 (k0_t1 : Fin k0_t1_loop.trips) (c0_i32_238 : BitVec 32) : Fin 2 → Nat :=
  let c10_i32_237 : BitVec 32 := 10#32
  let c1_i32_129 : BitVec 32 := 1#32
  let c1_i32_131 : BitVec 32 := 1#32
  let arg36 : BitVec 32 := Scf.iv c1_i32_129 c1_i32_131 k0_t1
  let v245 : BitVec 32 := Scalar.muli c10_i32_237 arg36
  let v246 : BitVec 32 := Scalar.addi v245 c0_i32_238
  let c0_i32_239 : BitVec 32 := 0#32
  ![v246.toNat, 0]
def k0_off4 (i : grid0.Coords) (k0_t1 : Fin k0_t1_loop.trips) (c0_i32_238 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c10_i32_237 : BitVec 32 := 10#32
  let c1_i32_129 : BitVec 32 := 1#32
  let c1_i32_131 : BitVec 32 := 1#32
  let arg36 : BitVec 32 := Scf.iv c1_i32_129 c1_i32_131 k0_t1
  let v245 : BitVec 32 := Scalar.muli c10_i32_237 arg36
  let v246 : BitVec 32 := Scalar.addi v245 c0_i32_238
  let c64_i32_242 : BitVec 32 := 64#32
  let v250 : BitVec 32 := Scalar.muli v246 c64_i32_242
  let v251 : BitVec 32 := Scalar.addi v2 v250
  let c0_i32_243 : BitVec 32 := 0#32
  ![v251.toNat, 0]
def k0_off5 (i : grid0.Coords) (k0_t1 : Fin k0_t1_loop.trips) (c0_i32_238 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let c10_i32_237 : BitVec 32 := 10#32
  let c1_i32_129 : BitVec 32 := 1#32
  let c1_i32_131 : BitVec 32 := 1#32
  let arg36 : BitVec 32 := Scf.iv c1_i32_129 c1_i32_131 k0_t1
  let v245 : BitVec 32 := Scalar.muli c10_i32_237 arg36
  let v246 : BitVec 32 := Scalar.addi v245 c0_i32_238
  let c10_i32_245 : BitVec 32 := 10#32
  let v254 : BitVec 32 := Scalar.addi v246 c10_i32_245
  let c4_i32_246 : BitVec 32 := 4#32
  let v255 : BitVec 32 := Scalar.subi v254 c4_i32_246
  let c10_i32_247 : BitVec 32 := 10#32
  let v256 : BitVec 32 := Scalar.subi v255 c10_i32_247
  let c64_i32_248 : BitVec 32 := 64#32
  let v257 : BitVec 32 := Scalar.muli v256 c64_i32_248
  let v258 : BitVec 32 := Scalar.addi v2 v257
  let c0_i32_249 : BitVec 32 := 0#32
  ![v258.toNat, 0]
def k0_off6 (k0_t1 : Fin k0_t1_loop.trips) (c0_i32_238 : BitVec 32) : Fin 2 → Nat :=
  let c10_i32_237 : BitVec 32 := 10#32
  let c1_i32_129 : BitVec 32 := 1#32
  let c1_i32_131 : BitVec 32 := 1#32
  let arg36 : BitVec 32 := Scf.iv c1_i32_129 c1_i32_131 k0_t1
  let v245 : BitVec 32 := Scalar.muli c10_i32_237 arg36
  let v246 : BitVec 32 := Scalar.addi v245 c0_i32_238
  let c10_i32_245 : BitVec 32 := 10#32
  let v254 : BitVec 32 := Scalar.addi v246 c10_i32_245
  let c4_i32_246 : BitVec 32 := 4#32
  let v255 : BitVec 32 := Scalar.subi v254 c4_i32_246
  let c0_i32_251 : BitVec 32 := 0#32
  ![v255.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x20_S32x160x64 : S16384x20.ShapeCasts S32x160x64
  squeezes_S1x160x64_S160x64 : S1x160x64.Squeezes S160x64
  inb_S160x64_S1x64_0_0 : ∀ a, (![0, 0] : Fin 2 → Nat) a + S1x64.size a ≤ S160x64.size a
  squeezes_S1x64_S64 : S1x64.Squeezes S64
  inb_S100000x128_S100000x128_0_0 : ∀ a, (![0, 0] : Fin 2 → Nat) a + S100000x128.size a ≤ S100000x128.size a
  gathers_S100000x128_S64x128 : S100000x128.Gathers 0 S64x128
  inb_S160x64_S1x64_1_0 : ∀ a, (![1, 0] : Fin 2 → Nat) a + S1x64.size a ≤ S160x64.size a
  inb_S160x64_S1x64_2_0 : ∀ a, (![2, 0] : Fin 2 → Nat) a + S1x64.size a ≤ S160x64.size a
  inb_S160x64_S1x64_3_0 : ∀ a, (![3, 0] : Fin 2 → Nat) a + S1x64.size a ≤ S160x64.size a
  inb_S160x64_S1x64_4_0 : ∀ a, (![4, 0] : Fin 2 → Nat) a + S1x64.size a ≤ S160x64.size a
  inb_S160x64_S1x64_5_0 : ∀ a, (![5, 0] : Fin 2 → Nat) a + S1x64.size a ≤ S160x64.size a
  inb_S160x64_S1x64_6_0 : ∀ a, (![6, 0] : Fin 2 → Nat) a + S1x64.size a ≤ S160x64.size a
  inb_S160x64_S1x64_7_0 : ∀ a, (![7, 0] : Fin 2 → Nat) a + S1x64.size a ≤ S160x64.size a
  inb_S160x64_S1x64_8_0 : ∀ a, (![8, 0] : Fin 2 → Nat) a + S1x64.size a ≤ S160x64.size a
  inb_S160x64_S1x64_9_0 : ∀ a, (![9, 0] : Fin 2 → Nat) a + S1x64.size a ≤ S160x64.size a
  inb_S160x64_S1x64_10_0 : ∀ a, (![10, 0] : Fin 2 → Nat) a + S1x64.size a ≤ S160x64.size a
  inb_S160x64_S1x64_11_0 : ∀ a, (![11, 0] : Fin 2 → Nat) a + S1x64.size a ≤ S160x64.size a
  inb_S160x64_S1x64_12_0 : ∀ a, (![12, 0] : Fin 2 → Nat) a + S1x64.size a ≤ S160x64.size a
  inb_S160x64_S1x64_13_0 : ∀ a, (![13, 0] : Fin 2 → Nat) a + S1x64.size a ≤ S160x64.size a
  inb_S160x64_S1x64_14_0 : ∀ a, (![14, 0] : Fin 2 → Nat) a + S1x64.size a ≤ S160x64.size a
  inb_S160x64_S1x64_15_0 : ∀ a, (![15, 0] : Fin 2 → Nat) a + S1x64.size a ≤ S160x64.size a
  inb_S160x64_S1x64_150_0 : ∀ a, (![150, 0] : Fin 2 → Nat) a + S1x64.size a ≤ S160x64.size a
  inb_S160x64_S1x64_156_0 : ∀ a, (![156, 0] : Fin 2 → Nat) a + S1x64.size a ≤ S160x64.size a
  inb_S160x64_S1x64_151_0 : ∀ a, (![151, 0] : Fin 2 → Nat) a + S1x64.size a ≤ S160x64.size a
  inb_S160x64_S1x64_157_0 : ∀ a, (![157, 0] : Fin 2 → Nat) a + S1x64.size a ≤ S160x64.size a
  inb_S160x64_S1x64_152_0 : ∀ a, (![152, 0] : Fin 2 → Nat) a + S1x64.size a ≤ S160x64.size a
  inb_S160x64_S1x64_158_0 : ∀ a, (![158, 0] : Fin 2 → Nat) a + S1x64.size a ≤ S160x64.size a
  inb_S160x64_S1x64_153_0 : ∀ a, (![153, 0] : Fin 2 → Nat) a + S1x64.size a ≤ S160x64.size a
  inb_S160x64_S1x64_159_0 : ∀ a, (![159, 0] : Fin 2 → Nat) a + S1x64.size a ≤ S160x64.size a
  inb_S160x64_S1x64_154_0 : ∀ a, (![154, 0] : Fin 2 → Nat) a + S1x64.size a ≤ S160x64.size a
  inb_S160x64_S1x64_155_0 : ∀ a, (![155, 0] : Fin 2 → Nat) a + S1x64.size a ≤ S160x64.size a
  shapeCasts_S327680x128_S16384x20x128 : S327680x128.ShapeCasts S16384x20x128
  hcc0_scratch11 : 0 + S_.numel ≤ 21
  hcc0_scratch12 : 1 + S_.numel ≤ 21
  hcc0_scratch13 : 2 + S_.numel ≤ 21
  hcc0_scratch14 : 3 + S_.numel ≤ 21
  hcc0_scratch15 : 4 + S_.numel ≤ 21
  hcc0_scratch16 : 5 + S_.numel ≤ 21
  hcc0_scratch17 : 6 + S_.numel ≤ 21
  hcc0_scratch18 : 7 + S_.numel ≤ 21
  hcc0_scratch19 : 8 + S_.numel ≤ 21
  hcc0_scratch20 : 9 + S_.numel ≤ 21
  hcc0_scratch21 : 10 + S_.numel ≤ 21
  hcc0_scratch22 : 11 + S_.numel ≤ 21
  hcc0_scratch23 : 12 + S_.numel ≤ 21
  hcc0_scratch24 : 13 + S_.numel ≤ 21
  hcc0_scratch25 : 14 + S_.numel ≤ 21
  hcc0_scratch26 : 15 + S_.numel ≤ 21
  hcc0_scratch27 : 16 + S_.numel ≤ 21
  hcc0_scratch28 : 17 + S_.numel ≤ 21
  hcc0_scratch29 : 18 + S_.numel ≤ 21
  hcc0_scratch30 : 19 + S_.numel ≤ 21
  hcc0_scoped0 : 20 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x160x64.size a ≤ S32x160x64.size a
  k0_off2_inb : ∀ i : grid0.Coords, ∀ (r : Fin 24), ∀ a, (k0_off2 i (k0_off2_at r)) a + S64x128.size a ≤ S327680x128.size a
  k0_t1_ok : k0_t1_loop.OK
  k0_off3_inb : ∀ k0_t1 : Fin k0_t1_loop.trips, ∀ (r : Fin 10), ∀ a, (k0_off3 k0_t1 (BitVec.ofNat 32 r.val)) a + S1x64.size a ≤ S160x64.size a
  k0_off4_inb : ∀ (i : grid0.Coords) (k0_t1 : Fin k0_t1_loop.trips), ∀ (r : Fin 10), ∀ a, (k0_off4 i k0_t1 (BitVec.ofNat 32 r.val)) a + S64x128.size a ≤ S327680x128.size a
  k0_off5_inb : ∀ (i : grid0.Coords) (k0_t1 : Fin k0_t1_loop.trips), ∀ (r : Fin 10), ∀ a, (k0_off5 i k0_t1 (BitVec.ofNat 32 r.val)) a + S64x128.size a ≤ S327680x128.size a
  k0_off6_inb : ∀ k0_t1 : Fin k0_t1_loop.trips, ∀ (r : Fin 10), ∀ a, (k0_off6 k0_t1 (BitVec.ofNat 32 r.val)) a + S1x64.size a ≤ S160x64.size a

variable [Facts₀]

abbrev cc0_scratch11 : DmaSems sig S_ := SemArray.consecutive 0 S_ hcc0_scratch11
abbrev cc0_scratch12 : DmaSems sig S_ := SemArray.consecutive 1 S_ hcc0_scratch12
abbrev cc0_scratch13 : DmaSems sig S_ := SemArray.consecutive 2 S_ hcc0_scratch13
abbrev cc0_scratch14 : DmaSems sig S_ := SemArray.consecutive 3 S_ hcc0_scratch14
abbrev cc0_scratch15 : DmaSems sig S_ := SemArray.consecutive 4 S_ hcc0_scratch15
abbrev cc0_scratch16 : DmaSems sig S_ := SemArray.consecutive 5 S_ hcc0_scratch16
abbrev cc0_scratch17 : DmaSems sig S_ := SemArray.consecutive 6 S_ hcc0_scratch17
abbrev cc0_scratch18 : DmaSems sig S_ := SemArray.consecutive 7 S_ hcc0_scratch18
abbrev cc0_scratch19 : DmaSems sig S_ := SemArray.consecutive 8 S_ hcc0_scratch19
abbrev cc0_scratch20 : DmaSems sig S_ := SemArray.consecutive 9 S_ hcc0_scratch20
abbrev cc0_scratch21 : DmaSems sig S_ := SemArray.consecutive 10 S_ hcc0_scratch21
abbrev cc0_scratch22 : DmaSems sig S_ := SemArray.consecutive 11 S_ hcc0_scratch22
abbrev cc0_scratch23 : DmaSems sig S_ := SemArray.consecutive 12 S_ hcc0_scratch23
abbrev cc0_scratch24 : DmaSems sig S_ := SemArray.consecutive 13 S_ hcc0_scratch24
abbrev cc0_scratch25 : DmaSems sig S_ := SemArray.consecutive 14 S_ hcc0_scratch25
abbrev cc0_scratch26 : DmaSems sig S_ := SemArray.consecutive 15 S_ hcc0_scratch26
abbrev cc0_scratch27 : DmaSems sig S_ := SemArray.consecutive 16 S_ hcc0_scratch27
abbrev cc0_scratch28 : DmaSems sig S_ := SemArray.consecutive 17 S_ hcc0_scratch28
abbrev cc0_scratch29 : DmaSems sig S_ := SemArray.consecutive 18 S_ hcc0_scratch29
abbrev cc0_scratch30 : DmaSems sig S_ := SemArray.consecutive 19 S_ hcc0_scratch30
abbrev cc0_scoped0 : DmaSems sig S_ := SemArray.consecutive 20 S_ hcc0_scoped0

class Facts : Prop extends Facts₀ where

variable [Facts]
-- ==== ReferenceIdeal.lean ====
abbrev S16384x20 : Shape := ⟨2, ![16384, 20]⟩
abbrev S100000x128 : Shape := ⟨2, ![100000, 128]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S100000x128, .f32⟩
  | .hbm, ⟨2, _⟩ => ⟨S_, .i32⟩
  | .hbm, ⟨3, _⟩ => ⟨S16384x20, .i32⟩
  | .hbm, ⟨4, _⟩ => ⟨S16384x20, .i1⟩
  | .hbm, ⟨5, _⟩ => ⟨S_, .i32⟩
  | .hbm, ⟨6, _⟩ => ⟨S16384x20, .i32⟩
  | .hbm, ⟨7, _⟩ => ⟨S16384x20, .i32⟩
  | .hbm, ⟨8, _⟩ => ⟨S16384x20, .i32⟩
  | .hbm, ⟨9, _⟩ => ⟨S16384x20x1, .i32⟩
  | .hbm, ⟨10, _⟩ => ⟨S1, .i32⟩
  | .hbm, ⟨11, _⟩ => ⟨S_, .i32⟩
  | .hbm, ⟨12, _⟩ => ⟨S16384x20x1, .i32⟩
  | .hbm, ⟨13, _⟩ => ⟨S16384x20x1, .i1⟩
  | .hbm, ⟨14, _⟩ => ⟨S1x1x1, .i32⟩
  | .hbm, ⟨15, _⟩ => ⟨S16384x20x1, .i32⟩
  | .hbm, ⟨16, _⟩ => ⟨S16384x20x1, .i1⟩
  | .hbm, ⟨17, _⟩ => ⟨S16384x20x1, .i1⟩
  | .hbm, ⟨18, _⟩ => ⟨S_, .i1⟩
  | .hbm, ⟨19, _⟩ => ⟨S16384x20, .i1⟩
  | .hbm, ⟨20, _⟩ => ⟨S16384x20x128, .f32⟩
  | .hbm, ⟨21, _⟩ => ⟨S16384x20x128, .i1⟩
  | .hbm, ⟨22, _⟩ => ⟨S_, .f32⟩
  | .hbm, ⟨23, _⟩ => ⟨S16384x20x128, .f32⟩
  | .hbm, ⟨24, _⟩ => ⟨S16384x20x128, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  bcast_S16384x20_S16384x20x128_0_1 : S16384x20.BroadcastsInDim S16384x20x128 (![0, 1] : Fin 2 → Fin S16384x20x128.rank)
  bcast_S_S16384x20x128 : S_.BroadcastsInDim S16384x20x128 (![] : Fin 0 → Fin S16384x20x128.rank)
  gather_S100000x128_S16384x20x1_S16384x20x128_2_0_n_n_0_2_1128_wf : GatherDims.WF S100000x128 S16384x20x1 S16384x20x128 [2] [0] [] [0] [] 2 ![1, 128]

variable [Facts₀]

def gather_S100000x128_S16384x20x1_S16384x20x128_2_0_n_n_0_2_1128 : GatherDims S100000x128 S16384x20x1 S16384x20x128 where
  offsetDims := [2]
  collapsedSliceDims := [0]
  operandBatchingDims := []
  startIndicesBatchingDims := []
  startIndexMap := [0]
  indexVectorDim := 2
  sliceSizes := ![1, 128]
  wf := gather_S100000x128_S16384x20x1_S16384x20x128_2_0_n_n_0_2_1128_wf

class Facts : Prop extends Facts₀ where

variable [Facts]
-- ==== Proof.Spec.lean ====
/-
  The specification both programs are compared against: an embedding lookup. `x` holds 16384 × 20 row numbers, `W` a table
  of 100000 rows of 128 entries; the result's entry `(i, j, d)` is entry `d` of the row of `W` that `x (i, j)` names.
  A row number is read as a natural number reduced below 100000, so that the lookup is a total function; for a row
  number already below 100000 (`InRange`) the reduction is the identity.

  The kernel works on the flat list of the 327680 row numbers, cut into 32 workers × 160 chunks × 64 entries, and fills a
  flat 327680 × 128 array: flat row `f` of it is the row of `W` named by entry `f` of the flat list (`gathered`).
-/
import Idealize.ShloMosaic.PureOps
import Idealize.ShloMosaic.Lib.ValueIdx

namespace Cert.Spec

open Idealize.ShloMosaic Idealize.ShloMosaic.ValueIdx

/-- The row of the table a 32-bit word names: its value as a natural number, reduced below 100000. -/
def rowOf (v : BitVec 32) : Fin 100000 := ⟨v.toNat % 100000, Nat.mod_lt _ (by decide)⟩

/-- Every row number is a row of the table. -/
def InRange {s : Shape} (x : s.Idx → BitVec 32) : Prop := ∀ i, (x i).toNat < 100000

theorem rowOf_val_of_lt {v : BitVec 32} (h : v.toNat < 100000) : (rowOf v).val = v.toNat := Nat.mod_eq_of_lt h

/-- The lookup: entry `(i, j, d)` is `W (x (i, j), d)`. -/
def lookup {α : Type} (x : (⟨2, ![16384, 20]⟩ : Shape).Idx → BitVec 32) (W : (⟨2, ![100000, 128]⟩ : Shape).Idx → α) :
    (⟨3, ![16384, 20, 128]⟩ : Shape).Idx → α :=
  fun j => W (ix2 (rowOf (x (ix2 (j 0) (j 1)))) (j 2))

/-- Flat row `f < 327680` as (worker, chunk, entry): `f = 10240 · w + 64 · g + r`. -/
def worker (f : Fin 327680) : Fin 32 := ⟨f.val / 10240, by have := f.isLt; omega⟩
def chunk (f : Fin 327680) : Fin 160 := ⟨f.val % 10240 / 64, by omega⟩
def entry (f : Fin 327680) : Fin 64 := ⟨f.val % 64, by omega⟩

/-- What the kernel leaves in its flat output: flat row `f` is the row of `W` that entry `(worker f, chunk f, entry f)` of the
    re-laid row numbers names. -/
def gathered {α : Type} (x3 : (⟨3, ![32, 160, 64]⟩ : Shape).Idx → BitVec 32) (W : (⟨2, ![100000, 128]⟩ : Shape).Idx → α) :
    (⟨2, ![327680, 128]⟩ : Shape).Idx → α :=
  fun j => W (ix2 (rowOf (x3 (ix3 (worker (j 0)) (chunk (j 0)) (entry (j 0))))) (j 1))

end Cert.Spec
-- ==== Proof.Bridge.lean ====
/-
  The two host reshapes around the gather are index equations. The row numbers `x : [16384, 20]` are re-laid as
  `[32, 160, 64]`; the flat result `[327680, 128]` is re-laid as `[16384, 20, 128]`. A reshape keeps the row-major position, and
  the flat row `f = 20 · i + k` of entry `(i, k)` is also the row-major position `10240 · w + 64 · g + r` of
  `(w, g, r) = (f / 10240, f % 10240 / 64, f % 64)` in `[32, 160, 64]`. So reading the flat gather back through the second
  reshape is the lookup `W (x (i, k), d)`.
-/
import Idealize.ShloMosaic.PureOps
import Idealize.ShloMosaic.Lib.ValueIdx
import Idealize.ShloMosaic.Lib.Pipeline.Value
import proofs.«207499_g15272903704957_cont_week2b_486_20_alg».proof.Proof.Spec

namespace Cert.Bridge

open Idealize.ShloMosaic Idealize.ShloMosaic.ValueIdx

/-- Two rank-2 indices with equal coordinates (as naturals) are equal. -/
theorem ix2_congr {n0 n1 : Nat} {a a' : Fin n0} {b b' : Fin n1} (ha : a.val = a'.val) (hb : b.val = b'.val) :
    ix2 a b = ix2 a' b' := by
  rw [Fin.ext ha, Fin.ext hb]

/-- The re-laid row numbers at `(w, g, r)`: the row-major position `p = 10240 · w + 64 · g + r` in `[32, 160, 64]` is the
    position of `(p / 20, p % 20)` in `[16384, 20]`. -/
theorem x3_apply {α : Type} (x : (⟨2, ![16384, 20]⟩ : Shape).Idx → α)
    (h1 : (⟨2, ![16384, 20]⟩ : Shape).ShapeCasts ⟨3, ![32, 160, 64]⟩) (w : Fin 32) (g : Fin 160) (r : Fin 64) :
    shapeCast ⟨3, ![32, 160, 64]⟩ x h1 (ix3 w g r) =
      x (ix2 (⟨(10240 * w.val + 64 * g.val + r.val) / 20, by omega⟩ : Fin 16384)
             (⟨(10240 * w.val + 64 * g.val + r.val) % 20, Nat.mod_lt _ (by decide)⟩ : Fin 20)) := by
  refine shapeCast_apply x h1 (ix3 w g r) _ ?_
  rw [Shape.rowMajor_val_two, Shape.rowMajor_val_three]
  show (10240 * w.val + 64 * g.val + r.val) / 20 * 20 + (10240 * w.val + 64 * g.val + r.val) % 20
      = (w.val * 160 + g.val) * 64 + r.val
  omega

/-- The re-laid row numbers at the (worker, chunk, entry) of flat row `f`: entry `(f / 20, f % 20)` of `x`. -/
theorem x3_flat {α : Type} (x : (⟨2, ![16384, 20]⟩ : Shape).Idx → α)
    (h1 : (⟨2, ![16384, 20]⟩ : Shape).ShapeCasts ⟨3, ![32, 160, 64]⟩) (f : Fin 327680) :
    shapeCast ⟨3, ![32, 160, 64]⟩ x h1 (ix3 (Cert.Spec.worker f) (Cert.Spec.chunk f) (Cert.Spec.entry f)) =
      x (ix2 (⟨f.val / 20, by have := f.isLt; omega⟩ : Fin 16384) (⟨f.val % 20, Nat.mod_lt _ (by decide)⟩ : Fin 20)) := by
  have hf := f.isLt
  refine shapeCast_apply x h1 _ _ ?_
  rw [Shape.rowMajor_val_two, Shape.rowMajor_val_three]
  show f.val / 20 * 20 + f.val % 20 = (f.val / 10240 * 160 + f.val % 10240 / 64) * 64 + f.val % 64
  omega

/-- Re-laying the row numbers keeps every one of them a row of the table. -/
theorem inRange_x3 (x : (⟨2, ![16384, 20]⟩ : Shape).Idx → BitVec 32)
    (h1 : (⟨2, ![16384, 20]⟩ : Shape).ShapeCasts ⟨3, ![32, 160, 64]⟩) (hx : Cert.Spec.InRange x) :
    Cert.Spec.InRange (shapeCast ⟨3, ![32, 160, 64]⟩ x h1) := by
  intro j
  obtain ⟨w, g, r, rfl⟩ : ∃ (w : Fin 32) (g : Fin 160) (r : Fin 64), j = ix3 w g r := ⟨j 0, j 1, j 2, eq_ix3 j⟩
  rw [x3_apply]
  exact hx _

/-- The flat gather at flat row `f`, entry `d`: the row of `W` named by entry `(f / 20, f % 20)` of `x`. -/
theorem gathered_x3_apply {α : Type} (x : (⟨2, ![16384, 20]⟩ : Shape).Idx → BitVec 32) (W : (⟨2, ![100000, 128]⟩ : Shape).Idx → α)
    (h1 : (⟨2, ![16384, 20]⟩ : Shape).ShapeCasts ⟨3, ![32, 160, 64]⟩) (f : Fin 327680) (d : Fin 128) :
    Cert.Spec.gathered (shapeCast ⟨3, ![32, 160, 64]⟩ x h1) W (ix2 f d) =
      W (ix2 (Cert.Spec.rowOf (x (ix2 (⟨f.val / 20, by have := f.isLt; omega⟩ : Fin 16384)
        (⟨f.val % 20, Nat.mod_lt _ (by decide)⟩ : Fin 20)))) d) := by
  show W (ix2 (Cert.Spec.rowOf (shapeCast ⟨3, ![32, 160, 64]⟩ x h1
      (ix3 (Cert.Spec.worker f) (Cert.Spec.chunk f) (Cert.Spec.entry f)))) d) = _
  rw [x3_flat]

/-- The flat gather of the re-laid row numbers, re-laid as `[16384, 20, 128]`, is the lookup. -/
theorem bridge {α : Type} (x : (⟨2, ![16384, 20]⟩ : Shape).Idx → BitVec 32) (W : (⟨2, ![100000, 128]⟩ : Shape).Idx → α)
    (h1 : (⟨2, ![16384, 20]⟩ : Shape).ShapeCasts ⟨3, ![32, 160, 64]⟩)
    (h2 : (⟨2, ![327680, 128]⟩ : Shape).ShapeCasts ⟨3, ![16384, 20, 128]⟩) :
    shapeCast ⟨3, ![16384, 20, 128]⟩ (Cert.Spec.gathered (shapeCast ⟨3, ![32, 160, 64]⟩ x h1) W) h2 = Cert.Spec.lookup x W := by
  funext j
  obtain ⟨i, k, d, rfl⟩ : ∃ (i : Fin 16384) (k : Fin 20) (d : Fin 128), j = ix3 i k d := ⟨j 0, j 1, j 2, eq_ix3 j⟩
  -- the flat row of entry `(i, k)` is `20 · i + k`
  have hf : 20 * i.val + k.val < 327680 := by omega
  rw [shapeCast_apply _ h2 (ix3 i k d) (ix2 (⟨20 * i.val + k.val, hf⟩ : Fin 327680) d) (by
    rw [Shape.rowMajor_val_two, Shape.rowMajor_val_three]
    show (20 * i.val + k.val) * 128 + d.val = (i.val * 20 + k.val) * 128 + d.val
    omega)]
  rw [gathered_x3_apply]
  show W (ix2 (Cert.Spec.rowOf (x (ix2 (⟨(20 * i.val + k.val) / 20, by omega⟩ : Fin 16384)
    (⟨(20 * i.val + k.val) % 20, Nat.mod_lt _ (by decide)⟩ : Fin 20)))) d) = W (ix2 (Cert.Spec.rowOf (x (ix2 i k))) d)
  rw [ix2_congr (a' := i) (b' := k) (a := (⟨(20 * i.val + k.val) / 20, by omega⟩ : Fin 16384))
    (b := (⟨(20 * i.val + k.val) % 20, Nat.mod_lt _ (by decide)⟩ : Fin 20))
    (by show (20 * i.val + k.val) / 20 = i.val; omega) (by show (20 * i.val + k.val) % 20 = k.val; omega)]

end Cert.Bridge
-- ==== Proof.PreRange.lean ====
/-
  The precondition gives the range. The precondition says, of the array of row numbers, that every word read signed lies
  between 0 and 99999; such a word read unsigned is below 100000, so every row number names a row of the table. (The
  other half of the precondition, that the table's entries are finite, is not used.)
-/
import proofs.«207499_g15272903704957_cont_week2b_486_20_alg».proof.Proof.Spec
import proofs.«207499_g15272903704957_cont_week2b_486_20_alg».proof.Proof.Gen.Pre_input_domain
import proofs.«207499_g15272903704957_cont_week2b_486_20_alg».proof.Defs
import Idealize.ShloMosaic.Lib.ReduceAll
import Idealize.ShloMosaic.Lib.ValueIdx

namespace Cert.PreRange

open Idealize.ShloMosaic Idealize.ShloMosaic.ValueIdx

/-- A shape of rank 0 has one index. -/
instance : Subsingleton Cert.Pre_input_domain.S_.Idx := ⟨fun a b => funext fun d => d.elim0⟩

/-- A word that reads signed in [0, 99999] reads unsigned below 100000. -/
theorem toNat_lt_of_signed (v : BitVec 32) (h0 : IntOp.cmpi .sge v 0#32 = 1#1) (h1 : IntOp.cmpi .sle v 99999#32 = 1#1) :
    v.toNat < 100000 := by
  rw [IntOp.cmpi_sge, show (0#32 : BitVec 32).toInt = 0 from by decide] at h0
  rw [IntOp.cmpi_sle, show (99999#32 : BitVec 32).toInt = 99999 from by decide] at h1
  have hc := BitVec.toInt_eq_toNat_cond v
  have hlt := v.isLt
  split at hc <;> omega

/-- The precondition all ones: every row number is below 100000. -/
theorem inRange_of_pre {F : FTy → Type} [FloatOps F] (x : IVec Cert.Pre_input_domain.S16384x20 32)
    (W : FVec F Cert.Pre_input_domain.S100000x128 .f32)
    (h : Cert.Pre_input_domain.fn (F := F) x W = fun _ => 1#1) : Cert.Spec.InRange x := by
  intro i
  have e := congrFun h ix0
  dsimp only [Cert.Pre_input_domain.fn] at e
  -- the conjunction of the two "all"s: keep the second, the one over the row numbers
  have e2 := (IntOp.andi_eq_one.1 e).2
  -- every element of the array under the "all" is 1
  have e3 := Host.reduce_andi_all _ _ _ _ _ e2 i
  -- at i that element is (x i ≥ 0) and (x i ≤ 99999)
  obtain ⟨h0, h1⟩ := IntOp.andi_eq_one.1 e3
  exact toNat_lt_of_signed _ h0 h1

open Idealize.SL.Sem

/-- The kernel's precondition: on every device its array of row numbers is in range. -/
theorem kernel (m : (ℓ : Loc Cert.Kernel.nD Cert.Kernel.τ Cert.Kernel.sig) → Buf (Elt Bits) ℓ) (h : Cert.Pre_Kernel m) :
    ∀ c : Dev Cert.Kernel.nD, Cert.Spec.InRange (m ((c.tc : Thread Cert.Kernel.nD Cert.Kernel.τ).loc Cert.Kernel.main_arg0)) :=
  fun c => inRange_of_pre _ _ (h c)

/-- The idealized kernel's precondition: on every device its array of row numbers is in range. -/
theorem kernelIdeal (m : (ℓ : Loc Cert.KernelIdeal.nD Cert.KernelIdeal.τ Cert.KernelIdeal.sig) → Buf (Elt Ideal) ℓ)
    (h : Cert.Pre_KernelIdeal m) :
    ∀ c : Dev Cert.KernelIdeal.nD,
      Cert.Spec.InRange (m ((c.tc : Thread Cert.KernelIdeal.nD Cert.KernelIdeal.τ).loc Cert.KernelIdeal.main_arg0)) :=
  fun c => inRange_of_pre _ _ (h c)

/-- The idealized reference's precondition: on every device its array of row numbers is in range. -/
theorem referenceIdeal (m : (ℓ : Loc Cert.ReferenceIdeal.nD Cert.ReferenceIdeal.τ Cert.ReferenceIdeal.sig) → Buf (Elt Ideal) ℓ)
    (h : Cert.Pre_ReferenceIdeal m) :
    ∀ c : Dev Cert.ReferenceIdeal.nD,
      Cert.Spec.InRange (m ((c.tc : Thread Cert.ReferenceIdeal.nD Cert.ReferenceIdeal.τ).loc Cert.ReferenceIdeal.main_arg0)) :=
  fun c => inRange_of_pre _ _ (h c)

end Cert.PreRange
-- ==== Proof.KernelIdealRun.Setup.lean ====
/-
  The embedding lookup's kernel as the SparseCore launch theorem sees it: the call's configuration, the ghost state (the
  launch handshakes' rounds beside the local transfers' counters), the arrays as locations of a device, and what the call
  hands each vector subcore and takes back.

  Worker `w = 2·s + c` (vector subcore `s` of SparseCore `c`) owns row `w` of the re-laid row numbers `x3 : [32,160,64]`,
  the flat output rows `[10240·w, 10240·(w+1))`, and a read share of the whole table `W`. It is handed the output rows at
  their launch contents and hands them back holding `Cert.Spec.gathered x3 W`.
-/
import proofs.«207499_g15272903704957_cont_week2b_486_20_alg».proof.KernelIdeal
import proofs.«207499_g15272903704957_cont_week2b_486_20_alg».proof.Proof.Gen.KernelIdeal
import proofs.«207499_g15272903704957_cont_week2b_486_20_alg».proof.Proof.Gen.KernelIdeal.Skeleton
import proofs.«207499_g15272903704957_cont_week2b_486_20_alg».proof.Proof.Spec
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev wLoc (d : Dev nD) : Loc nD τ sig := (SparseCore.T d).loc main_arg1
abbrev x3Loc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.KernelIdealRun

end
-- ==== Proof.KernelIdealRun.Pay.lean ====
/-
  What the SparseCore call hands each worker and takes back, and the statement of one worker's task.

  Worker `w = 2·s + c` (vector subcore `s` of SparseCore `c`) is handed: row `w` of the re-laid row numbers `x3` (its 160 × 64
  entries, outright), a read share of the whole table `W`, and the flat output rows `[10240·w, 10240·(w+1))` at their launch
  contents. It hands back the same, the output rows now holding `Cert.Spec.gathered x3 W`: flat row `f` is the row of `W` named
  by entry `f` of the flat list of row numbers. A SparseCore is handed its sixteen workers' shares together, so the split
  among its workers is the identity.
-/
import proofs.«207499_g15272903704957_cont_week2b_486_20_alg».proof.Proof.KernelIdealRun.Setup

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

-- The launch memory, and what the re-laid row numbers hold when the call starts (the host reshape's result).
variable (m : (ℓ : Loc nD τ sig) → Buf (Elt F) ℓ) (X3 : (d : Dev nD) → Buf (Elt F) (x3Loc d))

/-- Worker number of vector subcore `s` of SparseCore `c`. -/
def wid (c : Fin 2) (s : Fin 16) : Fin 32 := ⟨2 * s.val + c.val, by omega⟩

/-- Row `w` of the re-laid row numbers: the box `[w, w+1) × [0,160) × [0,64)`. -/
theorem x3Row_inb (w : Fin 32) : ∀ a, (![w.val, 0, 0] : Fin 3 → Nat) a + S1x160x64.size a ≤ S32x160x64.size a := by
  have := w.isLt; intro a; fin_cases a <;> simp <;> omega
abbrev x3Row (w : Fin 32) : Rect S32x160x64 := Rect.unit (s := S32x160x64) ![w.val, 0, 0] S1x160x64.size (x3Row_inb w)
/-- The flat output rows of worker `w`: the box `[10240·w, 10240·(w+1)) × [0,128)`. -/
abbrev S10240x128 : Shape := ⟨2, ![10240, 128]⟩
theorem oBlock_inb (w : Fin 32) : ∀ a, (![10240 * w.val, 0] : Fin 2 → Nat) a + S10240x128.size a ≤ S327680x128.size a := by
  have := w.isLt; intro a; fin_cases a <;> simp <;> omega
abbrev oBlock (w : Fin 32) : Rect S327680x128 := Rect.unit (s := S327680x128) ![10240 * w.val, 0] S10240x128.size (oBlock_inb w)

abbrev x3Set (d : Dev nD) (w : Fin 32) : Finset (Idx (x3Loc d)) := (x3Row w).set
abbrev oSet (d : Dev nD) (w : Fin 32) : Finset (Idx (oLoc d)) := (oBlock w).set

/-- Worker `w`'s read share of the table: the `w`-th of 32 read tokens of the full share. -/
abbrev wTok (w : Fin 32) : PosShare TreeShare := Transfers.shareTok fullShare 32 w

/-- What the kernel leaves in the flat output, as contents of the output array. -/
abbrev Gfn (d : Dev nD) : Buf (Elt F) (oLoc d) := Cert.Spec.gathered (X3 d) (m (wLoc d))

/-- Handed to worker `w`; handed back by it. -/
def tileIn (d : Dev nD) (w : Fin 32) : sProp 𝕄 :=
  iprop((x3Loc d ↦[x3Set d w]{fullShare} X3 d) ∗ (wLoc d ↦{wTok w} m (wLoc d)) ∗ (oLoc d ↦[oSet d w]{fullShare} m (oLoc d)))
def tileOut (d : Dev nD) (w : Fin 32) : sProp 𝕄 :=
  iprop((x3Loc d ↦[x3Set d w]{fullShare} X3 d) ∗ (wLoc d ↦{wTok w} m (wLoc d)) ∗ (oLoc d ↦[oSet d w]{fullShare} Gfn m X3 d))

/-- The one call: a SparseCore is handed its sixteen workers' shares, each worker its own. -/
def P : (K (F := F)).Pay (nD := nD) (Val := Elt F) (Name := ℕ) (U := UU) where
  st := fun q d c => match q with | 0 => bigSep Finset.univ fun s : Fin 16 => tileIn m X3 d (wid (Fin.cast nCore_zero c) s)
  dn := fun q d c => match q with | 0 => bigSep Finset.univ fun s : Fin 16 => tileOut m X3 d (wid (Fin.cast nCore_zero c) s)
  go := fun q d c i => match q with | 0 => tileIn m X3 d (wid (Fin.cast nCore_zero c) (Fin.cast nSub_zero i))
  td := fun q d c i => match q with | 0 => tileOut m X3 d (wid (Fin.cast nCore_zero c) (Fin.cast nSub_zero i))
  x := fun _ _ => iprop(emp)

instance P_storable : (P (F := F) m X3).IsStorable where
  st q d c := match q with | 0 => by unfold P tileIn; infer_instance
  dn q d c := match q with | 0 => by unfold P tileOut; infer_instance
  go q d c i := match q with | 0 => by unfold P tileIn; infer_instance
  td q d c i := match q with | 0 => by unfold P tileOut; infer_instance

/-! ## One worker's task, as a statement -/

variable [FloatOps F]

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker at grid coordinates `L`. -/
abbrev widL (L : grid0.Coords) : Fin 32 := wid (Fin.cast bound_zero (L 0)) (Fin.cast bound_one (L 1))

/-- The kernel function at grid coordinates `L`, on the whole arrays and the subcore's scratch, as the body table calls it. -/
abbrev bodyAt (L : grid0.Coords) : Prog (TpuEff nD τ sig (Elt F) Λ₀ (.scVector ((L 0).castLE hcore0) ((L 1).castLE hsub0))) PUnit :=
  cc0_body L (Memref.whole main_v0_scv) (Memref.isWhole_whole _) (Memref.whole main_arg1_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 cc0_scratch14 cc0_scratch15 cc0_scratch16 cc0_scratch17 cc0_scratch18 cc0_scratch19 cc0_scratch20
    cc0_scratch21 cc0_scratch22 cc0_scratch23 cc0_scratch24 cc0_scratch25 cc0_scratch26 cc0_scratch27 cc0_scratch28 cc0_scratch29 cc0_scratch30
    cc0_scoped0

/-- One worker's task: from its share at the launch contents to its share with the output rows gathered; its scratch and
    its semaphores (all at zero) come back as they were handed; every wait it records is at the local index. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileIn m X3 d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt (F := F) L)
          fun _ => iprop(tileOut m X3 d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdealRun

end
-- ==== Proof.KernelIdealRun.Launch.Obl.lean ====
/-
  The launch of the embedding lookup's kernel, first part: what the launch theorem asks about the workers. One worker's
  task, stated once at a symbolic grid point, is the task of every vector subcore of the call's grid; a SparseCore's
  sixteen shares are its sixteen workers' shares, so the split among them is the identity up to re-indexing; and the
  launch element of the ghost state is the handshakes' rounds, the transfers' counters being dropped.
-/
import proofs.«207499_g15272903704957_cont_week2b_486_20_alg».proof.Proof.KernelIdealRun.Pay

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (X3 : (d : Dev nD) → Buf (Elt F) (x3Loc d))

variable [FloatOps F]

/-! ## One worker's task is every vector subcore's -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody (F := F) m X3) : (K (F := F)).TileObl (D (F := F)) 𝒱 (P m X3) v₀ 0 := by
  intro d c i O W hO _ _
  simp only [show (P m X3).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## A SparseCore's shares are its workers' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m X3) 0 := by
  intro d c
  show (bigSep Finset.univ fun s : Fin 16 => tileIn m X3 d (wid (Fin.cast nCore_zero c) s)) ⊢ |={Set.univ}=> iprop(
      (bigSep Finset.univ fun i : Fin ((K (F := F)).nSub 0) => tileIn m X3 d (wid (Fin.cast nCore_zero c) (Fin.cast nSub_zero i)))
      ∗ ((bigSep Finset.univ fun i : Fin ((K (F := F)).nSub 0) => tileOut m X3 d (wid (Fin.cast nCore_zero c) (Fin.cast nSub_zero i)))
          -∗ bigSep Finset.univ fun s : Fin 16 => tileOut m X3 d (wid (Fin.cast nCore_zero c) s)))
  rw [bigSep_tasks (F := F) (fun s => tileIn m X3 d (wid (Fin.cast nCore_zero c) s)),
    bigSep_tasks (F := F) (fun s => tileOut m X3 d (wid (Fin.cast nCore_zero c) s))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X3).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdealRun

end
-- ==== Proof.Cover.lean ====
/-
  The flat output `[327680, 128]` is cut into blocks of rows. Worker `w < 32` owns the 10240 rows from `10240 · w`; within
  them chunk `g < 160` is the 64 rows from `10240 · w + 64 · g`. Distinct (worker, chunk) pairs name disjoint blocks, the
  5120 blocks together are every index of the output, and the 160 chunk blocks of one worker make up that worker's block.
  A flat row `f` lies in the block of `(f / 10240, f % 10240 / 64)`.
-/
import Idealize.ShloMosaic.PureOps
import Idealize.ShloMosaic.Lib.ValueIdx
import Idealize.ShloMosaic.Lib.Pipeline.Value
import proofs.«207499_g15272903704957_cont_week2b_486_20_alg».proof.Proof.Spec

namespace Cert.Cover

open Idealize.ShloMosaic Idealize.ShloMosaic.ValueIdx

/-- A chunk's 64 rows lie inside the output. -/
theorem chunk_inb (w : Fin 32) (g : Fin 160) :
    ∀ a, (![10240 * w.val + 64 * g.val, 0] : Fin 2 → Nat) a + (![64, 128] : Fin 2 → Nat) a ≤ (⟨2, ![327680, 128]⟩ : Shape).size a :=
  Rect.inb₂ (by show 10240 * w.val + 64 * g.val + 64 ≤ 327680; omega) (by show 0 + 128 ≤ 128; omega)

/-- A worker's 10240 rows lie inside the output. -/
theorem worker_inb (w : Fin 32) :
    ∀ a, (![10240 * w.val, 0] : Fin 2 → Nat) a + (![10240, 128] : Fin 2 → Nat) a ≤ (⟨2, ![327680, 128]⟩ : Shape).size a :=
  Rect.inb₂ (by show 10240 * w.val + 10240 ≤ 327680; omega) (by show 0 + 128 ≤ 128; omega)

/-- The block of rows of chunk `g` of worker `w`: rows `10240 · w + 64 · g` to `10240 · w + 64 · g + 63`, all 128 entries. -/
abbrev chunkRect (w : Fin 32) (g : Fin 160) : Rect (⟨2, ![327680, 128]⟩ : Shape) :=
  Rect.unit ![10240 * w.val + 64 * g.val, 0] ![64, 128] (chunk_inb w g)

/-- The block of rows of worker `w`: rows `10240 · w` to `10240 · w + 10239`, all 128 entries. -/
abbrev workerRect (w : Fin 32) : Rect (⟨2, ![327680, 128]⟩ : Shape) :=
  Rect.unit ![10240 * w.val, 0] ![10240, 128] (worker_inb w)

/-- An index lies in a chunk's block exactly when its row does (whatever the in-bounds evidence of the block). -/
theorem mem_chunk_iff (w : Fin 32) (g : Fin 160) (inb) (j : (⟨2, ![327680, 128]⟩ : Shape).Idx) :
    j ∈ (Rect.unit (s := ⟨2, ![327680, 128]⟩) ![10240 * w.val + 64 * g.val, 0] ![64, 128] inb).set ↔
      10240 * w.val + 64 * g.val ≤ (j 0).val ∧ (j 0).val < 10240 * w.val + 64 * g.val + 64 := by
  rw [Rect.mem_set_unit, Fin.forall_fin_two]
  have h1 := idx2_lt1 j
  show (10240 * w.val + 64 * g.val ≤ (j 0).val ∧ (j 0).val < 10240 * w.val + 64 * g.val + 64)
      ∧ (0 ≤ (j 1).val ∧ (j 1).val < 0 + 128) ↔ _
  omega

/-- An index lies in a worker's block exactly when its row does. -/
theorem mem_worker_iff (w : Fin 32) (inb) (j : (⟨2, ![327680, 128]⟩ : Shape).Idx) :
    j ∈ (Rect.unit (s := ⟨2, ![327680, 128]⟩) ![10240 * w.val, 0] ![10240, 128] inb).set ↔
      10240 * w.val ≤ (j 0).val ∧ (j 0).val < 10240 * w.val + 10240 := by
  rw [Rect.mem_set_unit, Fin.forall_fin_two]
  have h1 := idx2_lt1 j
  show (10240 * w.val ≤ (j 0).val ∧ (j 0).val < 10240 * w.val + 10240) ∧ (0 ≤ (j 1).val ∧ (j 1).val < 0 + 128) ↔ _
  omega

/-- The same by quotients: an index lies in the block of chunk `g` of worker `w` exactly when its row `f` has
    `f / 10240 = w` and `f % 10240 / 64 = g`. -/
theorem mem_chunk_iff_worker_chunk (w : Fin 32) (g : Fin 160) (inb) (j : (⟨2, ![327680, 128]⟩ : Shape).Idx) :
    j ∈ (Rect.unit (s := ⟨2, ![327680, 128]⟩) ![10240 * w.val + 64 * g.val, 0] ![64, 128] inb).set ↔
      Cert.Spec.worker (j 0) = w ∧ Cert.Spec.chunk (j 0) = g := by
  rw [mem_chunk_iff, Fin.ext_iff, Fin.ext_iff]
  show _ ↔ (j 0).val / 10240 = w.val ∧ (j 0).val % 10240 / 64 = g.val
  omega

/-- Every index lies in the block its row names. -/
theorem mem_chunk_self (j : (⟨2, ![327680, 128]⟩ : Shape).Idx) :
    j ∈ (chunkRect (Cert.Spec.worker (j 0)) (Cert.Spec.chunk (j 0))).set :=
  (mem_chunk_iff_worker_chunk _ _ _ j).mpr ⟨rfl, rfl⟩

/-- Blocks of distinct (worker, chunk) pairs are disjoint. -/
theorem chunk_disjoint {w w' : Fin 32} {g g' : Fin 160} (inb inb') (h : w ≠ w' ∨ g ≠ g') :
    Disjoint (Rect.unit (s := ⟨2, ![327680, 128]⟩) ![10240 * w.val + 64 * g.val, 0] ![64, 128] inb).set
      (Rect.unit (s := ⟨2, ![327680, 128]⟩) ![10240 * w'.val + 64 * g'.val, 0] ![64, 128] inb').set := by
  refine Rect.unit_disjoint 0 ?_
  show 10240 * w.val + 64 * g.val + 64 ≤ 10240 * w'.val + 64 * g'.val
      ∨ 10240 * w'.val + 64 * g'.val + 64 ≤ 10240 * w.val + 64 * g.val
  have h' : w.val ≠ w'.val ∨ g.val ≠ g'.val := h.imp (fun e => fun c => e (Fin.ext c)) (fun e => fun c => e (Fin.ext c))
  omega

/-- The blocks are pairwise disjoint over the pairs (worker, chunk). -/
theorem chunk_pairwise_disjoint :
    Pairwise (Function.onFun Disjoint fun p : Fin 32 × Fin 160 => (chunkRect p.1 p.2).set) := by
  intro p q hpq
  refine chunk_disjoint _ _ ?_
  by_contra hc
  rw [not_or, not_not, not_not] at hc
  exact hpq (Prod.ext hc.1 hc.2)

/-- The 5120 blocks together are every index of the output. -/
theorem biUnion_chunk :
    (Finset.univ : Finset (Fin 32 × Fin 160)).biUnion (fun p => (chunkRect p.1 p.2).set) = Finset.univ := by
  ext j
  simp only [Finset.mem_biUnion, Finset.mem_univ, true_and, iff_true]
  exact ⟨(Cert.Spec.worker (j 0), Cert.Spec.chunk (j 0)), mem_chunk_self j⟩

/-- The same as a double union, over the workers and then over each worker's chunks. -/
theorem biUnion_biUnion_chunk :
    (Finset.univ : Finset (Fin 32)).biUnion (fun w => (Finset.univ : Finset (Fin 160)).biUnion fun g => (chunkRect w g).set)
      = Finset.univ := by
  ext j
  simp only [Finset.mem_biUnion, Finset.mem_univ, true_and, iff_true]
  exact ⟨Cert.Spec.worker (j 0), Cert.Spec.chunk (j 0), mem_chunk_self j⟩

/-- The 160 chunk blocks of one worker make up that worker's block. -/
theorem biUnion_chunk_worker (w : Fin 32) :
    (Finset.univ : Finset (Fin 160)).biUnion (fun g => (chunkRect w g).set) = (workerRect w).set := by
  ext j
  simp only [Finset.mem_biUnion, Finset.mem_univ, true_and]
  rw [mem_worker_iff]
  constructor
  · rintro ⟨g, hg⟩
    rw [mem_chunk_iff] at hg
    omega
  · intro hj
    refine ⟨⟨((j 0).val - 10240 * w.val) / 64, by omega⟩, (mem_chunk_iff _ _ _ j).mpr ?_⟩
    show 10240 * w.val + 64 * (((j 0).val - 10240 * w.val) / 64) ≤ (j 0).val
      ∧ (j 0).val < 10240 * w.val + 64 * (((j 0).val - 10240 * w.val) / 64) + 64
    omega

/-- Blocks of distinct workers are disjoint. -/
theorem worker_disjoint {w w' : Fin 32} (inb inb') (h : w ≠ w') :
    Disjoint (Rect.unit (s := ⟨2, ![327680, 128]⟩) ![10240 * w.val, 0] ![10240, 128] inb).set
      (Rect.unit (s := ⟨2, ![327680, 128]⟩) ![10240 * w'.val, 0] ![10240, 128] inb').set := by
  refine Rect.unit_disjoint 0 ?_
  show 10240 * w.val + 10240 ≤ 10240 * w'.val ∨ 10240 * w'.val + 10240 ≤ 10240 * w.val
  have h' : w.val ≠ w'.val := fun c => h (Fin.ext c)
  omega

/-- The 32 worker blocks together are every index of the output. -/
theorem biUnion_worker :
    (Finset.univ : Finset (Fin 32)).biUnion (fun w => (workerRect w).set) = Finset.univ := by
  ext j
  simp only [Finset.mem_biUnion, Finset.mem_univ, true_and, iff_true]
  refine ⟨Cert.Spec.worker (j 0), (mem_worker_iff _ _ j).mpr ?_⟩
  show 10240 * ((j 0).val / 10240) ≤ (j 0).val ∧ (j 0).val < 10240 * ((j 0).val / 10240) + 10240
  omega

end Cert.Cover
-- ==== Proof.KernelIdealRun.Launch.Split.lean ====
/-
  The launch of the embedding lookup's kernel, second part: how the three arrays divide among the 32 workers and come
  back together. The re-laid row numbers `[32,160,64]` are the disjoint union of their 32 rows; the flat output
  `[327680,128]` is the disjoint union of the 32 blocks of 10240 rows; the table is read by all, so its full share is cut
  into 32 read tokens beside a remainder that is kept and rejoined. Worker `w = 2·s + c` runs on vector subcore `s` of
  SparseCore `c`: the map `(c, s) ↦ 2·s + c` is a bijection of `2 × 16` onto `32`, so a product over the workers is the
  product over the SparseCores of the products over their subcores.
-/
import proofs.«207499_g15272903704957_cont_week2b_486_20_alg».proof.Proof.KernelIdealRun.Pay
import proofs.«207499_g15272903704957_cont_week2b_486_20_alg».proof.Proof.Cover

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (X3 : (d : Dev nD) → Buf (Elt F) (x3Loc d))

/-! ## The 32 workers as 2 SparseCores × 16 vector subcores -/

theorem wid_injOn : Set.InjOn (fun p : Fin 2 × Fin 16 => wid p.1 p.2) ↑((Finset.univ : Finset (Fin 2)) ×ˢ (Finset.univ : Finset (Fin 16))) := by
  rintro ⟨c, s⟩ - ⟨c', s'⟩ - e
  have e' : 2 * s.val + c.val = 2 * s'.val + c'.val := congrArg Fin.val e
  have hc := c.isLt; have hc' := c'.isLt
  have h1 : c.val = c'.val := by omega
  have h2 : s.val = s'.val := by omega
  exact Prod.ext (Fin.ext h1) (Fin.ext h2)

theorem wid_image : ((Finset.univ : Finset (Fin 2)) ×ˢ (Finset.univ : Finset (Fin 16))).image (fun p => wid p.1 p.2) = Finset.univ := by
  ext w
  simp only [Finset.mem_image, Finset.mem_product, Finset.mem_univ, and_self, true_and, iff_true, Prod.exists]
  have hw := w.isLt
  exact ⟨⟨w.val % 2, by omega⟩, ⟨w.val / 2, by omega⟩, Fin.ext (by show 2 * (w.val / 2) + w.val % 2 = w.val; omega)⟩

/-- A product over the workers, by SparseCore and then by vector subcore. -/
theorem bigSep_workers (Φ : Fin 32 → sProp 𝕄) :
    (bigSep Finset.univ fun c : Fin 2 => bigSep Finset.univ fun s : Fin 16 => Φ (wid c s)) = bigSep Finset.univ Φ := by
  rw [← SparseCore.bigSep_product Finset.univ Finset.univ (fun p : Fin 2 × Fin 16 => Φ (wid p.1 p.2)),
    ← SparseCore.bigSep_image_of_injOn wid_injOn Φ, wid_image]

theorem bigSep_cores (Ψ : Fin 2 → sProp 𝕄) :
    (bigSep Finset.univ fun c : Fin ((K (F := F)).nCore 0) => Ψ (Fin.cast nCore_zero c)) = bigSep Finset.univ Ψ :=
  bigSep_congr fun _ _ => congrArg Ψ (Fin.ext rfl)

/-- What the call takes for the two SparseCores is the 32 workers' shares; and what it hands back. -/
theorem st0_eq (d : Dev nD) :
    (bigSep Finset.univ fun c : Fin ((K (F := F)).nCore 0) => (P m X3).st 0 d c) = bigSep Finset.univ fun w : Fin 32 => tileIn m X3 d w := by
  show (bigSep Finset.univ fun c : Fin ((K (F := F)).nCore 0) => bigSep Finset.univ fun s : Fin 16 => tileIn m X3 d (wid (Fin.cast nCore_zero c) s)) = _
  rw [bigSep_cores (F := F) (fun c => bigSep Finset.univ fun s : Fin 16 => tileIn m X3 d (wid c s)), bigSep_workers (fun w => tileIn m X3 d w)]
theorem dn0_eq (d : Dev nD) :
    (bigSep Finset.univ fun c : Fin ((K (F := F)).nCore 0) => (P m X3).dn 0 d c) = bigSep Finset.univ fun w : Fin 32 => tileOut m X3 d w := by
  show (bigSep Finset.univ fun c : Fin ((K (F := F)).nCore 0) => bigSep Finset.univ fun s : Fin 16 => tileOut m X3 d (wid (Fin.cast nCore_zero c) s)) = _
  rw [bigSep_cores (F := F) (fun c => bigSep Finset.univ fun s : Fin 16 => tileOut m X3 d (wid c s)), bigSep_workers (fun w => tileOut m X3 d w)]

/-! ## The row numbers by rows, the output by blocks -/

theorem x3_disjoint (d : Dev nD) :
    ∀ w ∈ (Finset.univ : Finset (Fin 32)), ∀ w' ∈ (Finset.univ : Finset (Fin 32)), w ≠ w' → Disjoint (x3Set d w) (x3Set d w') := by
  intro w _ w' _ h
  refine Rect.unit_disjoint 0 ?_
  show w.val + 1 ≤ w'.val ∨ w'.val + 1 ≤ w.val
  have h' : w.val ≠ w'.val := fun c => h (Fin.ext c)
  omega

theorem x3_cover (d : Dev nD) : (Finset.univ : Finset (Fin 32)).biUnion (x3Set d) = Finset.univ := by
  ext j
  simp only [Finset.mem_biUnion, Finset.mem_univ, true_and, iff_true]
  refine ⟨j 0, Rect.mem_set_unit.mpr fun a => ?_⟩
  fin_cases a
  · show (j 0).val ≤ (j 0).val ∧ (j 0).val < (j 0).val + 1; omega
  · show 0 ≤ (j 1).val ∧ (j 1).val < 0 + 160; exact ⟨Nat.zero_le _, lt_of_lt_of_eq (j 1).isLt rfl⟩
  · show 0 ≤ (j 2).val ∧ (j 2).val < 0 + 64; exact ⟨Nat.zero_le _, lt_of_lt_of_eq (j 2).isLt rfl⟩

theorem x3_rows (d : Dev nD) (f : Buf (Elt F) (x3Loc d)) :
    (x3Loc d ↦{fullShare} f : sProp 𝕄) = bigSep Finset.univ fun w : Fin 32 => x3Loc d ↦[x3Set d w]{fullShare} f := by
  rw [← pointsTo_biUnion Finset.univ (ℓ := x3Loc d) (x3Set d) (x3_disjoint d), x3_cover]; try rfl

theorem o_disjoint (d : Dev nD) :
    ∀ w ∈ (Finset.univ : Finset (Fin 32)), ∀ w' ∈ (Finset.univ : Finset (Fin 32)), w ≠ w' → Disjoint (oSet d w) (oSet d w') :=
  fun w _ w' _ h => Cert.Cover.worker_disjoint _ _ h

theorem o_cover (d : Dev nD) : (Finset.univ : Finset (Fin 32)).biUnion (oSet d) = Finset.univ := Cert.Cover.biUnion_worker

theorem o_blocks (d : Dev nD) (f : Buf (Elt F) (oLoc d)) :
    (oLoc d ↦{fullShare} f : sProp 𝕄) = bigSep Finset.univ fun w : Fin 32 => oLoc d ↦[oSet d w]{fullShare} f := by
  rw [← pointsTo_biUnion Finset.univ (ℓ := oLoc d) (oSet d) (o_disjoint d), o_cover]; try rfl

/-! ## Out to the workers and back -/

/-- What is kept of the table's full share while the 32 read tokens are out. -/
abbrev wRest : PosShare TreeShare := Transfers.shareDrop fullShare 32

theorem tilesIn_eq (d : Dev nD) :
    (bigSep Finset.univ fun w : Fin 32 => tileIn m X3 d w)
      = iprop((x3Loc d ↦{fullShare} X3 d) ∗ (bigSep Finset.univ fun w : Fin 32 => wLoc d ↦{wTok w} m (wLoc d)) ∗ (oLoc d ↦{fullShare} m (oLoc d))) := by
  unfold tileIn
  rw [bigSep_sep', bigSep_sep', ← x3_rows, ← o_blocks]

theorem tilesOut_eq (d : Dev nD) :
    (bigSep Finset.univ fun w : Fin 32 => tileOut m X3 d w)
      = iprop((x3Loc d ↦{fullShare} X3 d) ∗ (bigSep Finset.univ fun w : Fin 32 => wLoc d ↦{wTok w} m (wLoc d)) ∗ (oLoc d ↦{fullShare} Gfn m X3 d)) := by
  unfold tileOut
  rw [bigSep_sep', bigSep_sep', ← x3_rows, ← o_blocks]

/-- The table's full share is the remainder and the 32 read tokens. -/
theorem w_split (d : Dev nD) :
    (wLoc d ↦{fullShare} m (wLoc d) : sProp 𝕄)
      ⊢ iprop((wLoc d ↦{wRest} m (wLoc d)) ∗ bigSep Finset.univ fun w : Fin 32 => wLoc d ↦{wTok w} m (wLoc d)) :=
  Transfers.pointsTo_toks_split fullShare 32
theorem w_join (d : Dev nD) :
    iprop((wLoc d ↦{wRest} m (wLoc d)) ∗ bigSep Finset.univ fun w : Fin 32 => wLoc d ↦{wTok w} m (wLoc d))
      ⊢ (wLoc d ↦{fullShare} m (wLoc d) : sProp 𝕄) :=
  Transfers.pointsTo_toks_join fullShare 32

end Cert.KernelIdealRun

end
-- ==== Proof.KernelIdealRun.Launch.Main.lean ====
/-
  The launch of the embedding lookup's kernel, third part: @main on the TensorCore. The row numbers `[16384,20]` are
  re-laid as `[32,160,64]` by a host reshape; the SparseCore call hands each of the 32 workers its row of them, a read token
  of the table and its block of 10240 rows of the flat output `[327680,128]`, and takes them back with every block holding
  the rows of the table its row numbers name; the blocks, each at the one function `gathered`, are the whole flat output,
  which a second host reshape re-lays as `[16384,20,128]`. The two arguments end at their launch contents.
-/
import proofs.«207499_g15272903704957_cont_week2b_486_20_alg».proof.Proof.KernelIdealRun.Launch.Obl
import proofs.«207499_g15272903704957_cont_week2b_486_20_alg».proof.Proof.KernelIdealRun.Launch.Split

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

open TcCoe

/-! ## @main's arrays as the TensorCore holds them -/

abbrev x' : DevRef τ sig := Proc.devRef .tc (main_arg0 : Ref sig .tc)
abbrev w' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (x3Loc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
/-- Two whole arrays held. -/
theorem held_pair (d : Dev nD) {a b : DevRef τ sig} (hab : a ≠ b) (W : Valuation τ sig (Elt F)) :
    (held (T d) {a, b} W : sProp 𝕄) = iprop(((d, a) ↦{fullShare} W a) ∗ (d, b) ↦{fullShare} W b) := by
  unfold held
  rw [SparseCore.bigSep_insert' (by simpa using hab), bigSep_singleton]

/-- The two host reshapes. -/
abbrev op1 : HloOp τ sig (Elt F) := StableHlo.reshape main_arg0 main_v0 rfl shapeCasts_S16384x20_S32x160x64
abbrev op2 : HloOp τ sig (Elt F) := StableHlo.reshape main_v1 main_v2 rfl shapeCasts_S327680x128_S16384x20x128

/-- The row numbers re-laid as `[32,160,64]`: what the first reshape leaves. -/
abbrev X3m (d : Dev nD) : Buf (Elt F) (x3Loc d) := shapeCast (⟨3, ![32, 160, 64]⟩ : Shape) (m (xLoc d)) shapeCasts_S16384x20_S32x160x64
/-- The flat output re-laid as `[16384,20,128]`: what the second reshape leaves. -/
abbrev Rm (d : Dev nD) : Buf (Elt F) (rLoc d) :=
  shapeCast (⟨3, ![16384, 20, 128]⟩ : Shape) (Gfn m (X3m m) d) shapeCasts_S327680x128_S16384x20x128

/-- The launch valuation, and the one before the second reshape: the flat output at what the kernel left. -/
def V0 (d : Dev nD) : Valuation τ sig (Elt F) := fun b => m (d, b)
def V1 (d : Dev nD) : Valuation τ sig (Elt F) := Function.update (V0 m d) v1' (Gfn m (X3m m) d)

theorem op1_x (d : Dev nD) : (op1 (F := F)).result (V0 m d) x' = m (xLoc d) :=
  StableHlo.reshape_result_ne _ _ _ _ _ _ (V0 m d) (show (main_arg0 : Ref sig .tc) ≠ main_v0 by decide)
theorem op1_v0 (d : Dev nD) : (op1 (F := F)).result (V0 m d) v0' = X3m m d := by
  rw [StableHlo.reshape_result]; rfl
theorem V1_v1 (d : Dev nD) : V1 m d v1' = Gfn m (X3m m) d := Function.update_self _ _ _
theorem V1_v2 (d : Dev nD) : V1 m d v2' = m (rLoc d) := Function.update_of_ne (show v2' ≠ v1' by decide) _ _
theorem op2_v1 (d : Dev nD) : (op2 (F := F)).result (V1 m d) v1' = Gfn m (X3m m) d :=
  (StableHlo.reshape_result_ne _ _ _ _ _ _ (V1 m d) (show (main_v1 : Ref sig .tc) ≠ main_v2 by decide)).trans (V1_v1 m d)
theorem op2_v2 (d : Dev nD) : (op2 (F := F)).result (V1 m d) v2' = Rm m d := by
  rw [StableHlo.reshape_result, V1_v1]; rfl

theorem held_V0 (d : Dev nD) :
    (held (T d) {x', v0'} (V0 m d) : sProp 𝕄) = iprop((xLoc d ↦{fullShare} m (xLoc d)) ∗ x3Loc d ↦{fullShare} m (x3Loc d)) :=
  held_pair d (by decide) _
theorem held_op1 (d : Dev nD) :
    (held (T d) {x', v0'} ((op1 (F := F)).result (V0 m d)) : sProp 𝕄) = iprop((xLoc d ↦{fullShare} m (xLoc d)) ∗ x3Loc d ↦{fullShare} X3m m d) := by
  rw [held_pair d (by decide), op1_x, op1_v0]
theorem held_V1 (d : Dev nD) :
    (held (T d) {v1', v2'} (V1 m d) : sProp 𝕄) = iprop((oLoc d ↦{fullShare} Gfn m (X3m m) d) ∗ rLoc d ↦{fullShare} m (rLoc d)) := by
  rw [held_pair d (by decide), V1_v1, V1_v2]
theorem held_op2 (d : Dev nD) :
    (held (T d) {v1', v2'} ((op2 (F := F)).result (V1 m d)) : sProp 𝕄) = iprop((oLoc d ↦{fullShare} Gfn m (X3m m) d) ∗ rLoc d ↦{fullShare} Rm m d) := by
  rw [held_pair d (by decide), op2_v1, op2_v2]

/-! ## @main on the TensorCore -/

/-- What @main leaves the claim: the two arguments at their launch contents, the result at the lookup re-laid. -/
abbrev FIN (d : Dev nD) : sProp 𝕄 :=
  iprop((xLoc d ↦{fullShare} m (xLoc d)) ∗ (wLoc d ↦{fullShare} m (wLoc d)) ∗ rLoc d ↦{fullShare} Rm m d)

/-- @main on device `d`'s TensorCore: the row numbers re-laid; the call, each worker handed its row of them, a read
    token of the table and its block of the flat output, and handing them back with the block gathered; the flat output
    re-laid. -/
theorem hmain (κ : GSem nD τ sig → ℕ) (d : Dev nD) :
    iprop((K (F := F)).ctx EH (P m (X3m m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hw, Hv0, Hv1, Hv2⟩, -, -⟩, -⟩
  -- the first reshape
  iapply (wp_hlo_within 𝒱 (SparseCore.T d) none Set.univ (op := op1) (S := {x', v0'}) (Finset.Subset.refl _) (V := V0 m d)) $$ [Hb Hx Hv0]
  · isplitl [Hb]; · iexact Hb
    rw [held_V0]
    isplitl [Hx]; · iexact Hx
    iexact Hv0
  iintro ⟨Hb, Hheld⟩
  ihave Hh := (Entails.of_eq (held_op1 (F := F) m d)) $$ Hheld
  icases Hh with ⟨Hx, Hv0⟩
  rw [wp_ret]; imodintro
  -- the table's read tokens
  ihave Hw' := (w_split m d) $$ Hw
  icases Hw' with ⟨Hwr, Hwt⟩
  -- the call
  iapply ((K (F := F)).wp_run (D (F := F)) 𝒱 (EH := EH) (P := P m (X3m m)) κ d 0) $$ [Hst Hb Hx Hv0 Hwr Hwt Hv1 Hv2]
  isplitr; · iexact Hctx
  isplitl [Hst]; · iexact Hst
  isplitl [Hv0 Hwt Hv1]
  · rw [st0_eq, tilesIn_eq]
    isplitl [Hv0]; · iexact Hv0
    isplitl [Hwt]; · iexact Hwt
    iexact Hv1
  iintro ⟨Hst, Hdn⟩
  ihave Hdn' := (Entails.of_eq ((dn0_eq m (X3m m) d).trans (tilesOut_eq m (X3m m) d))) $$ Hdn
  icases Hdn' with ⟨-, Hwt, Hv1⟩
  ihave Hw := (w_join m d) $$ [Hwr Hwt]
  · isplitl [Hwr]; · iexact Hwr
    iexact Hwt
  -- the second reshape
  iapply (wp_hlo_within 𝒱 (SparseCore.T d) none Set.univ (op := op2) (S := {v1', v2'}) (Finset.Subset.refl _) (V := V1 m d)) $$ [Hb Hv1 Hv2]
  · isplitl [Hb]; · iexact Hb
    rw [held_V1]
    isplitl [Hv1]; · iexact Hv1
    iexact Hv2
  iintro ⟨Hb, Hheld⟩
  ihave Hh := (Entails.of_eq (held_op2 (F := F) m d)) $$ Hheld
  icases Hh with ⟨-, Hv2⟩
  rw [wp_ret]; imodintro; imodintro
  isplitl [Hst]; · iexact Hst
  isplitl [Hx]; · iexact Hx
  isplitl [Hw]; · iexact Hw
  iexact Hv2

/-! ## The final memory, the program's run -/

def fq (d : Dev nD) (s' : Phys nD τ sig (Elt F)) : Prop :=
  s'.mem.mem (rLoc d) = Rm m d ∧ s'.mem.mem (xLoc d) = m (xLoc d) ∧ s'.mem.mem (wLoc d) = m (wLoc d)

theorem hfin (d : Dev nD) (s' : Phys nD τ sig (Elt F)) : iprop(FIN m d ∗ SI s') ⊢ (⌜fq m d s'⌝ : sProp 𝕄) := by
  iintro ⟨⟨Hx, Hw, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  ∀ c : Dev nD, r.2.mem (rLoc c) = Rm m c ∧ r.2.mem (xLoc c) = m (xLoc c) ∧ r.2.mem (wLoc c) = m (wLoc c)

/-- Every weakly fair execution of the device's threads terminates, nothing faulting; the result is the lookup, flat row
    `f` of it the row of the table that entry `f` of the flat list of row numbers names, re-laid as `[16384,20,128]`; the
    arguments are unchanged. Given one worker's task. -/
theorem run_main [∀ e, Nonempty (Elt F e)] (hb : TileBody (F := F) m (X3m m)) :
    θ_run (Cert.KernelIdeal.defs (F := F)) (Cert.KernelIdeal.threads (F := F)) ⟨m, fun _ => 0, ρ⟩
      (fun r => ∀ c : Dev nD,
        r.2.mem (rLoc c) = shapeCast (⟨3, ![16384, 20, 128]⟩ : Shape)
            (Cert.Spec.gathered (shapeCast (⟨3, ![32, 160, 64]⟩ : Shape) (m (xLoc c)) shapeCasts_S16384x20_S32x160x64) (m (wLoc c)))
            shapeCasts_S327680x128_S16384x20x128
          ∧ r.2.mem (xLoc c) = m (xLoc c) ∧ r.2.mem (wLoc c) = m (wLoc c)) :=
  SparseCore.Cfg.θ_run_sc (K := K (F := F)) (D := D (F := F)) (𝒱 := 𝒱) (EH := EH) (P := P m (X3m m)) facts v₀
    (fun q hq => match q with | 0 => nomatch hq)
    (fun q _ => match q with | 0 => tileObl m (X3m m) hb)
    (fun q _ => match q with | 0 => SparseCore.Cfg.VecSplit.of_plain (vecSplit m (X3m m)))
    m ρ main (fun _ => iprop(emp)) (FIN m) (u₀ (F := F)) (sep_elim_left.trans (hu₀ m (X3m m))) (hmain m ρ) (fq m) (hfin m) (QC m) (fun _ h => h)

end Cert.KernelIdealRun

end
-- ==== Proof.RefValue.lean ====
/-
  The reference's value, read at an index. The reference program looks rows of the table up with wrap-around and a fill:
  a negative row number is wrapped (100000 added to it), the wrapped numbers are tested against the range [0, 99999]
  (an "and" of two comparisons, reduced over an axis of extent one), each row is gathered at its row number read as a
  signed integer and clamped into the table, and where the test fails the row is replaced by NaN. For a row number
  below 100000 as a natural number none of this does anything: read signed it is itself, non-negative and at most
  99999, so the wrap is the identity, the test is 1, the clamp is the identity, and the result entry (i, j, d) is
  entry d of row x (i, j) of the table.
-/
import proofs.«207499_g15272903704957_cont_week2b_486_20_alg».proof.Proof.Spec
import Idealize.ShloMosaic.PureOps.Reduce
import Idealize.ShloMosaic.Lib.Affine

namespace Cert.RefValue

open Idealize.ShloMosaic Idealize.ShloMosaic.ValueIdx Cert.Spec

/-! ## Words: a row number below 100000 -/

/-- A 32-bit word below 100000 as a natural number is that number as a signed integer. -/
theorem toInt_of_lt {v : BitVec 32} (h : v.toNat < 100000) : v.toInt = (v.toNat : Int) := by
  rw [BitVec.toInt_eq_toNat_cond]; split
  · rfl
  · omega

/-- The wrap of a negative row number leaves a row number below 100000 alone. -/
theorem wrap_eq {v : BitVec 32} (h : v.toNat < 100000) :
    Scalar.select (IntOp.cmpi .slt v 0#32) (IntOp.addi v 100000#32) v = v := by
  have hn : ¬ IntOp.cmpi .slt v 0#32 = 1#1 := by
    rw [IntOp.cmpi_slt, toInt_of_lt h]; simp
  exact if_neg hn

/-- The range test of a row number below 100000 is 1. -/
theorem mask_eq {v : BitVec 32} (h : v.toNat < 100000) :
    IntOp.andi (IntOp.cmpi .sge v 0#32) (IntOp.cmpi .sle v 99999#32) = 1#1 := by
  rw [IntOp.andi_eq_one, IntOp.cmpi_sge, IntOp.cmpi_sle, toInt_of_lt h]
  constructor
  · simp
  · have : (99999#32 : BitVec 32).toInt = 99999 := by decide
    rw [this]; omega

/-- The gather's clamped start for a row number below 100000 is the row number. -/
theorem clamp_eq {v : BitVec 32} (h : v.toNat < 100000) : min v.toInt.toNat 99999 = v.toNat := by
  rw [toInt_of_lt h, Int.toNat_natCast]; omega

/-! ## An "and" reduction of all ones -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by "and" from 1 over an array of ones is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-! ## The shape operations read at an index -/

section ShapeOps
variable {α : Type}

/-- The row numbers with a unit axis appended read, at (i, j, k), the row number at (i, j). -/
theorem bcast_unit_apply (h : (⟨2, ![16384, 20]⟩ : Shape).BroadcastsInDim ⟨3, ![16384, 20, 1]⟩ ![0, 1])
    (x : (⟨2, ![16384, 20]⟩ : Shape).Idx → α) (i : Fin 16384) (j : Fin 20) (k : Fin 1) :
    broadcastInDim ⟨3, ![16384, 20, 1]⟩ ![0, 1] h x (ix3 i j k) = x (ix2 i j) := by
  unfold broadcastInDim
  congr 1
  funext a
  match a with
  | ⟨0, _⟩ => rfl
  | ⟨1, _⟩ => rfl

/-- A per-row value stretched along the 128 entries of its row reads, at (i, j, d), the value at (i, j). -/
theorem bcast_row_apply (h : (⟨2, ![16384, 20]⟩ : Shape).BroadcastsInDim ⟨3, ![16384, 20, 128]⟩ ![0, 1])
    (x : (⟨2, ![16384, 20]⟩ : Shape).Idx → α) (i : Fin 16384) (j : Fin 20) (d : Fin 128) :
    broadcastInDim ⟨3, ![16384, 20, 128]⟩ ![0, 1] h x (ix3 i j d) = x (ix2 i j) := by
  unfold broadcastInDim
  congr 1
  funext a
  match a with
  | ⟨0, _⟩ => rfl
  | ⟨1, _⟩ => rfl

/-- The gather's dimension numbers: whole rows of a 100000 × 128 table (axis 0 collapsed, axis 1 the offset axis 2 of
    the result), one start index per (i, j), held on a trailing axis of extent one. -/
abbrev rowDims (wf : GatherDims.WF ⟨2, ![100000, 128]⟩ ⟨3, ![16384, 20, 1]⟩ ⟨3, ![16384, 20, 128]⟩ [2] [0] [] [0] [] 2 ![1, 128]) :
    GatherDims ⟨2, ![100000, 128]⟩ ⟨3, ![16384, 20, 1]⟩ ⟨3, ![16384, 20, 128]⟩ where
  offsetDims := [2]
  collapsedSliceDims := [0]
  operandBatchingDims := []
  startIndicesBatchingDims := []
  startIndexMap := [0]
  indexVectorDim := 2
  sliceSizes := ![1, 128]
  wf := wf

/-- The gather read at (i, j, d): entry d of the table's row at the start index (i, j, 0), read signed and clamped into
    [0, 99999]. -/
theorem gather_rows_apply {w : Nat}
    (wf : GatherDims.WF ⟨2, ![100000, 128]⟩ ⟨3, ![16384, 20, 1]⟩ ⟨3, ![16384, 20, 128]⟩ [2] [0] [] [0] [] 2 ![1, 128])
    (W : (⟨2, ![100000, 128]⟩ : Shape).Idx → α) (idx : IVec ⟨3, ![16384, 20, 1]⟩ w)
    (i : Fin 16384) (j : Fin 20) (d : Fin 128) :
    Host.gather (rowDims wf) W idx (ix3 i j d)
      = W (ix2 ⟨min (idx (ix3 i j 0)).toInt.toNat 99999, by omega⟩ d) := by
  unfold Host.gather
  congr 1
  funext a
  refine Fin.ext ?_
  match a with
  | ⟨0, _⟩ =>
    show (rowDims wf).start (ix3 i j d) idx 0 + (rowDims wf).batchCoord (ix3 i j d) 0 + (rowDims wf).offCoord (ix3 i j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix3 i j d) ⟨List.idxOf (0 : Fin 2) (rowDims wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  | ⟨1, _⟩ =>
    show (rowDims wf).start (ix3 i j d) idx 1 + (rowDims wf).batchCoord (ix3 i j d) 1 + (rowDims wf).offCoord (ix3 i j d) 1 = _
    rw [GatherDims.batchCoord_eq_zero _ _ _ List.not_mem_nil]
    unfold GatherDims.start
    rw [dif_neg (show (1 : Fin 2) ∉ ([0] : List (Fin 2)) from by decide)]
    unfold GatherDims.offCoord
    rw [dif_pos (show (1 : Fin 2) ∈ (⟨2, ![100000, 128]⟩ : Shape).kept (([0] : List (Fin 2)) ++ []) from by decide)]
    simp only [Nat.zero_add]
    rfl

end ShapeOps

/-! ## The composed term is the lookup -/

section Value
variable {α : Type}

/-- The reference's composed term of the row numbers x and the table W — the wrap, the unit axis, the range test reduced
    by "and", the gather, the select against a fill value — is, for row numbers below 100000, the lookup. The shape
    relations the operations carry are hypotheses: any proofs of them do. -/
theorem value_eq
    (hb0 : (⟨0, ![]⟩ : Shape).BroadcastsInDim ⟨2, ![16384, 20]⟩ ![])
    (hb1 : (⟨2, ![16384, 20]⟩ : Shape).BroadcastsInDim ⟨3, ![16384, 20, 1]⟩ ![0, 1])
    (hb2 : (⟨0, ![]⟩ : Shape).BroadcastsInDim ⟨3, ![16384, 20, 1]⟩ ![])
    (hb3 : (⟨1, ![1]⟩ : Shape).BroadcastsInDim ⟨3, ![1, 1, 1]⟩ ![2])
    (hb4 : (⟨3, ![1, 1, 1]⟩ : Shape).BroadcastsInDim ⟨3, ![16384, 20, 1]⟩ ![0, 1, 2])
    (hr : (⟨3, ![16384, 20, 1]⟩ : Shape).ReducesTo [2] ⟨2, ![16384, 20]⟩)
    (hu : 0 < (⟨0, ![]⟩ : Shape).numel)
    (hb5 : (⟨2, ![16384, 20]⟩ : Shape).BroadcastsInDim ⟨3, ![16384, 20, 128]⟩ ![0, 1])
    (wf : GatherDims.WF ⟨2, ![100000, 128]⟩ ⟨3, ![16384, 20, 1]⟩ ⟨3, ![16384, 20, 128]⟩ [2] [0] [] [0] [] 2 ![1, 128])
    (x : (⟨2, ![16384, 20]⟩ : Shape).Idx → BitVec 32) (W : (⟨2, ![100000, 128]⟩ : Shape).Idx → α)
    (fill : (⟨3, ![16384, 20, 128]⟩ : Shape).Idx → α) (hx : InRange x) :
    select
        (broadcastInDim ⟨3, ![16384, 20, 128]⟩ ![0, 1] hb5
          (Host.reduce IntOp.andi
            (andi
              (cmpi .sge
                (broadcastInDim ⟨3, ![16384, 20, 1]⟩ ![0, 1] hb1
                  (select (cmpi .slt x (broadcastInDim ⟨2, ![16384, 20]⟩ ![] hb0 (constantI ⟨0, ![]⟩ 32 0#32)))
                    (addi x (broadcastInDim ⟨2, ![16384, 20]⟩ ![] hb0 (constantI ⟨0, ![]⟩ 32 100000#32))) x))
                (broadcastInDim ⟨3, ![16384, 20, 1]⟩ ![] hb2 (constantI ⟨0, ![]⟩ 32 0#32)))
              (cmpi .sle
                (broadcastInDim ⟨3, ![16384, 20, 1]⟩ ![0, 1] hb1
                  (select (cmpi .slt x (broadcastInDim ⟨2, ![16384, 20]⟩ ![] hb0 (constantI ⟨0, ![]⟩ 32 0#32)))
                    (addi x (broadcastInDim ⟨2, ![16384, 20]⟩ ![] hb0 (constantI ⟨0, ![]⟩ 32 100000#32))) x))
                (broadcastInDim ⟨3, ![16384, 20, 1]⟩ ![0, 1, 2] hb4
                  (broadcastInDim ⟨3, ![1, 1, 1]⟩ ![2] hb3 (constantI ⟨1, ![1]⟩ 32 99999#32)))))
            (constantI ⟨0, ![]⟩ 1 1#1) hr hu))
        (Host.gather (rowDims wf) W
          (broadcastInDim ⟨3, ![16384, 20, 1]⟩ ![0, 1] hb1
            (select (cmpi .slt x (broadcastInDim ⟨2, ![16384, 20]⟩ ![] hb0 (constantI ⟨0, ![]⟩ 32 0#32)))
              (addi x (broadcastInDim ⟨2, ![16384, 20]⟩ ![] hb0 (constantI ⟨0, ![]⟩ 32 100000#32))) x)))
        fill
      = lookup x W := by
  -- the wrap is the identity
  have h4 : select (cmpi .slt x (broadcastInDim ⟨2, ![16384, 20]⟩ ![] hb0 (constantI ⟨0, ![]⟩ 32 0#32)))
      (addi x (broadcastInDim ⟨2, ![16384, 20]⟩ ![] hb0 (constantI ⟨0, ![]⟩ 32 100000#32))) x = x :=
    funext fun p => wrap_eq (hx p)
  rw [h4]
  -- the range test is 1 everywhere
  have hmask : ∀ p, andi
      (cmpi .sge (broadcastInDim ⟨3, ![16384, 20, 1]⟩ ![0, 1] hb1 x)
        (broadcastInDim ⟨3, ![16384, 20, 1]⟩ ![] hb2 (constantI ⟨0, ![]⟩ 32 0#32)))
      (cmpi .sle (broadcastInDim ⟨3, ![16384, 20, 1]⟩ ![0, 1] hb1 x)
        (broadcastInDim ⟨3, ![16384, 20, 1]⟩ ![0, 1, 2] hb4
          (broadcastInDim ⟨3, ![1, 1, 1]⟩ ![2] hb3 (constantI ⟨1, ![1]⟩ 32 99999#32)))) p = 1#1 := by
    intro p
    obtain ⟨a, b, c, rfl⟩ : ∃ (a : Fin 16384) (b : Fin 20) (c : Fin 1), p = ix3 a b c := ⟨p 0, p 1, p 2, eq_ix3 p⟩
    show IntOp.andi (IntOp.cmpi .sge (broadcastInDim ⟨3, ![16384, 20, 1]⟩ ![0, 1] hb1 x (ix3 a b c)) 0#32)
      (IntOp.cmpi .sle (broadcastInDim ⟨3, ![16384, 20, 1]⟩ ![0, 1] hb1 x (ix3 a b c)) 99999#32) = 1#1
    rw [bcast_unit_apply]
    exact mask_eq (hx _)
  funext q
  obtain ⟨i, j, d, rfl⟩ : ∃ (i : Fin 16384) (j : Fin 20) (d : Fin 128), q = ix3 i j d := ⟨q 0, q 1, q 2, eq_ix3 q⟩
  rw [select_apply, bcast_row_apply, reduce_andi_one _ (constantI ⟨0, ![]⟩ 1 1#1) hr hu (fun _ => rfl) hmask, select_one, gather_rows_apply]
  show W (ix2 ⟨min (broadcastInDim ⟨3, ![16384, 20, 1]⟩ ![0, 1] hb1 x (ix3 i j 0)).toInt.toNat 99999, _⟩ d)
    = W (ix2 (rowOf (x (ix2 i j))) d)
  refine congrArg (fun r => W (ix2 r d)) (Fin.ext ?_)
  show min (broadcastInDim ⟨3, ![16384, 20, 1]⟩ ![0, 1] hb1 x (ix3 i j 0)).toInt.toNat 99999 = (rowOf (x (ix2 i j))).val
  rw [bcast_unit_apply, clamp_eq (hx _), rowOf_val_of_lt (hx _)]

end Value

end Cert.RefValue
-- ==== Proof.RefRun.lean ====
/-
  The reference program's run. Its @main is one call of a module-local function (the lookup with wrap-around and fill),
  which itself calls another (a select); both calls unfolded, @main is a straight line of 23 operations, each writing one buffer of its
  own from the whole contents of its operands. Every weakly fair execution of such a line terminates with each buffer at
  the fold of the operations' functions over the launch contents, so the result buffer holds the composed term of the two
  arguments and the arguments are unchanged; for row numbers below 100000 that term is the lookup (RefValue.lean).
-/
import proofs.«207499_g15272903704957_cont_week2b_486_20_alg».proof.Proof.Gen.ReferenceIdeal
import Idealize.ShloMosaic.Lib.StableHlo.Run
import proofs.«207499_g15272903704957_cont_week2b_486_20_alg».proof.Proof.RefValue

noncomputable section

namespace Cert.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's 23 operations in order, the two calls unfolded: the wrap of negative row numbers (six operations and the
    select of the inner call), the row numbers with a unit axis appended, the range test (eight operations and the "and"
    reduction over the unit axis), the gather of rows, and the select between the gathered rows and NaN (four). -/
abbrev ops : List (HloOp τ sig (Elt F)) :=
  [ TRef.nullary main_call0.c (constantI S_ 32 0#32),
    TRef.unary main_call0.c main_call0.v0 (broadcastInDim S16384x20 ![] bcast_S_S16384x20),
    TRef.binary (.of main_arg0) main_call0.v0 main_call0.v1 (cmpi .slt),
    TRef.nullary main_call0.c_0 (constantI S_ 32 100000#32),
    TRef.unary main_call0.c_0 main_call0.v2 (broadcastInDim S16384x20 ![] bcast_S_S16384x20),
    TRef.binary (.of main_arg0) main_call0.v2 main_call0.v3 addi,
    TRef.ternary main_call0.v1 main_call0.v3 (.of main_arg0) main_call0.call0.v0 select,
    TRef.unary main_call0.call0.v0 main_call0.v5 (broadcastInDim S16384x20x1 ![0, 1] bcast_S16384x20_S16384x20x1_0_1),
    TRef.nullary main_call0.c_1 (constantI S1 32 99999#32),
    TRef.nullary main_call0.c_2 (constantI S_ 32 0#32),
    TRef.unary main_call0.c_2 main_call0.v6 (broadcastInDim S16384x20x1 ![] bcast_S_S16384x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x20x1 ![0, 1, 2] bcast_S1x1x1_S16384x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x20x1_S16384x20_d2 h_S_),
    TRef.binary (.of main_arg1) main_call0.v5 main_call0.v13 (fun x i => Host.gather gather_S100000x128_S16384x20x1_S16384x20x128_2_0_n_n_0_2_1128 x i),
    TRef.unary main_call0.v12 main_call0.v14 (broadcastInDim S16384x20x128 ![0, 1] bcast_S16384x20_S16384x20x128_0_1),
    TRef.nullary main_call0.cst (constant S_ .f32 0x7FC00000#32),
    TRef.unary main_call0.cst main_call0.v15 (broadcastInDim S16384x20x128 ![] bcast_S_S16384x20x128),
    TRef.ternary main_call0.v14 main_call0.v13 main_call0.v15 main_call0.v16 select ]

/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of @main terminates with each buffer at the fold of the 23 operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The buffers after the line -/

/-- The gather's dimension numbers are the ones RefValue.lean reads at an index. -/
theorem gather_eq :
    gather_S100000x128_S16384x20x1_S16384x20x128_2_0_n_n_0_2_1128
      = Cert.RefValue.rowDims gather_S100000x128_S16384x20x1_S16384x20x128_2_0_n_n_0_2_1128_wf := rfl

/-- The result buffer after the line holds the composed term of the two arguments, which for row numbers below 100000 is
    the lookup: each operation's result read at its own buffer is its function's value and at any other buffer what was
    there; the typed references' transports are the identity at these literal references. -/
theorem out_eq (V : Valuation τ sig (Elt Ideal)) (hx : Cert.Spec.InRange (V (main_arg0 : DevRef τ sig))) :
    after ops V (main_v0 : DevRef τ sig)
      = Cert.Spec.lookup (V (main_arg0 : DevRef τ sig)) (V (main_arg1 : DevRef τ sig)) := by
  after_results
  simp only [TRef.toBuf, TRef.ofBuf, cast_eq]
  rw [gather_eq]
  exact Cert.RefValue.value_eq _ _ _ _ _ _ _ _ _ _ _ _ hx

/-- No operation of the line writes an argument. -/
theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

/-- On every device, from any memory with zero counters whose row numbers are below 100000: every weakly fair execution of
    @main terminates with the result buffer at the lookup of the two arguments and the arguments unchanged. -/
theorem run (m : (ℓ : Loc nD τ sig) → Buf (Elt Ideal) ℓ) (g : Dev nD → PrngReg)
    (hx : ∀ c : Dev nD, Cert.Spec.InRange (m ((c.tc : Thread nD τ).loc main_arg0))) :
    θ_run (Cert.ReferenceIdeal.defs (F := Ideal)) (onTc (τ := τ) (Cert.ReferenceIdeal.main (F := Ideal))) ⟨m, fun _ => 0, g⟩
      (fun r => ∀ c : Dev nD,
        r.2.mem ((c.tc : Thread nD τ).loc main_v0) = Cert.Spec.lookup (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v0).trans (out_eq (launchContents m c) (hx c)),
      (h c main_arg0).trans (arg0_eq (launchContents m c)),
      (h c main_arg1).trans (arg1_eq (launchContents m c))⟩)
    (run_main m g)

end Cert.RefRun

end
-- ==== Proof.KernelRun.Setup.lean ====
/-
  The embedding lookup's kernel as the SparseCore launch theorem sees it: the call's configuration, the ghost state (the
  launch handshakes' rounds beside the local transfers' counters), the arrays as locations of a device, and what the call
  hands each vector subcore and takes back.

  Worker `w = 2·s + c` (vector subcore `s` of SparseCore `c`) owns row `w` of the re-laid row numbers `x3 : [32,160,64]`,
  the flat output rows `[10240·w, 10240·(w+1))`, and a read share of the whole table `W`. It is handed the output rows at
  their launch contents and hands them back holding `Cert.Spec.gathered x3 W`.
-/
import proofs.«207499_g15272903704957_cont_week2b_486_20_alg».proof.Kernel
import proofs.«207499_g15272903704957_cont_week2b_486_20_alg».proof.Proof.Gen.Kernel
import proofs.«207499_g15272903704957_cont_week2b_486_20_alg».proof.Proof.Gen.Kernel.Skeleton
import proofs.«207499_g15272903704957_cont_week2b_486_20_alg».proof.Proof.Spec
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev wLoc (d : Dev nD) : Loc nD τ sig := (SparseCore.T d).loc main_arg1
abbrev x3Loc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.KernelRun

end
-- ==== Proof.KernelRun.Pay.lean ====
/-
  What the SparseCore call hands each worker and takes back, and the statement of one worker's task.

  Worker `w = 2·s + c` (vector subcore `s` of SparseCore `c`) is handed: row `w` of the re-laid row numbers `x3` (its 160 × 64
  entries, outright), a read share of the whole table `W`, and the flat output rows `[10240·w, 10240·(w+1))` at their launch
  contents. It hands back the same, the output rows now holding `Cert.Spec.gathered x3 W`: flat row `f` is the row of `W` named
  by entry `f` of the flat list of row numbers. A SparseCore is handed its sixteen workers' shares together, so the split
  among its workers is the identity.
-/
import proofs.«207499_g15272903704957_cont_week2b_486_20_alg».proof.Proof.KernelRun.Setup

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

-- The launch memory, and what the re-laid row numbers hold when the call starts (the host reshape's result).
variable (m : (ℓ : Loc nD τ sig) → Buf (Elt F) ℓ) (X3 : (d : Dev nD) → Buf (Elt F) (x3Loc d))

/-- Worker number of vector subcore `s` of SparseCore `c`. -/
def wid (c : Fin 2) (s : Fin 16) : Fin 32 := ⟨2 * s.val + c.val, by omega⟩

/-- Row `w` of the re-laid row numbers: the box `[w, w+1) × [0,160) × [0,64)`. -/
theorem x3Row_inb (w : Fin 32) : ∀ a, (![w.val, 0, 0] : Fin 3 → Nat) a + S1x160x64.size a ≤ S32x160x64.size a := by
  have := w.isLt; intro a; fin_cases a <;> simp <;> omega
abbrev x3Row (w : Fin 32) : Rect S32x160x64 := Rect.unit (s := S32x160x64) ![w.val, 0, 0] S1x160x64.size (x3Row_inb w)
/-- The flat output rows of worker `w`: the box `[10240·w, 10240·(w+1)) × [0,128)`. -/
abbrev S10240x128 : Shape := ⟨2, ![10240, 128]⟩
theorem oBlock_inb (w : Fin 32) : ∀ a, (![10240 * w.val, 0] : Fin 2 → Nat) a + S10240x128.size a ≤ S327680x128.size a := by
  have := w.isLt; intro a; fin_cases a <;> simp <;> omega
abbrev oBlock (w : Fin 32) : Rect S327680x128 := Rect.unit (s := S327680x128) ![10240 * w.val, 0] S10240x128.size (oBlock_inb w)

abbrev x3Set (d : Dev nD) (w : Fin 32) : Finset (Idx (x3Loc d)) := (x3Row w).set
abbrev oSet (d : Dev nD) (w : Fin 32) : Finset (Idx (oLoc d)) := (oBlock w).set

/-- Worker `w`'s read share of the table: the `w`-th of 32 read tokens of the full share. -/
abbrev wTok (w : Fin 32) : PosShare TreeShare := Transfers.shareTok fullShare 32 w

/-- What the kernel leaves in the flat output, as contents of the output array. -/
abbrev Gfn (d : Dev nD) : Buf (Elt F) (oLoc d) := Cert.Spec.gathered (X3 d) (m (wLoc d))

/-- Handed to worker `w`; handed back by it. -/
def tileIn (d : Dev nD) (w : Fin 32) : sProp 𝕄 :=
  iprop((x3Loc d ↦[x3Set d w]{fullShare} X3 d) ∗ (wLoc d ↦{wTok w} m (wLoc d)) ∗ (oLoc d ↦[oSet d w]{fullShare} m (oLoc d)))
def tileOut (d : Dev nD) (w : Fin 32) : sProp 𝕄 :=
  iprop((x3Loc d ↦[x3Set d w]{fullShare} X3 d) ∗ (wLoc d ↦{wTok w} m (wLoc d)) ∗ (oLoc d ↦[oSet d w]{fullShare} Gfn m X3 d))

/-- The one call: a SparseCore is handed its sixteen workers' shares, each worker its own. -/
def P : (K (F := F)).Pay (nD := nD) (Val := Elt F) (Name := ℕ) (U := UU) where
  st := fun q d c => match q with | 0 => bigSep Finset.univ fun s : Fin 16 => tileIn m X3 d (wid (Fin.cast nCore_zero c) s)
  dn := fun q d c => match q with | 0 => bigSep Finset.univ fun s : Fin 16 => tileOut m X3 d (wid (Fin.cast nCore_zero c) s)
  go := fun q d c i => match q with | 0 => tileIn m X3 d (wid (Fin.cast nCore_zero c) (Fin.cast nSub_zero i))
  td := fun q d c i => match q with | 0 => tileOut m X3 d (wid (Fin.cast nCore_zero c) (Fin.cast nSub_zero i))
  x := fun _ _ => iprop(emp)

instance P_storable : (P (F := F) m X3).IsStorable where
  st q d c := match q with | 0 => by unfold P tileIn; infer_instance
  dn q d c := match q with | 0 => by unfold P tileOut; infer_instance
  go q d c i := match q with | 0 => by unfold P tileIn; infer_instance
  td q d c i := match q with | 0 => by unfold P tileOut; infer_instance

/-! ## One worker's task, as a statement -/

variable [FloatOps F]

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker at grid coordinates `L`. -/
abbrev widL (L : grid0.Coords) : Fin 32 := wid (Fin.cast bound_zero (L 0)) (Fin.cast bound_one (L 1))

/-- The kernel function at grid coordinates `L`, on the whole arrays and the subcore's scratch, as the body table calls it. -/
abbrev bodyAt (L : grid0.Coords) : Prog (TpuEff nD τ sig (Elt F) Λ₀ (.scVector ((L 0).castLE hcore0) ((L 1).castLE hsub0))) PUnit :=
  cc0_body L (Memref.whole main_v0_scv) (Memref.isWhole_whole _) (Memref.whole main_arg1_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 cc0_scratch14 cc0_scratch15 cc0_scratch16 cc0_scratch17 cc0_scratch18 cc0_scratch19 cc0_scratch20
    cc0_scratch21 cc0_scratch22 cc0_scratch23 cc0_scratch24 cc0_scratch25 cc0_scratch26 cc0_scratch27 cc0_scratch28 cc0_scratch29 cc0_scratch30
    cc0_scoped0

/-- One worker's task: from its share at the launch contents to its share with the output rows gathered; its scratch and
    its semaphores (all at zero) come back as they were handed; every wait it records is at the local index. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileIn m X3 d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt (F := F) L)
          fun _ => iprop(tileOut m X3 d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelRun

end
-- ==== Proof.KernelRun.Launch.Obl.lean ====
/-
  The launch of the embedding lookup's kernel, first part: what the launch theorem asks about the workers. One worker's
  task, stated once at a symbolic grid point, is the task of every vector subcore of the call's grid; a SparseCore's
  sixteen shares are its sixteen workers' shares, so the split among them is the identity up to re-indexing; and the
  launch element of the ghost state is the handshakes' rounds, the transfers' counters being dropped.
-/
import proofs.«207499_g15272903704957_cont_week2b_486_20_alg».proof.Proof.KernelRun.Pay

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (X3 : (d : Dev nD) → Buf (Elt F) (x3Loc d))

variable [FloatOps F]

/-! ## One worker's task is every vector subcore's -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody (F := F) m X3) : (K (F := F)).TileObl (D (F := F)) 𝒱 (P m X3) v₀ 0 := by
  intro d c i O W hO _ _
  simp only [show (P m X3).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## A SparseCore's shares are its workers' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m X3) 0 := by
  intro d c
  show (bigSep Finset.univ fun s : Fin 16 => tileIn m X3 d (wid (Fin.cast nCore_zero c) s)) ⊢ |={Set.univ}=> iprop(
      (bigSep Finset.univ fun i : Fin ((K (F := F)).nSub 0) => tileIn m X3 d (wid (Fin.cast nCore_zero c) (Fin.cast nSub_zero i)))
      ∗ ((bigSep Finset.univ fun i : Fin ((K (F := F)).nSub 0) => tileOut m X3 d (wid (Fin.cast nCore_zero c) (Fin.cast nSub_zero i)))
          -∗ bigSep Finset.univ fun s : Fin 16 => tileOut m X3 d (wid (Fin.cast nCore_zero c) s)))
  rw [bigSep_tasks (F := F) (fun s => tileIn m X3 d (wid (Fin.cast nCore_zero c) s)),
    bigSep_tasks (F := F) (fun s => tileOut m X3 d (wid (Fin.cast nCore_zero c) s))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X3).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelRun

end
-- ==== Proof.KernelRun.Launch.Split.lean ====
/-
  The launch of the embedding lookup's kernel, second part: how the three arrays divide among the 32 workers and come
  back together. The re-laid row numbers `[32,160,64]` are the disjoint union of their 32 rows; the flat output
  `[327680,128]` is the disjoint union of the 32 blocks of 10240 rows; the table is read by all, so its full share is cut
  into 32 read tokens beside a remainder that is kept and rejoined. Worker `w = 2·s + c` runs on vector subcore `s` of
  SparseCore `c`: the map `(c, s) ↦ 2·s + c` is a bijection of `2 × 16` onto `32`, so a product over the workers is the
  product over the SparseCores of the products over their subcores.
-/
import proofs.«207499_g15272903704957_cont_week2b_486_20_alg».proof.Proof.KernelRun.Pay
import proofs.«207499_g15272903704957_cont_week2b_486_20_alg».proof.Proof.Cover

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (X3 : (d : Dev nD) → Buf (Elt F) (x3Loc d))

/-! ## The 32 workers as 2 SparseCores × 16 vector subcores -/

theorem wid_injOn : Set.InjOn (fun p : Fin 2 × Fin 16 => wid p.1 p.2) ↑((Finset.univ : Finset (Fin 2)) ×ˢ (Finset.univ : Finset (Fin 16))) := by
  rintro ⟨c, s⟩ - ⟨c', s'⟩ - e
  have e' : 2 * s.val + c.val = 2 * s'.val + c'.val := congrArg Fin.val e
  have hc := c.isLt; have hc' := c'.isLt
  have h1 : c.val = c'.val := by omega
  have h2 : s.val = s'.val := by omega
  exact Prod.ext (Fin.ext h1) (Fin.ext h2)

theorem wid_image : ((Finset.univ : Finset (Fin 2)) ×ˢ (Finset.univ : Finset (Fin 16))).image (fun p => wid p.1 p.2) = Finset.univ := by
  ext w
  simp only [Finset.mem_image, Finset.mem_product, Finset.mem_univ, and_self, true_and, iff_true, Prod.exists]
  have hw := w.isLt
  exact ⟨⟨w.val % 2, by omega⟩, ⟨w.val / 2, by omega⟩, Fin.ext (by show 2 * (w.val / 2) + w.val % 2 = w.val; omega)⟩

/-- A product over the workers, by SparseCore and then by vector subcore. -/
theorem bigSep_workers (Φ : Fin 32 → sProp 𝕄) :
    (bigSep Finset.univ fun c : Fin 2 => bigSep Finset.univ fun s : Fin 16 => Φ (wid c s)) = bigSep Finset.univ Φ := by
  rw [← SparseCore.bigSep_product Finset.univ Finset.univ (fun p : Fin 2 × Fin 16 => Φ (wid p.1 p.2)),
    ← SparseCore.bigSep_image_of_injOn wid_injOn Φ, wid_image]

theorem bigSep_cores (Ψ : Fin 2 → sProp 𝕄) :
    (bigSep Finset.univ fun c : Fin ((K (F := F)).nCore 0) => Ψ (Fin.cast nCore_zero c)) = bigSep Finset.univ Ψ :=
  bigSep_congr fun _ _ => congrArg Ψ (Fin.ext rfl)

/-- What the call takes for the two SparseCores is the 32 workers' shares; and what it hands back. -/
theorem st0_eq (d : Dev nD) :
    (bigSep Finset.univ fun c : Fin ((K (F := F)).nCore 0) => (P m X3).st 0 d c) = bigSep Finset.univ fun w : Fin 32 => tileIn m X3 d w := by
  show (bigSep Finset.univ fun c : Fin ((K (F := F)).nCore 0) => bigSep Finset.univ fun s : Fin 16 => tileIn m X3 d (wid (Fin.cast nCore_zero c) s)) = _
  rw [bigSep_cores (F := F) (fun c => bigSep Finset.univ fun s : Fin 16 => tileIn m X3 d (wid c s)), bigSep_workers (fun w => tileIn m X3 d w)]
theorem dn0_eq (d : Dev nD) :
    (bigSep Finset.univ fun c : Fin ((K (F := F)).nCore 0) => (P m X3).dn 0 d c) = bigSep Finset.univ fun w : Fin 32 => tileOut m X3 d w := by
  show (bigSep Finset.univ fun c : Fin ((K (F := F)).nCore 0) => bigSep Finset.univ fun s : Fin 16 => tileOut m X3 d (wid (Fin.cast nCore_zero c) s)) = _
  rw [bigSep_cores (F := F) (fun c => bigSep Finset.univ fun s : Fin 16 => tileOut m X3 d (wid c s)), bigSep_workers (fun w => tileOut m X3 d w)]

/-! ## The row numbers by rows, the output by blocks -/

theorem x3_disjoint (d : Dev nD) :
    ∀ w ∈ (Finset.univ : Finset (Fin 32)), ∀ w' ∈ (Finset.univ : Finset (Fin 32)), w ≠ w' → Disjoint (x3Set d w) (x3Set d w') := by
  intro w _ w' _ h
  refine Rect.unit_disjoint 0 ?_
  show w.val + 1 ≤ w'.val ∨ w'.val + 1 ≤ w.val
  have h' : w.val ≠ w'.val := fun c => h (Fin.ext c)
  omega

theorem x3_cover (d : Dev nD) : (Finset.univ : Finset (Fin 32)).biUnion (x3Set d) = Finset.univ := by
  ext j
  simp only [Finset.mem_biUnion, Finset.mem_univ, true_and, iff_true]
  refine ⟨j 0, Rect.mem_set_unit.mpr fun a => ?_⟩
  fin_cases a
  · show (j 0).val ≤ (j 0).val ∧ (j 0).val < (j 0).val + 1; omega
  · show 0 ≤ (j 1).val ∧ (j 1).val < 0 + 160; exact ⟨Nat.zero_le _, lt_of_lt_of_eq (j 1).isLt rfl⟩
  · show 0 ≤ (j 2).val ∧ (j 2).val < 0 + 64; exact ⟨Nat.zero_le _, lt_of_lt_of_eq (j 2).isLt rfl⟩

theorem x3_rows (d : Dev nD) (f : Buf (Elt F) (x3Loc d)) :
    (x3Loc d ↦{fullShare} f : sProp 𝕄) = bigSep Finset.univ fun w : Fin 32 => x3Loc d ↦[x3Set d w]{fullShare} f := by
  rw [← pointsTo_biUnion Finset.univ (ℓ := x3Loc d) (x3Set d) (x3_disjoint d), x3_cover]; try rfl

theorem o_disjoint (d : Dev nD) :
    ∀ w ∈ (Finset.univ : Finset (Fin 32)), ∀ w' ∈ (Finset.univ : Finset (Fin 32)), w ≠ w' → Disjoint (oSet d w) (oSet d w') :=
  fun w _ w' _ h => Cert.Cover.worker_disjoint _ _ h

theorem o_cover (d : Dev nD) : (Finset.univ : Finset (Fin 32)).biUnion (oSet d) = Finset.univ := Cert.Cover.biUnion_worker

theorem o_blocks (d : Dev nD) (f : Buf (Elt F) (oLoc d)) :
    (oLoc d ↦{fullShare} f : sProp 𝕄) = bigSep Finset.univ fun w : Fin 32 => oLoc d ↦[oSet d w]{fullShare} f := by
  rw [← pointsTo_biUnion Finset.univ (ℓ := oLoc d) (oSet d) (o_disjoint d), o_cover]; try rfl

/-! ## Out to the workers and back -/

/-- What is kept of the table's full share while the 32 read tokens are out. -/
abbrev wRest : PosShare TreeShare := Transfers.shareDrop fullShare 32

theorem tilesIn_eq (d : Dev nD) :
    (bigSep Finset.univ fun w : Fin 32 => tileIn m X3 d w)
      = iprop((x3Loc d ↦{fullShare} X3 d) ∗ (bigSep Finset.univ fun w : Fin 32 => wLoc d ↦{wTok w} m (wLoc d)) ∗ (oLoc d ↦{fullShare} m (oLoc d))) := by
  unfold tileIn
  rw [bigSep_sep', bigSep_sep', ← x3_rows, ← o_blocks]

theorem tilesOut_eq (d : Dev nD) :
    (bigSep Finset.univ fun w : Fin 32 => tileOut m X3 d w)
      = iprop((x3Loc d ↦{fullShare} X3 d) ∗ (bigSep Finset.univ fun w : Fin 32 => wLoc d ↦{wTok w} m (wLoc d)) ∗ (oLoc d ↦{fullShare} Gfn m X3 d)) := by
  unfold tileOut
  rw [bigSep_sep', bigSep_sep', ← x3_rows, ← o_blocks]

/-- The table's full share is the remainder and the 32 read tokens. -/
theorem w_split (d : Dev nD) :
    (wLoc d ↦{fullShare} m (wLoc d) : sProp 𝕄)
      ⊢ iprop((wLoc d ↦{wRest} m (wLoc d)) ∗ bigSep Finset.univ fun w : Fin 32 => wLoc d ↦{wTok w} m (wLoc d)) :=
  Transfers.pointsTo_toks_split fullShare 32
theorem w_join (d : Dev nD) :
    iprop((wLoc d ↦{wRest} m (wLoc d)) ∗ bigSep Finset.univ fun w : Fin 32 => wLoc d ↦{wTok w} m (wLoc d))
      ⊢ (wLoc d ↦{fullShare} m (wLoc d) : sProp 𝕄) :=
  Transfers.pointsTo_toks_join fullShare 32

end Cert.KernelRun

end
-- ==== Proof.KernelRun.Launch.Main.lean ====
/-
  The launch of the embedding lookup's kernel, third part: @main on the TensorCore. The row numbers `[16384,20]` are
  re-laid as `[32,160,64]` by a host reshape; the SparseCore call hands each of the 32 workers its row of them, a read token
  of the table and its block of 10240 rows of the flat output `[327680,128]`, and takes them back with every block holding
  the rows of the table its row numbers name; the blocks, each at the one function `gathered`, are the whole flat output,
  which a second host reshape re-lays as `[16384,20,128]`. The two arguments end at their launch contents.
-/
import proofs.«207499_g15272903704957_cont_week2b_486_20_alg».proof.Proof.KernelRun.Launch.Obl
import proofs.«207499_g15272903704957_cont_week2b_486_20_alg».proof.Proof.KernelRun.Launch.Split

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

open TcCoe

/-! ## @main's arrays as the TensorCore holds them -/

abbrev x' : DevRef τ sig := Proc.devRef .tc (main_arg0 : Ref sig .tc)
abbrev w' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (x3Loc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
/-- Two whole arrays held. -/
theorem held_pair (d : Dev nD) {a b : DevRef τ sig} (hab : a ≠ b) (W : Valuation τ sig (Elt F)) :
    (held (T d) {a, b} W : sProp 𝕄) = iprop(((d, a) ↦{fullShare} W a) ∗ (d, b) ↦{fullShare} W b) := by
  unfold held
  rw [SparseCore.bigSep_insert' (by simpa using hab), bigSep_singleton]

/-- The two host reshapes. -/
abbrev op1 : HloOp τ sig (Elt F) := StableHlo.reshape main_arg0 main_v0 rfl shapeCasts_S16384x20_S32x160x64
abbrev op2 : HloOp τ sig (Elt F) := StableHlo.reshape main_v1 main_v2 rfl shapeCasts_S327680x128_S16384x20x128

/-- The row numbers re-laid as `[32,160,64]`: what the first reshape leaves. -/
abbrev X3m (d : Dev nD) : Buf (Elt F) (x3Loc d) := shapeCast (⟨3, ![32, 160, 64]⟩ : Shape) (m (xLoc d)) shapeCasts_S16384x20_S32x160x64
/-- The flat output re-laid as `[16384,20,128]`: what the second reshape leaves. -/
abbrev Rm (d : Dev nD) : Buf (Elt F) (rLoc d) :=
  shapeCast (⟨3, ![16384, 20, 128]⟩ : Shape) (Gfn m (X3m m) d) shapeCasts_S327680x128_S16384x20x128

/-- The launch valuation, and the one before the second reshape: the flat output at what the kernel left. -/
def V0 (d : Dev nD) : Valuation τ sig (Elt F) := fun b => m (d, b)
def V1 (d : Dev nD) : Valuation τ sig (Elt F) := Function.update (V0 m d) v1' (Gfn m (X3m m) d)

theorem op1_x (d : Dev nD) : (op1 (F := F)).result (V0 m d) x' = m (xLoc d) :=
  StableHlo.reshape_result_ne _ _ _ _ _ _ (V0 m d) (show (main_arg0 : Ref sig .tc) ≠ main_v0 by decide)
theorem op1_v0 (d : Dev nD) : (op1 (F := F)).result (V0 m d) v0' = X3m m d := by
  rw [StableHlo.reshape_result]; rfl
theorem V1_v1 (d : Dev nD) : V1 m d v1' = Gfn m (X3m m) d := Function.update_self _ _ _
theorem V1_v2 (d : Dev nD) : V1 m d v2' = m (rLoc d) := Function.update_of_ne (show v2' ≠ v1' by decide) _ _
theorem op2_v1 (d : Dev nD) : (op2 (F := F)).result (V1 m d) v1' = Gfn m (X3m m) d :=
  (StableHlo.reshape_result_ne _ _ _ _ _ _ (V1 m d) (show (main_v1 : Ref sig .tc) ≠ main_v2 by decide)).trans (V1_v1 m d)
theorem op2_v2 (d : Dev nD) : (op2 (F := F)).result (V1 m d) v2' = Rm m d := by
  rw [StableHlo.reshape_result, V1_v1]; rfl

theorem held_V0 (d : Dev nD) :
    (held (T d) {x', v0'} (V0 m d) : sProp 𝕄) = iprop((xLoc d ↦{fullShare} m (xLoc d)) ∗ x3Loc d ↦{fullShare} m (x3Loc d)) :=
  held_pair d (by decide) _
theorem held_op1 (d : Dev nD) :
    (held (T d) {x', v0'} ((op1 (F := F)).result (V0 m d)) : sProp 𝕄) = iprop((xLoc d ↦{fullShare} m (xLoc d)) ∗ x3Loc d ↦{fullShare} X3m m d) := by
  rw [held_pair d (by decide), op1_x, op1_v0]
theorem held_V1 (d : Dev nD) :
    (held (T d) {v1', v2'} (V1 m d) : sProp 𝕄) = iprop((oLoc d ↦{fullShare} Gfn m (X3m m) d) ∗ rLoc d ↦{fullShare} m (rLoc d)) := by
  rw [held_pair d (by decide), V1_v1, V1_v2]
theorem held_op2 (d : Dev nD) :
    (held (T d) {v1', v2'} ((op2 (F := F)).result (V1 m d)) : sProp 𝕄) = iprop((oLoc d ↦{fullShare} Gfn m (X3m m) d) ∗ rLoc d ↦{fullShare} Rm m d) := by
  rw [held_pair d (by decide), op2_v1, op2_v2]

/-! ## @main on the TensorCore -/

/-- What @main leaves the claim: the two arguments at their launch contents, the result at the lookup re-laid. -/
abbrev FIN (d : Dev nD) : sProp 𝕄 :=
  iprop((xLoc d ↦{fullShare} m (xLoc d)) ∗ (wLoc d ↦{fullShare} m (wLoc d)) ∗ rLoc d ↦{fullShare} Rm m d)

/-- @main on device `d`'s TensorCore: the row numbers re-laid; the call, each worker handed its row of them, a read
    token of the table and its block of the flat output, and handing them back with the block gathered; the flat output
    re-laid. -/
theorem hmain (κ : GSem nD τ sig → ℕ) (d : Dev nD) :
    iprop((K (F := F)).ctx EH (P m (X3m m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hw, Hv0, Hv1, Hv2⟩, -, -⟩, -⟩
  -- the first reshape
  iapply (wp_hlo_within 𝒱 (SparseCore.T d) none Set.univ (op := op1) (S := {x', v0'}) (Finset.Subset.refl _) (V := V0 m d)) $$ [Hb Hx Hv0]
  · isplitl [Hb]; · iexact Hb
    rw [held_V0]
    isplitl [Hx]; · iexact Hx
    iexact Hv0
  iintro ⟨Hb, Hheld⟩
  ihave Hh := (Entails.of_eq (held_op1 (F := F) m d)) $$ Hheld
  icases Hh with ⟨Hx, Hv0⟩
  rw [wp_ret]; imodintro
  -- the table's read tokens
  ihave Hw' := (w_split m d) $$ Hw
  icases Hw' with ⟨Hwr, Hwt⟩
  -- the call
  iapply ((K (F := F)).wp_run (D (F := F)) 𝒱 (EH := EH) (P := P m (X3m m)) κ d 0) $$ [Hst Hb Hx Hv0 Hwr Hwt Hv1 Hv2]
  isplitr; · iexact Hctx
  isplitl [Hst]; · iexact Hst
  isplitl [Hv0 Hwt Hv1]
  · rw [st0_eq, tilesIn_eq]
    isplitl [Hv0]; · iexact Hv0
    isplitl [Hwt]; · iexact Hwt
    iexact Hv1
  iintro ⟨Hst, Hdn⟩
  ihave Hdn' := (Entails.of_eq ((dn0_eq m (X3m m) d).trans (tilesOut_eq m (X3m m) d))) $$ Hdn
  icases Hdn' with ⟨-, Hwt, Hv1⟩
  ihave Hw := (w_join m d) $$ [Hwr Hwt]
  · isplitl [Hwr]; · iexact Hwr
    iexact Hwt
  -- the second reshape
  iapply (wp_hlo_within 𝒱 (SparseCore.T d) none Set.univ (op := op2) (S := {v1', v2'}) (Finset.Subset.refl _) (V := V1 m d)) $$ [Hb Hv1 Hv2]
  · isplitl [Hb]; · iexact Hb
    rw [held_V1]
    isplitl [Hv1]; · iexact Hv1
    iexact Hv2
  iintro ⟨Hb, Hheld⟩
  ihave Hh := (Entails.of_eq (held_op2 (F := F) m d)) $$ Hheld
  icases Hh with ⟨-, Hv2⟩
  rw [wp_ret]; imodintro; imodintro
  isplitl [Hst]; · iexact Hst
  isplitl [Hx]; · iexact Hx
  isplitl [Hw]; · iexact Hw
  iexact Hv2

/-! ## The final memory, the program's run -/

def fq (d : Dev nD) (s' : Phys nD τ sig (Elt F)) : Prop :=
  s'.mem.mem (rLoc d) = Rm m d ∧ s'.mem.mem (xLoc d) = m (xLoc d) ∧ s'.mem.mem (wLoc d) = m (wLoc d)

theorem hfin (d : Dev nD) (s' : Phys nD τ sig (Elt F)) : iprop(FIN m d ∗ SI s') ⊢ (⌜fq m d s'⌝ : sProp 𝕄) := by
  iintro ⟨⟨Hx, Hw, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  ∀ c : Dev nD, r.2.mem (rLoc c) = Rm m c ∧ r.2.mem (xLoc c) = m (xLoc c) ∧ r.2.mem (wLoc c) = m (wLoc c)

/-- Every weakly fair execution of the device's threads terminates, nothing faulting; the result is the lookup, flat row
    `f` of it the row of the table that entry `f` of the flat list of row numbers names, re-laid as `[16384,20,128]`; the
    arguments are unchanged. Given one worker's task. -/
theorem run_main [∀ e, Nonempty (Elt F e)] (hb : TileBody (F := F) m (X3m m)) :
    θ_run (Cert.Kernel.defs (F := F)) (Cert.Kernel.threads (F := F)) ⟨m, fun _ => 0, ρ⟩
      (fun r => ∀ c : Dev nD,
        r.2.mem (rLoc c) = shapeCast (⟨3, ![16384, 20, 128]⟩ : Shape)
            (Cert.Spec.gathered (shapeCast (⟨3, ![32, 160, 64]⟩ : Shape) (m (xLoc c)) shapeCasts_S16384x20_S32x160x64) (m (wLoc c)))
            shapeCasts_S327680x128_S16384x20x128
          ∧ r.2.mem (xLoc c) = m (xLoc c) ∧ r.2.mem (wLoc c) = m (wLoc c)) :=
  SparseCore.Cfg.θ_run_sc (K := K (F := F)) (D := D (F := F)) (𝒱 := 𝒱) (EH := EH) (P := P m (X3m m)) facts v₀
    (fun q hq => match q with | 0 => nomatch hq)
    (fun q _ => match q with | 0 => tileObl m (X3m m) hb)
    (fun q _ => match q with | 0 => SparseCore.Cfg.VecSplit.of_plain (vecSplit m (X3m m)))
    m ρ main (fun _ => iprop(emp)) (FIN m) (u₀ (F := F)) (sep_elim_left.trans (hu₀ m (X3m m))) (hmain m ρ) (fq m) (hfin m) (QC m) (fun _ h => h)

end Cert.KernelRun

end
-- ==== Proof.Assemble.lean ====
/-
  The five claims from the pieces. The kernel looks up, for each of the 16384 × 20 row numbers, that row of the table of
  100000 rows of 128 entries. It re-lays the row numbers as 32 × 160 × 64, gathers the named rows into a flat
  327680 × 128 array, and re-lays that as 16384 × 20 × 128; the two re-layings are index equations, so the result is the
  lookup itself. The reference computes the same lookup directly, for row numbers below 100000, which the precondition
  gives. Both programs leave their two arguments as they were. So at the ideal instance both results are one function of
  arguments that agree, and each program's frame claim is the run's statement about the arguments.
-/
import proofs.«207499_g15272903704957_cont_week2b_486_20_alg».proof.Defs
import proofs.«207499_g15272903704957_cont_week2b_486_20_alg».proof.Proof.Gen.Kernel
import proofs.«207499_g15272903704957_cont_week2b_486_20_alg».proof.Proof.Gen.KernelIdeal
import proofs.«207499_g15272903704957_cont_week2b_486_20_alg».proof.Proof.Gen.ReferenceIdeal
import proofs.«207499_g15272903704957_cont_week2b_486_20_alg».proof.Proof.Gen.Pre_input_domain
import proofs.«207499_g15272903704957_cont_week2b_486_20_alg».proof.Proof.Bridge
import proofs.«207499_g15272903704957_cont_week2b_486_20_alg».proof.Proof.PreRange
import proofs.«207499_g15272903704957_cont_week2b_486_20_alg».proof.Proof.KernelIdealRun.Launch.Main
import proofs.«207499_g15272903704957_cont_week2b_486_20_alg».proof.Proof.RefRun
import proofs.«207499_g15272903704957_cont_week2b_486_20_alg».proof.Proof.KernelRun.Launch.Main

noncomputable section

namespace Cert.Assemble

open Idealize.ShloMosaic Idealize.SL.Sem

/-- The kernel runs and leaves its arguments unchanged, the same way. -/
theorem frame_K
    (hK : ∀ (m : (ℓ : Loc Cert.Kernel.nD Cert.Kernel.τ Cert.Kernel.sig) → Buf (Elt Bits) ℓ)
      (X3 : (d : Dev Cert.Kernel.nD) → Buf (Elt Bits) (Cert.KernelRun.x3Loc d)),
      (∀ d, Cert.Spec.InRange (X3 d)) → Cert.KernelRun.TileBody (F := Bits) m X3) :
    Cert.frame_Kernel := by
  intro m g hpre
  have hx := Cert.PreRange.kernel m hpre
  exact (θ_run _ _ _).mono (fun _ h c => (h c).2)
    (Cert.KernelRun.run_main m g (hK m _ fun d => Cert.Bridge.inRange_x3 _ _ (hx d)))

/-- The idealized kernel runs and leaves its arguments unchanged: the run's statement, its row numbers in range by the
    precondition, re-laid row numbers staying in range. -/
theorem frame_KI
    (hKI : ∀ (m : (ℓ : Loc Cert.KernelIdeal.nD Cert.KernelIdeal.τ Cert.KernelIdeal.sig) → Buf (Elt Ideal) ℓ)
      (X3 : (d : Dev Cert.KernelIdeal.nD) → Buf (Elt Ideal) (Cert.KernelIdealRun.x3Loc d)),
      (∀ d, Cert.Spec.InRange (X3 d)) → Cert.KernelIdealRun.TileBody (F := Ideal) m X3) :
    Cert.frame_KernelIdeal := by
  intro m g hpre
  have hx := Cert.PreRange.kernelIdeal m hpre
  exact (θ_run _ _ _).mono (fun _ h c => (h c).2)
    (Cert.KernelIdealRun.run_main m g (hKI m _ fun d => Cert.Bridge.inRange_x3 _ _ (hx d)))

/-- The idealized reference runs and leaves its arguments unchanged. -/
theorem frame_R : Cert.frame_ReferenceIdeal := by
  intro m g hpre
  exact (θ_run _ _ _).mono (fun _ h c => (h c).2) (Cert.RefRun.run m g (Cert.PreRange.referenceIdeal m hpre))

/-- The idealized kernel is the kernel, operation for operation. -/
theorem preserves : Cert.preserves_Kernel_KernelIdeal := trivial

/-- At the ideal instance, from memories that agree on the two arguments: the kernel's result is the flat gather of the
    re-laid row numbers, re-laid — the lookup of its arguments, by the two index equations; the reference's result is the
    lookup of its own arguments, which are the kernel's. -/
theorem algebraic
    (hKI : ∀ (m : (ℓ : Loc Cert.KernelIdeal.nD Cert.KernelIdeal.τ Cert.KernelIdeal.sig) → Buf (Elt Ideal) ℓ)
      (X3 : (d : Dev Cert.KernelIdeal.nD) → Buf (Elt Ideal) (Cert.KernelIdealRun.x3Loc d)),
      (∀ d, Cert.Spec.InRange (X3 d)) → Cert.KernelIdealRun.TileBody (F := Ideal) m X3) :
    Cert.algebraic_KernelIdeal_ReferenceIdeal := by
  intro m g m' g' hpre hagree
  have hx := Cert.PreRange.kernelIdeal m hpre
  refine ⟨fun c => Cert.Spec.lookup (m (Cert.KernelIdealRun.xLoc c)) (m (Cert.KernelIdealRun.wLoc c)), ?_, ?_⟩
  · exact (θ_run _ _ _).mono (fun _ h c => ⟨(h c).1.trans (Cert.Bridge.bridge _ _ _ _), (h c).2⟩)
      (Cert.KernelIdealRun.run_main m g (hKI m _ fun d => Cert.Bridge.inRange_x3 _ _ (hx d)))
  · have hx' : ∀ c : Dev Cert.ReferenceIdeal.nD, Cert.Spec.InRange
        (m' ((c.tc : Thread Cert.ReferenceIdeal.nD Cert.ReferenceIdeal.τ).loc Cert.ReferenceIdeal.main_arg0)) := fun c => by
      rw [(hagree c).1]; exact hx c
    refine (θ_run _ _ _).mono (fun _ h c => ⟨(h c).1.trans ?_, (h c).2⟩) (Cert.RefRun.run m' g' hx')
    rw [(hagree c).1, (hagree c).2]

end Cert.Assemble

end
-- ==== Proof.KernelRun.Slices.Idx.lean ====
/-
  The rows of the index scratch the kernel names, by row number. The scratch holds a worker's 160 × 64 row numbers; the
  kernel reads it one row of 64 at a time, and inside its loop names the row by an offset it computes in 32-bit words
  from the trip k and a digit r: row 10·k + r + 10, or row 10·k + r + 16. A slice is determined by its offset, whatever
  the evidence that it is in bounds, so each such access is the access of the row with that number. Likewise a worker's
  own 160 × 64 block of the re-laid row numbers is block 2·s + c of the 32.
-/
import proofs.«207499_g15272903704957_cont_week2b_486_20_alg».proof.Proof.KernelRun.Pay

noncomputable section

namespace Cert.KernelRun

open Cert.Kernel Cert.Kernel.Gen

open Idealize.ShloMosaic

/-! ## A row of the index scratch, by its number -/

/-- Row g < 160 of the index scratch lies inside it. -/
theorem idxRowC_inb (g : ℕ) (hg : g < 160) : ∀ a, (![g, 0] : Fin 2 → ℕ) a + S1x64.size a ≤ S160x64.size a :=
  Rect.inb₂ (by show g + 1 ≤ 160; omega) (by show 0 + 64 ≤ 64; omega)

/-- Row g of the index scratch, as a list of 64 row numbers. -/
abbrev idxRowC (g : ℕ) (hg : g < 160) : Memref sig .scVector .vmem S64 .i32 :=
  ((Memref.whole cc0_scratch0 : Memref sig .scVector .vmem S160x64 .i32).slice
    (Rect.unit (s := S160x64) ![g, 0] S1x64.size (idxRowC_inb g hg)) (fun _ => rfl)).squeeze S64 squeezes_S1x64_S64

/-! ## A row depends on its offset alone -/

/-- Rows of the index scratch at equal offsets are the same list, whatever the in-bounds evidence. -/
theorem idxRow_congr {off off' : Fin 2 → ℕ} (h : ∀ a, off a + S1x64.size a ≤ S160x64.size a)
    (h' : ∀ a, off' a + S1x64.size a ≤ S160x64.size a) (e : off = off') :
    ((Memref.whole cc0_scratch0 : Memref sig .scVector .vmem S160x64 .i32).slice
        (Rect.unit (s := S160x64) off S1x64.size h) (fun _ => rfl)).squeeze S64 squeezes_S1x64_S64
      = ((Memref.whole cc0_scratch0 : Memref sig .scVector .vmem S160x64 .i32).slice
        (Rect.unit (s := S160x64) off' S1x64.size h') (fun _ => rfl)).squeeze S64 squeezes_S1x64_S64 := by
  subst e; rfl

/-- … and so cover the same indices of the scratch. -/
theorem idxRow_set_congr {off off' : Fin 2 → ℕ} (h : ∀ a, off a + S1x64.size a ≤ S160x64.size a)
    (h' : ∀ a, off' a + S1x64.size a ≤ S160x64.size a) (e : off = off') :
    (((Memref.whole cc0_scratch0 : Memref sig .scVector .vmem S160x64 .i32).slice
        (Rect.unit (s := S160x64) off S1x64.size h) (fun _ => rfl)).squeeze S64 squeezes_S1x64_S64).view.set
      = (((Memref.whole cc0_scratch0 : Memref sig .scVector .vmem S160x64 .i32).slice
        (Rect.unit (s := S160x64) off' S1x64.size h') (fun _ => rfl)).squeeze S64 squeezes_S1x64_S64).view.set := by
  subst e; rfl

/-! ## The loop's rows -/

/-- The loop makes at most 14 trips. -/
theorem trip_lt (k : Fin k0_t1_loop.trips) : k.val < 14 := Nat.lt_of_lt_of_le k.isLt k0_t1_abs.2.1

theorem row6_lt (k : Fin k0_t1_loop.trips) (r : Fin 10) : 10 * k.val + r.val + 16 < 160 := by
  have := trip_lt k; have := r.isLt; omega
theorem row3_lt (k : Fin k0_t1_loop.trips) (r : Fin 10) : 10 * k.val + r.val + 10 < 160 := by
  have := trip_lt k; have := r.isLt; omega

/-- The row at the offset computed from trip k and digit r with 16 added is row 10·k + r + 16. -/
theorem idxRow_off6 (k : Fin k0_t1_loop.trips) (r : Fin 10)
    (h : ∀ a, (k0_off6 k (BitVec.ofNat 32 r.val)) a + S1x64.size a ≤ S160x64.size a) :
    ((Memref.whole cc0_scratch0 : Memref sig .scVector .vmem S160x64 .i32).slice
        (Rect.unit (s := S160x64) (k0_off6 k (BitVec.ofNat 32 r.val)) S1x64.size h) (fun _ => rfl)).squeeze S64 squeezes_S1x64_S64
      = idxRowC (10 * k.val + r.val + 16) (row6_lt k r) :=
  idxRow_congr _ _ (k0_off6_eq k r)

theorem set_off6 (k : Fin k0_t1_loop.trips) (r : Fin 10) :
    (((Memref.whole cc0_scratch0 : Memref sig .scVector .vmem S160x64 .i32).slice
        (Rect.unit (s := S160x64) (k0_off6 k (BitVec.ofNat 32 r.val)) S1x64.size (k0_off6_inb k r)) (fun _ => rfl)).squeeze S64 squeezes_S1x64_S64).view.set
      = (idxRowC (10 * k.val + r.val + 16) (row6_lt k r)).view.set :=
  idxRow_set_congr _ _ (k0_off6_eq k r)

/-- The row at the offset computed from trip k and digit r is row 10·k + r + 10. -/
theorem idxRow_off3 (k : Fin k0_t1_loop.trips) (r : Fin 10)
    (h : ∀ a, (k0_off3 k (BitVec.ofNat 32 r.val)) a + S1x64.size a ≤ S160x64.size a) :
    ((Memref.whole cc0_scratch0 : Memref sig .scVector .vmem S160x64 .i32).slice
        (Rect.unit (s := S160x64) (k0_off3 k (BitVec.ofNat 32 r.val)) S1x64.size h) (fun _ => rfl)).squeeze S64 squeezes_S1x64_S64
      = idxRowC (10 * k.val + r.val + 10) (row3_lt k r) :=
  idxRow_congr _ _ (k0_off3_eq k r)

theorem set_off3 (k : Fin k0_t1_loop.trips) (r : Fin 10) :
    (((Memref.whole cc0_scratch0 : Memref sig .scVector .vmem S160x64 .i32).slice
        (Rect.unit (s := S160x64) (k0_off3 k (BitVec.ofNat 32 r.val)) S1x64.size (k0_off3_inb k r)) (fun _ => rfl)).squeeze S64 squeezes_S1x64_S64).view.set
      = (idxRowC (10 * k.val + r.val + 10) (row3_lt k r)).view.set :=
  idxRow_set_congr _ _ (k0_off3_eq k r)

/-! ## The same with the digit written out, one per digit: the form an access has in the program's text -/

theorem idxRow_off6_0 (k : Fin k0_t1_loop.trips) (h : ∀ a, (k0_off6 k 0#32) a + S1x64.size a ≤ S160x64.size a) :
    ((Memref.whole cc0_scratch0 : Memref sig .scVector .vmem S160x64 .i32).slice
        (Rect.unit (s := S160x64) (k0_off6 k 0#32) S1x64.size h) (fun _ => rfl)).squeeze S64 squeezes_S1x64_S64
      = idxRowC (10 * k.val + 0 + 16) (row6_lt k 0) :=
  idxRow_congr _ _ (k0_off6_eq k 0)
theorem set_off6_0 (k : Fin k0_t1_loop.trips) (h : ∀ a, (k0_off6 k 0#32) a + S1x64.size a ≤ S160x64.size a) :
    (((Memref.whole cc0_scratch0 : Memref sig .scVector .vmem S160x64 .i32).slice
        (Rect.unit (s := S160x64) (k0_off6 k 0#32) S1x64.size h) (fun _ => rfl)).squeeze S64 squeezes_S1x64_S64).view.set
      = (idxRowC (10 * k.val + 0 + 16) (row6_lt k 0)).view.set :=
  idxRow_set_congr _ _ (k0_off6_eq k 0)

theorem idxRow_off6_1 (k : Fin k0_t1_loop.trips) (h : ∀ a, (k0_off6 k 1#32) a + S1x64.size a ≤ S160x64.size a) :
    ((Memref.whole cc0_scratch0 : Memref sig .scVector .vmem S160x64 .i32).slice
        (Rect.unit (s := S160x64) (k0_off6 k 1#32) S1x64.size h) (fun _ => rfl)).squeeze S64 squeezes_S1x64_S64
      = idxRowC (10 * k.val + 1 + 16) (row6_lt k 1) :=
  idxRow_congr _ _ (k0_off6_eq k 1)
theorem set_off6_1 (k : Fin k0_t1_loop.trips) (h : ∀ a, (k0_off6 k 1#32) a + S1x64.size a ≤ S160x64.size a) :
    (((Memref.whole cc0_scratch0 : Memref sig .scVector .vmem S160x64 .i32).slice
        (Rect.unit (s := S160x64) (k0_off6 k 1#32) S1x64.size h) (fun _ => rfl)).squeeze S64 squeezes_S1x64_S64).view.set
      = (idxRowC (10 * k.val + 1 + 16) (row6_lt k 1)).view.set :=
  idxRow_set_congr _ _ (k0_off6_eq k 1)

theorem idxRow_off6_2 (k : Fin k0_t1_loop.trips) (h : ∀ a, (k0_off6 k 2#32) a + S1x64.size a ≤ S160x64.size a) :
    ((Memref.whole cc0_scratch0 : Memref sig .scVector .vmem S160x64 .i32).slice
        (Rect.unit (s := S160x64) (k0_off6 k 2#32) S1x64.size h) (fun _ => rfl)).squeeze S64 squeezes_S1x64_S64
      = idxRowC (10 * k.val + 2 + 16) (row6_lt k 2) :=
  idxRow_congr _ _ (k0_off6_eq k 2)
theorem set_off6_2 (k : Fin k0_t1_loop.trips) (h : ∀ a, (k0_off6 k 2#32) a + S1x64.size a ≤ S160x64.size a) :
    (((Memref.whole cc0_scratch0 : Memref sig .scVector .vmem S160x64 .i32).slice
        (Rect.unit (s := S160x64) (k0_off6 k 2#32) S1x64.size h) (fun _ => rfl)).squeeze S64 squeezes_S1x64_S64).view.set
      = (idxRowC (10 * k.val + 2 + 16) (row6_lt k 2)).view.set :=
  idxRow_set_congr _ _ (k0_off6_eq k 2)

theorem idxRow_off6_3 (k : Fin k0_t1_loop.trips) (h : ∀ a, (k0_off6 k 3#32) a + S1x64.size a ≤ S160x64.size a) :
    ((Memref.whole cc0_scratch0 : Memref sig .scVector .vmem S160x64 .i32).slice
        (Rect.unit (s := S160x64) (k0_off6 k 3#32) S1x64.size h) (fun _ => rfl)).squeeze S64 squeezes_S1x64_S64
      = idxRowC (10 * k.val + 3 + 16) (row6_lt k 3) :=
  idxRow_congr _ _ (k0_off6_eq k 3)
theorem set_off6_3 (k : Fin k0_t1_loop.trips) (h : ∀ a, (k0_off6 k 3#32) a + S1x64.size a ≤ S160x64.size a) :
    (((Memref.whole cc0_scratch0 : Memref sig .scVector .vmem S160x64 .i32).slice
        (Rect.unit (s := S160x64) (k0_off6 k 3#32) S1x64.size h) (fun _ => rfl)).squeeze S64 squeezes_S1x64_S64).view.set
      = (idxRowC (10 * k.val + 3 + 16) (row6_lt k 3)).view.set :=
  idxRow_set_congr _ _ (k0_off6_eq k 3)

theorem idxRow_off6_4 (k : Fin k0_t1_loop.trips) (h : ∀ a, (k0_off6 k 4#32) a + S1x64.size a ≤ S160x64.size a) :
    ((Memref.whole cc0_scratch0 : Memref sig .scVector .vmem S160x64 .i32).slice
        (Rect.unit (s := S160x64) (k0_off6 k 4#32) S1x64.size h) (fun _ => rfl)).squeeze S64 squeezes_S1x64_S64
      = idxRowC (10 * k.val + 4 + 16) (row6_lt k 4) :=
  idxRow_congr _ _ (k0_off6_eq k 4)
theorem set_off6_4 (k : Fin k0_t1_loop.trips) (h : ∀ a, (k0_off6 k 4#32) a + S1x64.size a ≤ S160x64.size a) :
    (((Memref.whole cc0_scratch0 : Memref sig .scVector .vmem S160x64 .i32).slice
        (Rect.unit (s := S160x64) (k0_off6 k 4#32) S1x64.size h) (fun _ => rfl)).squeeze S64 squeezes_S1x64_S64).view.set
      = (idxRowC (10 * k.val + 4 + 16) (row6_lt k 4)).view.set :=
  idxRow_set_congr _ _ (k0_off6_eq k 4)

theorem idxRow_off6_5 (k : Fin k0_t1_loop.trips) (h : ∀ a, (k0_off6 k 5#32) a + S1x64.size a ≤ S160x64.size a) :
    ((Memref.whole cc0_scratch0 : Memref sig .scVector .vmem S160x64 .i32).slice
        (Rect.unit (s := S160x64) (k0_off6 k 5#32) S1x64.size h) (fun _ => rfl)).squeeze S64 squeezes_S1x64_S64
      = idxRowC (10 * k.val + 5 + 16) (row6_lt k 5) :=
  idxRow_congr _ _ (k0_off6_eq k 5)
theorem set_off6_5 (k : Fin k0_t1_loop.trips) (h : ∀ a, (k0_off6 k 5#32) a + S1x64.size a ≤ S160x64.size a) :
    (((Memref.whole cc0_scratch0 : Memref sig .scVector .vmem S160x64 .i32).slice
        (Rect.unit (s := S160x64) (k0_off6 k 5#32) S1x64.size h) (fun _ => rfl)).squeeze S64 squeezes_S1x64_S64).view.set
      = (idxRowC (10 * k.val + 5 + 16) (row6_lt k 5)).view.set :=
  idxRow_set_congr _ _ (k0_off6_eq k 5)

theorem idxRow_off6_6 (k : Fin k0_t1_loop.trips) (h : ∀ a, (k0_off6 k 6#32) a + S1x64.size a ≤ S160x64.size a) :
    ((Memref.whole cc0_scratch0 : Memref sig .scVector .vmem S160x64 .i32).slice
        (Rect.unit (s := S160x64) (k0_off6 k 6#32) S1x64.size h) (fun _ => rfl)).squeeze S64 squeezes_S1x64_S64
      = idxRowC (10 * k.val + 6 + 16) (row6_lt k 6) :=
  idxRow_congr _ _ (k0_off6_eq k 6)
theorem set_off6_6 (k : Fin k0_t1_loop.trips) (h : ∀ a, (k0_off6 k 6#32) a + S1x64.size a ≤ S160x64.size a) :
    (((Memref.whole cc0_scratch0 : Memref sig .scVector .vmem S160x64 .i32).slice
        (Rect.unit (s := S160x64) (k0_off6 k 6#32) S1x64.size h) (fun _ => rfl)).squeeze S64 squeezes_S1x64_S64).view.set
      = (idxRowC (10 * k.val + 6 + 16) (row6_lt k 6)).view.set :=
  idxRow_set_congr _ _ (k0_off6_eq k 6)

theorem idxRow_off6_7 (k : Fin k0_t1_loop.trips) (h : ∀ a, (k0_off6 k 7#32) a + S1x64.size a ≤ S160x64.size a) :
    ((Memref.whole cc0_scratch0 : Memref sig .scVector .vmem S160x64 .i32).slice
        (Rect.unit (s := S160x64) (k0_off6 k 7#32) S1x64.size h) (fun _ => rfl)).squeeze S64 squeezes_S1x64_S64
      = idxRowC (10 * k.val + 7 + 16) (row6_lt k 7) :=
  idxRow_congr _ _ (k0_off6_eq k 7)
theorem set_off6_7 (k : Fin k0_t1_loop.trips) (h : ∀ a, (k0_off6 k 7#32) a + S1x64.size a ≤ S160x64.size a) :
    (((Memref.whole cc0_scratch0 : Memref sig .scVector .vmem S160x64 .i32).slice
        (Rect.unit (s := S160x64) (k0_off6 k 7#32) S1x64.size h) (fun _ => rfl)).squeeze S64 squeezes_S1x64_S64).view.set
      = (idxRowC (10 * k.val + 7 + 16) (row6_lt k 7)).view.set :=
  idxRow_set_congr _ _ (k0_off6_eq k 7)

theorem idxRow_off6_8 (k : Fin k0_t1_loop.trips) (h : ∀ a, (k0_off6 k 8#32) a + S1x64.size a ≤ S160x64.size a) :
    ((Memref.whole cc0_scratch0 : Memref sig .scVector .vmem S160x64 .i32).slice
        (Rect.unit (s := S160x64) (k0_off6 k 8#32) S1x64.size h) (fun _ => rfl)).squeeze S64 squeezes_S1x64_S64
      = idxRowC (10 * k.val + 8 + 16) (row6_lt k 8) :=
  idxRow_congr _ _ (k0_off6_eq k 8)
theorem set_off6_8 (k : Fin k0_t1_loop.trips) (h : ∀ a, (k0_off6 k 8#32) a + S1x64.size a ≤ S160x64.size a) :
    (((Memref.whole cc0_scratch0 : Memref sig .scVector .vmem S160x64 .i32).slice
        (Rect.unit (s := S160x64) (k0_off6 k 8#32) S1x64.size h) (fun _ => rfl)).squeeze S64 squeezes_S1x64_S64).view.set
      = (idxRowC (10 * k.val + 8 + 16) (row6_lt k 8)).view.set :=
  idxRow_set_congr _ _ (k0_off6_eq k 8)

theorem idxRow_off6_9 (k : Fin k0_t1_loop.trips) (h : ∀ a, (k0_off6 k 9#32) a + S1x64.size a ≤ S160x64.size a) :
    ((Memref.whole cc0_scratch0 : Memref sig .scVector .vmem S160x64 .i32).slice
        (Rect.unit (s := S160x64) (k0_off6 k 9#32) S1x64.size h) (fun _ => rfl)).squeeze S64 squeezes_S1x64_S64
      = idxRowC (10 * k.val + 9 + 16) (row6_lt k 9) :=
  idxRow_congr _ _ (k0_off6_eq k 9)
theorem set_off6_9 (k : Fin k0_t1_loop.trips) (h : ∀ a, (k0_off6 k 9#32) a + S1x64.size a ≤ S160x64.size a) :
    (((Memref.whole cc0_scratch0 : Memref sig .scVector .vmem S160x64 .i32).slice
        (Rect.unit (s := S160x64) (k0_off6 k 9#32) S1x64.size h) (fun _ => rfl)).squeeze S64 squeezes_S1x64_S64).view.set
      = (idxRowC (10 * k.val + 9 + 16) (row6_lt k 9)).view.set :=
  idxRow_set_congr _ _ (k0_off6_eq k 9)

theorem idxRow_off3_0 (k : Fin k0_t1_loop.trips) (h : ∀ a, (k0_off3 k 0#32) a + S1x64.size a ≤ S160x64.size a) :
    ((Memref.whole cc0_scratch0 : Memref sig .scVector .vmem S160x64 .i32).slice
        (Rect.unit (s := S160x64) (k0_off3 k 0#32) S1x64.size h) (fun _ => rfl)).squeeze S64 squeezes_S1x64_S64
      = idxRowC (10 * k.val + 0 + 10) (row3_lt k 0) :=
  idxRow_congr _ _ (k0_off3_eq k 0)
theorem set_off3_0 (k : Fin k0_t1_loop.trips) (h : ∀ a, (k0_off3 k 0#32) a + S1x64.size a ≤ S160x64.size a) :
    (((Memref.whole cc0_scratch0 : Memref sig .scVector .vmem S160x64 .i32).slice
        (Rect.unit (s := S160x64) (k0_off3 k 0#32) S1x64.size h) (fun _ => rfl)).squeeze S64 squeezes_S1x64_S64).view.set
      = (idxRowC (10 * k.val + 0 + 10) (row3_lt k 0)).view.set :=
  idxRow_set_congr _ _ (k0_off3_eq k 0)

theorem idxRow_off3_1 (k : Fin k0_t1_loop.trips) (h : ∀ a, (k0_off3 k 1#32) a + S1x64.size a ≤ S160x64.size a) :
    ((Memref.whole cc0_scratch0 : Memref sig .scVector .vmem S160x64 .i32).slice
        (Rect.unit (s := S160x64) (k0_off3 k 1#32) S1x64.size h) (fun _ => rfl)).squeeze S64 squeezes_S1x64_S64
      = idxRowC (10 * k.val + 1 + 10) (row3_lt k 1) :=
  idxRow_congr _ _ (k0_off3_eq k 1)
theorem set_off3_1 (k : Fin k0_t1_loop.trips) (h : ∀ a, (k0_off3 k 1#32) a + S1x64.size a ≤ S160x64.size a) :
    (((Memref.whole cc0_scratch0 : Memref sig .scVector .vmem S160x64 .i32).slice
        (Rect.unit (s := S160x64) (k0_off3 k 1#32) S1x64.size h) (fun _ => rfl)).squeeze S64 squeezes_S1x64_S64).view.set
      = (idxRowC (10 * k.val + 1 + 10) (row3_lt k 1)).view.set :=
  idxRow_set_congr _ _ (k0_off3_eq k 1)

theorem idxRow_off3_2 (k : Fin k0_t1_loop.trips) (h : ∀ a, (k0_off3 k 2#32) a + S1x64.size a ≤ S160x64.size a) :
    ((Memref.whole cc0_scratch0 : Memref sig .scVector .vmem S160x64 .i32).slice
        (Rect.unit (s := S160x64) (k0_off3 k 2#32) S1x64.size h) (fun _ => rfl)).squeeze S64 squeezes_S1x64_S64
      = idxRowC (10 * k.val + 2 + 10) (row3_lt k 2) :=
  idxRow_congr _ _ (k0_off3_eq k 2)
theorem set_off3_2 (k : Fin k0_t1_loop.trips) (h : ∀ a, (k0_off3 k 2#32) a + S1x64.size a ≤ S160x64.size a) :
    (((Memref.whole cc0_scratch0 : Memref sig .scVector .vmem S160x64 .i32).slice
        (Rect.unit (s := S160x64) (k0_off3 k 2#32) S1x64.size h) (fun _ => rfl)).squeeze S64 squeezes_S1x64_S64).view.set
      = (idxRowC (10 * k.val + 2 + 10) (row3_lt k 2)).view.set :=
  idxRow_set_congr _ _ (k0_off3_eq k 2)

theorem idxRow_off3_3 (k : Fin k0_t1_loop.trips) (h : ∀ a, (k0_off3 k 3#32) a + S1x64.size a ≤ S160x64.size a) :
    ((Memref.whole cc0_scratch0 : Memref sig .scVector .vmem S160x64 .i32).slice
        (Rect.unit (s := S160x64) (k0_off3 k 3#32) S1x64.size h) (fun _ => rfl)).squeeze S64 squeezes_S1x64_S64
      = idxRowC (10 * k.val + 3 + 10) (row3_lt k 3) :=
  idxRow_congr _ _ (k0_off3_eq k 3)
theorem set_off3_3 (k : Fin k0_t1_loop.trips) (h : ∀ a, (k0_off3 k 3#32) a + S1x64.size a ≤ S160x64.size a) :
    (((Memref.whole cc0_scratch0 : Memref sig .scVector .vmem S160x64 .i32).slice
        (Rect.unit (s := S160x64) (k0_off3 k 3#32) S1x64.size h) (fun _ => rfl)).squeeze S64 squeezes_S1x64_S64).view.set
      = (idxRowC (10 * k.val + 3 + 10) (row3_lt k 3)).view.set :=
  idxRow_set_congr _ _ (k0_off3_eq k 3)

theorem idxRow_off3_4 (k : Fin k0_t1_loop.trips) (h : ∀ a, (k0_off3 k 4#32) a + S1x64.size a ≤ S160x64.size a) :
    ((Memref.whole cc0_scratch0 : Memref sig .scVector .vmem S160x64 .i32).slice
        (Rect.unit (s := S160x64) (k0_off3 k 4#32) S1x64.size h) (fun _ => rfl)).squeeze S64 squeezes_S1x64_S64
      = idxRowC (10 * k.val + 4 + 10) (row3_lt k 4) :=
  idxRow_congr _ _ (k0_off3_eq k 4)
theorem set_off3_4 (k : Fin k0_t1_loop.trips) (h : ∀ a, (k0_off3 k 4#32) a + S1x64.size a ≤ S160x64.size a) :
    (((Memref.whole cc0_scratch0 : Memref sig .scVector .vmem S160x64 .i32).slice
        (Rect.unit (s := S160x64) (k0_off3 k 4#32) S1x64.size h) (fun _ => rfl)).squeeze S64 squeezes_S1x64_S64).view.set
      = (idxRowC (10 * k.val + 4 + 10) (row3_lt k 4)).view.set :=
  idxRow_set_congr _ _ (k0_off3_eq k 4)

theorem idxRow_off3_5 (k : Fin k0_t1_loop.trips) (h : ∀ a, (k0_off3 k 5#32) a + S1x64.size a ≤ S160x64.size a) :
    ((Memref.whole cc0_scratch0 : Memref sig .scVector .vmem S160x64 .i32).slice
        (Rect.unit (s := S160x64) (k0_off3 k 5#32) S1x64.size h) (fun _ => rfl)).squeeze S64 squeezes_S1x64_S64
      = idxRowC (10 * k.val + 5 + 10) (row3_lt k 5) :=
  idxRow_congr _ _ (k0_off3_eq k 5)
theorem set_off3_5 (k : Fin k0_t1_loop.trips) (h : ∀ a, (k0_off3 k 5#32) a + S1x64.size a ≤ S160x64.size a) :
    (((Memref.whole cc0_scratch0 : Memref sig .scVector .vmem S160x64 .i32).slice
        (Rect.unit (s := S160x64) (k0_off3 k 5#32) S1x64.size h) (fun _ => rfl)).squeeze S64 squeezes_S1x64_S64).view.set
      = (idxRowC (10 * k.val + 5 + 10) (row3_lt k 5)).view.set :=
  idxRow_set_congr _ _ (k0_off3_eq k 5)

theorem idxRow_off3_6 (k : Fin k0_t1_loop.trips) (h : ∀ a, (k0_off3 k 6#32) a + S1x64.size a ≤ S160x64.size a) :
    ((Memref.whole cc0_scratch0 : Memref sig .scVector .vmem S160x64 .i32).slice
        (Rect.unit (s := S160x64) (k0_off3 k 6#32) S1x64.size h) (fun _ => rfl)).squeeze S64 squeezes_S1x64_S64
      = idxRowC (10 * k.val + 6 + 10) (row3_lt k 6) :=
  idxRow_congr _ _ (k0_off3_eq k 6)
theorem set_off3_6 (k : Fin k0_t1_loop.trips) (h : ∀ a, (k0_off3 k 6#32) a + S1x64.size a ≤ S160x64.size a) :
    (((Memref.whole cc0_scratch0 : Memref sig .scVector .vmem S160x64 .i32).slice
        (Rect.unit (s := S160x64) (k0_off3 k 6#32) S1x64.size h) (fun _ => rfl)).squeeze S64 squeezes_S1x64_S64).view.set
      = (idxRowC (10 * k.val + 6 + 10) (row3_lt k 6)).view.set :=
  idxRow_set_congr _ _ (k0_off3_eq k 6)

theorem idxRow_off3_7 (k : Fin k0_t1_loop.trips) (h : ∀ a, (k0_off3 k 7#32) a + S1x64.size a ≤ S160x64.size a) :
    ((Memref.whole cc0_scratch0 : Memref sig .scVector .vmem S160x64 .i32).slice
        (Rect.unit (s := S160x64) (k0_off3 k 7#32) S1x64.size h) (fun _ => rfl)).squeeze S64 squeezes_S1x64_S64
      = idxRowC (10 * k.val + 7 + 10) (row3_lt k 7) :=
  idxRow_congr _ _ (k0_off3_eq k 7)
theorem set_off3_7 (k : Fin k0_t1_loop.trips) (h : ∀ a, (k0_off3 k 7#32) a + S1x64.size a ≤ S160x64.size a) :
    (((Memref.whole cc0_scratch0 : Memref sig .scVector .vmem S160x64 .i32).slice
        (Rect.unit (s := S160x64) (k0_off3 k 7#32) S1x64.size h) (fun _ => rfl)).squeeze S64 squeezes_S1x64_S64).view.set
      = (idxRowC (10 * k.val + 7 + 10) (row3_lt k 7)).view.set :=
  idxRow_set_congr _ _ (k0_off3_eq k 7)

theorem idxRow_off3_8 (k : Fin k0_t1_loop.trips) (h : ∀ a, (k0_off3 k 8#32) a + S1x64.size a ≤ S160x64.size a) :
    ((Memref.whole cc0_scratch0 : Memref sig .scVector .vmem S160x64 .i32).slice
        (Rect.unit (s := S160x64) (k0_off3 k 8#32) S1x64.size h) (fun _ => rfl)).squeeze S64 squeezes_S1x64_S64
      = idxRowC (10 * k.val + 8 + 10) (row3_lt k 8) :=
  idxRow_congr _ _ (k0_off3_eq k 8)
theorem set_off3_8 (k : Fin k0_t1_loop.trips) (h : ∀ a, (k0_off3 k 8#32) a + S1x64.size a ≤ S160x64.size a) :
    (((Memref.whole cc0_scratch0 : Memref sig .scVector .vmem S160x64 .i32).slice
        (Rect.unit (s := S160x64) (k0_off3 k 8#32) S1x64.size h) (fun _ => rfl)).squeeze S64 squeezes_S1x64_S64).view.set
      = (idxRowC (10 * k.val + 8 + 10) (row3_lt k 8)).view.set :=
  idxRow_set_congr _ _ (k0_off3_eq k 8)

theorem idxRow_off3_9 (k : Fin k0_t1_loop.trips) (h : ∀ a, (k0_off3 k 9#32) a + S1x64.size a ≤ S160x64.size a) :
    ((Memref.whole cc0_scratch0 : Memref sig .scVector .vmem S160x64 .i32).slice
        (Rect.unit (s := S160x64) (k0_off3 k 9#32) S1x64.size h) (fun _ => rfl)).squeeze S64 squeezes_S1x64_S64
      = idxRowC (10 * k.val + 9 + 10) (row3_lt k 9) :=
  idxRow_congr _ _ (k0_off3_eq k 9)
theorem set_off3_9 (k : Fin k0_t1_loop.trips) (h : ∀ a, (k0_off3 k 9#32) a + S1x64.size a ≤ S160x64.size a) :
    (((Memref.whole cc0_scratch0 : Memref sig .scVector .vmem S160x64 .i32).slice
        (Rect.unit (s := S160x64) (k0_off3 k 9#32) S1x64.size h) (fun _ => rfl)).squeeze S64 squeezes_S1x64_S64).view.set
      = (idxRowC (10 * k.val + 9 + 10) (row3_lt k 9)).view.set :=
  idxRow_set_congr _ _ (k0_off3_eq k 9)

/-! ## A worker's block of the re-laid row numbers -/

/-- A worker's block of the re-laid row numbers, as a 160 × 64 array, depends on its offset alone. -/
theorem x3Row_set_congr {off off' : Fin 3 → ℕ} (h : ∀ a, off a + S1x160x64.size a ≤ S32x160x64.size a)
    (h' : ∀ a, off' a + S1x160x64.size a ≤ S32x160x64.size a) (e : off = off') :
    (((Memref.whole main_v0_scv : Memref sig .scVector .hbm S32x160x64 .i32).slice
        (Rect.unit (s := S32x160x64) off S1x160x64.size h) (fun _ => rfl)).squeeze S160x64 squeezes_S1x160x64_S160x64).view.set
      = (((Memref.whole main_v0_scv : Memref sig .scVector .hbm S32x160x64 .i32).slice
        (Rect.unit (s := S32x160x64) off' S1x160x64.size h') (fun _ => rfl)).squeeze S160x64 squeezes_S1x160x64_S160x64).view.set := by
  subst e; rfl

/-- The block of the re-laid row numbers the worker at grid coordinates L reads, as a 160 × 64 array. -/
abbrev x3RowM (L : grid0.Coords) : Memref sig .scVector .hbm S160x64 .i32 :=
  ((Memref.whole main_v0_scv : Memref sig .scVector .hbm S32x160x64 .i32).slice
    (Rect.unit (s := S32x160x64) (k0_off1 L) S1x160x64.size (k0_off1_inb L)) (fun _ => rfl)).squeeze S160x64 squeezes_S1x160x64_S160x64

/-- It covers block 2·s + c of the 32: the indices of worker (c, s)'s share. -/
theorem x3Row_set (d : Dev nD) (L : grid0.Coords) : (x3RowM L).view.set = x3Set d (widL L) := by
  refine (x3Row_set_congr (k0_off1_inb L) (x3Row_inb (widL L)) (k0_off1_eq L)).trans ?_
  show (((View.whole (main_v0_scv : Ref sig .scVector)).slice (x3Row (widL L))).reshape S160x64
        squeezes_S1x160x64_S160x64.numel_eq).set = (x3Row (widL L)).set
  rw [View.set_reshape, View.set_slice]
  exact Finset.map_refl

end Cert.KernelRun

end
-- ==== Proof.OffsetFacts.lean ====
/-
  Where the kernel's fixed accesses to its flat output fall. Worker `(i 0, i 1)` of the 2 × 16 grid is worker number
  `2 · i 1 + i 0` of 32 and owns the 10240 flat rows from `10240 · (2 · i 1 + i 0)` on; outside its loop the kernel names
  24 blocks of 64 rows by a constant offset into those rows. The offsets chain computes the block's first flat row in
  32-bit words; here it is in closed form over the naturals (nothing wraps: the largest value is below 327680), with the
  table of the 24 constants. Stated for the kernel and for its idealization, whose chains are the same text.
-/
import proofs.«207499_g15272903704957_cont_week2b_486_20_alg».proof.Kernel
import proofs.«207499_g15272903704957_cont_week2b_486_20_alg».proof.KernelIdeal
import Idealize.ShloMosaic.Lib.Decide

set_option synthInstance.maxSize 4096
set_option Elab.async false

namespace Cert.OffsetFacts

open Idealize.ShloMosaic

namespace Kernel

open Cert.Kernel

/-- The flat row at which worker `(i 0, i 1)` = number `2 · i 1 + i 0` starts a block of 64 rows of the output: the worker's
    10240 rows begin at `10240 · (2 · i 1 + i 0)`, and the block lies `(k0_off2_at r)` rows into them. -/
theorem k0_off2_eq : ∀ (i : grid0.Coords) (r : Fin 24),
    k0_off2 i (k0_off2_at r) = ![20480 * (i 1).val + 10240 * (i 0).val + (k0_off2_at r).toNat, 0] := by decide +kernel

/-! The 24 block offsets inside a worker's rows: the first ten blocks (chunks 0 to 9), then the last fourteen
    (chunks 146 to 159) in the order the program names them. -/
theorem k0_off2_at_0 : (k0_off2_at 0).toNat = 0 := by decide
theorem k0_off2_at_1 : (k0_off2_at 1).toNat = 64 := by decide
theorem k0_off2_at_2 : (k0_off2_at 2).toNat = 128 := by decide
theorem k0_off2_at_3 : (k0_off2_at 3).toNat = 192 := by decide
theorem k0_off2_at_4 : (k0_off2_at 4).toNat = 256 := by decide
theorem k0_off2_at_5 : (k0_off2_at 5).toNat = 320 := by decide
theorem k0_off2_at_6 : (k0_off2_at 6).toNat = 384 := by decide
theorem k0_off2_at_7 : (k0_off2_at 7).toNat = 448 := by decide
theorem k0_off2_at_8 : (k0_off2_at 8).toNat = 512 := by decide
theorem k0_off2_at_9 : (k0_off2_at 9).toNat = 576 := by decide
theorem k0_off2_at_10 : (k0_off2_at 10).toNat = 9600 := by decide
theorem k0_off2_at_11 : (k0_off2_at 11).toNat = 9344 := by decide
theorem k0_off2_at_12 : (k0_off2_at 12).toNat = 9664 := by decide
theorem k0_off2_at_13 : (k0_off2_at 13).toNat = 9408 := by decide
theorem k0_off2_at_14 : (k0_off2_at 14).toNat = 9728 := by decide
theorem k0_off2_at_15 : (k0_off2_at 15).toNat = 9472 := by decide
theorem k0_off2_at_16 : (k0_off2_at 16).toNat = 9792 := by decide
theorem k0_off2_at_17 : (k0_off2_at 17).toNat = 9536 := by decide
theorem k0_off2_at_18 : (k0_off2_at 18).toNat = 9856 := by decide
theorem k0_off2_at_19 : (k0_off2_at 19).toNat = 9920 := by decide
theorem k0_off2_at_20 : (k0_off2_at 20).toNat = 9984 := by decide
theorem k0_off2_at_21 : (k0_off2_at 21).toNat = 10048 := by decide
theorem k0_off2_at_22 : (k0_off2_at 22).toNat = 10112 := by decide
theorem k0_off2_at_23 : (k0_off2_at 23).toNat = 10176 := by decide

/-! The same closed form with the constant written out, one per row of the table: the shape an access has in the
    program's text, where the row's constant appears as a literal. -/
theorem k0_off2_lit_0 (i : grid0.Coords) : k0_off2 i 0#32 = ![20480 * (i 1).val + 10240 * (i 0).val + 0, 0] := k0_off2_eq i 0
theorem k0_off2_lit_1 (i : grid0.Coords) : k0_off2 i 64#32 = ![20480 * (i 1).val + 10240 * (i 0).val + 64, 0] := k0_off2_eq i 1
theorem k0_off2_lit_2 (i : grid0.Coords) : k0_off2 i 128#32 = ![20480 * (i 1).val + 10240 * (i 0).val + 128, 0] := k0_off2_eq i 2
theorem k0_off2_lit_3 (i : grid0.Coords) : k0_off2 i 192#32 = ![20480 * (i 1).val + 10240 * (i 0).val + 192, 0] := k0_off2_eq i 3
theorem k0_off2_lit_4 (i : grid0.Coords) : k0_off2 i 256#32 = ![20480 * (i 1).val + 10240 * (i 0).val + 256, 0] := k0_off2_eq i 4
theorem k0_off2_lit_5 (i : grid0.Coords) : k0_off2 i 320#32 = ![20480 * (i 1).val + 10240 * (i 0).val + 320, 0] := k0_off2_eq i 5
theorem k0_off2_lit_6 (i : grid0.Coords) : k0_off2 i 384#32 = ![20480 * (i 1).val + 10240 * (i 0).val + 384, 0] := k0_off2_eq i 6
theorem k0_off2_lit_7 (i : grid0.Coords) : k0_off2 i 448#32 = ![20480 * (i 1).val + 10240 * (i 0).val + 448, 0] := k0_off2_eq i 7
theorem k0_off2_lit_8 (i : grid0.Coords) : k0_off2 i 512#32 = ![20480 * (i 1).val + 10240 * (i 0).val + 512, 0] := k0_off2_eq i 8
theorem k0_off2_lit_9 (i : grid0.Coords) : k0_off2 i 576#32 = ![20480 * (i 1).val + 10240 * (i 0).val + 576, 0] := k0_off2_eq i 9
theorem k0_off2_lit_10 (i : grid0.Coords) : k0_off2 i 9600#32 = ![20480 * (i 1).val + 10240 * (i 0).val + 9600, 0] := k0_off2_eq i 10
theorem k0_off2_lit_11 (i : grid0.Coords) : k0_off2 i 9344#32 = ![20480 * (i 1).val + 10240 * (i 0).val + 9344, 0] := k0_off2_eq i 11
theorem k0_off2_lit_12 (i : grid0.Coords) : k0_off2 i 9664#32 = ![20480 * (i 1).val + 10240 * (i 0).val + 9664, 0] := k0_off2_eq i 12
theorem k0_off2_lit_13 (i : grid0.Coords) : k0_off2 i 9408#32 = ![20480 * (i 1).val + 10240 * (i 0).val + 9408, 0] := k0_off2_eq i 13
theorem k0_off2_lit_14 (i : grid0.Coords) : k0_off2 i 9728#32 = ![20480 * (i 1).val + 10240 * (i 0).val + 9728, 0] := k0_off2_eq i 14
theorem k0_off2_lit_15 (i : grid0.Coords) : k0_off2 i 9472#32 = ![20480 * (i 1).val + 10240 * (i 0).val + 9472, 0] := k0_off2_eq i 15
theorem k0_off2_lit_16 (i : grid0.Coords) : k0_off2 i 9792#32 = ![20480 * (i 1).val + 10240 * (i 0).val + 9792, 0] := k0_off2_eq i 16
theorem k0_off2_lit_17 (i : grid0.Coords) : k0_off2 i 9536#32 = ![20480 * (i 1).val + 10240 * (i 0).val + 9536, 0] := k0_off2_eq i 17
theorem k0_off2_lit_18 (i : grid0.Coords) : k0_off2 i 9856#32 = ![20480 * (i 1).val + 10240 * (i 0).val + 9856, 0] := k0_off2_eq i 18
theorem k0_off2_lit_19 (i : grid0.Coords) : k0_off2 i 9920#32 = ![20480 * (i 1).val + 10240 * (i 0).val + 9920, 0] := k0_off2_eq i 19
theorem k0_off2_lit_20 (i : grid0.Coords) : k0_off2 i 9984#32 = ![20480 * (i 1).val + 10240 * (i 0).val + 9984, 0] := k0_off2_eq i 20
theorem k0_off2_lit_21 (i : grid0.Coords) : k0_off2 i 10048#32 = ![20480 * (i 1).val + 10240 * (i 0).val + 10048, 0] := k0_off2_eq i 21
theorem k0_off2_lit_22 (i : grid0.Coords) : k0_off2 i 10112#32 = ![20480 * (i 1).val + 10240 * (i 0).val + 10112, 0] := k0_off2_eq i 22
theorem k0_off2_lit_23 (i : grid0.Coords) : k0_off2 i 10176#32 = ![20480 * (i 1).val + 10240 * (i 0).val + 10176, 0] := k0_off2_eq i 23

end Kernel

namespace KernelIdeal

open Cert.KernelIdeal

/-- The flat row at which worker `(i 0, i 1)` = number `2 · i 1 + i 0` starts a block of 64 rows of the output: the worker's
    10240 rows begin at `10240 · (2 · i 1 + i 0)`, and the block lies `(k0_off2_at r)` rows into them. -/
theorem k0_off2_eq : ∀ (i : grid0.Coords) (r : Fin 24),
    k0_off2 i (k0_off2_at r) = ![20480 * (i 1).val + 10240 * (i 0).val + (k0_off2_at r).toNat, 0] := by decide +kernel

/-! The 24 block offsets inside a worker's rows: the first ten blocks (chunks 0 to 9), then the last fourteen
    (chunks 146 to 159) in the order the program names them. -/
theorem k0_off2_at_0 : (k0_off2_at 0).toNat = 0 := by decide
theorem k0_off2_at_1 : (k0_off2_at 1).toNat = 64 := by decide
theorem k0_off2_at_2 : (k0_off2_at 2).toNat = 128 := by decide
theorem k0_off2_at_3 : (k0_off2_at 3).toNat = 192 := by decide
theorem k0_off2_at_4 : (k0_off2_at 4).toNat = 256 := by decide
theorem k0_off2_at_5 : (k0_off2_at 5).toNat = 320 := by decide
theorem k0_off2_at_6 : (k0_off2_at 6).toNat = 384 := by decide
theorem k0_off2_at_7 : (k0_off2_at 7).toNat = 448 := by decide
theorem k0_off2_at_8 : (k0_off2_at 8).toNat = 512 := by decide
theorem k0_off2_at_9 : (k0_off2_at 9).toNat = 576 := by decide
theorem k0_off2_at_10 : (k0_off2_at 10).toNat = 9600 := by decide
theorem k0_off2_at_11 : (k0_off2_at 11).toNat = 9344 := by decide
theorem k0_off2_at_12 : (k0_off2_at 12).toNat = 9664 := by decide
theorem k0_off2_at_13 : (k0_off2_at 13).toNat = 9408 := by decide
theorem k0_off2_at_14 : (k0_off2_at 14).toNat = 9728 := by decide
theorem k0_off2_at_15 : (k0_off2_at 15).toNat = 9472 := by decide
theorem k0_off2_at_16 : (k0_off2_at 16).toNat = 9792 := by decide
theorem k0_off2_at_17 : (k0_off2_at 17).toNat = 9536 := by decide
theorem k0_off2_at_18 : (k0_off2_at 18).toNat = 9856 := by decide
theorem k0_off2_at_19 : (k0_off2_at 19).toNat = 9920 := by decide
theorem k0_off2_at_20 : (k0_off2_at 20).toNat = 9984 := by decide
theorem k0_off2_at_21 : (k0_off2_at 21).toNat = 10048 := by decide
theorem k0_off2_at_22 : (k0_off2_at 22).toNat = 10112 := by decide
theorem k0_off2_at_23 : (k0_off2_at 23).toNat = 10176 := by decide

/-! The same closed form with the constant written out, one per row of the table: the shape an access has in the
    program's text, where the row's constant appears as a literal. -/
theorem k0_off2_lit_0 (i : grid0.Coords) : k0_off2 i 0#32 = ![20480 * (i 1).val + 10240 * (i 0).val + 0, 0] := k0_off2_eq i 0
theorem k0_off2_lit_1 (i : grid0.Coords) : k0_off2 i 64#32 = ![20480 * (i 1).val + 10240 * (i 0).val + 64, 0] := k0_off2_eq i 1
theorem k0_off2_lit_2 (i : grid0.Coords) : k0_off2 i 128#32 = ![20480 * (i 1).val + 10240 * (i 0).val + 128, 0] := k0_off2_eq i 2
theorem k0_off2_lit_3 (i : grid0.Coords) : k0_off2 i 192#32 = ![20480 * (i 1).val + 10240 * (i 0).val + 192, 0] := k0_off2_eq i 3
theorem k0_off2_lit_4 (i : grid0.Coords) : k0_off2 i 256#32 = ![20480 * (i 1).val + 10240 * (i 0).val + 256, 0] := k0_off2_eq i 4
theorem k0_off2_lit_5 (i : grid0.Coords) : k0_off2 i 320#32 = ![20480 * (i 1).val + 10240 * (i 0).val + 320, 0] := k0_off2_eq i 5
theorem k0_off2_lit_6 (i : grid0.Coords) : k0_off2 i 384#32 = ![20480 * (i 1).val + 10240 * (i 0).val + 384, 0] := k0_off2_eq i 6
theorem k0_off2_lit_7 (i : grid0.Coords) : k0_off2 i 448#32 = ![20480 * (i 1).val + 10240 * (i 0).val + 448, 0] := k0_off2_eq i 7
theorem k0_off2_lit_8 (i : grid0.Coords) : k0_off2 i 512#32 = ![20480 * (i 1).val + 10240 * (i 0).val + 512, 0] := k0_off2_eq i 8
theorem k0_off2_lit_9 (i : grid0.Coords) : k0_off2 i 576#32 = ![20480 * (i 1).val + 10240 * (i 0).val + 576, 0] := k0_off2_eq i 9
theorem k0_off2_lit_10 (i : grid0.Coords) : k0_off2 i 9600#32 = ![20480 * (i 1).val + 10240 * (i 0).val + 9600, 0] := k0_off2_eq i 10
theorem k0_off2_lit_11 (i : grid0.Coords) : k0_off2 i 9344#32 = ![20480 * (i 1).val + 10240 * (i 0).val + 9344, 0] := k0_off2_eq i 11
theorem k0_off2_lit_12 (i : grid0.Coords) : k0_off2 i 9664#32 = ![20480 * (i 1).val + 10240 * (i 0).val + 9664, 0] := k0_off2_eq i 12
theorem k0_off2_lit_13 (i : grid0.Coords) : k0_off2 i 9408#32 = ![20480 * (i 1).val + 10240 * (i 0).val + 9408, 0] := k0_off2_eq i 13
theorem k0_off2_lit_14 (i : grid0.Coords) : k0_off2 i 9728#32 = ![20480 * (i 1).val + 10240 * (i 0).val + 9728, 0] := k0_off2_eq i 14
theorem k0_off2_lit_15 (i : grid0.Coords) : k0_off2 i 9472#32 = ![20480 * (i 1).val + 10240 * (i 0).val + 9472, 0] := k0_off2_eq i 15
theorem k0_off2_lit_16 (i : grid0.Coords) : k0_off2 i 9792#32 = ![20480 * (i 1).val + 10240 * (i 0).val + 9792, 0] := k0_off2_eq i 16
theorem k0_off2_lit_17 (i : grid0.Coords) : k0_off2 i 9536#32 = ![20480 * (i 1).val + 10240 * (i 0).val + 9536, 0] := k0_off2_eq i 17
theorem k0_off2_lit_18 (i : grid0.Coords) : k0_off2 i 9856#32 = ![20480 * (i 1).val + 10240 * (i 0).val + 9856, 0] := k0_off2_eq i 18
theorem k0_off2_lit_19 (i : grid0.Coords) : k0_off2 i 9920#32 = ![20480 * (i 1).val + 10240 * (i 0).val + 9920, 0] := k0_off2_eq i 19
theorem k0_off2_lit_20 (i : grid0.Coords) : k0_off2 i 9984#32 = ![20480 * (i 1).val + 10240 * (i 0).val + 9984, 0] := k0_off2_eq i 20
theorem k0_off2_lit_21 (i : grid0.Coords) : k0_off2 i 10048#32 = ![20480 * (i 1).val + 10240 * (i 0).val + 10048, 0] := k0_off2_eq i 21
theorem k0_off2_lit_22 (i : grid0.Coords) : k0_off2 i 10112#32 = ![20480 * (i 1).val + 10240 * (i 0).val + 10112, 0] := k0_off2_eq i 22
theorem k0_off2_lit_23 (i : grid0.Coords) : k0_off2 i 10176#32 = ![20480 * (i 1).val + 10240 * (i 0).val + 10176, 0] := k0_off2_eq i 23

end KernelIdeal

end Cert.OffsetFacts
-- ==== Proof.KernelRun.Slices.Out.lean ====
/-
  Where the program's accesses to the flat output fall, as chunks.

  Worker `(L 0, L 1)` of the 2 × 16 grid is worker number `2 · L 1 + L 0` of 32 and owns the 10240 flat output rows from
  `20480 · L 1 + 10240 · L 0` on; chunk `g < 160` of it is the 64 rows from `20480 · L 1 + 10240 · L 0 + 64 · g`. The
  program names such a block of rows by an offset it computes in 32-bit words. A slice is determined by its offset,
  whatever the evidence that it is in bounds, so each such access is the access of a chunk: inside the loop, trip `k` and
  digit `r` name chunk `10 k + r + 10` (the block fetched into) and chunk `10 k + r + 6` (the block written back);
  outside the loop the 24 constant offsets name chunks 0 to 9 and 146 to 159. A chunk's set of indices is the block
  `Cert.Cover.chunkRect` of the cover of the output.

  Sets of indices are compared as sets of indices of the `327680 × 128` output, and slices as `64 × 128` arrays: each
  equation is stated at that type outright, the same for every slice whatever its offset.
-/
import proofs.«207499_g15272903704957_cont_week2b_486_20_alg».proof.Proof.KernelRun.Slices.Idx
import proofs.«207499_g15272903704957_cont_week2b_486_20_alg».proof.Proof.OffsetFacts
import proofs.«207499_g15272903704957_cont_week2b_486_20_alg».proof.Proof.Cover

noncomputable section

namespace Cert.KernelRun

open Cert.Kernel Cert.Kernel.Gen

open Idealize.ShloMosaic

/-! ## A chunk of a worker's output rows, by number -/

/-- Chunk `g < 160` of worker `(L 0, L 1)` lies inside the flat output: its last row is below `327680`. -/
theorem oChunkC_inb (L : grid0.Coords) (g : ℕ) (hg : g < 160) :
    ∀ a, (![20480 * (L 1).val + 10240 * (L 0).val + 64 * g, 0] : Fin 2 → ℕ) a + S64x128.size a ≤ S327680x128.size a := by
  have h0 : (L 0).val < 2 := (L 0).isLt
  have h1 : (L 1).val < 16 := (L 1).isLt
  exact Rect.inb₂ (by show 20480 * (L 1).val + 10240 * (L 0).val + 64 * g + 64 ≤ 327680; omega) (by show 0 + 128 ≤ 128; omega)

/-- Chunk `g` of worker `(L 0, L 1)`, as the thread names it: 64 rows of the whole flat output. -/
abbrev oChunkC (L : grid0.Coords) (g : ℕ) (hg : g < 160) : Memref sig .scVector .hbm S64x128 .f32 :=
  (Memref.slice (κ := .scVector) (sp := .hbm) (s := S327680x128) (e := .f32) (Memref.whole main_v1_scv)
        (Rect.unit (s := S327680x128) ![20480 * (L 1).val + 10240 * (L 0).val + 64 * g, 0] S64x128.size (oChunkC_inb L g hg)) (fun _ => rfl))

/-! ## A block of rows depends on its offset alone -/

/-- Blocks of 64 rows of the output at equal offsets are the same array, whatever the in-bounds evidence. -/
theorem oChunk_congr {off off' : Fin 2 → ℕ} (h : ∀ a, off a + S64x128.size a ≤ S327680x128.size a)
    (h' : ∀ a, off' a + S64x128.size a ≤ S327680x128.size a) (e : off = off') :
    @Eq (Memref sig .scVector .hbm S64x128 .f32) (Memref.slice (κ := .scVector) (sp := .hbm) (s := S327680x128) (e := .f32) (Memref.whole main_v1_scv)
        (Rect.unit (s := S327680x128) off S64x128.size h) (fun _ => rfl))
      (Memref.slice (κ := .scVector) (sp := .hbm) (s := S327680x128) (e := .f32) (Memref.whole main_v1_scv)
        (Rect.unit (s := S327680x128) off' S64x128.size h') (fun _ => rfl)) := by
  subst e; rfl

/-- … and so cover the same indices of the output. -/
theorem oChunk_set_congr {off off' : Fin 2 → ℕ} (h : ∀ a, off a + S64x128.size a ≤ S327680x128.size a)
    (h' : ∀ a, off' a + S64x128.size a ≤ S327680x128.size a) (e : off = off') :
    @Eq (Finset S327680x128.Idx) (Memref.slice (κ := .scVector) (sp := .hbm) (s := S327680x128) (e := .f32) (Memref.whole main_v1_scv)
        (Rect.unit (s := S327680x128) off S64x128.size h) (fun _ => rfl)).view.set
      (Memref.slice (κ := .scVector) (sp := .hbm) (s := S327680x128) (e := .f32) (Memref.whole main_v1_scv)
        (Rect.unit (s := S327680x128) off' S64x128.size h') (fun _ => rfl)).view.set := by
  subst e; rfl

/-! ## The accesses inside the loop -/

theorem chunk4_lt (k : Fin k0_t1_loop.trips) (r : Fin 10) : 10 * k.val + r.val + 10 < 160 := by
  have := trip_lt k; have := r.isLt; omega
theorem chunk5_lt (k : Fin k0_t1_loop.trips) (r : Fin 10) : 10 * k.val + r.val + 6 < 160 := by
  have := trip_lt k; have := r.isLt; omega

/-- The block fetched into at trip `k`, digit `r`: row `640 k + 64 r + 640` of the worker's rows is the first of chunk
    `10 k + r + 10`. -/
theorem off4_chunk (L : grid0.Coords) (k : Fin k0_t1_loop.trips) (r : Fin 10) :
    k0_off4 L k (BitVec.ofNat 32 r.val) = ![20480 * (L 1).val + 10240 * (L 0).val + 64 * (10 * k.val + r.val + 10), 0] := by
  rw [k0_off4_eq]
  have e : 20480 * (L 1).val + 10240 * (L 0).val + 640 * k.val + 64 * r.val + 640
      = 20480 * (L 1).val + 10240 * (L 0).val + 64 * (10 * k.val + r.val + 10) := by omega
  rw [e]

/-- The block written back at trip `k`, digit `r`: row `640 k + 64 r + 384` of the worker's rows is the first of chunk
    `10 k + r + 6`. -/
theorem off5_chunk (L : grid0.Coords) (k : Fin k0_t1_loop.trips) (r : Fin 10) :
    k0_off5 L k (BitVec.ofNat 32 r.val) = ![20480 * (L 1).val + 10240 * (L 0).val + 64 * (10 * k.val + r.val + 6), 0] := by
  rw [k0_off5_eq]
  have e : 20480 * (L 1).val + 10240 * (L 0).val + 640 * k.val + 64 * r.val + 384
      = 20480 * (L 1).val + 10240 * (L 0).val + 64 * (10 * k.val + r.val + 6) := by omega
  rw [e]

theorem oChunk_off4_of (L : grid0.Coords) (k : Fin k0_t1_loop.trips) (r : Fin 10)
    (h : ∀ a, (k0_off4 L k (BitVec.ofNat 32 r.val)) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k (BitVec.ofNat 32 r.val)) S64x128.size h) (fun _ => rfl))
      (oChunkC L (10 * k.val + r.val + 10) (chunk4_lt k r)) :=
  oChunk_congr _ _ (off4_chunk L k r)
theorem set_off4_of (L : grid0.Coords) (k : Fin k0_t1_loop.trips) (r : Fin 10)
    (h : ∀ a, (k0_off4 L k (BitVec.ofNat 32 r.val)) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k (BitVec.ofNat 32 r.val)) S64x128.size h) (fun _ => rfl)).view.set
      (oChunkC L (10 * k.val + r.val + 10) (chunk4_lt k r)).view.set :=
  oChunk_set_congr _ _ (off4_chunk L k r)
theorem oChunk_off4 (L : grid0.Coords) (k : Fin k0_t1_loop.trips) (r : Fin 10) :
    @Eq (Memref sig .scVector .hbm S64x128 .f32) (Memref.slice (κ := .scVector) (sp := .hbm) (s := S327680x128) (e := .f32) (Memref.whole main_v1_scv)
        (Rect.unit (s := S327680x128) (k0_off4 L k (BitVec.ofNat 32 r.val)) S64x128.size (k0_off4_inb L k r)) (fun _ => rfl))
      (oChunkC L (10 * k.val + r.val + 10) (chunk4_lt k r)) :=
  oChunk_congr _ _ (off4_chunk L k r)
theorem set_off4 (L : grid0.Coords) (k : Fin k0_t1_loop.trips) (r : Fin 10) :
    @Eq (Finset S327680x128.Idx) (Memref.slice (κ := .scVector) (sp := .hbm) (s := S327680x128) (e := .f32) (Memref.whole main_v1_scv)
        (Rect.unit (s := S327680x128) (k0_off4 L k (BitVec.ofNat 32 r.val)) S64x128.size (k0_off4_inb L k r)) (fun _ => rfl)).view.set
      (oChunkC L (10 * k.val + r.val + 10) (chunk4_lt k r)).view.set :=
  oChunk_set_congr _ _ (off4_chunk L k r)

theorem oChunk_off5_of (L : grid0.Coords) (k : Fin k0_t1_loop.trips) (r : Fin 10)
    (h : ∀ a, (k0_off5 L k (BitVec.ofNat 32 r.val)) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k (BitVec.ofNat 32 r.val)) S64x128.size h) (fun _ => rfl))
      (oChunkC L (10 * k.val + r.val + 6) (chunk5_lt k r)) :=
  oChunk_congr _ _ (off5_chunk L k r)
theorem set_off5_of (L : grid0.Coords) (k : Fin k0_t1_loop.trips) (r : Fin 10)
    (h : ∀ a, (k0_off5 L k (BitVec.ofNat 32 r.val)) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k (BitVec.ofNat 32 r.val)) S64x128.size h) (fun _ => rfl)).view.set
      (oChunkC L (10 * k.val + r.val + 6) (chunk5_lt k r)).view.set :=
  oChunk_set_congr _ _ (off5_chunk L k r)
theorem oChunk_off5 (L : grid0.Coords) (k : Fin k0_t1_loop.trips) (r : Fin 10) :
    @Eq (Memref sig .scVector .hbm S64x128 .f32) (Memref.slice (κ := .scVector) (sp := .hbm) (s := S327680x128) (e := .f32) (Memref.whole main_v1_scv)
        (Rect.unit (s := S327680x128) (k0_off5 L k (BitVec.ofNat 32 r.val)) S64x128.size (k0_off5_inb L k r)) (fun _ => rfl))
      (oChunkC L (10 * k.val + r.val + 6) (chunk5_lt k r)) :=
  oChunk_congr _ _ (off5_chunk L k r)
theorem set_off5 (L : grid0.Coords) (k : Fin k0_t1_loop.trips) (r : Fin 10) :
    @Eq (Finset S327680x128.Idx) (Memref.slice (κ := .scVector) (sp := .hbm) (s := S327680x128) (e := .f32) (Memref.whole main_v1_scv)
        (Rect.unit (s := S327680x128) (k0_off5 L k (BitVec.ofNat 32 r.val)) S64x128.size (k0_off5_inb L k r)) (fun _ => rfl)).view.set
      (oChunkC L (10 * k.val + r.val + 6) (chunk5_lt k r)).view.set :=
  oChunk_set_congr _ _ (off5_chunk L k r)

/-! ## The same with the digit written out, one per digit: the form an access has in the program's text

Each comes with the program's own in-bounds evidence in its statement, and (`…_of`) with any evidence. -/

theorem oChunk_off4_0 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 0#32) S64x128.size (k0_off4_inb L k 0)) (fun _ => rfl))
      (oChunkC L (10 * k.val + 0 + 10) (chunk4_lt k 0)) :=
  oChunk_congr _ _ (off4_chunk L k 0)
theorem set_off4_0 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 0#32) S64x128.size (k0_off4_inb L k 0)) (fun _ => rfl)).view.set
      (oChunkC L (10 * k.val + 0 + 10) (chunk4_lt k 0)).view.set :=
  oChunk_set_congr _ _ (off4_chunk L k 0)
theorem oChunk_off4_0_of (L : grid0.Coords) (k : Fin k0_t1_loop.trips) (h : ∀ a, (k0_off4 L k 0#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 0#32) S64x128.size h) (fun _ => rfl))
      (oChunkC L (10 * k.val + 0 + 10) (chunk4_lt k 0)) :=
  oChunk_congr _ _ (off4_chunk L k 0)
theorem set_off4_0_of (L : grid0.Coords) (k : Fin k0_t1_loop.trips) (h : ∀ a, (k0_off4 L k 0#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 0#32) S64x128.size h) (fun _ => rfl)).view.set
      (oChunkC L (10 * k.val + 0 + 10) (chunk4_lt k 0)).view.set :=
  oChunk_set_congr _ _ (off4_chunk L k 0)

theorem oChunk_off4_1 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 1#32) S64x128.size (k0_off4_inb L k 1)) (fun _ => rfl))
      (oChunkC L (10 * k.val + 1 + 10) (chunk4_lt k 1)) :=
  oChunk_congr _ _ (off4_chunk L k 1)
theorem set_off4_1 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 1#32) S64x128.size (k0_off4_inb L k 1)) (fun _ => rfl)).view.set
      (oChunkC L (10 * k.val + 1 + 10) (chunk4_lt k 1)).view.set :=
  oChunk_set_congr _ _ (off4_chunk L k 1)
theorem oChunk_off4_1_of (L : grid0.Coords) (k : Fin k0_t1_loop.trips) (h : ∀ a, (k0_off4 L k 1#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 1#32) S64x128.size h) (fun _ => rfl))
      (oChunkC L (10 * k.val + 1 + 10) (chunk4_lt k 1)) :=
  oChunk_congr _ _ (off4_chunk L k 1)
theorem set_off4_1_of (L : grid0.Coords) (k : Fin k0_t1_loop.trips) (h : ∀ a, (k0_off4 L k 1#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 1#32) S64x128.size h) (fun _ => rfl)).view.set
      (oChunkC L (10 * k.val + 1 + 10) (chunk4_lt k 1)).view.set :=
  oChunk_set_congr _ _ (off4_chunk L k 1)

theorem oChunk_off4_2 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 2#32) S64x128.size (k0_off4_inb L k 2)) (fun _ => rfl))
      (oChunkC L (10 * k.val + 2 + 10) (chunk4_lt k 2)) :=
  oChunk_congr _ _ (off4_chunk L k 2)
theorem set_off4_2 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 2#32) S64x128.size (k0_off4_inb L k 2)) (fun _ => rfl)).view.set
      (oChunkC L (10 * k.val + 2 + 10) (chunk4_lt k 2)).view.set :=
  oChunk_set_congr _ _ (off4_chunk L k 2)
theorem oChunk_off4_2_of (L : grid0.Coords) (k : Fin k0_t1_loop.trips) (h : ∀ a, (k0_off4 L k 2#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 2#32) S64x128.size h) (fun _ => rfl))
      (oChunkC L (10 * k.val + 2 + 10) (chunk4_lt k 2)) :=
  oChunk_congr _ _ (off4_chunk L k 2)
theorem set_off4_2_of (L : grid0.Coords) (k : Fin k0_t1_loop.trips) (h : ∀ a, (k0_off4 L k 2#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 2#32) S64x128.size h) (fun _ => rfl)).view.set
      (oChunkC L (10 * k.val + 2 + 10) (chunk4_lt k 2)).view.set :=
  oChunk_set_congr _ _ (off4_chunk L k 2)

theorem oChunk_off4_3 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 3#32) S64x128.size (k0_off4_inb L k 3)) (fun _ => rfl))
      (oChunkC L (10 * k.val + 3 + 10) (chunk4_lt k 3)) :=
  oChunk_congr _ _ (off4_chunk L k 3)
theorem set_off4_3 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 3#32) S64x128.size (k0_off4_inb L k 3)) (fun _ => rfl)).view.set
      (oChunkC L (10 * k.val + 3 + 10) (chunk4_lt k 3)).view.set :=
  oChunk_set_congr _ _ (off4_chunk L k 3)
theorem oChunk_off4_3_of (L : grid0.Coords) (k : Fin k0_t1_loop.trips) (h : ∀ a, (k0_off4 L k 3#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 3#32) S64x128.size h) (fun _ => rfl))
      (oChunkC L (10 * k.val + 3 + 10) (chunk4_lt k 3)) :=
  oChunk_congr _ _ (off4_chunk L k 3)
theorem set_off4_3_of (L : grid0.Coords) (k : Fin k0_t1_loop.trips) (h : ∀ a, (k0_off4 L k 3#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 3#32) S64x128.size h) (fun _ => rfl)).view.set
      (oChunkC L (10 * k.val + 3 + 10) (chunk4_lt k 3)).view.set :=
  oChunk_set_congr _ _ (off4_chunk L k 3)

theorem oChunk_off4_4 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 4#32) S64x128.size (k0_off4_inb L k 4)) (fun _ => rfl))
      (oChunkC L (10 * k.val + 4 + 10) (chunk4_lt k 4)) :=
  oChunk_congr _ _ (off4_chunk L k 4)
theorem set_off4_4 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 4#32) S64x128.size (k0_off4_inb L k 4)) (fun _ => rfl)).view.set
      (oChunkC L (10 * k.val + 4 + 10) (chunk4_lt k 4)).view.set :=
  oChunk_set_congr _ _ (off4_chunk L k 4)
theorem oChunk_off4_4_of (L : grid0.Coords) (k : Fin k0_t1_loop.trips) (h : ∀ a, (k0_off4 L k 4#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 4#32) S64x128.size h) (fun _ => rfl))
      (oChunkC L (10 * k.val + 4 + 10) (chunk4_lt k 4)) :=
  oChunk_congr _ _ (off4_chunk L k 4)
theorem set_off4_4_of (L : grid0.Coords) (k : Fin k0_t1_loop.trips) (h : ∀ a, (k0_off4 L k 4#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 4#32) S64x128.size h) (fun _ => rfl)).view.set
      (oChunkC L (10 * k.val + 4 + 10) (chunk4_lt k 4)).view.set :=
  oChunk_set_congr _ _ (off4_chunk L k 4)

theorem oChunk_off4_5 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 5#32) S64x128.size (k0_off4_inb L k 5)) (fun _ => rfl))
      (oChunkC L (10 * k.val + 5 + 10) (chunk4_lt k 5)) :=
  oChunk_congr _ _ (off4_chunk L k 5)
theorem set_off4_5 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 5#32) S64x128.size (k0_off4_inb L k 5)) (fun _ => rfl)).view.set
      (oChunkC L (10 * k.val + 5 + 10) (chunk4_lt k 5)).view.set :=
  oChunk_set_congr _ _ (off4_chunk L k 5)
theorem oChunk_off4_5_of (L : grid0.Coords) (k : Fin k0_t1_loop.trips) (h : ∀ a, (k0_off4 L k 5#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 5#32) S64x128.size h) (fun _ => rfl))
      (oChunkC L (10 * k.val + 5 + 10) (chunk4_lt k 5)) :=
  oChunk_congr _ _ (off4_chunk L k 5)
theorem set_off4_5_of (L : grid0.Coords) (k : Fin k0_t1_loop.trips) (h : ∀ a, (k0_off4 L k 5#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 5#32) S64x128.size h) (fun _ => rfl)).view.set
      (oChunkC L (10 * k.val + 5 + 10) (chunk4_lt k 5)).view.set :=
  oChunk_set_congr _ _ (off4_chunk L k 5)

theorem oChunk_off4_6 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 6#32) S64x128.size (k0_off4_inb L k 6)) (fun _ => rfl))
      (oChunkC L (10 * k.val + 6 + 10) (chunk4_lt k 6)) :=
  oChunk_congr _ _ (off4_chunk L k 6)
theorem set_off4_6 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 6#32) S64x128.size (k0_off4_inb L k 6)) (fun _ => rfl)).view.set
      (oChunkC L (10 * k.val + 6 + 10) (chunk4_lt k 6)).view.set :=
  oChunk_set_congr _ _ (off4_chunk L k 6)
theorem oChunk_off4_6_of (L : grid0.Coords) (k : Fin k0_t1_loop.trips) (h : ∀ a, (k0_off4 L k 6#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 6#32) S64x128.size h) (fun _ => rfl))
      (oChunkC L (10 * k.val + 6 + 10) (chunk4_lt k 6)) :=
  oChunk_congr _ _ (off4_chunk L k 6)
theorem set_off4_6_of (L : grid0.Coords) (k : Fin k0_t1_loop.trips) (h : ∀ a, (k0_off4 L k 6#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 6#32) S64x128.size h) (fun _ => rfl)).view.set
      (oChunkC L (10 * k.val + 6 + 10) (chunk4_lt k 6)).view.set :=
  oChunk_set_congr _ _ (off4_chunk L k 6)

theorem oChunk_off4_7 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 7#32) S64x128.size (k0_off4_inb L k 7)) (fun _ => rfl))
      (oChunkC L (10 * k.val + 7 + 10) (chunk4_lt k 7)) :=
  oChunk_congr _ _ (off4_chunk L k 7)
theorem set_off4_7 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 7#32) S64x128.size (k0_off4_inb L k 7)) (fun _ => rfl)).view.set
      (oChunkC L (10 * k.val + 7 + 10) (chunk4_lt k 7)).view.set :=
  oChunk_set_congr _ _ (off4_chunk L k 7)
theorem oChunk_off4_7_of (L : grid0.Coords) (k : Fin k0_t1_loop.trips) (h : ∀ a, (k0_off4 L k 7#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 7#32) S64x128.size h) (fun _ => rfl))
      (oChunkC L (10 * k.val + 7 + 10) (chunk4_lt k 7)) :=
  oChunk_congr _ _ (off4_chunk L k 7)
theorem set_off4_7_of (L : grid0.Coords) (k : Fin k0_t1_loop.trips) (h : ∀ a, (k0_off4 L k 7#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 7#32) S64x128.size h) (fun _ => rfl)).view.set
      (oChunkC L (10 * k.val + 7 + 10) (chunk4_lt k 7)).view.set :=
  oChunk_set_congr _ _ (off4_chunk L k 7)

theorem oChunk_off4_8 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 8#32) S64x128.size (k0_off4_inb L k 8)) (fun _ => rfl))
      (oChunkC L (10 * k.val + 8 + 10) (chunk4_lt k 8)) :=
  oChunk_congr _ _ (off4_chunk L k 8)
theorem set_off4_8 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 8#32) S64x128.size (k0_off4_inb L k 8)) (fun _ => rfl)).view.set
      (oChunkC L (10 * k.val + 8 + 10) (chunk4_lt k 8)).view.set :=
  oChunk_set_congr _ _ (off4_chunk L k 8)
theorem oChunk_off4_8_of (L : grid0.Coords) (k : Fin k0_t1_loop.trips) (h : ∀ a, (k0_off4 L k 8#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 8#32) S64x128.size h) (fun _ => rfl))
      (oChunkC L (10 * k.val + 8 + 10) (chunk4_lt k 8)) :=
  oChunk_congr _ _ (off4_chunk L k 8)
theorem set_off4_8_of (L : grid0.Coords) (k : Fin k0_t1_loop.trips) (h : ∀ a, (k0_off4 L k 8#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 8#32) S64x128.size h) (fun _ => rfl)).view.set
      (oChunkC L (10 * k.val + 8 + 10) (chunk4_lt k 8)).view.set :=
  oChunk_set_congr _ _ (off4_chunk L k 8)

theorem oChunk_off4_9 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 9#32) S64x128.size (k0_off4_inb L k 9)) (fun _ => rfl))
      (oChunkC L (10 * k.val + 9 + 10) (chunk4_lt k 9)) :=
  oChunk_congr _ _ (off4_chunk L k 9)
theorem set_off4_9 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 9#32) S64x128.size (k0_off4_inb L k 9)) (fun _ => rfl)).view.set
      (oChunkC L (10 * k.val + 9 + 10) (chunk4_lt k 9)).view.set :=
  oChunk_set_congr _ _ (off4_chunk L k 9)
theorem oChunk_off4_9_of (L : grid0.Coords) (k : Fin k0_t1_loop.trips) (h : ∀ a, (k0_off4 L k 9#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 9#32) S64x128.size h) (fun _ => rfl))
      (oChunkC L (10 * k.val + 9 + 10) (chunk4_lt k 9)) :=
  oChunk_congr _ _ (off4_chunk L k 9)
theorem set_off4_9_of (L : grid0.Coords) (k : Fin k0_t1_loop.trips) (h : ∀ a, (k0_off4 L k 9#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 9#32) S64x128.size h) (fun _ => rfl)).view.set
      (oChunkC L (10 * k.val + 9 + 10) (chunk4_lt k 9)).view.set :=
  oChunk_set_congr _ _ (off4_chunk L k 9)

theorem oChunk_off5_0 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 0#32) S64x128.size (k0_off5_inb L k 0)) (fun _ => rfl))
      (oChunkC L (10 * k.val + 0 + 6) (chunk5_lt k 0)) :=
  oChunk_congr _ _ (off5_chunk L k 0)
theorem set_off5_0 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 0#32) S64x128.size (k0_off5_inb L k 0)) (fun _ => rfl)).view.set
      (oChunkC L (10 * k.val + 0 + 6) (chunk5_lt k 0)).view.set :=
  oChunk_set_congr _ _ (off5_chunk L k 0)
theorem oChunk_off5_0_of (L : grid0.Coords) (k : Fin k0_t1_loop.trips) (h : ∀ a, (k0_off5 L k 0#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 0#32) S64x128.size h) (fun _ => rfl))
      (oChunkC L (10 * k.val + 0 + 6) (chunk5_lt k 0)) :=
  oChunk_congr _ _ (off5_chunk L k 0)
theorem set_off5_0_of (L : grid0.Coords) (k : Fin k0_t1_loop.trips) (h : ∀ a, (k0_off5 L k 0#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 0#32) S64x128.size h) (fun _ => rfl)).view.set
      (oChunkC L (10 * k.val + 0 + 6) (chunk5_lt k 0)).view.set :=
  oChunk_set_congr _ _ (off5_chunk L k 0)

theorem oChunk_off5_1 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 1#32) S64x128.size (k0_off5_inb L k 1)) (fun _ => rfl))
      (oChunkC L (10 * k.val + 1 + 6) (chunk5_lt k 1)) :=
  oChunk_congr _ _ (off5_chunk L k 1)
theorem set_off5_1 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 1#32) S64x128.size (k0_off5_inb L k 1)) (fun _ => rfl)).view.set
      (oChunkC L (10 * k.val + 1 + 6) (chunk5_lt k 1)).view.set :=
  oChunk_set_congr _ _ (off5_chunk L k 1)
theorem oChunk_off5_1_of (L : grid0.Coords) (k : Fin k0_t1_loop.trips) (h : ∀ a, (k0_off5 L k 1#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 1#32) S64x128.size h) (fun _ => rfl))
      (oChunkC L (10 * k.val + 1 + 6) (chunk5_lt k 1)) :=
  oChunk_congr _ _ (off5_chunk L k 1)
theorem set_off5_1_of (L : grid0.Coords) (k : Fin k0_t1_loop.trips) (h : ∀ a, (k0_off5 L k 1#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 1#32) S64x128.size h) (fun _ => rfl)).view.set
      (oChunkC L (10 * k.val + 1 + 6) (chunk5_lt k 1)).view.set :=
  oChunk_set_congr _ _ (off5_chunk L k 1)

theorem oChunk_off5_2 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 2#32) S64x128.size (k0_off5_inb L k 2)) (fun _ => rfl))
      (oChunkC L (10 * k.val + 2 + 6) (chunk5_lt k 2)) :=
  oChunk_congr _ _ (off5_chunk L k 2)
theorem set_off5_2 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 2#32) S64x128.size (k0_off5_inb L k 2)) (fun _ => rfl)).view.set
      (oChunkC L (10 * k.val + 2 + 6) (chunk5_lt k 2)).view.set :=
  oChunk_set_congr _ _ (off5_chunk L k 2)
theorem oChunk_off5_2_of (L : grid0.Coords) (k : Fin k0_t1_loop.trips) (h : ∀ a, (k0_off5 L k 2#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 2#32) S64x128.size h) (fun _ => rfl))
      (oChunkC L (10 * k.val + 2 + 6) (chunk5_lt k 2)) :=
  oChunk_congr _ _ (off5_chunk L k 2)
theorem set_off5_2_of (L : grid0.Coords) (k : Fin k0_t1_loop.trips) (h : ∀ a, (k0_off5 L k 2#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 2#32) S64x128.size h) (fun _ => rfl)).view.set
      (oChunkC L (10 * k.val + 2 + 6) (chunk5_lt k 2)).view.set :=
  oChunk_set_congr _ _ (off5_chunk L k 2)

theorem oChunk_off5_3 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 3#32) S64x128.size (k0_off5_inb L k 3)) (fun _ => rfl))
      (oChunkC L (10 * k.val + 3 + 6) (chunk5_lt k 3)) :=
  oChunk_congr _ _ (off5_chunk L k 3)
theorem set_off5_3 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 3#32) S64x128.size (k0_off5_inb L k 3)) (fun _ => rfl)).view.set
      (oChunkC L (10 * k.val + 3 + 6) (chunk5_lt k 3)).view.set :=
  oChunk_set_congr _ _ (off5_chunk L k 3)
theorem oChunk_off5_3_of (L : grid0.Coords) (k : Fin k0_t1_loop.trips) (h : ∀ a, (k0_off5 L k 3#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 3#32) S64x128.size h) (fun _ => rfl))
      (oChunkC L (10 * k.val + 3 + 6) (chunk5_lt k 3)) :=
  oChunk_congr _ _ (off5_chunk L k 3)
theorem set_off5_3_of (L : grid0.Coords) (k : Fin k0_t1_loop.trips) (h : ∀ a, (k0_off5 L k 3#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 3#32) S64x128.size h) (fun _ => rfl)).view.set
      (oChunkC L (10 * k.val + 3 + 6) (chunk5_lt k 3)).view.set :=
  oChunk_set_congr _ _ (off5_chunk L k 3)

theorem oChunk_off5_4 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 4#32) S64x128.size (k0_off5_inb L k 4)) (fun _ => rfl))
      (oChunkC L (10 * k.val + 4 + 6) (chunk5_lt k 4)) :=
  oChunk_congr _ _ (off5_chunk L k 4)
theorem set_off5_4 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 4#32) S64x128.size (k0_off5_inb L k 4)) (fun _ => rfl)).view.set
      (oChunkC L (10 * k.val + 4 + 6) (chunk5_lt k 4)).view.set :=
  oChunk_set_congr _ _ (off5_chunk L k 4)
theorem oChunk_off5_4_of (L : grid0.Coords) (k : Fin k0_t1_loop.trips) (h : ∀ a, (k0_off5 L k 4#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 4#32) S64x128.size h) (fun _ => rfl))
      (oChunkC L (10 * k.val + 4 + 6) (chunk5_lt k 4)) :=
  oChunk_congr _ _ (off5_chunk L k 4)
theorem set_off5_4_of (L : grid0.Coords) (k : Fin k0_t1_loop.trips) (h : ∀ a, (k0_off5 L k 4#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 4#32) S64x128.size h) (fun _ => rfl)).view.set
      (oChunkC L (10 * k.val + 4 + 6) (chunk5_lt k 4)).view.set :=
  oChunk_set_congr _ _ (off5_chunk L k 4)

theorem oChunk_off5_5 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 5#32) S64x128.size (k0_off5_inb L k 5)) (fun _ => rfl))
      (oChunkC L (10 * k.val + 5 + 6) (chunk5_lt k 5)) :=
  oChunk_congr _ _ (off5_chunk L k 5)
theorem set_off5_5 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 5#32) S64x128.size (k0_off5_inb L k 5)) (fun _ => rfl)).view.set
      (oChunkC L (10 * k.val + 5 + 6) (chunk5_lt k 5)).view.set :=
  oChunk_set_congr _ _ (off5_chunk L k 5)
theorem oChunk_off5_5_of (L : grid0.Coords) (k : Fin k0_t1_loop.trips) (h : ∀ a, (k0_off5 L k 5#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 5#32) S64x128.size h) (fun _ => rfl))
      (oChunkC L (10 * k.val + 5 + 6) (chunk5_lt k 5)) :=
  oChunk_congr _ _ (off5_chunk L k 5)
theorem set_off5_5_of (L : grid0.Coords) (k : Fin k0_t1_loop.trips) (h : ∀ a, (k0_off5 L k 5#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 5#32) S64x128.size h) (fun _ => rfl)).view.set
      (oChunkC L (10 * k.val + 5 + 6) (chunk5_lt k 5)).view.set :=
  oChunk_set_congr _ _ (off5_chunk L k 5)

theorem oChunk_off5_6 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 6#32) S64x128.size (k0_off5_inb L k 6)) (fun _ => rfl))
      (oChunkC L (10 * k.val + 6 + 6) (chunk5_lt k 6)) :=
  oChunk_congr _ _ (off5_chunk L k 6)
theorem set_off5_6 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 6#32) S64x128.size (k0_off5_inb L k 6)) (fun _ => rfl)).view.set
      (oChunkC L (10 * k.val + 6 + 6) (chunk5_lt k 6)).view.set :=
  oChunk_set_congr _ _ (off5_chunk L k 6)
theorem oChunk_off5_6_of (L : grid0.Coords) (k : Fin k0_t1_loop.trips) (h : ∀ a, (k0_off5 L k 6#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 6#32) S64x128.size h) (fun _ => rfl))
      (oChunkC L (10 * k.val + 6 + 6) (chunk5_lt k 6)) :=
  oChunk_congr _ _ (off5_chunk L k 6)
theorem set_off5_6_of (L : grid0.Coords) (k : Fin k0_t1_loop.trips) (h : ∀ a, (k0_off5 L k 6#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 6#32) S64x128.size h) (fun _ => rfl)).view.set
      (oChunkC L (10 * k.val + 6 + 6) (chunk5_lt k 6)).view.set :=
  oChunk_set_congr _ _ (off5_chunk L k 6)

theorem oChunk_off5_7 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 7#32) S64x128.size (k0_off5_inb L k 7)) (fun _ => rfl))
      (oChunkC L (10 * k.val + 7 + 6) (chunk5_lt k 7)) :=
  oChunk_congr _ _ (off5_chunk L k 7)
theorem set_off5_7 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 7#32) S64x128.size (k0_off5_inb L k 7)) (fun _ => rfl)).view.set
      (oChunkC L (10 * k.val + 7 + 6) (chunk5_lt k 7)).view.set :=
  oChunk_set_congr _ _ (off5_chunk L k 7)
theorem oChunk_off5_7_of (L : grid0.Coords) (k : Fin k0_t1_loop.trips) (h : ∀ a, (k0_off5 L k 7#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 7#32) S64x128.size h) (fun _ => rfl))
      (oChunkC L (10 * k.val + 7 + 6) (chunk5_lt k 7)) :=
  oChunk_congr _ _ (off5_chunk L k 7)
theorem set_off5_7_of (L : grid0.Coords) (k : Fin k0_t1_loop.trips) (h : ∀ a, (k0_off5 L k 7#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 7#32) S64x128.size h) (fun _ => rfl)).view.set
      (oChunkC L (10 * k.val + 7 + 6) (chunk5_lt k 7)).view.set :=
  oChunk_set_congr _ _ (off5_chunk L k 7)

theorem oChunk_off5_8 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 8#32) S64x128.size (k0_off5_inb L k 8)) (fun _ => rfl))
      (oChunkC L (10 * k.val + 8 + 6) (chunk5_lt k 8)) :=
  oChunk_congr _ _ (off5_chunk L k 8)
theorem set_off5_8 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 8#32) S64x128.size (k0_off5_inb L k 8)) (fun _ => rfl)).view.set
      (oChunkC L (10 * k.val + 8 + 6) (chunk5_lt k 8)).view.set :=
  oChunk_set_congr _ _ (off5_chunk L k 8)
theorem oChunk_off5_8_of (L : grid0.Coords) (k : Fin k0_t1_loop.trips) (h : ∀ a, (k0_off5 L k 8#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 8#32) S64x128.size h) (fun _ => rfl))
      (oChunkC L (10 * k.val + 8 + 6) (chunk5_lt k 8)) :=
  oChunk_congr _ _ (off5_chunk L k 8)
theorem set_off5_8_of (L : grid0.Coords) (k : Fin k0_t1_loop.trips) (h : ∀ a, (k0_off5 L k 8#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 8#32) S64x128.size h) (fun _ => rfl)).view.set
      (oChunkC L (10 * k.val + 8 + 6) (chunk5_lt k 8)).view.set :=
  oChunk_set_congr _ _ (off5_chunk L k 8)

theorem oChunk_off5_9 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 9#32) S64x128.size (k0_off5_inb L k 9)) (fun _ => rfl))
      (oChunkC L (10 * k.val + 9 + 6) (chunk5_lt k 9)) :=
  oChunk_congr _ _ (off5_chunk L k 9)
theorem set_off5_9 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 9#32) S64x128.size (k0_off5_inb L k 9)) (fun _ => rfl)).view.set
      (oChunkC L (10 * k.val + 9 + 6) (chunk5_lt k 9)).view.set :=
  oChunk_set_congr _ _ (off5_chunk L k 9)
theorem oChunk_off5_9_of (L : grid0.Coords) (k : Fin k0_t1_loop.trips) (h : ∀ a, (k0_off5 L k 9#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 9#32) S64x128.size h) (fun _ => rfl))
      (oChunkC L (10 * k.val + 9 + 6) (chunk5_lt k 9)) :=
  oChunk_congr _ _ (off5_chunk L k 9)
theorem set_off5_9_of (L : grid0.Coords) (k : Fin k0_t1_loop.trips) (h : ∀ a, (k0_off5 L k 9#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 9#32) S64x128.size h) (fun _ => rfl)).view.set
      (oChunkC L (10 * k.val + 9 + 6) (chunk5_lt k 9)).view.set :=
  oChunk_set_congr _ _ (off5_chunk L k 9)

/-! ## The accesses outside the loop -/

/-- Each of the 24 constant offsets is a whole number of chunks into the worker's rows, below 160. -/
theorem off2_at_chunk : ∀ R : Fin 24, 64 * ((k0_off2_at R).toNat / 64) = (k0_off2_at R).toNat ∧ (k0_off2_at R).toNat / 64 < 160 := by
  decide

theorem off2_chunk (L : grid0.Coords) (R : Fin 24) :
    k0_off2 L (k0_off2_at R) = ![20480 * (L 1).val + 10240 * (L 0).val + 64 * ((k0_off2_at R).toNat / 64), 0] := by
  rw [Cert.OffsetFacts.Kernel.k0_off2_eq, (off2_at_chunk R).1]

theorem oChunk_off2 (L : grid0.Coords) (R : Fin 24) :
    @Eq (Memref sig .scVector .hbm S64x128 .f32) (Memref.slice (κ := .scVector) (sp := .hbm) (s := S327680x128) (e := .f32) (Memref.whole main_v1_scv)
        (Rect.unit (s := S327680x128) (k0_off2 L (k0_off2_at R)) S64x128.size (k0_off2_inb L R)) (fun _ => rfl))
      (oChunkC L ((k0_off2_at R).toNat / 64) (off2_at_chunk R).2) :=
  oChunk_congr _ _ (off2_chunk L R)

theorem set_off2 (L : grid0.Coords) (R : Fin 24) :
    @Eq (Finset S327680x128.Idx) (Memref.slice (κ := .scVector) (sp := .hbm) (s := S327680x128) (e := .f32) (Memref.whole main_v1_scv)
        (Rect.unit (s := S327680x128) (k0_off2 L (k0_off2_at R)) S64x128.size (k0_off2_inb L R)) (fun _ => rfl)).view.set
      (oChunkC L ((k0_off2_at R).toNat / 64) (off2_at_chunk R).2).view.set :=
  oChunk_set_congr _ _ (off2_chunk L R)

/-! The same with the constant and the chunk's number written out, one per row of the table: chunks 0 to 9, then
    150, 146, 151, 147, 152, 148, 153, 149, 154 and 155 to 159, in the order the program names them. -/

theorem lt160_0 : 0 < 160 := by omega
theorem lt160_1 : 1 < 160 := by omega
theorem lt160_2 : 2 < 160 := by omega
theorem lt160_3 : 3 < 160 := by omega
theorem lt160_4 : 4 < 160 := by omega
theorem lt160_5 : 5 < 160 := by omega
theorem lt160_6 : 6 < 160 := by omega
theorem lt160_7 : 7 < 160 := by omega
theorem lt160_8 : 8 < 160 := by omega
theorem lt160_9 : 9 < 160 := by omega
theorem lt160_150 : 150 < 160 := by omega
theorem lt160_146 : 146 < 160 := by omega
theorem lt160_151 : 151 < 160 := by omega
theorem lt160_147 : 147 < 160 := by omega
theorem lt160_152 : 152 < 160 := by omega
theorem lt160_148 : 148 < 160 := by omega
theorem lt160_153 : 153 < 160 := by omega
theorem lt160_149 : 149 < 160 := by omega
theorem lt160_154 : 154 < 160 := by omega
theorem lt160_155 : 155 < 160 := by omega
theorem lt160_156 : 156 < 160 := by omega
theorem lt160_157 : 157 < 160 := by omega
theorem lt160_158 : 158 < 160 := by omega
theorem lt160_159 : 159 < 160 := by omega

theorem off2_lit_chunk_0 (L : grid0.Coords) : k0_off2 L 0#32 = ![20480 * (L 1).val + 10240 * (L 0).val + 64 * 0, 0] :=
  Cert.OffsetFacts.Kernel.k0_off2_lit_0 L
theorem oChunk_off2_0 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 0#32) S64x128.size (k0_off2_inb L 0)) (fun _ => rfl))
      (oChunkC L 0 lt160_0) :=
  oChunk_congr _ _ (off2_lit_chunk_0 L)
theorem set_off2_0 (L : grid0.Coords) :
    @Eq (Finset S327680x128.Idx) (Memref.slice (κ := .scVector) (sp := .hbm) (s := S327680x128) (e := .f32) (Memref.whole main_v1_scv)
        (Rect.unit (s := S327680x128) (k0_off2 L 0#32) S64x128.size (k0_off2_inb L 0)) (fun _ => rfl)).view.set
      (oChunkC L 0 lt160_0).view.set :=
  oChunk_set_congr _ _ (off2_lit_chunk_0 L)
theorem oChunk_off2_0_of (L : grid0.Coords) (h : ∀ a, (k0_off2 L 0#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 0#32) S64x128.size h) (fun _ => rfl))
      (oChunkC L 0 lt160_0) :=
  oChunk_congr _ _ (off2_lit_chunk_0 L)
theorem set_off2_0_of (L : grid0.Coords) (h : ∀ a, (k0_off2 L 0#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 0#32) S64x128.size h) (fun _ => rfl)).view.set
      (oChunkC L 0 lt160_0).view.set :=
  oChunk_set_congr _ _ (off2_lit_chunk_0 L)

theorem off2_lit_chunk_1 (L : grid0.Coords) : k0_off2 L 64#32 = ![20480 * (L 1).val + 10240 * (L 0).val + 64 * 1, 0] :=
  Cert.OffsetFacts.Kernel.k0_off2_lit_1 L
theorem oChunk_off2_1 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 64#32) S64x128.size (k0_off2_inb L 1)) (fun _ => rfl))
      (oChunkC L 1 lt160_1) :=
  oChunk_congr _ _ (off2_lit_chunk_1 L)
theorem set_off2_1 (L : grid0.Coords) :
    @Eq (Finset S327680x128.Idx) (Memref.slice (κ := .scVector) (sp := .hbm) (s := S327680x128) (e := .f32) (Memref.whole main_v1_scv)
        (Rect.unit (s := S327680x128) (k0_off2 L 64#32) S64x128.size (k0_off2_inb L 1)) (fun _ => rfl)).view.set
      (oChunkC L 1 lt160_1).view.set :=
  oChunk_set_congr _ _ (off2_lit_chunk_1 L)
theorem oChunk_off2_1_of (L : grid0.Coords) (h : ∀ a, (k0_off2 L 64#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 64#32) S64x128.size h) (fun _ => rfl))
      (oChunkC L 1 lt160_1) :=
  oChunk_congr _ _ (off2_lit_chunk_1 L)
theorem set_off2_1_of (L : grid0.Coords) (h : ∀ a, (k0_off2 L 64#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 64#32) S64x128.size h) (fun _ => rfl)).view.set
      (oChunkC L 1 lt160_1).view.set :=
  oChunk_set_congr _ _ (off2_lit_chunk_1 L)

theorem off2_lit_chunk_2 (L : grid0.Coords) : k0_off2 L 128#32 = ![20480 * (L 1).val + 10240 * (L 0).val + 64 * 2, 0] :=
  Cert.OffsetFacts.Kernel.k0_off2_lit_2 L
theorem oChunk_off2_2 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 128#32) S64x128.size (k0_off2_inb L 2)) (fun _ => rfl))
      (oChunkC L 2 lt160_2) :=
  oChunk_congr _ _ (off2_lit_chunk_2 L)
theorem set_off2_2 (L : grid0.Coords) :
    @Eq (Finset S327680x128.Idx) (Memref.slice (κ := .scVector) (sp := .hbm) (s := S327680x128) (e := .f32) (Memref.whole main_v1_scv)
        (Rect.unit (s := S327680x128) (k0_off2 L 128#32) S64x128.size (k0_off2_inb L 2)) (fun _ => rfl)).view.set
      (oChunkC L 2 lt160_2).view.set :=
  oChunk_set_congr _ _ (off2_lit_chunk_2 L)
theorem oChunk_off2_2_of (L : grid0.Coords) (h : ∀ a, (k0_off2 L 128#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 128#32) S64x128.size h) (fun _ => rfl))
      (oChunkC L 2 lt160_2) :=
  oChunk_congr _ _ (off2_lit_chunk_2 L)
theorem set_off2_2_of (L : grid0.Coords) (h : ∀ a, (k0_off2 L 128#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 128#32) S64x128.size h) (fun _ => rfl)).view.set
      (oChunkC L 2 lt160_2).view.set :=
  oChunk_set_congr _ _ (off2_lit_chunk_2 L)

theorem off2_lit_chunk_3 (L : grid0.Coords) : k0_off2 L 192#32 = ![20480 * (L 1).val + 10240 * (L 0).val + 64 * 3, 0] :=
  Cert.OffsetFacts.Kernel.k0_off2_lit_3 L
theorem oChunk_off2_3 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 192#32) S64x128.size (k0_off2_inb L 3)) (fun _ => rfl))
      (oChunkC L 3 lt160_3) :=
  oChunk_congr _ _ (off2_lit_chunk_3 L)
theorem set_off2_3 (L : grid0.Coords) :
    @Eq (Finset S327680x128.Idx) (Memref.slice (κ := .scVector) (sp := .hbm) (s := S327680x128) (e := .f32) (Memref.whole main_v1_scv)
        (Rect.unit (s := S327680x128) (k0_off2 L 192#32) S64x128.size (k0_off2_inb L 3)) (fun _ => rfl)).view.set
      (oChunkC L 3 lt160_3).view.set :=
  oChunk_set_congr _ _ (off2_lit_chunk_3 L)
theorem oChunk_off2_3_of (L : grid0.Coords) (h : ∀ a, (k0_off2 L 192#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 192#32) S64x128.size h) (fun _ => rfl))
      (oChunkC L 3 lt160_3) :=
  oChunk_congr _ _ (off2_lit_chunk_3 L)
theorem set_off2_3_of (L : grid0.Coords) (h : ∀ a, (k0_off2 L 192#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 192#32) S64x128.size h) (fun _ => rfl)).view.set
      (oChunkC L 3 lt160_3).view.set :=
  oChunk_set_congr _ _ (off2_lit_chunk_3 L)

theorem off2_lit_chunk_4 (L : grid0.Coords) : k0_off2 L 256#32 = ![20480 * (L 1).val + 10240 * (L 0).val + 64 * 4, 0] :=
  Cert.OffsetFacts.Kernel.k0_off2_lit_4 L
theorem oChunk_off2_4 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 256#32) S64x128.size (k0_off2_inb L 4)) (fun _ => rfl))
      (oChunkC L 4 lt160_4) :=
  oChunk_congr _ _ (off2_lit_chunk_4 L)
theorem set_off2_4 (L : grid0.Coords) :
    @Eq (Finset S327680x128.Idx) (Memref.slice (κ := .scVector) (sp := .hbm) (s := S327680x128) (e := .f32) (Memref.whole main_v1_scv)
        (Rect.unit (s := S327680x128) (k0_off2 L 256#32) S64x128.size (k0_off2_inb L 4)) (fun _ => rfl)).view.set
      (oChunkC L 4 lt160_4).view.set :=
  oChunk_set_congr _ _ (off2_lit_chunk_4 L)
theorem oChunk_off2_4_of (L : grid0.Coords) (h : ∀ a, (k0_off2 L 256#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 256#32) S64x128.size h) (fun _ => rfl))
      (oChunkC L 4 lt160_4) :=
  oChunk_congr _ _ (off2_lit_chunk_4 L)
theorem set_off2_4_of (L : grid0.Coords) (h : ∀ a, (k0_off2 L 256#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 256#32) S64x128.size h) (fun _ => rfl)).view.set
      (oChunkC L 4 lt160_4).view.set :=
  oChunk_set_congr _ _ (off2_lit_chunk_4 L)

theorem off2_lit_chunk_5 (L : grid0.Coords) : k0_off2 L 320#32 = ![20480 * (L 1).val + 10240 * (L 0).val + 64 * 5, 0] :=
  Cert.OffsetFacts.Kernel.k0_off2_lit_5 L
theorem oChunk_off2_5 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 320#32) S64x128.size (k0_off2_inb L 5)) (fun _ => rfl))
      (oChunkC L 5 lt160_5) :=
  oChunk_congr _ _ (off2_lit_chunk_5 L)
theorem set_off2_5 (L : grid0.Coords) :
    @Eq (Finset S327680x128.Idx) (Memref.slice (κ := .scVector) (sp := .hbm) (s := S327680x128) (e := .f32) (Memref.whole main_v1_scv)
        (Rect.unit (s := S327680x128) (k0_off2 L 320#32) S64x128.size (k0_off2_inb L 5)) (fun _ => rfl)).view.set
      (oChunkC L 5 lt160_5).view.set :=
  oChunk_set_congr _ _ (off2_lit_chunk_5 L)
theorem oChunk_off2_5_of (L : grid0.Coords) (h : ∀ a, (k0_off2 L 320#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 320#32) S64x128.size h) (fun _ => rfl))
      (oChunkC L 5 lt160_5) :=
  oChunk_congr _ _ (off2_lit_chunk_5 L)
theorem set_off2_5_of (L : grid0.Coords) (h : ∀ a, (k0_off2 L 320#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 320#32) S64x128.size h) (fun _ => rfl)).view.set
      (oChunkC L 5 lt160_5).view.set :=
  oChunk_set_congr _ _ (off2_lit_chunk_5 L)

theorem off2_lit_chunk_6 (L : grid0.Coords) : k0_off2 L 384#32 = ![20480 * (L 1).val + 10240 * (L 0).val + 64 * 6, 0] :=
  Cert.OffsetFacts.Kernel.k0_off2_lit_6 L
theorem oChunk_off2_6 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 384#32) S64x128.size (k0_off2_inb L 6)) (fun _ => rfl))
      (oChunkC L 6 lt160_6) :=
  oChunk_congr _ _ (off2_lit_chunk_6 L)
theorem set_off2_6 (L : grid0.Coords) :
    @Eq (Finset S327680x128.Idx) (Memref.slice (κ := .scVector) (sp := .hbm) (s := S327680x128) (e := .f32) (Memref.whole main_v1_scv)
        (Rect.unit (s := S327680x128) (k0_off2 L 384#32) S64x128.size (k0_off2_inb L 6)) (fun _ => rfl)).view.set
      (oChunkC L 6 lt160_6).view.set :=
  oChunk_set_congr _ _ (off2_lit_chunk_6 L)
theorem oChunk_off2_6_of (L : grid0.Coords) (h : ∀ a, (k0_off2 L 384#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 384#32) S64x128.size h) (fun _ => rfl))
      (oChunkC L 6 lt160_6) :=
  oChunk_congr _ _ (off2_lit_chunk_6 L)
theorem set_off2_6_of (L : grid0.Coords) (h : ∀ a, (k0_off2 L 384#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 384#32) S64x128.size h) (fun _ => rfl)).view.set
      (oChunkC L 6 lt160_6).view.set :=
  oChunk_set_congr _ _ (off2_lit_chunk_6 L)

theorem off2_lit_chunk_7 (L : grid0.Coords) : k0_off2 L 448#32 = ![20480 * (L 1).val + 10240 * (L 0).val + 64 * 7, 0] :=
  Cert.OffsetFacts.Kernel.k0_off2_lit_7 L
theorem oChunk_off2_7 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 448#32) S64x128.size (k0_off2_inb L 7)) (fun _ => rfl))
      (oChunkC L 7 lt160_7) :=
  oChunk_congr _ _ (off2_lit_chunk_7 L)
theorem set_off2_7 (L : grid0.Coords) :
    @Eq (Finset S327680x128.Idx) (Memref.slice (κ := .scVector) (sp := .hbm) (s := S327680x128) (e := .f32) (Memref.whole main_v1_scv)
        (Rect.unit (s := S327680x128) (k0_off2 L 448#32) S64x128.size (k0_off2_inb L 7)) (fun _ => rfl)).view.set
      (oChunkC L 7 lt160_7).view.set :=
  oChunk_set_congr _ _ (off2_lit_chunk_7 L)
theorem oChunk_off2_7_of (L : grid0.Coords) (h : ∀ a, (k0_off2 L 448#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 448#32) S64x128.size h) (fun _ => rfl))
      (oChunkC L 7 lt160_7) :=
  oChunk_congr _ _ (off2_lit_chunk_7 L)
theorem set_off2_7_of (L : grid0.Coords) (h : ∀ a, (k0_off2 L 448#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 448#32) S64x128.size h) (fun _ => rfl)).view.set
      (oChunkC L 7 lt160_7).view.set :=
  oChunk_set_congr _ _ (off2_lit_chunk_7 L)

theorem off2_lit_chunk_8 (L : grid0.Coords) : k0_off2 L 512#32 = ![20480 * (L 1).val + 10240 * (L 0).val + 64 * 8, 0] :=
  Cert.OffsetFacts.Kernel.k0_off2_lit_8 L
theorem oChunk_off2_8 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 512#32) S64x128.size (k0_off2_inb L 8)) (fun _ => rfl))
      (oChunkC L 8 lt160_8) :=
  oChunk_congr _ _ (off2_lit_chunk_8 L)
theorem set_off2_8 (L : grid0.Coords) :
    @Eq (Finset S327680x128.Idx) (Memref.slice (κ := .scVector) (sp := .hbm) (s := S327680x128) (e := .f32) (Memref.whole main_v1_scv)
        (Rect.unit (s := S327680x128) (k0_off2 L 512#32) S64x128.size (k0_off2_inb L 8)) (fun _ => rfl)).view.set
      (oChunkC L 8 lt160_8).view.set :=
  oChunk_set_congr _ _ (off2_lit_chunk_8 L)
theorem oChunk_off2_8_of (L : grid0.Coords) (h : ∀ a, (k0_off2 L 512#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 512#32) S64x128.size h) (fun _ => rfl))
      (oChunkC L 8 lt160_8) :=
  oChunk_congr _ _ (off2_lit_chunk_8 L)
theorem set_off2_8_of (L : grid0.Coords) (h : ∀ a, (k0_off2 L 512#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 512#32) S64x128.size h) (fun _ => rfl)).view.set
      (oChunkC L 8 lt160_8).view.set :=
  oChunk_set_congr _ _ (off2_lit_chunk_8 L)

theorem off2_lit_chunk_9 (L : grid0.Coords) : k0_off2 L 576#32 = ![20480 * (L 1).val + 10240 * (L 0).val + 64 * 9, 0] :=
  Cert.OffsetFacts.Kernel.k0_off2_lit_9 L
theorem oChunk_off2_9 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 576#32) S64x128.size (k0_off2_inb L 9)) (fun _ => rfl))
      (oChunkC L 9 lt160_9) :=
  oChunk_congr _ _ (off2_lit_chunk_9 L)
theorem set_off2_9 (L : grid0.Coords) :
    @Eq (Finset S327680x128.Idx) (Memref.slice (κ := .scVector) (sp := .hbm) (s := S327680x128) (e := .f32) (Memref.whole main_v1_scv)
        (Rect.unit (s := S327680x128) (k0_off2 L 576#32) S64x128.size (k0_off2_inb L 9)) (fun _ => rfl)).view.set
      (oChunkC L 9 lt160_9).view.set :=
  oChunk_set_congr _ _ (off2_lit_chunk_9 L)
theorem oChunk_off2_9_of (L : grid0.Coords) (h : ∀ a, (k0_off2 L 576#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 576#32) S64x128.size h) (fun _ => rfl))
      (oChunkC L 9 lt160_9) :=
  oChunk_congr _ _ (off2_lit_chunk_9 L)
theorem set_off2_9_of (L : grid0.Coords) (h : ∀ a, (k0_off2 L 576#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 576#32) S64x128.size h) (fun _ => rfl)).view.set
      (oChunkC L 9 lt160_9).view.set :=
  oChunk_set_congr _ _ (off2_lit_chunk_9 L)

theorem off2_lit_chunk_10 (L : grid0.Coords) : k0_off2 L 9600#32 = ![20480 * (L 1).val + 10240 * (L 0).val + 64 * 150, 0] :=
  Cert.OffsetFacts.Kernel.k0_off2_lit_10 L
theorem oChunk_off2_10 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9600#32) S64x128.size (k0_off2_inb L 10)) (fun _ => rfl))
      (oChunkC L 150 lt160_150) :=
  oChunk_congr _ _ (off2_lit_chunk_10 L)
theorem set_off2_10 (L : grid0.Coords) :
    @Eq (Finset S327680x128.Idx) (Memref.slice (κ := .scVector) (sp := .hbm) (s := S327680x128) (e := .f32) (Memref.whole main_v1_scv)
        (Rect.unit (s := S327680x128) (k0_off2 L 9600#32) S64x128.size (k0_off2_inb L 10)) (fun _ => rfl)).view.set
      (oChunkC L 150 lt160_150).view.set :=
  oChunk_set_congr _ _ (off2_lit_chunk_10 L)
theorem oChunk_off2_10_of (L : grid0.Coords) (h : ∀ a, (k0_off2 L 9600#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9600#32) S64x128.size h) (fun _ => rfl))
      (oChunkC L 150 lt160_150) :=
  oChunk_congr _ _ (off2_lit_chunk_10 L)
theorem set_off2_10_of (L : grid0.Coords) (h : ∀ a, (k0_off2 L 9600#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9600#32) S64x128.size h) (fun _ => rfl)).view.set
      (oChunkC L 150 lt160_150).view.set :=
  oChunk_set_congr _ _ (off2_lit_chunk_10 L)

theorem off2_lit_chunk_11 (L : grid0.Coords) : k0_off2 L 9344#32 = ![20480 * (L 1).val + 10240 * (L 0).val + 64 * 146, 0] :=
  Cert.OffsetFacts.Kernel.k0_off2_lit_11 L
theorem oChunk_off2_11 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9344#32) S64x128.size (k0_off2_inb L 11)) (fun _ => rfl))
      (oChunkC L 146 lt160_146) :=
  oChunk_congr _ _ (off2_lit_chunk_11 L)
theorem set_off2_11 (L : grid0.Coords) :
    @Eq (Finset S327680x128.Idx) (Memref.slice (κ := .scVector) (sp := .hbm) (s := S327680x128) (e := .f32) (Memref.whole main_v1_scv)
        (Rect.unit (s := S327680x128) (k0_off2 L 9344#32) S64x128.size (k0_off2_inb L 11)) (fun _ => rfl)).view.set
      (oChunkC L 146 lt160_146).view.set :=
  oChunk_set_congr _ _ (off2_lit_chunk_11 L)
theorem oChunk_off2_11_of (L : grid0.Coords) (h : ∀ a, (k0_off2 L 9344#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9344#32) S64x128.size h) (fun _ => rfl))
      (oChunkC L 146 lt160_146) :=
  oChunk_congr _ _ (off2_lit_chunk_11 L)
theorem set_off2_11_of (L : grid0.Coords) (h : ∀ a, (k0_off2 L 9344#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9344#32) S64x128.size h) (fun _ => rfl)).view.set
      (oChunkC L 146 lt160_146).view.set :=
  oChunk_set_congr _ _ (off2_lit_chunk_11 L)

theorem off2_lit_chunk_12 (L : grid0.Coords) : k0_off2 L 9664#32 = ![20480 * (L 1).val + 10240 * (L 0).val + 64 * 151, 0] :=
  Cert.OffsetFacts.Kernel.k0_off2_lit_12 L
theorem oChunk_off2_12 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9664#32) S64x128.size (k0_off2_inb L 12)) (fun _ => rfl))
      (oChunkC L 151 lt160_151) :=
  oChunk_congr _ _ (off2_lit_chunk_12 L)
theorem set_off2_12 (L : grid0.Coords) :
    @Eq (Finset S327680x128.Idx) (Memref.slice (κ := .scVector) (sp := .hbm) (s := S327680x128) (e := .f32) (Memref.whole main_v1_scv)
        (Rect.unit (s := S327680x128) (k0_off2 L 9664#32) S64x128.size (k0_off2_inb L 12)) (fun _ => rfl)).view.set
      (oChunkC L 151 lt160_151).view.set :=
  oChunk_set_congr _ _ (off2_lit_chunk_12 L)
theorem oChunk_off2_12_of (L : grid0.Coords) (h : ∀ a, (k0_off2 L 9664#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9664#32) S64x128.size h) (fun _ => rfl))
      (oChunkC L 151 lt160_151) :=
  oChunk_congr _ _ (off2_lit_chunk_12 L)
theorem set_off2_12_of (L : grid0.Coords) (h : ∀ a, (k0_off2 L 9664#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9664#32) S64x128.size h) (fun _ => rfl)).view.set
      (oChunkC L 151 lt160_151).view.set :=
  oChunk_set_congr _ _ (off2_lit_chunk_12 L)

theorem off2_lit_chunk_13 (L : grid0.Coords) : k0_off2 L 9408#32 = ![20480 * (L 1).val + 10240 * (L 0).val + 64 * 147, 0] :=
  Cert.OffsetFacts.Kernel.k0_off2_lit_13 L
theorem oChunk_off2_13 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9408#32) S64x128.size (k0_off2_inb L 13)) (fun _ => rfl))
      (oChunkC L 147 lt160_147) :=
  oChunk_congr _ _ (off2_lit_chunk_13 L)
theorem set_off2_13 (L : grid0.Coords) :
    @Eq (Finset S327680x128.Idx) (Memref.slice (κ := .scVector) (sp := .hbm) (s := S327680x128) (e := .f32) (Memref.whole main_v1_scv)
        (Rect.unit (s := S327680x128) (k0_off2 L 9408#32) S64x128.size (k0_off2_inb L 13)) (fun _ => rfl)).view.set
      (oChunkC L 147 lt160_147).view.set :=
  oChunk_set_congr _ _ (off2_lit_chunk_13 L)
theorem oChunk_off2_13_of (L : grid0.Coords) (h : ∀ a, (k0_off2 L 9408#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9408#32) S64x128.size h) (fun _ => rfl))
      (oChunkC L 147 lt160_147) :=
  oChunk_congr _ _ (off2_lit_chunk_13 L)
theorem set_off2_13_of (L : grid0.Coords) (h : ∀ a, (k0_off2 L 9408#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9408#32) S64x128.size h) (fun _ => rfl)).view.set
      (oChunkC L 147 lt160_147).view.set :=
  oChunk_set_congr _ _ (off2_lit_chunk_13 L)

theorem off2_lit_chunk_14 (L : grid0.Coords) : k0_off2 L 9728#32 = ![20480 * (L 1).val + 10240 * (L 0).val + 64 * 152, 0] :=
  Cert.OffsetFacts.Kernel.k0_off2_lit_14 L
theorem oChunk_off2_14 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9728#32) S64x128.size (k0_off2_inb L 14)) (fun _ => rfl))
      (oChunkC L 152 lt160_152) :=
  oChunk_congr _ _ (off2_lit_chunk_14 L)
theorem set_off2_14 (L : grid0.Coords) :
    @Eq (Finset S327680x128.Idx) (Memref.slice (κ := .scVector) (sp := .hbm) (s := S327680x128) (e := .f32) (Memref.whole main_v1_scv)
        (Rect.unit (s := S327680x128) (k0_off2 L 9728#32) S64x128.size (k0_off2_inb L 14)) (fun _ => rfl)).view.set
      (oChunkC L 152 lt160_152).view.set :=
  oChunk_set_congr _ _ (off2_lit_chunk_14 L)
theorem oChunk_off2_14_of (L : grid0.Coords) (h : ∀ a, (k0_off2 L 9728#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9728#32) S64x128.size h) (fun _ => rfl))
      (oChunkC L 152 lt160_152) :=
  oChunk_congr _ _ (off2_lit_chunk_14 L)
theorem set_off2_14_of (L : grid0.Coords) (h : ∀ a, (k0_off2 L 9728#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9728#32) S64x128.size h) (fun _ => rfl)).view.set
      (oChunkC L 152 lt160_152).view.set :=
  oChunk_set_congr _ _ (off2_lit_chunk_14 L)

theorem off2_lit_chunk_15 (L : grid0.Coords) : k0_off2 L 9472#32 = ![20480 * (L 1).val + 10240 * (L 0).val + 64 * 148, 0] :=
  Cert.OffsetFacts.Kernel.k0_off2_lit_15 L
theorem oChunk_off2_15 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9472#32) S64x128.size (k0_off2_inb L 15)) (fun _ => rfl))
      (oChunkC L 148 lt160_148) :=
  oChunk_congr _ _ (off2_lit_chunk_15 L)
theorem set_off2_15 (L : grid0.Coords) :
    @Eq (Finset S327680x128.Idx) (Memref.slice (κ := .scVector) (sp := .hbm) (s := S327680x128) (e := .f32) (Memref.whole main_v1_scv)
        (Rect.unit (s := S327680x128) (k0_off2 L 9472#32) S64x128.size (k0_off2_inb L 15)) (fun _ => rfl)).view.set
      (oChunkC L 148 lt160_148).view.set :=
  oChunk_set_congr _ _ (off2_lit_chunk_15 L)
theorem oChunk_off2_15_of (L : grid0.Coords) (h : ∀ a, (k0_off2 L 9472#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9472#32) S64x128.size h) (fun _ => rfl))
      (oChunkC L 148 lt160_148) :=
  oChunk_congr _ _ (off2_lit_chunk_15 L)
theorem set_off2_15_of (L : grid0.Coords) (h : ∀ a, (k0_off2 L 9472#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9472#32) S64x128.size h) (fun _ => rfl)).view.set
      (oChunkC L 148 lt160_148).view.set :=
  oChunk_set_congr _ _ (off2_lit_chunk_15 L)

theorem off2_lit_chunk_16 (L : grid0.Coords) : k0_off2 L 9792#32 = ![20480 * (L 1).val + 10240 * (L 0).val + 64 * 153, 0] :=
  Cert.OffsetFacts.Kernel.k0_off2_lit_16 L
theorem oChunk_off2_16 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9792#32) S64x128.size (k0_off2_inb L 16)) (fun _ => rfl))
      (oChunkC L 153 lt160_153) :=
  oChunk_congr _ _ (off2_lit_chunk_16 L)
theorem set_off2_16 (L : grid0.Coords) :
    @Eq (Finset S327680x128.Idx) (Memref.slice (κ := .scVector) (sp := .hbm) (s := S327680x128) (e := .f32) (Memref.whole main_v1_scv)
        (Rect.unit (s := S327680x128) (k0_off2 L 9792#32) S64x128.size (k0_off2_inb L 16)) (fun _ => rfl)).view.set
      (oChunkC L 153 lt160_153).view.set :=
  oChunk_set_congr _ _ (off2_lit_chunk_16 L)
theorem oChunk_off2_16_of (L : grid0.Coords) (h : ∀ a, (k0_off2 L 9792#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9792#32) S64x128.size h) (fun _ => rfl))
      (oChunkC L 153 lt160_153) :=
  oChunk_congr _ _ (off2_lit_chunk_16 L)
theorem set_off2_16_of (L : grid0.Coords) (h : ∀ a, (k0_off2 L 9792#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9792#32) S64x128.size h) (fun _ => rfl)).view.set
      (oChunkC L 153 lt160_153).view.set :=
  oChunk_set_congr _ _ (off2_lit_chunk_16 L)

theorem off2_lit_chunk_17 (L : grid0.Coords) : k0_off2 L 9536#32 = ![20480 * (L 1).val + 10240 * (L 0).val + 64 * 149, 0] :=
  Cert.OffsetFacts.Kernel.k0_off2_lit_17 L
theorem oChunk_off2_17 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9536#32) S64x128.size (k0_off2_inb L 17)) (fun _ => rfl))
      (oChunkC L 149 lt160_149) :=
  oChunk_congr _ _ (off2_lit_chunk_17 L)
theorem set_off2_17 (L : grid0.Coords) :
    @Eq (Finset S327680x128.Idx) (Memref.slice (κ := .scVector) (sp := .hbm) (s := S327680x128) (e := .f32) (Memref.whole main_v1_scv)
        (Rect.unit (s := S327680x128) (k0_off2 L 9536#32) S64x128.size (k0_off2_inb L 17)) (fun _ => rfl)).view.set
      (oChunkC L 149 lt160_149).view.set :=
  oChunk_set_congr _ _ (off2_lit_chunk_17 L)
theorem oChunk_off2_17_of (L : grid0.Coords) (h : ∀ a, (k0_off2 L 9536#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9536#32) S64x128.size h) (fun _ => rfl))
      (oChunkC L 149 lt160_149) :=
  oChunk_congr _ _ (off2_lit_chunk_17 L)
theorem set_off2_17_of (L : grid0.Coords) (h : ∀ a, (k0_off2 L 9536#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9536#32) S64x128.size h) (fun _ => rfl)).view.set
      (oChunkC L 149 lt160_149).view.set :=
  oChunk_set_congr _ _ (off2_lit_chunk_17 L)

theorem off2_lit_chunk_18 (L : grid0.Coords) : k0_off2 L 9856#32 = ![20480 * (L 1).val + 10240 * (L 0).val + 64 * 154, 0] :=
  Cert.OffsetFacts.Kernel.k0_off2_lit_18 L
theorem oChunk_off2_18 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9856#32) S64x128.size (k0_off2_inb L 18)) (fun _ => rfl))
      (oChunkC L 154 lt160_154) :=
  oChunk_congr _ _ (off2_lit_chunk_18 L)
theorem set_off2_18 (L : grid0.Coords) :
    @Eq (Finset S327680x128.Idx) (Memref.slice (κ := .scVector) (sp := .hbm) (s := S327680x128) (e := .f32) (Memref.whole main_v1_scv)
        (Rect.unit (s := S327680x128) (k0_off2 L 9856#32) S64x128.size (k0_off2_inb L 18)) (fun _ => rfl)).view.set
      (oChunkC L 154 lt160_154).view.set :=
  oChunk_set_congr _ _ (off2_lit_chunk_18 L)
theorem oChunk_off2_18_of (L : grid0.Coords) (h : ∀ a, (k0_off2 L 9856#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9856#32) S64x128.size h) (fun _ => rfl))
      (oChunkC L 154 lt160_154) :=
  oChunk_congr _ _ (off2_lit_chunk_18 L)
theorem set_off2_18_of (L : grid0.Coords) (h : ∀ a, (k0_off2 L 9856#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9856#32) S64x128.size h) (fun _ => rfl)).view.set
      (oChunkC L 154 lt160_154).view.set :=
  oChunk_set_congr _ _ (off2_lit_chunk_18 L)

theorem off2_lit_chunk_19 (L : grid0.Coords) : k0_off2 L 9920#32 = ![20480 * (L 1).val + 10240 * (L 0).val + 64 * 155, 0] :=
  Cert.OffsetFacts.Kernel.k0_off2_lit_19 L
theorem oChunk_off2_19 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9920#32) S64x128.size (k0_off2_inb L 19)) (fun _ => rfl))
      (oChunkC L 155 lt160_155) :=
  oChunk_congr _ _ (off2_lit_chunk_19 L)
theorem set_off2_19 (L : grid0.Coords) :
    @Eq (Finset S327680x128.Idx) (Memref.slice (κ := .scVector) (sp := .hbm) (s := S327680x128) (e := .f32) (Memref.whole main_v1_scv)
        (Rect.unit (s := S327680x128) (k0_off2 L 9920#32) S64x128.size (k0_off2_inb L 19)) (fun _ => rfl)).view.set
      (oChunkC L 155 lt160_155).view.set :=
  oChunk_set_congr _ _ (off2_lit_chunk_19 L)
theorem oChunk_off2_19_of (L : grid0.Coords) (h : ∀ a, (k0_off2 L 9920#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9920#32) S64x128.size h) (fun _ => rfl))
      (oChunkC L 155 lt160_155) :=
  oChunk_congr _ _ (off2_lit_chunk_19 L)
theorem set_off2_19_of (L : grid0.Coords) (h : ∀ a, (k0_off2 L 9920#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9920#32) S64x128.size h) (fun _ => rfl)).view.set
      (oChunkC L 155 lt160_155).view.set :=
  oChunk_set_congr _ _ (off2_lit_chunk_19 L)

theorem off2_lit_chunk_20 (L : grid0.Coords) : k0_off2 L 9984#32 = ![20480 * (L 1).val + 10240 * (L 0).val + 64 * 156, 0] :=
  Cert.OffsetFacts.Kernel.k0_off2_lit_20 L
theorem oChunk_off2_20 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9984#32) S64x128.size (k0_off2_inb L 20)) (fun _ => rfl))
      (oChunkC L 156 lt160_156) :=
  oChunk_congr _ _ (off2_lit_chunk_20 L)
theorem set_off2_20 (L : grid0.Coords) :
    @Eq (Finset S327680x128.Idx) (Memref.slice (κ := .scVector) (sp := .hbm) (s := S327680x128) (e := .f32) (Memref.whole main_v1_scv)
        (Rect.unit (s := S327680x128) (k0_off2 L 9984#32) S64x128.size (k0_off2_inb L 20)) (fun _ => rfl)).view.set
      (oChunkC L 156 lt160_156).view.set :=
  oChunk_set_congr _ _ (off2_lit_chunk_20 L)
theorem oChunk_off2_20_of (L : grid0.Coords) (h : ∀ a, (k0_off2 L 9984#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9984#32) S64x128.size h) (fun _ => rfl))
      (oChunkC L 156 lt160_156) :=
  oChunk_congr _ _ (off2_lit_chunk_20 L)
theorem set_off2_20_of (L : grid0.Coords) (h : ∀ a, (k0_off2 L 9984#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9984#32) S64x128.size h) (fun _ => rfl)).view.set
      (oChunkC L 156 lt160_156).view.set :=
  oChunk_set_congr _ _ (off2_lit_chunk_20 L)

theorem off2_lit_chunk_21 (L : grid0.Coords) : k0_off2 L 10048#32 = ![20480 * (L 1).val + 10240 * (L 0).val + 64 * 157, 0] :=
  Cert.OffsetFacts.Kernel.k0_off2_lit_21 L
theorem oChunk_off2_21 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 10048#32) S64x128.size (k0_off2_inb L 21)) (fun _ => rfl))
      (oChunkC L 157 lt160_157) :=
  oChunk_congr _ _ (off2_lit_chunk_21 L)
theorem set_off2_21 (L : grid0.Coords) :
    @Eq (Finset S327680x128.Idx) (Memref.slice (κ := .scVector) (sp := .hbm) (s := S327680x128) (e := .f32) (Memref.whole main_v1_scv)
        (Rect.unit (s := S327680x128) (k0_off2 L 10048#32) S64x128.size (k0_off2_inb L 21)) (fun _ => rfl)).view.set
      (oChunkC L 157 lt160_157).view.set :=
  oChunk_set_congr _ _ (off2_lit_chunk_21 L)
theorem oChunk_off2_21_of (L : grid0.Coords) (h : ∀ a, (k0_off2 L 10048#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 10048#32) S64x128.size h) (fun _ => rfl))
      (oChunkC L 157 lt160_157) :=
  oChunk_congr _ _ (off2_lit_chunk_21 L)
theorem set_off2_21_of (L : grid0.Coords) (h : ∀ a, (k0_off2 L 10048#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 10048#32) S64x128.size h) (fun _ => rfl)).view.set
      (oChunkC L 157 lt160_157).view.set :=
  oChunk_set_congr _ _ (off2_lit_chunk_21 L)

theorem off2_lit_chunk_22 (L : grid0.Coords) : k0_off2 L 10112#32 = ![20480 * (L 1).val + 10240 * (L 0).val + 64 * 158, 0] :=
  Cert.OffsetFacts.Kernel.k0_off2_lit_22 L
theorem oChunk_off2_22 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 10112#32) S64x128.size (k0_off2_inb L 22)) (fun _ => rfl))
      (oChunkC L 158 lt160_158) :=
  oChunk_congr _ _ (off2_lit_chunk_22 L)
theorem set_off2_22 (L : grid0.Coords) :
    @Eq (Finset S327680x128.Idx) (Memref.slice (κ := .scVector) (sp := .hbm) (s := S327680x128) (e := .f32) (Memref.whole main_v1_scv)
        (Rect.unit (s := S327680x128) (k0_off2 L 10112#32) S64x128.size (k0_off2_inb L 22)) (fun _ => rfl)).view.set
      (oChunkC L 158 lt160_158).view.set :=
  oChunk_set_congr _ _ (off2_lit_chunk_22 L)
theorem oChunk_off2_22_of (L : grid0.Coords) (h : ∀ a, (k0_off2 L 10112#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 10112#32) S64x128.size h) (fun _ => rfl))
      (oChunkC L 158 lt160_158) :=
  oChunk_congr _ _ (off2_lit_chunk_22 L)
theorem set_off2_22_of (L : grid0.Coords) (h : ∀ a, (k0_off2 L 10112#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 10112#32) S64x128.size h) (fun _ => rfl)).view.set
      (oChunkC L 158 lt160_158).view.set :=
  oChunk_set_congr _ _ (off2_lit_chunk_22 L)

theorem off2_lit_chunk_23 (L : grid0.Coords) : k0_off2 L 10176#32 = ![20480 * (L 1).val + 10240 * (L 0).val + 64 * 159, 0] :=
  Cert.OffsetFacts.Kernel.k0_off2_lit_23 L
theorem oChunk_off2_23 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 10176#32) S64x128.size (k0_off2_inb L 23)) (fun _ => rfl))
      (oChunkC L 159 lt160_159) :=
  oChunk_congr _ _ (off2_lit_chunk_23 L)
theorem set_off2_23 (L : grid0.Coords) :
    @Eq (Finset S327680x128.Idx) (Memref.slice (κ := .scVector) (sp := .hbm) (s := S327680x128) (e := .f32) (Memref.whole main_v1_scv)
        (Rect.unit (s := S327680x128) (k0_off2 L 10176#32) S64x128.size (k0_off2_inb L 23)) (fun _ => rfl)).view.set
      (oChunkC L 159 lt160_159).view.set :=
  oChunk_set_congr _ _ (off2_lit_chunk_23 L)
theorem oChunk_off2_23_of (L : grid0.Coords) (h : ∀ a, (k0_off2 L 10176#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 10176#32) S64x128.size h) (fun _ => rfl))
      (oChunkC L 159 lt160_159) :=
  oChunk_congr _ _ (off2_lit_chunk_23 L)
theorem set_off2_23_of (L : grid0.Coords) (h : ∀ a, (k0_off2 L 10176#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 10176#32) S64x128.size h) (fun _ => rfl)).view.set
      (oChunkC L 159 lt160_159).view.set :=
  oChunk_set_congr _ _ (off2_lit_chunk_23 L)

/-! ## A chunk's indices are its block of the cover -/

/-- The worker at grid coordinates `L` is number `2 · L 1 + L 0`. -/
theorem widL_val (L : grid0.Coords) : (widL L).val = 2 * (L 1).val + (L 0).val := rfl

/-- Chunk `g` of worker `(L 0, L 1)` covers exactly block `(2 · L 1 + L 0, g)` of the cover of the flat output. -/
theorem oChunkC_set (L : grid0.Coords) (g : ℕ) (hg : g < 160) :
    @Eq (Finset S327680x128.Idx) (oChunkC L g hg).view.set (Cert.Cover.chunkRect (widL L) ⟨g, hg⟩).set := by
  show ((View.whole (main_v1_scv : Ref sig .scVector)).slice
      (Rect.unit (s := S327680x128) ![20480 * (L 1).val + 10240 * (L 0).val + 64 * g, 0] S64x128.size (oChunkC_inb L g hg))).set = _
  rw [View.set_slice_whole]
  have e : (![20480 * (L 1).val + 10240 * (L 0).val + 64 * g, 0] : Fin 2 → ℕ) = ![10240 * (widL L).val + 64 * g, 0] := by
    have e' : 20480 * (L 1).val + 10240 * (L 0).val + 64 * g = 10240 * (widL L).val + 64 * g := by rw [widL_val]; omega
    rw [e']
  exact congrArg (fun r : Rect S327680x128 => r.set)
    (Rect.unit_congr (s := S327680x128) e (oChunkC_inb L g hg) (Cert.Cover.chunk_inb (widL L) ⟨g, hg⟩))

end Cert.KernelRun

end
-- ==== Proof.KernelRun.Pieces.lean ====
/-
  One worker's block of the flat output as its 160 chunks of 64 rows, for the bookkeeping of the worker's task. Worker `w`
  holds the rows `[10240·w, 10240·(w+1))`; chunk `g < 160` of them is the rows `[10240·w + 64·g, 10240·w + 64·g + 64)`. The
  chunks are pairwise disjoint and make up the block, so holding the block is holding its 160 pieces, indexed here by the
  natural numbers below 160 so that a run of consecutive chunks is an interval. With it the interval algebra the task's
  loop uses: an interval cut in two, ten consecutive members written out.
-/
import proofs.«207499_g15272903704957_cont_week2b_486_20_alg».proof.Proof.KernelRun.Pay
import proofs.«207499_g15272903704957_cont_week2b_486_20_alg».proof.Proof.Cover

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A worker's block as its 160 chunks -/

/-- Chunk `g` of worker `w`'s block, held at `f`; nothing for `g ≥ 160`. -/
def piece (d : Dev nD) (w : Fin 32) (f : Buf (Elt F) (oLoc d)) (g : ℕ) : sProp 𝕄 :=
  if h : g < 160 then (oLoc d ↦[(Cert.Cover.chunkRect w ⟨g, h⟩).set]{fullShare} f) else iprop(emp)

theorem piece_of_lt (d : Dev nD) (w : Fin 32) (f : Buf (Elt F) (oLoc d)) {g : ℕ} (h : g < 160) :
    piece d w f g = (oLoc d ↦[(Cert.Cover.chunkRect w ⟨g, h⟩).set]{fullShare} f : sProp 𝕄) := dif_pos h

theorem piece_of_ge (d : Dev nD) (w : Fin 32) (f : Buf (Elt F) (oLoc d)) {g : ℕ} (h : 160 ≤ g) :
    piece d w f g = (iprop(emp) : sProp 𝕄) := dif_neg (Nat.not_lt.mpr h)

theorem chunks_disjoint (w : Fin 32) :
    ∀ g ∈ (Finset.univ : Finset (Fin 160)), ∀ g' ∈ (Finset.univ : Finset (Fin 160)), g ≠ g' →
      Disjoint (Cert.Cover.chunkRect w g).set (Cert.Cover.chunkRect w g').set :=
  fun _ _ _ _ h => Cert.Cover.chunk_disjoint _ _ (Or.inr h)

theorem oSet_eq_chunks (d : Dev nD) (w : Fin 32) :
    oSet d w = (Finset.univ : Finset (Fin 160)).biUnion fun g => (Cert.Cover.chunkRect w g).set :=
  (Cert.Cover.biUnion_chunk_worker w).symm

/-- A product over `Fin n` of a family of the value is the product over the naturals below `n`. -/
theorem bigSep_fin_range (n : ℕ) (Φ : ℕ → sProp 𝕄) : (bigSep Finset.univ fun g : Fin n => Φ g.val) = bigSep (Finset.range n) Φ := by
  rw [← SparseCore.bigSep_image_of_injOn (f := (Fin.val : Fin n → ℕ)) (s := Finset.univ) (fun a _ b _ e => Fin.ext e) Φ]
  congr 1
  ext x
  simp only [Finset.mem_image, Finset.mem_univ, true_and, Finset.mem_range]
  exact ⟨fun ⟨a, e⟩ => e ▸ a.isLt, fun h => ⟨⟨x, h⟩, rfl⟩⟩

/-- The block is its 160 pieces. -/
theorem block_pieces (d : Dev nD) (w : Fin 32) (f : Buf (Elt F) (oLoc d)) :
    (oLoc d ↦[oSet d w]{fullShare} f : sProp 𝕄) = bigSep (Finset.range 160) (piece d w f) := by
  rw [oSet_eq_chunks, pointsTo_biUnion Finset.univ _ (chunks_disjoint w), ← bigSep_fin_range 160 (piece d w f)]
  exact bigSep_congr fun g _ => (piece_of_lt d w f g.isLt).symm

/-- Every piece at one function: the block at that function. -/
theorem pieces_all_done (d : Dev nD) (w : Fin 32) (f : Buf (Elt F) (oLoc d)) :
    bigSep (Finset.range 160) (piece d w f) = (oLoc d ↦[oSet d w]{fullShare} f : sProp 𝕄) := (block_pieces d w f).symm

/-- A piece only reads its function on its chunk. -/
theorem piece_congr (d : Dev nD) (w : Fin 32) (g : ℕ) {f f' : Buf (Elt F) (oLoc d)}
    (h : ∀ hg : g < 160, ∀ j ∈ (Cert.Cover.chunkRect w ⟨g, hg⟩).set, f j = f' j) : (piece d w f g : sProp 𝕄) = piece d w f' g := by
  unfold piece
  split
  · exact pointsTo_congr (h _)
  · rfl

/-- Pieces each at a function of its own that agrees with `f` on its chunk: the block at `f`. -/
theorem pieces_join (d : Dev nD) (w : Fin 32) (fs : ℕ → Buf (Elt F) (oLoc d)) (f : Buf (Elt F) (oLoc d))
    (h : ∀ g, ∀ hg : g < 160, ∀ j ∈ (Cert.Cover.chunkRect w ⟨g, hg⟩).set, fs g j = f j) :
    (bigSep (Finset.range 160) fun g => piece d w (fs g) g) = (oLoc d ↦[oSet d w]{fullShare} f : sProp 𝕄) := by
  rw [block_pieces]
  exact bigSep_congr fun g _ => piece_congr d w g (h g)

/-! ## Intervals of naturals -/

theorem bigSep_range_eq_Ico {Φ : ℕ → sProp 𝕄} (n : ℕ) : bigSep (Finset.range n) Φ = bigSep (Finset.Ico 0 n) Φ := by rw [Finset.range_eq_Ico]

/-- An interval cut at an inner point. -/
theorem bigSep_Ico_split {Φ : ℕ → sProp 𝕄} (a b c : ℕ) (hab : a ≤ b) (hbc : b ≤ c) :
    bigSep (Finset.Ico a c) Φ = iprop(bigSep (Finset.Ico a b) Φ ∗ bigSep (Finset.Ico b c) Φ) := by
  rw [← Finset.Ico_union_Ico_eq_Ico hab hbc, BI.bigSep_union (Finset.Ico_disjoint_Ico_consecutive a b c)]; rfl

/-- The first member of a nonempty interval. -/
theorem bigSep_Ico_succ {Φ : ℕ → sProp 𝕄} {a b : ℕ} (h : a < b) : bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, BI.bigSep_insert (by simp only [Finset.mem_Ico]; omega)]; rfl

theorem bigSep_Ico_one {Φ : ℕ → sProp 𝕄} (a : ℕ) : bigSep (Finset.Ico a (a + 1)) Φ = Φ a := by
  rw [Nat.Ico_succ_singleton, bigSep_singleton]

/-- Ten consecutive members written out. -/
theorem bigSep_Ico10 {Φ : ℕ → sProp 𝕄} (n : ℕ) :
    bigSep (Finset.Ico n (n + 10)) Φ
      = iprop(Φ n ∗ Φ (n + 1) ∗ Φ (n + 2) ∗ Φ (n + 3) ∗ Φ (n + 4) ∗ Φ (n + 5) ∗ Φ (n + 6) ∗ Φ (n + 7) ∗ Φ (n + 8) ∗ Φ (n + 9)) := by
  rw [bigSep_Ico_succ (show n < n + 10 by omega), bigSep_Ico_succ (show n + 1 < n + 10 by omega),
    bigSep_Ico_succ (show n + 1 + 1 < n + 10 by omega), bigSep_Ico_succ (show n + 1 + 1 + 1 < n + 10 by omega),
    bigSep_Ico_succ (show n + 1 + 1 + 1 + 1 < n + 10 by omega), bigSep_Ico_succ (show n + 1 + 1 + 1 + 1 + 1 < n + 10 by omega),
    bigSep_Ico_succ (show n + 1 + 1 + 1 + 1 + 1 + 1 < n + 10 by omega),
    bigSep_Ico_succ (show n + 1 + 1 + 1 + 1 + 1 + 1 + 1 < n + 10 by omega),
    bigSep_Ico_succ (show n + 1 + 1 + 1 + 1 + 1 + 1 + 1 + 1 < n + 10 by omega),
    show n + 10 = n + 1 + 1 + 1 + 1 + 1 + 1 + 1 + 1 + 1 + 1 from rfl, bigSep_Ico_one]

/-- The naturals below `n + 10`: those below `n`, then ten written out. -/
theorem bigSep_range_succ10 {Φ : ℕ → sProp 𝕄} (n : ℕ) :
    bigSep (Finset.range (n + 10)) Φ
      = iprop(bigSep (Finset.range n) Φ ∗ Φ n ∗ Φ (n + 1) ∗ Φ (n + 2) ∗ Φ (n + 3) ∗ Φ (n + 4) ∗ Φ (n + 5) ∗ Φ (n + 6) ∗ Φ (n + 7) ∗ Φ (n + 8) ∗ Φ (n + 9)) := by
  rw [Finset.range_eq_Ico, bigSep_Ico_split 0 n (n + 10) (Nat.zero_le _) (Nat.le_add_right _ _), bigSep_Ico10, ← Finset.range_eq_Ico]

end Cert.KernelRun

end
-- ==== Proof.KernelRun.Inv.lean ====
/-
  The state of one worker between trips of the main loop of the lookup kernel, in flat chunk numbers.

  The worker's 160 chunks of 64 rows go through ten slots. Slot `b` has a scratch buffer, a gather semaphore (cell `b`) and a
  copy-out semaphore (cell `10 + b`), and cycles: gather chunk `g` into the buffer — wait — copy the buffer out to chunk `g` of the
  flat output — wait — gather chunk `g + 10`. Before trip `k` (the trip that serves chunks `10 (k+1) … 10 (k+1) + 9`):
  slots 0–5 have the gathers of chunks `10 (k+1) + b` in flight; slots 6–9 have the copy-outs of chunks `10 k + b` in flight;
  chunks below `10 k + 6` are done — they hold `Cert.Spec.gathered x3 W` —; chunks from `10 (k+1)` on still hold the launch
  contents. A buffer whose gather is in flight will hold the rows of `W` its chunk names (`ChunkIs`), a copy-out in flight
  will leave its chunk at the target (`OutIs`). The table `W` is held as one read share per gather cell, the row-number
  scratch as eleven read shares that the gathers take in turn; they rejoin to the whole (`IdxJoin`).
-/
import proofs.«207499_g15272903704957_cont_week2b_486_20_alg».proof.Proof.KernelRun.Pay
import proofs.«207499_g15272903704957_cont_week2b_486_20_alg».proof.Proof.KernelRun.Slices.Idx
import proofs.«207499_g15272903704957_cont_week2b_486_20_alg».proof.Proof.KernelRun.Slices.Out
import proofs.«207499_g15272903704957_cont_week2b_486_20_alg».proof.Proof.KernelRun.Pieces

noncomputable section

namespace Cert.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "wM" => (Memref.whole Cert.Kernel.main_arg1_scv : Memref Cert.Kernel.sig Kind.scVector Space.hbm Cert.Kernel.S100000x128 EltTy.f32)
local notation "oM" => (Memref.whole Cert.Kernel.main_v1_scv : Memref Cert.Kernel.sig Kind.scVector Space.hbm Cert.Kernel.S327680x128 EltTy.f32)
local notation "ixM" => (Memref.whole Cert.Kernel.cc0_scratch0 : Memref Cert.Kernel.sig Kind.scVector Space.vmem Cert.Kernel.S160x64 EltTy.i32)
local notation "bM0" => (Memref.whole Cert.Kernel.cc0_scratch1 : Memref Cert.Kernel.sig Kind.scVector Space.vmem Cert.Kernel.S64x128 EltTy.f32)
local notation "bM1" => (Memref.whole Cert.Kernel.cc0_scratch2 : Memref Cert.Kernel.sig Kind.scVector Space.vmem Cert.Kernel.S64x128 EltTy.f32)
local notation "bM2" => (Memref.whole Cert.Kernel.cc0_scratch3 : Memref Cert.Kernel.sig Kind.scVector Space.vmem Cert.Kernel.S64x128 EltTy.f32)
local notation "bM3" => (Memref.whole Cert.Kernel.cc0_scratch4 : Memref Cert.Kernel.sig Kind.scVector Space.vmem Cert.Kernel.S64x128 EltTy.f32)
local notation "bM4" => (Memref.whole Cert.Kernel.cc0_scratch5 : Memref Cert.Kernel.sig Kind.scVector Space.vmem Cert.Kernel.S64x128 EltTy.f32)
local notation "bM5" => (Memref.whole Cert.Kernel.cc0_scratch6 : Memref Cert.Kernel.sig Kind.scVector Space.vmem Cert.Kernel.S64x128 EltTy.f32)
local notation "bM6" => (Memref.whole Cert.Kernel.cc0_scratch7 : Memref Cert.Kernel.sig Kind.scVector Space.vmem Cert.Kernel.S64x128 EltTy.f32)
local notation "bM7" => (Memref.whole Cert.Kernel.cc0_scratch8 : Memref Cert.Kernel.sig Kind.scVector Space.vmem Cert.Kernel.S64x128 EltTy.f32)
local notation "bM8" => (Memref.whole Cert.Kernel.cc0_scratch9 : Memref Cert.Kernel.sig Kind.scVector Space.vmem Cert.Kernel.S64x128 EltTy.f32)
local notation "bM9" => (Memref.whole Cert.Kernel.cc0_scratch10 : Memref Cert.Kernel.sig Kind.scVector Space.vmem Cert.Kernel.S64x128 EltTy.f32)

/-- The table, sliced whole, as every gather names its source. -/
abbrev wSlM : Memref sig .scVector .hbm S100000x128 .f32 :=
  (wM).slice (Rect.unit (s := S100000x128) ![0, 0] S100000x128.size inb_S100000x128_S100000x128_0_0) (fun _ => rfl)

theorem ltg0 {k : ℕ} (hk : k ≤ 14) : 10 * (k + 1) + 0 < 160 := by omega
theorem ltg1 {k : ℕ} (hk : k ≤ 14) : 10 * (k + 1) + 1 < 160 := by omega
theorem ltg2 {k : ℕ} (hk : k ≤ 14) : 10 * (k + 1) + 2 < 160 := by omega
theorem ltg3 {k : ℕ} (hk : k ≤ 14) : 10 * (k + 1) + 3 < 160 := by omega
theorem ltg4 {k : ℕ} (hk : k ≤ 14) : 10 * (k + 1) + 4 < 160 := by omega
theorem ltg5 {k : ℕ} (hk : k ≤ 14) : 10 * (k + 1) + 5 < 160 := by omega
theorem ltw6 {k : ℕ} (hk : k ≤ 14) : 10 * k + 6 < 160 := by omega
theorem ltw7 {k : ℕ} (hk : k ≤ 14) : 10 * k + 7 < 160 := by omega
theorem ltw8 {k : ℕ} (hk : k ≤ 14) : 10 * k + 8 < 160 := by omega
theorem ltw9 {k : ℕ} (hk : k ≤ 14) : 10 * k + 9 < 160 := by omega

theorem flat_lt (w : Fin 32) {g : ℕ} (hg : g < 160) (r : Fin 64) : 10240 * w.val + 64 * g + r.val < 327680 := by
  have := w.isLt; have := r.isLt; omega

/-- A buffer of 64 rows holds the rows of `W` that chunk `g` of worker `w` names. -/
def ChunkIs (w : Fin 32) (x3 : (⟨3, ![32, 160, 64]⟩ : Shape).Idx → BitVec 32) (Wc : (⟨2, ![100000, 128]⟩ : Shape).Idx → Elt F .f32)
    (g : ℕ) (p : (⟨2, ![64, 128]⟩ : Shape).Idx → Elt F .f32) : Prop :=
  ∀ (hg : g < 160) (r : Fin 64) (dd : Fin 128), p (ix2 r dd) = Cert.Spec.gathered x3 Wc (ix2 ⟨10240 * w.val + 64 * g + r.val, flat_lt w hg r⟩ dd)

/-- The flat output agrees with the target on chunk `g` of worker `w`. -/
def OutIs (w : Fin 32) (x3 : (⟨3, ![32, 160, 64]⟩ : Shape).Idx → BitVec 32) (Wc : (⟨2, ![100000, 128]⟩ : Shape).Idx → Elt F .f32)
    (g : ℕ) (o : (⟨2, ![327680, 128]⟩ : Shape).Idx → Elt F .f32) : Prop :=
  ∀ (hg : g < 160), ∀ j ∈ (Cert.Cover.chunkRect w ⟨g, hg⟩).set, o j = Cert.Spec.gathered x3 Wc j

/-- Eleven read shares of the row-number scratch that together are the whole. -/
def IdxJoin (d : Dev nD) (L : grid0.Coords) (X3d : Buf (Elt F) (x3Loc d))
    (t0 t1 t2 t3 t4 t5 t6 t7 t8 t9 t10 : PosShare TreeShare) : sProp 𝕄 :=
  iprop((((ixM).view.loc (V d (cV L) (jV L)) ↦{t0} ((x3RowM L).view.read (Elt F) X3d)) ∗
      ((ixM).view.loc (V d (cV L) (jV L)) ↦{t1} ((x3RowM L).view.read (Elt F) X3d)) ∗
      ((ixM).view.loc (V d (cV L) (jV L)) ↦{t2} ((x3RowM L).view.read (Elt F) X3d)) ∗
      ((ixM).view.loc (V d (cV L) (jV L)) ↦{t3} ((x3RowM L).view.read (Elt F) X3d)) ∗
      ((ixM).view.loc (V d (cV L) (jV L)) ↦{t4} ((x3RowM L).view.read (Elt F) X3d)) ∗
      ((ixM).view.loc (V d (cV L) (jV L)) ↦{t5} ((x3RowM L).view.read (Elt F) X3d)) ∗
      ((ixM).view.loc (V d (cV L) (jV L)) ↦{t6} ((x3RowM L).view.read (Elt F) X3d)) ∗
      ((ixM).view.loc (V d (cV L) (jV L)) ↦{t7} ((x3RowM L).view.read (Elt F) X3d)) ∗
      ((ixM).view.loc (V d (cV L) (jV L)) ↦{t8} ((x3RowM L).view.read (Elt F) X3d)) ∗
      ((ixM).view.loc (V d (cV L) (jV L)) ↦{t9} ((x3RowM L).view.read (Elt F) X3d)) ∗
      ((ixM).view.loc (V d (cV L) (jV L)) ↦{t10} ((x3RowM L).view.read (Elt F) X3d)))
    -∗ ((ixM).view.loc (V d (cV L) (jV L)) ↦{fullShare} ((x3RowM L).view.read (Elt F) X3d)))

/-- The state before trip `k` (see the header). -/
def Inv (d : Dev nD) (L : grid0.Coords) (O : CellTallies nD τ sig (HIx 1)) (W : Waits sig (HIx 1)) (q : PosShare TreeShare)
    (X3d : Buf (Elt F) (x3Loc d)) (Wc : Buf (Elt F) (wLoc d))
    (fo : Buf (Elt F) (oLoc d)) (k : ℕ) (_acc : BitVec 32) : sProp 𝕄 :=
  iprop(∃ (hk : k ≤ 14) (t0 : PosShare TreeShare) (t1 : PosShare TreeShare) (t2 : PosShare TreeShare) (t3 : PosShare TreeShare) (t4 : PosShare TreeShare) (t5 : PosShare TreeShare) (t6 : PosShare TreeShare) (t7 : PosShare TreeShare) (t8 : PosShare TreeShare) (t9 : PosShare TreeShare) (t10 : PosShare TreeShare) (p0 : Buf (Elt F) ((bM0).view.loc (V d (cV L) (jV L)))) (p1 : Buf (Elt F) ((bM1).view.loc (V d (cV L) (jV L)))) (p2 : Buf (Elt F) ((bM2).view.loc (V d (cV L) (jV L)))) (p3 : Buf (Elt F) ((bM3).view.loc (V d (cV L) (jV L)))) (p4 : Buf (Elt F) ((bM4).view.loc (V d (cV L) (jV L)))) (p5 : Buf (Elt F) ((bM5).view.loc (V d (cV L) (jV L)))) (o6 : Buf (Elt F) ((oM).view.loc (V d (cV L) (jV L)))) (o7 : Buf (Elt F) ((oM).view.loc (V d (cV L) (jV L)))) (o8 : Buf (Elt F) ((oM).view.loc (V d (cV L) (jV L)))) (o9 : Buf (Elt F) ((oM).view.loc (V d (cV L) (jV L)))) (j6 : Buf (Elt F) ((bM6).view.loc (V d (cV L) (jV L)))) (j7 : Buf (Elt F) ((bM7).view.loc (V d (cV L) (jV L)))) (j8 : Buf (Elt F) ((bM8).view.loc (V d (cV L) (jV L)))) (j9 : Buf (Elt F) ((bM9).view.loc (V d (cV L) (jV L)))) (W' : Waits sig (HIx 1)),
    owes (V d (cV L) (jV L)) O W' ∗
    Transfers.MayWaits (V d (cV L) (jV L)) (none : HIx 1) O ∗
    ((x3RowM L).view.loc (V d (cV L) (jV L)) ↦[(x3RowM L).view.set]{fullShare} X3d) ∗
    semVal ((V d (cV L) (jV L)), SemLoc.dma cc0_scoped0.sem) 0 ∗
    ((wM).view.loc (V d (cV L) (jV L)) ↦{Transfers.shareDrop q 10} Wc) ∗
    Transfers.Flight countersEmb (V d (cV L) (jV L)) (SemLoc.dma cc0_scratch11.sem) default 262144
      iprop((((bM0).view.loc (V d (cV L) (jV L)) ↦[(bM0).view.set]{fullShare} p0) ∗
            ((ixM).view.loc (V d (cV L) (jV L)) ↦[(idxRowC (10 * (k + 1) + 0) (ltg0 hk)).view.set]{t0} ((x3RowM L).view.read (Elt F) X3d))) ∗
          ((wM).view.loc (V d (cV L) (jV L)) ↦[(wSlM).view.set]{Transfers.shareTokN q 0} Wc)) ∗
    ((wM).view.loc (V d (cV L) (jV L)) ↦[Finset.univ \ (wSlM).view.set]{Transfers.shareTokN q 0} Wc) ∗
    ((ixM).view.loc (V d (cV L) (jV L)) ↦[Finset.univ \ (idxRowC (10 * (k + 1) + 0) (ltg0 hk)).view.set]{t0} ((x3RowM L).view.read (Elt F) X3d)) ∗
    ((bM0).view.loc (V d (cV L) (jV L)) ↦[Finset.univ \ (bM0).view.set]{fullShare} p0) ∗
    semVal ((V d (cV L) (jV L)), SemLoc.dma cc0_scratch21.sem) 0 ∗
    Transfers.Flight countersEmb (V d (cV L) (jV L)) (SemLoc.dma cc0_scratch12.sem) default 262144
      iprop((((bM1).view.loc (V d (cV L) (jV L)) ↦[(bM1).view.set]{fullShare} p1) ∗
            ((ixM).view.loc (V d (cV L) (jV L)) ↦[(idxRowC (10 * (k + 1) + 1) (ltg1 hk)).view.set]{t1} ((x3RowM L).view.read (Elt F) X3d))) ∗
          ((wM).view.loc (V d (cV L) (jV L)) ↦[(wSlM).view.set]{Transfers.shareTokN q 1} Wc)) ∗
    ((wM).view.loc (V d (cV L) (jV L)) ↦[Finset.univ \ (wSlM).view.set]{Transfers.shareTokN q 1} Wc) ∗
    ((ixM).view.loc (V d (cV L) (jV L)) ↦[Finset.univ \ (idxRowC (10 * (k + 1) + 1) (ltg1 hk)).view.set]{t1} ((x3RowM L).view.read (Elt F) X3d)) ∗
    ((bM1).view.loc (V d (cV L) (jV L)) ↦[Finset.univ \ (bM1).view.set]{fullShare} p1) ∗
    semVal ((V d (cV L) (jV L)), SemLoc.dma cc0_scratch22.sem) 0 ∗
    Transfers.Flight countersEmb (V d (cV L) (jV L)) (SemLoc.dma cc0_scratch13.sem) default 262144
      iprop((((bM2).view.loc (V d (cV L) (jV L)) ↦[(bM2).view.set]{fullShare} p2) ∗
            ((ixM).view.loc (V d (cV L) (jV L)) ↦[(idxRowC (10 * (k + 1) + 2) (ltg2 hk)).view.set]{t2} ((x3RowM L).view.read (Elt F) X3d))) ∗
          ((wM).view.loc (V d (cV L) (jV L)) ↦[(wSlM).view.set]{Transfers.shareTokN q 2} Wc)) ∗
    ((wM).view.loc (V d (cV L) (jV L)) ↦[Finset.univ \ (wSlM).view.set]{Transfers.shareTokN q 2} Wc) ∗
    ((ixM).view.loc (V d (cV L) (jV L)) ↦[Finset.univ \ (idxRowC (10 * (k + 1) + 2) (ltg2 hk)).view.set]{t2} ((x3RowM L).view.read (Elt F) X3d)) ∗
    ((bM2).view.loc (V d (cV L) (jV L)) ↦[Finset.univ \ (bM2).view.set]{fullShare} p2) ∗
    semVal ((V d (cV L) (jV L)), SemLoc.dma cc0_scratch23.sem) 0 ∗
    Transfers.Flight countersEmb (V d (cV L) (jV L)) (SemLoc.dma cc0_scratch14.sem) default 262144
      iprop((((bM3).view.loc (V d (cV L) (jV L)) ↦[(bM3).view.set]{fullShare} p3) ∗
            ((ixM).view.loc (V d (cV L) (jV L)) ↦[(idxRowC (10 * (k + 1) + 3) (ltg3 hk)).view.set]{t3} ((x3RowM L).view.read (Elt F) X3d))) ∗
          ((wM).view.loc (V d (cV L) (jV L)) ↦[(wSlM).view.set]{Transfers.shareTokN q 3} Wc)) ∗
    ((wM).view.loc (V d (cV L) (jV L)) ↦[Finset.univ \ (wSlM).view.set]{Transfers.shareTokN q 3} Wc) ∗
    ((ixM).view.loc (V d (cV L) (jV L)) ↦[Finset.univ \ (idxRowC (10 * (k + 1) + 3) (ltg3 hk)).view.set]{t3} ((x3RowM L).view.read (Elt F) X3d)) ∗
    ((bM3).view.loc (V d (cV L) (jV L)) ↦[Finset.univ \ (bM3).view.set]{fullShare} p3) ∗
    semVal ((V d (cV L) (jV L)), SemLoc.dma cc0_scratch24.sem) 0 ∗
    Transfers.Flight countersEmb (V d (cV L) (jV L)) (SemLoc.dma cc0_scratch15.sem) default 262144
      iprop((((bM4).view.loc (V d (cV L) (jV L)) ↦[(bM4).view.set]{fullShare} p4) ∗
            ((ixM).view.loc (V d (cV L) (jV L)) ↦[(idxRowC (10 * (k + 1) + 4) (ltg4 hk)).view.set]{t4} ((x3RowM L).view.read (Elt F) X3d))) ∗
          ((wM).view.loc (V d (cV L) (jV L)) ↦[(wSlM).view.set]{Transfers.shareTokN q 4} Wc)) ∗
    ((wM).view.loc (V d (cV L) (jV L)) ↦[Finset.univ \ (wSlM).view.set]{Transfers.shareTokN q 4} Wc) ∗
    ((ixM).view.loc (V d (cV L) (jV L)) ↦[Finset.univ \ (idxRowC (10 * (k + 1) + 4) (ltg4 hk)).view.set]{t4} ((x3RowM L).view.read (Elt F) X3d)) ∗
    ((bM4).view.loc (V d (cV L) (jV L)) ↦[Finset.univ \ (bM4).view.set]{fullShare} p4) ∗
    semVal ((V d (cV L) (jV L)), SemLoc.dma cc0_scratch25.sem) 0 ∗
    Transfers.Flight countersEmb (V d (cV L) (jV L)) (SemLoc.dma cc0_scratch16.sem) default 262144
      iprop((((bM5).view.loc (V d (cV L) (jV L)) ↦[(bM5).view.set]{fullShare} p5) ∗
            ((ixM).view.loc (V d (cV L) (jV L)) ↦[(idxRowC (10 * (k + 1) + 5) (ltg5 hk)).view.set]{t5} ((x3RowM L).view.read (Elt F) X3d))) ∗
          ((wM).view.loc (V d (cV L) (jV L)) ↦[(wSlM).view.set]{Transfers.shareTokN q 5} Wc)) ∗
    ((wM).view.loc (V d (cV L) (jV L)) ↦[Finset.univ \ (wSlM).view.set]{Transfers.shareTokN q 5} Wc) ∗
    ((ixM).view.loc (V d (cV L) (jV L)) ↦[Finset.univ \ (idxRowC (10 * (k + 1) + 5) (ltg5 hk)).view.set]{t5} ((x3RowM L).view.read (Elt F) X3d)) ∗
    ((bM5).view.loc (V d (cV L) (jV L)) ↦[Finset.univ \ (bM5).view.set]{fullShare} p5) ∗
    semVal ((V d (cV L) (jV L)), SemLoc.dma cc0_scratch26.sem) 0 ∗
    Transfers.Flight countersEmb (V d (cV L) (jV L)) (SemLoc.dma cc0_scratch27.sem) default 262144
      iprop(((oM).view.loc (V d (cV L) (jV L)) ↦[(oChunkC L (10 * k + 6) (ltw6 hk)).view.set]{fullShare} o6) ∗
          ((bM6).view.loc (V d (cV L) (jV L)) ↦[(bM6).view.set]{fullShare} j6)) ∗
    ((bM6).view.loc (V d (cV L) (jV L)) ↦[Finset.univ \ (bM6).view.set]{fullShare} j6) ∗
    ((wM).view.loc (V d (cV L) (jV L)) ↦{Transfers.shareTokN q 6} Wc) ∗
    semVal ((V d (cV L) (jV L)), SemLoc.dma cc0_scratch17.sem) 0 ∗
    Transfers.Flight countersEmb (V d (cV L) (jV L)) (SemLoc.dma cc0_scratch28.sem) default 262144
      iprop(((oM).view.loc (V d (cV L) (jV L)) ↦[(oChunkC L (10 * k + 7) (ltw7 hk)).view.set]{fullShare} o7) ∗
          ((bM7).view.loc (V d (cV L) (jV L)) ↦[(bM7).view.set]{fullShare} j7)) ∗
    ((bM7).view.loc (V d (cV L) (jV L)) ↦[Finset.univ \ (bM7).view.set]{fullShare} j7) ∗
    ((wM).view.loc (V d (cV L) (jV L)) ↦{Transfers.shareTokN q 7} Wc) ∗
    semVal ((V d (cV L) (jV L)), SemLoc.dma cc0_scratch18.sem) 0 ∗
    Transfers.Flight countersEmb (V d (cV L) (jV L)) (SemLoc.dma cc0_scratch29.sem) default 262144
      iprop(((oM).view.loc (V d (cV L) (jV L)) ↦[(oChunkC L (10 * k + 8) (ltw8 hk)).view.set]{fullShare} o8) ∗
          ((bM8).view.loc (V d (cV L) (jV L)) ↦[(bM8).view.set]{fullShare} j8)) ∗
    ((bM8).view.loc (V d (cV L) (jV L)) ↦[Finset.univ \ (bM8).view.set]{fullShare} j8) ∗
    ((wM).view.loc (V d (cV L) (jV L)) ↦{Transfers.shareTokN q 8} Wc) ∗
    semVal ((V d (cV L) (jV L)), SemLoc.dma cc0_scratch19.sem) 0 ∗
    Transfers.Flight countersEmb (V d (cV L) (jV L)) (SemLoc.dma cc0_scratch30.sem) default 262144
      iprop(((oM).view.loc (V d (cV L) (jV L)) ↦[(oChunkC L (10 * k + 9) (ltw9 hk)).view.set]{fullShare} o9) ∗
          ((bM9).view.loc (V d (cV L) (jV L)) ↦[(bM9).view.set]{fullShare} j9)) ∗
    ((bM9).view.loc (V d (cV L) (jV L)) ↦[Finset.univ \ (bM9).view.set]{fullShare} j9) ∗
    ((wM).view.loc (V d (cV L) (jV L)) ↦{Transfers.shareTokN q 9} Wc) ∗
    semVal ((V d (cV L) (jV L)), SemLoc.dma cc0_scratch20.sem) 0 ∗
    ((ixM).view.loc (V d (cV L) (jV L)) ↦{t6} ((x3RowM L).view.read (Elt F) X3d)) ∗
    ((ixM).view.loc (V d (cV L) (jV L)) ↦{t7} ((x3RowM L).view.read (Elt F) X3d)) ∗
    ((ixM).view.loc (V d (cV L) (jV L)) ↦{t8} ((x3RowM L).view.read (Elt F) X3d)) ∗
    ((ixM).view.loc (V d (cV L) (jV L)) ↦{t9} ((x3RowM L).view.read (Elt F) X3d)) ∗
    ((ixM).view.loc (V d (cV L) (jV L)) ↦{t10} ((x3RowM L).view.read (Elt F) X3d)) ∗
    IdxJoin d L X3d t0 t1 t2 t3 t4 t5 t6 t7 t8 t9 t10 ∗
    bigSep (Finset.Ico (10 * (k + 1)) 160) (piece d (widL L) fo) ∗
    bigSep (Finset.range (10 * k + 6)) (piece d (widL L) (Cert.Spec.gathered X3d Wc)) ∗
    ⌜∀ p ∈ W', p ∈ W ∨ p.2 = none⌝ ∗
    ⌜ChunkIs (widL L) X3d Wc (10 * (k + 1) + 0) p0⌝ ∗
    ⌜ChunkIs (widL L) X3d Wc (10 * (k + 1) + 1) p1⌝ ∗
    ⌜ChunkIs (widL L) X3d Wc (10 * (k + 1) + 2) p2⌝ ∗
    ⌜ChunkIs (widL L) X3d Wc (10 * (k + 1) + 3) p3⌝ ∗
    ⌜ChunkIs (widL L) X3d Wc (10 * (k + 1) + 4) p4⌝ ∗
    ⌜ChunkIs (widL L) X3d Wc (10 * (k + 1) + 5) p5⌝ ∗
    ⌜OutIs (widL L) X3d Wc (10 * k + 6) o6⌝ ∗
    ⌜OutIs (widL L) X3d Wc (10 * k + 7) o7⌝ ∗
    ⌜OutIs (widL L) X3d Wc (10 * k + 8) o8⌝ ∗
    ⌜OutIs (widL L) X3d Wc (10 * k + 9) o9⌝)

end Cert.KernelRun

end
-- ==== Proof.KernelRun.Scoped.lean ====
/-
  A vector subcore's scoped storage, opened.

  The launch hands vector subcore `i` of SparseCore `c` its own scoped semaphore cells, each at zero, and its own
  buffers, each whole at some contents, as two iterated separating conjunctions over finite sets. In this signature
  those sets are small and explicit: on a vector subcore the scoped cells are its twenty-one DMA semaphores and no
  regular semaphore (the four regular ones are the launch handshakes', which are not scoped), and the buffers it owns
  are its eleven vector-memory scratch buffers (it has no scalar-memory buffer, and HBM, host and shared buffers are
  the device's or the SparseCore's). So each bundle is the plain separating conjunction of its members, with nothing
  left over.
-/
import proofs.«207499_g15272903704957_cont_week2b_486_20_alg».proof.Proof.KernelRun.Setup

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The semaphore cells -/

/-- On a vector subcore the scoped cells are exactly the twenty-one DMA semaphores: a finite check over the
    signature's twenty-five cells. -/
theorem scopedCells_scVector :
    (Finset.univ.filter fun sm : SemLoc sig => sm.isScoped Kind.scVector)
      = {.dma cc0_scratch11.sem, .dma cc0_scratch12.sem, .dma cc0_scratch13.sem, .dma cc0_scratch14.sem, .dma cc0_scratch15.sem,
     .dma cc0_scratch16.sem, .dma cc0_scratch17.sem, .dma cc0_scratch18.sem, .dma cc0_scratch19.sem, .dma cc0_scratch20.sem,
     .dma cc0_scratch21.sem, .dma cc0_scratch22.sem, .dma cc0_scratch23.sem, .dma cc0_scratch24.sem, .dma cc0_scratch25.sem,
     .dma cc0_scratch26.sem, .dma cc0_scratch27.sem, .dma cc0_scratch28.sem, .dma cc0_scratch29.sem, .dma cc0_scratch30.sem,
     .dma cc0_scoped0.sem} := by
  decide

/-- A vector subcore's own scoped cells at zero are its twenty-one DMA semaphores at zero. -/
theorem ownSems0_V (d : Dev nD) (c : Fin τ.nSC) (i : Fin τ.nSub) :
    (ownSems0 (V d c i) : sProp 𝕄)
      = iprop(semVal (V d c i, .dma cc0_scratch11.sem) 0 ∗ semVal (V d c i, .dma cc0_scratch12.sem) 0 ∗ semVal (V d c i, .dma cc0_scratch13.sem) 0
          ∗ semVal (V d c i, .dma cc0_scratch14.sem) 0 ∗ semVal (V d c i, .dma cc0_scratch15.sem) 0 ∗ semVal (V d c i, .dma cc0_scratch16.sem) 0
          ∗ semVal (V d c i, .dma cc0_scratch17.sem) 0 ∗ semVal (V d c i, .dma cc0_scratch18.sem) 0 ∗ semVal (V d c i, .dma cc0_scratch19.sem) 0
          ∗ semVal (V d c i, .dma cc0_scratch20.sem) 0 ∗ semVal (V d c i, .dma cc0_scratch21.sem) 0 ∗ semVal (V d c i, .dma cc0_scratch22.sem) 0
          ∗ semVal (V d c i, .dma cc0_scratch23.sem) 0 ∗ semVal (V d c i, .dma cc0_scratch24.sem) 0 ∗ semVal (V d c i, .dma cc0_scratch25.sem) 0
          ∗ semVal (V d c i, .dma cc0_scratch26.sem) 0 ∗ semVal (V d c i, .dma cc0_scratch27.sem) 0 ∗ semVal (V d c i, .dma cc0_scratch28.sem) 0
          ∗ semVal (V d c i, .dma cc0_scratch29.sem) 0 ∗ semVal (V d c i, .dma cc0_scratch30.sem) 0 ∗ semVal (V d c i, .dma cc0_scoped0.sem) 0) := by
  rw [SparseCore.Cfg.ownSems0_eq, show (V d c i : Thread nD τ).2.kind = Kind.scVector from rfl, scopedCells_scVector]
  simp (disch := decide) only [SparseCore.bigSep_insert', bigSep_singleton]

/-! ## The buffers -/

/-- Every entry of a vector subcore's vector-memory table is one of the eleven scratch references: a finite check. -/
theorem vmemRef_mem : ∀ idx : Fin (sig.nBuf (Table.local Kind.scVector CoreSpace.vmem)),
    (⟨Space.core CoreSpace.vmem, idx, rfl⟩ : Ref sig .scVector)
      ∈ ({cc0_scratch0, cc0_scratch1, cc0_scratch2, cc0_scratch3, cc0_scratch4, cc0_scratch5,
     cc0_scratch6, cc0_scratch7, cc0_scratch8, cc0_scratch9, cc0_scratch10} : Finset (Ref sig .scVector)) := by
  decide

/-- The buffers vector subcore `i` of SparseCore `c` owns are what it denotes by its eleven scratch references:
    a buffer of the device is a processor's own only if it lies in one of that processor's local tables, held at its
    coordinates; a vector subcore's scalar-memory table is empty and its vector-memory table has eleven entries. -/
theorem ownRefs_scVector (c : Fin τ.nSC) (i : Fin τ.nSub) :
    ownRefs (sig := sig) (Proc.scVector c i)
      = ({cc0_scratch0, cc0_scratch1, cc0_scratch2, cc0_scratch3, cc0_scratch4, cc0_scratch5,
     cc0_scratch6, cc0_scratch7, cc0_scratch8, cc0_scratch9, cc0_scratch10} : Finset (Ref sig .scVector)).map
          (⟨(Proc.scVector c i).devRef, Proc.devRef_injective _⟩ : Ref sig .scVector ↪ DevRef τ sig) := by
  ext b
  rw [mem_ownRefs, SparseCore.Cfg.home_eq_scVector, Finset.mem_map]
  constructor
  · intro h
    rcases b with ⟨tb, idx, u⟩
    rcases tb with _ | _ | _ | ⟨κ, cs⟩
    · exact absurd h (SparseCore.Cfg.HbmHolder_owner_ne_proc (τ := τ) (bb := sig.hbmOfSc idx) u _)
    · cases h
    · cases h
    · have h' : κ.proc u = Proc.scVector c i := Owner.proc.inj h
      cases κ with
      | tc => cases h'
      | scScalar => cases h'
      | scVector =>
        obtain ⟨c', i'⟩ := u
        obtain ⟨rfl, rfl⟩ : c' = c ∧ i' = i := by
          have := h'; simp only [Kind.proc, Proc.scVector.injEq] at this; exact this
        cases cs with
        | smem => exact idx.elim0
        | vmem =>
          exact ⟨⟨.core .vmem, idx, rfl⟩, vmemRef_mem idx, rfl⟩
  · rintro ⟨r, hr, rfl⟩
    simp only [Finset.mem_insert, Finset.mem_singleton] at hr
    rcases hr with rfl | rfl | rfl | rfl | rfl | rfl | rfl | rfl | rfl | rfl | rfl <;> rfl

/-- A vector subcore's own buffers, each whole at some contents, are its eleven scratch buffers. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f)
          ∗ (∃ f, (V d c i).loc cc0_scratch6 ↦{fullShare} f) ∗ (∃ f, (V d c i).loc cc0_scratch7 ↦{fullShare} f)
          ∗ (∃ f, (V d c i).loc cc0_scratch8 ↦{fullShare} f) ∗ (∃ f, (V d c i).loc cc0_scratch9 ↦{fullShare} f)
          ∗ (∃ f, (V d c i).loc cc0_scratch10 ↦{fullShare} f)) := by
  unfold SparseCore.Cfg.ownBufs
  rw [show (V d c i : Thread nD τ).2 = Proc.scVector c i from rfl, ownRefs_scVector, bigSep_map]
  simp (disch := decide) only [SparseCore.bigSep_insert', bigSep_singleton, Function.Embedding.coeFn_mk]

end Cert.KernelRun

end
-- ==== Proof.GatherValue.lean ====
/-
  The row gather read at an index. The gather fills a `[64, 128]` block from the `[100000, 128]` table: row `r` of the block
  is the row of the table that entry `r` of a list of 64 words names. Every word of the list being below 100000, the named
  row is the word's value, which is also its value reduced below 100000. When the list is chunk `g` of worker `w` of the
  re-laid row numbers, the block is the 64 rows from flat row `10240 · w + 64 · g` of the flat gather.
-/
import Idealize.ShloMosaic.Lib.SparseCore.Stream
import Idealize.ShloMosaic.Lib.ValueIdx
import proofs.«207499_g15272903704957_cont_week2b_486_20_alg».proof.Proof.Spec

namespace Cert.GatherValue

open Idealize.ShloMosaic Idealize.ShloMosaic.ValueIdx

/-- A 32-bit integer element is a 32-bit word. -/
example {F : FTy → Type} : Elt F .i32 = BitVec 32 := rfl

/-- The index of a list of 64 with row-major position `r` is `r` itself. -/
theorem rowMajor_symm_ix1 (r : Fin 64) (h : 64 = (⟨1, ![64]⟩ : Shape).numel) :
    (⟨1, ![64]⟩ : Shape).rowMajor.symm (r.cast h) = ix1 r := by
  rw [Equiv.symm_apply_eq]
  apply Fin.ext
  rw [Shape.rowMajor_val_one]
  rfl

/-- The gather's payload at `(r, d)`: entry `d` of the row of the table that word `r` of the list names. -/
theorem payload_apply {F : FTy → Type} {e : EltTy} (hg : (⟨2, ![100000, 128]⟩ : Shape).Gathers 0 ⟨2, ![64, 128]⟩)
    (g : (⟨2, ![100000, 128]⟩ : Shape).Idx → Elt F e) (idx : (⟨1, ![64]⟩ : Shape).Idx → Elt F .i32)
    (hn : (⟨1, ![64]⟩ : Shape).numel = (⟨2, ![64, 128]⟩ : Shape).size hg.axis')
    (hin : ∀ x, (idx x).toNat < (⟨2, ![100000, 128]⟩ : Shape).size hg.axis) (r : Fin 64) (d : Fin 128) :
    SparseCore.gatherPayload hg g (SparseCore.rows idx hn hin) (ix2 r d) = g (ix2 (Cert.Spec.rowOf (idx (ix1 r))) d) := by
  show g (hg.idx (SparseCore.rows idx hn hin) (ix2 r d)) = _
  refine congrArg g ?_
  funext b
  match b with
  | ⟨0, _⟩ =>
    apply Fin.ext
    have h0 := congrArg Fin.val (hg.idx_axis (SparseCore.rows idx hn hin) (ix2 r d))
    have hlt : (idx (ix1 r)).toNat < 100000 := hin _
    show (hg.idx (SparseCore.rows idx hn hin) (ix2 r d) hg.axis).val = (idx (ix1 r)).toNat % 100000
    rw [h0, Nat.mod_eq_of_lt hlt]
    exact congrArg (fun i => BitVec.toNat (idx i)) (rowMajor_symm_ix1 r hn.symm)
  | ⟨1, _⟩ =>
    apply Fin.ext
    exact hg.idx_of_ne (SparseCore.rows idx hn hin) (ix2 r d) ⟨1, by decide⟩ (by decide)

/-- A list that is chunk `gk` of worker `w` of in-range row numbers has every word below 100000. -/
theorem hin_of_inRange (x3 : (⟨3, ![32, 160, 64]⟩ : Shape).Idx → BitVec 32) (hx : Cert.Spec.InRange x3) (w : Fin 32) (gk : Fin 160)
    (idx : (⟨1, ![64]⟩ : Shape).Idx → BitVec 32) (hidx : ∀ r : Fin 64, idx (ix1 r) = x3 (ix3 w gk r)) :
    ∀ x : (⟨1, ![64]⟩ : Shape).Idx, (idx x).toNat < 100000 := by
  intro x
  obtain ⟨r, rfl⟩ : ∃ r : Fin 64, x = ix1 r := ⟨x 0, eq_ix1 x⟩
  rw [hidx]
  exact hx _

/-- The gather's payload for chunk `gk` of worker `w`: row `r` of it is flat row `10240 · w + 64 · gk + r` of the flat gather. -/
theorem chunk_value {F : FTy → Type} {e : EltTy} (hg : (⟨2, ![100000, 128]⟩ : Shape).Gathers 0 ⟨2, ![64, 128]⟩)
    (Wc : (⟨2, ![100000, 128]⟩ : Shape).Idx → Elt F e) (x3 : (⟨3, ![32, 160, 64]⟩ : Shape).Idx → BitVec 32) (w : Fin 32) (gk : Fin 160)
    (idx : (⟨1, ![64]⟩ : Shape).Idx → Elt F .i32) (hidx : ∀ r : Fin 64, idx (ix1 r) = x3 (ix3 w gk r))
    (hn : (⟨1, ![64]⟩ : Shape).numel = (⟨2, ![64, 128]⟩ : Shape).size hg.axis')
    (hin : ∀ x, (idx x).toNat < (⟨2, ![100000, 128]⟩ : Shape).size hg.axis) (r : Fin 64) (d : Fin 128) :
    SparseCore.gatherPayload hg Wc (SparseCore.rows idx hn hin) (ix2 r d) =
      Cert.Spec.gathered x3 Wc (ix2 (⟨10240 * w.val + 64 * gk.val + r.val, by omega⟩ : Fin 327680) d) := by
  rw [payload_apply, hidx]
  have hw : Cert.Spec.worker (⟨10240 * w.val + 64 * gk.val + r.val, by omega⟩ : Fin 327680) = w :=
    Fin.ext (by show (10240 * w.val + 64 * gk.val + r.val) / 10240 = w.val; omega)
  have hc : Cert.Spec.chunk (⟨10240 * w.val + 64 * gk.val + r.val, by omega⟩ : Fin 327680) = gk :=
    Fin.ext (by show (10240 * w.val + 64 * gk.val + r.val) % 10240 / 64 = gk.val; omega)
  have he : Cert.Spec.entry (⟨10240 * w.val + 64 * gk.val + r.val, by omega⟩ : Fin 327680) = r :=
    Fin.ext (by show (10240 * w.val + 64 * gk.val + r.val) % 64 = r.val; omega)
  show _ = Wc (ix2 (Cert.Spec.rowOf (x3 (ix3 (Cert.Spec.worker (⟨10240 * w.val + 64 * gk.val + r.val, by omega⟩ : Fin 327680))
    (Cert.Spec.chunk (⟨10240 * w.val + 64 * gk.val + r.val, by omega⟩ : Fin 327680))
    (Cert.Spec.entry (⟨10240 * w.val + 64 * gk.val + r.val, by omega⟩ : Fin 327680))))) d)
  rw [hw, hc, he]

end Cert.GatherValue
-- ==== Proof.KernelRun.Values.lean ====
/-
  What the worker's buffers hold, read at an index. The table sliced whole reads as the table; row `g` of the 160 × 64 block
  of row numbers, taken as a list of 64, reads entry `r` as entry `(g, r)` of the block; a buffer last written whole holds
  what was written; a 64-row chunk of the flat output written whole holds, at row `off + r`, row `r` of what was written.
  Together: the chunk a worker copies out after gathering by row `g` of its row numbers holds, at every index of the chunk,
  the flat gather of the re-laid row numbers.
-/
import proofs.«207499_g15272903704957_cont_week2b_486_20_alg».proof.Proof.KernelRun.Pay
import proofs.«207499_g15272903704957_cont_week2b_486_20_alg».proof.Proof.GatherValue
import Idealize.ShloMosaic.Lib.Writes

noncomputable section

namespace Cert.KernelRun

open Cert.Kernel Cert.Kernel.Gen

open Idealize.ShloMosaic Idealize.ShloMosaic.ValueIdx

variable {F : FTy → Type}

/-! ## The table sliced whole -/

/-- The table read through its whole-box slice is the table. -/
theorem wSl_read (Wc : S100000x128.Idx → Elt F .f32) :
    ((Memref.whole main_arg1_scv).slice (Rect.unit (s := S100000x128) ![0, 0] S100000x128.size inb_S100000x128_S100000x128_0_0)
        (fun _ => rfl)).view.read (Elt F) Wc = Wc := by
  funext x
  have he : ((Memref.whole main_arg1_scv).slice (Rect.unit (s := S100000x128) ![0, 0] S100000x128.size inb_S100000x128_S100000x128_0_0)
      (fun _ => rfl)).view.emb x = x := by
    funext a; apply Fin.ext
    match a with
    | ⟨0, _⟩ => show 0 + 1 * (x 0).val = (x 0).val; omega
    | ⟨1, _⟩ => show 0 + 1 * (x 1).val = (x 1).val; omega
  rw [View.read_apply, he]
  rfl

/-! ## A row of the block of row numbers, as a list of 64 -/

/-- Row `off 0` of the 160 × 64 block, squeezed to a list of 64, reads entry `r` as entry `(off 0, r)` of the block. -/
theorem idxRow_read (off : Fin 2 → Nat) (h : ∀ a, off a + S1x64.size a ≤ S160x64.size a) (h1 : off 1 = 0)
    (XI : S160x64.Idx → BitVec 32) (r : Fin 64) :
    (((Memref.whole cc0_scratch0).slice (Rect.unit (s := S160x64) off S1x64.size h) (fun _ => rfl)).squeeze S64 squeezes_S1x64_S64).view.read
        (Elt F) XI (ix1 r)
      = XI (ix2 (⟨off 0, by have h0 : off 0 + 1 ≤ 160 := h 0; omega⟩ : Fin 160) r) := by
  have he : (((Memref.whole cc0_scratch0).slice (Rect.unit (s := S160x64) off S1x64.size h) (fun _ => rfl)).squeeze S64
      squeezes_S1x64_S64).view.emb (ix1 r) = ix2 (⟨off 0, by have h0 : off 0 + 1 ≤ 160 := h 0; omega⟩ : Fin 160) r := by
    show (Rect.unit (s := S160x64) off S1x64.size h).emb (Shape.reshapeEquiv squeezes_S1x64_S64.numel_eq (ix1 r)) = _
    rw [Shape.reshapeEquiv_eq_of_rowMajor squeezes_S1x64_S64.numel_eq (y := ix2 (0 : Fin 1) r) (by
      rw [Shape.rowMajor_val_two, Shape.rowMajor_val_one]; show 0 * 64 + r.val = r.val; omega)]
    funext a; apply Fin.ext
    match a with
    | ⟨0, _⟩ => show off 0 + 1 * 0 = off 0; omega
    | ⟨1, _⟩ => show off 1 + 1 * r.val = r.val; omega
  rw [View.read_apply, he]
  rfl

/-- The same at the literal offsets `(g, 0)`. -/
theorem idxRow_read_lit (g : Fin 160) (h : ∀ a, (![g.val, 0] : Fin 2 → Nat) a + S1x64.size a ≤ S160x64.size a)
    (XI : S160x64.Idx → BitVec 32) (r : Fin 64) :
    (((Memref.whole cc0_scratch0).slice (Rect.unit (s := S160x64) ![g.val, 0] S1x64.size h) (fun _ => rfl)).squeeze S64 squeezes_S1x64_S64).view.read
        (Elt F) XI (ix1 r) = XI (ix2 g r) :=
  idxRow_read ![g.val, 0] h rfl XI r

/-! ## A buffer last written whole -/

/-- After a list of writes whose last is of the whole buffer, the buffer holds what that write wrote. -/
theorem whole_writes_head {κ : Kind} (b : Ref sig κ) (f : b.ty.Contents (Elt F))
    (p : (Rect.whole b.ty.shape).shape.Idx → Elt F b.ty.elt) (rest : List (View.Piece (Elt F) b.ty.shape b.ty.elt)) :
    (Memref.whole b).view.writes (Elt F) f (⟨Rect.whole b.ty.shape, p⟩ :: rest) = p := by
  funext i
  have e := View.read_writes_cons_emb (Memref.whole b).view f (Rect.whole b.ty.shape) p rest i
  rw [Rect.emb_whole_apply] at e
  exact e

/-! ## A chunk of the flat output written whole -/

/-- Where the chunk at offsets `off` puts its index `y`. -/
theorem chunk_emb (off : Fin 2 → Nat) (h : ∀ a, off a + S64x128.size a ≤ S327680x128.size a) (y : S64x128.Idx) :
    ((Memref.whole main_v1_scv).slice (Rect.unit (s := S327680x128) off S64x128.size h) (fun _ => rfl)).view.emb y
      = ix2 (⟨off 0 + (y 0).val, by have h0 : off 0 + 64 ≤ 327680 := h 0; have := idx2_lt0 y; omega⟩ : Fin 327680)
          (⟨off 1 + (y 1).val, by have h0 : off 1 + 128 ≤ 128 := h 1; have := idx2_lt1 y; omega⟩ : Fin 128) := by
  funext a; apply Fin.ext
  match a with
  | ⟨0, _⟩ => show off 0 + 1 * (y 0).val = off 0 + (y 0).val; omega
  | ⟨1, _⟩ => show off 1 + 1 * (y 1).val = off 1 + (y 1).val; omega

/-- The chunk's indices are the rows from `off 0`, 64 of them, and the entries from `off 1`, 128 of them. -/
theorem mem_chunk_set_iff (off : Fin 2 → Nat) (h : ∀ a, off a + S64x128.size a ≤ S327680x128.size a) (j : S327680x128.Idx) :
    j ∈ ((Memref.whole main_v1_scv).slice (Rect.unit (s := S327680x128) off S64x128.size h) (fun _ => rfl)).view.set ↔
      (off 0 ≤ (j 0).val ∧ (j 0).val < off 0 + 64) ∧ (off 1 ≤ (j 1).val ∧ (j 1).val < off 1 + 128) := by
  show j ∈ ((View.whole main_v1_scv).slice (Rect.unit (s := S327680x128) off S64x128.size h)).set ↔ _
  rw [View.set_slice_whole, Rect.mem_set_unit]
  show (∀ a : Fin 2, off a ≤ (j a).val ∧ (j a).val < off a + S64x128.size a) ↔ _
  rw [Fin.forall_fin_two]
  rfl

/-- Every index of the chunk is the place of one of the chunk's own indices. -/
theorem exists_of_mem_chunk_set (off : Fin 2 → Nat) (h : ∀ a, off a + S64x128.size a ≤ S327680x128.size a) (j : S327680x128.Idx)
    (hj : j ∈ ((Memref.whole main_v1_scv).slice (Rect.unit (s := S327680x128) off S64x128.size h) (fun _ => rfl)).view.set) :
    ∃ y : S64x128.Idx, ((Memref.whole main_v1_scv).slice (Rect.unit (s := S327680x128) off S64x128.size h) (fun _ => rfl)).view.emb y = j := by
  obtain ⟨y, -, hy⟩ := Finset.mem_map.mp hj
  exact ⟨y, hy⟩

/-- The chunk written whole with `p` holds `p y` at the place of its index `y`. -/
theorem chunk_writes_apply (off : Fin 2 → Nat) (h : ∀ a, off a + S64x128.size a ≤ S327680x128.size a)
    (fo : S327680x128.Idx → Elt F .f32) (p : S64x128.Idx → Elt F .f32) (y : S64x128.Idx) :
    (((Memref.whole main_v1_scv).slice (Rect.unit (s := S327680x128) off S64x128.size h) (fun _ => rfl)).view.writes (Elt F) fo
        [⟨Rect.whole S64x128, p⟩])
      (((Memref.whole main_v1_scv).slice (Rect.unit (s := S327680x128) off S64x128.size h) (fun _ => rfl)).view.emb y) = p y := by
  have hy : (Rect.whole S64x128).emb y = y := Rect.emb_whole_apply S64x128 y
  have e := View.read_writes_cons_emb ((Memref.whole main_v1_scv).slice (Rect.unit (s := S327680x128) off S64x128.size h) (fun _ => rfl)).view
    fo (Rect.whole S64x128) p [] y
  have e2 := congrArg (fun z : S64x128.Idx =>
    (((Memref.whole main_v1_scv).slice (Rect.unit (s := S327680x128) off S64x128.size h) (fun _ => rfl)).view.writes (Elt F) fo
        [⟨Rect.whole S64x128, p⟩])
      (((Memref.whole main_v1_scv).slice (Rect.unit (s := S327680x128) off S64x128.size h) (fun _ => rfl)).view.emb z)) hy
  exact e2.symm.trans e

end Cert.KernelRun

end
-- ==== Proof.KernelRun.ChunkValue.lean ====
/-
  The chunk a worker copies out. Worker `w`, having gathered by row `g` of its 160 × 64 block of row numbers — which is row
  `(w, g)` of the re-laid row numbers — holds in a 64 × 128 buffer the rows of the table those 64 row numbers name; copied
  to the 64 rows of the flat output from row `10240 · w + 64 · g`, they are the flat gather there: flat row
  `10240 · w + 64 · g + r` is (worker, chunk, entry) = `(w, g, r)`.
-/
import proofs.«207499_g15272903704957_cont_week2b_486_20_alg».proof.Proof.KernelRun.Values
import proofs.«207499_g15272903704957_cont_week2b_486_20_alg».proof.Proof.Bridge

noncomputable section

namespace Cert.KernelRun

open Cert.Kernel Cert.Kernel.Gen

open Idealize.ShloMosaic Idealize.ShloMosaic.ValueIdx

variable {F : FTy → Type}

/-- The flat gather at flat row `10240 · w + 64 · g + r`: the row of the table that row number `(w, g, r)` names. -/
theorem gathered_flat {α : Type} (x3 : (⟨3, ![32, 160, 64]⟩ : Shape).Idx → BitVec 32) (W : (⟨2, ![100000, 128]⟩ : Shape).Idx → α)
    (w : Fin 32) (g : Fin 160) (r : Fin 64) (d : Fin 128) :
    Cert.Spec.gathered x3 W (ix2 (⟨10240 * w.val + 64 * g.val + r.val, by omega⟩ : Fin 327680) d)
      = W (ix2 (Cert.Spec.rowOf (x3 (ix3 w g r))) d) := by
  have hw : Cert.Spec.worker (⟨10240 * w.val + 64 * g.val + r.val, by omega⟩ : Fin 327680) = w :=
    Fin.ext (by show (10240 * w.val + 64 * g.val + r.val) / 10240 = w.val; omega)
  have hc : Cert.Spec.chunk (⟨10240 * w.val + 64 * g.val + r.val, by omega⟩ : Fin 327680) = g :=
    Fin.ext (by show (10240 * w.val + 64 * g.val + r.val) % 10240 / 64 = g.val; omega)
  have he : Cert.Spec.entry (⟨10240 * w.val + 64 * g.val + r.val, by omega⟩ : Fin 327680) = r :=
    Fin.ext (by show (10240 * w.val + 64 * g.val + r.val) % 64 = r.val; omega)
  show W (ix2 (Cert.Spec.rowOf (x3 (ix3 (Cert.Spec.worker (⟨10240 * w.val + 64 * g.val + r.val, by omega⟩ : Fin 327680))
    (Cert.Spec.chunk (⟨10240 * w.val + 64 * g.val + r.val, by omega⟩ : Fin 327680))
    (Cert.Spec.entry (⟨10240 * w.val + 64 * g.val + r.val, by omega⟩ : Fin 327680))))) d) = _
  rw [hw, hc, he]

/-- A chunk of the flat output at rows from `10240 · w + 64 · g`, written whole with a block whose row `r` is the row of
    the table that row number `(w, g, r)` names, holds the flat gather at every index of the chunk. -/
theorem chunk_writes_eq_gathered_of (X3d' : (⟨3, ![32, 160, 64]⟩ : Shape).Idx → BitVec 32) (Wc : S100000x128.Idx → Elt F .f32)
    (w : Fin 32) (g : Fin 160) (off : Fin 2 → Nat) (h : ∀ a, off a + S64x128.size a ≤ S327680x128.size a)
    (h0 : off 0 = 10240 * w.val + 64 * g.val) (h1 : off 1 = 0)
    (fo : S327680x128.Idx → Elt F .f32) (p : S64x128.Idx → Elt F .f32)
    (hp : ∀ (r : Fin 64) (dd : Fin 128), p (ix2 r dd) = Wc (ix2 (Cert.Spec.rowOf (X3d' (ix3 w g r))) dd)) :
    ∀ j ∈ ((Memref.whole main_v1_scv).slice (Rect.unit (s := S327680x128) off S64x128.size h) (fun _ => rfl)).view.set,
      (((Memref.whole main_v1_scv).slice (Rect.unit (s := S327680x128) off S64x128.size h) (fun _ => rfl)).view.writes (Elt F) fo
          [⟨Rect.whole S64x128, p⟩]) j = Cert.Spec.gathered X3d' Wc j := by
  intro j hj
  obtain ⟨y, rfl⟩ := exists_of_mem_chunk_set off h j hj
  obtain ⟨r, dd, rfl⟩ : ∃ (r : Fin 64) (dd : Fin 128), y = ix2 r dd := ⟨y 0, y 1, eq_ix2 y⟩
  rw [chunk_writes_apply, chunk_emb, hp, ← gathered_flat X3d' Wc w g r dd]
  exact congrArg (Cert.Spec.gathered X3d' Wc) (Cert.Bridge.ix2_congr
    (by show 10240 * w.val + 64 * g.val + r.val = off 0 + r.val; omega) (by show dd.val = off 1 + dd.val; omega))

/-- The same with the block's rows named through the worker's own 160 × 64 block of row numbers `XI`, row `w` of the re-laid
    row numbers. -/
theorem chunk_writes_eq_gathered_of_block (X3d' : (⟨3, ![32, 160, 64]⟩ : Shape).Idx → BitVec 32) (Wc : S100000x128.Idx → Elt F .f32)
    (w : Fin 32) (g : Fin 160) (XI : S160x64.Idx → BitVec 32) (XIrow : ∀ (g : Fin 160) (r : Fin 64), XI (ix2 g r) = X3d' (ix3 w g r))
    (off : Fin 2 → Nat) (h : ∀ a, off a + S64x128.size a ≤ S327680x128.size a)
    (h0 : off 0 = 10240 * w.val + 64 * g.val) (h1 : off 1 = 0)
    (fo : S327680x128.Idx → Elt F .f32) (p : S64x128.Idx → Elt F .f32)
    (hp : ∀ (r : Fin 64) (dd : Fin 128), p (ix2 r dd) = Wc (ix2 (Cert.Spec.rowOf (XI (ix2 g r))) dd)) :
    ∀ j ∈ ((Memref.whole main_v1_scv).slice (Rect.unit (s := S327680x128) off S64x128.size h) (fun _ => rfl)).view.set,
      (((Memref.whole main_v1_scv).slice (Rect.unit (s := S327680x128) off S64x128.size h) (fun _ => rfl)).view.writes (Elt F) fo
          [⟨Rect.whole S64x128, p⟩]) j = Cert.Spec.gathered X3d' Wc j :=
  chunk_writes_eq_gathered_of X3d' Wc w g off h h0 h1 fo p fun r dd => by rw [hp, XIrow]

/-! ## The gather's payload by row `g` of the block -/

/-- Row `g` of the block of in-range row numbers, as a list of 64, has every word below 100000. -/
theorem hin_row (X3d' : (⟨3, ![32, 160, 64]⟩ : Shape).Idx → BitVec 32) (hX : Cert.Spec.InRange X3d') (w : Fin 32) (g : Fin 160)
    (XI : S160x64.Idx → BitVec 32) (XIrow : ∀ (g : Fin 160) (r : Fin 64), XI (ix2 g r) = X3d' (ix3 w g r))
    (hr : ∀ a, (![g.val, 0] : Fin 2 → Nat) a + S1x64.size a ≤ S160x64.size a) :
    ∀ x, ((((Memref.whole cc0_scratch0).slice (Rect.unit (s := S160x64) ![g.val, 0] S1x64.size hr) (fun _ => rfl)).squeeze S64
        squeezes_S1x64_S64).view.read (Elt F) XI x).toNat < S100000x128.size gathers_S100000x128_S64x128.axis := by
  intro x
  obtain ⟨r, rfl⟩ : ∃ r : Fin 64, x = ix1 r := ⟨x 0, eq_ix1 x⟩
  rw [idxRow_read_lit, XIrow]
  exact hX _

/-- The gather's payload, the table read through its whole-box slice and the list row `g` of the block: its row `r` is the
    row of the table that row number `(w, g, r)` names. -/
theorem pay_apply (X3d' : (⟨3, ![32, 160, 64]⟩ : Shape).Idx → BitVec 32) (Wc : S100000x128.Idx → Elt F .f32) (w : Fin 32) (g : Fin 160)
    (XI : S160x64.Idx → BitVec 32) (XIrow : ∀ (g : Fin 160) (r : Fin 64), XI (ix2 g r) = X3d' (ix3 w g r))
    (hr : ∀ a, (![g.val, 0] : Fin 2 → Nat) a + S1x64.size a ≤ S160x64.size a)
    (hn : S64.numel = S64x128.size gathers_S100000x128_S64x128.axis')
    (hin : ∀ x, ((((Memref.whole cc0_scratch0).slice (Rect.unit (s := S160x64) ![g.val, 0] S1x64.size hr) (fun _ => rfl)).squeeze S64
        squeezes_S1x64_S64).view.read (Elt F) XI x).toNat < S100000x128.size gathers_S100000x128_S64x128.axis)
    (r : Fin 64) (dd : Fin 128) :
    SparseCore.gatherPayload gathers_S100000x128_S64x128
        (((Memref.whole main_arg1_scv).slice (Rect.unit (s := S100000x128) ![0, 0] S100000x128.size inb_S100000x128_S100000x128_0_0)
          (fun _ => rfl)).view.read (Elt F) Wc)
        (SparseCore.rows ((((Memref.whole cc0_scratch0).slice (Rect.unit (s := S160x64) ![g.val, 0] S1x64.size hr) (fun _ => rfl)).squeeze S64
          squeezes_S1x64_S64).view.read (Elt F) XI) hn hin) (ix2 r dd)
      = Wc (ix2 (Cert.Spec.rowOf (X3d' (ix3 w g r))) dd) := by
  rw [Cert.GatherValue.payload_apply, wSl_read, idxRow_read_lit, XIrow]

/-- THE COMBINATION. The worker at grid coordinates `L`, chunk `g`: the chunk of the flat output at rows from
    `20480 · L 1 + 10240 · L 0 + 64 · g`, written whole with the gather's payload by row `g` of the worker's block of row
    numbers, holds the flat gather of the re-laid row numbers at every index of the chunk. -/
theorem chunk_copy_eq_gathered (L : grid0.Coords) (g : Fin 160)
    (X3d' : (⟨3, ![32, 160, 64]⟩ : Shape).Idx → BitVec 32) (Wc : S100000x128.Idx → Elt F .f32)
    (XI : S160x64.Idx → BitVec 32) (XIrow : ∀ (g : Fin 160) (r : Fin 64), XI (ix2 g r) = X3d' (ix3 (widL L) g r))
    (hr : ∀ a, (![g.val, 0] : Fin 2 → Nat) a + S1x64.size a ≤ S160x64.size a)
    (hn : S64.numel = S64x128.size gathers_S100000x128_S64x128.axis')
    (hin : ∀ x, ((((Memref.whole cc0_scratch0).slice (Rect.unit (s := S160x64) ![g.val, 0] S1x64.size hr) (fun _ => rfl)).squeeze S64
        squeezes_S1x64_S64).view.read (Elt F) XI x).toNat < S100000x128.size gathers_S100000x128_S64x128.axis)
    (h : ∀ a, (![20480 * (L 1).val + 10240 * (L 0).val + 64 * g.val, 0] : Fin 2 → Nat) a + S64x128.size a ≤ S327680x128.size a)
    (fo : S327680x128.Idx → Elt F .f32) :
    ∀ j ∈ ((Memref.whole main_v1_scv).slice (Rect.unit (s := S327680x128) ![20480 * (L 1).val + 10240 * (L 0).val + 64 * g.val, 0]
        S64x128.size h) (fun _ => rfl)).view.set,
      (((Memref.whole main_v1_scv).slice (Rect.unit (s := S327680x128) ![20480 * (L 1).val + 10240 * (L 0).val + 64 * g.val, 0]
          S64x128.size h) (fun _ => rfl)).view.writes (Elt F) fo
          [⟨Rect.whole S64x128, SparseCore.gatherPayload gathers_S100000x128_S64x128
            (((Memref.whole main_arg1_scv).slice (Rect.unit (s := S100000x128) ![0, 0] S100000x128.size inb_S100000x128_S100000x128_0_0)
              (fun _ => rfl)).view.read (Elt F) Wc)
            (SparseCore.rows ((((Memref.whole cc0_scratch0).slice (Rect.unit (s := S160x64) ![g.val, 0] S1x64.size hr) (fun _ => rfl)).squeeze S64
              squeezes_S1x64_S64).view.read (Elt F) XI) hn hin)⟩]) j = Cert.Spec.gathered X3d' Wc j :=
  chunk_writes_eq_gathered_of X3d' Wc (widL L) g _ h
    (by show 20480 * (L 1).val + 10240 * (L 0).val + 64 * g.val = 10240 * (2 * (L 1).val + (L 0).val) + 64 * g.val; omega) rfl fo _
    (pay_apply X3d' Wc (widL L) g XI XIrow hr hn hin)

end Cert.KernelRun

end
-- ==== Proof.KernelRun.TripFacts.lean ====
/-
  What one trip of the worker's loop establishes, as facts about values. The worker's 160 × 64 block of row numbers is row
  `w` of the re-laid row numbers. A buffer the gather by row `g` of the block landed in holds the rows of the table that
  chunk `g` of worker `w` names; the 64 rows of the flat output from row `10240 · w + 64 · g`, written with such a buffer, agree
  with the flat gather on chunk `g`; and a piece of the output that agrees with the flat gather on its chunk is the piece of
  the flat gather. Then the same at the offsets the loop computes: trip `k`, digit `R` gathers by row `10 k + R + 16` and
  copies out to chunk `10 k + R + 10`; outside the loop the constant offsets `64 · g` name chunk `g`.
-/
import proofs.«207499_g15272903704957_cont_week2b_486_20_alg».proof.Proof.KernelRun.Inv
import proofs.«207499_g15272903704957_cont_week2b_486_20_alg».proof.Proof.KernelRun.ChunkValue

noncomputable section

namespace Cert.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The worker's block of row numbers -/

/-- Entry `(g, r)` of the worker's block of row numbers is entry `(w, g, r)` of the re-laid row numbers. -/
theorem XI_row (L : grid0.Coords) (X3d : S32x160x64.Idx → BitVec 32) (g : Fin 160) (r : Fin 64) :
    (x3RowM L).view.read (Elt F) X3d (ix2 g r) = X3d (ix3 (widL L) g r) := by
  have he : (x3RowM L).view.emb (ix2 g r) = ix3 (widL L) g r := by
    show (Rect.unit (s := S32x160x64) (k0_off1 L) S1x160x64.size (k0_off1_inb L)).emb
        (Shape.reshapeEquiv squeezes_S1x160x64_S160x64.numel_eq (ix2 g r)) = _
    rw [Shape.reshapeEquiv_eq_of_rowMajor squeezes_S1x160x64_S160x64.numel_eq (y := ix3 (0 : Fin 1) g r) (by
      rw [Shape.rowMajor_val_three, Shape.rowMajor_val_two]
      show (0 * 160 + g.val) * 64 + r.val = g.val * 64 + r.val; omega)]
    have e0 : k0_off1 L 0 = 2 * (L 1).val + (L 0).val := congrFun (k0_off1_eq L) 0
    have e1 : k0_off1 L 1 = 0 := congrFun (k0_off1_eq L) 1
    have e2 : k0_off1 L 2 = 0 := congrFun (k0_off1_eq L) 2
    funext a; apply Fin.ext
    match a with
    | ⟨0, _⟩ => show k0_off1 L 0 + 1 * 0 = 2 * (L 1).val + (L 0).val; omega
    | ⟨1, _⟩ => show k0_off1 L 1 + 1 * g.val = g.val; omega
    | ⟨2, _⟩ => show k0_off1 L 2 + 1 * r.val = r.val; omega
  rw [View.read_apply, he]
  rfl

/-! ## A buffer the gather landed in -/

theorem off0_of_eq {off : Fin 2 → ℕ} {A : ℕ} (e : off = ![A, 0]) : off 0 = A := by subst e; rfl
theorem off1_of_eq {off : Fin 2 → ℕ} {A : ℕ} (e : off = ![A, 0]) : off 1 = 0 := by subst e; rfl

/-- Row `g` of the block of in-range row numbers, as the gather's list, has every word below 100000. -/
theorem hin_gather (L : grid0.Coords) (X3d : S32x160x64.Idx → BitVec 32) (hX : Cert.Spec.InRange X3d) (g : ℕ) (hg : g < 160)
    (off : Fin 2 → ℕ) (h : ∀ a, off a + S1x64.size a ≤ S160x64.size a) (e : off = ![g, 0]) :
    ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis := by
  subst e
  exact hin_row X3d hX (widL L) ⟨g, hg⟩ _ (XI_row L X3d) h

/-- The gather's payload by row `g` of the worker's block holds the rows of the table that chunk `g` of the worker names. -/
theorem chunkIs_pay (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin)) := by
  subst e
  intro hg r dd
  exact (pay_apply X3d Wc (widL L) ⟨g, hg⟩ _ (XI_row L X3d) h hn hin r dd).trans (gathered_flat X3d Wc (widL L) ⟨g, hg⟩ r dd).symm

/-- The same for scratch buffer 1 written whole with that payload. -/
theorem chunkIs_of_gather_b1 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch1).view.writes (Elt F) pold
      [⟨Rect.whole cc0_scratch1.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 2 written whole with that payload. -/
theorem chunkIs_of_gather_b2 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch2).view.writes (Elt F) pold
      [⟨Rect.whole cc0_scratch2.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 3 written whole with that payload. -/
theorem chunkIs_of_gather_b3 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch3).view.writes (Elt F) pold
      [⟨Rect.whole cc0_scratch3.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 4 written whole with that payload. -/
theorem chunkIs_of_gather_b4 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch4).view.writes (Elt F) pold
      [⟨Rect.whole cc0_scratch4.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 5 written whole with that payload. -/
theorem chunkIs_of_gather_b5 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch5).view.writes (Elt F) pold
      [⟨Rect.whole cc0_scratch5.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 6 written whole with that payload. -/
theorem chunkIs_of_gather_b6 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch6).view.writes (Elt F) pold
      [⟨Rect.whole cc0_scratch6.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 7 written whole with that payload. -/
theorem chunkIs_of_gather_b7 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch7).view.writes (Elt F) pold
      [⟨Rect.whole cc0_scratch7.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 8 written whole with that payload. -/
theorem chunkIs_of_gather_b8 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch8).view.writes (Elt F) pold
      [⟨Rect.whole cc0_scratch8.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 9 written whole with that payload. -/
theorem chunkIs_of_gather_b9 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch9).view.writes (Elt F) pold
      [⟨Rect.whole cc0_scratch9.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 10 written whole with that payload. -/
theorem chunkIs_of_gather_b10 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch10).view.writes (Elt F) pold
      [⟨Rect.whole cc0_scratch10.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-! ## A chunk of the flat output after its copy-out -/

/-- The 64 rows of the flat output from row `10240 · w + 64 · g`, written whole with a block that holds the rows chunk `g` of
    worker `w` names, agree with the flat gather on chunk `g` of worker `w`. -/
theorem outIs_of_copy (w : Fin 32) (X3d : S32x160x64.Idx → BitVec 32) (Wc : S100000x128.Idx → Elt F .f32) (g : ℕ)
    (off : Fin 2 → ℕ) (h : ∀ a, off a + S64x128.size a ≤ S327680x128.size a)
    (e0 : off 0 = 10240 * w.val + 64 * g) (e1 : off 1 = 0) (fo : S327680x128.Idx → Elt F .f32)
    (pp : (Rect.whole (Rect.unit (s := S327680x128) off S64x128.size h).shape).shape.Idx → Elt F .f32)
    (hB : ChunkIs w X3d Wc g pp) :
    OutIs w X3d Wc g (((Memref.whole main_v1_scv).slice (Rect.unit (s := S327680x128) off S64x128.size h) (fun _ => rfl)).view.writes (Elt F) fo
        [⟨Rect.whole (Rect.unit (s := S327680x128) off S64x128.size h).shape, pp⟩]) := by
  intro hg j hj
  have hmem : 10240 * w.val + 64 * g ≤ (j 0).val ∧ (j 0).val < 10240 * w.val + 64 * g + 64 :=
    (Cert.Cover.mem_chunk_iff w ⟨g, hg⟩ _ j).mp hj
  have h1 := idx2_lt1 j
  have hj' : j ∈ ((Memref.whole main_v1_scv).slice (Rect.unit (s := S327680x128) off S64x128.size h) (fun _ => rfl)).view.set :=
    (mem_chunk_set_iff off h j).mpr ⟨⟨by omega, by omega⟩, ⟨by omega, by omega⟩⟩
  exact chunk_writes_eq_gathered_of X3d Wc w ⟨g, hg⟩ off h e0 e1 fo pp
    (fun r dd => (hB hg r dd).trans (gathered_flat X3d Wc w ⟨g, hg⟩ r dd)) j hj'

/-- The same from the offsets in closed form `(20480 · L 1 + 10240 · L 0 + c, 0)` with `c = 64 · g`. -/
theorem outIs_of_copy_at (L : grid0.Coords) (X3d : S32x160x64.Idx → BitVec 32) (Wc : S100000x128.Idx → Elt F .f32) (g c : ℕ)
    (hc : c = 64 * g) (off : Fin 2 → ℕ) (h : ∀ a, off a + S64x128.size a ≤ S327680x128.size a)
    (e : off = ![20480 * (L 1).val + 10240 * (L 0).val + c, 0]) (fo : S327680x128.Idx → Elt F .f32)
    (pp : (Rect.whole (Rect.unit (s := S327680x128) off S64x128.size h).shape).shape.Idx → Elt F .f32)
    (hB : ChunkIs (widL L) X3d Wc g pp) :
    OutIs (widL L) X3d Wc g (((Memref.whole main_v1_scv).slice (Rect.unit (s := S327680x128) off S64x128.size h) (fun _ => rfl)).view.writes (Elt F) fo
        [⟨Rect.whole (Rect.unit (s := S327680x128) off S64x128.size h).shape, pp⟩]) :=
  outIs_of_copy (widL L) X3d Wc g off h
    ((off0_of_eq e).trans (by rw [widL_val]; omega)) (off1_of_eq e) fo pp hB

/-- A piece of the output that agrees with the flat gather on its chunk is the piece of the flat gather. -/
theorem piece_done (d : Dev nD) (L : grid0.Coords) (X3d : Buf (Elt F) (x3Loc d)) (Wc : Buf (Elt F) (wLoc d)) (g : ℕ)
    (o : Buf (Elt F) (oLoc d)) (ho : OutIs (widL L) X3d Wc g o) :
    (piece d (widL L) o g : sProp 𝕄) = piece d (widL L) (Cert.Spec.gathered X3d Wc) g :=
  piece_congr d (widL L) g ho

/-! ## At the offsets the loop computes -/

/-- Trip `k`, digit 0: the gather by row `10 k + 0 + 16` of the block, landed in scratch buffer 7. -/
theorem hin_off6_0 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d) x).toNat < S100000x128.size gathers_S100000x128_S64x128.axis :=
  hin_gather L X3d hX (10 * k.val + 0 + 16) (row6_lt k 0) _ _ (k0_off6_eq k 0)
theorem chunkIs_pay_off6_0 (L : grid0.Coords) (X3d : S32x160x64.Idx → BitVec 32) (Wc : S100000x128.Idx → Elt F .f32)
    (k : Fin k0_t1_loop.trips) (g : ℕ) (eg : g = 10 * k.val + 0 + 16)
    (hn : S64.numel = S64x128.size gathers_S100000x128_S64x128.axis')
    (hin : ∀ x, ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d)) hn hin)) :=
  chunkIs_pay L X3d Wc g _ _ (by rw [eg]; exact k0_off6_eq k 0) hn hin
theorem chunkIs_off6_0 (L : grid0.Coords) (X3d : S32x160x64.Idx → BitVec 32) (Wc : S100000x128.Idx → Elt F .f32)
    (k : Fin k0_t1_loop.trips) (g : ℕ) (eg : g = 10 * k.val + 0 + 16)
    (hn : S64.numel = S64x128.size gathers_S100000x128_S64x128.axis')
    (hin : ∀ x, ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch7).view.writes (Elt F) pold
      [⟨Rect.whole cc0_scratch7.ty.shape, (SparseCore.gatherPayload gathers_S100000x128_S64x128 ((wSlM).view.read (Elt F) Wc)
        (SparseCore.rows ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d)) hn hin))⟩]) :=
  chunkIs_of_gather_b7 L X3d Wc g _ _ (by rw [eg]; exact k0_off6_eq k 0) hn hin pold

/-- Trip `k`, digit 1: the gather by row `10 k + 1 + 16` of the block, landed in scratch buffer 8. -/
theorem hin_off6_1 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d) x).toNat < S100000x128.size gathers_S100000x128_S64x128.axis :=
  hin_gather L X3d hX (10 * k.val + 1 + 16) (row6_lt k 1) _ _ (k0_off6_eq k 1)
theorem chunkIs_pay_off6_1 (L : grid0.Coords) (X3d : S32x160x64.Idx → BitVec 32) (Wc : S100000x128.Idx → Elt F .f32)
    (k : Fin k0_t1_loop.trips) (g : ℕ) (eg : g = 10 * k.val + 1 + 16)
    (hn : S64.numel = S64x128.size gathers_S100000x128_S64x128.axis')
    (hin : ∀ x, ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d)) hn hin)) :=
  chunkIs_pay L X3d Wc g _ _ (by rw [eg]; exact k0_off6_eq k 1) hn hin
theorem chunkIs_off6_1 (L : grid0.Coords) (X3d : S32x160x64.Idx → BitVec 32) (Wc : S100000x128.Idx → Elt F .f32)
    (k : Fin k0_t1_loop.trips) (g : ℕ) (eg : g = 10 * k.val + 1 + 16)
    (hn : S64.numel = S64x128.size gathers_S100000x128_S64x128.axis')
    (hin : ∀ x, ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch8).view.writes (Elt F) pold
      [⟨Rect.whole cc0_scratch8.ty.shape, (SparseCore.gatherPayload gathers_S100000x128_S64x128 ((wSlM).view.read (Elt F) Wc)
        (SparseCore.rows ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d)) hn hin))⟩]) :=
  chunkIs_of_gather_b8 L X3d Wc g _ _ (by rw [eg]; exact k0_off6_eq k 1) hn hin pold

/-- Trip `k`, digit 2: the gather by row `10 k + 2 + 16` of the block, landed in scratch buffer 9. -/
theorem hin_off6_2 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d) x).toNat < S100000x128.size gathers_S100000x128_S64x128.axis :=
  hin_gather L X3d hX (10 * k.val + 2 + 16) (row6_lt k 2) _ _ (k0_off6_eq k 2)
theorem chunkIs_pay_off6_2 (L : grid0.Coords) (X3d : S32x160x64.Idx → BitVec 32) (Wc : S100000x128.Idx → Elt F .f32)
    (k : Fin k0_t1_loop.trips) (g : ℕ) (eg : g = 10 * k.val + 2 + 16)
    (hn : S64.numel = S64x128.size gathers_S100000x128_S64x128.axis')
    (hin : ∀ x, ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d)) hn hin)) :=
  chunkIs_pay L X3d Wc g _ _ (by rw [eg]; exact k0_off6_eq k 2) hn hin
theorem chunkIs_off6_2 (L : grid0.Coords) (X3d : S32x160x64.Idx → BitVec 32) (Wc : S100000x128.Idx → Elt F .f32)
    (k : Fin k0_t1_loop.trips) (g : ℕ) (eg : g = 10 * k.val + 2 + 16)
    (hn : S64.numel = S64x128.size gathers_S100000x128_S64x128.axis')
    (hin : ∀ x, ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch9).view.writes (Elt F) pold
      [⟨Rect.whole cc0_scratch9.ty.shape, (SparseCore.gatherPayload gathers_S100000x128_S64x128 ((wSlM).view.read (Elt F) Wc)
        (SparseCore.rows ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d)) hn hin))⟩]) :=
  chunkIs_of_gather_b9 L X3d Wc g _ _ (by rw [eg]; exact k0_off6_eq k 2) hn hin pold

/-- Trip `k`, digit 3: the gather by row `10 k + 3 + 16` of the block, landed in scratch buffer 10. -/
theorem hin_off6_3 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d) x).toNat < S100000x128.size gathers_S100000x128_S64x128.axis :=
  hin_gather L X3d hX (10 * k.val + 3 + 16) (row6_lt k 3) _ _ (k0_off6_eq k 3)
theorem chunkIs_pay_off6_3 (L : grid0.Coords) (X3d : S32x160x64.Idx → BitVec 32) (Wc : S100000x128.Idx → Elt F .f32)
    (k : Fin k0_t1_loop.trips) (g : ℕ) (eg : g = 10 * k.val + 3 + 16)
    (hn : S64.numel = S64x128.size gathers_S100000x128_S64x128.axis')
    (hin : ∀ x, ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d)) hn hin)) :=
  chunkIs_pay L X3d Wc g _ _ (by rw [eg]; exact k0_off6_eq k 3) hn hin
theorem chunkIs_off6_3 (L : grid0.Coords) (X3d : S32x160x64.Idx → BitVec 32) (Wc : S100000x128.Idx → Elt F .f32)
    (k : Fin k0_t1_loop.trips) (g : ℕ) (eg : g = 10 * k.val + 3 + 16)
    (hn : S64.numel = S64x128.size gathers_S100000x128_S64x128.axis')
    (hin : ∀ x, ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch10).view.writes (Elt F) pold
      [⟨Rect.whole cc0_scratch10.ty.shape, (SparseCore.gatherPayload gathers_S100000x128_S64x128 ((wSlM).view.read (Elt F) Wc)
        (SparseCore.rows ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d)) hn hin))⟩]) :=
  chunkIs_of_gather_b10 L X3d Wc g _ _ (by rw [eg]; exact k0_off6_eq k 3) hn hin pold

/-- Trip `k`, digit 4: the gather by row `10 k + 4 + 16` of the block, landed in scratch buffer 1. -/
theorem hin_off6_4 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d) x).toNat < S100000x128.size gathers_S100000x128_S64x128.axis :=
  hin_gather L X3d hX (10 * k.val + 4 + 16) (row6_lt k 4) _ _ (k0_off6_eq k 4)
theorem chunkIs_pay_off6_4 (L : grid0.Coords) (X3d : S32x160x64.Idx → BitVec 32) (Wc : S100000x128.Idx → Elt F .f32)
    (k : Fin k0_t1_loop.trips) (g : ℕ) (eg : g = 10 * k.val + 4 + 16)
    (hn : S64.numel = S64x128.size gathers_S100000x128_S64x128.axis')
    (hin : ∀ x, ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d)) hn hin)) :=
  chunkIs_pay L X3d Wc g _ _ (by rw [eg]; exact k0_off6_eq k 4) hn hin
theorem chunkIs_off6_4 (L : grid0.Coords) (X3d : S32x160x64.Idx → BitVec 32) (Wc : S100000x128.Idx → Elt F .f32)
    (k : Fin k0_t1_loop.trips) (g : ℕ) (eg : g = 10 * k.val + 4 + 16)
    (hn : S64.numel = S64x128.size gathers_S100000x128_S64x128.axis')
    (hin : ∀ x, ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch1).view.writes (Elt F) pold
      [⟨Rect.whole cc0_scratch1.ty.shape, (SparseCore.gatherPayload gathers_S100000x128_S64x128 ((wSlM).view.read (Elt F) Wc)
        (SparseCore.rows ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d)) hn hin))⟩]) :=
  chunkIs_of_gather_b1 L X3d Wc g _ _ (by rw [eg]; exact k0_off6_eq k 4) hn hin pold

/-- Trip `k`, digit 5: the gather by row `10 k + 5 + 16` of the block, landed in scratch buffer 2. -/
theorem hin_off6_5 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d) x).toNat < S100000x128.size gathers_S100000x128_S64x128.axis :=
  hin_gather L X3d hX (10 * k.val + 5 + 16) (row6_lt k 5) _ _ (k0_off6_eq k 5)
theorem chunkIs_pay_off6_5 (L : grid0.Coords) (X3d : S32x160x64.Idx → BitVec 32) (Wc : S100000x128.Idx → Elt F .f32)
    (k : Fin k0_t1_loop.trips) (g : ℕ) (eg : g = 10 * k.val + 5 + 16)
    (hn : S64.numel = S64x128.size gathers_S100000x128_S64x128.axis')
    (hin : ∀ x, ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d)) hn hin)) :=
  chunkIs_pay L X3d Wc g _ _ (by rw [eg]; exact k0_off6_eq k 5) hn hin
theorem chunkIs_off6_5 (L : grid0.Coords) (X3d : S32x160x64.Idx → BitVec 32) (Wc : S100000x128.Idx → Elt F .f32)
    (k : Fin k0_t1_loop.trips) (g : ℕ) (eg : g = 10 * k.val + 5 + 16)
    (hn : S64.numel = S64x128.size gathers_S100000x128_S64x128.axis')
    (hin : ∀ x, ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch2).view.writes (Elt F) pold
      [⟨Rect.whole cc0_scratch2.ty.shape, (SparseCore.gatherPayload gathers_S100000x128_S64x128 ((wSlM).view.read (Elt F) Wc)
        (SparseCore.rows ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d)) hn hin))⟩]) :=
  chunkIs_of_gather_b2 L X3d Wc g _ _ (by rw [eg]; exact k0_off6_eq k 5) hn hin pold

/-- Trip `k`, digit 6: the gather by row `10 k + 6 + 16` of the block, landed in scratch buffer 3. -/
theorem hin_off6_6 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d) x).toNat < S100000x128.size gathers_S100000x128_S64x128.axis :=
  hin_gather L X3d hX (10 * k.val + 6 + 16) (row6_lt k 6) _ _ (k0_off6_eq k 6)
theorem chunkIs_pay_off6_6 (L : grid0.Coords) (X3d : S32x160x64.Idx → BitVec 32) (Wc : S100000x128.Idx → Elt F .f32)
    (k : Fin k0_t1_loop.trips) (g : ℕ) (eg : g = 10 * k.val + 6 + 16)
    (hn : S64.numel = S64x128.size gathers_S100000x128_S64x128.axis')
    (hin : ∀ x, ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d)) hn hin)) :=
  chunkIs_pay L X3d Wc g _ _ (by rw [eg]; exact k0_off6_eq k 6) hn hin
theorem chunkIs_off6_6 (L : grid0.Coords) (X3d : S32x160x64.Idx → BitVec 32) (Wc : S100000x128.Idx → Elt F .f32)
    (k : Fin k0_t1_loop.trips) (g : ℕ) (eg : g = 10 * k.val + 6 + 16)
    (hn : S64.numel = S64x128.size gathers_S100000x128_S64x128.axis')
    (hin : ∀ x, ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch3).view.writes (Elt F) pold
      [⟨Rect.whole cc0_scratch3.ty.shape, (SparseCore.gatherPayload gathers_S100000x128_S64x128 ((wSlM).view.read (Elt F) Wc)
        (SparseCore.rows ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d)) hn hin))⟩]) :=
  chunkIs_of_gather_b3 L X3d Wc g _ _ (by rw [eg]; exact k0_off6_eq k 6) hn hin pold

/-- Trip `k`, digit 7: the gather by row `10 k + 7 + 16` of the block, landed in scratch buffer 4. -/
theorem hin_off6_7 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d) x).toNat < S100000x128.size gathers_S100000x128_S64x128.axis :=
  hin_gather L X3d hX (10 * k.val + 7 + 16) (row6_lt k 7) _ _ (k0_off6_eq k 7)
theorem chunkIs_pay_off6_7 (L : grid0.Coords) (X3d : S32x160x64.Idx → BitVec 32) (Wc : S100000x128.Idx → Elt F .f32)
    (k : Fin k0_t1_loop.trips) (g : ℕ) (eg : g = 10 * k.val + 7 + 16)
    (hn : S64.numel = S64x128.size gathers_S100000x128_S64x128.axis')
    (hin : ∀ x, ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d)) hn hin)) :=
  chunkIs_pay L X3d Wc g _ _ (by rw [eg]; exact k0_off6_eq k 7) hn hin
theorem chunkIs_off6_7 (L : grid0.Coords) (X3d : S32x160x64.Idx → BitVec 32) (Wc : S100000x128.Idx → Elt F .f32)
    (k : Fin k0_t1_loop.trips) (g : ℕ) (eg : g = 10 * k.val + 7 + 16)
    (hn : S64.numel = S64x128.size gathers_S100000x128_S64x128.axis')
    (hin : ∀ x, ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch4).view.writes (Elt F) pold
      [⟨Rect.whole cc0_scratch4.ty.shape, (SparseCore.gatherPayload gathers_S100000x128_S64x128 ((wSlM).view.read (Elt F) Wc)
        (SparseCore.rows ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d)) hn hin))⟩]) :=
  chunkIs_of_gather_b4 L X3d Wc g _ _ (by rw [eg]; exact k0_off6_eq k 7) hn hin pold

/-- Trip `k`, digit 8: the gather by row `10 k + 8 + 16` of the block, landed in scratch buffer 5. -/
theorem hin_off6_8 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d) x).toNat < S100000x128.size gathers_S100000x128_S64x128.axis :=
  hin_gather L X3d hX (10 * k.val + 8 + 16) (row6_lt k 8) _ _ (k0_off6_eq k 8)
theorem chunkIs_pay_off6_8 (L : grid0.Coords) (X3d : S32x160x64.Idx → BitVec 32) (Wc : S100000x128.Idx → Elt F .f32)
    (k : Fin k0_t1_loop.trips) (g : ℕ) (eg : g = 10 * k.val + 8 + 16)
    (hn : S64.numel = S64x128.size gathers_S100000x128_S64x128.axis')
    (hin : ∀ x, ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d)) hn hin)) :=
  chunkIs_pay L X3d Wc g _ _ (by rw [eg]; exact k0_off6_eq k 8) hn hin
theorem chunkIs_off6_8 (L : grid0.Coords) (X3d : S32x160x64.Idx → BitVec 32) (Wc : S100000x128.Idx → Elt F .f32)
    (k : Fin k0_t1_loop.trips) (g : ℕ) (eg : g = 10 * k.val + 8 + 16)
    (hn : S64.numel = S64x128.size gathers_S100000x128_S64x128.axis')
    (hin : ∀ x, ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch5).view.writes (Elt F) pold
      [⟨Rect.whole cc0_scratch5.ty.shape, (SparseCore.gatherPayload gathers_S100000x128_S64x128 ((wSlM).view.read (Elt F) Wc)
        (SparseCore.rows ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d)) hn hin))⟩]) :=
  chunkIs_of_gather_b5 L X3d Wc g _ _ (by rw [eg]; exact k0_off6_eq k 8) hn hin pold

/-- Trip `k`, digit 9: the gather by row `10 k + 9 + 16` of the block, landed in scratch buffer 6. -/
theorem hin_off6_9 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d) x).toNat < S100000x128.size gathers_S100000x128_S64x128.axis :=
  hin_gather L X3d hX (10 * k.val + 9 + 16) (row6_lt k 9) _ _ (k0_off6_eq k 9)
theorem chunkIs_pay_off6_9 (L : grid0.Coords) (X3d : S32x160x64.Idx → BitVec 32) (Wc : S100000x128.Idx → Elt F .f32)
    (k : Fin k0_t1_loop.trips) (g : ℕ) (eg : g = 10 * k.val + 9 + 16)
    (hn : S64.numel = S64x128.size gathers_S100000x128_S64x128.axis')
    (hin : ∀ x, ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d)) hn hin)) :=
  chunkIs_pay L X3d Wc g _ _ (by rw [eg]; exact k0_off6_eq k 9) hn hin
theorem chunkIs_off6_9 (L : grid0.Coords) (X3d : S32x160x64.Idx → BitVec 32) (Wc : S100000x128.Idx → Elt F .f32)
    (k : Fin k0_t1_loop.trips) (g : ℕ) (eg : g = 10 * k.val + 9 + 16)
    (hn : S64.numel = S64x128.size gathers_S100000x128_S64x128.axis')
    (hin : ∀ x, ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch6).view.writes (Elt F) pold
      [⟨Rect.whole cc0_scratch6.ty.shape, (SparseCore.gatherPayload gathers_S100000x128_S64x128 ((wSlM).view.read (Elt F) Wc)
        (SparseCore.rows ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d)) hn hin))⟩]) :=
  chunkIs_of_gather_b6 L X3d Wc g _ _ (by rw [eg]; exact k0_off6_eq k 9) hn hin pold

/-- Trip `k`, digit 0: the copy-out to chunk `10 k + 0 + 10`. -/
theorem outIs_off4_0 (L : grid0.Coords) (X3d : S32x160x64.Idx → BitVec 32) (Wc : S100000x128.Idx → Elt F .f32)
    (k : Fin k0_t1_loop.trips) (g : ℕ) (eg : g = 10 * k.val + 0 + 10) (fo : S327680x128.Idx → Elt F .f32)
    (pp : (Rect.whole (Rect.unit (s := S327680x128) (k0_off4 L k 0#32) S64x128.size (k0_off4_inb L k 0)).shape).shape.Idx → Elt F .f32)
    (hB : ChunkIs (widL L) X3d Wc g pp) :
    OutIs (widL L) X3d Wc g (((Memref.whole main_v1_scv).slice (Rect.unit (s := S327680x128) (k0_off4 L k 0#32) S64x128.size (k0_off4_inb L k 0)) (fun _ => rfl)).view.writes (Elt F) fo
        [⟨Rect.whole (Rect.unit (s := S327680x128) (k0_off4 L k 0#32) S64x128.size (k0_off4_inb L k 0)).shape, pp⟩]) :=
  outIs_of_copy_at L X3d Wc g (640 * k.val + 64 * 0 + 640) (by omega) _ _ (k0_off4_eq L k 0) fo pp hB

/-- Trip `k`, digit 1: the copy-out to chunk `10 k + 1 + 10`. -/
theorem outIs_off4_1 (L : grid0.Coords) (X3d : S32x160x64.Idx → BitVec 32) (Wc : S100000x128.Idx → Elt F .f32)
    (k : Fin k0_t1_loop.trips) (g : ℕ) (eg : g = 10 * k.val + 1 + 10) (fo : S327680x128.Idx → Elt F .f32)
    (pp : (Rect.whole (Rect.unit (s := S327680x128) (k0_off4 L k 1#32) S64x128.size (k0_off4_inb L k 1)).shape).shape.Idx → Elt F .f32)
    (hB : ChunkIs (widL L) X3d Wc g pp) :
    OutIs (widL L) X3d Wc g (((Memref.whole main_v1_scv).slice (Rect.unit (s := S327680x128) (k0_off4 L k 1#32) S64x128.size (k0_off4_inb L k 1)) (fun _ => rfl)).view.writes (Elt F) fo
        [⟨Rect.whole (Rect.unit (s := S327680x128) (k0_off4 L k 1#32) S64x128.size (k0_off4_inb L k 1)).shape, pp⟩]) :=
  outIs_of_copy_at L X3d Wc g (640 * k.val + 64 * 1 + 640) (by omega) _ _ (k0_off4_eq L k 1) fo pp hB

/-- Trip `k`, digit 2: the copy-out to chunk `10 k + 2 + 10`. -/
theorem outIs_off4_2 (L : grid0.Coords) (X3d : S32x160x64.Idx → BitVec 32) (Wc : S100000x128.Idx → Elt F .f32)
    (k : Fin k0_t1_loop.trips) (g : ℕ) (eg : g = 10 * k.val + 2 + 10) (fo : S327680x128.Idx → Elt F .f32)
    (pp : (Rect.whole (Rect.unit (s := S327680x128) (k0_off4 L k 2#32) S64x128.size (k0_off4_inb L k 2)).shape).shape.Idx → Elt F .f32)
    (hB : ChunkIs (widL L) X3d Wc g pp) :
    OutIs (widL L) X3d Wc g (((Memref.whole main_v1_scv).slice (Rect.unit (s := S327680x128) (k0_off4 L k 2#32) S64x128.size (k0_off4_inb L k 2)) (fun _ => rfl)).view.writes (Elt F) fo
        [⟨Rect.whole (Rect.unit (s := S327680x128) (k0_off4 L k 2#32) S64x128.size (k0_off4_inb L k 2)).shape, pp⟩]) :=
  outIs_of_copy_at L X3d Wc g (640 * k.val + 64 * 2 + 640) (by omega) _ _ (k0_off4_eq L k 2) fo pp hB

/-- Trip `k`, digit 3: the copy-out to chunk `10 k + 3 + 10`. -/
theorem outIs_off4_3 (L : grid0.Coords) (X3d : S32x160x64.Idx → BitVec 32) (Wc : S100000x128.Idx → Elt F .f32)
    (k : Fin k0_t1_loop.trips) (g : ℕ) (eg : g = 10 * k.val + 3 + 10) (fo : S327680x128.Idx → Elt F .f32)
    (pp : (Rect.whole (Rect.unit (s := S327680x128) (k0_off4 L k 3#32) S64x128.size (k0_off4_inb L k 3)).shape).shape.Idx → Elt F .f32)
    (hB : ChunkIs (widL L) X3d Wc g pp) :
    OutIs (widL L) X3d Wc g (((Memref.whole main_v1_scv).slice (Rect.unit (s := S327680x128) (k0_off4 L k 3#32) S64x128.size (k0_off4_inb L k 3)) (fun _ => rfl)).view.writes (Elt F) fo
        [⟨Rect.whole (Rect.unit (s := S327680x128) (k0_off4 L k 3#32) S64x128.size (k0_off4_inb L k 3)).shape, pp⟩]) :=
  outIs_of_copy_at L X3d Wc g (640 * k.val + 64 * 3 + 640) (by omega) _ _ (k0_off4_eq L k 3) fo pp hB

/-- Trip `k`, digit 4: the copy-out to chunk `10 k + 4 + 10`. -/
theorem outIs_off4_4 (L : grid0.Coords) (X3d : S32x160x64.Idx → BitVec 32) (Wc : S100000x128.Idx → Elt F .f32)
    (k : Fin k0_t1_loop.trips) (g : ℕ) (eg : g = 10 * k.val + 4 + 10) (fo : S327680x128.Idx → Elt F .f32)
    (pp : (Rect.whole (Rect.unit (s := S327680x128) (k0_off4 L k 4#32) S64x128.size (k0_off4_inb L k 4)).shape).shape.Idx → Elt F .f32)
    (hB : ChunkIs (widL L) X3d Wc g pp) :
    OutIs (widL L) X3d Wc g (((Memref.whole main_v1_scv).slice (Rect.unit (s := S327680x128) (k0_off4 L k 4#32) S64x128.size (k0_off4_inb L k 4)) (fun _ => rfl)).view.writes (Elt F) fo
        [⟨Rect.whole (Rect.unit (s := S327680x128) (k0_off4 L k 4#32) S64x128.size (k0_off4_inb L k 4)).shape, pp⟩]) :=
  outIs_of_copy_at L X3d Wc g (640 * k.val + 64 * 4 + 640) (by omega) _ _ (k0_off4_eq L k 4) fo pp hB

/-- Trip `k`, digit 5: the copy-out to chunk `10 k + 5 + 10`. -/
theorem outIs_off4_5 (L : grid0.Coords) (X3d : S32x160x64.Idx → BitVec 32) (Wc : S100000x128.Idx → Elt F .f32)
    (k : Fin k0_t1_loop.trips) (g : ℕ) (eg : g = 10 * k.val + 5 + 10) (fo : S327680x128.Idx → Elt F .f32)
    (pp : (Rect.whole (Rect.unit (s := S327680x128) (k0_off4 L k 5#32) S64x128.size (k0_off4_inb L k 5)).shape).shape.Idx → Elt F .f32)
    (hB : ChunkIs (widL L) X3d Wc g pp) :
    OutIs (widL L) X3d Wc g (((Memref.whole main_v1_scv).slice (Rect.unit (s := S327680x128) (k0_off4 L k 5#32) S64x128.size (k0_off4_inb L k 5)) (fun _ => rfl)).view.writes (Elt F) fo
        [⟨Rect.whole (Rect.unit (s := S327680x128) (k0_off4 L k 5#32) S64x128.size (k0_off4_inb L k 5)).shape, pp⟩]) :=
  outIs_of_copy_at L X3d Wc g (640 * k.val + 64 * 5 + 640) (by omega) _ _ (k0_off4_eq L k 5) fo pp hB

/-- Trip `k`, digit 6: the copy-out to chunk `10 k + 6 + 10`. -/
theorem outIs_off4_6 (L : grid0.Coords) (X3d : S32x160x64.Idx → BitVec 32) (Wc : S100000x128.Idx → Elt F .f32)
    (k : Fin k0_t1_loop.trips) (g : ℕ) (eg : g = 10 * k.val + 6 + 10) (fo : S327680x128.Idx → Elt F .f32)
    (pp : (Rect.whole (Rect.unit (s := S327680x128) (k0_off4 L k 6#32) S64x128.size (k0_off4_inb L k 6)).shape).shape.Idx → Elt F .f32)
    (hB : ChunkIs (widL L) X3d Wc g pp) :
    OutIs (widL L) X3d Wc g (((Memref.whole main_v1_scv).slice (Rect.unit (s := S327680x128) (k0_off4 L k 6#32) S64x128.size (k0_off4_inb L k 6)) (fun _ => rfl)).view.writes (Elt F) fo
        [⟨Rect.whole (Rect.unit (s := S327680x128) (k0_off4 L k 6#32) S64x128.size (k0_off4_inb L k 6)).shape, pp⟩]) :=
  outIs_of_copy_at L X3d Wc g (640 * k.val + 64 * 6 + 640) (by omega) _ _ (k0_off4_eq L k 6) fo pp hB

/-- Trip `k`, digit 7: the copy-out to chunk `10 k + 7 + 10`. -/
theorem outIs_off4_7 (L : grid0.Coords) (X3d : S32x160x64.Idx → BitVec 32) (Wc : S100000x128.Idx → Elt F .f32)
    (k : Fin k0_t1_loop.trips) (g : ℕ) (eg : g = 10 * k.val + 7 + 10) (fo : S327680x128.Idx → Elt F .f32)
    (pp : (Rect.whole (Rect.unit (s := S327680x128) (k0_off4 L k 7#32) S64x128.size (k0_off4_inb L k 7)).shape).shape.Idx → Elt F .f32)
    (hB : ChunkIs (widL L) X3d Wc g pp) :
    OutIs (widL L) X3d Wc g (((Memref.whole main_v1_scv).slice (Rect.unit (s := S327680x128) (k0_off4 L k 7#32) S64x128.size (k0_off4_inb L k 7)) (fun _ => rfl)).view.writes (Elt F) fo
        [⟨Rect.whole (Rect.unit (s := S327680x128) (k0_off4 L k 7#32) S64x128.size (k0_off4_inb L k 7)).shape, pp⟩]) :=
  outIs_of_copy_at L X3d Wc g (640 * k.val + 64 * 7 + 640) (by omega) _ _ (k0_off4_eq L k 7) fo pp hB

/-- Trip `k`, digit 8: the copy-out to chunk `10 k + 8 + 10`. -/
theorem outIs_off4_8 (L : grid0.Coords) (X3d : S32x160x64.Idx → BitVec 32) (Wc : S100000x128.Idx → Elt F .f32)
    (k : Fin k0_t1_loop.trips) (g : ℕ) (eg : g = 10 * k.val + 8 + 10) (fo : S327680x128.Idx → Elt F .f32)
    (pp : (Rect.whole (Rect.unit (s := S327680x128) (k0_off4 L k 8#32) S64x128.size (k0_off4_inb L k 8)).shape).shape.Idx → Elt F .f32)
    (hB : ChunkIs (widL L) X3d Wc g pp) :
    OutIs (widL L) X3d Wc g (((Memref.whole main_v1_scv).slice (Rect.unit (s := S327680x128) (k0_off4 L k 8#32) S64x128.size (k0_off4_inb L k 8)) (fun _ => rfl)).view.writes (Elt F) fo
        [⟨Rect.whole (Rect.unit (s := S327680x128) (k0_off4 L k 8#32) S64x128.size (k0_off4_inb L k 8)).shape, pp⟩]) :=
  outIs_of_copy_at L X3d Wc g (640 * k.val + 64 * 8 + 640) (by omega) _ _ (k0_off4_eq L k 8) fo pp hB

/-- Trip `k`, digit 9: the copy-out to chunk `10 k + 9 + 10`. -/
theorem outIs_off4_9 (L : grid0.Coords) (X3d : S32x160x64.Idx → BitVec 32) (Wc : S100000x128.Idx → Elt F .f32)
    (k : Fin k0_t1_loop.trips) (g : ℕ) (eg : g = 10 * k.val + 9 + 10) (fo : S327680x128.Idx → Elt F .f32)
    (pp : (Rect.whole (Rect.unit (s := S327680x128) (k0_off4 L k 9#32) S64x128.size (k0_off4_inb L k 9)).shape).shape.Idx → Elt F .f32)
    (hB : ChunkIs (widL L) X3d Wc g pp) :
    OutIs (widL L) X3d Wc g (((Memref.whole main_v1_scv).slice (Rect.unit (s := S327680x128) (k0_off4 L k 9#32) S64x128.size (k0_off4_inb L k 9)) (fun _ => rfl)).view.writes (Elt F) fo
        [⟨Rect.whole (Rect.unit (s := S327680x128) (k0_off4 L k 9#32) S64x128.size (k0_off4_inb L k 9)).shape, pp⟩]) :=
  outIs_of_copy_at L X3d Wc g (640 * k.val + 64 * 9 + 640) (by omega) _ _ (k0_off4_eq L k 9) fo pp hB

/-- Outside the loop: the constant offset 0 names chunk 0. -/
theorem outIs_off2_0 (L : grid0.Coords) (X3d : S32x160x64.Idx → BitVec 32) (Wc : S100000x128.Idx → Elt F .f32)
    (h : ∀ a, (k0_off2 L 0#32) a + S64x128.size a ≤ S327680x128.size a) (fo : S327680x128.Idx → Elt F .f32)
    (pp : (Rect.whole (Rect.unit (s := S327680x128) (k0_off2 L 0#32) S64x128.size h).shape).shape.Idx → Elt F .f32)
    (hB : ChunkIs (widL L) X3d Wc 0 pp) :
    OutIs (widL L) X3d Wc 0 (((Memref.whole main_v1_scv).slice (Rect.unit (s := S327680x128) (k0_off2 L 0#32) S64x128.size h) (fun _ => rfl)).view.writes (Elt F) fo
        [⟨Rect.whole (Rect.unit (s := S327680x128) (k0_off2 L 0#32) S64x128.size h).shape, pp⟩]) :=
  outIs_of_copy_at L X3d Wc 0 0 (by omega) _ h (Cert.OffsetFacts.Kernel.k0_off2_lit_0 L) fo pp hB

/-- Outside the loop: the constant offset 64 names chunk 1. -/
theorem outIs_off2_1 (L : grid0.Coords) (X3d : S32x160x64.Idx → BitVec 32) (Wc : S100000x128.Idx → Elt F .f32)
    (h : ∀ a, (k0_off2 L 64#32) a + S64x128.size a ≤ S327680x128.size a) (fo : S327680x128.Idx → Elt F .f32)
    (pp : (Rect.whole (Rect.unit (s := S327680x128) (k0_off2 L 64#32) S64x128.size h).shape).shape.Idx → Elt F .f32)
    (hB : ChunkIs (widL L) X3d Wc 1 pp) :
    OutIs (widL L) X3d Wc 1 (((Memref.whole main_v1_scv).slice (Rect.unit (s := S327680x128) (k0_off2 L 64#32) S64x128.size h) (fun _ => rfl)).view.writes (Elt F) fo
        [⟨Rect.whole (Rect.unit (s := S327680x128) (k0_off2 L 64#32) S64x128.size h).shape, pp⟩]) :=
  outIs_of_copy_at L X3d Wc 1 64 (by omega) _ h (Cert.OffsetFacts.Kernel.k0_off2_lit_1 L) fo pp hB

/-- Outside the loop: the constant offset 128 names chunk 2. -/
theorem outIs_off2_2 (L : grid0.Coords) (X3d : S32x160x64.Idx → BitVec 32) (Wc : S100000x128.Idx → Elt F .f32)
    (h : ∀ a, (k0_off2 L 128#32) a + S64x128.size a ≤ S327680x128.size a) (fo : S327680x128.Idx → Elt F .f32)
    (pp : (Rect.whole (Rect.unit (s := S327680x128) (k0_off2 L 128#32) S64x128.size h).shape).shape.Idx → Elt F .f32)
    (hB : ChunkIs (widL L) X3d Wc 2 pp) :
    OutIs (widL L) X3d Wc 2 (((Memref.whole main_v1_scv).slice (Rect.unit (s := S327680x128) (k0_off2 L 128#32) S64x128.size h) (fun _ => rfl)).view.writes (Elt F) fo
        [⟨Rect.whole (Rect.unit (s := S327680x128) (k0_off2 L 128#32) S64x128.size h).shape, pp⟩]) :=
  outIs_of_copy_at L X3d Wc 2 128 (by omega) _ h (Cert.OffsetFacts.Kernel.k0_off2_lit_2 L) fo pp hB

/-- Outside the loop: the constant offset 192 names chunk 3. -/
theorem outIs_off2_3 (L : grid0.Coords) (X3d : S32x160x64.Idx → BitVec 32) (Wc : S100000x128.Idx → Elt F .f32)
    (h : ∀ a, (k0_off2 L 192#32) a + S64x128.size a ≤ S327680x128.size a) (fo : S327680x128.Idx → Elt F .f32)
    (pp : (Rect.whole (Rect.unit (s := S327680x128) (k0_off2 L 192#32) S64x128.size h).shape).shape.Idx → Elt F .f32)
    (hB : ChunkIs (widL L) X3d Wc 3 pp) :
    OutIs (widL L) X3d Wc 3 (((Memref.whole main_v1_scv).slice (Rect.unit (s := S327680x128) (k0_off2 L 192#32) S64x128.size h) (fun _ => rfl)).view.writes (Elt F) fo
        [⟨Rect.whole (Rect.unit (s := S327680x128) (k0_off2 L 192#32) S64x128.size h).shape, pp⟩]) :=
  outIs_of_copy_at L X3d Wc 3 192 (by omega) _ h (Cert.OffsetFacts.Kernel.k0_off2_lit_3 L) fo pp hB

/-- Outside the loop: the constant offset 256 names chunk 4. -/
theorem outIs_off2_4 (L : grid0.Coords) (X3d : S32x160x64.Idx → BitVec 32) (Wc : S100000x128.Idx → Elt F .f32)
    (h : ∀ a, (k0_off2 L 256#32) a + S64x128.size a ≤ S327680x128.size a) (fo : S327680x128.Idx → Elt F .f32)
    (pp : (Rect.whole (Rect.unit (s := S327680x128) (k0_off2 L 256#32) S64x128.size h).shape).shape.Idx → Elt F .f32)
    (hB : ChunkIs (widL L) X3d Wc 4 pp) :
    OutIs (widL L) X3d Wc 4 (((Memref.whole main_v1_scv).slice (Rect.unit (s := S327680x128) (k0_off2 L 256#32) S64x128.size h) (fun _ => rfl)).view.writes (Elt F) fo
        [⟨Rect.whole (Rect.unit (s := S327680x128) (k0_off2 L 256#32) S64x128.size h).shape, pp⟩]) :=
  outIs_of_copy_at L X3d Wc 4 256 (by omega) _ h (Cert.OffsetFacts.Kernel.k0_off2_lit_4 L) fo pp hB

/-- Outside the loop: the constant offset 320 names chunk 5. -/
theorem outIs_off2_5 (L : grid0.Coords) (X3d : S32x160x64.Idx → BitVec 32) (Wc : S100000x128.Idx → Elt F .f32)
    (h : ∀ a, (k0_off2 L 320#32) a + S64x128.size a ≤ S327680x128.size a) (fo : S327680x128.Idx → Elt F .f32)
    (pp : (Rect.whole (Rect.unit (s := S327680x128) (k0_off2 L 320#32) S64x128.size h).shape).shape.Idx → Elt F .f32)
    (hB : ChunkIs (widL L) X3d Wc 5 pp) :
    OutIs (widL L) X3d Wc 5 (((Memref.whole main_v1_scv).slice (Rect.unit (s := S327680x128) (k0_off2 L 320#32) S64x128.size h) (fun _ => rfl)).view.writes (Elt F) fo
        [⟨Rect.whole (Rect.unit (s := S327680x128) (k0_off2 L 320#32) S64x128.size h).shape, pp⟩]) :=
  outIs_of_copy_at L X3d Wc 5 320 (by omega) _ h (Cert.OffsetFacts.Kernel.k0_off2_lit_5 L) fo pp hB

/-- Outside the loop: the constant offset 384 names chunk 6. -/
theorem outIs_off2_6 (L : grid0.Coords) (X3d : S32x160x64.Idx → BitVec 32) (Wc : S100000x128.Idx → Elt F .f32)
    (h : ∀ a, (k0_off2 L 384#32) a + S64x128.size a ≤ S327680x128.size a) (fo : S327680x128.Idx → Elt F .f32)
    (pp : (Rect.whole (Rect.unit (s := S327680x128) (k0_off2 L 384#32) S64x128.size h).shape).shape.Idx → Elt F .f32)
    (hB : ChunkIs (widL L) X3d Wc 6 pp) :
    OutIs (widL L) X3d Wc 6 (((Memref.whole main_v1_scv).slice (Rect.unit (s := S327680x128) (k0_off2 L 384#32) S64x128.size h) (fun _ => rfl)).view.writes (Elt F) fo
        [⟨Rect.whole (Rect.unit (s := S327680x128) (k0_off2 L 384#32) S64x128.size h).shape, pp⟩]) :=
  outIs_of_copy_at L X3d Wc 6 384 (by omega) _ h (Cert.OffsetFacts.Kernel.k0_off2_lit_6 L) fo pp hB

/-- Outside the loop: the constant offset 448 names chunk 7. -/
theorem outIs_off2_7 (L : grid0.Coords) (X3d : S32x160x64.Idx → BitVec 32) (Wc : S100000x128.Idx → Elt F .f32)
    (h : ∀ a, (k0_off2 L 448#32) a + S64x128.size a ≤ S327680x128.size a) (fo : S327680x128.Idx → Elt F .f32)
    (pp : (Rect.whole (Rect.unit (s := S327680x128) (k0_off2 L 448#32) S64x128.size h).shape).shape.Idx → Elt F .f32)
    (hB : ChunkIs (widL L) X3d Wc 7 pp) :
    OutIs (widL L) X3d Wc 7 (((Memref.whole main_v1_scv).slice (Rect.unit (s := S327680x128) (k0_off2 L 448#32) S64x128.size h) (fun _ => rfl)).view.writes (Elt F) fo
        [⟨Rect.whole (Rect.unit (s := S327680x128) (k0_off2 L 448#32) S64x128.size h).shape, pp⟩]) :=
  outIs_of_copy_at L X3d Wc 7 448 (by omega) _ h (Cert.OffsetFacts.Kernel.k0_off2_lit_7 L) fo pp hB

/-- Outside the loop: the constant offset 512 names chunk 8. -/
theorem outIs_off2_8 (L : grid0.Coords) (X3d : S32x160x64.Idx → BitVec 32) (Wc : S100000x128.Idx → Elt F .f32)
    (h : ∀ a, (k0_off2 L 512#32) a + S64x128.size a ≤ S327680x128.size a) (fo : S327680x128.Idx → Elt F .f32)
    (pp : (Rect.whole (Rect.unit (s := S327680x128) (k0_off2 L 512#32) S64x128.size h).shape).shape.Idx → Elt F .f32)
    (hB : ChunkIs (widL L) X3d Wc 8 pp) :
    OutIs (widL L) X3d Wc 8 (((Memref.whole main_v1_scv).slice (Rect.unit (s := S327680x128) (k0_off2 L 512#32) S64x128.size h) (fun _ => rfl)).view.writes (Elt F) fo
        [⟨Rect.whole (Rect.unit (s := S327680x128) (k0_off2 L 512#32) S64x128.size h).shape, pp⟩]) :=
  outIs_of_copy_at L X3d Wc 8 512 (by omega) _ h (Cert.OffsetFacts.Kernel.k0_off2_lit_8 L) fo pp hB

/-- Outside the loop: the constant offset 576 names chunk 9. -/
theorem outIs_off2_9 (L : grid0.Coords) (X3d : S32x160x64.Idx → BitVec 32) (Wc : S100000x128.Idx → Elt F .f32)
    (h : ∀ a, (k0_off2 L 576#32) a + S64x128.size a ≤ S327680x128.size a) (fo : S327680x128.Idx → Elt F .f32)
    (pp : (Rect.whole (Rect.unit (s := S327680x128) (k0_off2 L 576#32) S64x128.size h).shape).shape.Idx → Elt F .f32)
    (hB : ChunkIs (widL L) X3d Wc 9 pp) :
    OutIs (widL L) X3d Wc 9 (((Memref.whole main_v1_scv).slice (Rect.unit (s := S327680x128) (k0_off2 L 576#32) S64x128.size h) (fun _ => rfl)).view.writes (Elt F) fo
        [⟨Rect.whole (Rect.unit (s := S327680x128) (k0_off2 L 576#32) S64x128.size h).shape, pp⟩]) :=
  outIs_of_copy_at L X3d Wc 9 576 (by omega) _ h (Cert.OffsetFacts.Kernel.k0_off2_lit_9 L) fo pp hB

/-- Outside the loop: the constant offset 9600 names chunk 150. -/
theorem outIs_off2_10 (L : grid0.Coords) (X3d : S32x160x64.Idx → BitVec 32) (Wc : S100000x128.Idx → Elt F .f32)
    (h : ∀ a, (k0_off2 L 9600#32) a + S64x128.size a ≤ S327680x128.size a) (fo : S327680x128.Idx → Elt F .f32)
    (pp : (Rect.whole (Rect.unit (s := S327680x128) (k0_off2 L 9600#32) S64x128.size h).shape).shape.Idx → Elt F .f32)
    (hB : ChunkIs (widL L) X3d Wc 150 pp) :
    OutIs (widL L) X3d Wc 150 (((Memref.whole main_v1_scv).slice (Rect.unit (s := S327680x128) (k0_off2 L 9600#32) S64x128.size h) (fun _ => rfl)).view.writes (Elt F) fo
        [⟨Rect.whole (Rect.unit (s := S327680x128) (k0_off2 L 9600#32) S64x128.size h).shape, pp⟩]) :=
  outIs_of_copy_at L X3d Wc 150 9600 (by omega) _ h (Cert.OffsetFacts.Kernel.k0_off2_lit_10 L) fo pp hB

/-- Outside the loop: the constant offset 9344 names chunk 146. -/
theorem outIs_off2_11 (L : grid0.Coords) (X3d : S32x160x64.Idx → BitVec 32) (Wc : S100000x128.Idx → Elt F .f32)
    (h : ∀ a, (k0_off2 L 9344#32) a + S64x128.size a ≤ S327680x128.size a) (fo : S327680x128.Idx → Elt F .f32)
    (pp : (Rect.whole (Rect.unit (s := S327680x128) (k0_off2 L 9344#32) S64x128.size h).shape).shape.Idx → Elt F .f32)
    (hB : ChunkIs (widL L) X3d Wc 146 pp) :
    OutIs (widL L) X3d Wc 146 (((Memref.whole main_v1_scv).slice (Rect.unit (s := S327680x128) (k0_off2 L 9344#32) S64x128.size h) (fun _ => rfl)).view.writes (Elt F) fo
        [⟨Rect.whole (Rect.unit (s := S327680x128) (k0_off2 L 9344#32) S64x128.size h).shape, pp⟩]) :=
  outIs_of_copy_at L X3d Wc 146 9344 (by omega) _ h (Cert.OffsetFacts.Kernel.k0_off2_lit_11 L) fo pp hB

/-- Outside the loop: the constant offset 9664 names chunk 151. -/
theorem outIs_off2_12 (L : grid0.Coords) (X3d : S32x160x64.Idx → BitVec 32) (Wc : S100000x128.Idx → Elt F .f32)
    (h : ∀ a, (k0_off2 L 9664#32) a + S64x128.size a ≤ S327680x128.size a) (fo : S327680x128.Idx → Elt F .f32)
    (pp : (Rect.whole (Rect.unit (s := S327680x128) (k0_off2 L 9664#32) S64x128.size h).shape).shape.Idx → Elt F .f32)
    (hB : ChunkIs (widL L) X3d Wc 151 pp) :
    OutIs (widL L) X3d Wc 151 (((Memref.whole main_v1_scv).slice (Rect.unit (s := S327680x128) (k0_off2 L 9664#32) S64x128.size h) (fun _ => rfl)).view.writes (Elt F) fo
        [⟨Rect.whole (Rect.unit (s := S327680x128) (k0_off2 L 9664#32) S64x128.size h).shape, pp⟩]) :=
  outIs_of_copy_at L X3d Wc 151 9664 (by omega) _ h (Cert.OffsetFacts.Kernel.k0_off2_lit_12 L) fo pp hB

/-- Outside the loop: the constant offset 9408 names chunk 147. -/
theorem outIs_off2_13 (L : grid0.Coords) (X3d : S32x160x64.Idx → BitVec 32) (Wc : S100000x128.Idx → Elt F .f32)
    (h : ∀ a, (k0_off2 L 9408#32) a + S64x128.size a ≤ S327680x128.size a) (fo : S327680x128.Idx → Elt F .f32)
    (pp : (Rect.whole (Rect.unit (s := S327680x128) (k0_off2 L 9408#32) S64x128.size h).shape).shape.Idx → Elt F .f32)
    (hB : ChunkIs (widL L) X3d Wc 147 pp) :
    OutIs (widL L) X3d Wc 147 (((Memref.whole main_v1_scv).slice (Rect.unit (s := S327680x128) (k0_off2 L 9408#32) S64x128.size h) (fun _ => rfl)).view.writes (Elt F) fo
        [⟨Rect.whole (Rect.unit (s := S327680x128) (k0_off2 L 9408#32) S64x128.size h).shape, pp⟩]) :=
  outIs_of_copy_at L X3d Wc 147 9408 (by omega) _ h (Cert.OffsetFacts.Kernel.k0_off2_lit_13 L) fo pp hB

/-- Outside the loop: the constant offset 9728 names chunk 152. -/
theorem outIs_off2_14 (L : grid0.Coords) (X3d : S32x160x64.Idx → BitVec 32) (Wc : S100000x128.Idx → Elt F .f32)
    (h : ∀ a, (k0_off2 L 9728#32) a + S64x128.size a ≤ S327680x128.size a) (fo : S327680x128.Idx → Elt F .f32)
    (pp : (Rect.whole (Rect.unit (s := S327680x128) (k0_off2 L 9728#32) S64x128.size h).shape).shape.Idx → Elt F .f32)
    (hB : ChunkIs (widL L) X3d Wc 152 pp) :
    OutIs (widL L) X3d Wc 152 (((Memref.whole main_v1_scv).slice (Rect.unit (s := S327680x128) (k0_off2 L 9728#32) S64x128.size h) (fun _ => rfl)).view.writes (Elt F) fo
        [⟨Rect.whole (Rect.unit (s := S327680x128) (k0_off2 L 9728#32) S64x128.size h).shape, pp⟩]) :=
  outIs_of_copy_at L X3d Wc 152 9728 (by omega) _ h (Cert.OffsetFacts.Kernel.k0_off2_lit_14 L) fo pp hB

/-- Outside the loop: the constant offset 9472 names chunk 148. -/
theorem outIs_off2_15 (L : grid0.Coords) (X3d : S32x160x64.Idx → BitVec 32) (Wc : S100000x128.Idx → Elt F .f32)
    (h : ∀ a, (k0_off2 L 9472#32) a + S64x128.size a ≤ S327680x128.size a) (fo : S327680x128.Idx → Elt F .f32)
    (pp : (Rect.whole (Rect.unit (s := S327680x128) (k0_off2 L 9472#32) S64x128.size h).shape).shape.Idx → Elt F .f32)
    (hB : ChunkIs (widL L) X3d Wc 148 pp) :
    OutIs (widL L) X3d Wc 148 (((Memref.whole main_v1_scv).slice (Rect.unit (s := S327680x128) (k0_off2 L 9472#32) S64x128.size h) (fun _ => rfl)).view.writes (Elt F) fo
        [⟨Rect.whole (Rect.unit (s := S327680x128) (k0_off2 L 9472#32) S64x128.size h).shape, pp⟩]) :=
  outIs_of_copy_at L X3d Wc 148 9472 (by omega) _ h (Cert.OffsetFacts.Kernel.k0_off2_lit_15 L) fo pp hB

/-- Outside the loop: the constant offset 9792 names chunk 153. -/
theorem outIs_off2_16 (L : grid0.Coords) (X3d : S32x160x64.Idx → BitVec 32) (Wc : S100000x128.Idx → Elt F .f32)
    (h : ∀ a, (k0_off2 L 9792#32) a + S64x128.size a ≤ S327680x128.size a) (fo : S327680x128.Idx → Elt F .f32)
    (pp : (Rect.whole (Rect.unit (s := S327680x128) (k0_off2 L 9792#32) S64x128.size h).shape).shape.Idx → Elt F .f32)
    (hB : ChunkIs (widL L) X3d Wc 153 pp) :
    OutIs (widL L) X3d Wc 153 (((Memref.whole main_v1_scv).slice (Rect.unit (s := S327680x128) (k0_off2 L 9792#32) S64x128.size h) (fun _ => rfl)).view.writes (Elt F) fo
        [⟨Rect.whole (Rect.unit (s := S327680x128) (k0_off2 L 9792#32) S64x128.size h).shape, pp⟩]) :=
  outIs_of_copy_at L X3d Wc 153 9792 (by omega) _ h (Cert.OffsetFacts.Kernel.k0_off2_lit_16 L) fo pp hB

/-- Outside the loop: the constant offset 9536 names chunk 149. -/
theorem outIs_off2_17 (L : grid0.Coords) (X3d : S32x160x64.Idx → BitVec 32) (Wc : S100000x128.Idx → Elt F .f32)
    (h : ∀ a, (k0_off2 L 9536#32) a + S64x128.size a ≤ S327680x128.size a) (fo : S327680x128.Idx → Elt F .f32)
    (pp : (Rect.whole (Rect.unit (s := S327680x128) (k0_off2 L 9536#32) S64x128.size h).shape).shape.Idx → Elt F .f32)
    (hB : ChunkIs (widL L) X3d Wc 149 pp) :
    OutIs (widL L) X3d Wc 149 (((Memref.whole main_v1_scv).slice (Rect.unit (s := S327680x128) (k0_off2 L 9536#32) S64x128.size h) (fun _ => rfl)).view.writes (Elt F) fo
        [⟨Rect.whole (Rect.unit (s := S327680x128) (k0_off2 L 9536#32) S64x128.size h).shape, pp⟩]) :=
  outIs_of_copy_at L X3d Wc 149 9536 (by omega) _ h (Cert.OffsetFacts.Kernel.k0_off2_lit_17 L) fo pp hB

/-- Outside the loop: the constant offset 9856 names chunk 154. -/
theorem outIs_off2_18 (L : grid0.Coords) (X3d : S32x160x64.Idx → BitVec 32) (Wc : S100000x128.Idx → Elt F .f32)
    (h : ∀ a, (k0_off2 L 9856#32) a + S64x128.size a ≤ S327680x128.size a) (fo : S327680x128.Idx → Elt F .f32)
    (pp : (Rect.whole (Rect.unit (s := S327680x128) (k0_off2 L 9856#32) S64x128.size h).shape).shape.Idx → Elt F .f32)
    (hB : ChunkIs (widL L) X3d Wc 154 pp) :
    OutIs (widL L) X3d Wc 154 (((Memref.whole main_v1_scv).slice (Rect.unit (s := S327680x128) (k0_off2 L 9856#32) S64x128.size h) (fun _ => rfl)).view.writes (Elt F) fo
        [⟨Rect.whole (Rect.unit (s := S327680x128) (k0_off2 L 9856#32) S64x128.size h).shape, pp⟩]) :=
  outIs_of_copy_at L X3d Wc 154 9856 (by omega) _ h (Cert.OffsetFacts.Kernel.k0_off2_lit_18 L) fo pp hB

/-- Outside the loop: the constant offset 9920 names chunk 155. -/
theorem outIs_off2_19 (L : grid0.Coords) (X3d : S32x160x64.Idx → BitVec 32) (Wc : S100000x128.Idx → Elt F .f32)
    (h : ∀ a, (k0_off2 L 9920#32) a + S64x128.size a ≤ S327680x128.size a) (fo : S327680x128.Idx → Elt F .f32)
    (pp : (Rect.whole (Rect.unit (s := S327680x128) (k0_off2 L 9920#32) S64x128.size h).shape).shape.Idx → Elt F .f32)
    (hB : ChunkIs (widL L) X3d Wc 155 pp) :
    OutIs (widL L) X3d Wc 155 (((Memref.whole main_v1_scv).slice (Rect.unit (s := S327680x128) (k0_off2 L 9920#32) S64x128.size h) (fun _ => rfl)).view.writes (Elt F) fo
        [⟨Rect.whole (Rect.unit (s := S327680x128) (k0_off2 L 9920#32) S64x128.size h).shape, pp⟩]) :=
  outIs_of_copy_at L X3d Wc 155 9920 (by omega) _ h (Cert.OffsetFacts.Kernel.k0_off2_lit_19 L) fo pp hB

/-- Outside the loop: the constant offset 9984 names chunk 156. -/
theorem outIs_off2_20 (L : grid0.Coords) (X3d : S32x160x64.Idx → BitVec 32) (Wc : S100000x128.Idx → Elt F .f32)
    (h : ∀ a, (k0_off2 L 9984#32) a + S64x128.size a ≤ S327680x128.size a) (fo : S327680x128.Idx → Elt F .f32)
    (pp : (Rect.whole (Rect.unit (s := S327680x128) (k0_off2 L 9984#32) S64x128.size h).shape).shape.Idx → Elt F .f32)
    (hB : ChunkIs (widL L) X3d Wc 156 pp) :
    OutIs (widL L) X3d Wc 156 (((Memref.whole main_v1_scv).slice (Rect.unit (s := S327680x128) (k0_off2 L 9984#32) S64x128.size h) (fun _ => rfl)).view.writes (Elt F) fo
        [⟨Rect.whole (Rect.unit (s := S327680x128) (k0_off2 L 9984#32) S64x128.size h).shape, pp⟩]) :=
  outIs_of_copy_at L X3d Wc 156 9984 (by omega) _ h (Cert.OffsetFacts.Kernel.k0_off2_lit_20 L) fo pp hB

/-- Outside the loop: the constant offset 10048 names chunk 157. -/
theorem outIs_off2_21 (L : grid0.Coords) (X3d : S32x160x64.Idx → BitVec 32) (Wc : S100000x128.Idx → Elt F .f32)
    (h : ∀ a, (k0_off2 L 10048#32) a + S64x128.size a ≤ S327680x128.size a) (fo : S327680x128.Idx → Elt F .f32)
    (pp : (Rect.whole (Rect.unit (s := S327680x128) (k0_off2 L 10048#32) S64x128.size h).shape).shape.Idx → Elt F .f32)
    (hB : ChunkIs (widL L) X3d Wc 157 pp) :
    OutIs (widL L) X3d Wc 157 (((Memref.whole main_v1_scv).slice (Rect.unit (s := S327680x128) (k0_off2 L 10048#32) S64x128.size h) (fun _ => rfl)).view.writes (Elt F) fo
        [⟨Rect.whole (Rect.unit (s := S327680x128) (k0_off2 L 10048#32) S64x128.size h).shape, pp⟩]) :=
  outIs_of_copy_at L X3d Wc 157 10048 (by omega) _ h (Cert.OffsetFacts.Kernel.k0_off2_lit_21 L) fo pp hB

/-- Outside the loop: the constant offset 10112 names chunk 158. -/
theorem outIs_off2_22 (L : grid0.Coords) (X3d : S32x160x64.Idx → BitVec 32) (Wc : S100000x128.Idx → Elt F .f32)
    (h : ∀ a, (k0_off2 L 10112#32) a + S64x128.size a ≤ S327680x128.size a) (fo : S327680x128.Idx → Elt F .f32)
    (pp : (Rect.whole (Rect.unit (s := S327680x128) (k0_off2 L 10112#32) S64x128.size h).shape).shape.Idx → Elt F .f32)
    (hB : ChunkIs (widL L) X3d Wc 158 pp) :
    OutIs (widL L) X3d Wc 158 (((Memref.whole main_v1_scv).slice (Rect.unit (s := S327680x128) (k0_off2 L 10112#32) S64x128.size h) (fun _ => rfl)).view.writes (Elt F) fo
        [⟨Rect.whole (Rect.unit (s := S327680x128) (k0_off2 L 10112#32) S64x128.size h).shape, pp⟩]) :=
  outIs_of_copy_at L X3d Wc 158 10112 (by omega) _ h (Cert.OffsetFacts.Kernel.k0_off2_lit_22 L) fo pp hB

/-- Outside the loop: the constant offset 10176 names chunk 159. -/
theorem outIs_off2_23 (L : grid0.Coords) (X3d : S32x160x64.Idx → BitVec 32) (Wc : S100000x128.Idx → Elt F .f32)
    (h : ∀ a, (k0_off2 L 10176#32) a + S64x128.size a ≤ S327680x128.size a) (fo : S327680x128.Idx → Elt F .f32)
    (pp : (Rect.whole (Rect.unit (s := S327680x128) (k0_off2 L 10176#32) S64x128.size h).shape).shape.Idx → Elt F .f32)
    (hB : ChunkIs (widL L) X3d Wc 159 pp) :
    OutIs (widL L) X3d Wc 159 (((Memref.whole main_v1_scv).slice (Rect.unit (s := S327680x128) (k0_off2 L 10176#32) S64x128.size h) (fun _ => rfl)).view.writes (Elt F) fo
        [⟨Rect.whole (Rect.unit (s := S327680x128) (k0_off2 L 10176#32) S64x128.size h).shape, pp⟩]) :=
  outIs_of_copy_at L X3d Wc 159 10176 (by omega) _ h (Cert.OffsetFacts.Kernel.k0_off2_lit_23 L) fo pp hB

end Cert.KernelRun

end
-- ==== Proof.KernelRun.Body.lean ====
/-
  One worker's task of the embedding lookup, from its share at the launch contents to its share with the output rows gathered.

  Worker `w` copies row `w` of the re-laid row numbers into its row-number scratch, then serves its 160 chunks of 64 rows through
  ten slots: the rows of the table `W` that chunk `g` names are gathered into slot `g mod 10`'s buffer and the buffer is copied out
  to flat output rows `10240·w + 64·g …`. Each slot has a semaphore for its gathers and one for its copy-outs, and on each at
  most one transfer is ever outstanding; a buffer is touched only between the wait for one transfer and the start of the next.
  The first ten gathers and the first ten copy-outs are started before the main loop, which runs fourteen trips of ten chunks under
  the invariant of Inv.lean; the last ten chunks finish after it. Every row number names a row of the table (the precondition), so
  every gather's list is in range; a gathered buffer holds the rows its chunk names (`ChunkIs`), a copied-out chunk agrees with
  `Cert.Spec.gathered` (`OutIs`), and at the end the 160 chunks, all at that one function, are the worker's whole block.
-/
import proofs.«207499_g15272903704957_cont_week2b_486_20_alg».proof.Proof.KernelRun.Inv
import proofs.«207499_g15272903704957_cont_week2b_486_20_alg».proof.Proof.KernelRun.Scoped
import proofs.«207499_g15272903704957_cont_week2b_486_20_alg».proof.Proof.KernelRun.Values
import proofs.«207499_g15272903704957_cont_week2b_486_20_alg».proof.Proof.KernelRun.TripFacts

noncomputable section

namespace Cert.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S32x160x64 EltTy.i32)
local notation "wM" => (Memref.whole Cert.Kernel.main_arg1_scv : Memref Cert.Kernel.sig Kind.scVector Space.hbm Cert.Kernel.S100000x128 EltTy.f32)
local notation "oM" => (Memref.whole Cert.Kernel.main_v1_scv : Memref Cert.Kernel.sig Kind.scVector Space.hbm Cert.Kernel.S327680x128 EltTy.f32)
local notation "ixM" => (Memref.whole Cert.Kernel.cc0_scratch0 : Memref Cert.Kernel.sig Kind.scVector Space.vmem Cert.Kernel.S160x64 EltTy.i32)
local notation "bM0" => (Memref.whole Cert.Kernel.cc0_scratch1 : Memref Cert.Kernel.sig Kind.scVector Space.vmem Cert.Kernel.S64x128 EltTy.f32)
local notation "bM1" => (Memref.whole Cert.Kernel.cc0_scratch2 : Memref Cert.Kernel.sig Kind.scVector Space.vmem Cert.Kernel.S64x128 EltTy.f32)
local notation "bM2" => (Memref.whole Cert.Kernel.cc0_scratch3 : Memref Cert.Kernel.sig Kind.scVector Space.vmem Cert.Kernel.S64x128 EltTy.f32)
local notation "bM3" => (Memref.whole Cert.Kernel.cc0_scratch4 : Memref Cert.Kernel.sig Kind.scVector Space.vmem Cert.Kernel.S64x128 EltTy.f32)
local notation "bM4" => (Memref.whole Cert.Kernel.cc0_scratch5 : Memref Cert.Kernel.sig Kind.scVector Space.vmem Cert.Kernel.S64x128 EltTy.f32)
local notation "bM5" => (Memref.whole Cert.Kernel.cc0_scratch6 : Memref Cert.Kernel.sig Kind.scVector Space.vmem Cert.Kernel.S64x128 EltTy.f32)
local notation "bM6" => (Memref.whole Cert.Kernel.cc0_scratch7 : Memref Cert.Kernel.sig Kind.scVector Space.vmem Cert.Kernel.S64x128 EltTy.f32)
local notation "bM7" => (Memref.whole Cert.Kernel.cc0_scratch8 : Memref Cert.Kernel.sig Kind.scVector Space.vmem Cert.Kernel.S64x128 EltTy.f32)
local notation "bM8" => (Memref.whole Cert.Kernel.cc0_scratch9 : Memref Cert.Kernel.sig Kind.scVector Space.vmem Cert.Kernel.S64x128 EltTy.f32)
local notation "bM9" => (Memref.whole Cert.Kernel.cc0_scratch10 : Memref Cert.Kernel.sig Kind.scVector Space.vmem Cert.Kernel.S64x128 EltTy.f32)

/-! ## Chunk pieces in the program's spelling -/

theorem bigSep_range10 (Φ : ℕ → sProp 𝕄) :
    bigSep (Finset.range 10) Φ = iprop(Φ 0 ∗ Φ 1 ∗ Φ 2 ∗ Φ 3 ∗ Φ 4 ∗ Φ 5 ∗ Φ 6 ∗ Φ 7 ∗ Φ 8 ∗ Φ 9) := by
  rw [show Finset.range 10 = {0, 1, 2, 3, 4, 5, 6, 7, 8, 9} by decide]
  repeat rw [SparseCore.bigSep_insert' (by decide)]
  rw [bigSep_singleton]

theorem piece_off2_0 (d : Dev nD) (L : grid0.Coords) (f : Buf (Elt F) (oLoc d)) :
    ((((oM).slice (Rect.unit (s := S327680x128) (k0_off2 L 0#32) S64x128.size (k0_off2_inb L 0)) (fun _ => rfl)).view.loc (V d (cV L) (jV L)) ↦[((oM).slice (Rect.unit (s := S327680x128) (k0_off2 L 0#32) S64x128.size (k0_off2_inb L 0)) (fun _ => rfl)).view.set]{fullShare} f : sProp 𝕄)) = piece d (widL L) f 0 := by
  rw [set_off2_0 L, oChunkC_set, piece_of_lt]
theorem piece_off2_1 (d : Dev nD) (L : grid0.Coords) (f : Buf (Elt F) (oLoc d)) :
    ((((oM).slice (Rect.unit (s := S327680x128) (k0_off2 L 64#32) S64x128.size (k0_off2_inb L 1)) (fun _ => rfl)).view.loc (V d (cV L) (jV L)) ↦[((oM).slice (Rect.unit (s := S327680x128) (k0_off2 L 64#32) S64x128.size (k0_off2_inb L 1)) (fun _ => rfl)).view.set]{fullShare} f : sProp 𝕄)) = piece d (widL L) f 1 := by
  rw [set_off2_1 L, oChunkC_set, piece_of_lt]
theorem piece_off2_2 (d : Dev nD) (L : grid0.Coords) (f : Buf (Elt F) (oLoc d)) :
    ((((oM).slice (Rect.unit (s := S327680x128) (k0_off2 L 128#32) S64x128.size (k0_off2_inb L 2)) (fun _ => rfl)).view.loc (V d (cV L) (jV L)) ↦[((oM).slice (Rect.unit (s := S327680x128) (k0_off2 L 128#32) S64x128.size (k0_off2_inb L 2)) (fun _ => rfl)).view.set]{fullShare} f : sProp 𝕄)) = piece d (widL L) f 2 := by
  rw [set_off2_2 L, oChunkC_set, piece_of_lt]
theorem piece_off2_3 (d : Dev nD) (L : grid0.Coords) (f : Buf (Elt F) (oLoc d)) :
    ((((oM).slice (Rect.unit (s := S327680x128) (k0_off2 L 192#32) S64x128.size (k0_off2_inb L 3)) (fun _ => rfl)).view.loc (V d (cV L) (jV L)) ↦[((oM).slice (Rect.unit (s := S327680x128) (k0_off2 L 192#32) S64x128.size (k0_off2_inb L 3)) (fun _ => rfl)).view.set]{fullShare} f : sProp 𝕄)) = piece d (widL L) f 3 := by
  rw [set_off2_3 L, oChunkC_set, piece_of_lt]
theorem piece_off2_4 (d : Dev nD) (L : grid0.Coords) (f : Buf (Elt F) (oLoc d)) :
    ((((oM).slice (Rect.unit (s := S327680x128) (k0_off2 L 256#32) S64x128.size (k0_off2_inb L 4)) (fun _ => rfl)).view.loc (V d (cV L) (jV L)) ↦[((oM).slice (Rect.unit (s := S327680x128) (k0_off2 L 256#32) S64x128.size (k0_off2_inb L 4)) (fun _ => rfl)).view.set]{fullShare} f : sProp 𝕄)) = piece d (widL L) f 4 := by
  rw [set_off2_4 L, oChunkC_set, piece_of_lt]
theorem piece_off2_5 (d : Dev nD) (L : grid0.Coords) (f : Buf (Elt F) (oLoc d)) :
    ((((oM).slice (Rect.unit (s := S327680x128) (k0_off2 L 320#32) S64x128.size (k0_off2_inb L 5)) (fun _ => rfl)).view.loc (V d (cV L) (jV L)) ↦[((oM).slice (Rect.unit (s := S327680x128) (k0_off2 L 320#32) S64x128.size (k0_off2_inb L 5)) (fun _ => rfl)).view.set]{fullShare} f : sProp 𝕄)) = piece d (widL L) f 5 := by
  rw [set_off2_5 L, oChunkC_set, piece_of_lt]
theorem piece_off2_6 (d : Dev nD) (L : grid0.Coords) (f : Buf (Elt F) (oLoc d)) :
    ((((oM).slice (Rect.unit (s := S327680x128) (k0_off2 L 384#32) S64x128.size (k0_off2_inb L 6)) (fun _ => rfl)).view.loc (V d (cV L) (jV L)) ↦[((oM).slice (Rect.unit (s := S327680x128) (k0_off2 L 384#32) S64x128.size (k0_off2_inb L 6)) (fun _ => rfl)).view.set]{fullShare} f : sProp 𝕄)) = piece d (widL L) f 6 := by
  rw [set_off2_6 L, oChunkC_set, piece_of_lt]
theorem piece_off2_7 (d : Dev nD) (L : grid0.Coords) (f : Buf (Elt F) (oLoc d)) :
    ((((oM).slice (Rect.unit (s := S327680x128) (k0_off2 L 448#32) S64x128.size (k0_off2_inb L 7)) (fun _ => rfl)).view.loc (V d (cV L) (jV L)) ↦[((oM).slice (Rect.unit (s := S327680x128) (k0_off2 L 448#32) S64x128.size (k0_off2_inb L 7)) (fun _ => rfl)).view.set]{fullShare} f : sProp 𝕄)) = piece d (widL L) f 7 := by
  rw [set_off2_7 L, oChunkC_set, piece_of_lt]
theorem piece_off2_8 (d : Dev nD) (L : grid0.Coords) (f : Buf (Elt F) (oLoc d)) :
    ((((oM).slice (Rect.unit (s := S327680x128) (k0_off2 L 512#32) S64x128.size (k0_off2_inb L 8)) (fun _ => rfl)).view.loc (V d (cV L) (jV L)) ↦[((oM).slice (Rect.unit (s := S327680x128) (k0_off2 L 512#32) S64x128.size (k0_off2_inb L 8)) (fun _ => rfl)).view.set]{fullShare} f : sProp 𝕄)) = piece d (widL L) f 8 := by
  rw [set_off2_8 L, oChunkC_set, piece_of_lt]
theorem piece_off2_9 (d : Dev nD) (L : grid0.Coords) (f : Buf (Elt F) (oLoc d)) :
    ((((oM).slice (Rect.unit (s := S327680x128) (k0_off2 L 576#32) S64x128.size (k0_off2_inb L 9)) (fun _ => rfl)).view.loc (V d (cV L) (jV L)) ↦[((oM).slice (Rect.unit (s := S327680x128) (k0_off2 L 576#32) S64x128.size (k0_off2_inb L 9)) (fun _ => rfl)).view.set]{fullShare} f : sProp 𝕄)) = piece d (widL L) f 9 := by
  rw [set_off2_9 L, oChunkC_set, piece_of_lt]
theorem piece_off2_10 (d : Dev nD) (L : grid0.Coords) (f : Buf (Elt F) (oLoc d)) :
    ((((oM).slice (Rect.unit (s := S327680x128) (k0_off2 L 9600#32) S64x128.size (k0_off2_inb L 10)) (fun _ => rfl)).view.loc (V d (cV L) (jV L)) ↦[((oM).slice (Rect.unit (s := S327680x128) (k0_off2 L 9600#32) S64x128.size (k0_off2_inb L 10)) (fun _ => rfl)).view.set]{fullShare} f : sProp 𝕄)) = piece d (widL L) f 150 := by
  rw [set_off2_10 L, oChunkC_set, piece_of_lt]
theorem piece_off2_11 (d : Dev nD) (L : grid0.Coords) (f : Buf (Elt F) (oLoc d)) :
    ((((oM).slice (Rect.unit (s := S327680x128) (k0_off2 L 9344#32) S64x128.size (k0_off2_inb L 11)) (fun _ => rfl)).view.loc (V d (cV L) (jV L)) ↦[((oM).slice (Rect.unit (s := S327680x128) (k0_off2 L 9344#32) S64x128.size (k0_off2_inb L 11)) (fun _ => rfl)).view.set]{fullShare} f : sProp 𝕄)) = piece d (widL L) f 146 := by
  rw [set_off2_11 L, oChunkC_set, piece_of_lt]
theorem piece_off2_12 (d : Dev nD) (L : grid0.Coords) (f : Buf (Elt F) (oLoc d)) :
    ((((oM).slice (Rect.unit (s := S327680x128) (k0_off2 L 9664#32) S64x128.size (k0_off2_inb L 12)) (fun _ => rfl)).view.loc (V d (cV L) (jV L)) ↦[((oM).slice (Rect.unit (s := S327680x128) (k0_off2 L 9664#32) S64x128.size (k0_off2_inb L 12)) (fun _ => rfl)).view.set]{fullShare} f : sProp 𝕄)) = piece d (widL L) f 151 := by
  rw [set_off2_12 L, oChunkC_set, piece_of_lt]
theorem piece_off2_13 (d : Dev nD) (L : grid0.Coords) (f : Buf (Elt F) (oLoc d)) :
    ((((oM).slice (Rect.unit (s := S327680x128) (k0_off2 L 9408#32) S64x128.size (k0_off2_inb L 13)) (fun _ => rfl)).view.loc (V d (cV L) (jV L)) ↦[((oM).slice (Rect.unit (s := S327680x128) (k0_off2 L 9408#32) S64x128.size (k0_off2_inb L 13)) (fun _ => rfl)).view.set]{fullShare} f : sProp 𝕄)) = piece d (widL L) f 147 := by
  rw [set_off2_13 L, oChunkC_set, piece_of_lt]
theorem piece_off2_14 (d : Dev nD) (L : grid0.Coords) (f : Buf (Elt F) (oLoc d)) :
    ((((oM).slice (Rect.unit (s := S327680x128) (k0_off2 L 9728#32) S64x128.size (k0_off2_inb L 14)) (fun _ => rfl)).view.loc (V d (cV L) (jV L)) ↦[((oM).slice (Rect.unit (s := S327680x128) (k0_off2 L 9728#32) S64x128.size (k0_off2_inb L 14)) (fun _ => rfl)).view.set]{fullShare} f : sProp 𝕄)) = piece d (widL L) f 152 := by
  rw [set_off2_14 L, oChunkC_set, piece_of_lt]
theorem piece_off2_15 (d : Dev nD) (L : grid0.Coords) (f : Buf (Elt F) (oLoc d)) :
    ((((oM).slice (Rect.unit (s := S327680x128) (k0_off2 L 9472#32) S64x128.size (k0_off2_inb L 15)) (fun _ => rfl)).view.loc (V d (cV L) (jV L)) ↦[((oM).slice (Rect.unit (s := S327680x128) (k0_off2 L 9472#32) S64x128.size (k0_off2_inb L 15)) (fun _ => rfl)).view.set]{fullShare} f : sProp 𝕄)) = piece d (widL L) f 148 := by
  rw [set_off2_15 L, oChunkC_set, piece_of_lt]
theorem piece_off2_16 (d : Dev nD) (L : grid0.Coords) (f : Buf (Elt F) (oLoc d)) :
    ((((oM).slice (Rect.unit (s := S327680x128) (k0_off2 L 9792#32) S64x128.size (k0_off2_inb L 16)) (fun _ => rfl)).view.loc (V d (cV L) (jV L)) ↦[((oM).slice (Rect.unit (s := S327680x128) (k0_off2 L 9792#32) S64x128.size (k0_off2_inb L 16)) (fun _ => rfl)).view.set]{fullShare} f : sProp 𝕄)) = piece d (widL L) f 153 := by
  rw [set_off2_16 L, oChunkC_set, piece_of_lt]
theorem piece_off2_17 (d : Dev nD) (L : grid0.Coords) (f : Buf (Elt F) (oLoc d)) :
    ((((oM).slice (Rect.unit (s := S327680x128) (k0_off2 L 9536#32) S64x128.size (k0_off2_inb L 17)) (fun _ => rfl)).view.loc (V d (cV L) (jV L)) ↦[((oM).slice (Rect.unit (s := S327680x128) (k0_off2 L 9536#32) S64x128.size (k0_off2_inb L 17)) (fun _ => rfl)).view.set]{fullShare} f : sProp 𝕄)) = piece d (widL L) f 149 := by
  rw [set_off2_17 L, oChunkC_set, piece_of_lt]
theorem piece_off2_18 (d : Dev nD) (L : grid0.Coords) (f : Buf (Elt F) (oLoc d)) :
    ((((oM).slice (Rect.unit (s := S327680x128) (k0_off2 L 9856#32) S64x128.size (k0_off2_inb L 18)) (fun _ => rfl)).view.loc (V d (cV L) (jV L)) ↦[((oM).slice (Rect.unit (s := S327680x128) (k0_off2 L 9856#32) S64x128.size (k0_off2_inb L 18)) (fun _ => rfl)).view.set]{fullShare} f : sProp 𝕄)) = piece d (widL L) f 154 := by
  rw [set_off2_18 L, oChunkC_set, piece_of_lt]
theorem piece_off2_19 (d : Dev nD) (L : grid0.Coords) (f : Buf (Elt F) (oLoc d)) :
    ((((oM).slice (Rect.unit (s := S327680x128) (k0_off2 L 9920#32) S64x128.size (k0_off2_inb L 19)) (fun _ => rfl)).view.loc (V d (cV L) (jV L)) ↦[((oM).slice (Rect.unit (s := S327680x128) (k0_off2 L 9920#32) S64x128.size (k0_off2_inb L 19)) (fun _ => rfl)).view.set]{fullShare} f : sProp 𝕄)) = piece d (widL L) f 155 := by
  rw [set_off2_19 L, oChunkC_set, piece_of_lt]
theorem piece_off2_20 (d : Dev nD) (L : grid0.Coords) (f : Buf (Elt F) (oLoc d)) :
    ((((oM).slice (Rect.unit (s := S327680x128) (k0_off2 L 9984#32) S64x128.size (k0_off2_inb L 20)) (fun _ => rfl)).view.loc (V d (cV L) (jV L)) ↦[((oM).slice (Rect.unit (s := S327680x128) (k0_off2 L 9984#32) S64x128.size (k0_off2_inb L 20)) (fun _ => rfl)).view.set]{fullShare} f : sProp 𝕄)) = piece d (widL L) f 156 := by
  rw [set_off2_20 L, oChunkC_set, piece_of_lt]
theorem piece_off2_21 (d : Dev nD) (L : grid0.Coords) (f : Buf (Elt F) (oLoc d)) :
    ((((oM).slice (Rect.unit (s := S327680x128) (k0_off2 L 10048#32) S64x128.size (k0_off2_inb L 21)) (fun _ => rfl)).view.loc (V d (cV L) (jV L)) ↦[((oM).slice (Rect.unit (s := S327680x128) (k0_off2 L 10048#32) S64x128.size (k0_off2_inb L 21)) (fun _ => rfl)).view.set]{fullShare} f : sProp 𝕄)) = piece d (widL L) f 157 := by
  rw [set_off2_21 L, oChunkC_set, piece_of_lt]
theorem piece_off2_22 (d : Dev nD) (L : grid0.Coords) (f : Buf (Elt F) (oLoc d)) :
    ((((oM).slice (Rect.unit (s := S327680x128) (k0_off2 L 10112#32) S64x128.size (k0_off2_inb L 22)) (fun _ => rfl)).view.loc (V d (cV L) (jV L)) ↦[((oM).slice (Rect.unit (s := S327680x128) (k0_off2 L 10112#32) S64x128.size (k0_off2_inb L 22)) (fun _ => rfl)).view.set]{fullShare} f : sProp 𝕄)) = piece d (widL L) f 158 := by
  rw [set_off2_22 L, oChunkC_set, piece_of_lt]
theorem piece_off2_23 (d : Dev nD) (L : grid0.Coords) (f : Buf (Elt F) (oLoc d)) :
    ((((oM).slice (Rect.unit (s := S327680x128) (k0_off2 L 10176#32) S64x128.size (k0_off2_inb L 23)) (fun _ => rfl)).view.loc (V d (cV L) (jV L)) ↦[((oM).slice (Rect.unit (s := S327680x128) (k0_off2 L 10176#32) S64x128.size (k0_off2_inb L 23)) (fun _ => rfl)).view.set]{fullShare} f : sProp 𝕄)) = piece d (widL L) f 159 := by
  rw [set_off2_23 L, oChunkC_set, piece_of_lt]

theorem piece_off4_0 (d : Dev nD) (L : grid0.Coords) (k : Fin k0_t1_loop.trips) (f : Buf (Elt F) (oLoc d)) :
    ((((oM).slice (Rect.unit (s := S327680x128) (k0_off4 L k 0#32) S64x128.size (k0_off4_inb L k 0)) (fun _ => rfl)).view.loc (V d (cV L) (jV L)) ↦[((oM).slice (Rect.unit (s := S327680x128) (k0_off4 L k 0#32) S64x128.size (k0_off4_inb L k 0)) (fun _ => rfl)).view.set]{fullShare} f : sProp 𝕄)) = piece d (widL L) f (10 * k.val + 0 + 10) := by
  rw [set_off4_0 L k, oChunkC_set, piece_of_lt]
theorem piece_off4_1 (d : Dev nD) (L : grid0.Coords) (k : Fin k0_t1_loop.trips) (f : Buf (Elt F) (oLoc d)) :
    ((((oM).slice (Rect.unit (s := S327680x128) (k0_off4 L k 1#32) S64x128.size (k0_off4_inb L k 1)) (fun _ => rfl)).view.loc (V d (cV L) (jV L)) ↦[((oM).slice (Rect.unit (s := S327680x128) (k0_off4 L k 1#32) S64x128.size (k0_off4_inb L k 1)) (fun _ => rfl)).view.set]{fullShare} f : sProp 𝕄)) = piece d (widL L) f (10 * k.val + 1 + 10) := by
  rw [set_off4_1 L k, oChunkC_set, piece_of_lt]
theorem piece_off4_2 (d : Dev nD) (L : grid0.Coords) (k : Fin k0_t1_loop.trips) (f : Buf (Elt F) (oLoc d)) :
    ((((oM).slice (Rect.unit (s := S327680x128) (k0_off4 L k 2#32) S64x128.size (k0_off4_inb L k 2)) (fun _ => rfl)).view.loc (V d (cV L) (jV L)) ↦[((oM).slice (Rect.unit (s := S327680x128) (k0_off4 L k 2#32) S64x128.size (k0_off4_inb L k 2)) (fun _ => rfl)).view.set]{fullShare} f : sProp 𝕄)) = piece d (widL L) f (10 * k.val + 2 + 10) := by
  rw [set_off4_2 L k, oChunkC_set, piece_of_lt]
theorem piece_off4_3 (d : Dev nD) (L : grid0.Coords) (k : Fin k0_t1_loop.trips) (f : Buf (Elt F) (oLoc d)) :
    ((((oM).slice (Rect.unit (s := S327680x128) (k0_off4 L k 3#32) S64x128.size (k0_off4_inb L k 3)) (fun _ => rfl)).view.loc (V d (cV L) (jV L)) ↦[((oM).slice (Rect.unit (s := S327680x128) (k0_off4 L k 3#32) S64x128.size (k0_off4_inb L k 3)) (fun _ => rfl)).view.set]{fullShare} f : sProp 𝕄)) = piece d (widL L) f (10 * k.val + 3 + 10) := by
  rw [set_off4_3 L k, oChunkC_set, piece_of_lt]
theorem piece_off4_4 (d : Dev nD) (L : grid0.Coords) (k : Fin k0_t1_loop.trips) (f : Buf (Elt F) (oLoc d)) :
    ((((oM).slice (Rect.unit (s := S327680x128) (k0_off4 L k 4#32) S64x128.size (k0_off4_inb L k 4)) (fun _ => rfl)).view.loc (V d (cV L) (jV L)) ↦[((oM).slice (Rect.unit (s := S327680x128) (k0_off4 L k 4#32) S64x128.size (k0_off4_inb L k 4)) (fun _ => rfl)).view.set]{fullShare} f : sProp 𝕄)) = piece d (widL L) f (10 * k.val + 4 + 10) := by
  rw [set_off4_4 L k, oChunkC_set, piece_of_lt]
theorem piece_off4_5 (d : Dev nD) (L : grid0.Coords) (k : Fin k0_t1_loop.trips) (f : Buf (Elt F) (oLoc d)) :
    ((((oM).slice (Rect.unit (s := S327680x128) (k0_off4 L k 5#32) S64x128.size (k0_off4_inb L k 5)) (fun _ => rfl)).view.loc (V d (cV L) (jV L)) ↦[((oM).slice (Rect.unit (s := S327680x128) (k0_off4 L k 5#32) S64x128.size (k0_off4_inb L k 5)) (fun _ => rfl)).view.set]{fullShare} f : sProp 𝕄)) = piece d (widL L) f (10 * k.val + 5 + 10) := by
  rw [set_off4_5 L k, oChunkC_set, piece_of_lt]
theorem piece_off4_6 (d : Dev nD) (L : grid0.Coords) (k : Fin k0_t1_loop.trips) (f : Buf (Elt F) (oLoc d)) :
    ((((oM).slice (Rect.unit (s := S327680x128) (k0_off4 L k 6#32) S64x128.size (k0_off4_inb L k 6)) (fun _ => rfl)).view.loc (V d (cV L) (jV L)) ↦[((oM).slice (Rect.unit (s := S327680x128) (k0_off4 L k 6#32) S64x128.size (k0_off4_inb L k 6)) (fun _ => rfl)).view.set]{fullShare} f : sProp 𝕄)) = piece d (widL L) f (10 * k.val + 6 + 10) := by
  rw [set_off4_6 L k, oChunkC_set, piece_of_lt]
theorem piece_off4_7 (d : Dev nD) (L : grid0.Coords) (k : Fin k0_t1_loop.trips) (f : Buf (Elt F) (oLoc d)) :
    ((((oM).slice (Rect.unit (s := S327680x128) (k0_off4 L k 7#32) S64x128.size (k0_off4_inb L k 7)) (fun _ => rfl)).view.loc (V d (cV L) (jV L)) ↦[((oM).slice (Rect.unit (s := S327680x128) (k0_off4 L k 7#32) S64x128.size (k0_off4_inb L k 7)) (fun _ => rfl)).view.set]{fullShare} f : sProp 𝕄)) = piece d (widL L) f (10 * k.val + 7 + 10) := by
  rw [set_off4_7 L k, oChunkC_set, piece_of_lt]
theorem piece_off4_8 (d : Dev nD) (L : grid0.Coords) (k : Fin k0_t1_loop.trips) (f : Buf (Elt F) (oLoc d)) :
    ((((oM).slice (Rect.unit (s := S327680x128) (k0_off4 L k 8#32) S64x128.size (k0_off4_inb L k 8)) (fun _ => rfl)).view.loc (V d (cV L) (jV L)) ↦[((oM).slice (Rect.unit (s := S327680x128) (k0_off4 L k 8#32) S64x128.size (k0_off4_inb L k 8)) (fun _ => rfl)).view.set]{fullShare} f : sProp 𝕄)) = piece d (widL L) f (10 * k.val + 8 + 10) := by
  rw [set_off4_8 L k, oChunkC_set, piece_of_lt]
theorem piece_off4_9 (d : Dev nD) (L : grid0.Coords) (k : Fin k0_t1_loop.trips) (f : Buf (Elt F) (oLoc d)) :
    ((((oM).slice (Rect.unit (s := S327680x128) (k0_off4 L k 9#32) S64x128.size (k0_off4_inb L k 9)) (fun _ => rfl)).view.loc (V d (cV L) (jV L)) ↦[((oM).slice (Rect.unit (s := S327680x128) (k0_off4 L k 9#32) S64x128.size (k0_off4_inb L k 9)) (fun _ => rfl)).view.set]{fullShare} f : sProp 𝕄)) = piece d (widL L) f (10 * k.val + 9 + 10) := by
  rw [set_off4_9 L k, oChunkC_set, piece_of_lt]

theorem piece_chunkC (d : Dev nD) (L : grid0.Coords) (g : ℕ) (hg : g < 160) (f : Buf (Elt F) (oLoc d)) :
    (((oChunkC L g hg).view.loc (V d (cV L) (jV L)) ↦[(oChunkC L g hg).view.set]{fullShare} f : sProp 𝕄)) = piece d (widL L) f g := by
  rw [oChunkC_set, piece_of_lt]

theorem piece_chunkC' (d : Dev nD) (L : grid0.Coords) (g : ℕ) (hg : g < 160) (f : Buf (Elt F) (oLoc d)) :
    (((oM).view.loc (V d (cV L) (jV L)) ↦[(oChunkC L g hg).view.set]{fullShare} f : sProp 𝕄)) = piece d (widL L) f g := by
  rw [oChunkC_set, piece_of_lt]

variable [FloatOps F]

/-! ## The worker's share in the thread's spelling -/

omit [FloatOps F] in
theorem pts_x3 (d : Dev nD) (L : grid0.Coords) (f : Buf (Elt F) (x3Loc d)) :
    (((x3RowM L).view.loc (V d (cV L) (jV L)) ↦[(x3RowM L).view.set]{fullShare} f : sProp 𝕄)) = (x3Loc d ↦[x3Set d (widL L)]{fullShare} f) := by
  rw [x3Row_set d L]
omit [FloatOps F] in
theorem pts_w (d : Dev nD) (L : grid0.Coords) (q : PosShare TreeShare) (f : Buf (Elt F) (wLoc d)) :
    (((wM).view.loc (V d (cV L) (jV L)) ↦{q} f : sProp 𝕄)) = (wLoc d ↦{q} f) := by
  simp only [Memref.view_whole, View.set_whole]

/-! ## Ranges of chunk numbers written out -/

omit [FloatOps F] in
/-- The naturals below `n + 4`: those below `n`, then four written out. -/
theorem bigSep_range_succ4 {Φ : ℕ → sProp 𝕄} (n : ℕ) :
    bigSep (Finset.range (n + 4)) Φ = iprop(bigSep (Finset.range n) Φ ∗ Φ n ∗ Φ (n + 1) ∗ Φ (n + 2) ∗ Φ (n + 3)) := by
  rw [Finset.range_eq_Ico, bigSep_Ico_split 0 n (n + 4) (Nat.zero_le _) (Nat.le_add_right _ _),
    bigSep_Ico_succ (show n < n + 4 by omega), bigSep_Ico_succ (show n + 1 < n + 4 by omega),
    bigSep_Ico_succ (show n + 1 + 1 < n + 4 by omega), show n + 4 = n + 1 + 1 + 1 + 1 from rfl, bigSep_Ico_one,
    ← Finset.range_eq_Ico]

omit [FloatOps F] in
/-- A worker's 160 chunks: those below 146, then the fourteen from 146 on written out. -/
theorem bigSep_range160 {Φ : ℕ → sProp 𝕄} :
    bigSep (Finset.range 160) Φ
      = iprop((bigSep (Finset.range 146) Φ ∗ Φ 146 ∗ Φ 147 ∗ Φ 148 ∗ Φ 149) ∗
          Φ 150 ∗ Φ 151 ∗ Φ 152 ∗ Φ 153 ∗ Φ 154 ∗ Φ 155 ∗ Φ 156 ∗ Φ 157 ∗ Φ 158 ∗ Φ 159) := by
  rw [show (160 : ℕ) = 150 + 10 from rfl, bigSep_range_succ10 150, show (150 : ℕ) = 146 + 4 from rfl, bigSep_range_succ4 146]

/-! ## Helpers for the loop's entry -/

omit [FloatOps F] in
theorem bigSep_range6 (Φ : ℕ → sProp 𝕄) :
    bigSep (Finset.range 6) Φ = iprop(Φ 0 ∗ Φ 1 ∗ Φ 2 ∗ Φ 3 ∗ Φ 4 ∗ Φ 5) := by
  rw [show Finset.range 6 = {0, 1, 2, 3, 4, 5} by decide]
  repeat rw [SparseCore.bigSep_insert' (by decide)]
  rw [bigSep_singleton]

omit [FloatOps F] in
/-- Chunk 0, written out and agreeing with the target on its rows, is the done piece 0. -/
theorem done_off2_0 (d : Dev nD) (L : grid0.Coords) (X3d : Buf (Elt F) (x3Loc d)) (Wc : Buf (Elt F) (wLoc d)) (f : Buf (Elt F) (oLoc d))
    (hf : OutIs (widL L) X3d Wc 0 f) :
    ((((oM).slice (Rect.unit (s := S327680x128) (k0_off2 L 0#32) S64x128.size (k0_off2_inb L 0)) (fun _ => rfl)).view.loc (V d (cV L) (jV L)) ↦[((oM).slice (Rect.unit (s := S327680x128) (k0_off2 L 0#32) S64x128.size (k0_off2_inb L 0)) (fun _ => rfl)).view.set]{fullShare} f : sProp 𝕄))
      ⊢ piece d (widL L) (Cert.Spec.gathered X3d Wc) 0 :=
  Entails.of_eq ((piece_off2_0 d L f).trans (piece_done d L X3d Wc 0 f hf))
omit [FloatOps F] in
/-- Chunk 1, written out and agreeing with the target on its rows, is the done piece 1. -/
theorem done_off2_1 (d : Dev nD) (L : grid0.Coords) (X3d : Buf (Elt F) (x3Loc d)) (Wc : Buf (Elt F) (wLoc d)) (f : Buf (Elt F) (oLoc d))
    (hf : OutIs (widL L) X3d Wc 1 f) :
    ((((oM).slice (Rect.unit (s := S327680x128) (k0_off2 L 64#32) S64x128.size (k0_off2_inb L 1)) (fun _ => rfl)).view.loc (V d (cV L) (jV L)) ↦[((oM).slice (Rect.unit (s := S327680x128) (k0_off2 L 64#32) S64x128.size (k0_off2_inb L 1)) (fun _ => rfl)).view.set]{fullShare} f : sProp 𝕄))
      ⊢ piece d (widL L) (Cert.Spec.gathered X3d Wc) 1 :=
  Entails.of_eq ((piece_off2_1 d L f).trans (piece_done d L X3d Wc 1 f hf))
omit [FloatOps F] in
/-- Chunk 2, written out and agreeing with the target on its rows, is the done piece 2. -/
theorem done_off2_2 (d : Dev nD) (L : grid0.Coords) (X3d : Buf (Elt F) (x3Loc d)) (Wc : Buf (Elt F) (wLoc d)) (f : Buf (Elt F) (oLoc d))
    (hf : OutIs (widL L) X3d Wc 2 f) :
    ((((oM).slice (Rect.unit (s := S327680x128) (k0_off2 L 128#32) S64x128.size (k0_off2_inb L 2)) (fun _ => rfl)).view.loc (V d (cV L) (jV L)) ↦[((oM).slice (Rect.unit (s := S327680x128) (k0_off2 L 128#32) S64x128.size (k0_off2_inb L 2)) (fun _ => rfl)).view.set]{fullShare} f : sProp 𝕄))
      ⊢ piece d (widL L) (Cert.Spec.gathered X3d Wc) 2 :=
  Entails.of_eq ((piece_off2_2 d L f).trans (piece_done d L X3d Wc 2 f hf))
omit [FloatOps F] in
/-- Chunk 3, written out and agreeing with the target on its rows, is the done piece 3. -/
theorem done_off2_3 (d : Dev nD) (L : grid0.Coords) (X3d : Buf (Elt F) (x3Loc d)) (Wc : Buf (Elt F) (wLoc d)) (f : Buf (Elt F) (oLoc d))
    (hf : OutIs (widL L) X3d Wc 3 f) :
    ((((oM).slice (Rect.unit (s := S327680x128) (k0_off2 L 192#32) S64x128.size (k0_off2_inb L 3)) (fun _ => rfl)).view.loc (V d (cV L) (jV L)) ↦[((oM).slice (Rect.unit (s := S327680x128) (k0_off2 L 192#32) S64x128.size (k0_off2_inb L 3)) (fun _ => rfl)).view.set]{fullShare} f : sProp 𝕄))
      ⊢ piece d (widL L) (Cert.Spec.gathered X3d Wc) 3 :=
  Entails.of_eq ((piece_off2_3 d L f).trans (piece_done d L X3d Wc 3 f hf))
omit [FloatOps F] in
/-- Chunk 4, written out and agreeing with the target on its rows, is the done piece 4. -/
theorem done_off2_4 (d : Dev nD) (L : grid0.Coords) (X3d : Buf (Elt F) (x3Loc d)) (Wc : Buf (Elt F) (wLoc d)) (f : Buf (Elt F) (oLoc d))
    (hf : OutIs (widL L) X3d Wc 4 f) :
    ((((oM).slice (Rect.unit (s := S327680x128) (k0_off2 L 256#32) S64x128.size (k0_off2_inb L 4)) (fun _ => rfl)).view.loc (V d (cV L) (jV L)) ↦[((oM).slice (Rect.unit (s := S327680x128) (k0_off2 L 256#32) S64x128.size (k0_off2_inb L 4)) (fun _ => rfl)).view.set]{fullShare} f : sProp 𝕄))
      ⊢ piece d (widL L) (Cert.Spec.gathered X3d Wc) 4 :=
  Entails.of_eq ((piece_off2_4 d L f).trans (piece_done d L X3d Wc 4 f hf))
omit [FloatOps F] in
/-- Chunk 5, written out and agreeing with the target on its rows, is the done piece 5. -/
theorem done_off2_5 (d : Dev nD) (L : grid0.Coords) (X3d : Buf (Elt F) (x3Loc d)) (Wc : Buf (Elt F) (wLoc d)) (f : Buf (Elt F) (oLoc d))
    (hf : OutIs (widL L) X3d Wc 5 f) :
    ((((oM).slice (Rect.unit (s := S327680x128) (k0_off2 L 320#32) S64x128.size (k0_off2_inb L 5)) (fun _ => rfl)).view.loc (V d (cV L) (jV L)) ↦[((oM).slice (Rect.unit (s := S327680x128) (k0_off2 L 320#32) S64x128.size (k0_off2_inb L 5)) (fun _ => rfl)).view.set]{fullShare} f : sProp 𝕄))
      ⊢ piece d (widL L) (Cert.Spec.gathered X3d Wc) 5 :=
  Entails.of_eq ((piece_off2_5 d L f).trans (piece_done d L X3d Wc 5 f hf))

set_option maxHeartbeats 4000000 in
/-- One worker's task. -/
theorem tileBody (m : (ℓ : Loc nD τ sig) → Buf (Elt F) ℓ) (X3 : (d : Dev nD) → Buf (Elt F) (x3Loc d))
    (hx3 : ∀ d, Cert.Spec.InRange (X3 d)) : TileBody m X3 := by
  intro d L O W hO
  unfold tileIn tileOut
  rw [(K (F := F)).scopedBufs_V facts d (cV L) (jV L), SparseCore.Cfg.scopedSems0_V (Val := Elt F) d (cV L) (jV L), ownSems0_V, ownBufs_V]
  unfold bodyAt
  iintro ⟨#Hlv, -, ⟨Hx3, Hw, Ho⟩, ⟨⟨%fi, Hi⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩⟩, ⟨Hs0, Hs1, Hs2, Hs3, Hs4, Hs5, Hs6, Hs7, Hs8, Hs9, Hs10, Hs11, Hs12, Hs13, Hs14, Hs15, Hs16, Hs17, Hs18, Hs19, Hs20⟩, HO⟩
  ihave Hmw := ((K (F := F)).mayWaits_none (thr := V d (cV L) (jV L)) hO) $$ Hlv
  ihave Hx3 := (Entails.of_eq (pts_x3 d L (X3 d)).symm) $$ Hx3
  ihave Hw := (Entails.of_eq (pts_w d L (wTok (widL L)) (m (wLoc d))).symm) $$ Hw
  -- the output block as its 160 chunk pieces; the first ten in the program's spelling
  ihave Ho := (Entails.of_eq (block_pieces d (widL L) (m (oLoc d)))) $$ Ho
  ihave Ho := (Entails.of_eq ((bigSep_range_eq_Ico 160).trans (bigSep_Ico_split 0 10 160 (by omega) (by omega)))) $$ Ho
  icases Ho with ⟨Ho, Hpend⟩
  ihave Ho := (Entails.of_eq (bigSep_Ico10 0)) $$ Ho
  icases Ho with ⟨Ho0, Ho1, Ho2, Ho3, Ho4, Ho5, Ho6, Ho7, Ho8, Ho9⟩
  ihave Ho0 := (Entails.of_eq (piece_off2_0 d L (m (oLoc d))).symm) $$ Ho0
  ihave Ho1 := (Entails.of_eq (piece_off2_1 d L (m (oLoc d))).symm) $$ Ho1
  ihave Ho2 := (Entails.of_eq (piece_off2_2 d L (m (oLoc d))).symm) $$ Ho2
  ihave Ho3 := (Entails.of_eq (piece_off2_3 d L (m (oLoc d))).symm) $$ Ho3
  ihave Ho4 := (Entails.of_eq (piece_off2_4 d L (m (oLoc d))).symm) $$ Ho4
  ihave Ho5 := (Entails.of_eq (piece_off2_5 d L (m (oLoc d))).symm) $$ Ho5
  ihave Ho6 := (Entails.of_eq (piece_off2_6 d L (m (oLoc d))).symm) $$ Ho6
  ihave Ho7 := (Entails.of_eq (piece_off2_7 d L (m (oLoc d))).symm) $$ Ho7
  ihave Ho8 := (Entails.of_eq (piece_off2_8 d L (m (oLoc d))).symm) $$ Ho8
  ihave Ho9 := (Entails.of_eq (piece_off2_9 d L (m (oLoc d))).symm) $$ Ho9
  ihave Hi := (Entails.of_eq (show ((((V d (cV L) (jV L)).loc cc0_scratch0 ↦{fullShare} fi) : sProp 𝕄)) = ((ixM).view.loc (V d (cV L) (jV L)) ↦{fullShare} fi) from rfl)) $$ Hi
  ihave Hb0 := (Entails.of_eq (show ((((V d (cV L) (jV L)).loc cc0_scratch1 ↦{fullShare} fb0) : sProp 𝕄)) = ((bM0).view.loc (V d (cV L) (jV L)) ↦{fullShare} fb0) from rfl)) $$ Hb0
  ihave Hb1 := (Entails.of_eq (show ((((V d (cV L) (jV L)).loc cc0_scratch2 ↦{fullShare} fb1) : sProp 𝕄)) = ((bM1).view.loc (V d (cV L) (jV L)) ↦{fullShare} fb1) from rfl)) $$ Hb1
  ihave Hb2 := (Entails.of_eq (show ((((V d (cV L) (jV L)).loc cc0_scratch3 ↦{fullShare} fb2) : sProp 𝕄)) = ((bM2).view.loc (V d (cV L) (jV L)) ↦{fullShare} fb2) from rfl)) $$ Hb2
  ihave Hb3 := (Entails.of_eq (show ((((V d (cV L) (jV L)).loc cc0_scratch4 ↦{fullShare} fb3) : sProp 𝕄)) = ((bM3).view.loc (V d (cV L) (jV L)) ↦{fullShare} fb3) from rfl)) $$ Hb3
  ihave Hb4 := (Entails.of_eq (show ((((V d (cV L) (jV L)).loc cc0_scratch5 ↦{fullShare} fb4) : sProp 𝕄)) = ((bM4).view.loc (V d (cV L) (jV L)) ↦{fullShare} fb4) from rfl)) $$ Hb4
  ihave Hb5 := (Entails.of_eq (show ((((V d (cV L) (jV L)).loc cc0_scratch6 ↦{fullShare} fb5) : sProp 𝕄)) = ((bM5).view.loc (V d (cV L) (jV L)) ↦{fullShare} fb5) from rfl)) $$ Hb5
  ihave Hb6 := (Entails.of_eq (show ((((V d (cV L) (jV L)).loc cc0_scratch7 ↦{fullShare} fb6) : sProp 𝕄)) = ((bM6).view.loc (V d (cV L) (jV L)) ↦{fullShare} fb6) from rfl)) $$ Hb6
  ihave Hb7 := (Entails.of_eq (show ((((V d (cV L) (jV L)).loc cc0_scratch8 ↦{fullShare} fb7) : sProp 𝕄)) = ((bM7).view.loc (V d (cV L) (jV L)) ↦{fullShare} fb7) from rfl)) $$ Hb7
  ihave Hb8 := (Entails.of_eq (show ((((V d (cV L) (jV L)).loc cc0_scratch9 ↦{fullShare} fb8) : sProp 𝕄)) = ((bM8).view.loc (V d (cV L) (jV L)) ↦{fullShare} fb8) from rfl)) $$ Hb8
  ihave Hb9 := (Entails.of_eq (show ((((V d (cV L) (jV L)).loc cc0_scratch10 ↦{fullShare} fb9) : sProp 𝕄)) = ((bM9).view.loc (V d (cV L) (jV L)) ↦{fullShare} fb9) from rfl)) $$ Hb9
  sl_unfold [cc0_body]
  sl_exec
  sl_unfold_run_names
  -- the row-number scratch now holds the worker's row of row numbers
  have hXI : (ixM).view.write (Elt F) fi (ReadAs.same.apply ((x3RowM L).view.read (Elt F) (X3 d))) Finset.univ = ReadAs.same.apply ((x3RowM L).view.read (Elt F) (X3 d)) := View.write_whole_univ _ _ _
  have hHi : (((ixM).view.loc (V d (cV L) (jV L)) ↦{fullShare} (ixM).view.write (Elt F) fi (ReadAs.same.apply ((x3RowM L).view.read (Elt F) (X3 d))) Finset.univ) : sProp 𝕄)
      = ((ixM).view.loc (V d (cV L) (jV L)) ↦{fullShare} ((x3RowM L).view.read (Elt F) (X3 d))) := by rw [hXI]
  ihave Hi := (Entails.of_eq hHi) $$ Hi
  -- every list of row numbers read out of it names rows of the table
  have hinAll : ∀ (off : Fin 2 → ℕ) (h : ∀ a, off a + S1x64.size a ≤ S160x64.size a) (x : S64.Idx),
      ((((ixM).slice (Rect.unit (s := S160x64) off S1x64.size h) (fun _ => rfl)).squeeze S64 squeezes_S1x64_S64).view.read (Elt F)
        ((x3RowM L).view.read (Elt F) (X3 d)) x).toNat < 100000 := by
    intro off h x
    rw [View.read_apply, View.read_apply]
    exact hx3 d _
  -- read shares of the table and of the row-number scratch, one per gather semaphore
  ihave Hw' := ((Transfers.pointsTo_toks_range (wTok (widL L)) 10).1) $$ Hw
  icases Hw' with ⟨Hwd, Hwt⟩
  ihave Hwt := (Entails.of_eq (bigSep_range10 _)) $$ Hwt
  icases Hwt with ⟨Hw0, Hw1, Hw2, Hw3, Hw4, Hw5, Hw6, Hw7, Hw8, Hw9⟩
  ihave Hi' := ((Transfers.pointsTo_toks_range fullShare 10).1) $$ Hi
  icases Hi' with ⟨Hid, Hit⟩
  ihave Hit := (Entails.of_eq (bigSep_range10 _)) $$ Hit
  icases Hit with ⟨Hi0, Hi1, Hi2, Hi3, Hi4, Hi5, Hi6, Hi7, Hi8, Hi9⟩
  sl_exec
  sl_for (Inv d L O W (wTok (widL L)) (X3 d) (m (wLoc d)) (m (oLoc d))) $$ [Hx3 Hs20 Hwd Ho0 Ho1 Ho2 Ho3 Ho4 Ho5 Hs0 Hs1 Hs2 Hs3 Hs4 Hs5 Hs6 Hs7 Hs8 Hs9 Hs10 Hs11 Hs12 Hs13 Hs14 Hs15 Hs16 Hs17 Hs18 Hs19 Hw0 Hw1 Hw2 Hw3 Hw4 Hw5 Hw6 Hw7 Hw8 Hw9 Hb0 Hb1 Hb2 Hb3 Hb4 Hb5 Hb6 Hb7 Hb8 Hb9 Hi0 Hi1 Hi2 Hi3 Hi4 Hi5 Hi6 Hi7 Hi8 Hi9 Hid HO Hpend]
  case region =>
    intro k acc
    have hk14 : k.val < 14 := trip_lt k
    unfold Inv
    iintro ⟨%hk, %t0, %t1, %t2, %t3, %t4, %t5, %t6, %t7, %t8, %t9, %t10, %p0, %p1, %p2, %p3, %p4, %p5, %o6, %o7, %o8, %o9, %j6, %j7, %j8, %j9, %W', HO, #Hmw, Hx3, Hs20, Hwd, Hg0, Hw0, Hi0, Hb0, Hws0, Hg1, Hw1, Hi1, Hb1, Hws1, Hg2, Hw2, Hi2, Hb2, Hws2, Hg3, Hw3, Hi3, Hb3, Hws3, Hg4, Hw4, Hi4, Hb4, Hws4, Hg5, Hw5, Hi5, Hb5, Hws5, Hf6, Hb6, Hw6, Hgs6, Hf7, Hb7, Hw7, Hgs7, Hf8, Hb8, Hw8, Hgs8, Hf9, Hb9, Hw9, Hgs9, Hi6, Hi7, Hi8, Hi9, Hi10, Hjoin, Hpend, Hdone, %hW', %hp0, %hp1, %hp2, %hp3, %hp4, %hp5, %ho6, %ho7, %ho8, %ho9⟩
    -- this trip's ten chunks, out of the pending ones, in the program's spelling
    ihave Hpend := (Entails.of_eq (bigSep_Ico_split (10 * (k.val + 1)) (10 * (k.val + 1) + 10) 160 (by omega) (by omega))) $$ Hpend
    icases Hpend with ⟨Hp, Hpend⟩
    ihave Hp := (Entails.of_eq (bigSep_Ico10 (10 * (k.val + 1)))) $$ Hp
    icases Hp with ⟨Hp0, Hp1, Hp2, Hp3, Hp4, Hp5, Hp6, Hp7, Hp8, Hp9⟩
    have hq0 : (piece d (widL L) (m (oLoc d)) (10 * (k.val + 1)) : sProp 𝕄) = (((oM).slice (Rect.unit (s := S327680x128) (k0_off4 L k 0#32) S64x128.size (k0_off4_inb L k 0)) (fun _ => rfl)).view.loc (V d (cV L) (jV L)) ↦[((oM).slice (Rect.unit (s := S327680x128) (k0_off4 L k 0#32) S64x128.size (k0_off4_inb L k 0)) (fun _ => rfl)).view.set]{fullShare} (m (oLoc d))) := by
      rw [show 10 * (k.val + 1) = 10 * k.val + 0 + 10 by omega]; exact (piece_off4_0 d L k (m (oLoc d))).symm
    ihave Hp0 := (Entails.of_eq hq0) $$ Hp0
    have hq1 : (piece d (widL L) (m (oLoc d)) (10 * (k.val + 1) + 1) : sProp 𝕄) = (((oM).slice (Rect.unit (s := S327680x128) (k0_off4 L k 1#32) S64x128.size (k0_off4_inb L k 1)) (fun _ => rfl)).view.loc (V d (cV L) (jV L)) ↦[((oM).slice (Rect.unit (s := S327680x128) (k0_off4 L k 1#32) S64x128.size (k0_off4_inb L k 1)) (fun _ => rfl)).view.set]{fullShare} (m (oLoc d))) := by
      rw [show 10 * (k.val + 1) + 1 = 10 * k.val + 1 + 10 by omega]; exact (piece_off4_1 d L k (m (oLoc d))).symm
    ihave Hp1 := (Entails.of_eq hq1) $$ Hp1
    have hq2 : (piece d (widL L) (m (oLoc d)) (10 * (k.val + 1) + 2) : sProp 𝕄) = (((oM).slice (Rect.unit (s := S327680x128) (k0_off4 L k 2#32) S64x128.size (k0_off4_inb L k 2)) (fun _ => rfl)).view.loc (V d (cV L) (jV L)) ↦[((oM).slice (Rect.unit (s := S327680x128) (k0_off4 L k 2#32) S64x128.size (k0_off4_inb L k 2)) (fun _ => rfl)).view.set]{fullShare} (m (oLoc d))) := by
      rw [show 10 * (k.val + 1) + 2 = 10 * k.val + 2 + 10 by omega]; exact (piece_off4_2 d L k (m (oLoc d))).symm
    ihave Hp2 := (Entails.of_eq hq2) $$ Hp2
    have hq3 : (piece d (widL L) (m (oLoc d)) (10 * (k.val + 1) + 3) : sProp 𝕄) = (((oM).slice (Rect.unit (s := S327680x128) (k0_off4 L k 3#32) S64x128.size (k0_off4_inb L k 3)) (fun _ => rfl)).view.loc (V d (cV L) (jV L)) ↦[((oM).slice (Rect.unit (s := S327680x128) (k0_off4 L k 3#32) S64x128.size (k0_off4_inb L k 3)) (fun _ => rfl)).view.set]{fullShare} (m (oLoc d))) := by
      rw [show 10 * (k.val + 1) + 3 = 10 * k.val + 3 + 10 by omega]; exact (piece_off4_3 d L k (m (oLoc d))).symm
    ihave Hp3 := (Entails.of_eq hq3) $$ Hp3
    have hq4 : (piece d (widL L) (m (oLoc d)) (10 * (k.val + 1) + 4) : sProp 𝕄) = (((oM).slice (Rect.unit (s := S327680x128) (k0_off4 L k 4#32) S64x128.size (k0_off4_inb L k 4)) (fun _ => rfl)).view.loc (V d (cV L) (jV L)) ↦[((oM).slice (Rect.unit (s := S327680x128) (k0_off4 L k 4#32) S64x128.size (k0_off4_inb L k 4)) (fun _ => rfl)).view.set]{fullShare} (m (oLoc d))) := by
      rw [show 10 * (k.val + 1) + 4 = 10 * k.val + 4 + 10 by omega]; exact (piece_off4_4 d L k (m (oLoc d))).symm
    ihave Hp4 := (Entails.of_eq hq4) $$ Hp4
    have hq5 : (piece d (widL L) (m (oLoc d)) (10 * (k.val + 1) + 5) : sProp 𝕄) = (((oM).slice (Rect.unit (s := S327680x128) (k0_off4 L k 5#32) S64x128.size (k0_off4_inb L k 5)) (fun _ => rfl)).view.loc (V d (cV L) (jV L)) ↦[((oM).slice (Rect.unit (s := S327680x128) (k0_off4 L k 5#32) S64x128.size (k0_off4_inb L k 5)) (fun _ => rfl)).view.set]{fullShare} (m (oLoc d))) := by
      rw [show 10 * (k.val + 1) + 5 = 10 * k.val + 5 + 10 by omega]; exact (piece_off4_5 d L k (m (oLoc d))).symm
    ihave Hp5 := (Entails.of_eq hq5) $$ Hp5
    have hq6 : (piece d (widL L) (m (oLoc d)) (10 * (k.val + 1) + 6) : sProp 𝕄) = (((oM).slice (Rect.unit (s := S327680x128) (k0_off4 L k 6#32) S64x128.size (k0_off4_inb L k 6)) (fun _ => rfl)).view.loc (V d (cV L) (jV L)) ↦[((oM).slice (Rect.unit (s := S327680x128) (k0_off4 L k 6#32) S64x128.size (k0_off4_inb L k 6)) (fun _ => rfl)).view.set]{fullShare} (m (oLoc d))) := by
      rw [show 10 * (k.val + 1) + 6 = 10 * k.val + 6 + 10 by omega]; exact (piece_off4_6 d L k (m (oLoc d))).symm
    ihave Hp6 := (Entails.of_eq hq6) $$ Hp6
    have hq7 : (piece d (widL L) (m (oLoc d)) (10 * (k.val + 1) + 7) : sProp 𝕄) = (((oM).slice (Rect.unit (s := S327680x128) (k0_off4 L k 7#32) S64x128.size (k0_off4_inb L k 7)) (fun _ => rfl)).view.loc (V d (cV L) (jV L)) ↦[((oM).slice (Rect.unit (s := S327680x128) (k0_off4 L k 7#32) S64x128.size (k0_off4_inb L k 7)) (fun _ => rfl)).view.set]{fullShare} (m (oLoc d))) := by
      rw [show 10 * (k.val + 1) + 7 = 10 * k.val + 7 + 10 by omega]; exact (piece_off4_7 d L k (m (oLoc d))).symm
    ihave Hp7 := (Entails.of_eq hq7) $$ Hp7
    have hq8 : (piece d (widL L) (m (oLoc d)) (10 * (k.val + 1) + 8) : sProp 𝕄) = (((oM).slice (Rect.unit (s := S327680x128) (k0_off4 L k 8#32) S64x128.size (k0_off4_inb L k 8)) (fun _ => rfl)).view.loc (V d (cV L) (jV L)) ↦[((oM).slice (Rect.unit (s := S327680x128) (k0_off4 L k 8#32) S64x128.size (k0_off4_inb L k 8)) (fun _ => rfl)).view.set]{fullShare} (m (oLoc d))) := by
      rw [show 10 * (k.val + 1) + 8 = 10 * k.val + 8 + 10 by omega]; exact (piece_off4_8 d L k (m (oLoc d))).symm
    ihave Hp8 := (Entails.of_eq hq8) $$ Hp8
    have hq9 : (piece d (widL L) (m (oLoc d)) (10 * (k.val + 1) + 9) : sProp 𝕄) = (((oM).slice (Rect.unit (s := S327680x128) (k0_off4 L k 9#32) S64x128.size (k0_off4_inb L k 9)) (fun _ => rfl)).view.loc (V d (cV L) (jV L)) ↦[((oM).slice (Rect.unit (s := S327680x128) (k0_off4 L k 9#32) S64x128.size (k0_off4_inb L k 9)) (fun _ => rfl)).view.set]{fullShare} (m (oLoc d))) := by
      rw [show 10 * (k.val + 1) + 9 = 10 * k.val + 9 + 10 by omega]; exact (piece_off4_9 d L k (m (oLoc d))).symm
    ihave Hp9 := (Entails.of_eq hq9) $$ Hp9
    sl_exec
    sl_step
    have hk' : k.val + 1 ≤ 14 := by omega
    iexists hk', t10, t0, t1, t2, t3, t4, t5, t6, t7, t8, t9, _, _, _, _, _, _, _, _, _, _, _, _, _, _, _
    have eI0 : (((ixM).slice (Rect.unit (s := S160x64) (k0_off6 k 4#32) S1x64.size (k0_off6_inb k 4)) (fun _ => rfl)).squeeze S64 squeezes_S1x64_S64).view.set = (idxRowC (10 * (k.val + 1 + 1) + 0) (ltg0 hk')).view.set := by
      rw [set_off6_4 k (k0_off6_inb k 4)]; exact idxRow_set_congr _ _ (by congr 1)
    have eI1 : (((ixM).slice (Rect.unit (s := S160x64) (k0_off6 k 5#32) S1x64.size (k0_off6_inb k 5)) (fun _ => rfl)).squeeze S64 squeezes_S1x64_S64).view.set = (idxRowC (10 * (k.val + 1 + 1) + 1) (ltg1 hk')).view.set := by
      rw [set_off6_5 k (k0_off6_inb k 5)]; exact idxRow_set_congr _ _ (by congr 1)
    have eI2 : (((ixM).slice (Rect.unit (s := S160x64) (k0_off6 k 6#32) S1x64.size (k0_off6_inb k 6)) (fun _ => rfl)).squeeze S64 squeezes_S1x64_S64).view.set = (idxRowC (10 * (k.val + 1 + 1) + 2) (ltg2 hk')).view.set := by
      rw [set_off6_6 k (k0_off6_inb k 6)]; exact idxRow_set_congr _ _ (by congr 1)
    have eI3 : (((ixM).slice (Rect.unit (s := S160x64) (k0_off6 k 7#32) S1x64.size (k0_off6_inb k 7)) (fun _ => rfl)).squeeze S64 squeezes_S1x64_S64).view.set = (idxRowC (10 * (k.val + 1 + 1) + 3) (ltg3 hk')).view.set := by
      rw [set_off6_7 k (k0_off6_inb k 7)]; exact idxRow_set_congr _ _ (by congr 1)
    have eI4 : (((ixM).slice (Rect.unit (s := S160x64) (k0_off6 k 8#32) S1x64.size (k0_off6_inb k 8)) (fun _ => rfl)).squeeze S64 squeezes_S1x64_S64).view.set = (idxRowC (10 * (k.val + 1 + 1) + 4) (ltg4 hk')).view.set := by
      rw [set_off6_8 k (k0_off6_inb k 8)]; exact idxRow_set_congr _ _ (by congr 1)
    have eI5 : (((ixM).slice (Rect.unit (s := S160x64) (k0_off6 k 9#32) S1x64.size (k0_off6_inb k 9)) (fun _ => rfl)).squeeze S64 squeezes_S1x64_S64).view.set = (idxRowC (10 * (k.val + 1 + 1) + 5) (ltg5 hk')).view.set := by
      rw [set_off6_9 k (k0_off6_inb k 9)]; exact idxRow_set_congr _ _ (by congr 1)
    have eO6 : @Eq (Finset S327680x128.Idx) ((oM).slice (Rect.unit (s := S327680x128) (k0_off4 L k 6#32) S64x128.size (k0_off4_inb L k 6)) (fun _ => rfl)).view.set (oChunkC L (10 * (k.val + 1) + 6) (ltw6 hk')).view.set := by
      rw [set_off4_6 L k]; exact oChunk_set_congr _ _ (by congr 1)
    have eO7 : @Eq (Finset S327680x128.Idx) ((oM).slice (Rect.unit (s := S327680x128) (k0_off4 L k 7#32) S64x128.size (k0_off4_inb L k 7)) (fun _ => rfl)).view.set (oChunkC L (10 * (k.val + 1) + 7) (ltw7 hk')).view.set := by
      rw [set_off4_7 L k]; exact oChunk_set_congr _ _ (by congr 1)
    have eO8 : @Eq (Finset S327680x128.Idx) ((oM).slice (Rect.unit (s := S327680x128) (k0_off4 L k 8#32) S64x128.size (k0_off4_inb L k 8)) (fun _ => rfl)).view.set (oChunkC L (10 * (k.val + 1) + 8) (ltw8 hk')).view.set := by
      rw [set_off4_8 L k]; exact oChunk_set_congr _ _ (by congr 1)
    have eO9 : @Eq (Finset S327680x128.Idx) ((oM).slice (Rect.unit (s := S327680x128) (k0_off4 L k 9#32) S64x128.size (k0_off4_inb L k 9)) (fun _ => rfl)).view.set (oChunkC L (10 * (k.val + 1) + 9) (ltw9 hk')).view.set := by
      rw [set_off4_9 L k]; exact oChunk_set_congr _ _ (by congr 1)
    isplitl [HO]; · iexact HO
    isplitr; · iexact Hmw
    isplitl [Hx3]; · iexact Hx3
    isplitl [Hs20]; · iexact Hs20
    isplitl [Hwd]; · iexact Hwd
    isplitl [Hg0]; · irw [← eI0]; iexact Hg0
    isplitl [Hw0]; · iexact Hw0
    isplitl [Hi10]; · irw [← eI0]; iexact Hi10
    isplitl [Hb0]; · iexact Hb0
    isplitl [Hws0]; · iexact Hws0
    isplitl [Hg1]; · irw [← eI1]; iexact Hg1
    isplitl [Hw1]; · iexact Hw1
    isplitl [Hi0]; · irw [← eI1]; iexact Hi0
    isplitl [Hb1]; · iexact Hb1
    isplitl [Hws1]; · iexact Hws1
    isplitl [Hg2]; · irw [← eI2]; iexact Hg2
    isplitl [Hw2]; · iexact Hw2
    isplitl [Hi1]; · irw [← eI2]; iexact Hi1
    isplitl [Hb2]; · iexact Hb2
    isplitl [Hws2]; · iexact Hws2
    isplitl [Hg3]; · irw [← eI3]; iexact Hg3
    isplitl [Hw3]; · iexact Hw3
    isplitl [Hi2]; · irw [← eI3]; iexact Hi2
    isplitl [Hb3]; · iexact Hb3
    isplitl [Hws3]; · iexact Hws3
    isplitl [Hg4]; · irw [← eI4]; iexact Hg4
    isplitl [Hw4]; · iexact Hw4
    isplitl [Hi3]; · irw [← eI4]; iexact Hi3
    isplitl [Hb4]; · iexact Hb4
    isplitl [Hws4]; · iexact Hws4
    isplitl [Hg5]; · irw [← eI5]; iexact Hg5
    isplitl [Hw5]; · iexact Hw5
    isplitl [Hi4]; · irw [← eI5]; iexact Hi4
    isplitl [Hb5]; · iexact Hb5
    isplitl [Hws5]; · iexact Hws5
    isplitl [Hf6]; · irw [← eO6]; iexact Hf6
    isplitl [Hb6]; · iexact Hb6
    isplitl [Hw6]; · iexact Hw6
    isplitl [Hgs6]; · iexact Hgs6
    isplitl [Hf7]; · irw [← eO7]; iexact Hf7
    isplitl [Hb7]; · iexact Hb7
    isplitl [Hw7]; · iexact Hw7
    isplitl [Hgs7]; · iexact Hgs7
    isplitl [Hf8]; · irw [← eO8]; iexact Hf8
    isplitl [Hb8]; · iexact Hb8
    isplitl [Hw8]; · iexact Hw8
    isplitl [Hgs8]; · iexact Hgs8
    isplitl [Hf9]; · irw [← eO9]; iexact Hf9
    isplitl [Hb9]; · iexact Hb9
    isplitl [Hw9]; · iexact Hw9
    isplitl [Hgs9]; · iexact Hgs9
    isplitl [Hi5]; · iexact Hi5
    isplitl [Hi6]; · iexact Hi6
    isplitl [Hi7]; · iexact Hi7
    isplitl [Hi8]; · iexact Hi8
    isplitl [Hi9]; · iexact Hi9
    isplitl [Hjoin]
    · unfold IdxJoin
      iintro ⟨J10, J0, J1, J2, J3, J4, J5, J6, J7, J8, J9⟩
      iapply Hjoin
      isplitl [J0]; · iexact J0
      isplitl [J1]; · iexact J1
      isplitl [J2]; · iexact J2
      isplitl [J3]; · iexact J3
      isplitl [J4]; · iexact J4
      isplitl [J5]; · iexact J5
      isplitl [J6]; · iexact J6
      isplitl [J7]; · iexact J7
      isplitl [J8]; · iexact J8
      isplitl [J9]; · iexact J9
      iexact J10
    isplitl [Hpend]
    · irw [show 10 * (k.val + 1 + 1) = 10 * (k.val + 1) + 10 by omega]; iexact Hpend
    isplitl [Hdone Hf6_dst Hf7_dst Hf8_dst Hf9_dst Hp0 Hp1 Hp2 Hp3 Hp4 Hp5]
    · irw [show 10 * (k.val + 1) + 6 = (10 * k.val + 6) + 10 by omega, bigSep_range_succ10]
      isplitl [Hdone]; · iexact Hdone
      isplitl [Hf6_dst]; · iapply (Entails.of_eq ((piece_chunkC' d L (10 * k.val + 6) (ltw6 hk) o6).trans ((piece_done d L (X3 d) (m (wLoc d)) (10 * k.val + 6) o6 ho6).trans (by rw [show 10 * k.val + 6 = 10 * k.val + 6 by omega])))); iexact Hf6_dst
      isplitl [Hf7_dst]; · iapply (Entails.of_eq ((piece_chunkC' d L (10 * k.val + 7) (ltw7 hk) o7).trans ((piece_done d L (X3 d) (m (wLoc d)) (10 * k.val + 7) o7 ho7).trans (by rw [show 10 * k.val + 6 + 1 = 10 * k.val + 7 by omega])))); iexact Hf7_dst
      isplitl [Hf8_dst]; · iapply (Entails.of_eq ((piece_chunkC' d L (10 * k.val + 8) (ltw8 hk) o8).trans ((piece_done d L (X3 d) (m (wLoc d)) (10 * k.val + 8) o8 ho8).trans (by rw [show 10 * k.val + 6 + 2 = 10 * k.val + 8 by omega])))); iexact Hf8_dst
      isplitl [Hf9_dst]; · iapply (Entails.of_eq ((piece_chunkC' d L (10 * k.val + 9) (ltw9 hk) o9).trans ((piece_done d L (X3 d) (m (wLoc d)) (10 * k.val + 9) o9 ho9).trans (by rw [show 10 * k.val + 6 + 3 = 10 * k.val + 9 by omega])))); iexact Hf9_dst
      isplitl [Hp0]; · iapply (Entails.of_eq (((piece_off4_0 d L k _).trans (piece_done d L (X3 d) (m (wLoc d)) (10 * k.val + 0 + 10) _ (outIs_off4_0 L (X3 d) (m (wLoc d)) k _ (by omega) _ _ hp0))).trans (by rw [show 10 * k.val + 6 + 4 = 10 * k.val + 0 + 10 by omega]))); iexact Hp0
      isplitl [Hp1]; · iapply (Entails.of_eq (((piece_off4_1 d L k _).trans (piece_done d L (X3 d) (m (wLoc d)) (10 * k.val + 1 + 10) _ (outIs_off4_1 L (X3 d) (m (wLoc d)) k _ (by omega) _ _ hp1))).trans (by rw [show 10 * k.val + 6 + 5 = 10 * k.val + 1 + 10 by omega]))); iexact Hp1
      isplitl [Hp2]; · iapply (Entails.of_eq (((piece_off4_2 d L k _).trans (piece_done d L (X3 d) (m (wLoc d)) (10 * k.val + 2 + 10) _ (outIs_off4_2 L (X3 d) (m (wLoc d)) k _ (by omega) _ _ hp2))).trans (by rw [show 10 * k.val + 6 + 6 = 10 * k.val + 2 + 10 by omega]))); iexact Hp2
      isplitl [Hp3]; · iapply (Entails.of_eq (((piece_off4_3 d L k _).trans (piece_done d L (X3 d) (m (wLoc d)) (10 * k.val + 3 + 10) _ (outIs_off4_3 L (X3 d) (m (wLoc d)) k _ (by omega) _ _ hp3))).trans (by rw [show 10 * k.val + 6 + 7 = 10 * k.val + 3 + 10 by omega]))); iexact Hp3
      isplitl [Hp4]; · iapply (Entails.of_eq (((piece_off4_4 d L k _).trans (piece_done d L (X3 d) (m (wLoc d)) (10 * k.val + 4 + 10) _ (outIs_off4_4 L (X3 d) (m (wLoc d)) k _ (by omega) _ _ hp4))).trans (by rw [show 10 * k.val + 6 + 8 = 10 * k.val + 4 + 10 by omega]))); iexact Hp4
      · iapply (Entails.of_eq (((piece_off4_5 d L k _).trans (piece_done d L (X3 d) (m (wLoc d)) (10 * k.val + 5 + 10) _ (outIs_off4_5 L (X3 d) (m (wLoc d)) k _ (by omega) _ _ hp5))).trans (by rw [show 10 * k.val + 6 + 9 = 10 * k.val + 5 + 10 by omega]))); iexact Hp5
    isplitr
    · ipureintro; intro p hp
      repeat (rcases Finset.mem_insert.mp hp with rfl | hp; · exact .inr rfl)
      exact hW' p hp
    isplitr; · ipureintro; exact chunkIs_off6_4 L (X3 d) (m (wLoc d)) k _ (by omega) rfl _ _
    isplitr; · ipureintro; exact chunkIs_off6_5 L (X3 d) (m (wLoc d)) k _ (by omega) rfl _ _
    isplitr; · ipureintro; exact chunkIs_off6_6 L (X3 d) (m (wLoc d)) k _ (by omega) rfl _ _
    isplitr; · ipureintro; exact chunkIs_off6_7 L (X3 d) (m (wLoc d)) k _ (by omega) rfl _ _
    isplitr; · ipureintro; exact chunkIs_off6_8 L (X3 d) (m (wLoc d)) k _ (by omega) rfl _ _
    isplitr; · ipureintro; exact chunkIs_off6_9 L (X3 d) (m (wLoc d)) k _ (by omega) rfl _ _
    isplitr; · ipureintro; exact outIs_off4_6 L (X3 d) (m (wLoc d)) k _ (by omega) _ _ (chunkIs_off6_0 L (X3 d) (m (wLoc d)) k _ (by omega) rfl _ _)
    isplitr; · ipureintro; exact outIs_off4_7 L (X3 d) (m (wLoc d)) k _ (by omega) _ _ (chunkIs_off6_1 L (X3 d) (m (wLoc d)) k _ (by omega) rfl _ _)
    isplitr; · ipureintro; exact outIs_off4_8 L (X3 d) (m (wLoc d)) k _ (by omega) _ _ (chunkIs_off6_2 L (X3 d) (m (wLoc d)) k _ (by omega) rfl _ _)
    · ipureintro; exact outIs_off4_9 L (X3 d) (m (wLoc d)) k _ (by omega) _ _ (chunkIs_off6_3 L (X3 d) (m (wLoc d)) k _ (by omega) rfl _ _)
  · -- before the first trip
    -- the six chunks already written out are done pieces
    ihave Ho0 := (done_off2_0 d L (X3 d) (m (wLoc d)) _ (outIs_off2_0 L (X3 d) (m (wLoc d)) _ _ _ (chunkIs_of_gather_b1 L (X3 d) (m (wLoc d)) 0 _ _ rfl _ _ _))) $$ Ho0
    ihave Ho1 := (done_off2_1 d L (X3 d) (m (wLoc d)) _ (outIs_off2_1 L (X3 d) (m (wLoc d)) _ _ _ (chunkIs_of_gather_b2 L (X3 d) (m (wLoc d)) 1 _ _ rfl _ _ _))) $$ Ho1
    ihave Ho2 := (done_off2_2 d L (X3 d) (m (wLoc d)) _ (outIs_off2_2 L (X3 d) (m (wLoc d)) _ _ _ (chunkIs_of_gather_b3 L (X3 d) (m (wLoc d)) 2 _ _ rfl _ _ _))) $$ Ho2
    ihave Ho3 := (done_off2_3 d L (X3 d) (m (wLoc d)) _ (outIs_off2_3 L (X3 d) (m (wLoc d)) _ _ _ (chunkIs_of_gather_b4 L (X3 d) (m (wLoc d)) 3 _ _ rfl _ _ _))) $$ Ho3
    ihave Ho4 := (done_off2_4 d L (X3 d) (m (wLoc d)) _ (outIs_off2_4 L (X3 d) (m (wLoc d)) _ _ _ (chunkIs_of_gather_b5 L (X3 d) (m (wLoc d)) 4 _ _ rfl _ _ _))) $$ Ho4
    ihave Ho5 := (done_off2_5 d L (X3 d) (m (wLoc d)) _ (outIs_off2_5 L (X3 d) (m (wLoc d)) _ _ _ (chunkIs_of_gather_b6 L (X3 d) (m (wLoc d)) 5 _ _ rfl _ _ _))) $$ Ho5
    unfold Inv
    iexists (Nat.zero_le 14), Transfers.shareTokN fullShare 9, Transfers.shareDrop fullShare 10, Transfers.shareTokN fullShare 0, Transfers.shareTokN fullShare 1, Transfers.shareTokN fullShare 2, Transfers.shareTokN fullShare 3, Transfers.shareTokN fullShare 4, Transfers.shareTokN fullShare 5, Transfers.shareTokN fullShare 6, Transfers.shareTokN fullShare 7, Transfers.shareTokN fullShare 8, _, _, _, _, _, _, _, _, _, _, _, _, _, _, _
    have e6 : (oChunkC L (10 * 0 + 6) (ltw6 (Nat.zero_le 14))).view.set = ((oM).slice (Rect.unit (s := S327680x128) (k0_off2 L 384#32) S64x128.size (k0_off2_inb L 6)) (fun _ => rfl)).view.set := (set_off2_6 L).symm
    have e7 : (oChunkC L (10 * 0 + 7) (ltw7 (Nat.zero_le 14))).view.set = ((oM).slice (Rect.unit (s := S327680x128) (k0_off2 L 448#32) S64x128.size (k0_off2_inb L 7)) (fun _ => rfl)).view.set := (set_off2_7 L).symm
    have e8 : (oChunkC L (10 * 0 + 8) (ltw8 (Nat.zero_le 14))).view.set = ((oM).slice (Rect.unit (s := S327680x128) (k0_off2 L 512#32) S64x128.size (k0_off2_inb L 8)) (fun _ => rfl)).view.set := (set_off2_8 L).symm
    have e9 : (oChunkC L (10 * 0 + 9) (ltw9 (Nat.zero_le 14))).view.set = ((oM).slice (Rect.unit (s := S327680x128) (k0_off2 L 576#32) S64x128.size (k0_off2_inb L 9)) (fun _ => rfl)).view.set := (set_off2_9 L).symm
    irw [e6, e7, e8, e9]
    isplitl [HO]; · iexact HO
    isplitr; · iexact Hmw
    isplitl [Hx3]; · iexact Hx3
    isplitl [Hs20]; · iexact Hs20
    isplitl [Hwd]; · iexact Hwd
    -- slot 0: the gather of chunk 10 in flight
    isplitl [Hs0]; · iexact Hs0
    isplitl [Hw0]; · iexact Hw0
    isplitl [Hi9]; · iexact Hi9
    isplitl [Hb0]; · iexact Hb0
    isplitl [Hs10]; · iexact Hs10
    -- slot 1: the gather of chunk 11 in flight
    isplitl [Hs1]; · iexact Hs1
    isplitl [Hw1]; · iexact Hw1
    isplitl [Hid]; · iexact Hid
    isplitl [Hb1]; · iexact Hb1
    isplitl [Hs11]; · iexact Hs11
    -- slot 2: the gather of chunk 12 in flight
    isplitl [Hs2]; · iexact Hs2
    isplitl [Hw2]; · iexact Hw2
    isplitl [Hi0]; · iexact Hi0
    isplitl [Hb2]; · iexact Hb2
    isplitl [Hs12]; · iexact Hs12
    -- slot 3: the gather of chunk 13 in flight
    isplitl [Hs3]; · iexact Hs3
    isplitl [Hw3]; · iexact Hw3
    isplitl [Hi1]; · iexact Hi1
    isplitl [Hb3]; · iexact Hb3
    isplitl [Hs13]; · iexact Hs13
    -- slot 4: the gather of chunk 14 in flight
    isplitl [Hs4]; · iexact Hs4
    isplitl [Hw4]; · iexact Hw4
    isplitl [Hi2]; · iexact Hi2
    isplitl [Hb4]; · iexact Hb4
    isplitl [Hs14]; · iexact Hs14
    -- slot 5: the gather of chunk 15 in flight
    isplitl [Hs5]; · iexact Hs5
    isplitl [Hw5]; · iexact Hw5
    isplitl [Hi3]; · iexact Hi3
    isplitl [Hb5]; · iexact Hb5
    isplitl [Hs15]; · iexact Hs15
    -- slot 6: the copy-out of chunk 6 in flight
    isplitl [Hs16]; · iexact Hs16
    isplitl [Hb6]; · iexact Hb6
    isplitl [Hw6]; · iexact Hw6
    isplitl [Hs6]; · iexact Hs6
    -- slot 7: the copy-out of chunk 7 in flight
    isplitl [Hs17]; · iexact Hs17
    isplitl [Hb7]; · iexact Hb7
    isplitl [Hw7]; · iexact Hw7
    isplitl [Hs7]; · iexact Hs7
    -- slot 8: the copy-out of chunk 8 in flight
    isplitl [Hs18]; · iexact Hs18
    isplitl [Hb8]; · iexact Hb8
    isplitl [Hw8]; · iexact Hw8
    isplitl [Hs8]; · iexact Hs8
    -- slot 9: the copy-out of chunk 9 in flight
    isplitl [Hs19]; · iexact Hs19
    isplitl [Hb9]; · iexact Hb9
    isplitl [Hw9]; · iexact Hw9
    isplitl [Hs9]; · iexact Hs9
    -- the five free shares of the row-number scratch
    isplitl [Hi4]; · iexact Hi4
    isplitl [Hi5]; · iexact Hi5
    isplitl [Hi6]; · iexact Hi6
    isplitl [Hi7]; · iexact Hi7
    isplitl [Hi8]; · iexact Hi8
    -- the eleven shares are the remainder after ten tokens and the ten tokens
    isplitr
    · unfold IdxJoin
      iintro ⟨H9, Hd, H0, H1, H2, H3, H4, H5, H6, H7, H8⟩
      iapply ((Transfers.pointsTo_toks_range fullShare 10).2)
      isplitl [Hd]; · iexact Hd
      irw [bigSep_range10]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    -- the chunks still at the launch contents, and the done ones
    isplitl [Hpend]; · iexact Hpend
    isplitl [Ho0 Ho1 Ho2 Ho3 Ho4 Ho5]
    · have eR : Finset.range (10 * 0 + 6) = Finset.range 6 := rfl
      irw [eR, bigSep_range6]
      isplitl [Ho0]; · iexact Ho0
      isplitl [Ho1]; · iexact Ho1
      isplitl [Ho2]; · iexact Ho2
      isplitl [Ho3]; · iexact Ho3
      isplitl [Ho4]; · iexact Ho4
      iexact Ho5
    -- the pure facts
    isplitr
    · ipureintro
      intro p hp
      repeat (rcases Finset.mem_insert.mp hp with rfl | hp; · exact .inr rfl)
      exact .inl hp
    isplitr
    · ipureintro
      exact chunkIs_of_gather_b1 L (X3 d) (m (wLoc d)) 10 _ _ rfl _ _ _
    isplitr
    · ipureintro
      exact chunkIs_of_gather_b2 L (X3 d) (m (wLoc d)) 11 _ _ rfl _ _ _
    isplitr
    · ipureintro
      exact chunkIs_of_gather_b3 L (X3 d) (m (wLoc d)) 12 _ _ rfl _ _ _
    isplitr
    · ipureintro
      exact chunkIs_of_gather_b4 L (X3 d) (m (wLoc d)) 13 _ _ rfl _ _ _
    isplitr
    · ipureintro
      exact chunkIs_of_gather_b5 L (X3 d) (m (wLoc d)) 14 _ _ rfl _ _ _
    isplitr
    · ipureintro
      exact chunkIs_of_gather_b6 L (X3 d) (m (wLoc d)) 15 _ _ rfl _ _ _
    isplitr
    · ipureintro
      exact outIs_off2_6 L (X3 d) (m (wLoc d)) _ _ _ (chunkIs_of_gather_b7 L (X3 d) (m (wLoc d)) 6 _ _ rfl _ _ _)
    isplitr
    · ipureintro
      exact outIs_off2_7 L (X3 d) (m (wLoc d)) _ _ _ (chunkIs_of_gather_b8 L (X3 d) (m (wLoc d)) 7 _ _ rfl _ _ _)
    isplitr
    · ipureintro
      exact outIs_off2_8 L (X3 d) (m (wLoc d)) _ _ _ (chunkIs_of_gather_b9 L (X3 d) (m (wLoc d)) 8 _ _ rfl _ _ _)
    ipureintro
    exact outIs_off2_9 L (X3 d) (m (wLoc d)) _ _ _ (chunkIs_of_gather_b10 L (X3 d) (m (wLoc d)) 9 _ _ rfl _ _ _)
  -- after the last trip
  have htrips : Scf.trips k0_t1_loop.lb k0_t1_loop.ub k0_t1_loop.st = 14 := by decide
  irw [htrips]
  iintro %acc
  try unfold Inv
  iintro ⟨%hk, %t0, %t1, %t2, %t3, %t4, %t5, %t6, %t7, %t8, %t9, %t10, %p0, %p1, %p2, %p3, %p4, %p5, %o6, %o7, %o8, %o9, %j6, %j7, %j8, %j9, %W', HO, #Hmw, Hx3, Hs20, Hwd, Hg0, Hw0, Hi0, Hb0, Hws0, Hg1, Hw1, Hi1, Hb1, Hws1, Hg2, Hw2, Hi2, Hb2, Hws2, Hg3, Hw3, Hi3, Hb3, Hws3, Hg4, Hw4, Hi4, Hb4, Hws4, Hg5, Hw5, Hi5, Hb5, Hws5, Hf6, Hb6, Hw6, Hgs6, Hf7, Hb7, Hw7, Hgs7, Hf8, Hb8, Hw8, Hgs8, Hf9, Hb9, Hw9, Hgs9, Hi6, Hi7, Hi8, Hi9, Hi10, Hjoin, Hpend, Hdone, %hW', %hp0, %hp1, %hp2, %hp3, %hp4, %hp5, %ho6, %ho7, %ho8, %ho9⟩
  -- the ten pending chunks 150 … 159, in the spelling of the accesses after the loop
  ihave Hpend := (Entails.of_eq (show (bigSep (Finset.Ico (10 * (14 + 1)) 160) (piece d (widL L) (m (oLoc d))) : sProp 𝕄) = bigSep (Finset.Ico 150 (150 + 10)) (piece d (widL L) (m (oLoc d))) from rfl)) $$ Hpend
  ihave Hpend := (Entails.of_eq (bigSep_Ico10 150)) $$ Hpend
  icases Hpend with ⟨Hp0, Hp1, Hp2, Hp3, Hp4, Hp5, Hp6, Hp7, Hp8, Hp9⟩
  ihave Hp0 := (Entails.of_eq (show (piece d (widL L) (m (oLoc d)) (150 + 0) : sProp 𝕄) = _ from (piece_off2_10 d L (m (oLoc d))).symm)) $$ Hp0
  ihave Hp1 := (Entails.of_eq (show (piece d (widL L) (m (oLoc d)) (150 + 1) : sProp 𝕄) = _ from (piece_off2_12 d L (m (oLoc d))).symm)) $$ Hp1
  ihave Hp2 := (Entails.of_eq (show (piece d (widL L) (m (oLoc d)) (150 + 2) : sProp 𝕄) = _ from (piece_off2_14 d L (m (oLoc d))).symm)) $$ Hp2
  ihave Hp3 := (Entails.of_eq (show (piece d (widL L) (m (oLoc d)) (150 + 3) : sProp 𝕄) = _ from (piece_off2_16 d L (m (oLoc d))).symm)) $$ Hp3
  ihave Hp4 := (Entails.of_eq (show (piece d (widL L) (m (oLoc d)) (150 + 4) : sProp 𝕄) = _ from (piece_off2_18 d L (m (oLoc d))).symm)) $$ Hp4
  ihave Hp5 := (Entails.of_eq (show (piece d (widL L) (m (oLoc d)) (150 + 5) : sProp 𝕄) = _ from (piece_off2_19 d L (m (oLoc d))).symm)) $$ Hp5
  ihave Hp6 := (Entails.of_eq (show (piece d (widL L) (m (oLoc d)) (150 + 6) : sProp 𝕄) = _ from (piece_off2_20 d L (m (oLoc d))).symm)) $$ Hp6
  ihave Hp7 := (Entails.of_eq (show (piece d (widL L) (m (oLoc d)) (150 + 7) : sProp 𝕄) = _ from (piece_off2_21 d L (m (oLoc d))).symm)) $$ Hp7
  ihave Hp8 := (Entails.of_eq (show (piece d (widL L) (m (oLoc d)) (150 + 8) : sProp 𝕄) = _ from (piece_off2_22 d L (m (oLoc d))).symm)) $$ Hp8
  ihave Hp9 := (Entails.of_eq (show (piece d (widL L) (m (oLoc d)) (150 + 9) : sProp 𝕄) = _ from (piece_off2_23 d L (m (oLoc d))).symm)) $$ Hp9
  sl_exec
  sl_step
  sl_unfold_run_names
  unfold IdxJoin
  -- what the buffers hold when their copies go out: the rows their chunks name
  have hq0 : ChunkIs (widL L) (X3 d) (m (wLoc d)) 150 (ReadAs.same.apply (View.read (Elt F) (bM0).view p0)) := hp0
  have hq1 : ChunkIs (widL L) (X3 d) (m (wLoc d)) 151 (ReadAs.same.apply (View.read (Elt F) (bM1).view p1)) := hp1
  have hq2 : ChunkIs (widL L) (X3 d) (m (wLoc d)) 152 (ReadAs.same.apply (View.read (Elt F) (bM2).view p2)) := hp2
  have hq3 : ChunkIs (widL L) (X3 d) (m (wLoc d)) 153 (ReadAs.same.apply (View.read (Elt F) (bM3).view p3)) := hp3
  have hq4 : ChunkIs (widL L) (X3 d) (m (wLoc d)) 154 (ReadAs.same.apply (View.read (Elt F) (bM4).view p4)) := hp4
  have hq5 : ChunkIs (widL L) (X3 d) (m (wLoc d)) 155 (ReadAs.same.apply (View.read (Elt F) (bM5).view p5)) := hp5
  have hq6 := chunkIs_of_gather_b7 L (X3 d) (m (wLoc d)) 156 ![156, 0] inb_S160x64_S1x64_156_0 rfl rfl (hin_gather L (X3 d) (hx3 d) 156 (by omega) _ _ rfl) j6
  have hq7 := chunkIs_of_gather_b8 L (X3 d) (m (wLoc d)) 157 ![157, 0] inb_S160x64_S1x64_157_0 rfl rfl (hin_gather L (X3 d) (hx3 d) 157 (by omega) _ _ rfl) j7
  have hq8 := chunkIs_of_gather_b9 L (X3 d) (m (wLoc d)) 158 ![158, 0] inb_S160x64_S1x64_158_0 rfl rfl (hin_gather L (X3 d) (hx3 d) 158 (by omega) _ _ rfl) j8
  have hq9 := chunkIs_of_gather_b10 L (X3 d) (m (wLoc d)) 159 ![159, 0] inb_S160x64_S1x64_159_0 rfl rfl (hin_gather L (X3 d) (hx3 d) 159 (by omega) _ _ rfl) j9
  -- the worker's share
  isplitl [Hx3 Hwd Hw0 Hw1 Hw2 Hw3 Hw4 Hw5 Hw6 Hw7 Hw8 Hw9 Hdone Hf6_dst Hf7_dst Hf8_dst Hf9_dst Hp0 Hp1 Hp2 Hp3 Hp4 Hp5 Hp6 Hp7 Hp8 Hp9]
  · isplitl [Hx3]
    · iapply (Entails.of_eq (pts_x3 d L (X3 d))); iexact Hx3
    isplitl [Hwd Hw0 Hw1 Hw2 Hw3 Hw4 Hw5 Hw6 Hw7 Hw8 Hw9]
    · -- the table: the remainder and the ten read tokens are the worker's read share
      iapply (Entails.of_eq (pts_w d L (wTok (widL L)) (m (wLoc d))))
      iapply (Transfers.pointsTo_toks_range (wTok (widL L)) 10).2
      isplitl [Hwd]
      · iexact Hwd
      irw [bigSep_range10]
      isplitl [Hw0]
      · iexact Hw0
      isplitl [Hw1]
      · iexact Hw1
      isplitl [Hw2]
      · iexact Hw2
      isplitl [Hw3]
      · iexact Hw3
      isplitl [Hw4]
      · iexact Hw4
      isplitl [Hw5]
      · iexact Hw5
      isplitl [Hw6]
      · iexact Hw6
      isplitl [Hw7]
      · iexact Hw7
      isplitl [Hw8]
      · iexact Hw8
      iexact Hw9
    · -- the output: chunks below 146 were done, 146 … 149 and 150 … 159 finished after the loop
      irw [← pieces_all_done d (widL L) (Gfn m X3 d), bigSep_range160]
      isplitl [Hdone Hf6_dst Hf7_dst Hf8_dst Hf9_dst]
      · isplitl [Hdone]
        · iexact Hdone
        isplitl [Hf6_dst]
        · iapply (Entails.of_eq ((piece_chunkC' d L (10 * 14 + 6) (ltw6 hk) o6).trans (piece_done d L (X3 d) (m (wLoc d)) (10 * 14 + 6) o6 ho6))); iexact Hf6_dst
        isplitl [Hf7_dst]
        · iapply (Entails.of_eq ((piece_chunkC' d L (10 * 14 + 7) (ltw7 hk) o7).trans (piece_done d L (X3 d) (m (wLoc d)) (10 * 14 + 7) o7 ho7))); iexact Hf7_dst
        isplitl [Hf8_dst]
        · iapply (Entails.of_eq ((piece_chunkC' d L (10 * 14 + 8) (ltw8 hk) o8).trans (piece_done d L (X3 d) (m (wLoc d)) (10 * 14 + 8) o8 ho8))); iexact Hf8_dst
        · iapply (Entails.of_eq ((piece_chunkC' d L (10 * 14 + 9) (ltw9 hk) o9).trans (piece_done d L (X3 d) (m (wLoc d)) (10 * 14 + 9) o9 ho9))); iexact Hf9_dst
      isplitl [Hp0]
      · iapply (Entails.of_eq ((piece_off2_10 d L _).trans (piece_done d L (X3 d) (m (wLoc d)) 150 _ (outIs_off2_10 L (X3 d) (m (wLoc d)) (k0_off2_inb L 10) _ _ hq0)))); iexact Hp0
      isplitl [Hp1]
      · iapply (Entails.of_eq ((piece_off2_12 d L _).trans (piece_done d L (X3 d) (m (wLoc d)) 151 _ (outIs_off2_12 L (X3 d) (m (wLoc d)) (k0_off2_inb L 12) _ _ hq1)))); iexact Hp1
      isplitl [Hp2]
      · iapply (Entails.of_eq ((piece_off2_14 d L _).trans (piece_done d L (X3 d) (m (wLoc d)) 152 _ (outIs_off2_14 L (X3 d) (m (wLoc d)) (k0_off2_inb L 14) _ _ hq2)))); iexact Hp2
      isplitl [Hp3]
      · iapply (Entails.of_eq ((piece_off2_16 d L _).trans (piece_done d L (X3 d) (m (wLoc d)) 153 _ (outIs_off2_16 L (X3 d) (m (wLoc d)) (k0_off2_inb L 16) _ _ hq3)))); iexact Hp3
      isplitl [Hp4]
      · iapply (Entails.of_eq ((piece_off2_18 d L _).trans (piece_done d L (X3 d) (m (wLoc d)) 154 _ (outIs_off2_18 L (X3 d) (m (wLoc d)) (k0_off2_inb L 18) _ _ hq4)))); iexact Hp4
      isplitl [Hp5]
      · iapply (Entails.of_eq ((piece_off2_19 d L _).trans (piece_done d L (X3 d) (m (wLoc d)) 155 _ (outIs_off2_19 L (X3 d) (m (wLoc d)) (k0_off2_inb L 19) _ _ hq5)))); iexact Hp5
      isplitl [Hp6]
      · iapply (Entails.of_eq ((piece_off2_20 d L _).trans (piece_done d L (X3 d) (m (wLoc d)) 156 _ (outIs_off2_20 L (X3 d) (m (wLoc d)) (k0_off2_inb L 20) _ _ hq6)))); iexact Hp6
      isplitl [Hp7]
      · iapply (Entails.of_eq ((piece_off2_21 d L _).trans (piece_done d L (X3 d) (m (wLoc d)) 157 _ (outIs_off2_21 L (X3 d) (m (wLoc d)) (k0_off2_inb L 21) _ _ hq7)))); iexact Hp7
      isplitl [Hp8]
      · iapply (Entails.of_eq ((piece_off2_22 d L _).trans (piece_done d L (X3 d) (m (wLoc d)) 158 _ (outIs_off2_22 L (X3 d) (m (wLoc d)) (k0_off2_inb L 22) _ _ hq8)))); iexact Hp8
      · iapply (Entails.of_eq ((piece_off2_23 d L _).trans (piece_done d L (X3 d) (m (wLoc d)) 159 _ (outIs_off2_23 L (X3 d) (m (wLoc d)) (k0_off2_inb L 23) _ _ hq9)))); iexact Hp9
  -- the scratch buffers
  isplitl [Hi0 Hi1 Hi2 Hi3 Hi4 Hi5 Hi6 Hi7 Hi8 Hi9 Hi10 Hjoin Hb0 Hb1 Hb2 Hb3 Hb4 Hb5 Hb6 Hb7 Hb8 Hb9]
  · isplitl [Hi0 Hi1 Hi2 Hi3 Hi4 Hi5 Hi6 Hi7 Hi8 Hi9 Hi10 Hjoin]
    · iexists (View.read (Elt F) (x3RowM L).view (X3 d))
      iapply Hjoin
      isplitl [Hi0]
      · iexact Hi0
      isplitl [Hi1]
      · iexact Hi1
      isplitl [Hi2]
      · iexact Hi2
      isplitl [Hi3]
      · iexact Hi3
      isplitl [Hi4]
      · iexact Hi4
      isplitl [Hi5]
      · iexact Hi5
      isplitl [Hi6]
      · iexact Hi6
      isplitl [Hi7]
      · iexact Hi7
      isplitl [Hi8]
      · iexact Hi8
      isplitl [Hi9]
      · iexact Hi9
      iexact Hi10
    isplitl [Hb0]
    · iexists _; iexact Hb0
    isplitl [Hb1]
    · iexists _; iexact Hb1
    isplitl [Hb2]
    · iexists _; iexact Hb2
    isplitl [Hb3]
    · iexists _; iexact Hb3
    isplitl [Hb4]
    · iexists _; iexact Hb4
    isplitl [Hb5]
    · iexists _; iexact Hb5
    isplitl [Hb6]
    · iexists _; iexact Hb6
    isplitl [Hb7]
    · iexists _; iexact Hb7
    isplitl [Hb8]
    · iexists _; iexact Hb8
    · iexists _; iexact Hb9
  -- the semaphores, all at zero again
  isplitl [Hg0 Hg1 Hg2 Hg3 Hg4 Hg5 Hgs6 Hgs7 Hgs8 Hgs9 Hws0 Hws1 Hws2 Hws3 Hws4 Hws5 Hf6 Hf7 Hf8 Hf9 Hs20]
  · isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    isplitl [Hgs6]
    · iexact Hgs6
    isplitl [Hgs7]
    · iexact Hgs7
    isplitl [Hgs8]
    · iexact Hgs8
    isplitl [Hgs9]
    · iexact Hgs9
    isplitl [Hws0]
    · iexact Hws0
    isplitl [Hws1]
    · iexact Hws1
    isplitl [Hws2]
    · iexact Hws2
    isplitl [Hws3]
    · iexact Hws3
    isplitl [Hws4]
    · iexact Hws4
    isplitl [Hws5]
    · iexact Hws5
    isplitl [Hf6]
    · iexact Hf6
    isplitl [Hf7]
    · iexact Hf7
    isplitl [Hf8]
    · iexact Hf8
    isplitl [Hf9]
    · iexact Hf9
    iexact Hs20
  -- the waits recorded are the ones handed in, or at the local index
  iexists _
  isplitr
  rotate_left
  · iexact HO
  · ipureintro; intro p hp
    repeat (rcases Finset.mem_insert.mp hp with rfl | hp; · exact .inr rfl)
    exact hW' p hp

end Cert.KernelRun

end
-- ==== Proof.KernelIdealRun.Slices.Idx.lean ====
/-
  The rows of the index scratch the kernel names, by row number. The scratch holds a worker's 160 × 64 row numbers; the
  kernel reads it one row of 64 at a time, and inside its loop names the row by an offset it computes in 32-bit words
  from the trip k and a digit r: row 10·k + r + 10, or row 10·k + r + 16. A slice is determined by its offset, whatever
  the evidence that it is in bounds, so each such access is the access of the row with that number. Likewise a worker's
  own 160 × 64 block of the re-laid row numbers is block 2·s + c of the 32.
-/
import proofs.«207499_g15272903704957_cont_week2b_486_20_alg».proof.Proof.KernelIdealRun.Pay

noncomputable section

namespace Cert.KernelIdealRun

open Cert.KernelIdeal Cert.KernelIdeal.Gen

open Idealize.ShloMosaic

/-! ## A row of the index scratch, by its number -/

/-- Row g < 160 of the index scratch lies inside it. -/
theorem idxRowC_inb (g : ℕ) (hg : g < 160) : ∀ a, (![g, 0] : Fin 2 → ℕ) a + S1x64.size a ≤ S160x64.size a :=
  Rect.inb₂ (by show g + 1 ≤ 160; omega) (by show 0 + 64 ≤ 64; omega)

/-- Row g of the index scratch, as a list of 64 row numbers. -/
abbrev idxRowC (g : ℕ) (hg : g < 160) : Memref sig .scVector .vmem S64 .i32 :=
  ((Memref.whole cc0_scratch0 : Memref sig .scVector .vmem S160x64 .i32).slice
    (Rect.unit (s := S160x64) ![g, 0] S1x64.size (idxRowC_inb g hg)) (fun _ => rfl)).squeeze S64 squeezes_S1x64_S64

/-! ## A row depends on its offset alone -/

/-- Rows of the index scratch at equal offsets are the same list, whatever the in-bounds evidence. -/
theorem idxRow_congr {off off' : Fin 2 → ℕ} (h : ∀ a, off a + S1x64.size a ≤ S160x64.size a)
    (h' : ∀ a, off' a + S1x64.size a ≤ S160x64.size a) (e : off = off') :
    ((Memref.whole cc0_scratch0 : Memref sig .scVector .vmem S160x64 .i32).slice
        (Rect.unit (s := S160x64) off S1x64.size h) (fun _ => rfl)).squeeze S64 squeezes_S1x64_S64
      = ((Memref.whole cc0_scratch0 : Memref sig .scVector .vmem S160x64 .i32).slice
        (Rect.unit (s := S160x64) off' S1x64.size h') (fun _ => rfl)).squeeze S64 squeezes_S1x64_S64 := by
  subst e; rfl

/-- … and so cover the same indices of the scratch. -/
theorem idxRow_set_congr {off off' : Fin 2 → ℕ} (h : ∀ a, off a + S1x64.size a ≤ S160x64.size a)
    (h' : ∀ a, off' a + S1x64.size a ≤ S160x64.size a) (e : off = off') :
    (((Memref.whole cc0_scratch0 : Memref sig .scVector .vmem S160x64 .i32).slice
        (Rect.unit (s := S160x64) off S1x64.size h) (fun _ => rfl)).squeeze S64 squeezes_S1x64_S64).view.set
      = (((Memref.whole cc0_scratch0 : Memref sig .scVector .vmem S160x64 .i32).slice
        (Rect.unit (s := S160x64) off' S1x64.size h') (fun _ => rfl)).squeeze S64 squeezes_S1x64_S64).view.set := by
  subst e; rfl

/-! ## The loop's rows -/

/-- The loop makes at most 14 trips. -/
theorem trip_lt (k : Fin k0_t1_loop.trips) : k.val < 14 := Nat.lt_of_lt_of_le k.isLt k0_t1_abs.2.1

theorem row6_lt (k : Fin k0_t1_loop.trips) (r : Fin 10) : 10 * k.val + r.val + 16 < 160 := by
  have := trip_lt k; have := r.isLt; omega
theorem row3_lt (k : Fin k0_t1_loop.trips) (r : Fin 10) : 10 * k.val + r.val + 10 < 160 := by
  have := trip_lt k; have := r.isLt; omega

/-- The row at the offset computed from trip k and digit r with 16 added is row 10·k + r + 16. -/
theorem idxRow_off6 (k : Fin k0_t1_loop.trips) (r : Fin 10)
    (h : ∀ a, (k0_off6 k (BitVec.ofNat 32 r.val)) a + S1x64.size a ≤ S160x64.size a) :
    ((Memref.whole cc0_scratch0 : Memref sig .scVector .vmem S160x64 .i32).slice
        (Rect.unit (s := S160x64) (k0_off6 k (BitVec.ofNat 32 r.val)) S1x64.size h) (fun _ => rfl)).squeeze S64 squeezes_S1x64_S64
      = idxRowC (10 * k.val + r.val + 16) (row6_lt k r) :=
  idxRow_congr _ _ (k0_off6_eq k r)

theorem set_off6 (k : Fin k0_t1_loop.trips) (r : Fin 10) :
    (((Memref.whole cc0_scratch0 : Memref sig .scVector .vmem S160x64 .i32).slice
        (Rect.unit (s := S160x64) (k0_off6 k (BitVec.ofNat 32 r.val)) S1x64.size (k0_off6_inb k r)) (fun _ => rfl)).squeeze S64 squeezes_S1x64_S64).view.set
      = (idxRowC (10 * k.val + r.val + 16) (row6_lt k r)).view.set :=
  idxRow_set_congr _ _ (k0_off6_eq k r)

/-- The row at the offset computed from trip k and digit r is row 10·k + r + 10. -/
theorem idxRow_off3 (k : Fin k0_t1_loop.trips) (r : Fin 10)
    (h : ∀ a, (k0_off3 k (BitVec.ofNat 32 r.val)) a + S1x64.size a ≤ S160x64.size a) :
    ((Memref.whole cc0_scratch0 : Memref sig .scVector .vmem S160x64 .i32).slice
        (Rect.unit (s := S160x64) (k0_off3 k (BitVec.ofNat 32 r.val)) S1x64.size h) (fun _ => rfl)).squeeze S64 squeezes_S1x64_S64
      = idxRowC (10 * k.val + r.val + 10) (row3_lt k r) :=
  idxRow_congr _ _ (k0_off3_eq k r)

theorem set_off3 (k : Fin k0_t1_loop.trips) (r : Fin 10) :
    (((Memref.whole cc0_scratch0 : Memref sig .scVector .vmem S160x64 .i32).slice
        (Rect.unit (s := S160x64) (k0_off3 k (BitVec.ofNat 32 r.val)) S1x64.size (k0_off3_inb k r)) (fun _ => rfl)).squeeze S64 squeezes_S1x64_S64).view.set
      = (idxRowC (10 * k.val + r.val + 10) (row3_lt k r)).view.set :=
  idxRow_set_congr _ _ (k0_off3_eq k r)

/-! ## The same with the digit written out, one per digit: the form an access has in the program's text -/

theorem idxRow_off6_0 (k : Fin k0_t1_loop.trips) (h : ∀ a, (k0_off6 k 0#32) a + S1x64.size a ≤ S160x64.size a) :
    ((Memref.whole cc0_scratch0 : Memref sig .scVector .vmem S160x64 .i32).slice
        (Rect.unit (s := S160x64) (k0_off6 k 0#32) S1x64.size h) (fun _ => rfl)).squeeze S64 squeezes_S1x64_S64
      = idxRowC (10 * k.val + 0 + 16) (row6_lt k 0) :=
  idxRow_congr _ _ (k0_off6_eq k 0)
theorem set_off6_0 (k : Fin k0_t1_loop.trips) (h : ∀ a, (k0_off6 k 0#32) a + S1x64.size a ≤ S160x64.size a) :
    (((Memref.whole cc0_scratch0 : Memref sig .scVector .vmem S160x64 .i32).slice
        (Rect.unit (s := S160x64) (k0_off6 k 0#32) S1x64.size h) (fun _ => rfl)).squeeze S64 squeezes_S1x64_S64).view.set
      = (idxRowC (10 * k.val + 0 + 16) (row6_lt k 0)).view.set :=
  idxRow_set_congr _ _ (k0_off6_eq k 0)

theorem idxRow_off6_1 (k : Fin k0_t1_loop.trips) (h : ∀ a, (k0_off6 k 1#32) a + S1x64.size a ≤ S160x64.size a) :
    ((Memref.whole cc0_scratch0 : Memref sig .scVector .vmem S160x64 .i32).slice
        (Rect.unit (s := S160x64) (k0_off6 k 1#32) S1x64.size h) (fun _ => rfl)).squeeze S64 squeezes_S1x64_S64
      = idxRowC (10 * k.val + 1 + 16) (row6_lt k 1) :=
  idxRow_congr _ _ (k0_off6_eq k 1)
theorem set_off6_1 (k : Fin k0_t1_loop.trips) (h : ∀ a, (k0_off6 k 1#32) a + S1x64.size a ≤ S160x64.size a) :
    (((Memref.whole cc0_scratch0 : Memref sig .scVector .vmem S160x64 .i32).slice
        (Rect.unit (s := S160x64) (k0_off6 k 1#32) S1x64.size h) (fun _ => rfl)).squeeze S64 squeezes_S1x64_S64).view.set
      = (idxRowC (10 * k.val + 1 + 16) (row6_lt k 1)).view.set :=
  idxRow_set_congr _ _ (k0_off6_eq k 1)

theorem idxRow_off6_2 (k : Fin k0_t1_loop.trips) (h : ∀ a, (k0_off6 k 2#32) a + S1x64.size a ≤ S160x64.size a) :
    ((Memref.whole cc0_scratch0 : Memref sig .scVector .vmem S160x64 .i32).slice
        (Rect.unit (s := S160x64) (k0_off6 k 2#32) S1x64.size h) (fun _ => rfl)).squeeze S64 squeezes_S1x64_S64
      = idxRowC (10 * k.val + 2 + 16) (row6_lt k 2) :=
  idxRow_congr _ _ (k0_off6_eq k 2)
theorem set_off6_2 (k : Fin k0_t1_loop.trips) (h : ∀ a, (k0_off6 k 2#32) a + S1x64.size a ≤ S160x64.size a) :
    (((Memref.whole cc0_scratch0 : Memref sig .scVector .vmem S160x64 .i32).slice
        (Rect.unit (s := S160x64) (k0_off6 k 2#32) S1x64.size h) (fun _ => rfl)).squeeze S64 squeezes_S1x64_S64).view.set
      = (idxRowC (10 * k.val + 2 + 16) (row6_lt k 2)).view.set :=
  idxRow_set_congr _ _ (k0_off6_eq k 2)

theorem idxRow_off6_3 (k : Fin k0_t1_loop.trips) (h : ∀ a, (k0_off6 k 3#32) a + S1x64.size a ≤ S160x64.size a) :
    ((Memref.whole cc0_scratch0 : Memref sig .scVector .vmem S160x64 .i32).slice
        (Rect.unit (s := S160x64) (k0_off6 k 3#32) S1x64.size h) (fun _ => rfl)).squeeze S64 squeezes_S1x64_S64
      = idxRowC (10 * k.val + 3 + 16) (row6_lt k 3) :=
  idxRow_congr _ _ (k0_off6_eq k 3)
theorem set_off6_3 (k : Fin k0_t1_loop.trips) (h : ∀ a, (k0_off6 k 3#32) a + S1x64.size a ≤ S160x64.size a) :
    (((Memref.whole cc0_scratch0 : Memref sig .scVector .vmem S160x64 .i32).slice
        (Rect.unit (s := S160x64) (k0_off6 k 3#32) S1x64.size h) (fun _ => rfl)).squeeze S64 squeezes_S1x64_S64).view.set
      = (idxRowC (10 * k.val + 3 + 16) (row6_lt k 3)).view.set :=
  idxRow_set_congr _ _ (k0_off6_eq k 3)

theorem idxRow_off6_4 (k : Fin k0_t1_loop.trips) (h : ∀ a, (k0_off6 k 4#32) a + S1x64.size a ≤ S160x64.size a) :
    ((Memref.whole cc0_scratch0 : Memref sig .scVector .vmem S160x64 .i32).slice
        (Rect.unit (s := S160x64) (k0_off6 k 4#32) S1x64.size h) (fun _ => rfl)).squeeze S64 squeezes_S1x64_S64
      = idxRowC (10 * k.val + 4 + 16) (row6_lt k 4) :=
  idxRow_congr _ _ (k0_off6_eq k 4)
theorem set_off6_4 (k : Fin k0_t1_loop.trips) (h : ∀ a, (k0_off6 k 4#32) a + S1x64.size a ≤ S160x64.size a) :
    (((Memref.whole cc0_scratch0 : Memref sig .scVector .vmem S160x64 .i32).slice
        (Rect.unit (s := S160x64) (k0_off6 k 4#32) S1x64.size h) (fun _ => rfl)).squeeze S64 squeezes_S1x64_S64).view.set
      = (idxRowC (10 * k.val + 4 + 16) (row6_lt k 4)).view.set :=
  idxRow_set_congr _ _ (k0_off6_eq k 4)

theorem idxRow_off6_5 (k : Fin k0_t1_loop.trips) (h : ∀ a, (k0_off6 k 5#32) a + S1x64.size a ≤ S160x64.size a) :
    ((Memref.whole cc0_scratch0 : Memref sig .scVector .vmem S160x64 .i32).slice
        (Rect.unit (s := S160x64) (k0_off6 k 5#32) S1x64.size h) (fun _ => rfl)).squeeze S64 squeezes_S1x64_S64
      = idxRowC (10 * k.val + 5 + 16) (row6_lt k 5) :=
  idxRow_congr _ _ (k0_off6_eq k 5)
theorem set_off6_5 (k : Fin k0_t1_loop.trips) (h : ∀ a, (k0_off6 k 5#32) a + S1x64.size a ≤ S160x64.size a) :
    (((Memref.whole cc0_scratch0 : Memref sig .scVector .vmem S160x64 .i32).slice
        (Rect.unit (s := S160x64) (k0_off6 k 5#32) S1x64.size h) (fun _ => rfl)).squeeze S64 squeezes_S1x64_S64).view.set
      = (idxRowC (10 * k.val + 5 + 16) (row6_lt k 5)).view.set :=
  idxRow_set_congr _ _ (k0_off6_eq k 5)

theorem idxRow_off6_6 (k : Fin k0_t1_loop.trips) (h : ∀ a, (k0_off6 k 6#32) a + S1x64.size a ≤ S160x64.size a) :
    ((Memref.whole cc0_scratch0 : Memref sig .scVector .vmem S160x64 .i32).slice
        (Rect.unit (s := S160x64) (k0_off6 k 6#32) S1x64.size h) (fun _ => rfl)).squeeze S64 squeezes_S1x64_S64
      = idxRowC (10 * k.val + 6 + 16) (row6_lt k 6) :=
  idxRow_congr _ _ (k0_off6_eq k 6)
theorem set_off6_6 (k : Fin k0_t1_loop.trips) (h : ∀ a, (k0_off6 k 6#32) a + S1x64.size a ≤ S160x64.size a) :
    (((Memref.whole cc0_scratch0 : Memref sig .scVector .vmem S160x64 .i32).slice
        (Rect.unit (s := S160x64) (k0_off6 k 6#32) S1x64.size h) (fun _ => rfl)).squeeze S64 squeezes_S1x64_S64).view.set
      = (idxRowC (10 * k.val + 6 + 16) (row6_lt k 6)).view.set :=
  idxRow_set_congr _ _ (k0_off6_eq k 6)

theorem idxRow_off6_7 (k : Fin k0_t1_loop.trips) (h : ∀ a, (k0_off6 k 7#32) a + S1x64.size a ≤ S160x64.size a) :
    ((Memref.whole cc0_scratch0 : Memref sig .scVector .vmem S160x64 .i32).slice
        (Rect.unit (s := S160x64) (k0_off6 k 7#32) S1x64.size h) (fun _ => rfl)).squeeze S64 squeezes_S1x64_S64
      = idxRowC (10 * k.val + 7 + 16) (row6_lt k 7) :=
  idxRow_congr _ _ (k0_off6_eq k 7)
theorem set_off6_7 (k : Fin k0_t1_loop.trips) (h : ∀ a, (k0_off6 k 7#32) a + S1x64.size a ≤ S160x64.size a) :
    (((Memref.whole cc0_scratch0 : Memref sig .scVector .vmem S160x64 .i32).slice
        (Rect.unit (s := S160x64) (k0_off6 k 7#32) S1x64.size h) (fun _ => rfl)).squeeze S64 squeezes_S1x64_S64).view.set
      = (idxRowC (10 * k.val + 7 + 16) (row6_lt k 7)).view.set :=
  idxRow_set_congr _ _ (k0_off6_eq k 7)

theorem idxRow_off6_8 (k : Fin k0_t1_loop.trips) (h : ∀ a, (k0_off6 k 8#32) a + S1x64.size a ≤ S160x64.size a) :
    ((Memref.whole cc0_scratch0 : Memref sig .scVector .vmem S160x64 .i32).slice
        (Rect.unit (s := S160x64) (k0_off6 k 8#32) S1x64.size h) (fun _ => rfl)).squeeze S64 squeezes_S1x64_S64
      = idxRowC (10 * k.val + 8 + 16) (row6_lt k 8) :=
  idxRow_congr _ _ (k0_off6_eq k 8)
theorem set_off6_8 (k : Fin k0_t1_loop.trips) (h : ∀ a, (k0_off6 k 8#32) a + S1x64.size a ≤ S160x64.size a) :
    (((Memref.whole cc0_scratch0 : Memref sig .scVector .vmem S160x64 .i32).slice
        (Rect.unit (s := S160x64) (k0_off6 k 8#32) S1x64.size h) (fun _ => rfl)).squeeze S64 squeezes_S1x64_S64).view.set
      = (idxRowC (10 * k.val + 8 + 16) (row6_lt k 8)).view.set :=
  idxRow_set_congr _ _ (k0_off6_eq k 8)

theorem idxRow_off6_9 (k : Fin k0_t1_loop.trips) (h : ∀ a, (k0_off6 k 9#32) a + S1x64.size a ≤ S160x64.size a) :
    ((Memref.whole cc0_scratch0 : Memref sig .scVector .vmem S160x64 .i32).slice
        (Rect.unit (s := S160x64) (k0_off6 k 9#32) S1x64.size h) (fun _ => rfl)).squeeze S64 squeezes_S1x64_S64
      = idxRowC (10 * k.val + 9 + 16) (row6_lt k 9) :=
  idxRow_congr _ _ (k0_off6_eq k 9)
theorem set_off6_9 (k : Fin k0_t1_loop.trips) (h : ∀ a, (k0_off6 k 9#32) a + S1x64.size a ≤ S160x64.size a) :
    (((Memref.whole cc0_scratch0 : Memref sig .scVector .vmem S160x64 .i32).slice
        (Rect.unit (s := S160x64) (k0_off6 k 9#32) S1x64.size h) (fun _ => rfl)).squeeze S64 squeezes_S1x64_S64).view.set
      = (idxRowC (10 * k.val + 9 + 16) (row6_lt k 9)).view.set :=
  idxRow_set_congr _ _ (k0_off6_eq k 9)

theorem idxRow_off3_0 (k : Fin k0_t1_loop.trips) (h : ∀ a, (k0_off3 k 0#32) a + S1x64.size a ≤ S160x64.size a) :
    ((Memref.whole cc0_scratch0 : Memref sig .scVector .vmem S160x64 .i32).slice
        (Rect.unit (s := S160x64) (k0_off3 k 0#32) S1x64.size h) (fun _ => rfl)).squeeze S64 squeezes_S1x64_S64
      = idxRowC (10 * k.val + 0 + 10) (row3_lt k 0) :=
  idxRow_congr _ _ (k0_off3_eq k 0)
theorem set_off3_0 (k : Fin k0_t1_loop.trips) (h : ∀ a, (k0_off3 k 0#32) a + S1x64.size a ≤ S160x64.size a) :
    (((Memref.whole cc0_scratch0 : Memref sig .scVector .vmem S160x64 .i32).slice
        (Rect.unit (s := S160x64) (k0_off3 k 0#32) S1x64.size h) (fun _ => rfl)).squeeze S64 squeezes_S1x64_S64).view.set
      = (idxRowC (10 * k.val + 0 + 10) (row3_lt k 0)).view.set :=
  idxRow_set_congr _ _ (k0_off3_eq k 0)

theorem idxRow_off3_1 (k : Fin k0_t1_loop.trips) (h : ∀ a, (k0_off3 k 1#32) a + S1x64.size a ≤ S160x64.size a) :
    ((Memref.whole cc0_scratch0 : Memref sig .scVector .vmem S160x64 .i32).slice
        (Rect.unit (s := S160x64) (k0_off3 k 1#32) S1x64.size h) (fun _ => rfl)).squeeze S64 squeezes_S1x64_S64
      = idxRowC (10 * k.val + 1 + 10) (row3_lt k 1) :=
  idxRow_congr _ _ (k0_off3_eq k 1)
theorem set_off3_1 (k : Fin k0_t1_loop.trips) (h : ∀ a, (k0_off3 k 1#32) a + S1x64.size a ≤ S160x64.size a) :
    (((Memref.whole cc0_scratch0 : Memref sig .scVector .vmem S160x64 .i32).slice
        (Rect.unit (s := S160x64) (k0_off3 k 1#32) S1x64.size h) (fun _ => rfl)).squeeze S64 squeezes_S1x64_S64).view.set
      = (idxRowC (10 * k.val + 1 + 10) (row3_lt k 1)).view.set :=
  idxRow_set_congr _ _ (k0_off3_eq k 1)

theorem idxRow_off3_2 (k : Fin k0_t1_loop.trips) (h : ∀ a, (k0_off3 k 2#32) a + S1x64.size a ≤ S160x64.size a) :
    ((Memref.whole cc0_scratch0 : Memref sig .scVector .vmem S160x64 .i32).slice
        (Rect.unit (s := S160x64) (k0_off3 k 2#32) S1x64.size h) (fun _ => rfl)).squeeze S64 squeezes_S1x64_S64
      = idxRowC (10 * k.val + 2 + 10) (row3_lt k 2) :=
  idxRow_congr _ _ (k0_off3_eq k 2)
theorem set_off3_2 (k : Fin k0_t1_loop.trips) (h : ∀ a, (k0_off3 k 2#32) a + S1x64.size a ≤ S160x64.size a) :
    (((Memref.whole cc0_scratch0 : Memref sig .scVector .vmem S160x64 .i32).slice
        (Rect.unit (s := S160x64) (k0_off3 k 2#32) S1x64.size h) (fun _ => rfl)).squeeze S64 squeezes_S1x64_S64).view.set
      = (idxRowC (10 * k.val + 2 + 10) (row3_lt k 2)).view.set :=
  idxRow_set_congr _ _ (k0_off3_eq k 2)

theorem idxRow_off3_3 (k : Fin k0_t1_loop.trips) (h : ∀ a, (k0_off3 k 3#32) a + S1x64.size a ≤ S160x64.size a) :
    ((Memref.whole cc0_scratch0 : Memref sig .scVector .vmem S160x64 .i32).slice
        (Rect.unit (s := S160x64) (k0_off3 k 3#32) S1x64.size h) (fun _ => rfl)).squeeze S64 squeezes_S1x64_S64
      = idxRowC (10 * k.val + 3 + 10) (row3_lt k 3) :=
  idxRow_congr _ _ (k0_off3_eq k 3)
theorem set_off3_3 (k : Fin k0_t1_loop.trips) (h : ∀ a, (k0_off3 k 3#32) a + S1x64.size a ≤ S160x64.size a) :
    (((Memref.whole cc0_scratch0 : Memref sig .scVector .vmem S160x64 .i32).slice
        (Rect.unit (s := S160x64) (k0_off3 k 3#32) S1x64.size h) (fun _ => rfl)).squeeze S64 squeezes_S1x64_S64).view.set
      = (idxRowC (10 * k.val + 3 + 10) (row3_lt k 3)).view.set :=
  idxRow_set_congr _ _ (k0_off3_eq k 3)

theorem idxRow_off3_4 (k : Fin k0_t1_loop.trips) (h : ∀ a, (k0_off3 k 4#32) a + S1x64.size a ≤ S160x64.size a) :
    ((Memref.whole cc0_scratch0 : Memref sig .scVector .vmem S160x64 .i32).slice
        (Rect.unit (s := S160x64) (k0_off3 k 4#32) S1x64.size h) (fun _ => rfl)).squeeze S64 squeezes_S1x64_S64
      = idxRowC (10 * k.val + 4 + 10) (row3_lt k 4) :=
  idxRow_congr _ _ (k0_off3_eq k 4)
theorem set_off3_4 (k : Fin k0_t1_loop.trips) (h : ∀ a, (k0_off3 k 4#32) a + S1x64.size a ≤ S160x64.size a) :
    (((Memref.whole cc0_scratch0 : Memref sig .scVector .vmem S160x64 .i32).slice
        (Rect.unit (s := S160x64) (k0_off3 k 4#32) S1x64.size h) (fun _ => rfl)).squeeze S64 squeezes_S1x64_S64).view.set
      = (idxRowC (10 * k.val + 4 + 10) (row3_lt k 4)).view.set :=
  idxRow_set_congr _ _ (k0_off3_eq k 4)

theorem idxRow_off3_5 (k : Fin k0_t1_loop.trips) (h : ∀ a, (k0_off3 k 5#32) a + S1x64.size a ≤ S160x64.size a) :
    ((Memref.whole cc0_scratch0 : Memref sig .scVector .vmem S160x64 .i32).slice
        (Rect.unit (s := S160x64) (k0_off3 k 5#32) S1x64.size h) (fun _ => rfl)).squeeze S64 squeezes_S1x64_S64
      = idxRowC (10 * k.val + 5 + 10) (row3_lt k 5) :=
  idxRow_congr _ _ (k0_off3_eq k 5)
theorem set_off3_5 (k : Fin k0_t1_loop.trips) (h : ∀ a, (k0_off3 k 5#32) a + S1x64.size a ≤ S160x64.size a) :
    (((Memref.whole cc0_scratch0 : Memref sig .scVector .vmem S160x64 .i32).slice
        (Rect.unit (s := S160x64) (k0_off3 k 5#32) S1x64.size h) (fun _ => rfl)).squeeze S64 squeezes_S1x64_S64).view.set
      = (idxRowC (10 * k.val + 5 + 10) (row3_lt k 5)).view.set :=
  idxRow_set_congr _ _ (k0_off3_eq k 5)

theorem idxRow_off3_6 (k : Fin k0_t1_loop.trips) (h : ∀ a, (k0_off3 k 6#32) a + S1x64.size a ≤ S160x64.size a) :
    ((Memref.whole cc0_scratch0 : Memref sig .scVector .vmem S160x64 .i32).slice
        (Rect.unit (s := S160x64) (k0_off3 k 6#32) S1x64.size h) (fun _ => rfl)).squeeze S64 squeezes_S1x64_S64
      = idxRowC (10 * k.val + 6 + 10) (row3_lt k 6) :=
  idxRow_congr _ _ (k0_off3_eq k 6)
theorem set_off3_6 (k : Fin k0_t1_loop.trips) (h : ∀ a, (k0_off3 k 6#32) a + S1x64.size a ≤ S160x64.size a) :
    (((Memref.whole cc0_scratch0 : Memref sig .scVector .vmem S160x64 .i32).slice
        (Rect.unit (s := S160x64) (k0_off3 k 6#32) S1x64.size h) (fun _ => rfl)).squeeze S64 squeezes_S1x64_S64).view.set
      = (idxRowC (10 * k.val + 6 + 10) (row3_lt k 6)).view.set :=
  idxRow_set_congr _ _ (k0_off3_eq k 6)

theorem idxRow_off3_7 (k : Fin k0_t1_loop.trips) (h : ∀ a, (k0_off3 k 7#32) a + S1x64.size a ≤ S160x64.size a) :
    ((Memref.whole cc0_scratch0 : Memref sig .scVector .vmem S160x64 .i32).slice
        (Rect.unit (s := S160x64) (k0_off3 k 7#32) S1x64.size h) (fun _ => rfl)).squeeze S64 squeezes_S1x64_S64
      = idxRowC (10 * k.val + 7 + 10) (row3_lt k 7) :=
  idxRow_congr _ _ (k0_off3_eq k 7)
theorem set_off3_7 (k : Fin k0_t1_loop.trips) (h : ∀ a, (k0_off3 k 7#32) a + S1x64.size a ≤ S160x64.size a) :
    (((Memref.whole cc0_scratch0 : Memref sig .scVector .vmem S160x64 .i32).slice
        (Rect.unit (s := S160x64) (k0_off3 k 7#32) S1x64.size h) (fun _ => rfl)).squeeze S64 squeezes_S1x64_S64).view.set
      = (idxRowC (10 * k.val + 7 + 10) (row3_lt k 7)).view.set :=
  idxRow_set_congr _ _ (k0_off3_eq k 7)

theorem idxRow_off3_8 (k : Fin k0_t1_loop.trips) (h : ∀ a, (k0_off3 k 8#32) a + S1x64.size a ≤ S160x64.size a) :
    ((Memref.whole cc0_scratch0 : Memref sig .scVector .vmem S160x64 .i32).slice
        (Rect.unit (s := S160x64) (k0_off3 k 8#32) S1x64.size h) (fun _ => rfl)).squeeze S64 squeezes_S1x64_S64
      = idxRowC (10 * k.val + 8 + 10) (row3_lt k 8) :=
  idxRow_congr _ _ (k0_off3_eq k 8)
theorem set_off3_8 (k : Fin k0_t1_loop.trips) (h : ∀ a, (k0_off3 k 8#32) a + S1x64.size a ≤ S160x64.size a) :
    (((Memref.whole cc0_scratch0 : Memref sig .scVector .vmem S160x64 .i32).slice
        (Rect.unit (s := S160x64) (k0_off3 k 8#32) S1x64.size h) (fun _ => rfl)).squeeze S64 squeezes_S1x64_S64).view.set
      = (idxRowC (10 * k.val + 8 + 10) (row3_lt k 8)).view.set :=
  idxRow_set_congr _ _ (k0_off3_eq k 8)

theorem idxRow_off3_9 (k : Fin k0_t1_loop.trips) (h : ∀ a, (k0_off3 k 9#32) a + S1x64.size a ≤ S160x64.size a) :
    ((Memref.whole cc0_scratch0 : Memref sig .scVector .vmem S160x64 .i32).slice
        (Rect.unit (s := S160x64) (k0_off3 k 9#32) S1x64.size h) (fun _ => rfl)).squeeze S64 squeezes_S1x64_S64
      = idxRowC (10 * k.val + 9 + 10) (row3_lt k 9) :=
  idxRow_congr _ _ (k0_off3_eq k 9)
theorem set_off3_9 (k : Fin k0_t1_loop.trips) (h : ∀ a, (k0_off3 k 9#32) a + S1x64.size a ≤ S160x64.size a) :
    (((Memref.whole cc0_scratch0 : Memref sig .scVector .vmem S160x64 .i32).slice
        (Rect.unit (s := S160x64) (k0_off3 k 9#32) S1x64.size h) (fun _ => rfl)).squeeze S64 squeezes_S1x64_S64).view.set
      = (idxRowC (10 * k.val + 9 + 10) (row3_lt k 9)).view.set :=
  idxRow_set_congr _ _ (k0_off3_eq k 9)

/-! ## A worker's block of the re-laid row numbers -/

/-- A worker's block of the re-laid row numbers, as a 160 × 64 array, depends on its offset alone. -/
theorem x3Row_set_congr {off off' : Fin 3 → ℕ} (h : ∀ a, off a + S1x160x64.size a ≤ S32x160x64.size a)
    (h' : ∀ a, off' a + S1x160x64.size a ≤ S32x160x64.size a) (e : off = off') :
    (((Memref.whole main_v0_scv : Memref sig .scVector .hbm S32x160x64 .i32).slice
        (Rect.unit (s := S32x160x64) off S1x160x64.size h) (fun _ => rfl)).squeeze S160x64 squeezes_S1x160x64_S160x64).view.set
      = (((Memref.whole main_v0_scv : Memref sig .scVector .hbm S32x160x64 .i32).slice
        (Rect.unit (s := S32x160x64) off' S1x160x64.size h') (fun _ => rfl)).squeeze S160x64 squeezes_S1x160x64_S160x64).view.set := by
  subst e; rfl

/-- The block of the re-laid row numbers the worker at grid coordinates L reads, as a 160 × 64 array. -/
abbrev x3RowM (L : grid0.Coords) : Memref sig .scVector .hbm S160x64 .i32 :=
  ((Memref.whole main_v0_scv : Memref sig .scVector .hbm S32x160x64 .i32).slice
    (Rect.unit (s := S32x160x64) (k0_off1 L) S1x160x64.size (k0_off1_inb L)) (fun _ => rfl)).squeeze S160x64 squeezes_S1x160x64_S160x64

/-- It covers block 2·s + c of the 32: the indices of worker (c, s)'s share. -/
theorem x3Row_set (d : Dev nD) (L : grid0.Coords) : (x3RowM L).view.set = x3Set d (widL L) := by
  refine (x3Row_set_congr (k0_off1_inb L) (x3Row_inb (widL L)) (k0_off1_eq L)).trans ?_
  show (((View.whole (main_v0_scv : Ref sig .scVector)).slice (x3Row (widL L))).reshape S160x64
        squeezes_S1x160x64_S160x64.numel_eq).set = (x3Row (widL L)).set
  rw [View.set_reshape, View.set_slice]
  exact Finset.map_refl

end Cert.KernelIdealRun

end
-- ==== Proof.KernelIdealRun.Slices.Out.lean ====
/-
  Where the program's accesses to the flat output fall, as chunks.

  Worker `(L 0, L 1)` of the 2 × 16 grid is worker number `2 · L 1 + L 0` of 32 and owns the 10240 flat output rows from
  `20480 · L 1 + 10240 · L 0` on; chunk `g < 160` of it is the 64 rows from `20480 · L 1 + 10240 · L 0 + 64 · g`. The
  program names such a block of rows by an offset it computes in 32-bit words. A slice is determined by its offset,
  whatever the evidence that it is in bounds, so each such access is the access of a chunk: inside the loop, trip `k` and
  digit `r` name chunk `10 k + r + 10` (the block fetched into) and chunk `10 k + r + 6` (the block written back);
  outside the loop the 24 constant offsets name chunks 0 to 9 and 146 to 159. A chunk's set of indices is the block
  `Cert.Cover.chunkRect` of the cover of the output.

  Sets of indices are compared as sets of indices of the `327680 × 128` output, and slices as `64 × 128` arrays: each
  equation is stated at that type outright, the same for every slice whatever its offset.
-/
import proofs.«207499_g15272903704957_cont_week2b_486_20_alg».proof.Proof.KernelIdealRun.Slices.Idx
import proofs.«207499_g15272903704957_cont_week2b_486_20_alg».proof.Proof.OffsetFacts
import proofs.«207499_g15272903704957_cont_week2b_486_20_alg».proof.Proof.Cover

noncomputable section

namespace Cert.KernelIdealRun

open Cert.KernelIdeal Cert.KernelIdeal.Gen

open Idealize.ShloMosaic

/-! ## A chunk of a worker's output rows, by number -/

/-- Chunk `g < 160` of worker `(L 0, L 1)` lies inside the flat output: its last row is below `327680`. -/
theorem oChunkC_inb (L : grid0.Coords) (g : ℕ) (hg : g < 160) :
    ∀ a, (![20480 * (L 1).val + 10240 * (L 0).val + 64 * g, 0] : Fin 2 → ℕ) a + S64x128.size a ≤ S327680x128.size a := by
  have h0 : (L 0).val < 2 := (L 0).isLt
  have h1 : (L 1).val < 16 := (L 1).isLt
  exact Rect.inb₂ (by show 20480 * (L 1).val + 10240 * (L 0).val + 64 * g + 64 ≤ 327680; omega) (by show 0 + 128 ≤ 128; omega)

/-- Chunk `g` of worker `(L 0, L 1)`, as the thread names it: 64 rows of the whole flat output. -/
abbrev oChunkC (L : grid0.Coords) (g : ℕ) (hg : g < 160) : Memref sig .scVector .hbm S64x128 .f32 :=
  (Memref.slice (κ := .scVector) (sp := .hbm) (s := S327680x128) (e := .f32) (Memref.whole main_v1_scv)
        (Rect.unit (s := S327680x128) ![20480 * (L 1).val + 10240 * (L 0).val + 64 * g, 0] S64x128.size (oChunkC_inb L g hg)) (fun _ => rfl))

/-! ## A block of rows depends on its offset alone -/

/-- Blocks of 64 rows of the output at equal offsets are the same array, whatever the in-bounds evidence. -/
theorem oChunk_congr {off off' : Fin 2 → ℕ} (h : ∀ a, off a + S64x128.size a ≤ S327680x128.size a)
    (h' : ∀ a, off' a + S64x128.size a ≤ S327680x128.size a) (e : off = off') :
    @Eq (Memref sig .scVector .hbm S64x128 .f32) (Memref.slice (κ := .scVector) (sp := .hbm) (s := S327680x128) (e := .f32) (Memref.whole main_v1_scv)
        (Rect.unit (s := S327680x128) off S64x128.size h) (fun _ => rfl))
      (Memref.slice (κ := .scVector) (sp := .hbm) (s := S327680x128) (e := .f32) (Memref.whole main_v1_scv)
        (Rect.unit (s := S327680x128) off' S64x128.size h') (fun _ => rfl)) := by
  subst e; rfl

/-- … and so cover the same indices of the output. -/
theorem oChunk_set_congr {off off' : Fin 2 → ℕ} (h : ∀ a, off a + S64x128.size a ≤ S327680x128.size a)
    (h' : ∀ a, off' a + S64x128.size a ≤ S327680x128.size a) (e : off = off') :
    @Eq (Finset S327680x128.Idx) (Memref.slice (κ := .scVector) (sp := .hbm) (s := S327680x128) (e := .f32) (Memref.whole main_v1_scv)
        (Rect.unit (s := S327680x128) off S64x128.size h) (fun _ => rfl)).view.set
      (Memref.slice (κ := .scVector) (sp := .hbm) (s := S327680x128) (e := .f32) (Memref.whole main_v1_scv)
        (Rect.unit (s := S327680x128) off' S64x128.size h') (fun _ => rfl)).view.set := by
  subst e; rfl

/-! ## The accesses inside the loop -/

theorem chunk4_lt (k : Fin k0_t1_loop.trips) (r : Fin 10) : 10 * k.val + r.val + 10 < 160 := by
  have := trip_lt k; have := r.isLt; omega
theorem chunk5_lt (k : Fin k0_t1_loop.trips) (r : Fin 10) : 10 * k.val + r.val + 6 < 160 := by
  have := trip_lt k; have := r.isLt; omega

/-- The block fetched into at trip `k`, digit `r`: row `640 k + 64 r + 640` of the worker's rows is the first of chunk
    `10 k + r + 10`. -/
theorem off4_chunk (L : grid0.Coords) (k : Fin k0_t1_loop.trips) (r : Fin 10) :
    k0_off4 L k (BitVec.ofNat 32 r.val) = ![20480 * (L 1).val + 10240 * (L 0).val + 64 * (10 * k.val + r.val + 10), 0] := by
  rw [k0_off4_eq]
  have e : 20480 * (L 1).val + 10240 * (L 0).val + 640 * k.val + 64 * r.val + 640
      = 20480 * (L 1).val + 10240 * (L 0).val + 64 * (10 * k.val + r.val + 10) := by omega
  rw [e]

/-- The block written back at trip `k`, digit `r`: row `640 k + 64 r + 384` of the worker's rows is the first of chunk
    `10 k + r + 6`. -/
theorem off5_chunk (L : grid0.Coords) (k : Fin k0_t1_loop.trips) (r : Fin 10) :
    k0_off5 L k (BitVec.ofNat 32 r.val) = ![20480 * (L 1).val + 10240 * (L 0).val + 64 * (10 * k.val + r.val + 6), 0] := by
  rw [k0_off5_eq]
  have e : 20480 * (L 1).val + 10240 * (L 0).val + 640 * k.val + 64 * r.val + 384
      = 20480 * (L 1).val + 10240 * (L 0).val + 64 * (10 * k.val + r.val + 6) := by omega
  rw [e]

theorem oChunk_off4_of (L : grid0.Coords) (k : Fin k0_t1_loop.trips) (r : Fin 10)
    (h : ∀ a, (k0_off4 L k (BitVec.ofNat 32 r.val)) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k (BitVec.ofNat 32 r.val)) S64x128.size h) (fun _ => rfl))
      (oChunkC L (10 * k.val + r.val + 10) (chunk4_lt k r)) :=
  oChunk_congr _ _ (off4_chunk L k r)
theorem set_off4_of (L : grid0.Coords) (k : Fin k0_t1_loop.trips) (r : Fin 10)
    (h : ∀ a, (k0_off4 L k (BitVec.ofNat 32 r.val)) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k (BitVec.ofNat 32 r.val)) S64x128.size h) (fun _ => rfl)).view.set
      (oChunkC L (10 * k.val + r.val + 10) (chunk4_lt k r)).view.set :=
  oChunk_set_congr _ _ (off4_chunk L k r)
theorem oChunk_off4 (L : grid0.Coords) (k : Fin k0_t1_loop.trips) (r : Fin 10) :
    @Eq (Memref sig .scVector .hbm S64x128 .f32) (Memref.slice (κ := .scVector) (sp := .hbm) (s := S327680x128) (e := .f32) (Memref.whole main_v1_scv)
        (Rect.unit (s := S327680x128) (k0_off4 L k (BitVec.ofNat 32 r.val)) S64x128.size (k0_off4_inb L k r)) (fun _ => rfl))
      (oChunkC L (10 * k.val + r.val + 10) (chunk4_lt k r)) :=
  oChunk_congr _ _ (off4_chunk L k r)
theorem set_off4 (L : grid0.Coords) (k : Fin k0_t1_loop.trips) (r : Fin 10) :
    @Eq (Finset S327680x128.Idx) (Memref.slice (κ := .scVector) (sp := .hbm) (s := S327680x128) (e := .f32) (Memref.whole main_v1_scv)
        (Rect.unit (s := S327680x128) (k0_off4 L k (BitVec.ofNat 32 r.val)) S64x128.size (k0_off4_inb L k r)) (fun _ => rfl)).view.set
      (oChunkC L (10 * k.val + r.val + 10) (chunk4_lt k r)).view.set :=
  oChunk_set_congr _ _ (off4_chunk L k r)

theorem oChunk_off5_of (L : grid0.Coords) (k : Fin k0_t1_loop.trips) (r : Fin 10)
    (h : ∀ a, (k0_off5 L k (BitVec.ofNat 32 r.val)) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k (BitVec.ofNat 32 r.val)) S64x128.size h) (fun _ => rfl))
      (oChunkC L (10 * k.val + r.val + 6) (chunk5_lt k r)) :=
  oChunk_congr _ _ (off5_chunk L k r)
theorem set_off5_of (L : grid0.Coords) (k : Fin k0_t1_loop.trips) (r : Fin 10)
    (h : ∀ a, (k0_off5 L k (BitVec.ofNat 32 r.val)) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k (BitVec.ofNat 32 r.val)) S64x128.size h) (fun _ => rfl)).view.set
      (oChunkC L (10 * k.val + r.val + 6) (chunk5_lt k r)).view.set :=
  oChunk_set_congr _ _ (off5_chunk L k r)
theorem oChunk_off5 (L : grid0.Coords) (k : Fin k0_t1_loop.trips) (r : Fin 10) :
    @Eq (Memref sig .scVector .hbm S64x128 .f32) (Memref.slice (κ := .scVector) (sp := .hbm) (s := S327680x128) (e := .f32) (Memref.whole main_v1_scv)
        (Rect.unit (s := S327680x128) (k0_off5 L k (BitVec.ofNat 32 r.val)) S64x128.size (k0_off5_inb L k r)) (fun _ => rfl))
      (oChunkC L (10 * k.val + r.val + 6) (chunk5_lt k r)) :=
  oChunk_congr _ _ (off5_chunk L k r)
theorem set_off5 (L : grid0.Coords) (k : Fin k0_t1_loop.trips) (r : Fin 10) :
    @Eq (Finset S327680x128.Idx) (Memref.slice (κ := .scVector) (sp := .hbm) (s := S327680x128) (e := .f32) (Memref.whole main_v1_scv)
        (Rect.unit (s := S327680x128) (k0_off5 L k (BitVec.ofNat 32 r.val)) S64x128.size (k0_off5_inb L k r)) (fun _ => rfl)).view.set
      (oChunkC L (10 * k.val + r.val + 6) (chunk5_lt k r)).view.set :=
  oChunk_set_congr _ _ (off5_chunk L k r)

/-! ## The same with the digit written out, one per digit: the form an access has in the program's text

Each comes with the program's own in-bounds evidence in its statement, and (`…_of`) with any evidence. -/

theorem oChunk_off4_0 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 0#32) S64x128.size (k0_off4_inb L k 0)) (fun _ => rfl))
      (oChunkC L (10 * k.val + 0 + 10) (chunk4_lt k 0)) :=
  oChunk_congr _ _ (off4_chunk L k 0)
theorem set_off4_0 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 0#32) S64x128.size (k0_off4_inb L k 0)) (fun _ => rfl)).view.set
      (oChunkC L (10 * k.val + 0 + 10) (chunk4_lt k 0)).view.set :=
  oChunk_set_congr _ _ (off4_chunk L k 0)
theorem oChunk_off4_0_of (L : grid0.Coords) (k : Fin k0_t1_loop.trips) (h : ∀ a, (k0_off4 L k 0#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 0#32) S64x128.size h) (fun _ => rfl))
      (oChunkC L (10 * k.val + 0 + 10) (chunk4_lt k 0)) :=
  oChunk_congr _ _ (off4_chunk L k 0)
theorem set_off4_0_of (L : grid0.Coords) (k : Fin k0_t1_loop.trips) (h : ∀ a, (k0_off4 L k 0#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 0#32) S64x128.size h) (fun _ => rfl)).view.set
      (oChunkC L (10 * k.val + 0 + 10) (chunk4_lt k 0)).view.set :=
  oChunk_set_congr _ _ (off4_chunk L k 0)

theorem oChunk_off4_1 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 1#32) S64x128.size (k0_off4_inb L k 1)) (fun _ => rfl))
      (oChunkC L (10 * k.val + 1 + 10) (chunk4_lt k 1)) :=
  oChunk_congr _ _ (off4_chunk L k 1)
theorem set_off4_1 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 1#32) S64x128.size (k0_off4_inb L k 1)) (fun _ => rfl)).view.set
      (oChunkC L (10 * k.val + 1 + 10) (chunk4_lt k 1)).view.set :=
  oChunk_set_congr _ _ (off4_chunk L k 1)
theorem oChunk_off4_1_of (L : grid0.Coords) (k : Fin k0_t1_loop.trips) (h : ∀ a, (k0_off4 L k 1#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 1#32) S64x128.size h) (fun _ => rfl))
      (oChunkC L (10 * k.val + 1 + 10) (chunk4_lt k 1)) :=
  oChunk_congr _ _ (off4_chunk L k 1)
theorem set_off4_1_of (L : grid0.Coords) (k : Fin k0_t1_loop.trips) (h : ∀ a, (k0_off4 L k 1#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 1#32) S64x128.size h) (fun _ => rfl)).view.set
      (oChunkC L (10 * k.val + 1 + 10) (chunk4_lt k 1)).view.set :=
  oChunk_set_congr _ _ (off4_chunk L k 1)

theorem oChunk_off4_2 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 2#32) S64x128.size (k0_off4_inb L k 2)) (fun _ => rfl))
      (oChunkC L (10 * k.val + 2 + 10) (chunk4_lt k 2)) :=
  oChunk_congr _ _ (off4_chunk L k 2)
theorem set_off4_2 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 2#32) S64x128.size (k0_off4_inb L k 2)) (fun _ => rfl)).view.set
      (oChunkC L (10 * k.val + 2 + 10) (chunk4_lt k 2)).view.set :=
  oChunk_set_congr _ _ (off4_chunk L k 2)
theorem oChunk_off4_2_of (L : grid0.Coords) (k : Fin k0_t1_loop.trips) (h : ∀ a, (k0_off4 L k 2#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 2#32) S64x128.size h) (fun _ => rfl))
      (oChunkC L (10 * k.val + 2 + 10) (chunk4_lt k 2)) :=
  oChunk_congr _ _ (off4_chunk L k 2)
theorem set_off4_2_of (L : grid0.Coords) (k : Fin k0_t1_loop.trips) (h : ∀ a, (k0_off4 L k 2#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 2#32) S64x128.size h) (fun _ => rfl)).view.set
      (oChunkC L (10 * k.val + 2 + 10) (chunk4_lt k 2)).view.set :=
  oChunk_set_congr _ _ (off4_chunk L k 2)

theorem oChunk_off4_3 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 3#32) S64x128.size (k0_off4_inb L k 3)) (fun _ => rfl))
      (oChunkC L (10 * k.val + 3 + 10) (chunk4_lt k 3)) :=
  oChunk_congr _ _ (off4_chunk L k 3)
theorem set_off4_3 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 3#32) S64x128.size (k0_off4_inb L k 3)) (fun _ => rfl)).view.set
      (oChunkC L (10 * k.val + 3 + 10) (chunk4_lt k 3)).view.set :=
  oChunk_set_congr _ _ (off4_chunk L k 3)
theorem oChunk_off4_3_of (L : grid0.Coords) (k : Fin k0_t1_loop.trips) (h : ∀ a, (k0_off4 L k 3#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 3#32) S64x128.size h) (fun _ => rfl))
      (oChunkC L (10 * k.val + 3 + 10) (chunk4_lt k 3)) :=
  oChunk_congr _ _ (off4_chunk L k 3)
theorem set_off4_3_of (L : grid0.Coords) (k : Fin k0_t1_loop.trips) (h : ∀ a, (k0_off4 L k 3#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 3#32) S64x128.size h) (fun _ => rfl)).view.set
      (oChunkC L (10 * k.val + 3 + 10) (chunk4_lt k 3)).view.set :=
  oChunk_set_congr _ _ (off4_chunk L k 3)

theorem oChunk_off4_4 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 4#32) S64x128.size (k0_off4_inb L k 4)) (fun _ => rfl))
      (oChunkC L (10 * k.val + 4 + 10) (chunk4_lt k 4)) :=
  oChunk_congr _ _ (off4_chunk L k 4)
theorem set_off4_4 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 4#32) S64x128.size (k0_off4_inb L k 4)) (fun _ => rfl)).view.set
      (oChunkC L (10 * k.val + 4 + 10) (chunk4_lt k 4)).view.set :=
  oChunk_set_congr _ _ (off4_chunk L k 4)
theorem oChunk_off4_4_of (L : grid0.Coords) (k : Fin k0_t1_loop.trips) (h : ∀ a, (k0_off4 L k 4#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 4#32) S64x128.size h) (fun _ => rfl))
      (oChunkC L (10 * k.val + 4 + 10) (chunk4_lt k 4)) :=
  oChunk_congr _ _ (off4_chunk L k 4)
theorem set_off4_4_of (L : grid0.Coords) (k : Fin k0_t1_loop.trips) (h : ∀ a, (k0_off4 L k 4#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 4#32) S64x128.size h) (fun _ => rfl)).view.set
      (oChunkC L (10 * k.val + 4 + 10) (chunk4_lt k 4)).view.set :=
  oChunk_set_congr _ _ (off4_chunk L k 4)

theorem oChunk_off4_5 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 5#32) S64x128.size (k0_off4_inb L k 5)) (fun _ => rfl))
      (oChunkC L (10 * k.val + 5 + 10) (chunk4_lt k 5)) :=
  oChunk_congr _ _ (off4_chunk L k 5)
theorem set_off4_5 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 5#32) S64x128.size (k0_off4_inb L k 5)) (fun _ => rfl)).view.set
      (oChunkC L (10 * k.val + 5 + 10) (chunk4_lt k 5)).view.set :=
  oChunk_set_congr _ _ (off4_chunk L k 5)
theorem oChunk_off4_5_of (L : grid0.Coords) (k : Fin k0_t1_loop.trips) (h : ∀ a, (k0_off4 L k 5#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 5#32) S64x128.size h) (fun _ => rfl))
      (oChunkC L (10 * k.val + 5 + 10) (chunk4_lt k 5)) :=
  oChunk_congr _ _ (off4_chunk L k 5)
theorem set_off4_5_of (L : grid0.Coords) (k : Fin k0_t1_loop.trips) (h : ∀ a, (k0_off4 L k 5#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 5#32) S64x128.size h) (fun _ => rfl)).view.set
      (oChunkC L (10 * k.val + 5 + 10) (chunk4_lt k 5)).view.set :=
  oChunk_set_congr _ _ (off4_chunk L k 5)

theorem oChunk_off4_6 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 6#32) S64x128.size (k0_off4_inb L k 6)) (fun _ => rfl))
      (oChunkC L (10 * k.val + 6 + 10) (chunk4_lt k 6)) :=
  oChunk_congr _ _ (off4_chunk L k 6)
theorem set_off4_6 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 6#32) S64x128.size (k0_off4_inb L k 6)) (fun _ => rfl)).view.set
      (oChunkC L (10 * k.val + 6 + 10) (chunk4_lt k 6)).view.set :=
  oChunk_set_congr _ _ (off4_chunk L k 6)
theorem oChunk_off4_6_of (L : grid0.Coords) (k : Fin k0_t1_loop.trips) (h : ∀ a, (k0_off4 L k 6#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 6#32) S64x128.size h) (fun _ => rfl))
      (oChunkC L (10 * k.val + 6 + 10) (chunk4_lt k 6)) :=
  oChunk_congr _ _ (off4_chunk L k 6)
theorem set_off4_6_of (L : grid0.Coords) (k : Fin k0_t1_loop.trips) (h : ∀ a, (k0_off4 L k 6#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 6#32) S64x128.size h) (fun _ => rfl)).view.set
      (oChunkC L (10 * k.val + 6 + 10) (chunk4_lt k 6)).view.set :=
  oChunk_set_congr _ _ (off4_chunk L k 6)

theorem oChunk_off4_7 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 7#32) S64x128.size (k0_off4_inb L k 7)) (fun _ => rfl))
      (oChunkC L (10 * k.val + 7 + 10) (chunk4_lt k 7)) :=
  oChunk_congr _ _ (off4_chunk L k 7)
theorem set_off4_7 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 7#32) S64x128.size (k0_off4_inb L k 7)) (fun _ => rfl)).view.set
      (oChunkC L (10 * k.val + 7 + 10) (chunk4_lt k 7)).view.set :=
  oChunk_set_congr _ _ (off4_chunk L k 7)
theorem oChunk_off4_7_of (L : grid0.Coords) (k : Fin k0_t1_loop.trips) (h : ∀ a, (k0_off4 L k 7#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 7#32) S64x128.size h) (fun _ => rfl))
      (oChunkC L (10 * k.val + 7 + 10) (chunk4_lt k 7)) :=
  oChunk_congr _ _ (off4_chunk L k 7)
theorem set_off4_7_of (L : grid0.Coords) (k : Fin k0_t1_loop.trips) (h : ∀ a, (k0_off4 L k 7#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 7#32) S64x128.size h) (fun _ => rfl)).view.set
      (oChunkC L (10 * k.val + 7 + 10) (chunk4_lt k 7)).view.set :=
  oChunk_set_congr _ _ (off4_chunk L k 7)

theorem oChunk_off4_8 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 8#32) S64x128.size (k0_off4_inb L k 8)) (fun _ => rfl))
      (oChunkC L (10 * k.val + 8 + 10) (chunk4_lt k 8)) :=
  oChunk_congr _ _ (off4_chunk L k 8)
theorem set_off4_8 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 8#32) S64x128.size (k0_off4_inb L k 8)) (fun _ => rfl)).view.set
      (oChunkC L (10 * k.val + 8 + 10) (chunk4_lt k 8)).view.set :=
  oChunk_set_congr _ _ (off4_chunk L k 8)
theorem oChunk_off4_8_of (L : grid0.Coords) (k : Fin k0_t1_loop.trips) (h : ∀ a, (k0_off4 L k 8#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 8#32) S64x128.size h) (fun _ => rfl))
      (oChunkC L (10 * k.val + 8 + 10) (chunk4_lt k 8)) :=
  oChunk_congr _ _ (off4_chunk L k 8)
theorem set_off4_8_of (L : grid0.Coords) (k : Fin k0_t1_loop.trips) (h : ∀ a, (k0_off4 L k 8#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 8#32) S64x128.size h) (fun _ => rfl)).view.set
      (oChunkC L (10 * k.val + 8 + 10) (chunk4_lt k 8)).view.set :=
  oChunk_set_congr _ _ (off4_chunk L k 8)

theorem oChunk_off4_9 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off4 L k 9#32) S64x128.size (k0_off4_inb L k 9)) (fun _ => rfl))
      (oChunkC L (10 * k.val + 9 + 10) (chunk4_lt k 9)) :=
  oChunk_congr _ _ (off4_chunk L k 9)
theorem set_off4_9 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off4 L k 9#32) S64x128.size (k0_off4_inb L k 9)) (fun _ => rfl)).view.set
      (oChunkC L (10 * k.val + 9 + 10) (chunk4_lt k 9)).view.set :=
  oChunk_set_congr _ _ (off4_chunk L k 9)
theorem oChunk_off4_9_of (L : grid0.Coords) (k : Fin k0_t1_loop.trips) (h : ∀ a, (k0_off4 L k 9#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off4 L k 9#32) S64x128.size h) (fun _ => rfl))
      (oChunkC L (10 * k.val + 9 + 10) (chunk4_lt k 9)) :=
  oChunk_congr _ _ (off4_chunk L k 9)
theorem set_off4_9_of (L : grid0.Coords) (k : Fin k0_t1_loop.trips) (h : ∀ a, (k0_off4 L k 9#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off4 L k 9#32) S64x128.size h) (fun _ => rfl)).view.set
      (oChunkC L (10 * k.val + 9 + 10) (chunk4_lt k 9)).view.set :=
  oChunk_set_congr _ _ (off4_chunk L k 9)

theorem oChunk_off5_0 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 0#32) S64x128.size (k0_off5_inb L k 0)) (fun _ => rfl))
      (oChunkC L (10 * k.val + 0 + 6) (chunk5_lt k 0)) :=
  oChunk_congr _ _ (off5_chunk L k 0)
theorem set_off5_0 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 0#32) S64x128.size (k0_off5_inb L k 0)) (fun _ => rfl)).view.set
      (oChunkC L (10 * k.val + 0 + 6) (chunk5_lt k 0)).view.set :=
  oChunk_set_congr _ _ (off5_chunk L k 0)
theorem oChunk_off5_0_of (L : grid0.Coords) (k : Fin k0_t1_loop.trips) (h : ∀ a, (k0_off5 L k 0#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 0#32) S64x128.size h) (fun _ => rfl))
      (oChunkC L (10 * k.val + 0 + 6) (chunk5_lt k 0)) :=
  oChunk_congr _ _ (off5_chunk L k 0)
theorem set_off5_0_of (L : grid0.Coords) (k : Fin k0_t1_loop.trips) (h : ∀ a, (k0_off5 L k 0#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 0#32) S64x128.size h) (fun _ => rfl)).view.set
      (oChunkC L (10 * k.val + 0 + 6) (chunk5_lt k 0)).view.set :=
  oChunk_set_congr _ _ (off5_chunk L k 0)

theorem oChunk_off5_1 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 1#32) S64x128.size (k0_off5_inb L k 1)) (fun _ => rfl))
      (oChunkC L (10 * k.val + 1 + 6) (chunk5_lt k 1)) :=
  oChunk_congr _ _ (off5_chunk L k 1)
theorem set_off5_1 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 1#32) S64x128.size (k0_off5_inb L k 1)) (fun _ => rfl)).view.set
      (oChunkC L (10 * k.val + 1 + 6) (chunk5_lt k 1)).view.set :=
  oChunk_set_congr _ _ (off5_chunk L k 1)
theorem oChunk_off5_1_of (L : grid0.Coords) (k : Fin k0_t1_loop.trips) (h : ∀ a, (k0_off5 L k 1#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 1#32) S64x128.size h) (fun _ => rfl))
      (oChunkC L (10 * k.val + 1 + 6) (chunk5_lt k 1)) :=
  oChunk_congr _ _ (off5_chunk L k 1)
theorem set_off5_1_of (L : grid0.Coords) (k : Fin k0_t1_loop.trips) (h : ∀ a, (k0_off5 L k 1#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 1#32) S64x128.size h) (fun _ => rfl)).view.set
      (oChunkC L (10 * k.val + 1 + 6) (chunk5_lt k 1)).view.set :=
  oChunk_set_congr _ _ (off5_chunk L k 1)

theorem oChunk_off5_2 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 2#32) S64x128.size (k0_off5_inb L k 2)) (fun _ => rfl))
      (oChunkC L (10 * k.val + 2 + 6) (chunk5_lt k 2)) :=
  oChunk_congr _ _ (off5_chunk L k 2)
theorem set_off5_2 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 2#32) S64x128.size (k0_off5_inb L k 2)) (fun _ => rfl)).view.set
      (oChunkC L (10 * k.val + 2 + 6) (chunk5_lt k 2)).view.set :=
  oChunk_set_congr _ _ (off5_chunk L k 2)
theorem oChunk_off5_2_of (L : grid0.Coords) (k : Fin k0_t1_loop.trips) (h : ∀ a, (k0_off5 L k 2#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 2#32) S64x128.size h) (fun _ => rfl))
      (oChunkC L (10 * k.val + 2 + 6) (chunk5_lt k 2)) :=
  oChunk_congr _ _ (off5_chunk L k 2)
theorem set_off5_2_of (L : grid0.Coords) (k : Fin k0_t1_loop.trips) (h : ∀ a, (k0_off5 L k 2#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 2#32) S64x128.size h) (fun _ => rfl)).view.set
      (oChunkC L (10 * k.val + 2 + 6) (chunk5_lt k 2)).view.set :=
  oChunk_set_congr _ _ (off5_chunk L k 2)

theorem oChunk_off5_3 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 3#32) S64x128.size (k0_off5_inb L k 3)) (fun _ => rfl))
      (oChunkC L (10 * k.val + 3 + 6) (chunk5_lt k 3)) :=
  oChunk_congr _ _ (off5_chunk L k 3)
theorem set_off5_3 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 3#32) S64x128.size (k0_off5_inb L k 3)) (fun _ => rfl)).view.set
      (oChunkC L (10 * k.val + 3 + 6) (chunk5_lt k 3)).view.set :=
  oChunk_set_congr _ _ (off5_chunk L k 3)
theorem oChunk_off5_3_of (L : grid0.Coords) (k : Fin k0_t1_loop.trips) (h : ∀ a, (k0_off5 L k 3#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 3#32) S64x128.size h) (fun _ => rfl))
      (oChunkC L (10 * k.val + 3 + 6) (chunk5_lt k 3)) :=
  oChunk_congr _ _ (off5_chunk L k 3)
theorem set_off5_3_of (L : grid0.Coords) (k : Fin k0_t1_loop.trips) (h : ∀ a, (k0_off5 L k 3#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 3#32) S64x128.size h) (fun _ => rfl)).view.set
      (oChunkC L (10 * k.val + 3 + 6) (chunk5_lt k 3)).view.set :=
  oChunk_set_congr _ _ (off5_chunk L k 3)

theorem oChunk_off5_4 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 4#32) S64x128.size (k0_off5_inb L k 4)) (fun _ => rfl))
      (oChunkC L (10 * k.val + 4 + 6) (chunk5_lt k 4)) :=
  oChunk_congr _ _ (off5_chunk L k 4)
theorem set_off5_4 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 4#32) S64x128.size (k0_off5_inb L k 4)) (fun _ => rfl)).view.set
      (oChunkC L (10 * k.val + 4 + 6) (chunk5_lt k 4)).view.set :=
  oChunk_set_congr _ _ (off5_chunk L k 4)
theorem oChunk_off5_4_of (L : grid0.Coords) (k : Fin k0_t1_loop.trips) (h : ∀ a, (k0_off5 L k 4#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 4#32) S64x128.size h) (fun _ => rfl))
      (oChunkC L (10 * k.val + 4 + 6) (chunk5_lt k 4)) :=
  oChunk_congr _ _ (off5_chunk L k 4)
theorem set_off5_4_of (L : grid0.Coords) (k : Fin k0_t1_loop.trips) (h : ∀ a, (k0_off5 L k 4#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 4#32) S64x128.size h) (fun _ => rfl)).view.set
      (oChunkC L (10 * k.val + 4 + 6) (chunk5_lt k 4)).view.set :=
  oChunk_set_congr _ _ (off5_chunk L k 4)

theorem oChunk_off5_5 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 5#32) S64x128.size (k0_off5_inb L k 5)) (fun _ => rfl))
      (oChunkC L (10 * k.val + 5 + 6) (chunk5_lt k 5)) :=
  oChunk_congr _ _ (off5_chunk L k 5)
theorem set_off5_5 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 5#32) S64x128.size (k0_off5_inb L k 5)) (fun _ => rfl)).view.set
      (oChunkC L (10 * k.val + 5 + 6) (chunk5_lt k 5)).view.set :=
  oChunk_set_congr _ _ (off5_chunk L k 5)
theorem oChunk_off5_5_of (L : grid0.Coords) (k : Fin k0_t1_loop.trips) (h : ∀ a, (k0_off5 L k 5#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 5#32) S64x128.size h) (fun _ => rfl))
      (oChunkC L (10 * k.val + 5 + 6) (chunk5_lt k 5)) :=
  oChunk_congr _ _ (off5_chunk L k 5)
theorem set_off5_5_of (L : grid0.Coords) (k : Fin k0_t1_loop.trips) (h : ∀ a, (k0_off5 L k 5#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 5#32) S64x128.size h) (fun _ => rfl)).view.set
      (oChunkC L (10 * k.val + 5 + 6) (chunk5_lt k 5)).view.set :=
  oChunk_set_congr _ _ (off5_chunk L k 5)

theorem oChunk_off5_6 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 6#32) S64x128.size (k0_off5_inb L k 6)) (fun _ => rfl))
      (oChunkC L (10 * k.val + 6 + 6) (chunk5_lt k 6)) :=
  oChunk_congr _ _ (off5_chunk L k 6)
theorem set_off5_6 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 6#32) S64x128.size (k0_off5_inb L k 6)) (fun _ => rfl)).view.set
      (oChunkC L (10 * k.val + 6 + 6) (chunk5_lt k 6)).view.set :=
  oChunk_set_congr _ _ (off5_chunk L k 6)
theorem oChunk_off5_6_of (L : grid0.Coords) (k : Fin k0_t1_loop.trips) (h : ∀ a, (k0_off5 L k 6#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 6#32) S64x128.size h) (fun _ => rfl))
      (oChunkC L (10 * k.val + 6 + 6) (chunk5_lt k 6)) :=
  oChunk_congr _ _ (off5_chunk L k 6)
theorem set_off5_6_of (L : grid0.Coords) (k : Fin k0_t1_loop.trips) (h : ∀ a, (k0_off5 L k 6#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 6#32) S64x128.size h) (fun _ => rfl)).view.set
      (oChunkC L (10 * k.val + 6 + 6) (chunk5_lt k 6)).view.set :=
  oChunk_set_congr _ _ (off5_chunk L k 6)

theorem oChunk_off5_7 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 7#32) S64x128.size (k0_off5_inb L k 7)) (fun _ => rfl))
      (oChunkC L (10 * k.val + 7 + 6) (chunk5_lt k 7)) :=
  oChunk_congr _ _ (off5_chunk L k 7)
theorem set_off5_7 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 7#32) S64x128.size (k0_off5_inb L k 7)) (fun _ => rfl)).view.set
      (oChunkC L (10 * k.val + 7 + 6) (chunk5_lt k 7)).view.set :=
  oChunk_set_congr _ _ (off5_chunk L k 7)
theorem oChunk_off5_7_of (L : grid0.Coords) (k : Fin k0_t1_loop.trips) (h : ∀ a, (k0_off5 L k 7#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 7#32) S64x128.size h) (fun _ => rfl))
      (oChunkC L (10 * k.val + 7 + 6) (chunk5_lt k 7)) :=
  oChunk_congr _ _ (off5_chunk L k 7)
theorem set_off5_7_of (L : grid0.Coords) (k : Fin k0_t1_loop.trips) (h : ∀ a, (k0_off5 L k 7#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 7#32) S64x128.size h) (fun _ => rfl)).view.set
      (oChunkC L (10 * k.val + 7 + 6) (chunk5_lt k 7)).view.set :=
  oChunk_set_congr _ _ (off5_chunk L k 7)

theorem oChunk_off5_8 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 8#32) S64x128.size (k0_off5_inb L k 8)) (fun _ => rfl))
      (oChunkC L (10 * k.val + 8 + 6) (chunk5_lt k 8)) :=
  oChunk_congr _ _ (off5_chunk L k 8)
theorem set_off5_8 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 8#32) S64x128.size (k0_off5_inb L k 8)) (fun _ => rfl)).view.set
      (oChunkC L (10 * k.val + 8 + 6) (chunk5_lt k 8)).view.set :=
  oChunk_set_congr _ _ (off5_chunk L k 8)
theorem oChunk_off5_8_of (L : grid0.Coords) (k : Fin k0_t1_loop.trips) (h : ∀ a, (k0_off5 L k 8#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 8#32) S64x128.size h) (fun _ => rfl))
      (oChunkC L (10 * k.val + 8 + 6) (chunk5_lt k 8)) :=
  oChunk_congr _ _ (off5_chunk L k 8)
theorem set_off5_8_of (L : grid0.Coords) (k : Fin k0_t1_loop.trips) (h : ∀ a, (k0_off5 L k 8#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 8#32) S64x128.size h) (fun _ => rfl)).view.set
      (oChunkC L (10 * k.val + 8 + 6) (chunk5_lt k 8)).view.set :=
  oChunk_set_congr _ _ (off5_chunk L k 8)

theorem oChunk_off5_9 (L : grid0.Coords) (k : Fin k0_t1_loop.trips) :
    @Eq (Memref sig .scVector .hbm S64x128 .f32) (Memref.slice (κ := .scVector) (sp := .hbm) (s := S327680x128) (e := .f32) (Memref.whole main_v1_scv)
        (Rect.unit (s := S327680x128) (k0_off5 L k 9#32) S64x128.size (k0_off5_inb L k 9)) (fun _ => rfl))
      (oChunkC L (10 * k.val + 9 + 6) (chunk5_lt k 9)) :=
  oChunk_congr _ _ (off5_chunk L k 9)
theorem set_off5_9 (L : grid0.Coords) (k : Fin k0_t1_loop.trips) :
    @Eq (Finset S327680x128.Idx) (Memref.slice (κ := .scVector) (sp := .hbm) (s := S327680x128) (e := .f32) (Memref.whole main_v1_scv)
        (Rect.unit (s := S327680x128) (k0_off5 L k 9#32) S64x128.size (k0_off5_inb L k 9)) (fun _ => rfl)).view.set
      (oChunkC L (10 * k.val + 9 + 6) (chunk5_lt k 9)).view.set :=
  oChunk_set_congr _ _ (off5_chunk L k 9)
theorem oChunk_off5_9_of (L : grid0.Coords) (k : Fin k0_t1_loop.trips) (h : ∀ a, (k0_off5 L k 9#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off5 L k 9#32) S64x128.size h) (fun _ => rfl))
      (oChunkC L (10 * k.val + 9 + 6) (chunk5_lt k 9)) :=
  oChunk_congr _ _ (off5_chunk L k 9)
theorem set_off5_9_of (L : grid0.Coords) (k : Fin k0_t1_loop.trips) (h : ∀ a, (k0_off5 L k 9#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off5 L k 9#32) S64x128.size h) (fun _ => rfl)).view.set
      (oChunkC L (10 * k.val + 9 + 6) (chunk5_lt k 9)).view.set :=
  oChunk_set_congr _ _ (off5_chunk L k 9)

/-! ## The accesses outside the loop -/

/-- Each of the 24 constant offsets is a whole number of chunks into the worker's rows, below 160. -/
theorem off2_at_chunk : ∀ R : Fin 24, 64 * ((k0_off2_at R).toNat / 64) = (k0_off2_at R).toNat ∧ (k0_off2_at R).toNat / 64 < 160 := by
  decide

theorem off2_chunk (L : grid0.Coords) (R : Fin 24) :
    k0_off2 L (k0_off2_at R) = ![20480 * (L 1).val + 10240 * (L 0).val + 64 * ((k0_off2_at R).toNat / 64), 0] := by
  rw [Cert.OffsetFacts.KernelIdeal.k0_off2_eq, (off2_at_chunk R).1]

theorem oChunk_off2 (L : grid0.Coords) (R : Fin 24) :
    @Eq (Memref sig .scVector .hbm S64x128 .f32) (Memref.slice (κ := .scVector) (sp := .hbm) (s := S327680x128) (e := .f32) (Memref.whole main_v1_scv)
        (Rect.unit (s := S327680x128) (k0_off2 L (k0_off2_at R)) S64x128.size (k0_off2_inb L R)) (fun _ => rfl))
      (oChunkC L ((k0_off2_at R).toNat / 64) (off2_at_chunk R).2) :=
  oChunk_congr _ _ (off2_chunk L R)

theorem set_off2 (L : grid0.Coords) (R : Fin 24) :
    @Eq (Finset S327680x128.Idx) (Memref.slice (κ := .scVector) (sp := .hbm) (s := S327680x128) (e := .f32) (Memref.whole main_v1_scv)
        (Rect.unit (s := S327680x128) (k0_off2 L (k0_off2_at R)) S64x128.size (k0_off2_inb L R)) (fun _ => rfl)).view.set
      (oChunkC L ((k0_off2_at R).toNat / 64) (off2_at_chunk R).2).view.set :=
  oChunk_set_congr _ _ (off2_chunk L R)

/-! The same with the constant and the chunk's number written out, one per row of the table: chunks 0 to 9, then
    150, 146, 151, 147, 152, 148, 153, 149, 154 and 155 to 159, in the order the program names them. -/

theorem lt160_0 : 0 < 160 := by omega
theorem lt160_1 : 1 < 160 := by omega
theorem lt160_2 : 2 < 160 := by omega
theorem lt160_3 : 3 < 160 := by omega
theorem lt160_4 : 4 < 160 := by omega
theorem lt160_5 : 5 < 160 := by omega
theorem lt160_6 : 6 < 160 := by omega
theorem lt160_7 : 7 < 160 := by omega
theorem lt160_8 : 8 < 160 := by omega
theorem lt160_9 : 9 < 160 := by omega
theorem lt160_150 : 150 < 160 := by omega
theorem lt160_146 : 146 < 160 := by omega
theorem lt160_151 : 151 < 160 := by omega
theorem lt160_147 : 147 < 160 := by omega
theorem lt160_152 : 152 < 160 := by omega
theorem lt160_148 : 148 < 160 := by omega
theorem lt160_153 : 153 < 160 := by omega
theorem lt160_149 : 149 < 160 := by omega
theorem lt160_154 : 154 < 160 := by omega
theorem lt160_155 : 155 < 160 := by omega
theorem lt160_156 : 156 < 160 := by omega
theorem lt160_157 : 157 < 160 := by omega
theorem lt160_158 : 158 < 160 := by omega
theorem lt160_159 : 159 < 160 := by omega

theorem off2_lit_chunk_0 (L : grid0.Coords) : k0_off2 L 0#32 = ![20480 * (L 1).val + 10240 * (L 0).val + 64 * 0, 0] :=
  Cert.OffsetFacts.KernelIdeal.k0_off2_lit_0 L
theorem oChunk_off2_0 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 0#32) S64x128.size (k0_off2_inb L 0)) (fun _ => rfl))
      (oChunkC L 0 lt160_0) :=
  oChunk_congr _ _ (off2_lit_chunk_0 L)
theorem set_off2_0 (L : grid0.Coords) :
    @Eq (Finset S327680x128.Idx) (Memref.slice (κ := .scVector) (sp := .hbm) (s := S327680x128) (e := .f32) (Memref.whole main_v1_scv)
        (Rect.unit (s := S327680x128) (k0_off2 L 0#32) S64x128.size (k0_off2_inb L 0)) (fun _ => rfl)).view.set
      (oChunkC L 0 lt160_0).view.set :=
  oChunk_set_congr _ _ (off2_lit_chunk_0 L)
theorem oChunk_off2_0_of (L : grid0.Coords) (h : ∀ a, (k0_off2 L 0#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 0#32) S64x128.size h) (fun _ => rfl))
      (oChunkC L 0 lt160_0) :=
  oChunk_congr _ _ (off2_lit_chunk_0 L)
theorem set_off2_0_of (L : grid0.Coords) (h : ∀ a, (k0_off2 L 0#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 0#32) S64x128.size h) (fun _ => rfl)).view.set
      (oChunkC L 0 lt160_0).view.set :=
  oChunk_set_congr _ _ (off2_lit_chunk_0 L)

theorem off2_lit_chunk_1 (L : grid0.Coords) : k0_off2 L 64#32 = ![20480 * (L 1).val + 10240 * (L 0).val + 64 * 1, 0] :=
  Cert.OffsetFacts.KernelIdeal.k0_off2_lit_1 L
theorem oChunk_off2_1 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 64#32) S64x128.size (k0_off2_inb L 1)) (fun _ => rfl))
      (oChunkC L 1 lt160_1) :=
  oChunk_congr _ _ (off2_lit_chunk_1 L)
theorem set_off2_1 (L : grid0.Coords) :
    @Eq (Finset S327680x128.Idx) (Memref.slice (κ := .scVector) (sp := .hbm) (s := S327680x128) (e := .f32) (Memref.whole main_v1_scv)
        (Rect.unit (s := S327680x128) (k0_off2 L 64#32) S64x128.size (k0_off2_inb L 1)) (fun _ => rfl)).view.set
      (oChunkC L 1 lt160_1).view.set :=
  oChunk_set_congr _ _ (off2_lit_chunk_1 L)
theorem oChunk_off2_1_of (L : grid0.Coords) (h : ∀ a, (k0_off2 L 64#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 64#32) S64x128.size h) (fun _ => rfl))
      (oChunkC L 1 lt160_1) :=
  oChunk_congr _ _ (off2_lit_chunk_1 L)
theorem set_off2_1_of (L : grid0.Coords) (h : ∀ a, (k0_off2 L 64#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 64#32) S64x128.size h) (fun _ => rfl)).view.set
      (oChunkC L 1 lt160_1).view.set :=
  oChunk_set_congr _ _ (off2_lit_chunk_1 L)

theorem off2_lit_chunk_2 (L : grid0.Coords) : k0_off2 L 128#32 = ![20480 * (L 1).val + 10240 * (L 0).val + 64 * 2, 0] :=
  Cert.OffsetFacts.KernelIdeal.k0_off2_lit_2 L
theorem oChunk_off2_2 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 128#32) S64x128.size (k0_off2_inb L 2)) (fun _ => rfl))
      (oChunkC L 2 lt160_2) :=
  oChunk_congr _ _ (off2_lit_chunk_2 L)
theorem set_off2_2 (L : grid0.Coords) :
    @Eq (Finset S327680x128.Idx) (Memref.slice (κ := .scVector) (sp := .hbm) (s := S327680x128) (e := .f32) (Memref.whole main_v1_scv)
        (Rect.unit (s := S327680x128) (k0_off2 L 128#32) S64x128.size (k0_off2_inb L 2)) (fun _ => rfl)).view.set
      (oChunkC L 2 lt160_2).view.set :=
  oChunk_set_congr _ _ (off2_lit_chunk_2 L)
theorem oChunk_off2_2_of (L : grid0.Coords) (h : ∀ a, (k0_off2 L 128#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 128#32) S64x128.size h) (fun _ => rfl))
      (oChunkC L 2 lt160_2) :=
  oChunk_congr _ _ (off2_lit_chunk_2 L)
theorem set_off2_2_of (L : grid0.Coords) (h : ∀ a, (k0_off2 L 128#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 128#32) S64x128.size h) (fun _ => rfl)).view.set
      (oChunkC L 2 lt160_2).view.set :=
  oChunk_set_congr _ _ (off2_lit_chunk_2 L)

theorem off2_lit_chunk_3 (L : grid0.Coords) : k0_off2 L 192#32 = ![20480 * (L 1).val + 10240 * (L 0).val + 64 * 3, 0] :=
  Cert.OffsetFacts.KernelIdeal.k0_off2_lit_3 L
theorem oChunk_off2_3 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 192#32) S64x128.size (k0_off2_inb L 3)) (fun _ => rfl))
      (oChunkC L 3 lt160_3) :=
  oChunk_congr _ _ (off2_lit_chunk_3 L)
theorem set_off2_3 (L : grid0.Coords) :
    @Eq (Finset S327680x128.Idx) (Memref.slice (κ := .scVector) (sp := .hbm) (s := S327680x128) (e := .f32) (Memref.whole main_v1_scv)
        (Rect.unit (s := S327680x128) (k0_off2 L 192#32) S64x128.size (k0_off2_inb L 3)) (fun _ => rfl)).view.set
      (oChunkC L 3 lt160_3).view.set :=
  oChunk_set_congr _ _ (off2_lit_chunk_3 L)
theorem oChunk_off2_3_of (L : grid0.Coords) (h : ∀ a, (k0_off2 L 192#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 192#32) S64x128.size h) (fun _ => rfl))
      (oChunkC L 3 lt160_3) :=
  oChunk_congr _ _ (off2_lit_chunk_3 L)
theorem set_off2_3_of (L : grid0.Coords) (h : ∀ a, (k0_off2 L 192#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 192#32) S64x128.size h) (fun _ => rfl)).view.set
      (oChunkC L 3 lt160_3).view.set :=
  oChunk_set_congr _ _ (off2_lit_chunk_3 L)

theorem off2_lit_chunk_4 (L : grid0.Coords) : k0_off2 L 256#32 = ![20480 * (L 1).val + 10240 * (L 0).val + 64 * 4, 0] :=
  Cert.OffsetFacts.KernelIdeal.k0_off2_lit_4 L
theorem oChunk_off2_4 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 256#32) S64x128.size (k0_off2_inb L 4)) (fun _ => rfl))
      (oChunkC L 4 lt160_4) :=
  oChunk_congr _ _ (off2_lit_chunk_4 L)
theorem set_off2_4 (L : grid0.Coords) :
    @Eq (Finset S327680x128.Idx) (Memref.slice (κ := .scVector) (sp := .hbm) (s := S327680x128) (e := .f32) (Memref.whole main_v1_scv)
        (Rect.unit (s := S327680x128) (k0_off2 L 256#32) S64x128.size (k0_off2_inb L 4)) (fun _ => rfl)).view.set
      (oChunkC L 4 lt160_4).view.set :=
  oChunk_set_congr _ _ (off2_lit_chunk_4 L)
theorem oChunk_off2_4_of (L : grid0.Coords) (h : ∀ a, (k0_off2 L 256#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 256#32) S64x128.size h) (fun _ => rfl))
      (oChunkC L 4 lt160_4) :=
  oChunk_congr _ _ (off2_lit_chunk_4 L)
theorem set_off2_4_of (L : grid0.Coords) (h : ∀ a, (k0_off2 L 256#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 256#32) S64x128.size h) (fun _ => rfl)).view.set
      (oChunkC L 4 lt160_4).view.set :=
  oChunk_set_congr _ _ (off2_lit_chunk_4 L)

theorem off2_lit_chunk_5 (L : grid0.Coords) : k0_off2 L 320#32 = ![20480 * (L 1).val + 10240 * (L 0).val + 64 * 5, 0] :=
  Cert.OffsetFacts.KernelIdeal.k0_off2_lit_5 L
theorem oChunk_off2_5 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 320#32) S64x128.size (k0_off2_inb L 5)) (fun _ => rfl))
      (oChunkC L 5 lt160_5) :=
  oChunk_congr _ _ (off2_lit_chunk_5 L)
theorem set_off2_5 (L : grid0.Coords) :
    @Eq (Finset S327680x128.Idx) (Memref.slice (κ := .scVector) (sp := .hbm) (s := S327680x128) (e := .f32) (Memref.whole main_v1_scv)
        (Rect.unit (s := S327680x128) (k0_off2 L 320#32) S64x128.size (k0_off2_inb L 5)) (fun _ => rfl)).view.set
      (oChunkC L 5 lt160_5).view.set :=
  oChunk_set_congr _ _ (off2_lit_chunk_5 L)
theorem oChunk_off2_5_of (L : grid0.Coords) (h : ∀ a, (k0_off2 L 320#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 320#32) S64x128.size h) (fun _ => rfl))
      (oChunkC L 5 lt160_5) :=
  oChunk_congr _ _ (off2_lit_chunk_5 L)
theorem set_off2_5_of (L : grid0.Coords) (h : ∀ a, (k0_off2 L 320#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 320#32) S64x128.size h) (fun _ => rfl)).view.set
      (oChunkC L 5 lt160_5).view.set :=
  oChunk_set_congr _ _ (off2_lit_chunk_5 L)

theorem off2_lit_chunk_6 (L : grid0.Coords) : k0_off2 L 384#32 = ![20480 * (L 1).val + 10240 * (L 0).val + 64 * 6, 0] :=
  Cert.OffsetFacts.KernelIdeal.k0_off2_lit_6 L
theorem oChunk_off2_6 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 384#32) S64x128.size (k0_off2_inb L 6)) (fun _ => rfl))
      (oChunkC L 6 lt160_6) :=
  oChunk_congr _ _ (off2_lit_chunk_6 L)
theorem set_off2_6 (L : grid0.Coords) :
    @Eq (Finset S327680x128.Idx) (Memref.slice (κ := .scVector) (sp := .hbm) (s := S327680x128) (e := .f32) (Memref.whole main_v1_scv)
        (Rect.unit (s := S327680x128) (k0_off2 L 384#32) S64x128.size (k0_off2_inb L 6)) (fun _ => rfl)).view.set
      (oChunkC L 6 lt160_6).view.set :=
  oChunk_set_congr _ _ (off2_lit_chunk_6 L)
theorem oChunk_off2_6_of (L : grid0.Coords) (h : ∀ a, (k0_off2 L 384#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 384#32) S64x128.size h) (fun _ => rfl))
      (oChunkC L 6 lt160_6) :=
  oChunk_congr _ _ (off2_lit_chunk_6 L)
theorem set_off2_6_of (L : grid0.Coords) (h : ∀ a, (k0_off2 L 384#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 384#32) S64x128.size h) (fun _ => rfl)).view.set
      (oChunkC L 6 lt160_6).view.set :=
  oChunk_set_congr _ _ (off2_lit_chunk_6 L)

theorem off2_lit_chunk_7 (L : grid0.Coords) : k0_off2 L 448#32 = ![20480 * (L 1).val + 10240 * (L 0).val + 64 * 7, 0] :=
  Cert.OffsetFacts.KernelIdeal.k0_off2_lit_7 L
theorem oChunk_off2_7 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 448#32) S64x128.size (k0_off2_inb L 7)) (fun _ => rfl))
      (oChunkC L 7 lt160_7) :=
  oChunk_congr _ _ (off2_lit_chunk_7 L)
theorem set_off2_7 (L : grid0.Coords) :
    @Eq (Finset S327680x128.Idx) (Memref.slice (κ := .scVector) (sp := .hbm) (s := S327680x128) (e := .f32) (Memref.whole main_v1_scv)
        (Rect.unit (s := S327680x128) (k0_off2 L 448#32) S64x128.size (k0_off2_inb L 7)) (fun _ => rfl)).view.set
      (oChunkC L 7 lt160_7).view.set :=
  oChunk_set_congr _ _ (off2_lit_chunk_7 L)
theorem oChunk_off2_7_of (L : grid0.Coords) (h : ∀ a, (k0_off2 L 448#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 448#32) S64x128.size h) (fun _ => rfl))
      (oChunkC L 7 lt160_7) :=
  oChunk_congr _ _ (off2_lit_chunk_7 L)
theorem set_off2_7_of (L : grid0.Coords) (h : ∀ a, (k0_off2 L 448#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 448#32) S64x128.size h) (fun _ => rfl)).view.set
      (oChunkC L 7 lt160_7).view.set :=
  oChunk_set_congr _ _ (off2_lit_chunk_7 L)

theorem off2_lit_chunk_8 (L : grid0.Coords) : k0_off2 L 512#32 = ![20480 * (L 1).val + 10240 * (L 0).val + 64 * 8, 0] :=
  Cert.OffsetFacts.KernelIdeal.k0_off2_lit_8 L
theorem oChunk_off2_8 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 512#32) S64x128.size (k0_off2_inb L 8)) (fun _ => rfl))
      (oChunkC L 8 lt160_8) :=
  oChunk_congr _ _ (off2_lit_chunk_8 L)
theorem set_off2_8 (L : grid0.Coords) :
    @Eq (Finset S327680x128.Idx) (Memref.slice (κ := .scVector) (sp := .hbm) (s := S327680x128) (e := .f32) (Memref.whole main_v1_scv)
        (Rect.unit (s := S327680x128) (k0_off2 L 512#32) S64x128.size (k0_off2_inb L 8)) (fun _ => rfl)).view.set
      (oChunkC L 8 lt160_8).view.set :=
  oChunk_set_congr _ _ (off2_lit_chunk_8 L)
theorem oChunk_off2_8_of (L : grid0.Coords) (h : ∀ a, (k0_off2 L 512#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 512#32) S64x128.size h) (fun _ => rfl))
      (oChunkC L 8 lt160_8) :=
  oChunk_congr _ _ (off2_lit_chunk_8 L)
theorem set_off2_8_of (L : grid0.Coords) (h : ∀ a, (k0_off2 L 512#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 512#32) S64x128.size h) (fun _ => rfl)).view.set
      (oChunkC L 8 lt160_8).view.set :=
  oChunk_set_congr _ _ (off2_lit_chunk_8 L)

theorem off2_lit_chunk_9 (L : grid0.Coords) : k0_off2 L 576#32 = ![20480 * (L 1).val + 10240 * (L 0).val + 64 * 9, 0] :=
  Cert.OffsetFacts.KernelIdeal.k0_off2_lit_9 L
theorem oChunk_off2_9 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 576#32) S64x128.size (k0_off2_inb L 9)) (fun _ => rfl))
      (oChunkC L 9 lt160_9) :=
  oChunk_congr _ _ (off2_lit_chunk_9 L)
theorem set_off2_9 (L : grid0.Coords) :
    @Eq (Finset S327680x128.Idx) (Memref.slice (κ := .scVector) (sp := .hbm) (s := S327680x128) (e := .f32) (Memref.whole main_v1_scv)
        (Rect.unit (s := S327680x128) (k0_off2 L 576#32) S64x128.size (k0_off2_inb L 9)) (fun _ => rfl)).view.set
      (oChunkC L 9 lt160_9).view.set :=
  oChunk_set_congr _ _ (off2_lit_chunk_9 L)
theorem oChunk_off2_9_of (L : grid0.Coords) (h : ∀ a, (k0_off2 L 576#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 576#32) S64x128.size h) (fun _ => rfl))
      (oChunkC L 9 lt160_9) :=
  oChunk_congr _ _ (off2_lit_chunk_9 L)
theorem set_off2_9_of (L : grid0.Coords) (h : ∀ a, (k0_off2 L 576#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 576#32) S64x128.size h) (fun _ => rfl)).view.set
      (oChunkC L 9 lt160_9).view.set :=
  oChunk_set_congr _ _ (off2_lit_chunk_9 L)

theorem off2_lit_chunk_10 (L : grid0.Coords) : k0_off2 L 9600#32 = ![20480 * (L 1).val + 10240 * (L 0).val + 64 * 150, 0] :=
  Cert.OffsetFacts.KernelIdeal.k0_off2_lit_10 L
theorem oChunk_off2_10 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9600#32) S64x128.size (k0_off2_inb L 10)) (fun _ => rfl))
      (oChunkC L 150 lt160_150) :=
  oChunk_congr _ _ (off2_lit_chunk_10 L)
theorem set_off2_10 (L : grid0.Coords) :
    @Eq (Finset S327680x128.Idx) (Memref.slice (κ := .scVector) (sp := .hbm) (s := S327680x128) (e := .f32) (Memref.whole main_v1_scv)
        (Rect.unit (s := S327680x128) (k0_off2 L 9600#32) S64x128.size (k0_off2_inb L 10)) (fun _ => rfl)).view.set
      (oChunkC L 150 lt160_150).view.set :=
  oChunk_set_congr _ _ (off2_lit_chunk_10 L)
theorem oChunk_off2_10_of (L : grid0.Coords) (h : ∀ a, (k0_off2 L 9600#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9600#32) S64x128.size h) (fun _ => rfl))
      (oChunkC L 150 lt160_150) :=
  oChunk_congr _ _ (off2_lit_chunk_10 L)
theorem set_off2_10_of (L : grid0.Coords) (h : ∀ a, (k0_off2 L 9600#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9600#32) S64x128.size h) (fun _ => rfl)).view.set
      (oChunkC L 150 lt160_150).view.set :=
  oChunk_set_congr _ _ (off2_lit_chunk_10 L)

theorem off2_lit_chunk_11 (L : grid0.Coords) : k0_off2 L 9344#32 = ![20480 * (L 1).val + 10240 * (L 0).val + 64 * 146, 0] :=
  Cert.OffsetFacts.KernelIdeal.k0_off2_lit_11 L
theorem oChunk_off2_11 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9344#32) S64x128.size (k0_off2_inb L 11)) (fun _ => rfl))
      (oChunkC L 146 lt160_146) :=
  oChunk_congr _ _ (off2_lit_chunk_11 L)
theorem set_off2_11 (L : grid0.Coords) :
    @Eq (Finset S327680x128.Idx) (Memref.slice (κ := .scVector) (sp := .hbm) (s := S327680x128) (e := .f32) (Memref.whole main_v1_scv)
        (Rect.unit (s := S327680x128) (k0_off2 L 9344#32) S64x128.size (k0_off2_inb L 11)) (fun _ => rfl)).view.set
      (oChunkC L 146 lt160_146).view.set :=
  oChunk_set_congr _ _ (off2_lit_chunk_11 L)
theorem oChunk_off2_11_of (L : grid0.Coords) (h : ∀ a, (k0_off2 L 9344#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9344#32) S64x128.size h) (fun _ => rfl))
      (oChunkC L 146 lt160_146) :=
  oChunk_congr _ _ (off2_lit_chunk_11 L)
theorem set_off2_11_of (L : grid0.Coords) (h : ∀ a, (k0_off2 L 9344#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9344#32) S64x128.size h) (fun _ => rfl)).view.set
      (oChunkC L 146 lt160_146).view.set :=
  oChunk_set_congr _ _ (off2_lit_chunk_11 L)

theorem off2_lit_chunk_12 (L : grid0.Coords) : k0_off2 L 9664#32 = ![20480 * (L 1).val + 10240 * (L 0).val + 64 * 151, 0] :=
  Cert.OffsetFacts.KernelIdeal.k0_off2_lit_12 L
theorem oChunk_off2_12 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9664#32) S64x128.size (k0_off2_inb L 12)) (fun _ => rfl))
      (oChunkC L 151 lt160_151) :=
  oChunk_congr _ _ (off2_lit_chunk_12 L)
theorem set_off2_12 (L : grid0.Coords) :
    @Eq (Finset S327680x128.Idx) (Memref.slice (κ := .scVector) (sp := .hbm) (s := S327680x128) (e := .f32) (Memref.whole main_v1_scv)
        (Rect.unit (s := S327680x128) (k0_off2 L 9664#32) S64x128.size (k0_off2_inb L 12)) (fun _ => rfl)).view.set
      (oChunkC L 151 lt160_151).view.set :=
  oChunk_set_congr _ _ (off2_lit_chunk_12 L)
theorem oChunk_off2_12_of (L : grid0.Coords) (h : ∀ a, (k0_off2 L 9664#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9664#32) S64x128.size h) (fun _ => rfl))
      (oChunkC L 151 lt160_151) :=
  oChunk_congr _ _ (off2_lit_chunk_12 L)
theorem set_off2_12_of (L : grid0.Coords) (h : ∀ a, (k0_off2 L 9664#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9664#32) S64x128.size h) (fun _ => rfl)).view.set
      (oChunkC L 151 lt160_151).view.set :=
  oChunk_set_congr _ _ (off2_lit_chunk_12 L)

theorem off2_lit_chunk_13 (L : grid0.Coords) : k0_off2 L 9408#32 = ![20480 * (L 1).val + 10240 * (L 0).val + 64 * 147, 0] :=
  Cert.OffsetFacts.KernelIdeal.k0_off2_lit_13 L
theorem oChunk_off2_13 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9408#32) S64x128.size (k0_off2_inb L 13)) (fun _ => rfl))
      (oChunkC L 147 lt160_147) :=
  oChunk_congr _ _ (off2_lit_chunk_13 L)
theorem set_off2_13 (L : grid0.Coords) :
    @Eq (Finset S327680x128.Idx) (Memref.slice (κ := .scVector) (sp := .hbm) (s := S327680x128) (e := .f32) (Memref.whole main_v1_scv)
        (Rect.unit (s := S327680x128) (k0_off2 L 9408#32) S64x128.size (k0_off2_inb L 13)) (fun _ => rfl)).view.set
      (oChunkC L 147 lt160_147).view.set :=
  oChunk_set_congr _ _ (off2_lit_chunk_13 L)
theorem oChunk_off2_13_of (L : grid0.Coords) (h : ∀ a, (k0_off2 L 9408#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9408#32) S64x128.size h) (fun _ => rfl))
      (oChunkC L 147 lt160_147) :=
  oChunk_congr _ _ (off2_lit_chunk_13 L)
theorem set_off2_13_of (L : grid0.Coords) (h : ∀ a, (k0_off2 L 9408#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9408#32) S64x128.size h) (fun _ => rfl)).view.set
      (oChunkC L 147 lt160_147).view.set :=
  oChunk_set_congr _ _ (off2_lit_chunk_13 L)

theorem off2_lit_chunk_14 (L : grid0.Coords) : k0_off2 L 9728#32 = ![20480 * (L 1).val + 10240 * (L 0).val + 64 * 152, 0] :=
  Cert.OffsetFacts.KernelIdeal.k0_off2_lit_14 L
theorem oChunk_off2_14 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9728#32) S64x128.size (k0_off2_inb L 14)) (fun _ => rfl))
      (oChunkC L 152 lt160_152) :=
  oChunk_congr _ _ (off2_lit_chunk_14 L)
theorem set_off2_14 (L : grid0.Coords) :
    @Eq (Finset S327680x128.Idx) (Memref.slice (κ := .scVector) (sp := .hbm) (s := S327680x128) (e := .f32) (Memref.whole main_v1_scv)
        (Rect.unit (s := S327680x128) (k0_off2 L 9728#32) S64x128.size (k0_off2_inb L 14)) (fun _ => rfl)).view.set
      (oChunkC L 152 lt160_152).view.set :=
  oChunk_set_congr _ _ (off2_lit_chunk_14 L)
theorem oChunk_off2_14_of (L : grid0.Coords) (h : ∀ a, (k0_off2 L 9728#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9728#32) S64x128.size h) (fun _ => rfl))
      (oChunkC L 152 lt160_152) :=
  oChunk_congr _ _ (off2_lit_chunk_14 L)
theorem set_off2_14_of (L : grid0.Coords) (h : ∀ a, (k0_off2 L 9728#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9728#32) S64x128.size h) (fun _ => rfl)).view.set
      (oChunkC L 152 lt160_152).view.set :=
  oChunk_set_congr _ _ (off2_lit_chunk_14 L)

theorem off2_lit_chunk_15 (L : grid0.Coords) : k0_off2 L 9472#32 = ![20480 * (L 1).val + 10240 * (L 0).val + 64 * 148, 0] :=
  Cert.OffsetFacts.KernelIdeal.k0_off2_lit_15 L
theorem oChunk_off2_15 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9472#32) S64x128.size (k0_off2_inb L 15)) (fun _ => rfl))
      (oChunkC L 148 lt160_148) :=
  oChunk_congr _ _ (off2_lit_chunk_15 L)
theorem set_off2_15 (L : grid0.Coords) :
    @Eq (Finset S327680x128.Idx) (Memref.slice (κ := .scVector) (sp := .hbm) (s := S327680x128) (e := .f32) (Memref.whole main_v1_scv)
        (Rect.unit (s := S327680x128) (k0_off2 L 9472#32) S64x128.size (k0_off2_inb L 15)) (fun _ => rfl)).view.set
      (oChunkC L 148 lt160_148).view.set :=
  oChunk_set_congr _ _ (off2_lit_chunk_15 L)
theorem oChunk_off2_15_of (L : grid0.Coords) (h : ∀ a, (k0_off2 L 9472#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9472#32) S64x128.size h) (fun _ => rfl))
      (oChunkC L 148 lt160_148) :=
  oChunk_congr _ _ (off2_lit_chunk_15 L)
theorem set_off2_15_of (L : grid0.Coords) (h : ∀ a, (k0_off2 L 9472#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9472#32) S64x128.size h) (fun _ => rfl)).view.set
      (oChunkC L 148 lt160_148).view.set :=
  oChunk_set_congr _ _ (off2_lit_chunk_15 L)

theorem off2_lit_chunk_16 (L : grid0.Coords) : k0_off2 L 9792#32 = ![20480 * (L 1).val + 10240 * (L 0).val + 64 * 153, 0] :=
  Cert.OffsetFacts.KernelIdeal.k0_off2_lit_16 L
theorem oChunk_off2_16 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9792#32) S64x128.size (k0_off2_inb L 16)) (fun _ => rfl))
      (oChunkC L 153 lt160_153) :=
  oChunk_congr _ _ (off2_lit_chunk_16 L)
theorem set_off2_16 (L : grid0.Coords) :
    @Eq (Finset S327680x128.Idx) (Memref.slice (κ := .scVector) (sp := .hbm) (s := S327680x128) (e := .f32) (Memref.whole main_v1_scv)
        (Rect.unit (s := S327680x128) (k0_off2 L 9792#32) S64x128.size (k0_off2_inb L 16)) (fun _ => rfl)).view.set
      (oChunkC L 153 lt160_153).view.set :=
  oChunk_set_congr _ _ (off2_lit_chunk_16 L)
theorem oChunk_off2_16_of (L : grid0.Coords) (h : ∀ a, (k0_off2 L 9792#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9792#32) S64x128.size h) (fun _ => rfl))
      (oChunkC L 153 lt160_153) :=
  oChunk_congr _ _ (off2_lit_chunk_16 L)
theorem set_off2_16_of (L : grid0.Coords) (h : ∀ a, (k0_off2 L 9792#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9792#32) S64x128.size h) (fun _ => rfl)).view.set
      (oChunkC L 153 lt160_153).view.set :=
  oChunk_set_congr _ _ (off2_lit_chunk_16 L)

theorem off2_lit_chunk_17 (L : grid0.Coords) : k0_off2 L 9536#32 = ![20480 * (L 1).val + 10240 * (L 0).val + 64 * 149, 0] :=
  Cert.OffsetFacts.KernelIdeal.k0_off2_lit_17 L
theorem oChunk_off2_17 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9536#32) S64x128.size (k0_off2_inb L 17)) (fun _ => rfl))
      (oChunkC L 149 lt160_149) :=
  oChunk_congr _ _ (off2_lit_chunk_17 L)
theorem set_off2_17 (L : grid0.Coords) :
    @Eq (Finset S327680x128.Idx) (Memref.slice (κ := .scVector) (sp := .hbm) (s := S327680x128) (e := .f32) (Memref.whole main_v1_scv)
        (Rect.unit (s := S327680x128) (k0_off2 L 9536#32) S64x128.size (k0_off2_inb L 17)) (fun _ => rfl)).view.set
      (oChunkC L 149 lt160_149).view.set :=
  oChunk_set_congr _ _ (off2_lit_chunk_17 L)
theorem oChunk_off2_17_of (L : grid0.Coords) (h : ∀ a, (k0_off2 L 9536#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9536#32) S64x128.size h) (fun _ => rfl))
      (oChunkC L 149 lt160_149) :=
  oChunk_congr _ _ (off2_lit_chunk_17 L)
theorem set_off2_17_of (L : grid0.Coords) (h : ∀ a, (k0_off2 L 9536#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9536#32) S64x128.size h) (fun _ => rfl)).view.set
      (oChunkC L 149 lt160_149).view.set :=
  oChunk_set_congr _ _ (off2_lit_chunk_17 L)

theorem off2_lit_chunk_18 (L : grid0.Coords) : k0_off2 L 9856#32 = ![20480 * (L 1).val + 10240 * (L 0).val + 64 * 154, 0] :=
  Cert.OffsetFacts.KernelIdeal.k0_off2_lit_18 L
theorem oChunk_off2_18 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9856#32) S64x128.size (k0_off2_inb L 18)) (fun _ => rfl))
      (oChunkC L 154 lt160_154) :=
  oChunk_congr _ _ (off2_lit_chunk_18 L)
theorem set_off2_18 (L : grid0.Coords) :
    @Eq (Finset S327680x128.Idx) (Memref.slice (κ := .scVector) (sp := .hbm) (s := S327680x128) (e := .f32) (Memref.whole main_v1_scv)
        (Rect.unit (s := S327680x128) (k0_off2 L 9856#32) S64x128.size (k0_off2_inb L 18)) (fun _ => rfl)).view.set
      (oChunkC L 154 lt160_154).view.set :=
  oChunk_set_congr _ _ (off2_lit_chunk_18 L)
theorem oChunk_off2_18_of (L : grid0.Coords) (h : ∀ a, (k0_off2 L 9856#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9856#32) S64x128.size h) (fun _ => rfl))
      (oChunkC L 154 lt160_154) :=
  oChunk_congr _ _ (off2_lit_chunk_18 L)
theorem set_off2_18_of (L : grid0.Coords) (h : ∀ a, (k0_off2 L 9856#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9856#32) S64x128.size h) (fun _ => rfl)).view.set
      (oChunkC L 154 lt160_154).view.set :=
  oChunk_set_congr _ _ (off2_lit_chunk_18 L)

theorem off2_lit_chunk_19 (L : grid0.Coords) : k0_off2 L 9920#32 = ![20480 * (L 1).val + 10240 * (L 0).val + 64 * 155, 0] :=
  Cert.OffsetFacts.KernelIdeal.k0_off2_lit_19 L
theorem oChunk_off2_19 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9920#32) S64x128.size (k0_off2_inb L 19)) (fun _ => rfl))
      (oChunkC L 155 lt160_155) :=
  oChunk_congr _ _ (off2_lit_chunk_19 L)
theorem set_off2_19 (L : grid0.Coords) :
    @Eq (Finset S327680x128.Idx) (Memref.slice (κ := .scVector) (sp := .hbm) (s := S327680x128) (e := .f32) (Memref.whole main_v1_scv)
        (Rect.unit (s := S327680x128) (k0_off2 L 9920#32) S64x128.size (k0_off2_inb L 19)) (fun _ => rfl)).view.set
      (oChunkC L 155 lt160_155).view.set :=
  oChunk_set_congr _ _ (off2_lit_chunk_19 L)
theorem oChunk_off2_19_of (L : grid0.Coords) (h : ∀ a, (k0_off2 L 9920#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9920#32) S64x128.size h) (fun _ => rfl))
      (oChunkC L 155 lt160_155) :=
  oChunk_congr _ _ (off2_lit_chunk_19 L)
theorem set_off2_19_of (L : grid0.Coords) (h : ∀ a, (k0_off2 L 9920#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9920#32) S64x128.size h) (fun _ => rfl)).view.set
      (oChunkC L 155 lt160_155).view.set :=
  oChunk_set_congr _ _ (off2_lit_chunk_19 L)

theorem off2_lit_chunk_20 (L : grid0.Coords) : k0_off2 L 9984#32 = ![20480 * (L 1).val + 10240 * (L 0).val + 64 * 156, 0] :=
  Cert.OffsetFacts.KernelIdeal.k0_off2_lit_20 L
theorem oChunk_off2_20 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 9984#32) S64x128.size (k0_off2_inb L 20)) (fun _ => rfl))
      (oChunkC L 156 lt160_156) :=
  oChunk_congr _ _ (off2_lit_chunk_20 L)
theorem set_off2_20 (L : grid0.Coords) :
    @Eq (Finset S327680x128.Idx) (Memref.slice (κ := .scVector) (sp := .hbm) (s := S327680x128) (e := .f32) (Memref.whole main_v1_scv)
        (Rect.unit (s := S327680x128) (k0_off2 L 9984#32) S64x128.size (k0_off2_inb L 20)) (fun _ => rfl)).view.set
      (oChunkC L 156 lt160_156).view.set :=
  oChunk_set_congr _ _ (off2_lit_chunk_20 L)
theorem oChunk_off2_20_of (L : grid0.Coords) (h : ∀ a, (k0_off2 L 9984#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 9984#32) S64x128.size h) (fun _ => rfl))
      (oChunkC L 156 lt160_156) :=
  oChunk_congr _ _ (off2_lit_chunk_20 L)
theorem set_off2_20_of (L : grid0.Coords) (h : ∀ a, (k0_off2 L 9984#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 9984#32) S64x128.size h) (fun _ => rfl)).view.set
      (oChunkC L 156 lt160_156).view.set :=
  oChunk_set_congr _ _ (off2_lit_chunk_20 L)

theorem off2_lit_chunk_21 (L : grid0.Coords) : k0_off2 L 10048#32 = ![20480 * (L 1).val + 10240 * (L 0).val + 64 * 157, 0] :=
  Cert.OffsetFacts.KernelIdeal.k0_off2_lit_21 L
theorem oChunk_off2_21 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 10048#32) S64x128.size (k0_off2_inb L 21)) (fun _ => rfl))
      (oChunkC L 157 lt160_157) :=
  oChunk_congr _ _ (off2_lit_chunk_21 L)
theorem set_off2_21 (L : grid0.Coords) :
    @Eq (Finset S327680x128.Idx) (Memref.slice (κ := .scVector) (sp := .hbm) (s := S327680x128) (e := .f32) (Memref.whole main_v1_scv)
        (Rect.unit (s := S327680x128) (k0_off2 L 10048#32) S64x128.size (k0_off2_inb L 21)) (fun _ => rfl)).view.set
      (oChunkC L 157 lt160_157).view.set :=
  oChunk_set_congr _ _ (off2_lit_chunk_21 L)
theorem oChunk_off2_21_of (L : grid0.Coords) (h : ∀ a, (k0_off2 L 10048#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 10048#32) S64x128.size h) (fun _ => rfl))
      (oChunkC L 157 lt160_157) :=
  oChunk_congr _ _ (off2_lit_chunk_21 L)
theorem set_off2_21_of (L : grid0.Coords) (h : ∀ a, (k0_off2 L 10048#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 10048#32) S64x128.size h) (fun _ => rfl)).view.set
      (oChunkC L 157 lt160_157).view.set :=
  oChunk_set_congr _ _ (off2_lit_chunk_21 L)

theorem off2_lit_chunk_22 (L : grid0.Coords) : k0_off2 L 10112#32 = ![20480 * (L 1).val + 10240 * (L 0).val + 64 * 158, 0] :=
  Cert.OffsetFacts.KernelIdeal.k0_off2_lit_22 L
theorem oChunk_off2_22 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 10112#32) S64x128.size (k0_off2_inb L 22)) (fun _ => rfl))
      (oChunkC L 158 lt160_158) :=
  oChunk_congr _ _ (off2_lit_chunk_22 L)
theorem set_off2_22 (L : grid0.Coords) :
    @Eq (Finset S327680x128.Idx) (Memref.slice (κ := .scVector) (sp := .hbm) (s := S327680x128) (e := .f32) (Memref.whole main_v1_scv)
        (Rect.unit (s := S327680x128) (k0_off2 L 10112#32) S64x128.size (k0_off2_inb L 22)) (fun _ => rfl)).view.set
      (oChunkC L 158 lt160_158).view.set :=
  oChunk_set_congr _ _ (off2_lit_chunk_22 L)
theorem oChunk_off2_22_of (L : grid0.Coords) (h : ∀ a, (k0_off2 L 10112#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 10112#32) S64x128.size h) (fun _ => rfl))
      (oChunkC L 158 lt160_158) :=
  oChunk_congr _ _ (off2_lit_chunk_22 L)
theorem set_off2_22_of (L : grid0.Coords) (h : ∀ a, (k0_off2 L 10112#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 10112#32) S64x128.size h) (fun _ => rfl)).view.set
      (oChunkC L 158 lt160_158).view.set :=
  oChunk_set_congr _ _ (off2_lit_chunk_22 L)

theorem off2_lit_chunk_23 (L : grid0.Coords) : k0_off2 L 10176#32 = ![20480 * (L 1).val + 10240 * (L 0).val + 64 * 159, 0] :=
  Cert.OffsetFacts.KernelIdeal.k0_off2_lit_23 L
theorem oChunk_off2_23 (L : grid0.Coords) :
    @Eq (Memref sig .scVector .hbm S64x128 .f32) (Memref.slice (κ := .scVector) (sp := .hbm) (s := S327680x128) (e := .f32) (Memref.whole main_v1_scv)
        (Rect.unit (s := S327680x128) (k0_off2 L 10176#32) S64x128.size (k0_off2_inb L 23)) (fun _ => rfl))
      (oChunkC L 159 lt160_159) :=
  oChunk_congr _ _ (off2_lit_chunk_23 L)
theorem set_off2_23 (L : grid0.Coords) :
    @Eq (Finset S327680x128.Idx) (Memref.slice (κ := .scVector) (sp := .hbm) (s := S327680x128) (e := .f32) (Memref.whole main_v1_scv)
        (Rect.unit (s := S327680x128) (k0_off2 L 10176#32) S64x128.size (k0_off2_inb L 23)) (fun _ => rfl)).view.set
      (oChunkC L 159 lt160_159).view.set :=
  oChunk_set_congr _ _ (off2_lit_chunk_23 L)
theorem oChunk_off2_23_of (L : grid0.Coords) (h : ∀ a, (k0_off2 L 10176#32) a + S64x128.size a ≤ S327680x128.size a) :
    @Eq (Memref sig .scVector .hbm S64x128 .f32) (Memref.slice (κ := .scVector) (sp := .hbm) (s := S327680x128) (e := .f32) (Memref.whole main_v1_scv)
        (Rect.unit (s := S327680x128) (k0_off2 L 10176#32) S64x128.size h) (fun _ => rfl))
      (oChunkC L 159 lt160_159) :=
  oChunk_congr _ _ (off2_lit_chunk_23 L)
theorem set_off2_23_of (L : grid0.Coords) (h : ∀ a, (k0_off2 L 10176#32) a + S64x128.size a ≤ S327680x128.size a) :
    @Eq (Finset S327680x128.Idx) (Memref.slice (κ := .scVector) (sp := .hbm) (s := S327680x128) (e := .f32) (Memref.whole main_v1_scv)
        (Rect.unit (s := S327680x128) (k0_off2 L 10176#32) S64x128.size h) (fun _ => rfl)).view.set
      (oChunkC L 159 lt160_159).view.set :=
  oChunk_set_congr _ _ (off2_lit_chunk_23 L)

/-! ## A chunk's indices are its block of the cover -/

/-- The worker at grid coordinates `L` is number `2 · L 1 + L 0`. -/
theorem widL_val (L : grid0.Coords) : (widL L).val = 2 * (L 1).val + (L 0).val := rfl

/-- Chunk `g` of worker `(L 0, L 1)` covers exactly block `(2 · L 1 + L 0, g)` of the cover of the flat output. -/
theorem oChunkC_set (L : grid0.Coords) (g : ℕ) (hg : g < 160) :
    @Eq (Finset S327680x128.Idx) (oChunkC L g hg).view.set (Cert.Cover.chunkRect (widL L) ⟨g, hg⟩).set := by
  show ((View.whole (main_v1_scv : Ref sig .scVector)).slice
      (Rect.unit (s := S327680x128) ![20480 * (L 1).val + 10240 * (L 0).val + 64 * g, 0] S64x128.size (oChunkC_inb L g hg))).set = _
  rw [View.set_slice_whole]
  have e : (![20480 * (L 1).val + 10240 * (L 0).val + 64 * g, 0] : Fin 2 → ℕ) = ![10240 * (widL L).val + 64 * g, 0] := by
    have e' : 20480 * (L 1).val + 10240 * (L 0).val + 64 * g = 10240 * (widL L).val + 64 * g := by rw [widL_val]; omega
    rw [e']
  exact congrArg (fun r : Rect S327680x128 => r.set)
    (Rect.unit_congr (s := S327680x128) e (oChunkC_inb L g hg) (Cert.Cover.chunk_inb (widL L) ⟨g, hg⟩))

end Cert.KernelIdealRun

end
-- ==== Proof.KernelIdealRun.Pieces.lean ====
/-
  One worker's block of the flat output as its 160 chunks of 64 rows, for the bookkeeping of the worker's task. Worker `w`
  holds the rows `[10240·w, 10240·(w+1))`; chunk `g < 160` of them is the rows `[10240·w + 64·g, 10240·w + 64·g + 64)`. The
  chunks are pairwise disjoint and make up the block, so holding the block is holding its 160 pieces, indexed here by the
  natural numbers below 160 so that a run of consecutive chunks is an interval. With it the interval algebra the task's
  loop uses: an interval cut in two, ten consecutive members written out.
-/
import proofs.«207499_g15272903704957_cont_week2b_486_20_alg».proof.Proof.KernelIdealRun.Pay
import proofs.«207499_g15272903704957_cont_week2b_486_20_alg».proof.Proof.Cover

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A worker's block as its 160 chunks -/

/-- Chunk `g` of worker `w`'s block, held at `f`; nothing for `g ≥ 160`. -/
def piece (d : Dev nD) (w : Fin 32) (f : Buf (Elt F) (oLoc d)) (g : ℕ) : sProp 𝕄 :=
  if h : g < 160 then (oLoc d ↦[(Cert.Cover.chunkRect w ⟨g, h⟩).set]{fullShare} f) else iprop(emp)

theorem piece_of_lt (d : Dev nD) (w : Fin 32) (f : Buf (Elt F) (oLoc d)) {g : ℕ} (h : g < 160) :
    piece d w f g = (oLoc d ↦[(Cert.Cover.chunkRect w ⟨g, h⟩).set]{fullShare} f : sProp 𝕄) := dif_pos h

theorem piece_of_ge (d : Dev nD) (w : Fin 32) (f : Buf (Elt F) (oLoc d)) {g : ℕ} (h : 160 ≤ g) :
    piece d w f g = (iprop(emp) : sProp 𝕄) := dif_neg (Nat.not_lt.mpr h)

theorem chunks_disjoint (w : Fin 32) :
    ∀ g ∈ (Finset.univ : Finset (Fin 160)), ∀ g' ∈ (Finset.univ : Finset (Fin 160)), g ≠ g' →
      Disjoint (Cert.Cover.chunkRect w g).set (Cert.Cover.chunkRect w g').set :=
  fun _ _ _ _ h => Cert.Cover.chunk_disjoint _ _ (Or.inr h)

theorem oSet_eq_chunks (d : Dev nD) (w : Fin 32) :
    oSet d w = (Finset.univ : Finset (Fin 160)).biUnion fun g => (Cert.Cover.chunkRect w g).set :=
  (Cert.Cover.biUnion_chunk_worker w).symm

/-- A product over `Fin n` of a family of the value is the product over the naturals below `n`. -/
theorem bigSep_fin_range (n : ℕ) (Φ : ℕ → sProp 𝕄) : (bigSep Finset.univ fun g : Fin n => Φ g.val) = bigSep (Finset.range n) Φ := by
  rw [← SparseCore.bigSep_image_of_injOn (f := (Fin.val : Fin n → ℕ)) (s := Finset.univ) (fun a _ b _ e => Fin.ext e) Φ]
  congr 1
  ext x
  simp only [Finset.mem_image, Finset.mem_univ, true_and, Finset.mem_range]
  exact ⟨fun ⟨a, e⟩ => e ▸ a.isLt, fun h => ⟨⟨x, h⟩, rfl⟩⟩

/-- The block is its 160 pieces. -/
theorem block_pieces (d : Dev nD) (w : Fin 32) (f : Buf (Elt F) (oLoc d)) :
    (oLoc d ↦[oSet d w]{fullShare} f : sProp 𝕄) = bigSep (Finset.range 160) (piece d w f) := by
  rw [oSet_eq_chunks, pointsTo_biUnion Finset.univ _ (chunks_disjoint w), ← bigSep_fin_range 160 (piece d w f)]
  exact bigSep_congr fun g _ => (piece_of_lt d w f g.isLt).symm

/-- Every piece at one function: the block at that function. -/
theorem pieces_all_done (d : Dev nD) (w : Fin 32) (f : Buf (Elt F) (oLoc d)) :
    bigSep (Finset.range 160) (piece d w f) = (oLoc d ↦[oSet d w]{fullShare} f : sProp 𝕄) := (block_pieces d w f).symm

/-- A piece only reads its function on its chunk. -/
theorem piece_congr (d : Dev nD) (w : Fin 32) (g : ℕ) {f f' : Buf (Elt F) (oLoc d)}
    (h : ∀ hg : g < 160, ∀ j ∈ (Cert.Cover.chunkRect w ⟨g, hg⟩).set, f j = f' j) : (piece d w f g : sProp 𝕄) = piece d w f' g := by
  unfold piece
  split
  · exact pointsTo_congr (h _)
  · rfl

/-- Pieces each at a function of its own that agrees with `f` on its chunk: the block at `f`. -/
theorem pieces_join (d : Dev nD) (w : Fin 32) (fs : ℕ → Buf (Elt F) (oLoc d)) (f : Buf (Elt F) (oLoc d))
    (h : ∀ g, ∀ hg : g < 160, ∀ j ∈ (Cert.Cover.chunkRect w ⟨g, hg⟩).set, fs g j = f j) :
    (bigSep (Finset.range 160) fun g => piece d w (fs g) g) = (oLoc d ↦[oSet d w]{fullShare} f : sProp 𝕄) := by
  rw [block_pieces]
  exact bigSep_congr fun g _ => piece_congr d w g (h g)

/-! ## Intervals of naturals -/

theorem bigSep_range_eq_Ico {Φ : ℕ → sProp 𝕄} (n : ℕ) : bigSep (Finset.range n) Φ = bigSep (Finset.Ico 0 n) Φ := by rw [Finset.range_eq_Ico]

/-- An interval cut at an inner point. -/
theorem bigSep_Ico_split {Φ : ℕ → sProp 𝕄} (a b c : ℕ) (hab : a ≤ b) (hbc : b ≤ c) :
    bigSep (Finset.Ico a c) Φ = iprop(bigSep (Finset.Ico a b) Φ ∗ bigSep (Finset.Ico b c) Φ) := by
  rw [← Finset.Ico_union_Ico_eq_Ico hab hbc, BI.bigSep_union (Finset.Ico_disjoint_Ico_consecutive a b c)]; rfl

/-- The first member of a nonempty interval. -/
theorem bigSep_Ico_succ {Φ : ℕ → sProp 𝕄} {a b : ℕ} (h : a < b) : bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, BI.bigSep_insert (by simp only [Finset.mem_Ico]; omega)]; rfl

theorem bigSep_Ico_one {Φ : ℕ → sProp 𝕄} (a : ℕ) : bigSep (Finset.Ico a (a + 1)) Φ = Φ a := by
  rw [Nat.Ico_succ_singleton, bigSep_singleton]

/-- Ten consecutive members written out. -/
theorem bigSep_Ico10 {Φ : ℕ → sProp 𝕄} (n : ℕ) :
    bigSep (Finset.Ico n (n + 10)) Φ
      = iprop(Φ n ∗ Φ (n + 1) ∗ Φ (n + 2) ∗ Φ (n + 3) ∗ Φ (n + 4) ∗ Φ (n + 5) ∗ Φ (n + 6) ∗ Φ (n + 7) ∗ Φ (n + 8) ∗ Φ (n + 9)) := by
  rw [bigSep_Ico_succ (show n < n + 10 by omega), bigSep_Ico_succ (show n + 1 < n + 10 by omega),
    bigSep_Ico_succ (show n + 1 + 1 < n + 10 by omega), bigSep_Ico_succ (show n + 1 + 1 + 1 < n + 10 by omega),
    bigSep_Ico_succ (show n + 1 + 1 + 1 + 1 < n + 10 by omega), bigSep_Ico_succ (show n + 1 + 1 + 1 + 1 + 1 < n + 10 by omega),
    bigSep_Ico_succ (show n + 1 + 1 + 1 + 1 + 1 + 1 < n + 10 by omega),
    bigSep_Ico_succ (show n + 1 + 1 + 1 + 1 + 1 + 1 + 1 < n + 10 by omega),
    bigSep_Ico_succ (show n + 1 + 1 + 1 + 1 + 1 + 1 + 1 + 1 < n + 10 by omega),
    show n + 10 = n + 1 + 1 + 1 + 1 + 1 + 1 + 1 + 1 + 1 + 1 from rfl, bigSep_Ico_one]

/-- The naturals below `n + 10`: those below `n`, then ten written out. -/
theorem bigSep_range_succ10 {Φ : ℕ → sProp 𝕄} (n : ℕ) :
    bigSep (Finset.range (n + 10)) Φ
      = iprop(bigSep (Finset.range n) Φ ∗ Φ n ∗ Φ (n + 1) ∗ Φ (n + 2) ∗ Φ (n + 3) ∗ Φ (n + 4) ∗ Φ (n + 5) ∗ Φ (n + 6) ∗ Φ (n + 7) ∗ Φ (n + 8) ∗ Φ (n + 9)) := by
  rw [Finset.range_eq_Ico, bigSep_Ico_split 0 n (n + 10) (Nat.zero_le _) (Nat.le_add_right _ _), bigSep_Ico10, ← Finset.range_eq_Ico]

end Cert.KernelIdealRun

end
-- ==== Proof.KernelIdealRun.Inv.lean ====
/-
  The state of one worker between trips of the main loop of the lookup kernel, in flat chunk numbers.

  The worker's 160 chunks of 64 rows go through ten slots. Slot `b` has a scratch buffer, a gather semaphore (cell `b`) and a
  copy-out semaphore (cell `10 + b`), and cycles: gather chunk `g` into the buffer — wait — copy the buffer out to chunk `g` of the
  flat output — wait — gather chunk `g + 10`. Before trip `k` (the trip that serves chunks `10 (k+1) … 10 (k+1) + 9`):
  slots 0–5 have the gathers of chunks `10 (k+1) + b` in flight; slots 6–9 have the copy-outs of chunks `10 k + b` in flight;
  chunks below `10 k + 6` are done — they hold `Cert.Spec.gathered x3 W` —; chunks from `10 (k+1)` on still hold the launch
  contents. A buffer whose gather is in flight will hold the rows of `W` its chunk names (`ChunkIs`), a copy-out in flight
  will leave its chunk at the target (`OutIs`). The table `W` is held as one read share per gather cell, the row-number
  scratch as eleven read shares that the gathers take in turn; they rejoin to the whole (`IdxJoin`).
-/
import proofs.«207499_g15272903704957_cont_week2b_486_20_alg».proof.Proof.KernelIdealRun.Pay
import proofs.«207499_g15272903704957_cont_week2b_486_20_alg».proof.Proof.KernelIdealRun.Slices.Idx
import proofs.«207499_g15272903704957_cont_week2b_486_20_alg».proof.Proof.KernelIdealRun.Slices.Out
import proofs.«207499_g15272903704957_cont_week2b_486_20_alg».proof.Proof.KernelIdealRun.Pieces

noncomputable section

namespace Cert.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "wM" => (Memref.whole Cert.KernelIdeal.main_arg1_scv : Memref Cert.KernelIdeal.sig Kind.scVector Space.hbm Cert.KernelIdeal.S100000x128 EltTy.f32)
local notation "oM" => (Memref.whole Cert.KernelIdeal.main_v1_scv : Memref Cert.KernelIdeal.sig Kind.scVector Space.hbm Cert.KernelIdeal.S327680x128 EltTy.f32)
local notation "ixM" => (Memref.whole Cert.KernelIdeal.cc0_scratch0 : Memref Cert.KernelIdeal.sig Kind.scVector Space.vmem Cert.KernelIdeal.S160x64 EltTy.i32)
local notation "bM0" => (Memref.whole Cert.KernelIdeal.cc0_scratch1 : Memref Cert.KernelIdeal.sig Kind.scVector Space.vmem Cert.KernelIdeal.S64x128 EltTy.f32)
local notation "bM1" => (Memref.whole Cert.KernelIdeal.cc0_scratch2 : Memref Cert.KernelIdeal.sig Kind.scVector Space.vmem Cert.KernelIdeal.S64x128 EltTy.f32)
local notation "bM2" => (Memref.whole Cert.KernelIdeal.cc0_scratch3 : Memref Cert.KernelIdeal.sig Kind.scVector Space.vmem Cert.KernelIdeal.S64x128 EltTy.f32)
local notation "bM3" => (Memref.whole Cert.KernelIdeal.cc0_scratch4 : Memref Cert.KernelIdeal.sig Kind.scVector Space.vmem Cert.KernelIdeal.S64x128 EltTy.f32)
local notation "bM4" => (Memref.whole Cert.KernelIdeal.cc0_scratch5 : Memref Cert.KernelIdeal.sig Kind.scVector Space.vmem Cert.KernelIdeal.S64x128 EltTy.f32)
local notation "bM5" => (Memref.whole Cert.KernelIdeal.cc0_scratch6 : Memref Cert.KernelIdeal.sig Kind.scVector Space.vmem Cert.KernelIdeal.S64x128 EltTy.f32)
local notation "bM6" => (Memref.whole Cert.KernelIdeal.cc0_scratch7 : Memref Cert.KernelIdeal.sig Kind.scVector Space.vmem Cert.KernelIdeal.S64x128 EltTy.f32)
local notation "bM7" => (Memref.whole Cert.KernelIdeal.cc0_scratch8 : Memref Cert.KernelIdeal.sig Kind.scVector Space.vmem Cert.KernelIdeal.S64x128 EltTy.f32)
local notation "bM8" => (Memref.whole Cert.KernelIdeal.cc0_scratch9 : Memref Cert.KernelIdeal.sig Kind.scVector Space.vmem Cert.KernelIdeal.S64x128 EltTy.f32)
local notation "bM9" => (Memref.whole Cert.KernelIdeal.cc0_scratch10 : Memref Cert.KernelIdeal.sig Kind.scVector Space.vmem Cert.KernelIdeal.S64x128 EltTy.f32)

/-- The table, sliced whole, as every gather names its source. -/
abbrev wSlM : Memref sig .scVector .hbm S100000x128 .f32 :=
  (wM).slice (Rect.unit (s := S100000x128) ![0, 0] S100000x128.size inb_S100000x128_S100000x128_0_0) (fun _ => rfl)

theorem ltg0 {k : ℕ} (hk : k ≤ 14) : 10 * (k + 1) + 0 < 160 := by omega
theorem ltg1 {k : ℕ} (hk : k ≤ 14) : 10 * (k + 1) + 1 < 160 := by omega
theorem ltg2 {k : ℕ} (hk : k ≤ 14) : 10 * (k + 1) + 2 < 160 := by omega
theorem ltg3 {k : ℕ} (hk : k ≤ 14) : 10 * (k + 1) + 3 < 160 := by omega
theorem ltg4 {k : ℕ} (hk : k ≤ 14) : 10 * (k + 1) + 4 < 160 := by omega
theorem ltg5 {k : ℕ} (hk : k ≤ 14) : 10 * (k + 1) + 5 < 160 := by omega
theorem ltw6 {k : ℕ} (hk : k ≤ 14) : 10 * k + 6 < 160 := by omega
theorem ltw7 {k : ℕ} (hk : k ≤ 14) : 10 * k + 7 < 160 := by omega
theorem ltw8 {k : ℕ} (hk : k ≤ 14) : 10 * k + 8 < 160 := by omega
theorem ltw9 {k : ℕ} (hk : k ≤ 14) : 10 * k + 9 < 160 := by omega

theorem flat_lt (w : Fin 32) {g : ℕ} (hg : g < 160) (r : Fin 64) : 10240 * w.val + 64 * g + r.val < 327680 := by
  have := w.isLt; have := r.isLt; omega

/-- A buffer of 64 rows holds the rows of `W` that chunk `g` of worker `w` names. -/
def ChunkIs (w : Fin 32) (x3 : (⟨3, ![32, 160, 64]⟩ : Shape).Idx → BitVec 32) (Wc : (⟨2, ![100000, 128]⟩ : Shape).Idx → Elt F .f32)
    (g : ℕ) (p : (⟨2, ![64, 128]⟩ : Shape).Idx → Elt F .f32) : Prop :=
  ∀ (hg : g < 160) (r : Fin 64) (dd : Fin 128), p (ix2 r dd) = Cert.Spec.gathered x3 Wc (ix2 ⟨10240 * w.val + 64 * g + r.val, flat_lt w hg r⟩ dd)

/-- The flat output agrees with the target on chunk `g` of worker `w`. -/
def OutIs (w : Fin 32) (x3 : (⟨3, ![32, 160, 64]⟩ : Shape).Idx → BitVec 32) (Wc : (⟨2, ![100000, 128]⟩ : Shape).Idx → Elt F .f32)
    (g : ℕ) (o : (⟨2, ![327680, 128]⟩ : Shape).Idx → Elt F .f32) : Prop :=
  ∀ (hg : g < 160), ∀ j ∈ (Cert.Cover.chunkRect w ⟨g, hg⟩).set, o j = Cert.Spec.gathered x3 Wc j

/-- Eleven read shares of the row-number scratch that together are the whole. -/
def IdxJoin (d : Dev nD) (L : grid0.Coords) (X3d : Buf (Elt F) (x3Loc d))
    (t0 t1 t2 t3 t4 t5 t6 t7 t8 t9 t10 : PosShare TreeShare) : sProp 𝕄 :=
  iprop((((ixM).view.loc (V d (cV L) (jV L)) ↦{t0} ((x3RowM L).view.read (Elt F) X3d)) ∗
      ((ixM).view.loc (V d (cV L) (jV L)) ↦{t1} ((x3RowM L).view.read (Elt F) X3d)) ∗
      ((ixM).view.loc (V d (cV L) (jV L)) ↦{t2} ((x3RowM L).view.read (Elt F) X3d)) ∗
      ((ixM).view.loc (V d (cV L) (jV L)) ↦{t3} ((x3RowM L).view.read (Elt F) X3d)) ∗
      ((ixM).view.loc (V d (cV L) (jV L)) ↦{t4} ((x3RowM L).view.read (Elt F) X3d)) ∗
      ((ixM).view.loc (V d (cV L) (jV L)) ↦{t5} ((x3RowM L).view.read (Elt F) X3d)) ∗
      ((ixM).view.loc (V d (cV L) (jV L)) ↦{t6} ((x3RowM L).view.read (Elt F) X3d)) ∗
      ((ixM).view.loc (V d (cV L) (jV L)) ↦{t7} ((x3RowM L).view.read (Elt F) X3d)) ∗
      ((ixM).view.loc (V d (cV L) (jV L)) ↦{t8} ((x3RowM L).view.read (Elt F) X3d)) ∗
      ((ixM).view.loc (V d (cV L) (jV L)) ↦{t9} ((x3RowM L).view.read (Elt F) X3d)) ∗
      ((ixM).view.loc (V d (cV L) (jV L)) ↦{t10} ((x3RowM L).view.read (Elt F) X3d)))
    -∗ ((ixM).view.loc (V d (cV L) (jV L)) ↦{fullShare} ((x3RowM L).view.read (Elt F) X3d)))

/-- The state before trip `k` (see the header). -/
def Inv (d : Dev nD) (L : grid0.Coords) (O : CellTallies nD τ sig (HIx 1)) (W : Waits sig (HIx 1)) (q : PosShare TreeShare)
    (X3d : Buf (Elt F) (x3Loc d)) (Wc : Buf (Elt F) (wLoc d))
    (fo : Buf (Elt F) (oLoc d)) (k : ℕ) (_acc : BitVec 32) : sProp 𝕄 :=
  iprop(∃ (hk : k ≤ 14) (t0 : PosShare TreeShare) (t1 : PosShare TreeShare) (t2 : PosShare TreeShare) (t3 : PosShare TreeShare) (t4 : PosShare TreeShare) (t5 : PosShare TreeShare) (t6 : PosShare TreeShare) (t7 : PosShare TreeShare) (t8 : PosShare TreeShare) (t9 : PosShare TreeShare) (t10 : PosShare TreeShare) (p0 : Buf (Elt F) ((bM0).view.loc (V d (cV L) (jV L)))) (p1 : Buf (Elt F) ((bM1).view.loc (V d (cV L) (jV L)))) (p2 : Buf (Elt F) ((bM2).view.loc (V d (cV L) (jV L)))) (p3 : Buf (Elt F) ((bM3).view.loc (V d (cV L) (jV L)))) (p4 : Buf (Elt F) ((bM4).view.loc (V d (cV L) (jV L)))) (p5 : Buf (Elt F) ((bM5).view.loc (V d (cV L) (jV L)))) (o6 : Buf (Elt F) ((oM).view.loc (V d (cV L) (jV L)))) (o7 : Buf (Elt F) ((oM).view.loc (V d (cV L) (jV L)))) (o8 : Buf (Elt F) ((oM).view.loc (V d (cV L) (jV L)))) (o9 : Buf (Elt F) ((oM).view.loc (V d (cV L) (jV L)))) (j6 : Buf (Elt F) ((bM6).view.loc (V d (cV L) (jV L)))) (j7 : Buf (Elt F) ((bM7).view.loc (V d (cV L) (jV L)))) (j8 : Buf (Elt F) ((bM8).view.loc (V d (cV L) (jV L)))) (j9 : Buf (Elt F) ((bM9).view.loc (V d (cV L) (jV L)))) (W' : Waits sig (HIx 1)),
    owes (V d (cV L) (jV L)) O W' ∗
    Transfers.MayWaits (V d (cV L) (jV L)) (none : HIx 1) O ∗
    ((x3RowM L).view.loc (V d (cV L) (jV L)) ↦[(x3RowM L).view.set]{fullShare} X3d) ∗
    semVal ((V d (cV L) (jV L)), SemLoc.dma cc0_scoped0.sem) 0 ∗
    ((wM).view.loc (V d (cV L) (jV L)) ↦{Transfers.shareDrop q 10} Wc) ∗
    Transfers.Flight countersEmb (V d (cV L) (jV L)) (SemLoc.dma cc0_scratch11.sem) default 262144
      iprop((((bM0).view.loc (V d (cV L) (jV L)) ↦[(bM0).view.set]{fullShare} p0) ∗
            ((ixM).view.loc (V d (cV L) (jV L)) ↦[(idxRowC (10 * (k + 1) + 0) (ltg0 hk)).view.set]{t0} ((x3RowM L).view.read (Elt F) X3d))) ∗
          ((wM).view.loc (V d (cV L) (jV L)) ↦[(wSlM).view.set]{Transfers.shareTokN q 0} Wc)) ∗
    ((wM).view.loc (V d (cV L) (jV L)) ↦[Finset.univ \ (wSlM).view.set]{Transfers.shareTokN q 0} Wc) ∗
    ((ixM).view.loc (V d (cV L) (jV L)) ↦[Finset.univ \ (idxRowC (10 * (k + 1) + 0) (ltg0 hk)).view.set]{t0} ((x3RowM L).view.read (Elt F) X3d)) ∗
    ((bM0).view.loc (V d (cV L) (jV L)) ↦[Finset.univ \ (bM0).view.set]{fullShare} p0) ∗
    semVal ((V d (cV L) (jV L)), SemLoc.dma cc0_scratch21.sem) 0 ∗
    Transfers.Flight countersEmb (V d (cV L) (jV L)) (SemLoc.dma cc0_scratch12.sem) default 262144
      iprop((((bM1).view.loc (V d (cV L) (jV L)) ↦[(bM1).view.set]{fullShare} p1) ∗
            ((ixM).view.loc (V d (cV L) (jV L)) ↦[(idxRowC (10 * (k + 1) + 1) (ltg1 hk)).view.set]{t1} ((x3RowM L).view.read (Elt F) X3d))) ∗
          ((wM).view.loc (V d (cV L) (jV L)) ↦[(wSlM).view.set]{Transfers.shareTokN q 1} Wc)) ∗
    ((wM).view.loc (V d (cV L) (jV L)) ↦[Finset.univ \ (wSlM).view.set]{Transfers.shareTokN q 1} Wc) ∗
    ((ixM).view.loc (V d (cV L) (jV L)) ↦[Finset.univ \ (idxRowC (10 * (k + 1) + 1) (ltg1 hk)).view.set]{t1} ((x3RowM L).view.read (Elt F) X3d)) ∗
    ((bM1).view.loc (V d (cV L) (jV L)) ↦[Finset.univ \ (bM1).view.set]{fullShare} p1) ∗
    semVal ((V d (cV L) (jV L)), SemLoc.dma cc0_scratch22.sem) 0 ∗
    Transfers.Flight countersEmb (V d (cV L) (jV L)) (SemLoc.dma cc0_scratch13.sem) default 262144
      iprop((((bM2).view.loc (V d (cV L) (jV L)) ↦[(bM2).view.set]{fullShare} p2) ∗
            ((ixM).view.loc (V d (cV L) (jV L)) ↦[(idxRowC (10 * (k + 1) + 2) (ltg2 hk)).view.set]{t2} ((x3RowM L).view.read (Elt F) X3d))) ∗
          ((wM).view.loc (V d (cV L) (jV L)) ↦[(wSlM).view.set]{Transfers.shareTokN q 2} Wc)) ∗
    ((wM).view.loc (V d (cV L) (jV L)) ↦[Finset.univ \ (wSlM).view.set]{Transfers.shareTokN q 2} Wc) ∗
    ((ixM).view.loc (V d (cV L) (jV L)) ↦[Finset.univ \ (idxRowC (10 * (k + 1) + 2) (ltg2 hk)).view.set]{t2} ((x3RowM L).view.read (Elt F) X3d)) ∗
    ((bM2).view.loc (V d (cV L) (jV L)) ↦[Finset.univ \ (bM2).view.set]{fullShare} p2) ∗
    semVal ((V d (cV L) (jV L)), SemLoc.dma cc0_scratch23.sem) 0 ∗
    Transfers.Flight countersEmb (V d (cV L) (jV L)) (SemLoc.dma cc0_scratch14.sem) default 262144
      iprop((((bM3).view.loc (V d (cV L) (jV L)) ↦[(bM3).view.set]{fullShare} p3) ∗
            ((ixM).view.loc (V d (cV L) (jV L)) ↦[(idxRowC (10 * (k + 1) + 3) (ltg3 hk)).view.set]{t3} ((x3RowM L).view.read (Elt F) X3d))) ∗
          ((wM).view.loc (V d (cV L) (jV L)) ↦[(wSlM).view.set]{Transfers.shareTokN q 3} Wc)) ∗
    ((wM).view.loc (V d (cV L) (jV L)) ↦[Finset.univ \ (wSlM).view.set]{Transfers.shareTokN q 3} Wc) ∗
    ((ixM).view.loc (V d (cV L) (jV L)) ↦[Finset.univ \ (idxRowC (10 * (k + 1) + 3) (ltg3 hk)).view.set]{t3} ((x3RowM L).view.read (Elt F) X3d)) ∗
    ((bM3).view.loc (V d (cV L) (jV L)) ↦[Finset.univ \ (bM3).view.set]{fullShare} p3) ∗
    semVal ((V d (cV L) (jV L)), SemLoc.dma cc0_scratch24.sem) 0 ∗
    Transfers.Flight countersEmb (V d (cV L) (jV L)) (SemLoc.dma cc0_scratch15.sem) default 262144
      iprop((((bM4).view.loc (V d (cV L) (jV L)) ↦[(bM4).view.set]{fullShare} p4) ∗
            ((ixM).view.loc (V d (cV L) (jV L)) ↦[(idxRowC (10 * (k + 1) + 4) (ltg4 hk)).view.set]{t4} ((x3RowM L).view.read (Elt F) X3d))) ∗
          ((wM).view.loc (V d (cV L) (jV L)) ↦[(wSlM).view.set]{Transfers.shareTokN q 4} Wc)) ∗
    ((wM).view.loc (V d (cV L) (jV L)) ↦[Finset.univ \ (wSlM).view.set]{Transfers.shareTokN q 4} Wc) ∗
    ((ixM).view.loc (V d (cV L) (jV L)) ↦[Finset.univ \ (idxRowC (10 * (k + 1) + 4) (ltg4 hk)).view.set]{t4} ((x3RowM L).view.read (Elt F) X3d)) ∗
    ((bM4).view.loc (V d (cV L) (jV L)) ↦[Finset.univ \ (bM4).view.set]{fullShare} p4) ∗
    semVal ((V d (cV L) (jV L)), SemLoc.dma cc0_scratch25.sem) 0 ∗
    Transfers.Flight countersEmb (V d (cV L) (jV L)) (SemLoc.dma cc0_scratch16.sem) default 262144
      iprop((((bM5).view.loc (V d (cV L) (jV L)) ↦[(bM5).view.set]{fullShare} p5) ∗
            ((ixM).view.loc (V d (cV L) (jV L)) ↦[(idxRowC (10 * (k + 1) + 5) (ltg5 hk)).view.set]{t5} ((x3RowM L).view.read (Elt F) X3d))) ∗
          ((wM).view.loc (V d (cV L) (jV L)) ↦[(wSlM).view.set]{Transfers.shareTokN q 5} Wc)) ∗
    ((wM).view.loc (V d (cV L) (jV L)) ↦[Finset.univ \ (wSlM).view.set]{Transfers.shareTokN q 5} Wc) ∗
    ((ixM).view.loc (V d (cV L) (jV L)) ↦[Finset.univ \ (idxRowC (10 * (k + 1) + 5) (ltg5 hk)).view.set]{t5} ((x3RowM L).view.read (Elt F) X3d)) ∗
    ((bM5).view.loc (V d (cV L) (jV L)) ↦[Finset.univ \ (bM5).view.set]{fullShare} p5) ∗
    semVal ((V d (cV L) (jV L)), SemLoc.dma cc0_scratch26.sem) 0 ∗
    Transfers.Flight countersEmb (V d (cV L) (jV L)) (SemLoc.dma cc0_scratch27.sem) default 262144
      iprop(((oM).view.loc (V d (cV L) (jV L)) ↦[(oChunkC L (10 * k + 6) (ltw6 hk)).view.set]{fullShare} o6) ∗
          ((bM6).view.loc (V d (cV L) (jV L)) ↦[(bM6).view.set]{fullShare} j6)) ∗
    ((bM6).view.loc (V d (cV L) (jV L)) ↦[Finset.univ \ (bM6).view.set]{fullShare} j6) ∗
    ((wM).view.loc (V d (cV L) (jV L)) ↦{Transfers.shareTokN q 6} Wc) ∗
    semVal ((V d (cV L) (jV L)), SemLoc.dma cc0_scratch17.sem) 0 ∗
    Transfers.Flight countersEmb (V d (cV L) (jV L)) (SemLoc.dma cc0_scratch28.sem) default 262144
      iprop(((oM).view.loc (V d (cV L) (jV L)) ↦[(oChunkC L (10 * k + 7) (ltw7 hk)).view.set]{fullShare} o7) ∗
          ((bM7).view.loc (V d (cV L) (jV L)) ↦[(bM7).view.set]{fullShare} j7)) ∗
    ((bM7).view.loc (V d (cV L) (jV L)) ↦[Finset.univ \ (bM7).view.set]{fullShare} j7) ∗
    ((wM).view.loc (V d (cV L) (jV L)) ↦{Transfers.shareTokN q 7} Wc) ∗
    semVal ((V d (cV L) (jV L)), SemLoc.dma cc0_scratch18.sem) 0 ∗
    Transfers.Flight countersEmb (V d (cV L) (jV L)) (SemLoc.dma cc0_scratch29.sem) default 262144
      iprop(((oM).view.loc (V d (cV L) (jV L)) ↦[(oChunkC L (10 * k + 8) (ltw8 hk)).view.set]{fullShare} o8) ∗
          ((bM8).view.loc (V d (cV L) (jV L)) ↦[(bM8).view.set]{fullShare} j8)) ∗
    ((bM8).view.loc (V d (cV L) (jV L)) ↦[Finset.univ \ (bM8).view.set]{fullShare} j8) ∗
    ((wM).view.loc (V d (cV L) (jV L)) ↦{Transfers.shareTokN q 8} Wc) ∗
    semVal ((V d (cV L) (jV L)), SemLoc.dma cc0_scratch19.sem) 0 ∗
    Transfers.Flight countersEmb (V d (cV L) (jV L)) (SemLoc.dma cc0_scratch30.sem) default 262144
      iprop(((oM).view.loc (V d (cV L) (jV L)) ↦[(oChunkC L (10 * k + 9) (ltw9 hk)).view.set]{fullShare} o9) ∗
          ((bM9).view.loc (V d (cV L) (jV L)) ↦[(bM9).view.set]{fullShare} j9)) ∗
    ((bM9).view.loc (V d (cV L) (jV L)) ↦[Finset.univ \ (bM9).view.set]{fullShare} j9) ∗
    ((wM).view.loc (V d (cV L) (jV L)) ↦{Transfers.shareTokN q 9} Wc) ∗
    semVal ((V d (cV L) (jV L)), SemLoc.dma cc0_scratch20.sem) 0 ∗
    ((ixM).view.loc (V d (cV L) (jV L)) ↦{t6} ((x3RowM L).view.read (Elt F) X3d)) ∗
    ((ixM).view.loc (V d (cV L) (jV L)) ↦{t7} ((x3RowM L).view.read (Elt F) X3d)) ∗
    ((ixM).view.loc (V d (cV L) (jV L)) ↦{t8} ((x3RowM L).view.read (Elt F) X3d)) ∗
    ((ixM).view.loc (V d (cV L) (jV L)) ↦{t9} ((x3RowM L).view.read (Elt F) X3d)) ∗
    ((ixM).view.loc (V d (cV L) (jV L)) ↦{t10} ((x3RowM L).view.read (Elt F) X3d)) ∗
    IdxJoin d L X3d t0 t1 t2 t3 t4 t5 t6 t7 t8 t9 t10 ∗
    bigSep (Finset.Ico (10 * (k + 1)) 160) (piece d (widL L) fo) ∗
    bigSep (Finset.range (10 * k + 6)) (piece d (widL L) (Cert.Spec.gathered X3d Wc)) ∗
    ⌜∀ p ∈ W', p ∈ W ∨ p.2 = none⌝ ∗
    ⌜ChunkIs (widL L) X3d Wc (10 * (k + 1) + 0) p0⌝ ∗
    ⌜ChunkIs (widL L) X3d Wc (10 * (k + 1) + 1) p1⌝ ∗
    ⌜ChunkIs (widL L) X3d Wc (10 * (k + 1) + 2) p2⌝ ∗
    ⌜ChunkIs (widL L) X3d Wc (10 * (k + 1) + 3) p3⌝ ∗
    ⌜ChunkIs (widL L) X3d Wc (10 * (k + 1) + 4) p4⌝ ∗
    ⌜ChunkIs (widL L) X3d Wc (10 * (k + 1) + 5) p5⌝ ∗
    ⌜OutIs (widL L) X3d Wc (10 * k + 6) o6⌝ ∗
    ⌜OutIs (widL L) X3d Wc (10 * k + 7) o7⌝ ∗
    ⌜OutIs (widL L) X3d Wc (10 * k + 8) o8⌝ ∗
    ⌜OutIs (widL L) X3d Wc (10 * k + 9) o9⌝)

end Cert.KernelIdealRun

end
-- ==== Proof.KernelIdealRun.Scoped.lean ====
/-
  A vector subcore's scoped storage, opened.

  The launch hands vector subcore `i` of SparseCore `c` its own scoped semaphore cells, each at zero, and its own
  buffers, each whole at some contents, as two iterated separating conjunctions over finite sets. In this signature
  those sets are small and explicit: on a vector subcore the scoped cells are its twenty-one DMA semaphores and no
  regular semaphore (the four regular ones are the launch handshakes', which are not scoped), and the buffers it owns
  are its eleven vector-memory scratch buffers (it has no scalar-memory buffer, and HBM, host and shared buffers are
  the device's or the SparseCore's). So each bundle is the plain separating conjunction of its members, with nothing
  left over.
-/
import proofs.«207499_g15272903704957_cont_week2b_486_20_alg».proof.Proof.KernelIdealRun.Setup

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The semaphore cells -/

/-- On a vector subcore the scoped cells are exactly the twenty-one DMA semaphores: a finite check over the
    signature's twenty-five cells. -/
theorem scopedCells_scVector :
    (Finset.univ.filter fun sm : SemLoc sig => sm.isScoped Kind.scVector)
      = {.dma cc0_scratch11.sem, .dma cc0_scratch12.sem, .dma cc0_scratch13.sem, .dma cc0_scratch14.sem, .dma cc0_scratch15.sem,
     .dma cc0_scratch16.sem, .dma cc0_scratch17.sem, .dma cc0_scratch18.sem, .dma cc0_scratch19.sem, .dma cc0_scratch20.sem,
     .dma cc0_scratch21.sem, .dma cc0_scratch22.sem, .dma cc0_scratch23.sem, .dma cc0_scratch24.sem, .dma cc0_scratch25.sem,
     .dma cc0_scratch26.sem, .dma cc0_scratch27.sem, .dma cc0_scratch28.sem, .dma cc0_scratch29.sem, .dma cc0_scratch30.sem,
     .dma cc0_scoped0.sem} := by
  decide

/-- A vector subcore's own scoped cells at zero are its twenty-one DMA semaphores at zero. -/
theorem ownSems0_V (d : Dev nD) (c : Fin τ.nSC) (i : Fin τ.nSub) :
    (ownSems0 (V d c i) : sProp 𝕄)
      = iprop(semVal (V d c i, .dma cc0_scratch11.sem) 0 ∗ semVal (V d c i, .dma cc0_scratch12.sem) 0 ∗ semVal (V d c i, .dma cc0_scratch13.sem) 0
          ∗ semVal (V d c i, .dma cc0_scratch14.sem) 0 ∗ semVal (V d c i, .dma cc0_scratch15.sem) 0 ∗ semVal (V d c i, .dma cc0_scratch16.sem) 0
          ∗ semVal (V d c i, .dma cc0_scratch17.sem) 0 ∗ semVal (V d c i, .dma cc0_scratch18.sem) 0 ∗ semVal (V d c i, .dma cc0_scratch19.sem) 0
          ∗ semVal (V d c i, .dma cc0_scratch20.sem) 0 ∗ semVal (V d c i, .dma cc0_scratch21.sem) 0 ∗ semVal (V d c i, .dma cc0_scratch22.sem) 0
          ∗ semVal (V d c i, .dma cc0_scratch23.sem) 0 ∗ semVal (V d c i, .dma cc0_scratch24.sem) 0 ∗ semVal (V d c i, .dma cc0_scratch25.sem) 0
          ∗ semVal (V d c i, .dma cc0_scratch26.sem) 0 ∗ semVal (V d c i, .dma cc0_scratch27.sem) 0 ∗ semVal (V d c i, .dma cc0_scratch28.sem) 0
          ∗ semVal (V d c i, .dma cc0_scratch29.sem) 0 ∗ semVal (V d c i, .dma cc0_scratch30.sem) 0 ∗ semVal (V d c i, .dma cc0_scoped0.sem) 0) := by
  rw [SparseCore.Cfg.ownSems0_eq, show (V d c i : Thread nD τ).2.kind = Kind.scVector from rfl, scopedCells_scVector]
  simp (disch := decide) only [SparseCore.bigSep_insert', bigSep_singleton]

/-! ## The buffers -/

/-- Every entry of a vector subcore's vector-memory table is one of the eleven scratch references: a finite check. -/
theorem vmemRef_mem : ∀ idx : Fin (sig.nBuf (Table.local Kind.scVector CoreSpace.vmem)),
    (⟨Space.core CoreSpace.vmem, idx, rfl⟩ : Ref sig .scVector)
      ∈ ({cc0_scratch0, cc0_scratch1, cc0_scratch2, cc0_scratch3, cc0_scratch4, cc0_scratch5,
     cc0_scratch6, cc0_scratch7, cc0_scratch8, cc0_scratch9, cc0_scratch10} : Finset (Ref sig .scVector)) := by
  decide

/-- The buffers vector subcore `i` of SparseCore `c` owns are what it denotes by its eleven scratch references:
    a buffer of the device is a processor's own only if it lies in one of that processor's local tables, held at its
    coordinates; a vector subcore's scalar-memory table is empty and its vector-memory table has eleven entries. -/
theorem ownRefs_scVector (c : Fin τ.nSC) (i : Fin τ.nSub) :
    ownRefs (sig := sig) (Proc.scVector c i)
      = ({cc0_scratch0, cc0_scratch1, cc0_scratch2, cc0_scratch3, cc0_scratch4, cc0_scratch5,
     cc0_scratch6, cc0_scratch7, cc0_scratch8, cc0_scratch9, cc0_scratch10} : Finset (Ref sig .scVector)).map
          (⟨(Proc.scVector c i).devRef, Proc.devRef_injective _⟩ : Ref sig .scVector ↪ DevRef τ sig) := by
  ext b
  rw [mem_ownRefs, SparseCore.Cfg.home_eq_scVector, Finset.mem_map]
  constructor
  · intro h
    rcases b with ⟨tb, idx, u⟩
    rcases tb with _ | _ | _ | ⟨κ, cs⟩
    · exact absurd h (SparseCore.Cfg.HbmHolder_owner_ne_proc (τ := τ) (bb := sig.hbmOfSc idx) u _)
    · cases h
    · cases h
    · have h' : κ.proc u = Proc.scVector c i := Owner.proc.inj h
      cases κ with
      | tc => cases h'
      | scScalar => cases h'
      | scVector =>
        obtain ⟨c', i'⟩ := u
        obtain ⟨rfl, rfl⟩ : c' = c ∧ i' = i := by
          have := h'; simp only [Kind.proc, Proc.scVector.injEq] at this; exact this
        cases cs with
        | smem => exact idx.elim0
        | vmem =>
          exact ⟨⟨.core .vmem, idx, rfl⟩, vmemRef_mem idx, rfl⟩
  · rintro ⟨r, hr, rfl⟩
    simp only [Finset.mem_insert, Finset.mem_singleton] at hr
    rcases hr with rfl | rfl | rfl | rfl | rfl | rfl | rfl | rfl | rfl | rfl | rfl <;> rfl

/-- A vector subcore's own buffers, each whole at some contents, are its eleven scratch buffers. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f)
          ∗ (∃ f, (V d c i).loc cc0_scratch6 ↦{fullShare} f) ∗ (∃ f, (V d c i).loc cc0_scratch7 ↦{fullShare} f)
          ∗ (∃ f, (V d c i).loc cc0_scratch8 ↦{fullShare} f) ∗ (∃ f, (V d c i).loc cc0_scratch9 ↦{fullShare} f)
          ∗ (∃ f, (V d c i).loc cc0_scratch10 ↦{fullShare} f)) := by
  unfold SparseCore.Cfg.ownBufs
  rw [show (V d c i : Thread nD τ).2 = Proc.scVector c i from rfl, ownRefs_scVector, bigSep_map]
  simp (disch := decide) only [SparseCore.bigSep_insert', bigSep_singleton, Function.Embedding.coeFn_mk]

end Cert.KernelIdealRun

end
-- ==== Proof.KernelIdealRun.Values.lean ====
/-
  What the worker's buffers hold, read at an index. The table sliced whole reads as the table; row `g` of the 160 × 64 block
  of row numbers, taken as a list of 64, reads entry `r` as entry `(g, r)` of the block; a buffer last written whole holds
  what was written; a 64-row chunk of the flat output written whole holds, at row `off + r`, row `r` of what was written.
  Together: the chunk a worker copies out after gathering by row `g` of its row numbers holds, at every index of the chunk,
  the flat gather of the re-laid row numbers.
-/
import proofs.«207499_g15272903704957_cont_week2b_486_20_alg».proof.Proof.KernelIdealRun.Pay
import proofs.«207499_g15272903704957_cont_week2b_486_20_alg».proof.Proof.GatherValue
import Idealize.ShloMosaic.Lib.Writes

noncomputable section

namespace Cert.KernelIdealRun

open Cert.KernelIdeal Cert.KernelIdeal.Gen

open Idealize.ShloMosaic Idealize.ShloMosaic.ValueIdx

variable {F : FTy → Type}

/-! ## The table sliced whole -/

/-- The table read through its whole-box slice is the table. -/
theorem wSl_read (Wc : S100000x128.Idx → Elt F .f32) :
    ((Memref.whole main_arg1_scv).slice (Rect.unit (s := S100000x128) ![0, 0] S100000x128.size inb_S100000x128_S100000x128_0_0)
        (fun _ => rfl)).view.read (Elt F) Wc = Wc := by
  funext x
  have he : ((Memref.whole main_arg1_scv).slice (Rect.unit (s := S100000x128) ![0, 0] S100000x128.size inb_S100000x128_S100000x128_0_0)
      (fun _ => rfl)).view.emb x = x := by
    funext a; apply Fin.ext
    match a with
    | ⟨0, _⟩ => show 0 + 1 * (x 0).val = (x 0).val; omega
    | ⟨1, _⟩ => show 0 + 1 * (x 1).val = (x 1).val; omega
  rw [View.read_apply, he]
  rfl

/-! ## A row of the block of row numbers, as a list of 64 -/

/-- Row `off 0` of the 160 × 64 block, squeezed to a list of 64, reads entry `r` as entry `(off 0, r)` of the block. -/
theorem idxRow_read (off : Fin 2 → Nat) (h : ∀ a, off a + S1x64.size a ≤ S160x64.size a) (h1 : off 1 = 0)
    (XI : S160x64.Idx → BitVec 32) (r : Fin 64) :
    (((Memref.whole cc0_scratch0).slice (Rect.unit (s := S160x64) off S1x64.size h) (fun _ => rfl)).squeeze S64 squeezes_S1x64_S64).view.read
        (Elt F) XI (ix1 r)
      = XI (ix2 (⟨off 0, by have h0 : off 0 + 1 ≤ 160 := h 0; omega⟩ : Fin 160) r) := by
  have he : (((Memref.whole cc0_scratch0).slice (Rect.unit (s := S160x64) off S1x64.size h) (fun _ => rfl)).squeeze S64
      squeezes_S1x64_S64).view.emb (ix1 r) = ix2 (⟨off 0, by have h0 : off 0 + 1 ≤ 160 := h 0; omega⟩ : Fin 160) r := by
    show (Rect.unit (s := S160x64) off S1x64.size h).emb (Shape.reshapeEquiv squeezes_S1x64_S64.numel_eq (ix1 r)) = _
    rw [Shape.reshapeEquiv_eq_of_rowMajor squeezes_S1x64_S64.numel_eq (y := ix2 (0 : Fin 1) r) (by
      rw [Shape.rowMajor_val_two, Shape.rowMajor_val_one]; show 0 * 64 + r.val = r.val; omega)]
    funext a; apply Fin.ext
    match a with
    | ⟨0, _⟩ => show off 0 + 1 * 0 = off 0; omega
    | ⟨1, _⟩ => show off 1 + 1 * r.val = r.val; omega
  rw [View.read_apply, he]
  rfl

/-- The same at the literal offsets `(g, 0)`. -/
theorem idxRow_read_lit (g : Fin 160) (h : ∀ a, (![g.val, 0] : Fin 2 → Nat) a + S1x64.size a ≤ S160x64.size a)
    (XI : S160x64.Idx → BitVec 32) (r : Fin 64) :
    (((Memref.whole cc0_scratch0).slice (Rect.unit (s := S160x64) ![g.val, 0] S1x64.size h) (fun _ => rfl)).squeeze S64 squeezes_S1x64_S64).view.read
        (Elt F) XI (ix1 r) = XI (ix2 g r) :=
  idxRow_read ![g.val, 0] h rfl XI r

/-! ## A buffer last written whole -/

/-- After a list of writes whose last is of the whole buffer, the buffer holds what that write wrote. -/
theorem whole_writes_head {κ : Kind} (b : Ref sig κ) (f : b.ty.Contents (Elt F))
    (p : (Rect.whole b.ty.shape).shape.Idx → Elt F b.ty.elt) (rest : List (View.Piece (Elt F) b.ty.shape b.ty.elt)) :
    (Memref.whole b).view.writes (Elt F) f (⟨Rect.whole b.ty.shape, p⟩ :: rest) = p := by
  funext i
  have e := View.read_writes_cons_emb (Memref.whole b).view f (Rect.whole b.ty.shape) p rest i
  rw [Rect.emb_whole_apply] at e
  exact e

/-! ## A chunk of the flat output written whole -/

/-- Where the chunk at offsets `off` puts its index `y`. -/
theorem chunk_emb (off : Fin 2 → Nat) (h : ∀ a, off a + S64x128.size a ≤ S327680x128.size a) (y : S64x128.Idx) :
    ((Memref.whole main_v1_scv).slice (Rect.unit (s := S327680x128) off S64x128.size h) (fun _ => rfl)).view.emb y
      = ix2 (⟨off 0 + (y 0).val, by have h0 : off 0 + 64 ≤ 327680 := h 0; have := idx2_lt0 y; omega⟩ : Fin 327680)
          (⟨off 1 + (y 1).val, by have h0 : off 1 + 128 ≤ 128 := h 1; have := idx2_lt1 y; omega⟩ : Fin 128) := by
  funext a; apply Fin.ext
  match a with
  | ⟨0, _⟩ => show off 0 + 1 * (y 0).val = off 0 + (y 0).val; omega
  | ⟨1, _⟩ => show off 1 + 1 * (y 1).val = off 1 + (y 1).val; omega

/-- The chunk's indices are the rows from `off 0`, 64 of them, and the entries from `off 1`, 128 of them. -/
theorem mem_chunk_set_iff (off : Fin 2 → Nat) (h : ∀ a, off a + S64x128.size a ≤ S327680x128.size a) (j : S327680x128.Idx) :
    j ∈ ((Memref.whole main_v1_scv).slice (Rect.unit (s := S327680x128) off S64x128.size h) (fun _ => rfl)).view.set ↔
      (off 0 ≤ (j 0).val ∧ (j 0).val < off 0 + 64) ∧ (off 1 ≤ (j 1).val ∧ (j 1).val < off 1 + 128) := by
  show j ∈ ((View.whole main_v1_scv).slice (Rect.unit (s := S327680x128) off S64x128.size h)).set ↔ _
  rw [View.set_slice_whole, Rect.mem_set_unit]
  show (∀ a : Fin 2, off a ≤ (j a).val ∧ (j a).val < off a + S64x128.size a) ↔ _
  rw [Fin.forall_fin_two]
  rfl

/-- Every index of the chunk is the place of one of the chunk's own indices. -/
theorem exists_of_mem_chunk_set (off : Fin 2 → Nat) (h : ∀ a, off a + S64x128.size a ≤ S327680x128.size a) (j : S327680x128.Idx)
    (hj : j ∈ ((Memref.whole main_v1_scv).slice (Rect.unit (s := S327680x128) off S64x128.size h) (fun _ => rfl)).view.set) :
    ∃ y : S64x128.Idx, ((Memref.whole main_v1_scv).slice (Rect.unit (s := S327680x128) off S64x128.size h) (fun _ => rfl)).view.emb y = j := by
  obtain ⟨y, -, hy⟩ := Finset.mem_map.mp hj
  exact ⟨y, hy⟩

/-- The chunk written whole with `p` holds `p y` at the place of its index `y`. -/
theorem chunk_writes_apply (off : Fin 2 → Nat) (h : ∀ a, off a + S64x128.size a ≤ S327680x128.size a)
    (fo : S327680x128.Idx → Elt F .f32) (p : S64x128.Idx → Elt F .f32) (y : S64x128.Idx) :
    (((Memref.whole main_v1_scv).slice (Rect.unit (s := S327680x128) off S64x128.size h) (fun _ => rfl)).view.writes (Elt F) fo
        [⟨Rect.whole S64x128, p⟩])
      (((Memref.whole main_v1_scv).slice (Rect.unit (s := S327680x128) off S64x128.size h) (fun _ => rfl)).view.emb y) = p y := by
  have hy : (Rect.whole S64x128).emb y = y := Rect.emb_whole_apply S64x128 y
  have e := View.read_writes_cons_emb ((Memref.whole main_v1_scv).slice (Rect.unit (s := S327680x128) off S64x128.size h) (fun _ => rfl)).view
    fo (Rect.whole S64x128) p [] y
  have e2 := congrArg (fun z : S64x128.Idx =>
    (((Memref.whole main_v1_scv).slice (Rect.unit (s := S327680x128) off S64x128.size h) (fun _ => rfl)).view.writes (Elt F) fo
        [⟨Rect.whole S64x128, p⟩])
      (((Memref.whole main_v1_scv).slice (Rect.unit (s := S327680x128) off S64x128.size h) (fun _ => rfl)).view.emb z)) hy
  exact e2.symm.trans e

end Cert.KernelIdealRun

end
-- ==== Proof.KernelIdealRun.ChunkValue.lean ====
/-
  The chunk a worker copies out. Worker `w`, having gathered by row `g` of its 160 × 64 block of row numbers — which is row
  `(w, g)` of the re-laid row numbers — holds in a 64 × 128 buffer the rows of the table those 64 row numbers name; copied
  to the 64 rows of the flat output from row `10240 · w + 64 · g`, they are the flat gather there: flat row
  `10240 · w + 64 · g + r` is (worker, chunk, entry) = `(w, g, r)`.
-/
import proofs.«207499_g15272903704957_cont_week2b_486_20_alg».proof.Proof.KernelIdealRun.Values
import proofs.«207499_g15272903704957_cont_week2b_486_20_alg».proof.Proof.Bridge

noncomputable section

namespace Cert.KernelIdealRun

open Cert.KernelIdeal Cert.KernelIdeal.Gen

open Idealize.ShloMosaic Idealize.ShloMosaic.ValueIdx

variable {F : FTy → Type}

/-- The flat gather at flat row `10240 · w + 64 · g + r`: the row of the table that row number `(w, g, r)` names. -/
theorem gathered_flat {α : Type} (x3 : (⟨3, ![32, 160, 64]⟩ : Shape).Idx → BitVec 32) (W : (⟨2, ![100000, 128]⟩ : Shape).Idx → α)
    (w : Fin 32) (g : Fin 160) (r : Fin 64) (d : Fin 128) :
    Cert.Spec.gathered x3 W (ix2 (⟨10240 * w.val + 64 * g.val + r.val, by omega⟩ : Fin 327680) d)
      = W (ix2 (Cert.Spec.rowOf (x3 (ix3 w g r))) d) := by
  have hw : Cert.Spec.worker (⟨10240 * w.val + 64 * g.val + r.val, by omega⟩ : Fin 327680) = w :=
    Fin.ext (by show (10240 * w.val + 64 * g.val + r.val) / 10240 = w.val; omega)
  have hc : Cert.Spec.chunk (⟨10240 * w.val + 64 * g.val + r.val, by omega⟩ : Fin 327680) = g :=
    Fin.ext (by show (10240 * w.val + 64 * g.val + r.val) % 10240 / 64 = g.val; omega)
  have he : Cert.Spec.entry (⟨10240 * w.val + 64 * g.val + r.val, by omega⟩ : Fin 327680) = r :=
    Fin.ext (by show (10240 * w.val + 64 * g.val + r.val) % 64 = r.val; omega)
  show W (ix2 (Cert.Spec.rowOf (x3 (ix3 (Cert.Spec.worker (⟨10240 * w.val + 64 * g.val + r.val, by omega⟩ : Fin 327680))
    (Cert.Spec.chunk (⟨10240 * w.val + 64 * g.val + r.val, by omega⟩ : Fin 327680))
    (Cert.Spec.entry (⟨10240 * w.val + 64 * g.val + r.val, by omega⟩ : Fin 327680))))) d) = _
  rw [hw, hc, he]

/-- A chunk of the flat output at rows from `10240 · w + 64 · g`, written whole with a block whose row `r` is the row of
    the table that row number `(w, g, r)` names, holds the flat gather at every index of the chunk. -/
theorem chunk_writes_eq_gathered_of (X3d' : (⟨3, ![32, 160, 64]⟩ : Shape).Idx → BitVec 32) (Wc : S100000x128.Idx → Elt F .f32)
    (w : Fin 32) (g : Fin 160) (off : Fin 2 → Nat) (h : ∀ a, off a + S64x128.size a ≤ S327680x128.size a)
    (h0 : off 0 = 10240 * w.val + 64 * g.val) (h1 : off 1 = 0)
    (fo : S327680x128.Idx → Elt F .f32) (p : S64x128.Idx → Elt F .f32)
    (hp : ∀ (r : Fin 64) (dd : Fin 128), p (ix2 r dd) = Wc (ix2 (Cert.Spec.rowOf (X3d' (ix3 w g r))) dd)) :
    ∀ j ∈ ((Memref.whole main_v1_scv).slice (Rect.unit (s := S327680x128) off S64x128.size h) (fun _ => rfl)).view.set,
      (((Memref.whole main_v1_scv).slice (Rect.unit (s := S327680x128) off S64x128.size h) (fun _ => rfl)).view.writes (Elt F) fo
          [⟨Rect.whole S64x128, p⟩]) j = Cert.Spec.gathered X3d' Wc j := by
  intro j hj
  obtain ⟨y, rfl⟩ := exists_of_mem_chunk_set off h j hj
  obtain ⟨r, dd, rfl⟩ : ∃ (r : Fin 64) (dd : Fin 128), y = ix2 r dd := ⟨y 0, y 1, eq_ix2 y⟩
  rw [chunk_writes_apply, chunk_emb, hp, ← gathered_flat X3d' Wc w g r dd]
  exact congrArg (Cert.Spec.gathered X3d' Wc) (Cert.Bridge.ix2_congr
    (by show 10240 * w.val + 64 * g.val + r.val = off 0 + r.val; omega) (by show dd.val = off 1 + dd.val; omega))

/-- The same with the block's rows named through the worker's own 160 × 64 block of row numbers `XI`, row `w` of the re-laid
    row numbers. -/
theorem chunk_writes_eq_gathered_of_block (X3d' : (⟨3, ![32, 160, 64]⟩ : Shape).Idx → BitVec 32) (Wc : S100000x128.Idx → Elt F .f32)
    (w : Fin 32) (g : Fin 160) (XI : S160x64.Idx → BitVec 32) (XIrow : ∀ (g : Fin 160) (r : Fin 64), XI (ix2 g r) = X3d' (ix3 w g r))
    (off : Fin 2 → Nat) (h : ∀ a, off a + S64x128.size a ≤ S327680x128.size a)
    (h0 : off 0 = 10240 * w.val + 64 * g.val) (h1 : off 1 = 0)
    (fo : S327680x128.Idx → Elt F .f32) (p : S64x128.Idx → Elt F .f32)
    (hp : ∀ (r : Fin 64) (dd : Fin 128), p (ix2 r dd) = Wc (ix2 (Cert.Spec.rowOf (XI (ix2 g r))) dd)) :
    ∀ j ∈ ((Memref.whole main_v1_scv).slice (Rect.unit (s := S327680x128) off S64x128.size h) (fun _ => rfl)).view.set,
      (((Memref.whole main_v1_scv).slice (Rect.unit (s := S327680x128) off S64x128.size h) (fun _ => rfl)).view.writes (Elt F) fo
          [⟨Rect.whole S64x128, p⟩]) j = Cert.Spec.gathered X3d' Wc j :=
  chunk_writes_eq_gathered_of X3d' Wc w g off h h0 h1 fo p fun r dd => by rw [hp, XIrow]

/-! ## The gather's payload by row `g` of the block -/

/-- Row `g` of the block of in-range row numbers, as a list of 64, has every word below 100000. -/
theorem hin_row (X3d' : (⟨3, ![32, 160, 64]⟩ : Shape).Idx → BitVec 32) (hX : Cert.Spec.InRange X3d') (w : Fin 32) (g : Fin 160)
    (XI : S160x64.Idx → BitVec 32) (XIrow : ∀ (g : Fin 160) (r : Fin 64), XI (ix2 g r) = X3d' (ix3 w g r))
    (hr : ∀ a, (![g.val, 0] : Fin 2 → Nat) a + S1x64.size a ≤ S160x64.size a) :
    ∀ x, ((((Memref.whole cc0_scratch0).slice (Rect.unit (s := S160x64) ![g.val, 0] S1x64.size hr) (fun _ => rfl)).squeeze S64
        squeezes_S1x64_S64).view.read (Elt F) XI x).toNat < S100000x128.size gathers_S100000x128_S64x128.axis := by
  intro x
  obtain ⟨r, rfl⟩ : ∃ r : Fin 64, x = ix1 r := ⟨x 0, eq_ix1 x⟩
  rw [idxRow_read_lit, XIrow]
  exact hX _

/-- The gather's payload, the table read through its whole-box slice and the list row `g` of the block: its row `r` is the
    row of the table that row number `(w, g, r)` names. -/
theorem pay_apply (X3d' : (⟨3, ![32, 160, 64]⟩ : Shape).Idx → BitVec 32) (Wc : S100000x128.Idx → Elt F .f32) (w : Fin 32) (g : Fin 160)
    (XI : S160x64.Idx → BitVec 32) (XIrow : ∀ (g : Fin 160) (r : Fin 64), XI (ix2 g r) = X3d' (ix3 w g r))
    (hr : ∀ a, (![g.val, 0] : Fin 2 → Nat) a + S1x64.size a ≤ S160x64.size a)
    (hn : S64.numel = S64x128.size gathers_S100000x128_S64x128.axis')
    (hin : ∀ x, ((((Memref.whole cc0_scratch0).slice (Rect.unit (s := S160x64) ![g.val, 0] S1x64.size hr) (fun _ => rfl)).squeeze S64
        squeezes_S1x64_S64).view.read (Elt F) XI x).toNat < S100000x128.size gathers_S100000x128_S64x128.axis)
    (r : Fin 64) (dd : Fin 128) :
    SparseCore.gatherPayload gathers_S100000x128_S64x128
        (((Memref.whole main_arg1_scv).slice (Rect.unit (s := S100000x128) ![0, 0] S100000x128.size inb_S100000x128_S100000x128_0_0)
          (fun _ => rfl)).view.read (Elt F) Wc)
        (SparseCore.rows ((((Memref.whole cc0_scratch0).slice (Rect.unit (s := S160x64) ![g.val, 0] S1x64.size hr) (fun _ => rfl)).squeeze S64
          squeezes_S1x64_S64).view.read (Elt F) XI) hn hin) (ix2 r dd)
      = Wc (ix2 (Cert.Spec.rowOf (X3d' (ix3 w g r))) dd) := by
  rw [Cert.GatherValue.payload_apply, wSl_read, idxRow_read_lit, XIrow]

/-- THE COMBINATION. The worker at grid coordinates `L`, chunk `g`: the chunk of the flat output at rows from
    `20480 · L 1 + 10240 · L 0 + 64 · g`, written whole with the gather's payload by row `g` of the worker's block of row
    numbers, holds the flat gather of the re-laid row numbers at every index of the chunk. -/
theorem chunk_copy_eq_gathered (L : grid0.Coords) (g : Fin 160)
    (X3d' : (⟨3, ![32, 160, 64]⟩ : Shape).Idx → BitVec 32) (Wc : S100000x128.Idx → Elt F .f32)
    (XI : S160x64.Idx → BitVec 32) (XIrow : ∀ (g : Fin 160) (r : Fin 64), XI (ix2 g r) = X3d' (ix3 (widL L) g r))
    (hr : ∀ a, (![g.val, 0] : Fin 2 → Nat) a + S1x64.size a ≤ S160x64.size a)
    (hn : S64.numel = S64x128.size gathers_S100000x128_S64x128.axis')
    (hin : ∀ x, ((((Memref.whole cc0_scratch0).slice (Rect.unit (s := S160x64) ![g.val, 0] S1x64.size hr) (fun _ => rfl)).squeeze S64
        squeezes_S1x64_S64).view.read (Elt F) XI x).toNat < S100000x128.size gathers_S100000x128_S64x128.axis)
    (h : ∀ a, (![20480 * (L 1).val + 10240 * (L 0).val + 64 * g.val, 0] : Fin 2 → Nat) a + S64x128.size a ≤ S327680x128.size a)
    (fo : S327680x128.Idx → Elt F .f32) :
    ∀ j ∈ ((Memref.whole main_v1_scv).slice (Rect.unit (s := S327680x128) ![20480 * (L 1).val + 10240 * (L 0).val + 64 * g.val, 0]
        S64x128.size h) (fun _ => rfl)).view.set,
      (((Memref.whole main_v1_scv).slice (Rect.unit (s := S327680x128) ![20480 * (L 1).val + 10240 * (L 0).val + 64 * g.val, 0]
          S64x128.size h) (fun _ => rfl)).view.writes (Elt F) fo
          [⟨Rect.whole S64x128, SparseCore.gatherPayload gathers_S100000x128_S64x128
            (((Memref.whole main_arg1_scv).slice (Rect.unit (s := S100000x128) ![0, 0] S100000x128.size inb_S100000x128_S100000x128_0_0)
              (fun _ => rfl)).view.read (Elt F) Wc)
            (SparseCore.rows ((((Memref.whole cc0_scratch0).slice (Rect.unit (s := S160x64) ![g.val, 0] S1x64.size hr) (fun _ => rfl)).squeeze S64
              squeezes_S1x64_S64).view.read (Elt F) XI) hn hin)⟩]) j = Cert.Spec.gathered X3d' Wc j :=
  chunk_writes_eq_gathered_of X3d' Wc (widL L) g _ h
    (by show 20480 * (L 1).val + 10240 * (L 0).val + 64 * g.val = 10240 * (2 * (L 1).val + (L 0).val) + 64 * g.val; omega) rfl fo _
    (pay_apply X3d' Wc (widL L) g XI XIrow hr hn hin)

end Cert.KernelIdealRun

end
-- ==== Proof.KernelIdealRun.TripFacts.lean ====
/-
  What one trip of the worker's loop establishes, as facts about values. The worker's 160 × 64 block of row numbers is row
  `w` of the re-laid row numbers. A buffer the gather by row `g` of the block landed in holds the rows of the table that
  chunk `g` of worker `w` names; the 64 rows of the flat output from row `10240 · w + 64 · g`, written with such a buffer, agree
  with the flat gather on chunk `g`; and a piece of the output that agrees with the flat gather on its chunk is the piece of
  the flat gather. Then the same at the offsets the loop computes: trip `k`, digit `R` gathers by row `10 k + R + 16` and
  copies out to chunk `10 k + R + 10`; outside the loop the constant offsets `64 · g` name chunk `g`.
-/
import proofs.«207499_g15272903704957_cont_week2b_486_20_alg».proof.Proof.KernelIdealRun.Inv
import proofs.«207499_g15272903704957_cont_week2b_486_20_alg».proof.Proof.KernelIdealRun.ChunkValue

noncomputable section

namespace Cert.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The worker's block of row numbers -/

/-- Entry `(g, r)` of the worker's block of row numbers is entry `(w, g, r)` of the re-laid row numbers. -/
theorem XI_row (L : grid0.Coords) (X3d : S32x160x64.Idx → BitVec 32) (g : Fin 160) (r : Fin 64) :
    (x3RowM L).view.read (Elt F) X3d (ix2 g r) = X3d (ix3 (widL L) g r) := by
  have he : (x3RowM L).view.emb (ix2 g r) = ix3 (widL L) g r := by
    show (Rect.unit (s := S32x160x64) (k0_off1 L) S1x160x64.size (k0_off1_inb L)).emb
        (Shape.reshapeEquiv squeezes_S1x160x64_S160x64.numel_eq (ix2 g r)) = _
    rw [Shape.reshapeEquiv_eq_of_rowMajor squeezes_S1x160x64_S160x64.numel_eq (y := ix3 (0 : Fin 1) g r) (by
      rw [Shape.rowMajor_val_three, Shape.rowMajor_val_two]
      show (0 * 160 + g.val) * 64 + r.val = g.val * 64 + r.val; omega)]
    have e0 : k0_off1 L 0 = 2 * (L 1).val + (L 0).val := congrFun (k0_off1_eq L) 0
    have e1 : k0_off1 L 1 = 0 := congrFun (k0_off1_eq L) 1
    have e2 : k0_off1 L 2 = 0 := congrFun (k0_off1_eq L) 2
    funext a; apply Fin.ext
    match a with
    | ⟨0, _⟩ => show k0_off1 L 0 + 1 * 0 = 2 * (L 1).val + (L 0).val; omega
    | ⟨1, _⟩ => show k0_off1 L 1 + 1 * g.val = g.val; omega
    | ⟨2, _⟩ => show k0_off1 L 2 + 1 * r.val = r.val; omega
  rw [View.read_apply, he]
  rfl

/-! ## A buffer the gather landed in -/

theorem off0_of_eq {off : Fin 2 → ℕ} {A : ℕ} (e : off = ![A, 0]) : off 0 = A := by subst e; rfl
theorem off1_of_eq {off : Fin 2 → ℕ} {A : ℕ} (e : off = ![A, 0]) : off 1 = 0 := by subst e; rfl

/-- Row `g` of the block of in-range row numbers, as the gather's list, has every word below 100000. -/
theorem hin_gather (L : grid0.Coords) (X3d : S32x160x64.Idx → BitVec 32) (hX : Cert.Spec.InRange X3d) (g : ℕ) (hg : g < 160)
    (off : Fin 2 → ℕ) (h : ∀ a, off a + S1x64.size a ≤ S160x64.size a) (e : off = ![g, 0]) :
    ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis := by
  subst e
  exact hin_row X3d hX (widL L) ⟨g, hg⟩ _ (XI_row L X3d) h

/-- The gather's payload by row `g` of the worker's block holds the rows of the table that chunk `g` of the worker names. -/
theorem chunkIs_pay (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin)) := by
  subst e
  intro hg r dd
  exact (pay_apply X3d Wc (widL L) ⟨g, hg⟩ _ (XI_row L X3d) h hn hin r dd).trans (gathered_flat X3d Wc (widL L) ⟨g, hg⟩ r dd).symm

/-- The same for scratch buffer 1 written whole with that payload. -/
theorem chunkIs_of_gather_b1 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch1).view.writes (Elt F) pold
      [⟨Rect.whole cc0_scratch1.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 2 written whole with that payload. -/
theorem chunkIs_of_gather_b2 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch2).view.writes (Elt F) pold
      [⟨Rect.whole cc0_scratch2.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 3 written whole with that payload. -/
theorem chunkIs_of_gather_b3 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch3).view.writes (Elt F) pold
      [⟨Rect.whole cc0_scratch3.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 4 written whole with that payload. -/
theorem chunkIs_of_gather_b4 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch4).view.writes (Elt F) pold
      [⟨Rect.whole cc0_scratch4.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 5 written whole with that payload. -/
theorem chunkIs_of_gather_b5 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch5).view.writes (Elt F) pold
      [⟨Rect.whole cc0_scratch5.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 6 written whole with that payload. -/
theorem chunkIs_of_gather_b6 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch6).view.writes (Elt F) pold
      [⟨Rect.whole cc0_scratch6.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 7 written whole with that payload. -/
theorem chunkIs_of_gather_b7 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch7).view.writes (Elt F) pold
      [⟨Rect.whole cc0_scratch7.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 8 written whole with that payload. -/
theorem chunkIs_of_gather_b8 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch8).view.writes (Elt F) pold
      [⟨Rect.whole cc0_scratch8.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 9 written whole with that payload. -/
theorem chunkIs_of_gather_b9 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch9).view.writes (Elt F) pold
      [⟨Rect.whole cc0_scratch9.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-- The same for scratch buffer 10 written whole with that payload. -/
theorem chunkIs_of_gather_b10 (L : grid0.Coords) (X3d : S32x160x64.Idx → BitVec 32) (Wc : S100000x128.Idx → Elt F .f32) (g : ℕ)
    (off : Fin 2 → ℕ) (h : ∀ a, off a + S1x64.size a ≤ S160x64.size a) (e : off = ![g, 0])
    (hn : S64.numel = S64x128.size gathers_S100000x128_S64x128.axis')
    (hin : ∀ x, ((((Memref.whole cc0_scratch0).slice (Rect.unit (s := S160x64) off S1x64.size h) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch10).view.writes (Elt F) pold
      [⟨Rect.whole cc0_scratch10.ty.shape, (SparseCore.gatherPayload gathers_S100000x128_S64x128 ((wSlM).view.read (Elt F) Wc)
        (SparseCore.rows ((((Memref.whole cc0_scratch0).slice (Rect.unit (s := S160x64) off S1x64.size h) (fun _ => rfl)).squeeze S64 squeezes_S1x64_S64).view.read (Elt F) ((x3RowM L).view.read (Elt F) X3d)) hn hin))⟩]) := by
  rw [whole_writes_head]
  exact chunkIs_pay L X3d Wc g off h e hn hin

/-! ## A chunk of the flat output after its copy-out -/

/-- The 64 rows of the flat output from row `10240 · w + 64 · g`, written whole with a block that holds the rows chunk `g` of
    worker `w` names, agree with the flat gather on chunk `g` of worker `w`. -/
theorem outIs_of_copy (w : Fin 32) (X3d : S32x160x64.Idx → BitVec 32) (Wc : S100000x128.Idx → Elt F .f32) (g : ℕ)
    (off : Fin 2 → ℕ) (h : ∀ a, off a + S64x128.size a ≤ S327680x128.size a)
    (e0 : off 0 = 10240 * w.val + 64 * g) (e1 : off 1 = 0) (fo : S327680x128.Idx → Elt F .f32)
    (pp : (Rect.whole (Rect.unit (s := S327680x128) off S64x128.size h).shape).shape.Idx → Elt F .f32)
    (hB : ChunkIs w X3d Wc g pp) :
    OutIs w X3d Wc g (((Memref.whole main_v1_scv).slice (Rect.unit (s := S327680x128) off S64x128.size h) (fun _ => rfl)).view.writes (Elt F) fo
        [⟨Rect.whole (Rect.unit (s := S327680x128) off S64x128.size h).shape, pp⟩]) := by
  intro hg j hj
  have hmem : 10240 * w.val + 64 * g ≤ (j 0).val ∧ (j 0).val < 10240 * w.val + 64 * g + 64 :=
    (Cert.Cover.mem_chunk_iff w ⟨g, hg⟩ _ j).mp hj
  have h1 := idx2_lt1 j
  have hj' : j ∈ ((Memref.whole main_v1_scv).slice (Rect.unit (s := S327680x128) off S64x128.size h) (fun _ => rfl)).view.set :=
    (mem_chunk_set_iff off h j).mpr ⟨⟨by omega, by omega⟩, ⟨by omega, by omega⟩⟩
  exact chunk_writes_eq_gathered_of X3d Wc w ⟨g, hg⟩ off h e0 e1 fo pp
    (fun r dd => (hB hg r dd).trans (gathered_flat X3d Wc w ⟨g, hg⟩ r dd)) j hj'

/-- The same from the offsets in closed form `(20480 · L 1 + 10240 · L 0 + c, 0)` with `c = 64 · g`. -/
theorem outIs_of_copy_at (L : grid0.Coords) (X3d : S32x160x64.Idx → BitVec 32) (Wc : S100000x128.Idx → Elt F .f32) (g c : ℕ)
    (hc : c = 64 * g) (off : Fin 2 → ℕ) (h : ∀ a, off a + S64x128.size a ≤ S327680x128.size a)
    (e : off = ![20480 * (L 1).val + 10240 * (L 0).val + c, 0]) (fo : S327680x128.Idx → Elt F .f32)
    (pp : (Rect.whole (Rect.unit (s := S327680x128) off S64x128.size h).shape).shape.Idx → Elt F .f32)
    (hB : ChunkIs (widL L) X3d Wc g pp) :
    OutIs (widL L) X3d Wc g (((Memref.whole main_v1_scv).slice (Rect.unit (s := S327680x128) off S64x128.size h) (fun _ => rfl)).view.writes (Elt F) fo
        [⟨Rect.whole (Rect.unit (s := S327680x128) off S64x128.size h).shape, pp⟩]) :=
  outIs_of_copy (widL L) X3d Wc g off h
    ((off0_of_eq e).trans (by rw [widL_val]; omega)) (off1_of_eq e) fo pp hB

/-- A piece of the output that agrees with the flat gather on its chunk is the piece of the flat gather. -/
theorem piece_done (d : Dev nD) (L : grid0.Coords) (X3d : Buf (Elt F) (x3Loc d)) (Wc : Buf (Elt F) (wLoc d)) (g : ℕ)
    (o : Buf (Elt F) (oLoc d)) (ho : OutIs (widL L) X3d Wc g o) :
    (piece d (widL L) o g : sProp 𝕄) = piece d (widL L) (Cert.Spec.gathered X3d Wc) g :=
  piece_congr d (widL L) g ho

/-! ## At the offsets the loop computes -/

/-- Trip `k`, digit 0: the gather by row `10 k + 0 + 16` of the block, landed in scratch buffer 7. -/
theorem hin_off6_0 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d) x).toNat < S100000x128.size gathers_S100000x128_S64x128.axis :=
  hin_gather L X3d hX (10 * k.val + 0 + 16) (row6_lt k 0) _ _ (k0_off6_eq k 0)
theorem chunkIs_pay_off6_0 (L : grid0.Coords) (X3d : S32x160x64.Idx → BitVec 32) (Wc : S100000x128.Idx → Elt F .f32)
    (k : Fin k0_t1_loop.trips) (g : ℕ) (eg : g = 10 * k.val + 0 + 16)
    (hn : S64.numel = S64x128.size gathers_S100000x128_S64x128.axis')
    (hin : ∀ x, ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d)) hn hin)) :=
  chunkIs_pay L X3d Wc g _ _ (by rw [eg]; exact k0_off6_eq k 0) hn hin
theorem chunkIs_off6_0 (L : grid0.Coords) (X3d : S32x160x64.Idx → BitVec 32) (Wc : S100000x128.Idx → Elt F .f32)
    (k : Fin k0_t1_loop.trips) (g : ℕ) (eg : g = 10 * k.val + 0 + 16)
    (hn : S64.numel = S64x128.size gathers_S100000x128_S64x128.axis')
    (hin : ∀ x, ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch7).view.writes (Elt F) pold
      [⟨Rect.whole cc0_scratch7.ty.shape, (SparseCore.gatherPayload gathers_S100000x128_S64x128 ((wSlM).view.read (Elt F) Wc)
        (SparseCore.rows ((((Memref.whole cc0_scratch0).slice (Rect.unit (s := S160x64) (k0_off6 k 0#32) S1x64.size (k0_off6_inb k 0)) (fun _ => rfl)).squeeze S64 squeezes_S1x64_S64).view.read (Elt F) ((x3RowM L).view.read (Elt F) X3d)) hn hin))⟩]) :=
  chunkIs_of_gather_b7 L X3d Wc g _ _ (by rw [eg]; exact k0_off6_eq k 0) hn hin pold

/-- Trip `k`, digit 1: the gather by row `10 k + 1 + 16` of the block, landed in scratch buffer 8. -/
theorem hin_off6_1 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d) x).toNat < S100000x128.size gathers_S100000x128_S64x128.axis :=
  hin_gather L X3d hX (10 * k.val + 1 + 16) (row6_lt k 1) _ _ (k0_off6_eq k 1)
theorem chunkIs_pay_off6_1 (L : grid0.Coords) (X3d : S32x160x64.Idx → BitVec 32) (Wc : S100000x128.Idx → Elt F .f32)
    (k : Fin k0_t1_loop.trips) (g : ℕ) (eg : g = 10 * k.val + 1 + 16)
    (hn : S64.numel = S64x128.size gathers_S100000x128_S64x128.axis')
    (hin : ∀ x, ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d)) hn hin)) :=
  chunkIs_pay L X3d Wc g _ _ (by rw [eg]; exact k0_off6_eq k 1) hn hin
theorem chunkIs_off6_1 (L : grid0.Coords) (X3d : S32x160x64.Idx → BitVec 32) (Wc : S100000x128.Idx → Elt F .f32)
    (k : Fin k0_t1_loop.trips) (g : ℕ) (eg : g = 10 * k.val + 1 + 16)
    (hn : S64.numel = S64x128.size gathers_S100000x128_S64x128.axis')
    (hin : ∀ x, ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch8).view.writes (Elt F) pold
      [⟨Rect.whole cc0_scratch8.ty.shape, (SparseCore.gatherPayload gathers_S100000x128_S64x128 ((wSlM).view.read (Elt F) Wc)
        (SparseCore.rows ((((Memref.whole cc0_scratch0).slice (Rect.unit (s := S160x64) (k0_off6 k 1#32) S1x64.size (k0_off6_inb k 1)) (fun _ => rfl)).squeeze S64 squeezes_S1x64_S64).view.read (Elt F) ((x3RowM L).view.read (Elt F) X3d)) hn hin))⟩]) :=
  chunkIs_of_gather_b8 L X3d Wc g _ _ (by rw [eg]; exact k0_off6_eq k 1) hn hin pold

/-- Trip `k`, digit 2: the gather by row `10 k + 2 + 16` of the block, landed in scratch buffer 9. -/
theorem hin_off6_2 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d) x).toNat < S100000x128.size gathers_S100000x128_S64x128.axis :=
  hin_gather L X3d hX (10 * k.val + 2 + 16) (row6_lt k 2) _ _ (k0_off6_eq k 2)
theorem chunkIs_pay_off6_2 (L : grid0.Coords) (X3d : S32x160x64.Idx → BitVec 32) (Wc : S100000x128.Idx → Elt F .f32)
    (k : Fin k0_t1_loop.trips) (g : ℕ) (eg : g = 10 * k.val + 2 + 16)
    (hn : S64.numel = S64x128.size gathers_S100000x128_S64x128.axis')
    (hin : ∀ x, ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d)) hn hin)) :=
  chunkIs_pay L X3d Wc g _ _ (by rw [eg]; exact k0_off6_eq k 2) hn hin
theorem chunkIs_off6_2 (L : grid0.Coords) (X3d : S32x160x64.Idx → BitVec 32) (Wc : S100000x128.Idx → Elt F .f32)
    (k : Fin k0_t1_loop.trips) (g : ℕ) (eg : g = 10 * k.val + 2 + 16)
    (hn : S64.numel = S64x128.size gathers_S100000x128_S64x128.axis')
    (hin : ∀ x, ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch9).view.writes (Elt F) pold
      [⟨Rect.whole cc0_scratch9.ty.shape, (SparseCore.gatherPayload gathers_S100000x128_S64x128 ((wSlM).view.read (Elt F) Wc)
        (SparseCore.rows ((((Memref.whole cc0_scratch0).slice (Rect.unit (s := S160x64) (k0_off6 k 2#32) S1x64.size (k0_off6_inb k 2)) (fun _ => rfl)).squeeze S64 squeezes_S1x64_S64).view.read (Elt F) ((x3RowM L).view.read (Elt F) X3d)) hn hin))⟩]) :=
  chunkIs_of_gather_b9 L X3d Wc g _ _ (by rw [eg]; exact k0_off6_eq k 2) hn hin pold

/-- Trip `k`, digit 3: the gather by row `10 k + 3 + 16` of the block, landed in scratch buffer 10. -/
theorem hin_off6_3 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d) x).toNat < S100000x128.size gathers_S100000x128_S64x128.axis :=
  hin_gather L X3d hX (10 * k.val + 3 + 16) (row6_lt k 3) _ _ (k0_off6_eq k 3)
theorem chunkIs_pay_off6_3 (L : grid0.Coords) (X3d : S32x160x64.Idx → BitVec 32) (Wc : S100000x128.Idx → Elt F .f32)
    (k : Fin k0_t1_loop.trips) (g : ℕ) (eg : g = 10 * k.val + 3 + 16)
    (hn : S64.numel = S64x128.size gathers_S100000x128_S64x128.axis')
    (hin : ∀ x, ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d)) hn hin)) :=
  chunkIs_pay L X3d Wc g _ _ (by rw [eg]; exact k0_off6_eq k 3) hn hin
theorem chunkIs_off6_3 (L : grid0.Coords) (X3d : S32x160x64.Idx → BitVec 32) (Wc : S100000x128.Idx → Elt F .f32)
    (k : Fin k0_t1_loop.trips) (g : ℕ) (eg : g = 10 * k.val + 3 + 16)
    (hn : S64.numel = S64x128.size gathers_S100000x128_S64x128.axis')
    (hin : ∀ x, ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch10).view.writes (Elt F) pold
      [⟨Rect.whole cc0_scratch10.ty.shape, (SparseCore.gatherPayload gathers_S100000x128_S64x128 ((wSlM).view.read (Elt F) Wc)
        (SparseCore.rows ((((Memref.whole cc0_scratch0).slice (Rect.unit (s := S160x64) (k0_off6 k 3#32) S1x64.size (k0_off6_inb k 3)) (fun _ => rfl)).squeeze S64 squeezes_S1x64_S64).view.read (Elt F) ((x3RowM L).view.read (Elt F) X3d)) hn hin))⟩]) :=
  chunkIs_of_gather_b10 L X3d Wc g _ _ (by rw [eg]; exact k0_off6_eq k 3) hn hin pold

/-- Trip `k`, digit 4: the gather by row `10 k + 4 + 16` of the block, landed in scratch buffer 1. -/
theorem hin_off6_4 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d) x).toNat < S100000x128.size gathers_S100000x128_S64x128.axis :=
  hin_gather L X3d hX (10 * k.val + 4 + 16) (row6_lt k 4) _ _ (k0_off6_eq k 4)
theorem chunkIs_pay_off6_4 (L : grid0.Coords) (X3d : S32x160x64.Idx → BitVec 32) (Wc : S100000x128.Idx → Elt F .f32)
    (k : Fin k0_t1_loop.trips) (g : ℕ) (eg : g = 10 * k.val + 4 + 16)
    (hn : S64.numel = S64x128.size gathers_S100000x128_S64x128.axis')
    (hin : ∀ x, ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d)) hn hin)) :=
  chunkIs_pay L X3d Wc g _ _ (by rw [eg]; exact k0_off6_eq k 4) hn hin
theorem chunkIs_off6_4 (L : grid0.Coords) (X3d : S32x160x64.Idx → BitVec 32) (Wc : S100000x128.Idx → Elt F .f32)
    (k : Fin k0_t1_loop.trips) (g : ℕ) (eg : g = 10 * k.val + 4 + 16)
    (hn : S64.numel = S64x128.size gathers_S100000x128_S64x128.axis')
    (hin : ∀ x, ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch1).view.writes (Elt F) pold
      [⟨Rect.whole cc0_scratch1.ty.shape, (SparseCore.gatherPayload gathers_S100000x128_S64x128 ((wSlM).view.read (Elt F) Wc)
        (SparseCore.rows ((((Memref.whole cc0_scratch0).slice (Rect.unit (s := S160x64) (k0_off6 k 4#32) S1x64.size (k0_off6_inb k 4)) (fun _ => rfl)).squeeze S64 squeezes_S1x64_S64).view.read (Elt F) ((x3RowM L).view.read (Elt F) X3d)) hn hin))⟩]) :=
  chunkIs_of_gather_b1 L X3d Wc g _ _ (by rw [eg]; exact k0_off6_eq k 4) hn hin pold

/-- Trip `k`, digit 5: the gather by row `10 k + 5 + 16` of the block, landed in scratch buffer 2. -/
theorem hin_off6_5 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d) x).toNat < S100000x128.size gathers_S100000x128_S64x128.axis :=
  hin_gather L X3d hX (10 * k.val + 5 + 16) (row6_lt k 5) _ _ (k0_off6_eq k 5)
theorem chunkIs_pay_off6_5 (L : grid0.Coords) (X3d : S32x160x64.Idx → BitVec 32) (Wc : S100000x128.Idx → Elt F .f32)
    (k : Fin k0_t1_loop.trips) (g : ℕ) (eg : g = 10 * k.val + 5 + 16)
    (hn : S64.numel = S64x128.size gathers_S100000x128_S64x128.axis')
    (hin : ∀ x, ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d)) hn hin)) :=
  chunkIs_pay L X3d Wc g _ _ (by rw [eg]; exact k0_off6_eq k 5) hn hin
theorem chunkIs_off6_5 (L : grid0.Coords) (X3d : S32x160x64.Idx → BitVec 32) (Wc : S100000x128.Idx → Elt F .f32)
    (k : Fin k0_t1_loop.trips) (g : ℕ) (eg : g = 10 * k.val + 5 + 16)
    (hn : S64.numel = S64x128.size gathers_S100000x128_S64x128.axis')
    (hin : ∀ x, ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch2).view.writes (Elt F) pold
      [⟨Rect.whole cc0_scratch2.ty.shape, (SparseCore.gatherPayload gathers_S100000x128_S64x128 ((wSlM).view.read (Elt F) Wc)
        (SparseCore.rows ((((Memref.whole cc0_scratch0).slice (Rect.unit (s := S160x64) (k0_off6 k 5#32) S1x64.size (k0_off6_inb k 5)) (fun _ => rfl)).squeeze S64 squeezes_S1x64_S64).view.read (Elt F) ((x3RowM L).view.read (Elt F) X3d)) hn hin))⟩]) :=
  chunkIs_of_gather_b2 L X3d Wc g _ _ (by rw [eg]; exact k0_off6_eq k 5) hn hin pold

/-- Trip `k`, digit 6: the gather by row `10 k + 6 + 16` of the block, landed in scratch buffer 3. -/
theorem hin_off6_6 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d) x).toNat < S100000x128.size gathers_S100000x128_S64x128.axis :=
  hin_gather L X3d hX (10 * k.val + 6 + 16) (row6_lt k 6) _ _ (k0_off6_eq k 6)
theorem chunkIs_pay_off6_6 (L : grid0.Coords) (X3d : S32x160x64.Idx → BitVec 32) (Wc : S100000x128.Idx → Elt F .f32)
    (k : Fin k0_t1_loop.trips) (g : ℕ) (eg : g = 10 * k.val + 6 + 16)
    (hn : S64.numel = S64x128.size gathers_S100000x128_S64x128.axis')
    (hin : ∀ x, ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d)) hn hin)) :=
  chunkIs_pay L X3d Wc g _ _ (by rw [eg]; exact k0_off6_eq k 6) hn hin
theorem chunkIs_off6_6 (L : grid0.Coords) (X3d : S32x160x64.Idx → BitVec 32) (Wc : S100000x128.Idx → Elt F .f32)
    (k : Fin k0_t1_loop.trips) (g : ℕ) (eg : g = 10 * k.val + 6 + 16)
    (hn : S64.numel = S64x128.size gathers_S100000x128_S64x128.axis')
    (hin : ∀ x, ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch3).view.writes (Elt F) pold
      [⟨Rect.whole cc0_scratch3.ty.shape, (SparseCore.gatherPayload gathers_S100000x128_S64x128 ((wSlM).view.read (Elt F) Wc)
        (SparseCore.rows ((((Memref.whole cc0_scratch0).slice (Rect.unit (s := S160x64) (k0_off6 k 6#32) S1x64.size (k0_off6_inb k 6)) (fun _ => rfl)).squeeze S64 squeezes_S1x64_S64).view.read (Elt F) ((x3RowM L).view.read (Elt F) X3d)) hn hin))⟩]) :=
  chunkIs_of_gather_b3 L X3d Wc g _ _ (by rw [eg]; exact k0_off6_eq k 6) hn hin pold

/-- Trip `k`, digit 7: the gather by row `10 k + 7 + 16` of the block, landed in scratch buffer 4. -/
theorem hin_off6_7 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d) x).toNat < S100000x128.size gathers_S100000x128_S64x128.axis :=
  hin_gather L X3d hX (10 * k.val + 7 + 16) (row6_lt k 7) _ _ (k0_off6_eq k 7)
theorem chunkIs_pay_off6_7 (L : grid0.Coords) (X3d : S32x160x64.Idx → BitVec 32) (Wc : S100000x128.Idx → Elt F .f32)
    (k : Fin k0_t1_loop.trips) (g : ℕ) (eg : g = 10 * k.val + 7 + 16)
    (hn : S64.numel = S64x128.size gathers_S100000x128_S64x128.axis')
    (hin : ∀ x, ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d)) hn hin)) :=
  chunkIs_pay L X3d Wc g _ _ (by rw [eg]; exact k0_off6_eq k 7) hn hin
theorem chunkIs_off6_7 (L : grid0.Coords) (X3d : S32x160x64.Idx → BitVec 32) (Wc : S100000x128.Idx → Elt F .f32)
    (k : Fin k0_t1_loop.trips) (g : ℕ) (eg : g = 10 * k.val + 7 + 16)
    (hn : S64.numel = S64x128.size gathers_S100000x128_S64x128.axis')
    (hin : ∀ x, ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch4).view.writes (Elt F) pold
      [⟨Rect.whole cc0_scratch4.ty.shape, (SparseCore.gatherPayload gathers_S100000x128_S64x128 ((wSlM).view.read (Elt F) Wc)
        (SparseCore.rows ((((Memref.whole cc0_scratch0).slice (Rect.unit (s := S160x64) (k0_off6 k 7#32) S1x64.size (k0_off6_inb k 7)) (fun _ => rfl)).squeeze S64 squeezes_S1x64_S64).view.read (Elt F) ((x3RowM L).view.read (Elt F) X3d)) hn hin))⟩]) :=
  chunkIs_of_gather_b4 L X3d Wc g _ _ (by rw [eg]; exact k0_off6_eq k 7) hn hin pold

/-- Trip `k`, digit 8: the gather by row `10 k + 8 + 16` of the block, landed in scratch buffer 5. -/
theorem hin_off6_8 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d) x).toNat < S100000x128.size gathers_S100000x128_S64x128.axis :=
  hin_gather L X3d hX (10 * k.val + 8 + 16) (row6_lt k 8) _ _ (k0_off6_eq k 8)
theorem chunkIs_pay_off6_8 (L : grid0.Coords) (X3d : S32x160x64.Idx → BitVec 32) (Wc : S100000x128.Idx → Elt F .f32)
    (k : Fin k0_t1_loop.trips) (g : ℕ) (eg : g = 10 * k.val + 8 + 16)
    (hn : S64.numel = S64x128.size gathers_S100000x128_S64x128.axis')
    (hin : ∀ x, ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d)) hn hin)) :=
  chunkIs_pay L X3d Wc g _ _ (by rw [eg]; exact k0_off6_eq k 8) hn hin
theorem chunkIs_off6_8 (L : grid0.Coords) (X3d : S32x160x64.Idx → BitVec 32) (Wc : S100000x128.Idx → Elt F .f32)
    (k : Fin k0_t1_loop.trips) (g : ℕ) (eg : g = 10 * k.val + 8 + 16)
    (hn : S64.numel = S64x128.size gathers_S100000x128_S64x128.axis')
    (hin : ∀ x, ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch5).view.writes (Elt F) pold
      [⟨Rect.whole cc0_scratch5.ty.shape, (SparseCore.gatherPayload gathers_S100000x128_S64x128 ((wSlM).view.read (Elt F) Wc)
        (SparseCore.rows ((((Memref.whole cc0_scratch0).slice (Rect.unit (s := S160x64) (k0_off6 k 8#32) S1x64.size (k0_off6_inb k 8)) (fun _ => rfl)).squeeze S64 squeezes_S1x64_S64).view.read (Elt F) ((x3RowM L).view.read (Elt F) X3d)) hn hin))⟩]) :=
  chunkIs_of_gather_b5 L X3d Wc g _ _ (by rw [eg]; exact k0_off6_eq k 8) hn hin pold

/-- Trip `k`, digit 9: the gather by row `10 k + 9 + 16` of the block, landed in scratch buffer 6. -/
theorem hin_off6_9 (L : grid0.Coords) (X3d : S32x160x64.Idx → BitVec 32) (hX : Cert.Spec.InRange X3d) (k : Fin k0_t1_loop.trips) :
    ∀ x, ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d) x).toNat < S100000x128.size gathers_S100000x128_S64x128.axis :=
  hin_gather L X3d hX (10 * k.val + 9 + 16) (row6_lt k 9) _ _ (k0_off6_eq k 9)
theorem chunkIs_pay_off6_9 (L : grid0.Coords) (X3d : S32x160x64.Idx → BitVec 32) (Wc : S100000x128.Idx → Elt F .f32)
    (k : Fin k0_t1_loop.trips) (g : ℕ) (eg : g = 10 * k.val + 9 + 16)
    (hn : S64.numel = S64x128.size gathers_S100000x128_S64x128.axis')
    (hin : ∀ x, ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d) x).toNat < S100000x128.size gathers_S100000x128_S64x128.axis) :
    ChunkIs (widL L) X3d Wc g (SparseCore.gatherPayload gathers_S100000x128_S64x128 ((wSlM).view.read (Elt F) Wc)
        (SparseCore.rows ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d)) hn hin)) :=
  chunkIs_pay L X3d Wc g _ _ (by rw [eg]; exact k0_off6_eq k 9) hn hin
theorem chunkIs_off6_9 (L : grid0.Coords) (X3d : S32x160x64.Idx → BitVec 32) (Wc : S100000x128.Idx → Elt F .f32)
    (k : Fin k0_t1_loop.trips) (g : ℕ) (eg : g = 10 * k.val + 9 + 16)
    (hn : S64.numel = S64x128.size gathers_S100000x128_S64x128.axis')
    (hin : ∀ x, ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d) x).toNat < S100000x128.size gathers_S100000x128_S64x128.axis)
    (pold : S64x128.Idx → Elt F .f32) :
    ChunkIs (widL L) X3d Wc g ((Memref.whole cc0_scratch6).view.writes (Elt F) pold
      [⟨Rect.whole cc0_scratch6.ty.shape, (SparseCore.gatherPayload gathers_S100000x128_S64x128 ((wSlM).view.read (Elt F) Wc)
        (SparseCore.rows ((((Memref.whole cc0_scratch0).slice (Rect.unit (s := S160x64) (k0_off6 k 9#32) S1x64.size (k0_off6_inb k 9)) (fun _ => rfl)).squeeze S64 squeezes_S1x64_S64).view.read (Elt F) ((x3RowM L).view.read (Elt F) X3d)) hn hin))⟩]) :=
  chunkIs_of_gather_b6 L X3d Wc g _ _ (by rw [eg]; exact k0_off6_eq k 9) hn hin pold

/-- Trip `k`, digit 0: the copy-out to chunk `10 k + 0 + 10`. -/
theorem outIs_off4_0 (L : grid0.Coords) (X3d : S32x160x64.Idx → BitVec 32) (Wc : S100000x128.Idx → Elt F .f32)
    (k : Fin k0_t1_loop.trips) (g : ℕ) (eg : g = 10 * k.val + 0 + 10) (fo : S327680x128.Idx → Elt F .f32)
    (pp : (Rect.whole (Rect.unit (s := S327680x128) (k0_off4 L k 0#32) S64x128.size (k0_off4_inb L k 0)).shape).shape.Idx → Elt F .f32)
    (hB : ChunkIs (widL L) X3d Wc g pp) :
    OutIs (widL L) X3d Wc g (((Memref.whole main_v1_scv).slice (Rect.unit (s := S327680x128) (k0_off4 L k 0#32) S64x128.size (k0_off4_inb L k 0)) (fun _ => rfl)).view.writes (Elt F) fo
        [⟨Rect.whole (Rect.unit (s := S327680x128) (k0_off4 L k 0#32) S64x128.size (k0_off4_inb L k 0)).shape, pp⟩]) :=
  outIs_of_copy_at L X3d Wc g (640 * k.val + 64 * 0 + 640) (by omega) _ _ (k0_off4_eq L k 0) fo pp hB

/-- Trip `k`, digit 1: the copy-out to chunk `10 k + 1 + 10`. -/
theorem outIs_off4_1 (L : grid0.Coords) (X3d : S32x160x64.Idx → BitVec 32) (Wc : S100000x128.Idx → Elt F .f32)
    (k : Fin k0_t1_loop.trips) (g : ℕ) (eg : g = 10 * k.val + 1 + 10) (fo : S327680x128.Idx → Elt F .f32)
    (pp : (Rect.whole (Rect.unit (s := S327680x128) (k0_off4 L k 1#32) S64x128.size (k0_off4_inb L k 1)).shape).shape.Idx → Elt F .f32)
    (hB : ChunkIs (widL L) X3d Wc g pp) :
    OutIs (widL L) X3d Wc g (((Memref.whole main_v1_scv).slice (Rect.unit (s := S327680x128) (k0_off4 L k 1#32) S64x128.size (k0_off4_inb L k 1)) (fun _ => rfl)).view.writes (Elt F) fo
        [⟨Rect.whole (Rect.unit (s := S327680x128) (k0_off4 L k 1#32) S64x128.size (k0_off4_inb L k 1)).shape, pp⟩]) :=
  outIs_of_copy_at L X3d Wc g (640 * k.val + 64 * 1 + 640) (by omega) _ _ (k0_off4_eq L k 1) fo pp hB

/-- Trip `k`, digit 2: the copy-out to chunk `10 k + 2 + 10`. -/
theorem outIs_off4_2 (L : grid0.Coords) (X3d : S32x160x64.Idx → BitVec 32) (Wc : S100000x128.Idx → Elt F .f32)
    (k : Fin k0_t1_loop.trips) (g : ℕ) (eg : g = 10 * k.val + 2 + 10) (fo : S327680x128.Idx → Elt F .f32)
    (pp : (Rect.whole (Rect.unit (s := S327680x128) (k0_off4 L k 2#32) S64x128.size (k0_off4_inb L k 2)).shape).shape.Idx → Elt F .f32)
    (hB : ChunkIs (widL L) X3d Wc g pp) :
    OutIs (widL L) X3d Wc g (((Memref.whole main_v1_scv).slice (Rect.unit (s := S327680x128) (k0_off4 L k 2#32) S64x128.size (k0_off4_inb L k 2)) (fun _ => rfl)).view.writes (Elt F) fo
        [⟨Rect.whole (Rect.unit (s := S327680x128) (k0_off4 L k 2#32) S64x128.size (k0_off4_inb L k 2)).shape, pp⟩]) :=
  outIs_of_copy_at L X3d Wc g (640 * k.val + 64 * 2 + 640) (by omega) _ _ (k0_off4_eq L k 2) fo pp hB

/-- Trip `k`, digit 3: the copy-out to chunk `10 k + 3 + 10`. -/
theorem outIs_off4_3 (L : grid0.Coords) (X3d : S32x160x64.Idx → BitVec 32) (Wc : S100000x128.Idx → Elt F .f32)
    (k : Fin k0_t1_loop.trips) (g : ℕ) (eg : g = 10 * k.val + 3 + 10) (fo : S327680x128.Idx → Elt F .f32)
    (pp : (Rect.whole (Rect.unit (s := S327680x128) (k0_off4 L k 3#32) S64x128.size (k0_off4_inb L k 3)).shape).shape.Idx → Elt F .f32)
    (hB : ChunkIs (widL L) X3d Wc g pp) :
    OutIs (widL L) X3d Wc g (((Memref.whole main_v1_scv).slice (Rect.unit (s := S327680x128) (k0_off4 L k 3#32) S64x128.size (k0_off4_inb L k 3)) (fun _ => rfl)).view.writes (Elt F) fo
        [⟨Rect.whole (Rect.unit (s := S327680x128) (k0_off4 L k 3#32) S64x128.size (k0_off4_inb L k 3)).shape, pp⟩]) :=
  outIs_of_copy_at L X3d Wc g (640 * k.val + 64 * 3 + 640) (by omega) _ _ (k0_off4_eq L k 3) fo pp hB

/-- Trip `k`, digit 4: the copy-out to chunk `10 k + 4 + 10`. -/
theorem outIs_off4_4 (L : grid0.Coords) (X3d : S32x160x64.Idx → BitVec 32) (Wc : S100000x128.Idx → Elt F .f32)
    (k : Fin k0_t1_loop.trips) (g : ℕ) (eg : g = 10 * k.val + 4 + 10) (fo : S327680x128.Idx → Elt F .f32)
    (pp : (Rect.whole (Rect.unit (s := S327680x128) (k0_off4 L k 4#32) S64x128.size (k0_off4_inb L k 4)).shape).shape.Idx → Elt F .f32)
    (hB : ChunkIs (widL L) X3d Wc g pp) :
    OutIs (widL L) X3d Wc g (((Memref.whole main_v1_scv).slice (Rect.unit (s := S327680x128) (k0_off4 L k 4#32) S64x128.size (k0_off4_inb L k 4)) (fun _ => rfl)).view.writes (Elt F) fo
        [⟨Rect.whole (Rect.unit (s := S327680x128) (k0_off4 L k 4#32) S64x128.size (k0_off4_inb L k 4)).shape, pp⟩]) :=
  outIs_of_copy_at L X3d Wc g (640 * k.val + 64 * 4 + 640) (by omega) _ _ (k0_off4_eq L k 4) fo pp hB

/-- Trip `k`, digit 5: the copy-out to chunk `10 k + 5 + 10`. -/
theorem outIs_off4_5 (L : grid0.Coords) (X3d : S32x160x64.Idx → BitVec 32) (Wc : S100000x128.Idx → Elt F .f32)
    (k : Fin k0_t1_loop.trips) (g : ℕ) (eg : g = 10 * k.val + 5 + 10) (fo : S327680x128.Idx → Elt F .f32)
    (pp : (Rect.whole (Rect.unit (s := S327680x128) (k0_off4 L k 5#32) S64x128.size (k0_off4_inb L k 5)).shape).shape.Idx → Elt F .f32)
    (hB : ChunkIs (widL L) X3d Wc g pp) :
    OutIs (widL L) X3d Wc g (((Memref.whole main_v1_scv).slice (Rect.unit (s := S327680x128) (k0_off4 L k 5#32) S64x128.size (k0_off4_inb L k 5)) (fun _ => rfl)).view.writes (Elt F) fo
        [⟨Rect.whole (Rect.unit (s := S327680x128) (k0_off4 L k 5#32) S64x128.size (k0_off4_inb L k 5)).shape, pp⟩]) :=
  outIs_of_copy_at L X3d Wc g (640 * k.val + 64 * 5 + 640) (by omega) _ _ (k0_off4_eq L k 5) fo pp hB

/-- Trip `k`, digit 6: the copy-out to chunk `10 k + 6 + 10`. -/
theorem outIs_off4_6 (L : grid0.Coords) (X3d : S32x160x64.Idx → BitVec 32) (Wc : S100000x128.Idx → Elt F .f32)
    (k : Fin k0_t1_loop.trips) (g : ℕ) (eg : g = 10 * k.val + 6 + 10) (fo : S327680x128.Idx → Elt F .f32)
    (pp : (Rect.whole (Rect.unit (s := S327680x128) (k0_off4 L k 6#32) S64x128.size (k0_off4_inb L k 6)).shape).shape.Idx → Elt F .f32)
    (hB : ChunkIs (widL L) X3d Wc g pp) :
    OutIs (widL L) X3d Wc g (((Memref.whole main_v1_scv).slice (Rect.unit (s := S327680x128) (k0_off4 L k 6#32) S64x128.size (k0_off4_inb L k 6)) (fun _ => rfl)).view.writes (Elt F) fo
        [⟨Rect.whole (Rect.unit (s := S327680x128) (k0_off4 L k 6#32) S64x128.size (k0_off4_inb L k 6)).shape, pp⟩]) :=
  outIs_of_copy_at L X3d Wc g (640 * k.val + 64 * 6 + 640) (by omega) _ _ (k0_off4_eq L k 6) fo pp hB

/-- Trip `k`, digit 7: the copy-out to chunk `10 k + 7 + 10`. -/
theorem outIs_off4_7 (L : grid0.Coords) (X3d : S32x160x64.Idx → BitVec 32) (Wc : S100000x128.Idx → Elt F .f32)
    (k : Fin k0_t1_loop.trips) (g : ℕ) (eg : g = 10 * k.val + 7 + 10) (fo : S327680x128.Idx → Elt F .f32)
    (pp : (Rect.whole (Rect.unit (s := S327680x128) (k0_off4 L k 7#32) S64x128.size (k0_off4_inb L k 7)).shape).shape.Idx → Elt F .f32)
    (hB : ChunkIs (widL L) X3d Wc g pp) :
    OutIs (widL L) X3d Wc g (((Memref.whole main_v1_scv).slice (Rect.unit (s := S327680x128) (k0_off4 L k 7#32) S64x128.size (k0_off4_inb L k 7)) (fun _ => rfl)).view.writes (Elt F) fo
        [⟨Rect.whole (Rect.unit (s := S327680x128) (k0_off4 L k 7#32) S64x128.size (k0_off4_inb L k 7)).shape, pp⟩]) :=
  outIs_of_copy_at L X3d Wc g (640 * k.val + 64 * 7 + 640) (by omega) _ _ (k0_off4_eq L k 7) fo pp hB

/-- Trip `k`, digit 8: the copy-out to chunk `10 k + 8 + 10`. -/
theorem outIs_off4_8 (L : grid0.Coords) (X3d : S32x160x64.Idx → BitVec 32) (Wc : S100000x128.Idx → Elt F .f32)
    (k : Fin k0_t1_loop.trips) (g : ℕ) (eg : g = 10 * k.val + 8 + 10) (fo : S327680x128.Idx → Elt F .f32)
    (pp : (Rect.whole (Rect.unit (s := S327680x128) (k0_off4 L k 8#32) S64x128.size (k0_off4_inb L k 8)).shape).shape.Idx → Elt F .f32)
    (hB : ChunkIs (widL L) X3d Wc g pp) :
    OutIs (widL L) X3d Wc g (((Memref.whole main_v1_scv).slice (Rect.unit (s := S327680x128) (k0_off4 L k 8#32) S64x128.size (k0_off4_inb L k 8)) (fun _ => rfl)).view.writes (Elt F) fo
        [⟨Rect.whole (Rect.unit (s := S327680x128) (k0_off4 L k 8#32) S64x128.size (k0_off4_inb L k 8)).shape, pp⟩]) :=
  outIs_of_copy_at L X3d Wc g (640 * k.val + 64 * 8 + 640) (by omega) _ _ (k0_off4_eq L k 8) fo pp hB

/-- Trip `k`, digit 9: the copy-out to chunk `10 k + 9 + 10`. -/
theorem outIs_off4_9 (L : grid0.Coords) (X3d : S32x160x64.Idx → BitVec 32) (Wc : S100000x128.Idx → Elt F .f32)
    (k : Fin k0_t1_loop.trips) (g : ℕ) (eg : g = 10 * k.val + 9 + 10) (fo : S327680x128.Idx → Elt F .f32)
    (pp : (Rect.whole (Rect.unit (s := S327680x128) (k0_off4 L k 9#32) S64x128.size (k0_off4_inb L k 9)).shape).shape.Idx → Elt F .f32)
    (hB : ChunkIs (widL L) X3d Wc g pp) :
    OutIs (widL L) X3d Wc g (((Memref.whole main_v1_scv).slice (Rect.unit (s := S327680x128) (k0_off4 L k 9#32) S64x128.size (k0_off4_inb L k 9)) (fun _ => rfl)).view.writes (Elt F) fo
        [⟨Rect.whole (Rect.unit (s := S327680x128) (k0_off4 L k 9#32) S64x128.size (k0_off4_inb L k 9)).shape, pp⟩]) :=
  outIs_of_copy_at L X3d Wc g (640 * k.val + 64 * 9 + 640) (by omega) _ _ (k0_off4_eq L k 9) fo pp hB

/-- Outside the loop: the constant offset 0 names chunk 0. -/
theorem outIs_off2_0 (L : grid0.Coords) (X3d : S32x160x64.Idx → BitVec 32) (Wc : S100000x128.Idx → Elt F .f32)
    (h : ∀ a, (k0_off2 L 0#32) a + S64x128.size a ≤ S327680x128.size a) (fo : S327680x128.Idx → Elt F .f32)
    (pp : (Rect.whole (Rect.unit (s := S327680x128) (k0_off2 L 0#32) S64x128.size h).shape).shape.Idx → Elt F .f32)
    (hB : ChunkIs (widL L) X3d Wc 0 pp) :
    OutIs (widL L) X3d Wc 0 (((Memref.whole main_v1_scv).slice (Rect.unit (s := S327680x128) (k0_off2 L 0#32) S64x128.size h) (fun _ => rfl)).view.writes (Elt F) fo
        [⟨Rect.whole (Rect.unit (s := S327680x128) (k0_off2 L 0#32) S64x128.size h).shape, pp⟩]) :=
  outIs_of_copy_at L X3d Wc 0 0 (by omega) _ h (Cert.OffsetFacts.KernelIdeal.k0_off2_lit_0 L) fo pp hB

/-- Outside the loop: the constant offset 64 names chunk 1. -/
theorem outIs_off2_1 (L : grid0.Coords) (X3d : S32x160x64.Idx → BitVec 32) (Wc : S100000x128.Idx → Elt F .f32)
    (h : ∀ a, (k0_off2 L 64#32) a + S64x128.size a ≤ S327680x128.size a) (fo : S327680x128.Idx → Elt F .f32)
    (pp : (Rect.whole (Rect.unit (s := S327680x128) (k0_off2 L 64#32) S64x128.size h).shape).shape.Idx → Elt F .f32)
    (hB : ChunkIs (widL L) X3d Wc 1 pp) :
    OutIs (widL L) X3d Wc 1 (((Memref.whole main_v1_scv).slice (Rect.unit (s := S327680x128) (k0_off2 L 64#32) S64x128.size h) (fun _ => rfl)).view.writes (Elt F) fo
        [⟨Rect.whole (Rect.unit (s := S327680x128) (k0_off2 L 64#32) S64x128.size h).shape, pp⟩]) :=
  outIs_of_copy_at L X3d Wc 1 64 (by omega) _ h (Cert.OffsetFacts.KernelIdeal.k0_off2_lit_1 L) fo pp hB

/-- Outside the loop: the constant offset 128 names chunk 2. -/
theorem outIs_off2_2 (L : grid0.Coords) (X3d : S32x160x64.Idx → BitVec 32) (Wc : S100000x128.Idx → Elt F .f32)
    (h : ∀ a, (k0_off2 L 128#32) a + S64x128.size a ≤ S327680x128.size a) (fo : S327680x128.Idx → Elt F .f32)
    (pp : (Rect.whole (Rect.unit (s := S327680x128) (k0_off2 L 128#32) S64x128.size h).shape).shape.Idx → Elt F .f32)
    (hB : ChunkIs (widL L) X3d Wc 2 pp) :
    OutIs (widL L) X3d Wc 2 (((Memref.whole main_v1_scv).slice (Rect.unit (s := S327680x128) (k0_off2 L 128#32) S64x128.size h) (fun _ => rfl)).view.writes (Elt F) fo
        [⟨Rect.whole (Rect.unit (s := S327680x128) (k0_off2 L 128#32) S64x128.size h).shape, pp⟩]) :=
  outIs_of_copy_at L X3d Wc 2 128 (by omega) _ h (Cert.OffsetFacts.KernelIdeal.k0_off2_lit_2 L) fo pp hB

/-- Outside the loop: the constant offset 192 names chunk 3. -/
theorem outIs_off2_3 (L : grid0.Coords) (X3d : S32x160x64.Idx → BitVec 32) (Wc : S100000x128.Idx → Elt F .f32)
    (h : ∀ a, (k0_off2 L 192#32) a + S64x128.size a ≤ S327680x128.size a) (fo : S327680x128.Idx → Elt F .f32)
    (pp : (Rect.whole (Rect.unit (s := S327680x128) (k0_off2 L 192#32) S64x128.size h).shape).shape.Idx → Elt F .f32)
    (hB : ChunkIs (widL L) X3d Wc 3 pp) :
    OutIs (widL L) X3d Wc 3 (((Memref.whole main_v1_scv).slice (Rect.unit (s := S327680x128) (k0_off2 L 192#32) S64x128.size h) (fun _ => rfl)).view.writes (Elt F) fo
        [⟨Rect.whole (Rect.unit (s := S327680x128) (k0_off2 L 192#32) S64x128.size h).shape, pp⟩]) :=
  outIs_of_copy_at L X3d Wc 3 192 (by omega) _ h (Cert.OffsetFacts.KernelIdeal.k0_off2_lit_3 L) fo pp hB

/-- Outside the loop: the constant offset 256 names chunk 4. -/
theorem outIs_off2_4 (L : grid0.Coords) (X3d : S32x160x64.Idx → BitVec 32) (Wc : S100000x128.Idx → Elt F .f32)
    (h : ∀ a, (k0_off2 L 256#32) a + S64x128.size a ≤ S327680x128.size a) (fo : S327680x128.Idx → Elt F .f32)
    (pp : (Rect.whole (Rect.unit (s := S327680x128) (k0_off2 L 256#32) S64x128.size h).shape).shape.Idx → Elt F .f32)
    (hB : ChunkIs (widL L) X3d Wc 4 pp) :
    OutIs (widL L) X3d Wc 4 (((Memref.whole main_v1_scv).slice (Rect.unit (s := S327680x128) (k0_off2 L 256#32) S64x128.size h) (fun _ => rfl)).view.writes (Elt F) fo
        [⟨Rect.whole (Rect.unit (s := S327680x128) (k0_off2 L 256#32) S64x128.size h).shape, pp⟩]) :=
  outIs_of_copy_at L X3d Wc 4 256 (by omega) _ h (Cert.OffsetFacts.KernelIdeal.k0_off2_lit_4 L) fo pp hB

/-- Outside the loop: the constant offset 320 names chunk 5. -/
theorem outIs_off2_5 (L : grid0.Coords) (X3d : S32x160x64.Idx → BitVec 32) (Wc : S100000x128.Idx → Elt F .f32)
    (h : ∀ a, (k0_off2 L 320#32) a + S64x128.size a ≤ S327680x128.size a) (fo : S327680x128.Idx → Elt F .f32)
    (pp : (Rect.whole (Rect.unit (s := S327680x128) (k0_off2 L 320#32) S64x128.size h).shape).shape.Idx → Elt F .f32)
    (hB : ChunkIs (widL L) X3d Wc 5 pp) :
    OutIs (widL L) X3d Wc 5 (((Memref.whole main_v1_scv).slice (Rect.unit (s := S327680x128) (k0_off2 L 320#32) S64x128.size h) (fun _ => rfl)).view.writes (Elt F) fo
        [⟨Rect.whole (Rect.unit (s := S327680x128) (k0_off2 L 320#32) S64x128.size h).shape, pp⟩]) :=
  outIs_of_copy_at L X3d Wc 5 320 (by omega) _ h (Cert.OffsetFacts.KernelIdeal.k0_off2_lit_5 L) fo pp hB

/-- Outside the loop: the constant offset 384 names chunk 6. -/
theorem outIs_off2_6 (L : grid0.Coords) (X3d : S32x160x64.Idx → BitVec 32) (Wc : S100000x128.Idx → Elt F .f32)
    (h : ∀ a, (k0_off2 L 384#32) a + S64x128.size a ≤ S327680x128.size a) (fo : S327680x128.Idx → Elt F .f32)
    (pp : (Rect.whole (Rect.unit (s := S327680x128) (k0_off2 L 384#32) S64x128.size h).shape).shape.Idx → Elt F .f32)
    (hB : ChunkIs (widL L) X3d Wc 6 pp) :
    OutIs (widL L) X3d Wc 6 (((Memref.whole main_v1_scv).slice (Rect.unit (s := S327680x128) (k0_off2 L 384#32) S64x128.size h) (fun _ => rfl)).view.writes (Elt F) fo
        [⟨Rect.whole (Rect.unit (s := S327680x128) (k0_off2 L 384#32) S64x128.size h).shape, pp⟩]) :=
  outIs_of_copy_at L X3d Wc 6 384 (by omega) _ h (Cert.OffsetFacts.KernelIdeal.k0_off2_lit_6 L) fo pp hB

/-- Outside the loop: the constant offset 448 names chunk 7. -/
theorem outIs_off2_7 (L : grid0.Coords) (X3d : S32x160x64.Idx → BitVec 32) (Wc : S100000x128.Idx → Elt F .f32)
    (h : ∀ a, (k0_off2 L 448#32) a + S64x128.size a ≤ S327680x128.size a) (fo : S327680x128.Idx → Elt F .f32)
    (pp : (Rect.whole (Rect.unit (s := S327680x128) (k0_off2 L 448#32) S64x128.size h).shape).shape.Idx → Elt F .f32)
    (hB : ChunkIs (widL L) X3d Wc 7 pp) :
    OutIs (widL L) X3d Wc 7 (((Memref.whole main_v1_scv).slice (Rect.unit (s := S327680x128) (k0_off2 L 448#32) S64x128.size h) (fun _ => rfl)).view.writes (Elt F) fo
        [⟨Rect.whole (Rect.unit (s := S327680x128) (k0_off2 L 448#32) S64x128.size h).shape, pp⟩]) :=
  outIs_of_copy_at L X3d Wc 7 448 (by omega) _ h (Cert.OffsetFacts.KernelIdeal.k0_off2_lit_7 L) fo pp hB

/-- Outside the loop: the constant offset 512 names chunk 8. -/
theorem outIs_off2_8 (L : grid0.Coords) (X3d : S32x160x64.Idx → BitVec 32) (Wc : S100000x128.Idx → Elt F .f32)
    (h : ∀ a, (k0_off2 L 512#32) a + S64x128.size a ≤ S327680x128.size a) (fo : S327680x128.Idx → Elt F .f32)
    (pp : (Rect.whole (Rect.unit (s := S327680x128) (k0_off2 L 512#32) S64x128.size h).shape).shape.Idx → Elt F .f32)
    (hB : ChunkIs (widL L) X3d Wc 8 pp) :
    OutIs (widL L) X3d Wc 8 (((Memref.whole main_v1_scv).slice (Rect.unit (s := S327680x128) (k0_off2 L 512#32) S64x128.size h) (fun _ => rfl)).view.writes (Elt F) fo
        [⟨Rect.whole (Rect.unit (s := S327680x128) (k0_off2 L 512#32) S64x128.size h).shape, pp⟩]) :=
  outIs_of_copy_at L X3d Wc 8 512 (by omega) _ h (Cert.OffsetFacts.KernelIdeal.k0_off2_lit_8 L) fo pp hB

/-- Outside the loop: the constant offset 576 names chunk 9. -/
theorem outIs_off2_9 (L : grid0.Coords) (X3d : S32x160x64.Idx → BitVec 32) (Wc : S100000x128.Idx → Elt F .f32)
    (h : ∀ a, (k0_off2 L 576#32) a + S64x128.size a ≤ S327680x128.size a) (fo : S327680x128.Idx → Elt F .f32)
    (pp : (Rect.whole (Rect.unit (s := S327680x128) (k0_off2 L 576#32) S64x128.size h).shape).shape.Idx → Elt F .f32)
    (hB : ChunkIs (widL L) X3d Wc 9 pp) :
    OutIs (widL L) X3d Wc 9 (((Memref.whole main_v1_scv).slice (Rect.unit (s := S327680x128) (k0_off2 L 576#32) S64x128.size h) (fun _ => rfl)).view.writes (Elt F) fo
        [⟨Rect.whole (Rect.unit (s := S327680x128) (k0_off2 L 576#32) S64x128.size h).shape, pp⟩]) :=
  outIs_of_copy_at L X3d Wc 9 576 (by omega) _ h (Cert.OffsetFacts.KernelIdeal.k0_off2_lit_9 L) fo pp hB

/-- Outside the loop: the constant offset 9600 names chunk 150. -/
theorem outIs_off2_10 (L : grid0.Coords) (X3d : S32x160x64.Idx → BitVec 32) (Wc : S100000x128.Idx → Elt F .f32)
    (h : ∀ a, (k0_off2 L 9600#32) a + S64x128.size a ≤ S327680x128.size a) (fo : S327680x128.Idx → Elt F .f32)
    (pp : (Rect.whole (Rect.unit (s := S327680x128) (k0_off2 L 9600#32) S64x128.size h).shape).shape.Idx → Elt F .f32)
    (hB : ChunkIs (widL L) X3d Wc 150 pp) :
    OutIs (widL L) X3d Wc 150 (((Memref.whole main_v1_scv).slice (Rect.unit (s := S327680x128) (k0_off2 L 9600#32) S64x128.size h) (fun _ => rfl)).view.writes (Elt F) fo
        [⟨Rect.whole (Rect.unit (s := S327680x128) (k0_off2 L 9600#32) S64x128.size h).shape, pp⟩]) :=
  outIs_of_copy_at L X3d Wc 150 9600 (by omega) _ h (Cert.OffsetFacts.KernelIdeal.k0_off2_lit_10 L) fo pp hB

/-- Outside the loop: the constant offset 9344 names chunk 146. -/
theorem outIs_off2_11 (L : grid0.Coords) (X3d : S32x160x64.Idx → BitVec 32) (Wc : S100000x128.Idx → Elt F .f32)
    (h : ∀ a, (k0_off2 L 9344#32) a + S64x128.size a ≤ S327680x128.size a) (fo : S327680x128.Idx → Elt F .f32)
    (pp : (Rect.whole (Rect.unit (s := S327680x128) (k0_off2 L 9344#32) S64x128.size h).shape).shape.Idx → Elt F .f32)
    (hB : ChunkIs (widL L) X3d Wc 146 pp) :
    OutIs (widL L) X3d Wc 146 (((Memref.whole main_v1_scv).slice (Rect.unit (s := S327680x128) (k0_off2 L 9344#32) S64x128.size h) (fun _ => rfl)).view.writes (Elt F) fo
        [⟨Rect.whole (Rect.unit (s := S327680x128) (k0_off2 L 9344#32) S64x128.size h).shape, pp⟩]) :=
  outIs_of_copy_at L X3d Wc 146 9344 (by omega) _ h (Cert.OffsetFacts.KernelIdeal.k0_off2_lit_11 L) fo pp hB

/-- Outside the loop: the constant offset 9664 names chunk 151. -/
theorem outIs_off2_12 (L : grid0.Coords) (X3d : S32x160x64.Idx → BitVec 32) (Wc : S100000x128.Idx → Elt F .f32)
    (h : ∀ a, (k0_off2 L 9664#32) a + S64x128.size a ≤ S327680x128.size a) (fo : S327680x128.Idx → Elt F .f32)
    (pp : (Rect.whole (Rect.unit (s := S327680x128) (k0_off2 L 9664#32) S64x128.size h).shape).shape.Idx → Elt F .f32)
    (hB : ChunkIs (widL L) X3d Wc 151 pp) :
    OutIs (widL L) X3d Wc 151 (((Memref.whole main_v1_scv).slice (Rect.unit (s := S327680x128) (k0_off2 L 9664#32) S64x128.size h) (fun _ => rfl)).view.writes (Elt F) fo
        [⟨Rect.whole (Rect.unit (s := S327680x128) (k0_off2 L 9664#32) S64x128.size h).shape, pp⟩]) :=
  outIs_of_copy_at L X3d Wc 151 9664 (by omega) _ h (Cert.OffsetFacts.KernelIdeal.k0_off2_lit_12 L) fo pp hB

/-- Outside the loop: the constant offset 9408 names chunk 147. -/
theorem outIs_off2_13 (L : grid0.Coords) (X3d : S32x160x64.Idx → BitVec 32) (Wc : S100000x128.Idx → Elt F .f32)
    (h : ∀ a, (k0_off2 L 9408#32) a + S64x128.size a ≤ S327680x128.size a) (fo : S327680x128.Idx → Elt F .f32)
    (pp : (Rect.whole (Rect.unit (s := S327680x128) (k0_off2 L 9408#32) S64x128.size h).shape).shape.Idx → Elt F .f32)
    (hB : ChunkIs (widL L) X3d Wc 147 pp) :
    OutIs (widL L) X3d Wc 147 (((Memref.whole main_v1_scv).slice (Rect.unit (s := S327680x128) (k0_off2 L 9408#32) S64x128.size h) (fun _ => rfl)).view.writes (Elt F) fo
        [⟨Rect.whole (Rect.unit (s := S327680x128) (k0_off2 L 9408#32) S64x128.size h).shape, pp⟩]) :=
  outIs_of_copy_at L X3d Wc 147 9408 (by omega) _ h (Cert.OffsetFacts.KernelIdeal.k0_off2_lit_13 L) fo pp hB

/-- Outside the loop: the constant offset 9728 names chunk 152. -/
theorem outIs_off2_14 (L : grid0.Coords) (X3d : S32x160x64.Idx → BitVec 32) (Wc : S100000x128.Idx → Elt F .f32)
    (h : ∀ a, (k0_off2 L 9728#32) a + S64x128.size a ≤ S327680x128.size a) (fo : S327680x128.Idx → Elt F .f32)
    (pp : (Rect.whole (Rect.unit (s := S327680x128) (k0_off2 L 9728#32) S64x128.size h).shape).shape.Idx → Elt F .f32)
    (hB : ChunkIs (widL L) X3d Wc 152 pp) :
    OutIs (widL L) X3d Wc 152 (((Memref.whole main_v1_scv).slice (Rect.unit (s := S327680x128) (k0_off2 L 9728#32) S64x128.size h) (fun _ => rfl)).view.writes (Elt F) fo
        [⟨Rect.whole (Rect.unit (s := S327680x128) (k0_off2 L 9728#32) S64x128.size h).shape, pp⟩]) :=
  outIs_of_copy_at L X3d Wc 152 9728 (by omega) _ h (Cert.OffsetFacts.KernelIdeal.k0_off2_lit_14 L) fo pp hB

/-- Outside the loop: the constant offset 9472 names chunk 148. -/
theorem outIs_off2_15 (L : grid0.Coords) (X3d : S32x160x64.Idx → BitVec 32) (Wc : S100000x128.Idx → Elt F .f32)
    (h : ∀ a, (k0_off2 L 9472#32) a + S64x128.size a ≤ S327680x128.size a) (fo : S327680x128.Idx → Elt F .f32)
    (pp : (Rect.whole (Rect.unit (s := S327680x128) (k0_off2 L 9472#32) S64x128.size h).shape).shape.Idx → Elt F .f32)
    (hB : ChunkIs (widL L) X3d Wc 148 pp) :
    OutIs (widL L) X3d Wc 148 (((Memref.whole main_v1_scv).slice (Rect.unit (s := S327680x128) (k0_off2 L 9472#32) S64x128.size h) (fun _ => rfl)).view.writes (Elt F) fo
        [⟨Rect.whole (Rect.unit (s := S327680x128) (k0_off2 L 9472#32) S64x128.size h).shape, pp⟩]) :=
  outIs_of_copy_at L X3d Wc 148 9472 (by omega) _ h (Cert.OffsetFacts.KernelIdeal.k0_off2_lit_15 L) fo pp hB

/-- Outside the loop: the constant offset 9792 names chunk 153. -/
theorem outIs_off2_16 (L : grid0.Coords) (X3d : S32x160x64.Idx → BitVec 32) (Wc : S100000x128.Idx → Elt F .f32)
    (h : ∀ a, (k0_off2 L 9792#32) a + S64x128.size a ≤ S327680x128.size a) (fo : S327680x128.Idx → Elt F .f32)
    (pp : (Rect.whole (Rect.unit (s := S327680x128) (k0_off2 L 9792#32) S64x128.size h).shape).shape.Idx → Elt F .f32)
    (hB : ChunkIs (widL L) X3d Wc 153 pp) :
    OutIs (widL L) X3d Wc 153 (((Memref.whole main_v1_scv).slice (Rect.unit (s := S327680x128) (k0_off2 L 9792#32) S64x128.size h) (fun _ => rfl)).view.writes (Elt F) fo
        [⟨Rect.whole (Rect.unit (s := S327680x128) (k0_off2 L 9792#32) S64x128.size h).shape, pp⟩]) :=
  outIs_of_copy_at L X3d Wc 153 9792 (by omega) _ h (Cert.OffsetFacts.KernelIdeal.k0_off2_lit_16 L) fo pp hB

/-- Outside the loop: the constant offset 9536 names chunk 149. -/
theorem outIs_off2_17 (L : grid0.Coords) (X3d : S32x160x64.Idx → BitVec 32) (Wc : S100000x128.Idx → Elt F .f32)
    (h : ∀ a, (k0_off2 L 9536#32) a + S64x128.size a ≤ S327680x128.size a) (fo : S327680x128.Idx → Elt F .f32)
    (pp : (Rect.whole (Rect.unit (s := S327680x128) (k0_off2 L 9536#32) S64x128.size h).shape).shape.Idx → Elt F .f32)
    (hB : ChunkIs (widL L) X3d Wc 149 pp) :
    OutIs (widL L) X3d Wc 149 (((Memref.whole main_v1_scv).slice (Rect.unit (s := S327680x128) (k0_off2 L 9536#32) S64x128.size h) (fun _ => rfl)).view.writes (Elt F) fo
        [⟨Rect.whole (Rect.unit (s := S327680x128) (k0_off2 L 9536#32) S64x128.size h).shape, pp⟩]) :=
  outIs_of_copy_at L X3d Wc 149 9536 (by omega) _ h (Cert.OffsetFacts.KernelIdeal.k0_off2_lit_17 L) fo pp hB

/-- Outside the loop: the constant offset 9856 names chunk 154. -/
theorem outIs_off2_18 (L : grid0.Coords) (X3d : S32x160x64.Idx → BitVec 32) (Wc : S100000x128.Idx → Elt F .f32)
    (h : ∀ a, (k0_off2 L 9856#32) a + S64x128.size a ≤ S327680x128.size a) (fo : S327680x128.Idx → Elt F .f32)
    (pp : (Rect.whole (Rect.unit (s := S327680x128) (k0_off2 L 9856#32) S64x128.size h).shape).shape.Idx → Elt F .f32)
    (hB : ChunkIs (widL L) X3d Wc 154 pp) :
    OutIs (widL L) X3d Wc 154 (((Memref.whole main_v1_scv).slice (Rect.unit (s := S327680x128) (k0_off2 L 9856#32) S64x128.size h) (fun _ => rfl)).view.writes (Elt F) fo
        [⟨Rect.whole (Rect.unit (s := S327680x128) (k0_off2 L 9856#32) S64x128.size h).shape, pp⟩]) :=
  outIs_of_copy_at L X3d Wc 154 9856 (by omega) _ h (Cert.OffsetFacts.KernelIdeal.k0_off2_lit_18 L) fo pp hB

/-- Outside the loop: the constant offset 9920 names chunk 155. -/
theorem outIs_off2_19 (L : grid0.Coords) (X3d : S32x160x64.Idx → BitVec 32) (Wc : S100000x128.Idx → Elt F .f32)
    (h : ∀ a, (k0_off2 L 9920#32) a + S64x128.size a ≤ S327680x128.size a) (fo : S327680x128.Idx → Elt F .f32)
    (pp : (Rect.whole (Rect.unit (s := S327680x128) (k0_off2 L 9920#32) S64x128.size h).shape).shape.Idx → Elt F .f32)
    (hB : ChunkIs (widL L) X3d Wc 155 pp) :
    OutIs (widL L) X3d Wc 155 (((Memref.whole main_v1_scv).slice (Rect.unit (s := S327680x128) (k0_off2 L 9920#32) S64x128.size h) (fun _ => rfl)).view.writes (Elt F) fo
        [⟨Rect.whole (Rect.unit (s := S327680x128) (k0_off2 L 9920#32) S64x128.size h).shape, pp⟩]) :=
  outIs_of_copy_at L X3d Wc 155 9920 (by omega) _ h (Cert.OffsetFacts.KernelIdeal.k0_off2_lit_19 L) fo pp hB

/-- Outside the loop: the constant offset 9984 names chunk 156. -/
theorem outIs_off2_20 (L : grid0.Coords) (X3d : S32x160x64.Idx → BitVec 32) (Wc : S100000x128.Idx → Elt F .f32)
    (h : ∀ a, (k0_off2 L 9984#32) a + S64x128.size a ≤ S327680x128.size a) (fo : S327680x128.Idx → Elt F .f32)
    (pp : (Rect.whole (Rect.unit (s := S327680x128) (k0_off2 L 9984#32) S64x128.size h).shape).shape.Idx → Elt F .f32)
    (hB : ChunkIs (widL L) X3d Wc 156 pp) :
    OutIs (widL L) X3d Wc 156 (((Memref.whole main_v1_scv).slice (Rect.unit (s := S327680x128) (k0_off2 L 9984#32) S64x128.size h) (fun _ => rfl)).view.writes (Elt F) fo
        [⟨Rect.whole (Rect.unit (s := S327680x128) (k0_off2 L 9984#32) S64x128.size h).shape, pp⟩]) :=
  outIs_of_copy_at L X3d Wc 156 9984 (by omega) _ h (Cert.OffsetFacts.KernelIdeal.k0_off2_lit_20 L) fo pp hB

/-- Outside the loop: the constant offset 10048 names chunk 157. -/
theorem outIs_off2_21 (L : grid0.Coords) (X3d : S32x160x64.Idx → BitVec 32) (Wc : S100000x128.Idx → Elt F .f32)
    (h : ∀ a, (k0_off2 L 10048#32) a + S64x128.size a ≤ S327680x128.size a) (fo : S327680x128.Idx → Elt F .f32)
    (pp : (Rect.whole (Rect.unit (s := S327680x128) (k0_off2 L 10048#32) S64x128.size h).shape).shape.Idx → Elt F .f32)
    (hB : ChunkIs (widL L) X3d Wc 157 pp) :
    OutIs (widL L) X3d Wc 157 (((Memref.whole main_v1_scv).slice (Rect.unit (s := S327680x128) (k0_off2 L 10048#32) S64x128.size h) (fun _ => rfl)).view.writes (Elt F) fo
        [⟨Rect.whole (Rect.unit (s := S327680x128) (k0_off2 L 10048#32) S64x128.size h).shape, pp⟩]) :=
  outIs_of_copy_at L X3d Wc 157 10048 (by omega) _ h (Cert.OffsetFacts.KernelIdeal.k0_off2_lit_21 L) fo pp hB

/-- Outside the loop: the constant offset 10112 names chunk 158. -/
theorem outIs_off2_22 (L : grid0.Coords) (X3d : S32x160x64.Idx → BitVec 32) (Wc : S100000x128.Idx → Elt F .f32)
    (h : ∀ a, (k0_off2 L 10112#32) a + S64x128.size a ≤ S327680x128.size a) (fo : S327680x128.Idx → Elt F .f32)
    (pp : (Rect.whole (Rect.unit (s := S327680x128) (k0_off2 L 10112#32) S64x128.size h).shape).shape.Idx → Elt F .f32)
    (hB : ChunkIs (widL L) X3d Wc 158 pp) :
    OutIs (widL L) X3d Wc 158 (((Memref.whole main_v1_scv).slice (Rect.unit (s := S327680x128) (k0_off2 L 10112#32) S64x128.size h) (fun _ => rfl)).view.writes (Elt F) fo
        [⟨Rect.whole (Rect.unit (s := S327680x128) (k0_off2 L 10112#32) S64x128.size h).shape, pp⟩]) :=
  outIs_of_copy_at L X3d Wc 158 10112 (by omega) _ h (Cert.OffsetFacts.KernelIdeal.k0_off2_lit_22 L) fo pp hB

/-- Outside the loop: the constant offset 10176 names chunk 159. -/
theorem outIs_off2_23 (L : grid0.Coords) (X3d : S32x160x64.Idx → BitVec 32) (Wc : S100000x128.Idx → Elt F .f32)
    (h : ∀ a, (k0_off2 L 10176#32) a + S64x128.size a ≤ S327680x128.size a) (fo : S327680x128.Idx → Elt F .f32)
    (pp : (Rect.whole (Rect.unit (s := S327680x128) (k0_off2 L 10176#32) S64x128.size h).shape).shape.Idx → Elt F .f32)
    (hB : ChunkIs (widL L) X3d Wc 159 pp) :
    OutIs (widL L) X3d Wc 159 (((Memref.whole main_v1_scv).slice (Rect.unit (s := S327680x128) (k0_off2 L 10176#32) S64x128.size h) (fun _ => rfl)).view.writes (Elt F) fo
        [⟨Rect.whole (Rect.unit (s := S327680x128) (k0_off2 L 10176#32) S64x128.size h).shape, pp⟩]) :=
  outIs_of_copy_at L X3d Wc 159 10176 (by omega) _ h (Cert.OffsetFacts.KernelIdeal.k0_off2_lit_23 L) fo pp hB

end Cert.KernelIdealRun

end
-- ==== Proof.KernelIdealRun.Body.lean ====
/-
  One worker's task of the embedding lookup, from its share at the launch contents to its share with the output rows gathered.

  Worker `w` copies row `w` of the re-laid row numbers into its row-number scratch, then serves its 160 chunks of 64 rows through
  ten slots: the rows of the table `W` that chunk `g` names are gathered into slot `g mod 10`'s buffer and the buffer is copied out
  to flat output rows `10240·w + 64·g …`. Each slot has a semaphore for its gathers and one for its copy-outs, and on each at
  most one transfer is ever outstanding; a buffer is touched only between the wait for one transfer and the start of the next.
  The first ten gathers and the first ten copy-outs are started before the main loop, which runs fourteen trips of ten chunks under
  the invariant of Inv.lean; the last ten chunks finish after it. Every row number names a row of the table (the precondition), so
  every gather's list is in range; a gathered buffer holds the rows its chunk names (`ChunkIs`), a copied-out chunk agrees with
  `Cert.Spec.gathered` (`OutIs`), and at the end the 160 chunks, all at that one function, are the worker's whole block.
-/
import proofs.«207499_g15272903704957_cont_week2b_486_20_alg».proof.Proof.KernelIdealRun.Inv
import proofs.«207499_g15272903704957_cont_week2b_486_20_alg».proof.Proof.KernelIdealRun.Scoped
import proofs.«207499_g15272903704957_cont_week2b_486_20_alg».proof.Proof.KernelIdealRun.Values
import proofs.«207499_g15272903704957_cont_week2b_486_20_alg».proof.Proof.KernelIdealRun.TripFacts

noncomputable section

namespace Cert.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S32x160x64 EltTy.i32)
local notation "wM" => (Memref.whole Cert.KernelIdeal.main_arg1_scv : Memref Cert.KernelIdeal.sig Kind.scVector Space.hbm Cert.KernelIdeal.S100000x128 EltTy.f32)
local notation "oM" => (Memref.whole Cert.KernelIdeal.main_v1_scv : Memref Cert.KernelIdeal.sig Kind.scVector Space.hbm Cert.KernelIdeal.S327680x128 EltTy.f32)
local notation "ixM" => (Memref.whole Cert.KernelIdeal.cc0_scratch0 : Memref Cert.KernelIdeal.sig Kind.scVector Space.vmem Cert.KernelIdeal.S160x64 EltTy.i32)
local notation "bM0" => (Memref.whole Cert.KernelIdeal.cc0_scratch1 : Memref Cert.KernelIdeal.sig Kind.scVector Space.vmem Cert.KernelIdeal.S64x128 EltTy.f32)
local notation "bM1" => (Memref.whole Cert.KernelIdeal.cc0_scratch2 : Memref Cert.KernelIdeal.sig Kind.scVector Space.vmem Cert.KernelIdeal.S64x128 EltTy.f32)
local notation "bM2" => (Memref.whole Cert.KernelIdeal.cc0_scratch3 : Memref Cert.KernelIdeal.sig Kind.scVector Space.vmem Cert.KernelIdeal.S64x128 EltTy.f32)
local notation "bM3" => (Memref.whole Cert.KernelIdeal.cc0_scratch4 : Memref Cert.KernelIdeal.sig Kind.scVector Space.vmem Cert.KernelIdeal.S64x128 EltTy.f32)
local notation "bM4" => (Memref.whole Cert.KernelIdeal.cc0_scratch5 : Memref Cert.KernelIdeal.sig Kind.scVector Space.vmem Cert.KernelIdeal.S64x128 EltTy.f32)
local notation "bM5" => (Memref.whole Cert.KernelIdeal.cc0_scratch6 : Memref Cert.KernelIdeal.sig Kind.scVector Space.vmem Cert.KernelIdeal.S64x128 EltTy.f32)
local notation "bM6" => (Memref.whole Cert.KernelIdeal.cc0_scratch7 : Memref Cert.KernelIdeal.sig Kind.scVector Space.vmem Cert.KernelIdeal.S64x128 EltTy.f32)
local notation "bM7" => (Memref.whole Cert.KernelIdeal.cc0_scratch8 : Memref Cert.KernelIdeal.sig Kind.scVector Space.vmem Cert.KernelIdeal.S64x128 EltTy.f32)
local notation "bM8" => (Memref.whole Cert.KernelIdeal.cc0_scratch9 : Memref Cert.KernelIdeal.sig Kind.scVector Space.vmem Cert.KernelIdeal.S64x128 EltTy.f32)
local notation "bM9" => (Memref.whole Cert.KernelIdeal.cc0_scratch10 : Memref Cert.KernelIdeal.sig Kind.scVector Space.vmem Cert.KernelIdeal.S64x128 EltTy.f32)

/-! ## Chunk pieces in the program's spelling -/

theorem bigSep_range10 (Φ : ℕ → sProp 𝕄) :
    bigSep (Finset.range 10) Φ = iprop(Φ 0 ∗ Φ 1 ∗ Φ 2 ∗ Φ 3 ∗ Φ 4 ∗ Φ 5 ∗ Φ 6 ∗ Φ 7 ∗ Φ 8 ∗ Φ 9) := by
  rw [show Finset.range 10 = {0, 1, 2, 3, 4, 5, 6, 7, 8, 9} by decide]
  repeat rw [SparseCore.bigSep_insert' (by decide)]
  rw [bigSep_singleton]

theorem piece_off2_0 (d : Dev nD) (L : grid0.Coords) (f : Buf (Elt F) (oLoc d)) :
    ((((oM).slice (Rect.unit (s := S327680x128) (k0_off2 L 0#32) S64x128.size (k0_off2_inb L 0)) (fun _ => rfl)).view.loc (V d (cV L) (jV L)) ↦[((oM).slice (Rect.unit (s := S327680x128) (k0_off2 L 0#32) S64x128.size (k0_off2_inb L 0)) (fun _ => rfl)).view.set]{fullShare} f : sProp 𝕄)) = piece d (widL L) f 0 := by
  rw [set_off2_0 L, oChunkC_set, piece_of_lt]
theorem piece_off2_1 (d : Dev nD) (L : grid0.Coords) (f : Buf (Elt F) (oLoc d)) :
    ((((oM).slice (Rect.unit (s := S327680x128) (k0_off2 L 64#32) S64x128.size (k0_off2_inb L 1)) (fun _ => rfl)).view.loc (V d (cV L) (jV L)) ↦[((oM).slice (Rect.unit (s := S327680x128) (k0_off2 L 64#32) S64x128.size (k0_off2_inb L 1)) (fun _ => rfl)).view.set]{fullShare} f : sProp 𝕄)) = piece d (widL L) f 1 := by
  rw [set_off2_1 L, oChunkC_set, piece_of_lt]
theorem piece_off2_2 (d : Dev nD) (L : grid0.Coords) (f : Buf (Elt F) (oLoc d)) :
    ((((oM).slice (Rect.unit (s := S327680x128) (k0_off2 L 128#32) S64x128.size (k0_off2_inb L 2)) (fun _ => rfl)).view.loc (V d (cV L) (jV L)) ↦[((oM).slice (Rect.unit (s := S327680x128) (k0_off2 L 128#32) S64x128.size (k0_off2_inb L 2)) (fun _ => rfl)).view.set]{fullShare} f : sProp 𝕄)) = piece d (widL L) f 2 := by
  rw [set_off2_2 L, oChunkC_set, piece_of_lt]
theorem piece_off2_3 (d : Dev nD) (L : grid0.Coords) (f : Buf (Elt F) (oLoc d)) :
    ((((oM).slice (Rect.unit (s := S327680x128) (k0_off2 L 192#32) S64x128.size (k0_off2_inb L 3)) (fun _ => rfl)).view.loc (V d (cV L) (jV L)) ↦[((oM).slice (Rect.unit (s := S327680x128) (k0_off2 L 192#32) S64x128.size (k0_off2_inb L 3)) (fun _ => rfl)).view.set]{fullShare} f : sProp 𝕄)) = piece d (widL L) f 3 := by
  rw [set_off2_3 L, oChunkC_set, piece_of_lt]
theorem piece_off2_4 (d : Dev nD) (L : grid0.Coords) (f : Buf (Elt F) (oLoc d)) :
    ((((oM).slice (Rect.unit (s := S327680x128) (k0_off2 L 256#32) S64x128.size (k0_off2_inb L 4)) (fun _ => rfl)).view.loc (V d (cV L) (jV L)) ↦[((oM).slice (Rect.unit (s := S327680x128) (k0_off2 L 256#32) S64x128.size (k0_off2_inb L 4)) (fun _ => rfl)).view.set]{fullShare} f : sProp 𝕄)) = piece d (widL L) f 4 := by
  rw [set_off2_4 L, oChunkC_set, piece_of_lt]
theorem piece_off2_5 (d : Dev nD) (L : grid0.Coords) (f : Buf (Elt F) (oLoc d)) :
    ((((oM).slice (Rect.unit (s := S327680x128) (k0_off2 L 320#32) S64x128.size (k0_off2_inb L 5)) (fun _ => rfl)).view.loc (V d (cV L) (jV L)) ↦[((oM).slice (Rect.unit (s := S327680x128) (k0_off2 L 320#32) S64x128.size (k0_off2_inb L 5)) (fun _ => rfl)).view.set]{fullShare} f : sProp 𝕄)) = piece d (widL L) f 5 := by
  rw [set_off2_5 L, oChunkC_set, piece_of_lt]
theorem piece_off2_6 (d : Dev nD) (L : grid0.Coords) (f : Buf (Elt F) (oLoc d)) :
    ((((oM).slice (Rect.unit (s := S327680x128) (k0_off2 L 384#32) S64x128.size (k0_off2_inb L 6)) (fun _ => rfl)).view.loc (V d (cV L) (jV L)) ↦[((oM).slice (Rect.unit (s := S327680x128) (k0_off2 L 384#32) S64x128.size (k0_off2_inb L 6)) (fun _ => rfl)).view.set]{fullShare} f : sProp 𝕄)) = piece d (widL L) f 6 := by
  rw [set_off2_6 L, oChunkC_set, piece_of_lt]
theorem piece_off2_7 (d : Dev nD) (L : grid0.Coords) (f : Buf (Elt F) (oLoc d)) :
    ((((oM).slice (Rect.unit (s := S327680x128) (k0_off2 L 448#32) S64x128.size (k0_off2_inb L 7)) (fun _ => rfl)).view.loc (V d (cV L) (jV L)) ↦[((oM).slice (Rect.unit (s := S327680x128) (k0_off2 L 448#32) S64x128.size (k0_off2_inb L 7)) (fun _ => rfl)).view.set]{fullShare} f : sProp 𝕄)) = piece d (widL L) f 7 := by
  rw [set_off2_7 L, oChunkC_set, piece_of_lt]
theorem piece_off2_8 (d : Dev nD) (L : grid0.Coords) (f : Buf (Elt F) (oLoc d)) :
    ((((oM).slice (Rect.unit (s := S327680x128) (k0_off2 L 512#32) S64x128.size (k0_off2_inb L 8)) (fun _ => rfl)).view.loc (V d (cV L) (jV L)) ↦[((oM).slice (Rect.unit (s := S327680x128) (k0_off2 L 512#32) S64x128.size (k0_off2_inb L 8)) (fun _ => rfl)).view.set]{fullShare} f : sProp 𝕄)) = piece d (widL L) f 8 := by
  rw [set_off2_8 L, oChunkC_set, piece_of_lt]
theorem piece_off2_9 (d : Dev nD) (L : grid0.Coords) (f : Buf (Elt F) (oLoc d)) :
    ((((oM).slice (Rect.unit (s := S327680x128) (k0_off2 L 576#32) S64x128.size (k0_off2_inb L 9)) (fun _ => rfl)).view.loc (V d (cV L) (jV L)) ↦[((oM).slice (Rect.unit (s := S327680x128) (k0_off2 L 576#32) S64x128.size (k0_off2_inb L 9)) (fun _ => rfl)).view.set]{fullShare} f : sProp 𝕄)) = piece d (widL L) f 9 := by
  rw [set_off2_9 L, oChunkC_set, piece_of_lt]
theorem piece_off2_10 (d : Dev nD) (L : grid0.Coords) (f : Buf (Elt F) (oLoc d)) :
    ((((oM).slice (Rect.unit (s := S327680x128) (k0_off2 L 9600#32) S64x128.size (k0_off2_inb L 10)) (fun _ => rfl)).view.loc (V d (cV L) (jV L)) ↦[((oM).slice (Rect.unit (s := S327680x128) (k0_off2 L 9600#32) S64x128.size (k0_off2_inb L 10)) (fun _ => rfl)).view.set]{fullShare} f : sProp 𝕄)) = piece d (widL L) f 150 := by
  rw [set_off2_10 L, oChunkC_set, piece_of_lt]
theorem piece_off2_11 (d : Dev nD) (L : grid0.Coords) (f : Buf (Elt F) (oLoc d)) :
    ((((oM).slice (Rect.unit (s := S327680x128) (k0_off2 L 9344#32) S64x128.size (k0_off2_inb L 11)) (fun _ => rfl)).view.loc (V d (cV L) (jV L)) ↦[((oM).slice (Rect.unit (s := S327680x128) (k0_off2 L 9344#32) S64x128.size (k0_off2_inb L 11)) (fun _ => rfl)).view.set]{fullShare} f : sProp 𝕄)) = piece d (widL L) f 146 := by
  rw [set_off2_11 L, oChunkC_set, piece_of_lt]
theorem piece_off2_12 (d : Dev nD) (L : grid0.Coords) (f : Buf (Elt F) (oLoc d)) :
    ((((oM).slice (Rect.unit (s := S327680x128) (k0_off2 L 9664#32) S64x128.size (k0_off2_inb L 12)) (fun _ => rfl)).view.loc (V d (cV L) (jV L)) ↦[((oM).slice (Rect.unit (s := S327680x128) (k0_off2 L 9664#32) S64x128.size (k0_off2_inb L 12)) (fun _ => rfl)).view.set]{fullShare} f : sProp 𝕄)) = piece d (widL L) f 151 := by
  rw [set_off2_12 L, oChunkC_set, piece_of_lt]
theorem piece_off2_13 (d : Dev nD) (L : grid0.Coords) (f : Buf (Elt F) (oLoc d)) :
    ((((oM).slice (Rect.unit (s := S327680x128) (k0_off2 L 9408#32) S64x128.size (k0_off2_inb L 13)) (fun _ => rfl)).view.loc (V d (cV L) (jV L)) ↦[((oM).slice (Rect.unit (s := S327680x128) (k0_off2 L 9408#32) S64x128.size (k0_off2_inb L 13)) (fun _ => rfl)).view.set]{fullShare} f : sProp 𝕄)) = piece d (widL L) f 147 := by
  rw [set_off2_13 L, oChunkC_set, piece_of_lt]
theorem piece_off2_14 (d : Dev nD) (L : grid0.Coords) (f : Buf (Elt F) (oLoc d)) :
    ((((oM).slice (Rect.unit (s := S327680x128) (k0_off2 L 9728#32) S64x128.size (k0_off2_inb L 14)) (fun _ => rfl)).view.loc (V d (cV L) (jV L)) ↦[((oM).slice (Rect.unit (s := S327680x128) (k0_off2 L 9728#32) S64x128.size (k0_off2_inb L 14)) (fun _ => rfl)).view.set]{fullShare} f : sProp 𝕄)) = piece d (widL L) f 152 := by
  rw [set_off2_14 L, oChunkC_set, piece_of_lt]
theorem piece_off2_15 (d : Dev nD) (L : grid0.Coords) (f : Buf (Elt F) (oLoc d)) :
    ((((oM).slice (Rect.unit (s := S327680x128) (k0_off2 L 9472#32) S64x128.size (k0_off2_inb L 15)) (fun _ => rfl)).view.loc (V d (cV L) (jV L)) ↦[((oM).slice (Rect.unit (s := S327680x128) (k0_off2 L 9472#32) S64x128.size (k0_off2_inb L 15)) (fun _ => rfl)).view.set]{fullShare} f : sProp 𝕄)) = piece d (widL L) f 148 := by
  rw [set_off2_15 L, oChunkC_set, piece_of_lt]
theorem piece_off2_16 (d : Dev nD) (L : grid0.Coords) (f : Buf (Elt F) (oLoc d)) :
    ((((oM).slice (Rect.unit (s := S327680x128) (k0_off2 L 9792#32) S64x128.size (k0_off2_inb L 16)) (fun _ => rfl)).view.loc (V d (cV L) (jV L)) ↦[((oM).slice (Rect.unit (s := S327680x128) (k0_off2 L 9792#32) S64x128.size (k0_off2_inb L 16)) (fun _ => rfl)).view.set]{fullShare} f : sProp 𝕄)) = piece d (widL L) f 153 := by
  rw [set_off2_16 L, oChunkC_set, piece_of_lt]
theorem piece_off2_17 (d : Dev nD) (L : grid0.Coords) (f : Buf (Elt F) (oLoc d)) :
    ((((oM).slice (Rect.unit (s := S327680x128) (k0_off2 L 9536#32) S64x128.size (k0_off2_inb L 17)) (fun _ => rfl)).view.loc (V d (cV L) (jV L)) ↦[((oM).slice (Rect.unit (s := S327680x128) (k0_off2 L 9536#32) S64x128.size (k0_off2_inb L 17)) (fun _ => rfl)).view.set]{fullShare} f : sProp 𝕄)) = piece d (widL L) f 149 := by
  rw [set_off2_17 L, oChunkC_set, piece_of_lt]
theorem piece_off2_18 (d : Dev nD) (L : grid0.Coords) (f : Buf (Elt F) (oLoc d)) :
    ((((oM).slice (Rect.unit (s := S327680x128) (k0_off2 L 9856#32) S64x128.size (k0_off2_inb L 18)) (fun _ => rfl)).view.loc (V d (cV L) (jV L)) ↦[((oM).slice (Rect.unit (s := S327680x128) (k0_off2 L 9856#32) S64x128.size (k0_off2_inb L 18)) (fun _ => rfl)).view.set]{fullShare} f : sProp 𝕄)) = piece d (widL L) f 154 := by
  rw [set_off2_18 L, oChunkC_set, piece_of_lt]
theorem piece_off2_19 (d : Dev nD) (L : grid0.Coords) (f : Buf (Elt F) (oLoc d)) :
    ((((oM).slice (Rect.unit (s := S327680x128) (k0_off2 L 9920#32) S64x128.size (k0_off2_inb L 19)) (fun _ => rfl)).view.loc (V d (cV L) (jV L)) ↦[((oM).slice (Rect.unit (s := S327680x128) (k0_off2 L 9920#32) S64x128.size (k0_off2_inb L 19)) (fun _ => rfl)).view.set]{fullShare} f : sProp 𝕄)) = piece d (widL L) f 155 := by
  rw [set_off2_19 L, oChunkC_set, piece_of_lt]
theorem piece_off2_20 (d : Dev nD) (L : grid0.Coords) (f : Buf (Elt F) (oLoc d)) :
    ((((oM).slice (Rect.unit (s := S327680x128) (k0_off2 L 9984#32) S64x128.size (k0_off2_inb L 20)) (fun _ => rfl)).view.loc (V d (cV L) (jV L)) ↦[((oM).slice (Rect.unit (s := S327680x128) (k0_off2 L 9984#32) S64x128.size (k0_off2_inb L 20)) (fun _ => rfl)).view.set]{fullShare} f : sProp 𝕄)) = piece d (widL L) f 156 := by
  rw [set_off2_20 L, oChunkC_set, piece_of_lt]
theorem piece_off2_21 (d : Dev nD) (L : grid0.Coords) (f : Buf (Elt F) (oLoc d)) :
    ((((oM).slice (Rect.unit (s := S327680x128) (k0_off2 L 10048#32) S64x128.size (k0_off2_inb L 21)) (fun _ => rfl)).view.loc (V d (cV L) (jV L)) ↦[((oM).slice (Rect.unit (s := S327680x128) (k0_off2 L 10048#32) S64x128.size (k0_off2_inb L 21)) (fun _ => rfl)).view.set]{fullShare} f : sProp 𝕄)) = piece d (widL L) f 157 := by
  rw [set_off2_21 L, oChunkC_set, piece_of_lt]
theorem piece_off2_22 (d : Dev nD) (L : grid0.Coords) (f : Buf (Elt F) (oLoc d)) :
    ((((oM).slice (Rect.unit (s := S327680x128) (k0_off2 L 10112#32) S64x128.size (k0_off2_inb L 22)) (fun _ => rfl)).view.loc (V d (cV L) (jV L)) ↦[((oM).slice (Rect.unit (s := S327680x128) (k0_off2 L 10112#32) S64x128.size (k0_off2_inb L 22)) (fun _ => rfl)).view.set]{fullShare} f : sProp 𝕄)) = piece d (widL L) f 158 := by
  rw [set_off2_22 L, oChunkC_set, piece_of_lt]
theorem piece_off2_23 (d : Dev nD) (L : grid0.Coords) (f : Buf (Elt F) (oLoc d)) :
    ((((oM).slice (Rect.unit (s := S327680x128) (k0_off2 L 10176#32) S64x128.size (k0_off2_inb L 23)) (fun _ => rfl)).view.loc (V d (cV L) (jV L)) ↦[((oM).slice (Rect.unit (s := S327680x128) (k0_off2 L 10176#32) S64x128.size (k0_off2_inb L 23)) (fun _ => rfl)).view.set]{fullShare} f : sProp 𝕄)) = piece d (widL L) f 159 := by
  rw [set_off2_23 L, oChunkC_set, piece_of_lt]

theorem piece_off4_0 (d : Dev nD) (L : grid0.Coords) (k : Fin k0_t1_loop.trips) (f : Buf (Elt F) (oLoc d)) :
    ((((oM).slice (Rect.unit (s := S327680x128) (k0_off4 L k 0#32) S64x128.size (k0_off4_inb L k 0)) (fun _ => rfl)).view.loc (V d (cV L) (jV L)) ↦[((oM).slice (Rect.unit (s := S327680x128) (k0_off4 L k 0#32) S64x128.size (k0_off4_inb L k 0)) (fun _ => rfl)).view.set]{fullShare} f : sProp 𝕄)) = piece d (widL L) f (10 * k.val + 0 + 10) := by
  rw [set_off4_0 L k, oChunkC_set, piece_of_lt]
theorem piece_off4_1 (d : Dev nD) (L : grid0.Coords) (k : Fin k0_t1_loop.trips) (f : Buf (Elt F) (oLoc d)) :
    ((((oM).slice (Rect.unit (s := S327680x128) (k0_off4 L k 1#32) S64x128.size (k0_off4_inb L k 1)) (fun _ => rfl)).view.loc (V d (cV L) (jV L)) ↦[((oM).slice (Rect.unit (s := S327680x128) (k0_off4 L k 1#32) S64x128.size (k0_off4_inb L k 1)) (fun _ => rfl)).view.set]{fullShare} f : sProp 𝕄)) = piece d (widL L) f (10 * k.val + 1 + 10) := by
  rw [set_off4_1 L k, oChunkC_set, piece_of_lt]
theorem piece_off4_2 (d : Dev nD) (L : grid0.Coords) (k : Fin k0_t1_loop.trips) (f : Buf (Elt F) (oLoc d)) :
    ((((oM).slice (Rect.unit (s := S327680x128) (k0_off4 L k 2#32) S64x128.size (k0_off4_inb L k 2)) (fun _ => rfl)).view.loc (V d (cV L) (jV L)) ↦[((oM).slice (Rect.unit (s := S327680x128) (k0_off4 L k 2#32) S64x128.size (k0_off4_inb L k 2)) (fun _ => rfl)).view.set]{fullShare} f : sProp 𝕄)) = piece d (widL L) f (10 * k.val + 2 + 10) := by
  rw [set_off4_2 L k, oChunkC_set, piece_of_lt]
theorem piece_off4_3 (d : Dev nD) (L : grid0.Coords) (k : Fin k0_t1_loop.trips) (f : Buf (Elt F) (oLoc d)) :
    ((((oM).slice (Rect.unit (s := S327680x128) (k0_off4 L k 3#32) S64x128.size (k0_off4_inb L k 3)) (fun _ => rfl)).view.loc (V d (cV L) (jV L)) ↦[((oM).slice (Rect.unit (s := S327680x128) (k0_off4 L k 3#32) S64x128.size (k0_off4_inb L k 3)) (fun _ => rfl)).view.set]{fullShare} f : sProp 𝕄)) = piece d (widL L) f (10 * k.val + 3 + 10) := by
  rw [set_off4_3 L k, oChunkC_set, piece_of_lt]
theorem piece_off4_4 (d : Dev nD) (L : grid0.Coords) (k : Fin k0_t1_loop.trips) (f : Buf (Elt F) (oLoc d)) :
    ((((oM).slice (Rect.unit (s := S327680x128) (k0_off4 L k 4#32) S64x128.size (k0_off4_inb L k 4)) (fun _ => rfl)).view.loc (V d (cV L) (jV L)) ↦[((oM).slice (Rect.unit (s := S327680x128) (k0_off4 L k 4#32) S64x128.size (k0_off4_inb L k 4)) (fun _ => rfl)).view.set]{fullShare} f : sProp 𝕄)) = piece d (widL L) f (10 * k.val + 4 + 10) := by
  rw [set_off4_4 L k, oChunkC_set, piece_of_lt]
theorem piece_off4_5 (d : Dev nD) (L : grid0.Coords) (k : Fin k0_t1_loop.trips) (f : Buf (Elt F) (oLoc d)) :
    ((((oM).slice (Rect.unit (s := S327680x128) (k0_off4 L k 5#32) S64x128.size (k0_off4_inb L k 5)) (fun _ => rfl)).view.loc (V d (cV L) (jV L)) ↦[((oM).slice (Rect.unit (s := S327680x128) (k0_off4 L k 5#32) S64x128.size (k0_off4_inb L k 5)) (fun _ => rfl)).view.set]{fullShare} f : sProp 𝕄)) = piece d (widL L) f (10 * k.val + 5 + 10) := by
  rw [set_off4_5 L k, oChunkC_set, piece_of_lt]
theorem piece_off4_6 (d : Dev nD) (L : grid0.Coords) (k : Fin k0_t1_loop.trips) (f : Buf (Elt F) (oLoc d)) :
    ((((oM).slice (Rect.unit (s := S327680x128) (k0_off4 L k 6#32) S64x128.size (k0_off4_inb L k 6)) (fun _ => rfl)).view.loc (V d (cV L) (jV L)) ↦[((oM).slice (Rect.unit (s := S327680x128) (k0_off4 L k 6#32) S64x128.size (k0_off4_inb L k 6)) (fun _ => rfl)).view.set]{fullShare} f : sProp 𝕄)) = piece d (widL L) f (10 * k.val + 6 + 10) := by
  rw [set_off4_6 L k, oChunkC_set, piece_of_lt]
theorem piece_off4_7 (d : Dev nD) (L : grid0.Coords) (k : Fin k0_t1_loop.trips) (f : Buf (Elt F) (oLoc d)) :
    ((((oM).slice (Rect.unit (s := S327680x128) (k0_off4 L k 7#32) S64x128.size (k0_off4_inb L k 7)) (fun _ => rfl)).view.loc (V d (cV L) (jV L)) ↦[((oM).slice (Rect.unit (s := S327680x128) (k0_off4 L k 7#32) S64x128.size (k0_off4_inb L k 7)) (fun _ => rfl)).view.set]{fullShare} f : sProp 𝕄)) = piece d (widL L) f (10 * k.val + 7 + 10) := by
  rw [set_off4_7 L k, oChunkC_set, piece_of_lt]
theorem piece_off4_8 (d : Dev nD) (L : grid0.Coords) (k : Fin k0_t1_loop.trips) (f : Buf (Elt F) (oLoc d)) :
    ((((oM).slice (Rect.unit (s := S327680x128) (k0_off4 L k 8#32) S64x128.size (k0_off4_inb L k 8)) (fun _ => rfl)).view.loc (V d (cV L) (jV L)) ↦[((oM).slice (Rect.unit (s := S327680x128) (k0_off4 L k 8#32) S64x128.size (k0_off4_inb L k 8)) (fun _ => rfl)).view.set]{fullShare} f : sProp 𝕄)) = piece d (widL L) f (10 * k.val + 8 + 10) := by
  rw [set_off4_8 L k, oChunkC_set, piece_of_lt]
theorem piece_off4_9 (d : Dev nD) (L : grid0.Coords) (k : Fin k0_t1_loop.trips) (f : Buf (Elt F) (oLoc d)) :
    ((((oM).slice (Rect.unit (s := S327680x128) (k0_off4 L k 9#32) S64x128.size (k0_off4_inb L k 9)) (fun _ => rfl)).view.loc (V d (cV L) (jV L)) ↦[((oM).slice (Rect.unit (s := S327680x128) (k0_off4 L k 9#32) S64x128.size (k0_off4_inb L k 9)) (fun _ => rfl)).view.set]{fullShare} f : sProp 𝕄)) = piece d (widL L) f (10 * k.val + 9 + 10) := by
  rw [set_off4_9 L k, oChunkC_set, piece_of_lt]

theorem piece_chunkC (d : Dev nD) (L : grid0.Coords) (g : ℕ) (hg : g < 160) (f : Buf (Elt F) (oLoc d)) :
    (((oChunkC L g hg).view.loc (V d (cV L) (jV L)) ↦[(oChunkC L g hg).view.set]{fullShare} f : sProp 𝕄)) = piece d (widL L) f g := by
  rw [oChunkC_set, piece_of_lt]

theorem piece_chunkC' (d : Dev nD) (L : grid0.Coords) (g : ℕ) (hg : g < 160) (f : Buf (Elt F) (oLoc d)) :
    (((oM).view.loc (V d (cV L) (jV L)) ↦[(oChunkC L g hg).view.set]{fullShare} f : sProp 𝕄)) = piece d (widL L) f g := by
  rw [oChunkC_set, piece_of_lt]

variable [FloatOps F]

/-! ## The worker's share in the thread's spelling -/

omit [FloatOps F] in
theorem pts_x3 (d : Dev nD) (L : grid0.Coords) (f : Buf (Elt F) (x3Loc d)) :
    (((x3RowM L).view.loc (V d (cV L) (jV L)) ↦[(x3RowM L).view.set]{fullShare} f : sProp 𝕄)) = (x3Loc d ↦[x3Set d (widL L)]{fullShare} f) := by
  rw [x3Row_set d L]
omit [FloatOps F] in
theorem pts_w (d : Dev nD) (L : grid0.Coords) (q : PosShare TreeShare) (f : Buf (Elt F) (wLoc d)) :
    (((wM).view.loc (V d (cV L) (jV L)) ↦{q} f : sProp 𝕄)) = (wLoc d ↦{q} f) := by
  simp only [Memref.view_whole, View.set_whole]

/-! ## Ranges of chunk numbers written out -/

omit [FloatOps F] in
/-- The naturals below `n + 4`: those below `n`, then four written out. -/
theorem bigSep_range_succ4 {Φ : ℕ → sProp 𝕄} (n : ℕ) :
    bigSep (Finset.range (n + 4)) Φ = iprop(bigSep (Finset.range n) Φ ∗ Φ n ∗ Φ (n + 1) ∗ Φ (n + 2) ∗ Φ (n + 3)) := by
  rw [Finset.range_eq_Ico, bigSep_Ico_split 0 n (n + 4) (Nat.zero_le _) (Nat.le_add_right _ _),
    bigSep_Ico_succ (show n < n + 4 by omega), bigSep_Ico_succ (show n + 1 < n + 4 by omega),
    bigSep_Ico_succ (show n + 1 + 1 < n + 4 by omega), show n + 4 = n + 1 + 1 + 1 + 1 from rfl, bigSep_Ico_one,
    ← Finset.range_eq_Ico]

omit [FloatOps F] in
/-- A worker's 160 chunks: those below 146, then the fourteen from 146 on written out. -/
theorem bigSep_range160 {Φ : ℕ → sProp 𝕄} :
    bigSep (Finset.range 160) Φ
      = iprop((bigSep (Finset.range 146) Φ ∗ Φ 146 ∗ Φ 147 ∗ Φ 148 ∗ Φ 149) ∗
          Φ 150 ∗ Φ 151 ∗ Φ 152 ∗ Φ 153 ∗ Φ 154 ∗ Φ 155 ∗ Φ 156 ∗ Φ 157 ∗ Φ 158 ∗ Φ 159) := by
  rw [show (160 : ℕ) = 150 + 10 from rfl, bigSep_range_succ10 150, show (150 : ℕ) = 146 + 4 from rfl, bigSep_range_succ4 146]

/-! ## Helpers for the loop's entry -/

omit [FloatOps F] in
theorem bigSep_range6 (Φ : ℕ → sProp 𝕄) :
    bigSep (Finset.range 6) Φ = iprop(Φ 0 ∗ Φ 1 ∗ Φ 2 ∗ Φ 3 ∗ Φ 4 ∗ Φ 5) := by
  rw [show Finset.range 6 = {0, 1, 2, 3, 4, 5} by decide]
  repeat rw [SparseCore.bigSep_insert' (by decide)]
  rw [bigSep_singleton]

omit [FloatOps F] in
/-- Chunk 0, written out and agreeing with the target on its rows, is the done piece 0. -/
theorem done_off2_0 (d : Dev nD) (L : grid0.Coords) (X3d : Buf (Elt F) (x3Loc d)) (Wc : Buf (Elt F) (wLoc d)) (f : Buf (Elt F) (oLoc d))
    (hf : OutIs (widL L) X3d Wc 0 f) :
    ((((oM).slice (Rect.unit (s := S327680x128) (k0_off2 L 0#32) S64x128.size (k0_off2_inb L 0)) (fun _ => rfl)).view.loc (V d (cV L) (jV L)) ↦[((oM).slice (Rect.unit (s := S327680x128) (k0_off2 L 0#32) S64x128.size (k0_off2_inb L 0)) (fun _ => rfl)).view.set]{fullShare} f : sProp 𝕄))
      ⊢ piece d (widL L) (Cert.Spec.gathered X3d Wc) 0 :=
  Entails.of_eq ((piece_off2_0 d L f).trans (piece_done d L X3d Wc 0 f hf))
omit [FloatOps F] in
/-- Chunk 1, written out and agreeing with the target on its rows, is the done piece 1. -/
theorem done_off2_1 (d : Dev nD) (L : grid0.Coords) (X3d : Buf (Elt F) (x3Loc d)) (Wc : Buf (Elt F) (wLoc d)) (f : Buf (Elt F) (oLoc d))
    (hf : OutIs (widL L) X3d Wc 1 f) :
    ((((oM).slice (Rect.unit (s := S327680x128) (k0_off2 L 64#32) S64x128.size (k0_off2_inb L 1)) (fun _ => rfl)).view.loc (V d (cV L) (jV L)) ↦[((oM).slice (Rect.unit (s := S327680x128) (k0_off2 L 64#32) S64x128.size (k0_off2_inb L 1)) (fun _ => rfl)).view.set]{fullShare} f : sProp 𝕄))
      ⊢ piece d (widL L) (Cert.Spec.gathered X3d Wc) 1 :=
  Entails.of_eq ((piece_off2_1 d L f).trans (piece_done d L X3d Wc 1 f hf))
omit [FloatOps F] in
/-- Chunk 2, written out and agreeing with the target on its rows, is the done piece 2. -/
theorem done_off2_2 (d : Dev nD) (L : grid0.Coords) (X3d : Buf (Elt F) (x3Loc d)) (Wc : Buf (Elt F) (wLoc d)) (f : Buf (Elt F) (oLoc d))
    (hf : OutIs (widL L) X3d Wc 2 f) :
    ((((oM).slice (Rect.unit (s := S327680x128) (k0_off2 L 128#32) S64x128.size (k0_off2_inb L 2)) (fun _ => rfl)).view.loc (V d (cV L) (jV L)) ↦[((oM).slice (Rect.unit (s := S327680x128) (k0_off2 L 128#32) S64x128.size (k0_off2_inb L 2)) (fun _ => rfl)).view.set]{fullShare} f : sProp 𝕄))
      ⊢ piece d (widL L) (Cert.Spec.gathered X3d Wc) 2 :=
  Entails.of_eq ((piece_off2_2 d L f).trans (piece_done d L X3d Wc 2 f hf))
omit [FloatOps F] in
/-- Chunk 3, written out and agreeing with the target on its rows, is the done piece 3. -/
theorem done_off2_3 (d : Dev nD) (L : grid0.Coords) (X3d : Buf (Elt F) (x3Loc d)) (Wc : Buf (Elt F) (wLoc d)) (f : Buf (Elt F) (oLoc d))
    (hf : OutIs (widL L) X3d Wc 3 f) :
    ((((oM).slice (Rect.unit (s := S327680x128) (k0_off2 L 192#32) S64x128.size (k0_off2_inb L 3)) (fun _ => rfl)).view.loc (V d (cV L) (jV L)) ↦[((oM).slice (Rect.unit (s := S327680x128) (k0_off2 L 192#32) S64x128.size (k0_off2_inb L 3)) (fun _ => rfl)).view.set]{fullShare} f : sProp 𝕄))
      ⊢ piece d (widL L) (Cert.Spec.gathered X3d Wc) 3 :=
  Entails.of_eq ((piece_off2_3 d L f).trans (piece_done d L X3d Wc 3 f hf))
omit [FloatOps F] in
/-- Chunk 4, written out and agreeing with the target on its rows, is the done piece 4. -/
theorem done_off2_4 (d : Dev nD) (L : grid0.Coords) (X3d : Buf (Elt F) (x3Loc d)) (Wc : Buf (Elt F) (wLoc d)) (f : Buf (Elt F) (oLoc d))
    (hf : OutIs (widL L) X3d Wc 4 f) :
    ((((oM).slice (Rect.unit (s := S327680x128) (k0_off2 L 256#32) S64x128.size (k0_off2_inb L 4)) (fun _ => rfl)).view.loc (V d (cV L) (jV L)) ↦[((oM).slice (Rect.unit (s := S327680x128) (k0_off2 L 256#32) S64x128.size (k0_off2_inb L 4)) (fun _ => rfl)).view.set]{fullShare} f : sProp 𝕄))
      ⊢ piece d (widL L) (Cert.Spec.gathered X3d Wc) 4 :=
  Entails.of_eq ((piece_off2_4 d L f).trans (piece_done d L X3d Wc 4 f hf))
omit [FloatOps F] in
/-- Chunk 5, written out and agreeing with the target on its rows, is the done piece 5. -/
theorem done_off2_5 (d : Dev nD) (L : grid0.Coords) (X3d : Buf (Elt F) (x3Loc d)) (Wc : Buf (Elt F) (wLoc d)) (f : Buf (Elt F) (oLoc d))
    (hf : OutIs (widL L) X3d Wc 5 f) :
    ((((oM).slice (Rect.unit (s := S327680x128) (k0_off2 L 320#32) S64x128.size (k0_off2_inb L 5)) (fun _ => rfl)).view.loc (V d (cV L) (jV L)) ↦[((oM).slice (Rect.unit (s := S327680x128) (k0_off2 L 320#32) S64x128.size (k0_off2_inb L 5)) (fun _ => rfl)).view.set]{fullShare} f : sProp 𝕄))
      ⊢ piece d (widL L) (Cert.Spec.gathered X3d Wc) 5 :=
  Entails.of_eq ((piece_off2_5 d L f).trans (piece_done d L X3d Wc 5 f hf))

set_option maxHeartbeats 4000000 in
/-- One worker's task. -/
theorem tileBody (m : (ℓ : Loc nD τ sig) → Buf (Elt F) ℓ) (X3 : (d : Dev nD) → Buf (Elt F) (x3Loc d))
    (hx3 : ∀ d, Cert.Spec.InRange (X3 d)) : TileBody m X3 := by
  intro d L O W hO
  unfold tileIn tileOut
  rw [(K (F := F)).scopedBufs_V facts d (cV L) (jV L), SparseCore.Cfg.scopedSems0_V (Val := Elt F) d (cV L) (jV L), ownSems0_V, ownBufs_V]
  unfold bodyAt
  iintro ⟨#Hlv, -, ⟨Hx3, Hw, Ho⟩, ⟨⟨%fi, Hi⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩⟩, ⟨Hs0, Hs1, Hs2, Hs3, Hs4, Hs5, Hs6, Hs7, Hs8, Hs9, Hs10, Hs11, Hs12, Hs13, Hs14, Hs15, Hs16, Hs17, Hs18, Hs19, Hs20⟩, HO⟩
  ihave Hmw := ((K (F := F)).mayWaits_none (thr := V d (cV L) (jV L)) hO) $$ Hlv
  ihave Hx3 := (Entails.of_eq (pts_x3 d L (X3 d)).symm) $$ Hx3
  ihave Hw := (Entails.of_eq (pts_w d L (wTok (widL L)) (m (wLoc d))).symm) $$ Hw
  -- the output block as its 160 chunk pieces; the first ten in the program's spelling
  ihave Ho := (Entails.of_eq (block_pieces d (widL L) (m (oLoc d)))) $$ Ho
  ihave Ho := (Entails.of_eq ((bigSep_range_eq_Ico 160).trans (bigSep_Ico_split 0 10 160 (by omega) (by omega)))) $$ Ho
  icases Ho with ⟨Ho, Hpend⟩
  ihave Ho := (Entails.of_eq (bigSep_Ico10 0)) $$ Ho
  icases Ho with ⟨Ho0, Ho1, Ho2, Ho3, Ho4, Ho5, Ho6, Ho7, Ho8, Ho9⟩
  ihave Ho0 := (Entails.of_eq (piece_off2_0 d L (m (oLoc d))).symm) $$ Ho0
  ihave Ho1 := (Entails.of_eq (piece_off2_1 d L (m (oLoc d))).symm) $$ Ho1
  ihave Ho2 := (Entails.of_eq (piece_off2_2 d L (m (oLoc d))).symm) $$ Ho2
  ihave Ho3 := (Entails.of_eq (piece_off2_3 d L (m (oLoc d))).symm) $$ Ho3
  ihave Ho4 := (Entails.of_eq (piece_off2_4 d L (m (oLoc d))).symm) $$ Ho4
  ihave Ho5 := (Entails.of_eq (piece_off2_5 d L (m (oLoc d))).symm) $$ Ho5
  ihave Ho6 := (Entails.of_eq (piece_off2_6 d L (m (oLoc d))).symm) $$ Ho6
  ihave Ho7 := (Entails.of_eq (piece_off2_7 d L (m (oLoc d))).symm) $$ Ho7
  ihave Ho8 := (Entails.of_eq (piece_off2_8 d L (m (oLoc d))).symm) $$ Ho8
  ihave Ho9 := (Entails.of_eq (piece_off2_9 d L (m (oLoc d))).symm) $$ Ho9
  ihave Hi := (Entails.of_eq (show ((((V d (cV L) (jV L)).loc cc0_scratch0 ↦{fullShare} fi) : sProp 𝕄)) = ((ixM).view.loc (V d (cV L) (jV L)) ↦{fullShare} fi) from rfl)) $$ Hi
  ihave Hb0 := (Entails.of_eq (show ((((V d (cV L) (jV L)).loc cc0_scratch1 ↦{fullShare} fb0) : sProp 𝕄)) = ((bM0).view.loc (V d (cV L) (jV L)) ↦{fullShare} fb0) from rfl)) $$ Hb0
  ihave Hb1 := (Entails.of_eq (show ((((V d (cV L) (jV L)).loc cc0_scratch2 ↦{fullShare} fb1) : sProp 𝕄)) = ((bM1).view.loc (V d (cV L) (jV L)) ↦{fullShare} fb1) from rfl)) $$ Hb1
  ihave Hb2 := (Entails.of_eq (show ((((V d (cV L) (jV L)).loc cc0_scratch3 ↦{fullShare} fb2) : sProp 𝕄)) = ((bM2).view.loc (V d (cV L) (jV L)) ↦{fullShare} fb2) from rfl)) $$ Hb2
  ihave Hb3 := (Entails.of_eq (show ((((V d (cV L) (jV L)).loc cc0_scratch4 ↦{fullShare} fb3) : sProp 𝕄)) = ((bM3).view.loc (V d (cV L) (jV L)) ↦{fullShare} fb3) from rfl)) $$ Hb3
  ihave Hb4 := (Entails.of_eq (show ((((V d (cV L) (jV L)).loc cc0_scratch5 ↦{fullShare} fb4) : sProp 𝕄)) = ((bM4).view.loc (V d (cV L) (jV L)) ↦{fullShare} fb4) from rfl)) $$ Hb4
  ihave Hb5 := (Entails.of_eq (show ((((V d (cV L) (jV L)).loc cc0_scratch6 ↦{fullShare} fb5) : sProp 𝕄)) = ((bM5).view.loc (V d (cV L) (jV L)) ↦{fullShare} fb5) from rfl)) $$ Hb5
  ihave Hb6 := (Entails.of_eq (show ((((V d (cV L) (jV L)).loc cc0_scratch7 ↦{fullShare} fb6) : sProp 𝕄)) = ((bM6).view.loc (V d (cV L) (jV L)) ↦{fullShare} fb6) from rfl)) $$ Hb6
  ihave Hb7 := (Entails.of_eq (show ((((V d (cV L) (jV L)).loc cc0_scratch8 ↦{fullShare} fb7) : sProp 𝕄)) = ((bM7).view.loc (V d (cV L) (jV L)) ↦{fullShare} fb7) from rfl)) $$ Hb7
  ihave Hb8 := (Entails.of_eq (show ((((V d (cV L) (jV L)).loc cc0_scratch9 ↦{fullShare} fb8) : sProp 𝕄)) = ((bM8).view.loc (V d (cV L) (jV L)) ↦{fullShare} fb8) from rfl)) $$ Hb8
  ihave Hb9 := (Entails.of_eq (show ((((V d (cV L) (jV L)).loc cc0_scratch10 ↦{fullShare} fb9) : sProp 𝕄)) = ((bM9).view.loc (V d (cV L) (jV L)) ↦{fullShare} fb9) from rfl)) $$ Hb9
  sl_unfold [cc0_body]
  sl_exec
  sl_unfold_run_names
  -- the row-number scratch now holds the worker's row of row numbers
  have hXI : (ixM).view.write (Elt F) fi (ReadAs.same.apply ((x3RowM L).view.read (Elt F) (X3 d))) Finset.univ = ReadAs.same.apply ((x3RowM L).view.read (Elt F) (X3 d)) := View.write_whole_univ _ _ _
  have hHi : (((ixM).view.loc (V d (cV L) (jV L)) ↦{fullShare} (ixM).view.write (Elt F) fi (ReadAs.same.apply ((x3RowM L).view.read (Elt F) (X3 d))) Finset.univ) : sProp 𝕄)
      = ((ixM).view.loc (V d (cV L) (jV L)) ↦{fullShare} ((x3RowM L).view.read (Elt F) (X3 d))) := by rw [hXI]
  ihave Hi := (Entails.of_eq hHi) $$ Hi
  -- every list of row numbers read out of it names rows of the table
  have hinAll : ∀ (off : Fin 2 → ℕ) (h : ∀ a, off a + S1x64.size a ≤ S160x64.size a) (x : S64.Idx),
      ((((ixM).slice (Rect.unit (s := S160x64) off S1x64.size h) (fun _ => rfl)).squeeze S64 squeezes_S1x64_S64).view.read (Elt F)
        ((x3RowM L).view.read (Elt F) (X3 d)) x).toNat < 100000 := by
    intro off h x
    rw [View.read_apply, View.read_apply]
    exact hx3 d _
  -- read shares of the table and of the row-number scratch, one per gather semaphore
  ihave Hw' := ((Transfers.pointsTo_toks_range (wTok (widL L)) 10).1) $$ Hw
  icases Hw' with ⟨Hwd, Hwt⟩
  ihave Hwt := (Entails.of_eq (bigSep_range10 _)) $$ Hwt
  icases Hwt with ⟨Hw0, Hw1, Hw2, Hw3, Hw4, Hw5, Hw6, Hw7, Hw8, Hw9⟩
  ihave Hi' := ((Transfers.pointsTo_toks_range fullShare 10).1) $$ Hi
  icases Hi' with ⟨Hid, Hit⟩
  ihave Hit := (Entails.of_eq (bigSep_range10 _)) $$ Hit
  icases Hit with ⟨Hi0, Hi1, Hi2, Hi3, Hi4, Hi5, Hi6, Hi7, Hi8, Hi9⟩
  sl_exec
  sl_for (Inv d L O W (wTok (widL L)) (X3 d) (m (wLoc d)) (m (oLoc d))) $$ [Hx3 Hs20 Hwd Ho0 Ho1 Ho2 Ho3 Ho4 Ho5 Hs0 Hs1 Hs2 Hs3 Hs4 Hs5 Hs6 Hs7 Hs8 Hs9 Hs10 Hs11 Hs12 Hs13 Hs14 Hs15 Hs16 Hs17 Hs18 Hs19 Hw0 Hw1 Hw2 Hw3 Hw4 Hw5 Hw6 Hw7 Hw8 Hw9 Hb0 Hb1 Hb2 Hb3 Hb4 Hb5 Hb6 Hb7 Hb8 Hb9 Hi0 Hi1 Hi2 Hi3 Hi4 Hi5 Hi6 Hi7 Hi8 Hi9 Hid HO Hpend]
  case region =>
    intro k acc
    have hk14 : k.val < 14 := trip_lt k
    unfold Inv
    iintro ⟨%hk, %t0, %t1, %t2, %t3, %t4, %t5, %t6, %t7, %t8, %t9, %t10, %p0, %p1, %p2, %p3, %p4, %p5, %o6, %o7, %o8, %o9, %j6, %j7, %j8, %j9, %W', HO, #Hmw, Hx3, Hs20, Hwd, Hg0, Hw0, Hi0, Hb0, Hws0, Hg1, Hw1, Hi1, Hb1, Hws1, Hg2, Hw2, Hi2, Hb2, Hws2, Hg3, Hw3, Hi3, Hb3, Hws3, Hg4, Hw4, Hi4, Hb4, Hws4, Hg5, Hw5, Hi5, Hb5, Hws5, Hf6, Hb6, Hw6, Hgs6, Hf7, Hb7, Hw7, Hgs7, Hf8, Hb8, Hw8, Hgs8, Hf9, Hb9, Hw9, Hgs9, Hi6, Hi7, Hi8, Hi9, Hi10, Hjoin, Hpend, Hdone, %hW', %hp0, %hp1, %hp2, %hp3, %hp4, %hp5, %ho6, %ho7, %ho8, %ho9⟩
    -- this trip's ten chunks, out of the pending ones, in the program's spelling
    ihave Hpend := (Entails.of_eq (bigSep_Ico_split (10 * (k.val + 1)) (10 * (k.val + 1) + 10) 160 (by omega) (by omega))) $$ Hpend
    icases Hpend with ⟨Hp, Hpend⟩
    ihave Hp := (Entails.of_eq (bigSep_Ico10 (10 * (k.val + 1)))) $$ Hp
    icases Hp with ⟨Hp0, Hp1, Hp2, Hp3, Hp4, Hp5, Hp6, Hp7, Hp8, Hp9⟩
    have hq0 : (piece d (widL L) (m (oLoc d)) (10 * (k.val + 1)) : sProp 𝕄) = (((oM).slice (Rect.unit (s := S327680x128) (k0_off4 L k 0#32) S64x128.size (k0_off4_inb L k 0)) (fun _ => rfl)).view.loc (V d (cV L) (jV L)) ↦[((oM).slice (Rect.unit (s := S327680x128) (k0_off4 L k 0#32) S64x128.size (k0_off4_inb L k 0)) (fun _ => rfl)).view.set]{fullShare} (m (oLoc d))) := by
      rw [show 10 * (k.val + 1) = 10 * k.val + 0 + 10 by omega]; exact (piece_off4_0 d L k (m (oLoc d))).symm
    ihave Hp0 := (Entails.of_eq hq0) $$ Hp0
    have hq1 : (piece d (widL L) (m (oLoc d)) (10 * (k.val + 1) + 1) : sProp 𝕄) = (((oM).slice (Rect.unit (s := S327680x128) (k0_off4 L k 1#32) S64x128.size (k0_off4_inb L k 1)) (fun _ => rfl)).view.loc (V d (cV L) (jV L)) ↦[((oM).slice (Rect.unit (s := S327680x128) (k0_off4 L k 1#32) S64x128.size (k0_off4_inb L k 1)) (fun _ => rfl)).view.set]{fullShare} (m (oLoc d))) := by
      rw [show 10 * (k.val + 1) + 1 = 10 * k.val + 1 + 10 by omega]; exact (piece_off4_1 d L k (m (oLoc d))).symm
    ihave Hp1 := (Entails.of_eq hq1) $$ Hp1
    have hq2 : (piece d (widL L) (m (oLoc d)) (10 * (k.val + 1) + 2) : sProp 𝕄) = (((oM).slice (Rect.unit (s := S327680x128) (k0_off4 L k 2#32) S64x128.size (k0_off4_inb L k 2)) (fun _ => rfl)).view.loc (V d (cV L) (jV L)) ↦[((oM).slice (Rect.unit (s := S327680x128) (k0_off4 L k 2#32) S64x128.size (k0_off4_inb L k 2)) (fun _ => rfl)).view.set]{fullShare} (m (oLoc d))) := by
      rw [show 10 * (k.val + 1) + 2 = 10 * k.val + 2 + 10 by omega]; exact (piece_off4_2 d L k (m (oLoc d))).symm
    ihave Hp2 := (Entails.of_eq hq2) $$ Hp2
    have hq3 : (piece d (widL L) (m (oLoc d)) (10 * (k.val + 1) + 3) : sProp 𝕄) = (((oM).slice (Rect.unit (s := S327680x128) (k0_off4 L k 3#32) S64x128.size (k0_off4_inb L k 3)) (fun _ => rfl)).view.loc (V d (cV L) (jV L)) ↦[((oM).slice (Rect.unit (s := S327680x128) (k0_off4 L k 3#32) S64x128.size (k0_off4_inb L k 3)) (fun _ => rfl)).view.set]{fullShare} (m (oLoc d))) := by
      rw [show 10 * (k.val + 1) + 3 = 10 * k.val + 3 + 10 by omega]; exact (piece_off4_3 d L k (m (oLoc d))).symm
    ihave Hp3 := (Entails.of_eq hq3) $$ Hp3
    have hq4 : (piece d (widL L) (m (oLoc d)) (10 * (k.val + 1) + 4) : sProp 𝕄) = (((oM).slice (Rect.unit (s := S327680x128) (k0_off4 L k 4#32) S64x128.size (k0_off4_inb L k 4)) (fun _ => rfl)).view.loc (V d (cV L) (jV L)) ↦[((oM).slice (Rect.unit (s := S327680x128) (k0_off4 L k 4#32) S64x128.size (k0_off4_inb L k 4)) (fun _ => rfl)).view.set]{fullShare} (m (oLoc d))) := by
      rw [show 10 * (k.val + 1) + 4 = 10 * k.val + 4 + 10 by omega]; exact (piece_off4_4 d L k (m (oLoc d))).symm
    ihave Hp4 := (Entails.of_eq hq4) $$ Hp4
    have hq5 : (piece d (widL L) (m (oLoc d)) (10 * (k.val + 1) + 5) : sProp 𝕄) = (((oM).slice (Rect.unit (s := S327680x128) (k0_off4 L k 5#32) S64x128.size (k0_off4_inb L k 5)) (fun _ => rfl)).view.loc (V d (cV L) (jV L)) ↦[((oM).slice (Rect.unit (s := S327680x128) (k0_off4 L k 5#32) S64x128.size (k0_off4_inb L k 5)) (fun _ => rfl)).view.set]{fullShare} (m (oLoc d))) := by
      rw [show 10 * (k.val + 1) + 5 = 10 * k.val + 5 + 10 by omega]; exact (piece_off4_5 d L k (m (oLoc d))).symm
    ihave Hp5 := (Entails.of_eq hq5) $$ Hp5
    have hq6 : (piece d (widL L) (m (oLoc d)) (10 * (k.val + 1) + 6) : sProp 𝕄) = (((oM).slice (Rect.unit (s := S327680x128) (k0_off4 L k 6#32) S64x128.size (k0_off4_inb L k 6)) (fun _ => rfl)).view.loc (V d (cV L) (jV L)) ↦[((oM).slice (Rect.unit (s := S327680x128) (k0_off4 L k 6#32) S64x128.size (k0_off4_inb L k 6)) (fun _ => rfl)).view.set]{fullShare} (m (oLoc d))) := by
      rw [show 10 * (k.val + 1) + 6 = 10 * k.val + 6 + 10 by omega]; exact (piece_off4_6 d L k (m (oLoc d))).symm
    ihave Hp6 := (Entails.of_eq hq6) $$ Hp6
    have hq7 : (piece d (widL L) (m (oLoc d)) (10 * (k.val + 1) + 7) : sProp 𝕄) = (((oM).slice (Rect.unit (s := S327680x128) (k0_off4 L k 7#32) S64x128.size (k0_off4_inb L k 7)) (fun _ => rfl)).view.loc (V d (cV L) (jV L)) ↦[((oM).slice (Rect.unit (s := S327680x128) (k0_off4 L k 7#32) S64x128.size (k0_off4_inb L k 7)) (fun _ => rfl)).view.set]{fullShare} (m (oLoc d))) := by
      rw [show 10 * (k.val + 1) + 7 = 10 * k.val + 7 + 10 by omega]; exact (piece_off4_7 d L k (m (oLoc d))).symm
    ihave Hp7 := (Entails.of_eq hq7) $$ Hp7
    have hq8 : (piece d (widL L) (m (oLoc d)) (10 * (k.val + 1) + 8) : sProp 𝕄) = (((oM).slice (Rect.unit (s := S327680x128) (k0_off4 L k 8#32) S64x128.size (k0_off4_inb L k 8)) (fun _ => rfl)).view.loc (V d (cV L) (jV L)) ↦[((oM).slice (Rect.unit (s := S327680x128) (k0_off4 L k 8#32) S64x128.size (k0_off4_inb L k 8)) (fun _ => rfl)).view.set]{fullShare} (m (oLoc d))) := by
      rw [show 10 * (k.val + 1) + 8 = 10 * k.val + 8 + 10 by omega]; exact (piece_off4_8 d L k (m (oLoc d))).symm
    ihave Hp8 := (Entails.of_eq hq8) $$ Hp8
    have hq9 : (piece d (widL L) (m (oLoc d)) (10 * (k.val + 1) + 9) : sProp 𝕄) = (((oM).slice (Rect.unit (s := S327680x128) (k0_off4 L k 9#32) S64x128.size (k0_off4_inb L k 9)) (fun _ => rfl)).view.loc (V d (cV L) (jV L)) ↦[((oM).slice (Rect.unit (s := S327680x128) (k0_off4 L k 9#32) S64x128.size (k0_off4_inb L k 9)) (fun _ => rfl)).view.set]{fullShare} (m (oLoc d))) := by
      rw [show 10 * (k.val + 1) + 9 = 10 * k.val + 9 + 10 by omega]; exact (piece_off4_9 d L k (m (oLoc d))).symm
    ihave Hp9 := (Entails.of_eq hq9) $$ Hp9
    sl_exec
    sl_step
    have hk' : k.val + 1 ≤ 14 := by omega
    iexists hk', t10, t0, t1, t2, t3, t4, t5, t6, t7, t8, t9, _, _, _, _, _, _, _, _, _, _, _, _, _, _, _
    have eI0 : (((ixM).slice (Rect.unit (s := S160x64) (k0_off6 k 4#32) S1x64.size (k0_off6_inb k 4)) (fun _ => rfl)).squeeze S64 squeezes_S1x64_S64).view.set = (idxRowC (10 * (k.val + 1 + 1) + 0) (ltg0 hk')).view.set := by
      rw [set_off6_4 k (k0_off6_inb k 4)]; exact idxRow_set_congr _ _ (by congr 1)
    have eI1 : (((ixM).slice (Rect.unit (s := S160x64) (k0_off6 k 5#32) S1x64.size (k0_off6_inb k 5)) (fun _ => rfl)).squeeze S64 squeezes_S1x64_S64).view.set = (idxRowC (10 * (k.val + 1 + 1) + 1) (ltg1 hk')).view.set := by
      rw [set_off6_5 k (k0_off6_inb k 5)]; exact idxRow_set_congr _ _ (by congr 1)
    have eI2 : (((ixM).slice (Rect.unit (s := S160x64) (k0_off6 k 6#32) S1x64.size (k0_off6_inb k 6)) (fun _ => rfl)).squeeze S64 squeezes_S1x64_S64).view.set = (idxRowC (10 * (k.val + 1 + 1) + 2) (ltg2 hk')).view.set := by
      rw [set_off6_6 k (k0_off6_inb k 6)]; exact idxRow_set_congr _ _ (by congr 1)
    have eI3 : (((ixM).slice (Rect.unit (s := S160x64) (k0_off6 k 7#32) S1x64.size (k0_off6_inb k 7)) (fun _ => rfl)).squeeze S64 squeezes_S1x64_S64).view.set = (idxRowC (10 * (k.val + 1 + 1) + 3) (ltg3 hk')).view.set := by
      rw [set_off6_7 k (k0_off6_inb k 7)]; exact idxRow_set_congr _ _ (by congr 1)
    have eI4 : (((ixM).slice (Rect.unit (s := S160x64) (k0_off6 k 8#32) S1x64.size (k0_off6_inb k 8)) (fun _ => rfl)).squeeze S64 squeezes_S1x64_S64).view.set = (idxRowC (10 * (k.val + 1 + 1) + 4) (ltg4 hk')).view.set := by
      rw [set_off6_8 k (k0_off6_inb k 8)]; exact idxRow_set_congr _ _ (by congr 1)
    have eI5 : (((ixM).slice (Rect.unit (s := S160x64) (k0_off6 k 9#32) S1x64.size (k0_off6_inb k 9)) (fun _ => rfl)).squeeze S64 squeezes_S1x64_S64).view.set = (idxRowC (10 * (k.val + 1 + 1) + 5) (ltg5 hk')).view.set := by
      rw [set_off6_9 k (k0_off6_inb k 9)]; exact idxRow_set_congr _ _ (by congr 1)
    have eO6 : @Eq (Finset S327680x128.Idx) ((oM).slice (Rect.unit (s := S327680x128) (k0_off4 L k 6#32) S64x128.size (k0_off4_inb L k 6)) (fun _ => rfl)).view.set (oChunkC L (10 * (k.val + 1) + 6) (ltw6 hk')).view.set := by
      rw [set_off4_6 L k]; exact oChunk_set_congr _ _ (by congr 1)
    have eO7 : @Eq (Finset S327680x128.Idx) ((oM).slice (Rect.unit (s := S327680x128) (k0_off4 L k 7#32) S64x128.size (k0_off4_inb L k 7)) (fun _ => rfl)).view.set (oChunkC L (10 * (k.val + 1) + 7) (ltw7 hk')).view.set := by
      rw [set_off4_7 L k]; exact oChunk_set_congr _ _ (by congr 1)
    have eO8 : @Eq (Finset S327680x128.Idx) ((oM).slice (Rect.unit (s := S327680x128) (k0_off4 L k 8#32) S64x128.size (k0_off4_inb L k 8)) (fun _ => rfl)).view.set (oChunkC L (10 * (k.val + 1) + 8) (ltw8 hk')).view.set := by
      rw [set_off4_8 L k]; exact oChunk_set_congr _ _ (by congr 1)
    have eO9 : @Eq (Finset S327680x128.Idx) ((oM).slice (Rect.unit (s := S327680x128) (k0_off4 L k 9#32) S64x128.size (k0_off4_inb L k 9)) (fun _ => rfl)).view.set (oChunkC L (10 * (k.val + 1) + 9) (ltw9 hk')).view.set := by
      rw [set_off4_9 L k]; exact oChunk_set_congr _ _ (by congr 1)
    isplitl [HO]; · iexact HO
    isplitr; · iexact Hmw
    isplitl [Hx3]; · iexact Hx3
    isplitl [Hs20]; · iexact Hs20
    isplitl [Hwd]; · iexact Hwd
    isplitl [Hg0]; · irw [← eI0]; iexact Hg0
    isplitl [Hw0]; · iexact Hw0
    isplitl [Hi10]; · irw [← eI0]; iexact Hi10
    isplitl [Hb0]; · iexact Hb0
    isplitl [Hws0]; · iexact Hws0
    isplitl [Hg1]; · irw [← eI1]; iexact Hg1
    isplitl [Hw1]; · iexact Hw1
    isplitl [Hi0]; · irw [← eI1]; iexact Hi0
    isplitl [Hb1]; · iexact Hb1
    isplitl [Hws1]; · iexact Hws1
    isplitl [Hg2]; · irw [← eI2]; iexact Hg2
    isplitl [Hw2]; · iexact Hw2
    isplitl [Hi1]; · irw [← eI2]; iexact Hi1
    isplitl [Hb2]; · iexact Hb2
    isplitl [Hws2]; · iexact Hws2
    isplitl [Hg3]; · irw [← eI3]; iexact Hg3
    isplitl [Hw3]; · iexact Hw3
    isplitl [Hi2]; · irw [← eI3]; iexact Hi2
    isplitl [Hb3]; · iexact Hb3
    isplitl [Hws3]; · iexact Hws3
    isplitl [Hg4]; · irw [← eI4]; iexact Hg4
    isplitl [Hw4]; · iexact Hw4
    isplitl [Hi3]; · irw [← eI4]; iexact Hi3
    isplitl [Hb4]; · iexact Hb4
    isplitl [Hws4]; · iexact Hws4
    isplitl [Hg5]; · irw [← eI5]; iexact Hg5
    isplitl [Hw5]; · iexact Hw5
    isplitl [Hi4]; · irw [← eI5]; iexact Hi4
    isplitl [Hb5]; · iexact Hb5
    isplitl [Hws5]; · iexact Hws5
    isplitl [Hf6]; · irw [← eO6]; iexact Hf6
    isplitl [Hb6]; · iexact Hb6
    isplitl [Hw6]; · iexact Hw6
    isplitl [Hgs6]; · iexact Hgs6
    isplitl [Hf7]; · irw [← eO7]; iexact Hf7
    isplitl [Hb7]; · iexact Hb7
    isplitl [Hw7]; · iexact Hw7
    isplitl [Hgs7]; · iexact Hgs7
    isplitl [Hf8]; · irw [← eO8]; iexact Hf8
    isplitl [Hb8]; · iexact Hb8
    isplitl [Hw8]; · iexact Hw8
    isplitl [Hgs8]; · iexact Hgs8
    isplitl [Hf9]; · irw [← eO9]; iexact Hf9
    isplitl [Hb9]; · iexact Hb9
    isplitl [Hw9]; · iexact Hw9
    isplitl [Hgs9]; · iexact Hgs9
    isplitl [Hi5]; · iexact Hi5
    isplitl [Hi6]; · iexact Hi6
    isplitl [Hi7]; · iexact Hi7
    isplitl [Hi8]; · iexact Hi8
    isplitl [Hi9]; · iexact Hi9
    isplitl [Hjoin]
    · unfold IdxJoin
      iintro ⟨J10, J0, J1, J2, J3, J4, J5, J6, J7, J8, J9⟩
      iapply Hjoin
      isplitl [J0]; · iexact J0
      isplitl [J1]; · iexact J1
      isplitl [J2]; · iexact J2
      isplitl [J3]; · iexact J3
      isplitl [J4]; · iexact J4
      isplitl [J5]; · iexact J5
      isplitl [J6]; · iexact J6
      isplitl [J7]; · iexact J7
      isplitl [J8]; · iexact J8
      isplitl [J9]; · iexact J9
      iexact J10
    isplitl [Hpend]
    · irw [show 10 * (k.val + 1 + 1) = 10 * (k.val + 1) + 10 by omega]; iexact Hpend
    isplitl [Hdone Hf6_dst Hf7_dst Hf8_dst Hf9_dst Hp0 Hp1 Hp2 Hp3 Hp4 Hp5]
    · irw [show 10 * (k.val + 1) + 6 = (10 * k.val + 6) + 10 by omega, bigSep_range_succ10]
      isplitl [Hdone]; · iexact Hdone
      isplitl [Hf6_dst]; · iapply (Entails.of_eq ((piece_chunkC' d L (10 * k.val + 6) (ltw6 hk) o6).trans ((piece_done d L (X3 d) (m (wLoc d)) (10 * k.val + 6) o6 ho6).trans (by rw [show 10 * k.val + 6 = 10 * k.val + 6 by omega])))); iexact Hf6_dst
      isplitl [Hf7_dst]; · iapply (Entails.of_eq ((piece_chunkC' d L (10 * k.val + 7) (ltw7 hk) o7).trans ((piece_done d L (X3 d) (m (wLoc d)) (10 * k.val + 7) o7 ho7).trans (by rw [show 10 * k.val + 6 + 1 = 10 * k.val + 7 by omega])))); iexact Hf7_dst
      isplitl [Hf8_dst]; · iapply (Entails.of_eq ((piece_chunkC' d L (10 * k.val + 8) (ltw8 hk) o8).trans ((piece_done d L (X3 d) (m (wLoc d)) (10 * k.val + 8) o8 ho8).trans (by rw [show 10 * k.val + 6 + 2 = 10 * k.val + 8 by omega])))); iexact Hf8_dst
      isplitl [Hf9_dst]; · iapply (Entails.of_eq ((piece_chunkC' d L (10 * k.val + 9) (ltw9 hk) o9).trans ((piece_done d L (X3 d) (m (wLoc d)) (10 * k.val + 9) o9 ho9).trans (by rw [show 10 * k.val + 6 + 3 = 10 * k.val + 9 by omega])))); iexact Hf9_dst
      isplitl [Hp0]; · iapply (Entails.of_eq (((piece_off4_0 d L k _).trans (piece_done d L (X3 d) (m (wLoc d)) (10 * k.val + 0 + 10) _ (outIs_off4_0 L (X3 d) (m (wLoc d)) k _ (by omega) _ _ hp0))).trans (by rw [show 10 * k.val + 6 + 4 = 10 * k.val + 0 + 10 by omega]))); iexact Hp0
      isplitl [Hp1]; · iapply (Entails.of_eq (((piece_off4_1 d L k _).trans (piece_done d L (X3 d) (m (wLoc d)) (10 * k.val + 1 + 10) _ (outIs_off4_1 L (X3 d) (m (wLoc d)) k _ (by omega) _ _ hp1))).trans (by rw [show 10 * k.val + 6 + 5 = 10 * k.val + 1 + 10 by omega]))); iexact Hp1
      isplitl [Hp2]; · iapply (Entails.of_eq (((piece_off4_2 d L k _).trans (piece_done d L (X3 d) (m (wLoc d)) (10 * k.val + 2 + 10) _ (outIs_off4_2 L (X3 d) (m (wLoc d)) k _ (by omega) _ _ hp2))).trans (by rw [show 10 * k.val + 6 + 6 = 10 * k.val + 2 + 10 by omega]))); iexact Hp2
      isplitl [Hp3]; · iapply (Entails.of_eq (((piece_off4_3 d L k _).trans (piece_done d L (X3 d) (m (wLoc d)) (10 * k.val + 3 + 10) _ (outIs_off4_3 L (X3 d) (m (wLoc d)) k _ (by omega) _ _ hp3))).trans (by rw [show 10 * k.val + 6 + 7 = 10 * k.val + 3 + 10 by omega]))); iexact Hp3
      isplitl [Hp4]; · iapply (Entails.of_eq (((piece_off4_4 d L k _).trans (piece_done d L (X3 d) (m (wLoc d)) (10 * k.val + 4 + 10) _ (outIs_off4_4 L (X3 d) (m (wLoc d)) k _ (by omega) _ _ hp4))).trans (by rw [show 10 * k.val + 6 + 8 = 10 * k.val + 4 + 10 by omega]))); iexact Hp4
      · iapply (Entails.of_eq (((piece_off4_5 d L k _).trans (piece_done d L (X3 d) (m (wLoc d)) (10 * k.val + 5 + 10) _ (outIs_off4_5 L (X3 d) (m (wLoc d)) k _ (by omega) _ _ hp5))).trans (by rw [show 10 * k.val + 6 + 9 = 10 * k.val + 5 + 10 by omega]))); iexact Hp5
    isplitr
    · ipureintro; intro p hp
      repeat (rcases Finset.mem_insert.mp hp with rfl | hp; · exact .inr rfl)
      exact hW' p hp
    isplitr; · ipureintro; exact chunkIs_off6_4 L (X3 d) (m (wLoc d)) k _ (by omega) rfl _ _
    isplitr; · ipureintro; exact chunkIs_off6_5 L (X3 d) (m (wLoc d)) k _ (by omega) rfl _ _
    isplitr; · ipureintro; exact chunkIs_off6_6 L (X3 d) (m (wLoc d)) k _ (by omega) rfl _ _
    isplitr; · ipureintro; exact chunkIs_off6_7 L (X3 d) (m (wLoc d)) k _ (by omega) rfl _ _
    isplitr; · ipureintro; exact chunkIs_off6_8 L (X3 d) (m (wLoc d)) k _ (by omega) rfl _ _
    isplitr; · ipureintro; exact chunkIs_off6_9 L (X3 d) (m (wLoc d)) k _ (by omega) rfl _ _
    isplitr; · ipureintro; exact outIs_off4_6 L (X3 d) (m (wLoc d)) k _ (by omega) _ _ (chunkIs_off6_0 L (X3 d) (m (wLoc d)) k _ (by omega) rfl _ _)
    isplitr; · ipureintro; exact outIs_off4_7 L (X3 d) (m (wLoc d)) k _ (by omega) _ _ (chunkIs_off6_1 L (X3 d) (m (wLoc d)) k _ (by omega) rfl _ _)
    isplitr; · ipureintro; exact outIs_off4_8 L (X3 d) (m (wLoc d)) k _ (by omega) _ _ (chunkIs_off6_2 L (X3 d) (m (wLoc d)) k _ (by omega) rfl _ _)
    · ipureintro; exact outIs_off4_9 L (X3 d) (m (wLoc d)) k _ (by omega) _ _ (chunkIs_off6_3 L (X3 d) (m (wLoc d)) k _ (by omega) rfl _ _)
  · -- before the first trip
    -- the six chunks already written out are done pieces
    ihave Ho0 := (done_off2_0 d L (X3 d) (m (wLoc d)) _ (outIs_off2_0 L (X3 d) (m (wLoc d)) _ _ _ (chunkIs_of_gather_b1 L (X3 d) (m (wLoc d)) 0 _ _ rfl _ _ _))) $$ Ho0
    ihave Ho1 := (done_off2_1 d L (X3 d) (m (wLoc d)) _ (outIs_off2_1 L (X3 d) (m (wLoc d)) _ _ _ (chunkIs_of_gather_b2 L (X3 d) (m (wLoc d)) 1 _ _ rfl _ _ _))) $$ Ho1
    ihave Ho2 := (done_off2_2 d L (X3 d) (m (wLoc d)) _ (outIs_off2_2 L (X3 d) (m (wLoc d)) _ _ _ (chunkIs_of_gather_b3 L (X3 d) (m (wLoc d)) 2 _ _ rfl _ _ _))) $$ Ho2
    ihave Ho3 := (done_off2_3 d L (X3 d) (m (wLoc d)) _ (outIs_off2_3 L (X3 d) (m (wLoc d)) _ _ _ (chunkIs_of_gather_b4 L (X3 d) (m (wLoc d)) 3 _ _ rfl _ _ _))) $$ Ho3
    ihave Ho4 := (done_off2_4 d L (X3 d) (m (wLoc d)) _ (outIs_off2_4 L (X3 d) (m (wLoc d)) _ _ _ (chunkIs_of_gather_b5 L (X3 d) (m (wLoc d)) 4 _ _ rfl _ _ _))) $$ Ho4
    ihave Ho5 := (done_off2_5 d L (X3 d) (m (wLoc d)) _ (outIs_off2_5 L (X3 d) (m (wLoc d)) _ _ _ (chunkIs_of_gather_b6 L (X3 d) (m (wLoc d)) 5 _ _ rfl _ _ _))) $$ Ho5
    unfold Inv
    iexists (Nat.zero_le 14), Transfers.shareTokN fullShare 9, Transfers.shareDrop fullShare 10, Transfers.shareTokN fullShare 0, Transfers.shareTokN fullShare 1, Transfers.shareTokN fullShare 2, Transfers.shareTokN fullShare 3, Transfers.shareTokN fullShare 4, Transfers.shareTokN fullShare 5, Transfers.shareTokN fullShare 6, Transfers.shareTokN fullShare 7, Transfers.shareTokN fullShare 8, _, _, _, _, _, _, _, _, _, _, _, _, _, _, _
    have e6 : (oChunkC L (10 * 0 + 6) (ltw6 (Nat.zero_le 14))).view.set = ((oM).slice (Rect.unit (s := S327680x128) (k0_off2 L 384#32) S64x128.size (k0_off2_inb L 6)) (fun _ => rfl)).view.set := (set_off2_6 L).symm
    have e7 : (oChunkC L (10 * 0 + 7) (ltw7 (Nat.zero_le 14))).view.set = ((oM).slice (Rect.unit (s := S327680x128) (k0_off2 L 448#32) S64x128.size (k0_off2_inb L 7)) (fun _ => rfl)).view.set := (set_off2_7 L).symm
    have e8 : (oChunkC L (10 * 0 + 8) (ltw8 (Nat.zero_le 14))).view.set = ((oM).slice (Rect.unit (s := S327680x128) (k0_off2 L 512#32) S64x128.size (k0_off2_inb L 8)) (fun _ => rfl)).view.set := (set_off2_8 L).symm
    have e9 : (oChunkC L (10 * 0 + 9) (ltw9 (Nat.zero_le 14))).view.set = ((oM).slice (Rect.unit (s := S327680x128) (k0_off2 L 576#32) S64x128.size (k0_off2_inb L 9)) (fun _ => rfl)).view.set := (set_off2_9 L).symm
    irw [e6, e7, e8, e9]
    isplitl [HO]; · iexact HO
    isplitr; · iexact Hmw
    isplitl [Hx3]; · iexact Hx3
    isplitl [Hs20]; · iexact Hs20
    isplitl [Hwd]; · iexact Hwd
    -- slot 0: the gather of chunk 10 in flight
    isplitl [Hs0]; · iexact Hs0
    isplitl [Hw0]; · iexact Hw0
    isplitl [Hi9]; · iexact Hi9
    isplitl [Hb0]; · iexact Hb0
    isplitl [Hs10]; · iexact Hs10
    -- slot 1: the gather of chunk 11 in flight
    isplitl [Hs1]; · iexact Hs1
    isplitl [Hw1]; · iexact Hw1
    isplitl [Hid]; · iexact Hid
    isplitl [Hb1]; · iexact Hb1
    isplitl [Hs11]; · iexact Hs11
    -- slot 2: the gather of chunk 12 in flight
    isplitl [Hs2]; · iexact Hs2
    isplitl [Hw2]; · iexact Hw2
    isplitl [Hi0]; · iexact Hi0
    isplitl [Hb2]; · iexact Hb2
    isplitl [Hs12]; · iexact Hs12
    -- slot 3: the gather of chunk 13 in flight
    isplitl [Hs3]; · iexact Hs3
    isplitl [Hw3]; · iexact Hw3
    isplitl [Hi1]; · iexact Hi1
    isplitl [Hb3]; · iexact Hb3
    isplitl [Hs13]; · iexact Hs13
    -- slot 4: the gather of chunk 14 in flight
    isplitl [Hs4]; · iexact Hs4
    isplitl [Hw4]; · iexact Hw4
    isplitl [Hi2]; · iexact Hi2
    isplitl [Hb4]; · iexact Hb4
    isplitl [Hs14]; · iexact Hs14
    -- slot 5: the gather of chunk 15 in flight
    isplitl [Hs5]; · iexact Hs5
    isplitl [Hw5]; · iexact Hw5
    isplitl [Hi3]; · iexact Hi3
    isplitl [Hb5]; · iexact Hb5
    isplitl [Hs15]; · iexact Hs15
    -- slot 6: the copy-out of chunk 6 in flight
    isplitl [Hs16]; · iexact Hs16
    isplitl [Hb6]; · iexact Hb6
    isplitl [Hw6]; · iexact Hw6
    isplitl [Hs6]; · iexact Hs6
    -- slot 7: the copy-out of chunk 7 in flight
    isplitl [Hs17]; · iexact Hs17
    isplitl [Hb7]; · iexact Hb7
    isplitl [Hw7]; · iexact Hw7
    isplitl [Hs7]; · iexact Hs7
    -- slot 8: the copy-out of chunk 8 in flight
    isplitl [Hs18]; · iexact Hs18
    isplitl [Hb8]; · iexact Hb8
    isplitl [Hw8]; · iexact Hw8
    isplitl [Hs8]; · iexact Hs8
    -- slot 9: the copy-out of chunk 9 in flight
    isplitl [Hs19]; · iexact Hs19
    isplitl [Hb9]; · iexact Hb9
    isplitl [Hw9]; · iexact Hw9
    isplitl [Hs9]; · iexact Hs9
    -- the five free shares of the row-number scratch
    isplitl [Hi4]; · iexact Hi4
    isplitl [Hi5]; · iexact Hi5
    isplitl [Hi6]; · iexact Hi6
    isplitl [Hi7]; · iexact Hi7
    isplitl [Hi8]; · iexact Hi8
    -- the eleven shares are the remainder after ten tokens and the ten tokens
    isplitr
    · unfold IdxJoin
      iintro ⟨H9, Hd, H0, H1, H2, H3, H4, H5, H6, H7, H8⟩
      iapply ((Transfers.pointsTo_toks_range fullShare 10).2)
      isplitl [Hd]; · iexact Hd
      irw [bigSep_range10]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    -- the chunks still at the launch contents, and the done ones
    isplitl [Hpend]; · iexact Hpend
    isplitl [Ho0 Ho1 Ho2 Ho3 Ho4 Ho5]
    · have eR : Finset.range (10 * 0 + 6) = Finset.range 6 := rfl
      irw [eR, bigSep_range6]
      isplitl [Ho0]; · iexact Ho0
      isplitl [Ho1]; · iexact Ho1
      isplitl [Ho2]; · iexact Ho2
      isplitl [Ho3]; · iexact Ho3
      isplitl [Ho4]; · iexact Ho4
      iexact Ho5
    -- the pure facts
    isplitr
    · ipureintro
      intro p hp
      repeat (rcases Finset.mem_insert.mp hp with rfl | hp; · exact .inr rfl)
      exact .inl hp
    isplitr
    · ipureintro
      exact chunkIs_of_gather_b1 L (X3 d) (m (wLoc d)) 10 _ _ rfl _ _ _
    isplitr
    · ipureintro
      exact chunkIs_of_gather_b2 L (X3 d) (m (wLoc d)) 11 _ _ rfl _ _ _
    isplitr
    · ipureintro
      exact chunkIs_of_gather_b3 L (X3 d) (m (wLoc d)) 12 _ _ rfl _ _ _
    isplitr
    · ipureintro
      exact chunkIs_of_gather_b4 L (X3 d) (m (wLoc d)) 13 _ _ rfl _ _ _
    isplitr
    · ipureintro
      exact chunkIs_of_gather_b5 L (X3 d) (m (wLoc d)) 14 _ _ rfl _ _ _
    isplitr
    · ipureintro
      exact chunkIs_of_gather_b6 L (X3 d) (m (wLoc d)) 15 _ _ rfl _ _ _
    isplitr
    · ipureintro
      exact outIs_off2_6 L (X3 d) (m (wLoc d)) _ _ _ (chunkIs_of_gather_b7 L (X3 d) (m (wLoc d)) 6 _ _ rfl _ _ _)
    isplitr
    · ipureintro
      exact outIs_off2_7 L (X3 d) (m (wLoc d)) _ _ _ (chunkIs_of_gather_b8 L (X3 d) (m (wLoc d)) 7 _ _ rfl _ _ _)
    isplitr
    · ipureintro
      exact outIs_off2_8 L (X3 d) (m (wLoc d)) _ _ _ (chunkIs_of_gather_b9 L (X3 d) (m (wLoc d)) 8 _ _ rfl _ _ _)
    ipureintro
    exact outIs_off2_9 L (X3 d) (m (wLoc d)) _ _ _ (chunkIs_of_gather_b10 L (X3 d) (m (wLoc d)) 9 _ _ rfl _ _ _)
  -- after the last trip
  have htrips : Scf.trips k0_t1_loop.lb k0_t1_loop.ub k0_t1_loop.st = 14 := by decide
  irw [htrips]
  iintro %acc
  try unfold Inv
  iintro ⟨%hk, %t0, %t1, %t2, %t3, %t4, %t5, %t6, %t7, %t8, %t9, %t10, %p0, %p1, %p2, %p3, %p4, %p5, %o6, %o7, %o8, %o9, %j6, %j7, %j8, %j9, %W', HO, #Hmw, Hx3, Hs20, Hwd, Hg0, Hw0, Hi0, Hb0, Hws0, Hg1, Hw1, Hi1, Hb1, Hws1, Hg2, Hw2, Hi2, Hb2, Hws2, Hg3, Hw3, Hi3, Hb3, Hws3, Hg4, Hw4, Hi4, Hb4, Hws4, Hg5, Hw5, Hi5, Hb5, Hws5, Hf6, Hb6, Hw6, Hgs6, Hf7, Hb7, Hw7, Hgs7, Hf8, Hb8, Hw8, Hgs8, Hf9, Hb9, Hw9, Hgs9, Hi6, Hi7, Hi8, Hi9, Hi10, Hjoin, Hpend, Hdone, %hW', %hp0, %hp1, %hp2, %hp3, %hp4, %hp5, %ho6, %ho7, %ho8, %ho9⟩
  -- the ten pending chunks 150 … 159, in the spelling of the accesses after the loop
  ihave Hpend := (Entails.of_eq (show (bigSep (Finset.Ico (10 * (14 + 1)) 160) (piece d (widL L) (m (oLoc d))) : sProp 𝕄) = bigSep (Finset.Ico 150 (150 + 10)) (piece d (widL L) (m (oLoc d))) from rfl)) $$ Hpend
  ihave Hpend := (Entails.of_eq (bigSep_Ico10 150)) $$ Hpend
  icases Hpend with ⟨Hp0, Hp1, Hp2, Hp3, Hp4, Hp5, Hp6, Hp7, Hp8, Hp9⟩
  ihave Hp0 := (Entails.of_eq (show (piece d (widL L) (m (oLoc d)) (150 + 0) : sProp 𝕄) = _ from (piece_off2_10 d L (m (oLoc d))).symm)) $$ Hp0
  ihave Hp1 := (Entails.of_eq (show (piece d (widL L) (m (oLoc d)) (150 + 1) : sProp 𝕄) = _ from (piece_off2_12 d L (m (oLoc d))).symm)) $$ Hp1
  ihave Hp2 := (Entails.of_eq (show (piece d (widL L) (m (oLoc d)) (150 + 2) : sProp 𝕄) = _ from (piece_off2_14 d L (m (oLoc d))).symm)) $$ Hp2
  ihave Hp3 := (Entails.of_eq (show (piece d (widL L) (m (oLoc d)) (150 + 3) : sProp 𝕄) = _ from (piece_off2_16 d L (m (oLoc d))).symm)) $$ Hp3
  ihave Hp4 := (Entails.of_eq (show (piece d (widL L) (m (oLoc d)) (150 + 4) : sProp 𝕄) = _ from (piece_off2_18 d L (m (oLoc d))).symm)) $$ Hp4
  ihave Hp5 := (Entails.of_eq (show (piece d (widL L) (m (oLoc d)) (150 + 5) : sProp 𝕄) = _ from (piece_off2_19 d L (m (oLoc d))).symm)) $$ Hp5
  ihave Hp6 := (Entails.of_eq (show (piece d (widL L) (m (oLoc d)) (150 + 6) : sProp 𝕄) = _ from (piece_off2_20 d L (m (oLoc d))).symm)) $$ Hp6
  ihave Hp7 := (Entails.of_eq (show (piece d (widL L) (m (oLoc d)) (150 + 7) : sProp 𝕄) = _ from (piece_off2_21 d L (m (oLoc d))).symm)) $$ Hp7
  ihave Hp8 := (Entails.of_eq (show (piece d (widL L) (m (oLoc d)) (150 + 8) : sProp 𝕄) = _ from (piece_off2_22 d L (m (oLoc d))).symm)) $$ Hp8
  ihave Hp9 := (Entails.of_eq (show (piece d (widL L) (m (oLoc d)) (150 + 9) : sProp 𝕄) = _ from (piece_off2_23 d L (m (oLoc d))).symm)) $$ Hp9
  sl_exec
  sl_step
  sl_unfold_run_names
  unfold IdxJoin
  -- what the buffers hold when their copies go out: the rows their chunks name
  have hq0 : ChunkIs (widL L) (X3 d) (m (wLoc d)) 150 (ReadAs.same.apply (View.read (Elt F) (bM0).view p0)) := hp0
  have hq1 : ChunkIs (widL L) (X3 d) (m (wLoc d)) 151 (ReadAs.same.apply (View.read (Elt F) (bM1).view p1)) := hp1
  have hq2 : ChunkIs (widL L) (X3 d) (m (wLoc d)) 152 (ReadAs.same.apply (View.read (Elt F) (bM2).view p2)) := hp2
  have hq3 : ChunkIs (widL L) (X3 d) (m (wLoc d)) 153 (ReadAs.same.apply (View.read (Elt F) (bM3).view p3)) := hp3
  have hq4 : ChunkIs (widL L) (X3 d) (m (wLoc d)) 154 (ReadAs.same.apply (View.read (Elt F) (bM4).view p4)) := hp4
  have hq5 : ChunkIs (widL L) (X3 d) (m (wLoc d)) 155 (ReadAs.same.apply (View.read (Elt F) (bM5).view p5)) := hp5
  have hq6 := chunkIs_of_gather_b7 L (X3 d) (m (wLoc d)) 156 ![156, 0] inb_S160x64_S1x64_156_0 rfl rfl (hin_gather L (X3 d) (hx3 d) 156 (by omega) _ _ rfl) j6
  have hq7 := chunkIs_of_gather_b8 L (X3 d) (m (wLoc d)) 157 ![157, 0] inb_S160x64_S1x64_157_0 rfl rfl (hin_gather L (X3 d) (hx3 d) 157 (by omega) _ _ rfl) j7
  have hq8 := chunkIs_of_gather_b9 L (X3 d) (m (wLoc d)) 158 ![158, 0] inb_S160x64_S1x64_158_0 rfl rfl (hin_gather L (X3 d) (hx3 d) 158 (by omega) _ _ rfl) j8
  have hq9 := chunkIs_of_gather_b10 L (X3 d) (m (wLoc d)) 159 ![159, 0] inb_S160x64_S1x64_159_0 rfl rfl (hin_gather L (X3 d) (hx3 d) 159 (by omega) _ _ rfl) j9
  -- the worker's share
  isplitl [Hx3 Hwd Hw0 Hw1 Hw2 Hw3 Hw4 Hw5 Hw6 Hw7 Hw8 Hw9 Hdone Hf6_dst Hf7_dst Hf8_dst Hf9_dst Hp0 Hp1 Hp2 Hp3 Hp4 Hp5 Hp6 Hp7 Hp8 Hp9]
  · isplitl [Hx3]
    · iapply (Entails.of_eq (pts_x3 d L (X3 d))); iexact Hx3
    isplitl [Hwd Hw0 Hw1 Hw2 Hw3 Hw4 Hw5 Hw6 Hw7 Hw8 Hw9]
    · -- the table: the remainder and the ten read tokens are the worker's read share
      iapply (Entails.of_eq (pts_w d L (wTok (widL L)) (m (wLoc d))))
      iapply (Transfers.pointsTo_toks_range (wTok (widL L)) 10).2
      isplitl [Hwd]
      · iexact Hwd
      irw [bigSep_range10]
      isplitl [Hw0]
      · iexact Hw0
      isplitl [Hw1]
      · iexact Hw1
      isplitl [Hw2]
      · iexact Hw2
      isplitl [Hw3]
      · iexact Hw3
      isplitl [Hw4]
      · iexact Hw4
      isplitl [Hw5]
      · iexact Hw5
      isplitl [Hw6]
      · iexact Hw6
      isplitl [Hw7]
      · iexact Hw7
      isplitl [Hw8]
      · iexact Hw8
      iexact Hw9
    · -- the output: chunks below 146 were done, 146 … 149 and 150 … 159 finished after the loop
      irw [← pieces_all_done d (widL L) (Gfn m X3 d), bigSep_range160]
      isplitl [Hdone Hf6_dst Hf7_dst Hf8_dst Hf9_dst]
      · isplitl [Hdone]
        · iexact Hdone
        isplitl [Hf6_dst]
        · iapply (Entails.of_eq ((piece_chunkC' d L (10 * 14 + 6) (ltw6 hk) o6).trans (piece_done d L (X3 d) (m (wLoc d)) (10 * 14 + 6) o6 ho6))); iexact Hf6_dst
        isplitl [Hf7_dst]
        · iapply (Entails.of_eq ((piece_chunkC' d L (10 * 14 + 7) (ltw7 hk) o7).trans (piece_done d L (X3 d) (m (wLoc d)) (10 * 14 + 7) o7 ho7))); iexact Hf7_dst
        isplitl [Hf8_dst]
        · iapply (Entails.of_eq ((piece_chunkC' d L (10 * 14 + 8) (ltw8 hk) o8).trans (piece_done d L (X3 d) (m (wLoc d)) (10 * 14 + 8) o8 ho8))); iexact Hf8_dst
        · iapply (Entails.of_eq ((piece_chunkC' d L (10 * 14 + 9) (ltw9 hk) o9).trans (piece_done d L (X3 d) (m (wLoc d)) (10 * 14 + 9) o9 ho9))); iexact Hf9_dst
      isplitl [Hp0]
      · iapply (Entails.of_eq ((piece_off2_10 d L _).trans (piece_done d L (X3 d) (m (wLoc d)) 150 _ (outIs_off2_10 L (X3 d) (m (wLoc d)) (k0_off2_inb L 10) _ _ hq0)))); iexact Hp0
      isplitl [Hp1]
      · iapply (Entails.of_eq ((piece_off2_12 d L _).trans (piece_done d L (X3 d) (m (wLoc d)) 151 _ (outIs_off2_12 L (X3 d) (m (wLoc d)) (k0_off2_inb L 12) _ _ hq1)))); iexact Hp1
      isplitl [Hp2]
      · iapply (Entails.of_eq ((piece_off2_14 d L _).trans (piece_done d L (X3 d) (m (wLoc d)) 152 _ (outIs_off2_14 L (X3 d) (m (wLoc d)) (k0_off2_inb L 14) _ _ hq2)))); iexact Hp2
      isplitl [Hp3]
      · iapply (Entails.of_eq ((piece_off2_16 d L _).trans (piece_done d L (X3 d) (m (wLoc d)) 153 _ (outIs_off2_16 L (X3 d) (m (wLoc d)) (k0_off2_inb L 16) _ _ hq3)))); iexact Hp3
      isplitl [Hp4]
      · iapply (Entails.of_eq ((piece_off2_18 d L _).trans (piece_done d L (X3 d) (m (wLoc d)) 154 _ (outIs_off2_18 L (X3 d) (m (wLoc d)) (k0_off2_inb L 18) _ _ hq4)))); iexact Hp4
      isplitl [Hp5]
      · iapply (Entails.of_eq ((piece_off2_19 d L _).trans (piece_done d L (X3 d) (m (wLoc d)) 155 _ (outIs_off2_19 L (X3 d) (m (wLoc d)) (k0_off2_inb L 19) _ _ hq5)))); iexact Hp5
      isplitl [Hp6]
      · iapply (Entails.of_eq ((piece_off2_20 d L _).trans (piece_done d L (X3 d) (m (wLoc d)) 156 _ (outIs_off2_20 L (X3 d) (m (wLoc d)) (k0_off2_inb L 20) _ _ hq6)))); iexact Hp6
      isplitl [Hp7]
      · iapply (Entails.of_eq ((piece_off2_21 d L _).trans (piece_done d L (X3 d) (m (wLoc d)) 157 _ (outIs_off2_21 L (X3 d) (m (wLoc d)) (k0_off2_inb L 21) _ _ hq7)))); iexact Hp7
      isplitl [Hp8]
      · iapply (Entails.of_eq ((piece_off2_22 d L _).trans (piece_done d L (X3 d) (m (wLoc d)) 158 _ (outIs_off2_22 L (X3 d) (m (wLoc d)) (k0_off2_inb L 22) _ _ hq8)))); iexact Hp8
      · iapply (Entails.of_eq ((piece_off2_23 d L _).trans (piece_done d L (X3 d) (m (wLoc d)) 159 _ (outIs_off2_23 L (X3 d) (m (wLoc d)) (k0_off2_inb L 23) _ _ hq9)))); iexact Hp9
  -- the scratch buffers
  isplitl [Hi0 Hi1 Hi2 Hi3 Hi4 Hi5 Hi6 Hi7 Hi8 Hi9 Hi10 Hjoin Hb0 Hb1 Hb2 Hb3 Hb4 Hb5 Hb6 Hb7 Hb8 Hb9]
  · isplitl [Hi0 Hi1 Hi2 Hi3 Hi4 Hi5 Hi6 Hi7 Hi8 Hi9 Hi10 Hjoin]
    · iexists (View.read (Elt F) (x3RowM L).view (X3 d))
      iapply Hjoin
      isplitl [Hi0]
      · iexact Hi0
      isplitl [Hi1]
      · iexact Hi1
      isplitl [Hi2]
      · iexact Hi2
      isplitl [Hi3]
      · iexact Hi3
      isplitl [Hi4]
      · iexact Hi4
      isplitl [Hi5]
      · iexact Hi5
      isplitl [Hi6]
      · iexact Hi6
      isplitl [Hi7]
      · iexact Hi7
      isplitl [Hi8]
      · iexact Hi8
      isplitl [Hi9]
      · iexact Hi9
      iexact Hi10
    isplitl [Hb0]
    · iexists _; iexact Hb0
    isplitl [Hb1]
    · iexists _; iexact Hb1
    isplitl [Hb2]
    · iexists _; iexact Hb2
    isplitl [Hb3]
    · iexists _; iexact Hb3
    isplitl [Hb4]
    · iexists _; iexact Hb4
    isplitl [Hb5]
    · iexists _; iexact Hb5
    isplitl [Hb6]
    · iexists _; iexact Hb6
    isplitl [Hb7]
    · iexists _; iexact Hb7
    isplitl [Hb8]
    · iexists _; iexact Hb8
    · iexists _; iexact Hb9
  -- the semaphores, all at zero again
  isplitl [Hg0 Hg1 Hg2 Hg3 Hg4 Hg5 Hgs6 Hgs7 Hgs8 Hgs9 Hws0 Hws1 Hws2 Hws3 Hws4 Hws5 Hf6 Hf7 Hf8 Hf9 Hs20]
  · isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    isplitl [Hgs6]
    · iexact Hgs6
    isplitl [Hgs7]
    · iexact Hgs7
    isplitl [Hgs8]
    · iexact Hgs8
    isplitl [Hgs9]
    · iexact Hgs9
    isplitl [Hws0]
    · iexact Hws0
    isplitl [Hws1]
    · iexact Hws1
    isplitl [Hws2]
    · iexact Hws2
    isplitl [Hws3]
    · iexact Hws3
    isplitl [Hws4]
    · iexact Hws4
    isplitl [Hws5]
    · iexact Hws5
    isplitl [Hf6]
    · iexact Hf6
    isplitl [Hf7]
    · iexact Hf7
    isplitl [Hf8]
    · iexact Hf8
    isplitl [Hf9]
    · iexact Hf9
    iexact Hs20
  -- the waits recorded are the ones handed in, or at the local index
  iexists _
  isplitr
  rotate_left
  · iexact HO
  · ipureintro; intro p hp
    repeat (rcases Finset.mem_insert.mp hp with rfl | hp; · exact .inr rfl)
    exact hW' p hp

end Cert.KernelIdealRun

end
-- ==== Proof.lean ====
/- The five claims about the embedding lookup: the kernel, its idealization and the reference each run to completion leaving
   their two arguments unchanged; the idealization keeps the kernel's operations; and at the ideal instance the kernel's result and
   the reference's are the same function of arguments that agree — entry (i, j, d) is entry d of the row of the table that row
   number (i, j) names. Each is proved in Assemble.lean from the run of each program and the two index equations of the host
   reshapes. -/
import proofs.«207499_g15272903704957_cont_week2b_486_20_alg».proof.Defs
import proofs.«207499_g15272903704957_cont_week2b_486_20_alg».proof.Proof.Gen.Kernel
import proofs.«207499_g15272903704957_cont_week2b_486_20_alg».proof.Proof.Gen.Kernel.Skeleton
import proofs.«207499_g15272903704957_cont_week2b_486_20_alg».proof.Proof.Gen.KernelIdeal
import proofs.«207499_g15272903704957_cont_week2b_486_20_alg».proof.Proof.Gen.KernelIdeal.Skeleton
import proofs.«207499_g15272903704957_cont_week2b_486_20_alg».proof.Proof.Gen.ReferenceIdeal
import proofs.«207499_g15272903704957_cont_week2b_486_20_alg».proof.Proof.Gen.Pre_input_domain
import proofs.«207499_g15272903704957_cont_week2b_486_20_alg».proof.Proof.Assemble
import proofs.«207499_g15272903704957_cont_week2b_486_20_alg».proof.Proof.KernelRun.Body
import proofs.«207499_g15272903704957_cont_week2b_486_20_alg».proof.Proof.KernelIdealRun.Body
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    Cert.Assemble.frame_K (fun m X3 h => Cert.KernelRun.tileBody m X3 h),
    Cert.Assemble.frame_KI (fun m X3 h => Cert.KernelIdealRun.tileBody m X3 h),
    Cert.Assemble.frame_R,
    Cert.Assemble.preserves,
    Cert.Assemble.algebraic (fun m X3 h => Cert.KernelIdealRun.tileBody m X3 h)⟩

end Cert.Proof

end
